-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 99999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S100000x64 : Shape := ⟨2, ![100000, 64]⟩
abbrev S50000x128 : Shape := ⟨2, ![50000, 128]⟩
abbrev S4096x10 : Shape := ⟨2, ![4096, 10]⟩
abbrev S10x4096 : Shape := ⟨2, ![10, 4096]⟩
abbrev S_ : Shape := ⟨0, ![]⟩
abbrev S32x10x128 : Shape := ⟨3, ![32, 10, 128]⟩
abbrev S40960x128 : Shape := ⟨2, ![40960, 128]⟩
abbrev S10x128 : Shape := ⟨2, ![10, 128]⟩
abbrev S128x128 : Shape := ⟨2, ![128, 128]⟩
abbrev S1x10x128 : Shape := ⟨3, ![1, 10, 128]⟩
abbrev S1x128 : Shape := ⟨2, ![1, 128]⟩
abbrev S128 : Shape := ⟨1, ![128]⟩
abbrev S10x1x4096 : Shape := ⟨3, ![10, 1, 4096]⟩
abbrev S50x64x4096 : Shape := ⟨3, ![50, 64, 4096]⟩
abbrev S4096x128 : Shape := ⟨2, ![4096, 128]⟩
abbrev S1x1x4096 : Shape := ⟨3, ![1, 1, 4096]⟩
abbrev S1x64x4096 : Shape := ⟨3, ![1, 64, 4096]⟩
abbrev S4096 : Shape := ⟨1, ![4096]⟩
abbrev S4096x1 : Shape := ⟨2, ![4096, 1]⟩
abbrev S4096x64 : Shape := ⟨2, ![4096, 64]⟩
abbrev S64x4096 : Shape := ⟨2, ![64, 4096]⟩
abbrev S4096x50x64 : Shape := ⟨3, ![4096, 50, 64]⟩

abbrev nBuf : Table → Nat
  | .hbm => 49
  | .local .tc .vmem => 30
  | .local .scVector .vmem => 15
  | _ => 0

abbrev bufTy : (tb : Table) → Fin (nBuf tb) → BufTy
  | .hbm, ⟨0, _⟩ => ⟨S4096x50, .i32⟩
  | .hbm, ⟨1, _⟩ => ⟨S100000x64, .f32⟩
  | .hbm, ⟨2, _⟩ => ⟨S50000x128, .f32⟩
  | .hbm, ⟨3, _⟩ => ⟨S4096x10, .i32⟩
  | .hbm, ⟨4, _⟩ => ⟨S10x4096, .i32⟩
  | .hbm, ⟨5, _⟩ => ⟨S_, .i32⟩
  | .hbm, ⟨6, _⟩ => ⟨S10x4096, .i32⟩
  | .hbm, ⟨7, _⟩ => ⟨S10x4096, .i32⟩
  | .hbm, ⟨8, _⟩ => ⟨S32x10x128, .i32⟩
  | .hbm, ⟨9, _⟩ => ⟨S40960x128, .f32⟩
  | .hbm, ⟨10, _⟩ => ⟨S4096x10, .i32⟩
  | .hbm, ⟨11, _⟩ => ⟨S10x4096, .i32⟩
  | .hbm, ⟨12, _⟩ => ⟨S_, .i32⟩
  | .hbm, ⟨13, _⟩ => ⟨S10x4096, .i32⟩
  | .hbm, ⟨14, _⟩ => ⟨S10x4096, .i32⟩
  | .hbm, ⟨15, _⟩ => ⟨S32x10x128, .i32⟩
  | .hbm, ⟨16, _⟩ => ⟨S40960x128, .f32⟩
  | .hbm, ⟨17, _⟩ => ⟨S4096x10, .i32⟩
  | .hbm, ⟨18, _⟩ => ⟨S10x4096, .i32⟩
  | .hbm, ⟨19, _⟩ => ⟨S_, .i32⟩
  | .hbm, ⟨20, _⟩ => ⟨S10x4096, .i32⟩
  | .hbm, ⟨21, _⟩ => ⟨S10x4096, .i32⟩
  | .hbm, ⟨22, _⟩ => ⟨S32x10x128, .i32⟩
  | .hbm, ⟨23, _⟩ => ⟨S40960x128, .f32⟩
  | .hbm, ⟨24, _⟩ => ⟨S4096x10, .i32⟩
  | .hbm, ⟨25, _⟩ => ⟨S10x4096, .i32⟩
  | .hbm, ⟨26, _⟩ => ⟨S_, .i32⟩
  | .hbm, ⟨27, _⟩ => ⟨S10x4096, .i32⟩
  | .hbm, ⟨28, _⟩ => ⟨S10x4096, .i32⟩
  | .hbm, ⟨29, _⟩ => ⟨S32x10x128, .i32⟩
  | .hbm, ⟨30, _⟩ => ⟨S40960x128, .f32⟩
  | .hbm, ⟨31, _⟩ => ⟨S4096x10, .i32⟩
  | .hbm, ⟨32, _⟩ => ⟨S10x4096, .i32⟩
  | .hbm, ⟨33, _⟩ => ⟨S_, .i32⟩
  | .hbm, ⟨34, _⟩ => ⟨S10x4096, .i32⟩
  | .hbm, ⟨35, _⟩ => ⟨S10x4096, .i32⟩
  | .hbm, ⟨36, _⟩ => ⟨S32x10x128, .i32⟩
  | .hbm, ⟨37, _⟩ => ⟨S40960x128, .f32⟩
  | .hbm, ⟨38, _⟩ => ⟨S10x1x4096, .i32⟩
  | .hbm, ⟨39, _⟩ => ⟨S50x64x4096, .f32⟩
  | .hbm, ⟨40, _⟩ => ⟨S10x1x4096, .i32⟩
  | .hbm, ⟨41, _⟩ => ⟨S50x64x4096, .f32⟩
  | .hbm, ⟨42, _⟩ => ⟨S10x1x4096, .i32⟩
  | .hbm, ⟨43, _⟩ => ⟨S50x64x4096, .f32⟩
  | .hbm, ⟨44, _⟩ => ⟨S10x1x4096, .i32⟩
  | .hbm, ⟨45, _⟩ => ⟨S50x64x4096, .f32⟩
  | .hbm, ⟨46, _⟩ => ⟨S10x1x4096, .i32⟩
  | .hbm, ⟨47, _⟩ => ⟨S50x64x4096, .f32⟩
  | .hbm, ⟨48, _⟩ => ⟨S4096x50x64, .f32⟩
  | .local .tc .vmem, ⟨0, _⟩ => ⟨S4096x128, .f32⟩
  | .local .tc .vmem, ⟨1, _⟩ => ⟨S4096x128, .f32⟩
  | .local .tc .vmem, ⟨2, _⟩ => ⟨S1x1x4096, .i32⟩
  | .local .tc .vmem, ⟨3, _⟩ => ⟨S1x1x4096, .i32⟩
  | .local .tc .vmem, ⟨4, _⟩ => ⟨S1x64x4096, .f32⟩
  | .local .tc .vmem, ⟨5, _⟩ => ⟨S1x64x4096, .f32⟩
  | .local .tc .vmem, ⟨6, _⟩ => ⟨S4096x128, .f32⟩
  | .local .tc .vmem, ⟨7, _⟩ => ⟨S4096x128, .f32⟩
  | .local .tc .vmem, ⟨8, _⟩ => ⟨S1x1x4096, .i32⟩
  | .local .tc .vmem, ⟨9, _⟩ => ⟨S1x1x4096, .i32⟩
  | .local .tc .vmem, ⟨10, _⟩ => ⟨S1x64x4096, .f32⟩
  | .local .tc .vmem, ⟨11, _⟩ => ⟨S1x64x4096, .f32⟩
  | .local .tc .vmem, ⟨12, _⟩ => ⟨S4096x128, .f32⟩
  | .local .tc .vmem, ⟨13, _⟩ => ⟨S4096x128, .f32⟩
  | .local .tc .vmem, ⟨14, _⟩ => ⟨S1x1x4096, .i32⟩
  | .local .tc .vmem, ⟨15, _⟩ => ⟨S1x1x4096, .i32⟩
  | .local .tc .vmem, ⟨16, _⟩ => ⟨S1x64x4096, .f32⟩
  | .local .tc .vmem, ⟨17, _⟩ => ⟨S1x64x4096, .f32⟩
  | .local .tc .vmem, ⟨18, _⟩ => ⟨S4096x128, .f32⟩
  | .local .tc .vmem, ⟨19, _⟩ => ⟨S4096x128, .f32⟩
  | .local .tc .vmem, ⟨20, _⟩ => ⟨S1x1x4096, .i32⟩
  | .local .tc .vmem, ⟨21, _⟩ => ⟨S1x1x4096, .i32⟩
  | .local .tc .vmem, ⟨22, _⟩ => ⟨S1x64x4096, .f32⟩
  | .local .tc .vmem, ⟨23, _⟩ => ⟨S1x64x4096, .f32⟩
  | .local .tc .vmem, ⟨24, _⟩ => ⟨S4096x128, .f32⟩
  | .local .tc .vmem, ⟨25, _⟩ => ⟨S4096x128, .f32⟩
  | .local .tc .vmem, ⟨26, _⟩ => ⟨S1x1x4096, .i32⟩
  | .local .tc .vmem, ⟨27, _⟩ => ⟨S1x1x4096, .i32⟩
  | .local .tc .vmem, ⟨28, _⟩ => ⟨S1x64x4096, .f32⟩
  | .local .tc .vmem, ⟨29, _⟩ => ⟨S1x64x4096, .f32⟩
  | .local .scVector .vmem, ⟨0, _⟩ => ⟨S10x128, .i32⟩
  | .local .scVector .vmem, ⟨1, _⟩ => ⟨S128x128, .f32⟩
  | .local .scVector .vmem, ⟨2, _⟩ => ⟨S128x128, .f32⟩
  | .local .scVector .vmem, ⟨3, _⟩ => ⟨S10x128, .i32⟩
  | .local .scVector .vmem, ⟨4, _⟩ => ⟨S128x128, .f32⟩
  | .local .scVector .vmem, ⟨5, _⟩ => ⟨S128x128, .f32⟩
  | .local .scVector .vmem, ⟨6, _⟩ => ⟨S10x128, .i32⟩
  | .local .scVector .vmem, ⟨7, _⟩ => ⟨S128x128, .f32⟩
  | .local .scVector .vmem, ⟨8, _⟩ => ⟨S128x128, .f32⟩
  | .local .scVector .vmem, ⟨9, _⟩ => ⟨S10x128, .i32⟩
  | .local .scVector .vmem, ⟨10, _⟩ => ⟨S128x128, .f32⟩
  | .local .scVector .vmem, ⟨11, _⟩ => ⟨S128x128, .f32⟩
  | .local .scVector .vmem, ⟨12, _⟩ => ⟨S10x128, .i32⟩
  | .local .scVector .vmem, ⟨13, _⟩ => ⟨S128x128, .f32⟩
  | .local .scVector .vmem, ⟨14, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v0_scv : Ref sig .scVector := ⟨.hbm, 2, rfl⟩
abbrev main_v5_scv : Ref sig .scVector := ⟨.hbm, 8, rfl⟩
abbrev main_v6_scv : Ref sig .scVector := ⟨.hbm, 9, rfl⟩
abbrev main_v11_scv : Ref sig .scVector := ⟨.hbm, 15, rfl⟩
abbrev main_v12_scv : Ref sig .scVector := ⟨.hbm, 16, rfl⟩
abbrev main_v17_scv : Ref sig .scVector := ⟨.hbm, 22, rfl⟩
abbrev main_v18_scv : Ref sig .scVector := ⟨.hbm, 23, rfl⟩
abbrev main_v23_scv : Ref sig .scVector := ⟨.hbm, 29, rfl⟩
abbrev main_v24_scv : Ref sig .scVector := ⟨.hbm, 30, rfl⟩
abbrev main_v29_scv : Ref sig .scVector := ⟨.hbm, 36, rfl⟩
abbrev main_v30_scv : Ref sig .scVector := ⟨.hbm, 37, rfl⟩
abbrev cc5_stg0_0 : Ref sig .tc := ⟨.vmem, 0, rfl⟩
abbrev cc5_stg0_1 : Ref sig .tc := ⟨.vmem, 1, rfl⟩
abbrev cc5_stg1_0 : Ref sig .tc := ⟨.vmem, 2, rfl⟩
abbrev cc5_stg1_1 : Ref sig .tc := ⟨.vmem, 3, rfl⟩
abbrev cc5_stg2_0 : Ref sig .tc := ⟨.vmem, 4, rfl⟩
abbrev cc5_stg2_1 : Ref sig .tc := ⟨.vmem, 5, rfl⟩
abbrev cc6_stg0_0 : Ref sig .tc := ⟨.vmem, 6, rfl⟩
abbrev cc6_stg0_1 : Ref sig .tc := ⟨.vmem, 7, rfl⟩
abbrev cc6_stg1_0 : Ref sig .tc := ⟨.vmem, 8, rfl⟩
abbrev cc6_stg1_1 : Ref sig .tc := ⟨.vmem, 9, rfl⟩
abbrev cc6_stg2_0 : Ref sig .tc := ⟨.vmem, 10, rfl⟩
abbrev cc6_stg2_1 : Ref sig .tc := ⟨.vmem, 11, rfl⟩
abbrev cc7_stg0_0 : Ref sig .tc := ⟨.vmem, 12, rfl⟩
abbrev cc7_stg0_1 : Ref sig .tc := ⟨.vmem, 13, rfl⟩
abbrev cc7_stg1_0 : Ref sig .tc := ⟨.vmem, 14, rfl⟩
abbrev cc7_stg1_1 : Ref sig .tc := ⟨.vmem, 15, rfl⟩
abbrev cc7_stg2_0 : Ref sig .tc := ⟨.vmem, 16, rfl⟩
abbrev cc7_stg2_1 : Ref sig .tc := ⟨.vmem, 17, rfl⟩
abbrev cc8_stg0_0 : Ref sig .tc := ⟨.vmem, 18, rfl⟩
abbrev cc8_stg0_1 : Ref sig .tc := ⟨.vmem, 19, rfl⟩
abbrev cc8_stg1_0 : Ref sig .tc := ⟨.vmem, 20, rfl⟩
abbrev cc8_stg1_1 : Ref sig .tc := ⟨.vmem, 21, rfl⟩
abbrev cc8_stg2_0 : Ref sig .tc := ⟨.vmem, 22, rfl⟩
abbrev cc8_stg2_1 : Ref sig .tc := ⟨.vmem, 23, rfl⟩
abbrev cc9_stg0_0 : Ref sig .tc := ⟨.vmem, 24, rfl⟩
abbrev cc9_stg0_1 : Ref sig .tc := ⟨.vmem, 25, rfl⟩
abbrev cc9_stg1_0 : Ref sig .tc := ⟨.vmem, 26, rfl⟩
abbrev cc9_stg1_1 : Ref sig .tc := ⟨.vmem, 27, rfl⟩
abbrev cc9_stg2_0 : Ref sig .tc := ⟨.vmem, 28, rfl⟩
abbrev cc9_stg2_1 : Ref sig .tc := ⟨.vmem, 29, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc4_scratch0 : Ref sig .scVector := ⟨.vmem, 12, rfl⟩
abbrev cc4_scratch1 : Ref sig .scVector := ⟨.vmem, 13, rfl⟩
abbrev cc4_scratch2 : Ref sig .scVector := ⟨.vmem, 14, rfl⟩
abbrev cc5_sem0_0 : DmaSem sig := 20
abbrev cc5_sem0_1 : DmaSem sig := 21
abbrev cc5_sem1_0 : DmaSem sig := 22
abbrev cc5_sem1_1 : DmaSem sig := 23
abbrev cc5_sem2_0 : DmaSem sig := 24
abbrev cc5_sem2_1 : DmaSem sig := 25
abbrev cc6_sem0_0 : DmaSem sig := 26
abbrev cc6_sem0_1 : DmaSem sig := 27
abbrev cc6_sem1_0 : DmaSem sig := 28
abbrev cc6_sem1_1 : DmaSem sig := 29
abbrev cc6_sem2_0 : DmaSem sig := 30
abbrev cc6_sem2_1 : DmaSem sig := 31
abbrev cc7_sem0_0 : DmaSem sig := 32
abbrev cc7_sem0_1 : DmaSem sig := 33
abbrev cc7_sem1_0 : DmaSem sig := 34
abbrev cc7_sem1_1 : DmaSem sig := 35
abbrev cc7_sem2_0 : DmaSem sig := 36
abbrev cc7_sem2_1 : DmaSem sig := 37
abbrev cc8_sem0_0 : DmaSem sig := 38
abbrev cc8_sem0_1 : DmaSem sig := 39
abbrev cc8_sem1_0 : DmaSem sig := 40
abbrev cc8_sem1_1 : DmaSem sig := 41
abbrev cc8_sem2_0 : DmaSem sig := 42
abbrev cc8_sem2_1 : DmaSem sig := 43
abbrev cc9_sem0_0 : DmaSem sig := 44
abbrev cc9_sem0_1 : DmaSem sig := 45
abbrev cc9_sem1_0 : DmaSem sig := 46
abbrev cc9_sem1_1 : DmaSem sig := 47
abbrev cc9_sem2_0 : DmaSem sig := 48
abbrev cc9_sem2_1 : DmaSem sig := 49
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  let c0_i32_8_r0 : BitVec 32 := 0#32
  ![v1.toNat, 0, 0]
@[reducible] def k0_t1_loop : Scf.Loop 32 :=
  let c0_i32 : BitVec 32 := 0#32
  let c5_i32 : BitVec 32 := 5#32
  let v2 : BitVec 32 := Scalar.addi c0_i32 c5_i32
  let c1_i32 : BitVec 32 := 1#32
  ⟨c0_i32, v2, c1_i32⟩
def k0_cond1 (k0_t1 : Fin k0_t1_loop.trips) : BitVec 1 :=
  let c0_i32_8 : BitVec 32 := 0#32
  let c0_i32 : BitVec 32 := 0#32
  let c1_i32 : BitVec 32 := 1#32
  let arg11 : BitVec 32 := Scf.iv c0_i32 c1_i32 k0_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let c2_i32_12 : BitVec 32 := 2#32
  let v19 : BitVec 1 := Scalar.cmpi .sge v15 c2_i32_12
  let v20 : BitVec 32 := Scalar.extui v19
  let c0_i32_13 : BitVec 32 := 0#32
  let v21 : BitVec 1 := Scalar.cmpi .ne v20 c0_i32_13
  v21

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k0_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let v17 : BitVec 32 := Scalar.addi v16 v15
  let c128_i32_11 : BitVec 32 := 128#32
  let v18 : BitVec 32 := Scalar.muli v17 c128_i32_11
  let c0_i32_35 : BitVec 32 := 0#32
  ![v18.toNat, 0]
def k0_off3 (k0_t1 : Fin k0_t1_loop.trips) (c0_i32_9 : BitVec 32) : Fin 2 → Nat :=
  let c0_i32_8 : BitVec 32 := 0#32
  let c0_i32 : BitVec 32 := 0#32
  let c1_i32 : BitVec 32 := 1#32
  let arg11 : BitVec 32 := Scf.iv c0_i32 c1_i32 k0_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let c0_i32_14 : BitVec 32 := 0#32
  ![v15.toNat, 0]
def k0_off4 (i : grid0.Coords) (k0_t1 : Fin k0_t1_loop.trips) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k0_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let v17 : BitVec 32 := Scalar.addi v16 v15
  let c128_i32_11 : BitVec 32 := 128#32
  let v18 : BitVec 32 := Scalar.muli v17 c128_i32_11
  let c0_i32_20 : BitVec 32 := 0#32
  ![v18.toNat, 0]
def k0_cond2 (k0_t1 : Fin k0_t1_loop.trips) : BitVec 1 :=
  let c0_i32_8 : BitVec 32 := 0#32
  let c0_i32 : BitVec 32 := 0#32
  let c1_i32 : BitVec 32 := 1#32
  let arg11 : BitVec 32 := Scf.iv c0_i32 c1_i32 k0_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let c2_i32_25 : BitVec 32 := 2#32
  let v34 : BitVec 1 := Scalar.cmpi .sge v30 c2_i32_25
  let v35 : BitVec 32 := Scalar.extui v34
  let c0_i32_26 : BitVec 32 := 0#32
  let v36 : BitVec 1 := Scalar.cmpi .ne v35 c0_i32_26
  v36

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_23 : BitVec 32 := 10#32
  let v31 : BitVec 32 := Scalar.muli v1 c10_i32_23
  let c0_i32_8 : BitVec 32 := 0#32
  let c0_i32 : BitVec 32 := 0#32
  let c1_i32 : BitVec 32 := 1#32
  let arg11 : BitVec 32 := Scf.iv c0_i32 c1_i32 k0_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let v32 : BitVec 32 := Scalar.addi v31 v30
  let c128_i32_24 : BitVec 32 := 128#32
  let v33 : BitVec 32 := Scalar.muli v32 c128_i32_24
  let c0_i32_35 : BitVec 32 := 0#32
  ![v33.toNat, 0]
def k0_off6 (i : grid0.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let v4 : BitVec 32 := Scalar.addi v3 c8_i32
  let c128_i32 : BitVec 32 := 128#32
  let v5 : BitVec 32 := Scalar.muli v4 c128_i32
  let c0_i32_1 : BitVec 32 := 0#32
  ![v5.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  let c0_i32_8_r0 : BitVec 32 := 0#32
  ![v1.toNat, 0, 0]
@[reducible] def k1_t1_loop : Scf.Loop 32 :=
  let c0_i32 : BitVec 32 := 0#32
  let c5_i32 : BitVec 32 := 5#32
  let v2 : BitVec 32 := Scalar.addi c0_i32 c5_i32
  let c1_i32 : BitVec 32 := 1#32
  ⟨c0_i32, v2, c1_i32⟩
def k1_cond1 (k1_t1 : Fin k1_t1_loop.trips) : BitVec 1 :=
  let c0_i32_8 : BitVec 32 := 0#32
  let c0_i32 : BitVec 32 := 0#32
  let c1_i32 : BitVec 32 := 1#32
  let arg11 : BitVec 32 := Scf.iv c0_i32 c1_i32 k1_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let c2_i32_12 : BitVec 32 := 2#32
  let v19 : BitVec 1 := Scalar.cmpi .sge v15 c2_i32_12
  let v20 : BitVec 32 := Scalar.extui v19
  let c0_i32_13 : BitVec 32 := 0#32
  let v21 : BitVec 1 := Scalar.cmpi .ne v20 c0_i32_13
  v21

def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k1_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let v17 : BitVec 32 := Scalar.addi v16 v15
  let c128_i32_11 : BitVec 32 := 128#32
  let v18 : BitVec 32 := Scalar.muli v17 c128_i32_11
  let c0_i32_35 : BitVec 32 := 0#32
  ![v18.toNat, 0]
def k1_off3 (k1_t1 : Fin k1_t1_loop.trips) (c0_i32_9 : BitVec 32) : Fin 2 → Nat :=
  let c0_i32_8 : BitVec 32 := 0#32
  let c0_i32 : BitVec 32 := 0#32
  let c1_i32 : BitVec 32 := 1#32
  let arg11 : BitVec 32 := Scf.iv c0_i32 c1_i32 k1_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let c0_i32_14 : BitVec 32 := 0#32
  ![v15.toNat, 0]
def k1_off4 (i : grid1.Coords) (k1_t1 : Fin k1_t1_loop.trips) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k1_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let v17 : BitVec 32 := Scalar.addi v16 v15
  let c128_i32_11 : BitVec 32 := 128#32
  let v18 : BitVec 32 := Scalar.muli v17 c128_i32_11
  let c0_i32_20 : BitVec 32 := 0#32
  ![v18.toNat, 0]
def k1_cond2 (k1_t1 : Fin k1_t1_loop.trips) : BitVec 1 :=
  let c0_i32_8 : BitVec 32 := 0#32
  let c0_i32 : BitVec 32 := 0#32
  let c1_i32 : BitVec 32 := 1#32
  let arg11 : BitVec 32 := Scf.iv c0_i32 c1_i32 k1_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let c2_i32_25 : BitVec 32 := 2#32
  let v34 : BitVec 1 := Scalar.cmpi .sge v30 c2_i32_25
  let v35 : BitVec 32 := Scalar.extui v34
  let c0_i32_26 : BitVec 32 := 0#32
  let v36 : BitVec 1 := Scalar.cmpi .ne v35 c0_i32_26
  v36

def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_23 : BitVec 32 := 10#32
  let v31 : BitVec 32 := Scalar.muli v1 c10_i32_23
  let c0_i32_8 : BitVec 32 := 0#32
  let c0_i32 : BitVec 32 := 0#32
  let c1_i32 : BitVec 32 := 1#32
  let arg11 : BitVec 32 := Scf.iv c0_i32 c1_i32 k1_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let v32 : BitVec 32 := Scalar.addi v31 v30
  let c128_i32_24 : BitVec 32 := 128#32
  let v33 : BitVec 32 := Scalar.muli v32 c128_i32_24
  let c0_i32_35 : BitVec 32 := 0#32
  ![v33.toNat, 0]
def k1_off6 (i : grid1.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let v4 : BitVec 32 := Scalar.addi v3 c8_i32
  let c128_i32 : BitVec 32 := 128#32
  let v5 : BitVec 32 := Scalar.muli v4 c128_i32
  let c0_i32_1 : BitVec 32 := 0#32
  ![v5.toNat, 0]
abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  let c0_i32_8_r0 : BitVec 32 := 0#32
  ![v1.toNat, 0, 0]
@[reducible] def k2_t1_loop : Scf.Loop 32 :=
  let c0_i32 : BitVec 32 := 0#32
  let c5_i32 : BitVec 32 := 5#32
  let v2 : BitVec 32 := Scalar.addi c0_i32 c5_i32
  let c1_i32 : BitVec 32 := 1#32
  ⟨c0_i32, v2, c1_i32⟩
def k2_cond1 (k2_t1 : Fin k2_t1_loop.trips) : BitVec 1 :=
  let c0_i32_8 : BitVec 32 := 0#32
  let c0_i32 : BitVec 32 := 0#32
  let c1_i32 : BitVec 32 := 1#32
  let arg11 : BitVec 32 := Scf.iv c0_i32 c1_i32 k2_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let c2_i32_12 : BitVec 32 := 2#32
  let v19 : BitVec 1 := Scalar.cmpi .sge v15 c2_i32_12
  let v20 : BitVec 32 := Scalar.extui v19
  let c0_i32_13 : BitVec 32 := 0#32
  let v21 : BitVec 1 := Scalar.cmpi .ne v20 c0_i32_13
  v21

def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k2_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let v17 : BitVec 32 := Scalar.addi v16 v15
  let c128_i32_11 : BitVec 32 := 128#32
  let v18 : BitVec 32 := Scalar.muli v17 c128_i32_11
  let c0_i32_35 : BitVec 32 := 0#32
  ![v18.toNat, 0]
def k2_off3 (k2_t1 : Fin k2_t1_loop.trips) (c0_i32_9 : BitVec 32) : Fin 2 → Nat :=
  let c0_i32_8 : BitVec 32 := 0#32
  let c0_i32 : BitVec 32 := 0#32
  let c1_i32 : BitVec 32 := 1#32
  let arg11 : BitVec 32 := Scf.iv c0_i32 c1_i32 k2_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let c0_i32_14 : BitVec 32 := 0#32
  ![v15.toNat, 0]
def k2_off4 (i : grid2.Coords) (k2_t1 : Fin k2_t1_loop.trips) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k2_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let v17 : BitVec 32 := Scalar.addi v16 v15
  let c128_i32_11 : BitVec 32 := 128#32
  let v18 : BitVec 32 := Scalar.muli v17 c128_i32_11
  let c0_i32_20 : BitVec 32 := 0#32
  ![v18.toNat, 0]
def k2_cond2 (k2_t1 : Fin k2_t1_loop.trips) : BitVec 1 :=
  let c0_i32_8 : BitVec 32 := 0#32
  let c0_i32 : BitVec 32 := 0#32
  let c1_i32 : BitVec 32 := 1#32
  let arg11 : BitVec 32 := Scf.iv c0_i32 c1_i32 k2_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let c2_i32_25 : BitVec 32 := 2#32
  let v34 : BitVec 1 := Scalar.cmpi .sge v30 c2_i32_25
  let v35 : BitVec 32 := Scalar.extui v34
  let c0_i32_26 : BitVec 32 := 0#32
  let v36 : BitVec 1 := Scalar.cmpi .ne v35 c0_i32_26
  v36

def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_23 : BitVec 32 := 10#32
  let v31 : BitVec 32 := Scalar.muli v1 c10_i32_23
  let c0_i32_8 : BitVec 32 := 0#32
  let c0_i32 : BitVec 32 := 0#32
  let c1_i32 : BitVec 32 := 1#32
  let arg11 : BitVec 32 := Scf.iv c0_i32 c1_i32 k2_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let v32 : BitVec 32 := Scalar.addi v31 v30
  let c128_i32_24 : BitVec 32 := 128#32
  let v33 : BitVec 32 := Scalar.muli v32 c128_i32_24
  let c0_i32_35 : BitVec 32 := 0#32
  ![v33.toNat, 0]
def k2_off6 (i : grid2.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let v4 : BitVec 32 := Scalar.addi v3 c8_i32
  let c128_i32 : BitVec 32 := 128#32
  let v5 : BitVec 32 := Scalar.muli v4 c128_i32
  let c0_i32_1 : BitVec 32 := 0#32
  ![v5.toNat, 0]
abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  let c0_i32_8_r0 : BitVec 32 := 0#32
  ![v1.toNat, 0, 0]
@[reducible] def k3_t1_loop : Scf.Loop 32 :=
  let c0_i32 : BitVec 32 := 0#32
  let c5_i32 : BitVec 32 := 5#32
  let v2 : BitVec 32 := Scalar.addi c0_i32 c5_i32
  let c1_i32 : BitVec 32 := 1#32
  ⟨c0_i32, v2, c1_i32⟩
def k3_cond1 (k3_t1 : Fin k3_t1_loop.trips) : BitVec 1 :=
  let c0_i32_8 : BitVec 32 := 0#32
  let c0_i32 : BitVec 32 := 0#32
  let c1_i32 : BitVec 32 := 1#32
  let arg11 : BitVec 32 := Scf.iv c0_i32 c1_i32 k3_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let c2_i32_12 : BitVec 32 := 2#32
  let v19 : BitVec 1 := Scalar.cmpi .sge v15 c2_i32_12
  let v20 : BitVec 32 := Scalar.extui v19
  let c0_i32_13 : BitVec 32 := 0#32
  let v21 : BitVec 1 := Scalar.cmpi .ne v20 c0_i32_13
  v21

def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k3_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let v17 : BitVec 32 := Scalar.addi v16 v15
  let c128_i32_11 : BitVec 32 := 128#32
  let v18 : BitVec 32 := Scalar.muli v17 c128_i32_11
  let c0_i32_35 : BitVec 32 := 0#32
  ![v18.toNat, 0]
def k3_off3 (k3_t1 : Fin k3_t1_loop.trips) (c0_i32_9 : BitVec 32) : Fin 2 → Nat :=
  let c0_i32_8 : BitVec 32 := 0#32
  let c0_i32 : BitVec 32 := 0#32
  let c1_i32 : BitVec 32 := 1#32
  let arg11 : BitVec 32 := Scf.iv c0_i32 c1_i32 k3_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let c0_i32_14 : BitVec 32 := 0#32
  ![v15.toNat, 0]
def k3_off4 (i : grid3.Coords) (k3_t1 : Fin k3_t1_loop.trips) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k3_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let v17 : BitVec 32 := Scalar.addi v16 v15
  let c128_i32_11 : BitVec 32 := 128#32
  let v18 : BitVec 32 := Scalar.muli v17 c128_i32_11
  let c0_i32_20 : BitVec 32 := 0#32
  ![v18.toNat, 0]
def k3_cond2 (k3_t1 : Fin k3_t1_loop.trips) : BitVec 1 :=
  let c0_i32_8 : BitVec 32 := 0#32
  let c0_i32 : BitVec 32 := 0#32
  let c1_i32 : BitVec 32 := 1#32
  let arg11 : BitVec 32 := Scf.iv c0_i32 c1_i32 k3_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let c2_i32_25 : BitVec 32 := 2#32
  let v34 : BitVec 1 := Scalar.cmpi .sge v30 c2_i32_25
  let v35 : BitVec 32 := Scalar.extui v34
  let c0_i32_26 : BitVec 32 := 0#32
  let v36 : BitVec 1 := Scalar.cmpi .ne v35 c0_i32_26
  v36

def k3_off5 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_23 : BitVec 32 := 10#32
  let v31 : BitVec 32 := Scalar.muli v1 c10_i32_23
  let c0_i32_8 : BitVec 32 := 0#32
  let c0_i32 : BitVec 32 := 0#32
  let c1_i32 : BitVec 32 := 1#32
  let arg11 : BitVec 32 := Scf.iv c0_i32 c1_i32 k3_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let v32 : BitVec 32 := Scalar.addi v31 v30
  let c128_i32_24 : BitVec 32 := 128#32
  let v33 : BitVec 32 := Scalar.muli v32 c128_i32_24
  let c0_i32_35 : BitVec 32 := 0#32
  ![v33.toNat, 0]
def k3_off6 (i : grid3.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let v4 : BitVec 32 := Scalar.addi v3 c8_i32
  let c128_i32 : BitVec 32 := 128#32
  let v5 : BitVec 32 := Scalar.muli v4 c128_i32
  let c0_i32_1 : BitVec 32 := 0#32
  ![v5.toNat, 0]
abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  let c0_i32_8_r0 : BitVec 32 := 0#32
  ![v1.toNat, 0, 0]
@[reducible] def k4_t1_loop : Scf.Loop 32 :=
  let c0_i32 : BitVec 32 := 0#32
  let c5_i32 : BitVec 32 := 5#32
  let v2 : BitVec 32 := Scalar.addi c0_i32 c5_i32
  let c1_i32 : BitVec 32 := 1#32
  ⟨c0_i32, v2, c1_i32⟩
def k4_cond1 (k4_t1 : Fin k4_t1_loop.trips) : BitVec 1 :=
  let c0_i32_8 : BitVec 32 := 0#32
  let c0_i32 : BitVec 32 := 0#32
  let c1_i32 : BitVec 32 := 1#32
  let arg11 : BitVec 32 := Scf.iv c0_i32 c1_i32 k4_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let c2_i32_12 : BitVec 32 := 2#32
  let v19 : BitVec 1 := Scalar.cmpi .sge v15 c2_i32_12
  let v20 : BitVec 32 := Scalar.extui v19
  let c0_i32_13 : BitVec 32 := 0#32
  let v21 : BitVec 1 := Scalar.cmpi .ne v20 c0_i32_13
  v21

def k4_off2 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k4_t1
  let c2_i32_7 : BitVec 32 := 2#32
  let v13 : BitVec 32 := Scalar.muli arg11 c2_i32_7
  let v14 : BitVec 32 := Scalar.addi c0_i32_8 v13
  let c0_i32_9 : BitVec 32 := 0#32
  let v15 : BitVec 32 := Scalar.addi v14 c0_i32_9
  let v17 : BitVec 32 := Scalar.addi v16 v15
  let c128_i32_11 : BitVec 32 := 128#32
  let v18 : BitVec 32 := Scalar.muli v17 c128_i32_11
  let c0_i32_35 : BitVec 32 := 0#32
  ![v18.toNat, 0]
def k4_off3 (k4_t1 : Fin k4_t1_loop.trips) (c0_i32_9 : BitVec 32) : Fin 2 → Nat :=
  let c0_i32_8 : BitVec 32 := 0#32
  let c0_i32 : BitVec 32 := 0#32
  let c1_i32 : BitVec 32 := 1#32
  let arg11 : BitVec 32 := Scf.iv c0_i32 c1_i32 k4_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let c0_i32_14 : BitVec 32 := 0#32
  ![v15.toNat, 0]
def k4_off4 (i : grid4.Coords) (k4_t1 : Fin k4_t1_loop.trips) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_10 : BitVec 32 := 10#32
  let v16 : BitVec 32 := Scalar.muli v1 c10_i32_10
  let c0_i32_8 : BitVec 32 := 0#32
  let c0_i32 : BitVec 32 := 0#32
  let c1_i32 : BitVec 32 := 1#32
  let arg11 : BitVec 32 := Scf.iv c0_i32 c1_i32 k4_t1
  let c2_i32_7 : BitVec 32 := 2#32
  let v13 : BitVec 32 := Scalar.muli arg11 c2_i32_7
  let v14 : BitVec 32 := Scalar.addi c0_i32_8 v13
  let v15 : BitVec 32 := Scalar.addi v14 c0_i32_9
  let v17 : BitVec 32 := Scalar.addi v16 v15
  let c128_i32_11 : BitVec 32 := 128#32
  let v18 : BitVec 32 := Scalar.muli v17 c128_i32_11
  let c0_i32_20 : BitVec 32 := 0#32
  ![v18.toNat, 0]
def k4_cond2 (k4_t1 : Fin k4_t1_loop.trips) : BitVec 1 :=
  let c0_i32_8 : BitVec 32 := 0#32
  let c0_i32 : BitVec 32 := 0#32
  let c1_i32 : BitVec 32 := 1#32
  let arg11 : BitVec 32 := Scf.iv c0_i32 c1_i32 k4_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let c2_i32_25 : BitVec 32 := 2#32
  let v34 : BitVec 1 := Scalar.cmpi .sge v30 c2_i32_25
  let v35 : BitVec 32 := Scalar.extui v34
  let c0_i32_26 : BitVec 32 := 0#32
  let v36 : BitVec 1 := Scalar.cmpi .ne v35 c0_i32_26
  v36

def k4_off5 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_23 : BitVec 32 := 10#32
  let v31 : BitVec 32 := Scalar.muli v1 c10_i32_23
  let c0_i32_8 : BitVec 32 := 0#32
  let c0_i32 : BitVec 32 := 0#32
  let c1_i32 : BitVec 32 := 1#32
  let arg11 : BitVec 32 := Scf.iv c0_i32 c1_i32 k4_t1
  let c2_i32_7 : BitVec 32 := 2#32
  let v13 : BitVec 32 := Scalar.muli arg11 c2_i32_7
  let v14 : BitVec 32 := Scalar.addi c0_i32_8 v13
  let c1_i32_22 : BitVec 32 := 1#32
  let v30 : BitVec 32 := Scalar.addi v14 c1_i32_22
  let v32 : BitVec 32 := Scalar.addi v31 v30
  let c128_i32_24 : BitVec 32 := 128#32
  let v33 : BitVec 32 := Scalar.muli v32 c128_i32_24
  let c0_i32_35 : BitVec 32 := 0#32
  ![v33.toNat, 0]
def k4_off6 (i : grid4.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let v4 : BitVec 32 := Scalar.addi v3 c8_i32
  let c128_i32 : BitVec 32 := 128#32
  let v5 : BitVec 32 := Scalar.muli v4 c128_i32
  let c0_i32_1 : BitVec 32 := 0#32
  ![v5.toNat, 0]
abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x4096 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x64x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x4096 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x64x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x4096 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x64x4096 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c30_i32 : BitVec 32 := 30#32
  let v0 : BitVec 32 := Scalar.addi arg0 c30_i32
  let c0_i32 : BitVec 32 := 0#32
  let c0_i32_0 : BitVec 32 := 0#32
  let c0_i32_1 : BitVec 32 := 0#32
  ![v0.toNat, c0_i32.toNat, c0_i32_0.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x4096 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x64x4096 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 3 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  let c0_i32_1 : BitVec 32 := 0#32
  ![v0.toNat, c0_i32.toNat, c0_i32_0.toNat]

abbrev stage9_0 : Fin 2 → Memref sig .tc .vmem S4096x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x4096 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x64x4096 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))

class Facts₀ : Prop where
  shapeCasts_S100000x64_S50000x128 : S100000x64.ShapeCasts S50000x128
  slices_S4096x50_S4096x10_0_0 : S4096x50.Slices ![0, 0] S4096x10
  transposes_S4096x10_S10x4096_1_0 : S4096x10.Transposes [1, 0] S10x4096
  bcast_S_S10x4096 : S_.BroadcastsInDim S10x4096 (![] : Fin 0 → Fin S10x4096.rank)
  shapeCasts_S10x4096_S32x10x128 : S10x4096.ShapeCasts S32x10x128
  squeezes_S1x10x128_S10x128 : S1x10x128.Squeezes S10x128
  squeezes_S1x128_S128 : S1x128.Squeezes S128
  inb_S50000x128_S50000x128_0_0 : ∀ a, (![0, 0] : Fin 2 → Nat) a + S50000x128.size a ≤ S50000x128.size a
  gathers_S50000x128_S128x128 : S50000x128.Gathers 0 S128x128
  slices_S4096x50_S4096x10_0_10 : S4096x50.Slices ![0, 10] S4096x10
  slices_S4096x50_S4096x10_0_20 : S4096x50.Slices ![0, 20] S4096x10
  slices_S4096x50_S4096x10_0_30 : S4096x50.Slices ![0, 30] S4096x10
  slices_S4096x50_S4096x10_0_40 : S4096x50.Slices ![0, 40] S4096x10
  shapeCasts_S10x4096_S10x1x4096 : S10x4096.ShapeCasts S10x1x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S4096x1 : S4096.ShapeCasts S4096x1
  slices_S4096x128_o0_64_S4096x64 : S4096x128.Slices ![0, 64] S4096x64
  slices_S4096x128_o0_0_S4096x64 : S4096x128.Slices ![0, 0] S4096x64
  shapeCasts_S4096x1_S4096x1 : S4096x1.ShapeCasts S4096x1
  broadcasts_S4096x1_S4096x64 : S4096x1.Broadcasts S4096x64
  transposes_S4096x64_p1_0_S64x4096 : S4096x64.Transposes [1, 0] S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  transposes_S50x64x4096_S4096x50x64_2_0_1 : S50x64x4096.Transposes [2, 0, 1] S4096x50x64
  hcc0_scratch3 : 0 + S_.numel ≤ 50
  hcc0_scratch4 : 1 + S_.numel ≤ 50
  hcc0_scratch5 : 2 + S_.numel ≤ 50
  hcc0_scoped0 : 3 + S_.numel ≤ 50
  hcc1_scratch3 : 4 + S_.numel ≤ 50
  hcc1_scratch4 : 5 + S_.numel ≤ 50
  hcc1_scratch5 : 6 + S_.numel ≤ 50
  hcc1_scoped0 : 7 + S_.numel ≤ 50
  hcc2_scratch3 : 8 + S_.numel ≤ 50
  hcc2_scratch4 : 9 + S_.numel ≤ 50
  hcc2_scratch5 : 10 + S_.numel ≤ 50
  hcc2_scoped0 : 11 + S_.numel ≤ 50
  hcc3_scratch3 : 12 + S_.numel ≤ 50
  hcc3_scratch4 : 13 + S_.numel ≤ 50
  hcc3_scratch5 : 14 + S_.numel ≤ 50
  hcc3_scoped0 : 15 + S_.numel ≤ 50
  hcc4_scratch3 : 16 + S_.numel ≤ 50
  hcc4_scratch4 : 17 + S_.numel ≤ 50
  hcc4_scratch5 : 18 + S_.numel ≤ 50
  hcc4_scoped0 : 19 + S_.numel ≤ 50
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x10x128.size a ≤ S32x10x128.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S128x128.size a ≤ S40960x128.size a
  k0_off3_inb : ∀ k0_t1 : Fin k0_t1_loop.trips, ∀ (r : Fin 2), ∀ a, (k0_off3 k0_t1 (BitVec.ofNat 32 r.val)) a + S1x128.size a ≤ S10x128.size a
  k0_off4_inb : ∀ (i : grid0.Coords) (k0_t1 : Fin k0_t1_loop.trips), ∀ (r : Fin 2), ∀ a, (k0_off4 i k0_t1 (BitVec.ofNat 32 r.val)) a + S128x128.size a ≤ S40960x128.size a
  k0_off5_inb : ∀ (i : grid0.Coords) (k0_t1 : Fin k0_t1_loop.trips), ∀ (k0_h2 : k0_cond2 k0_t1 = 1#1), ∀ a, (k0_off5 i k0_t1) a + S128x128.size a ≤ S40960x128.size a
  k0_off6_inb : ∀ i : grid0.Coords, ∀ (r : Fin 2), ∀ a, (k0_off6 i (BitVec.ofNat 32 (8 + r.val))) a + S128x128.size a ≤ S40960x128.size a
  hcore1 : grid1.bound 0 ≤ τ.nSC
  hsub1 : grid1.bound 1 ≤ τ.nSub
  k1_off1_inb : ∀ i : grid1.Coords, ∀ a, (k1_off1 i) a + S1x10x128.size a ≤ S32x10x128.size a
  k1_t1_ok : k1_t1_loop.OK
  k1_off2_inb : ∀ (i : grid1.Coords) (k1_t1 : Fin k1_t1_loop.trips), ∀ (k1_h1 : k1_cond1 k1_t1 = 1#1), ∀ a, (k1_off2 i k1_t1) a + S128x128.size a ≤ S40960x128.size a
  k1_off3_inb : ∀ k1_t1 : Fin k1_t1_loop.trips, ∀ (r : Fin 2), ∀ a, (k1_off3 k1_t1 (BitVec.ofNat 32 r.val)) a + S1x128.size a ≤ S10x128.size a
  k1_off4_inb : ∀ (i : grid1.Coords) (k1_t1 : Fin k1_t1_loop.trips), ∀ (r : Fin 2), ∀ a, (k1_off4 i k1_t1 (BitVec.ofNat 32 r.val)) a + S128x128.size a ≤ S40960x128.size a
  k1_off5_inb : ∀ (i : grid1.Coords) (k1_t1 : Fin k1_t1_loop.trips), ∀ (k1_h2 : k1_cond2 k1_t1 = 1#1), ∀ a, (k1_off5 i k1_t1) a + S128x128.size a ≤ S40960x128.size a
  k1_off6_inb : ∀ i : grid1.Coords, ∀ (r : Fin 2), ∀ a, (k1_off6 i (BitVec.ofNat 32 (8 + r.val))) a + S128x128.size a ≤ S40960x128.size a
  hcore2 : grid2.bound 0 ≤ τ.nSC
  hsub2 : grid2.bound 1 ≤ τ.nSub
  k2_off1_inb : ∀ i : grid2.Coords, ∀ a, (k2_off1 i) a + S1x10x128.size a ≤ S32x10x128.size a
  k2_t1_ok : k2_t1_loop.OK
  k2_off2_inb : ∀ (i : grid2.Coords) (k2_t1 : Fin k2_t1_loop.trips), ∀ (k2_h1 : k2_cond1 k2_t1 = 1#1), ∀ a, (k2_off2 i k2_t1) a + S128x128.size a ≤ S40960x128.size a
  k2_off3_inb : ∀ k2_t1 : Fin k2_t1_loop.trips, ∀ (r : Fin 2), ∀ a, (k2_off3 k2_t1 (BitVec.ofNat 32 r.val)) a + S1x128.size a ≤ S10x128.size a
  k2_off4_inb : ∀ (i : grid2.Coords) (k2_t1 : Fin k2_t1_loop.trips), ∀ (r : Fin 2), ∀ a, (k2_off4 i k2_t1 (BitVec.ofNat 32 r.val)) a + S128x128.size a ≤ S40960x128.size a
  k2_off5_inb : ∀ (i : grid2.Coords) (k2_t1 : Fin k2_t1_loop.trips), ∀ (k2_h2 : k2_cond2 k2_t1 = 1#1), ∀ a, (k2_off5 i k2_t1) a + S128x128.size a ≤ S40960x128.size a
  k2_off6_inb : ∀ i : grid2.Coords, ∀ (r : Fin 2), ∀ a, (k2_off6 i (BitVec.ofNat 32 (8 + r.val))) a + S128x128.size a ≤ S40960x128.size a
  hcore3 : grid3.bound 0 ≤ τ.nSC
  hsub3 : grid3.bound 1 ≤ τ.nSub
  k3_off1_inb : ∀ i : grid3.Coords, ∀ a, (k3_off1 i) a + S1x10x128.size a ≤ S32x10x128.size a
  k3_t1_ok : k3_t1_loop.OK
  k3_off2_inb : ∀ (i : grid3.Coords) (k3_t1 : Fin k3_t1_loop.trips), ∀ (k3_h1 : k3_cond1 k3_t1 = 1#1), ∀ a, (k3_off2 i k3_t1) a + S128x128.size a ≤ S40960x128.size a
  k3_off3_inb : ∀ k3_t1 : Fin k3_t1_loop.trips, ∀ (r : Fin 2), ∀ a, (k3_off3 k3_t1 (BitVec.ofNat 32 r.val)) a + S1x128.size a ≤ S10x128.size a
  k3_off4_inb : ∀ (i : grid3.Coords) (k3_t1 : Fin k3_t1_loop.trips), ∀ (r : Fin 2), ∀ a, (k3_off4 i k3_t1 (BitVec.ofNat 32 r.val)) a + S128x128.size a ≤ S40960x128.size a
  k3_off5_inb : ∀ (i : grid3.Coords) (k3_t1 : Fin k3_t1_loop.trips), ∀ (k3_h2 : k3_cond2 k3_t1 = 1#1), ∀ a, (k3_off5 i k3_t1) a + S128x128.size a ≤ S40960x128.size a
  k3_off6_inb : ∀ i : grid3.Coords, ∀ (r : Fin 2), ∀ a, (k3_off6 i (BitVec.ofNat 32 (8 + r.val))) a + S128x128.size a ≤ S40960x128.size a
  hcore4 : grid4.bound 0 ≤ τ.nSC
  hsub4 : grid4.bound 1 ≤ τ.nSub
  k4_off1_inb : ∀ i : grid4.Coords, ∀ a, (k4_off1 i) a + S1x10x128.size a ≤ S32x10x128.size a
  k4_t1_ok : k4_t1_loop.OK
  k4_off2_inb : ∀ (i : grid4.Coords) (k4_t1 : Fin k4_t1_loop.trips), ∀ (k4_h1 : k4_cond1 k4_t1 = 1#1), ∀ a, (k4_off2 i k4_t1) a + S128x128.size a ≤ S40960x128.size a
  k4_off3_inb : ∀ k4_t1 : Fin k4_t1_loop.trips, ∀ (r : Fin 2), ∀ a, (k4_off3 k4_t1 (BitVec.ofNat 32 r.val)) a + S1x128.size a ≤ S10x128.size a
  k4_off4_inb : ∀ (i : grid4.Coords) (k4_t1 : Fin k4_t1_loop.trips), ∀ (r : Fin 2), ∀ a, (k4_off4 i k4_t1 (BitVec.ofNat 32 r.val)) a + S128x128.size a ≤ S40960x128.size a
  k4_off5_inb : ∀ (i : grid4.Coords) (k4_t1 : Fin k4_t1_loop.trips), ∀ (k4_h2 : k4_cond2 k4_t1 = 1#1), ∀ a, (k4_off5 i k4_t1) a + S128x128.size a ≤ S40960x128.size a
  k4_off6_inb : ∀ i : grid4.Coords, ∀ (r : Fin 2), ∀ a, (k4_off6 i (BitVec.ofNat 32 (8 + r.val))) a + S128x128.size a ≤ S40960x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S40960x128.size a
  hwx5_0 : ∀ i : grid5.Coords, EltTy.bits .f32 = 32 ∨ (Rect.block (s := S40960x128) S4096x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x4096.size a ≤ S10x1x4096.size a
  hwx5_1 : ∀ i : grid5.Coords, EltTy.bits .i32 = 32 ∨ (Rect.block (s := S10x1x4096) S1x1x4096.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x64x4096.size a ≤ S50x64x4096.size a
  hwx5_2 : ∀ i : grid5.Coords, EltTy.bits .f32 = 32 ∨ (Rect.block (s := S50x64x4096) S1x64x4096.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S4096x128.size a ≤ S40960x128.size a
  hwx6_0 : ∀ i : grid6.Coords, EltTy.bits .f32 = 32 ∨ (Rect.block (s := S40960x128) S4096x128.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S1x1x4096.size a ≤ S10x1x4096.size a
  hwx6_1 : ∀ i : grid6.Coords, EltTy.bits .i32 = 32 ∨ (Rect.block (s := S10x1x4096) S1x1x4096.size (cc6_transform_2 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_3 i = cc6_transform_3 i'
  hinb6_2 : ∀ (i : grid6.Coords) a, (cc6_transform_3 i a + 1) * S1x64x4096.size a ≤ S50x64x4096.size a
  hwx6_2 : ∀ i : grid6.Coords, EltTy.bits .f32 = 32 ∨ (Rect.block (s := S50x64x4096) S1x64x4096.size (cc6_transform_3 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S4096x128.size a ≤ S40960x128.size a
  hwx7_0 : ∀ i : grid7.Coords, EltTy.bits .f32 = 32 ∨ (Rect.block (s := S40960x128) S4096x128.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S1x1x4096.size a ≤ S10x1x4096.size a
  hwx7_1 : ∀ i : grid7.Coords, EltTy.bits .i32 = 32 ∨ (Rect.block (s := S10x1x4096) S1x1x4096.size (cc7_transform_2 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_3 i = cc7_transform_3 i'
  hinb7_2 : ∀ (i : grid7.Coords) a, (cc7_transform_3 i a + 1) * S1x64x4096.size a ≤ S50x64x4096.size a
  hwx7_2 : ∀ i : grid7.Coords, EltTy.bits .f32 = 32 ∨ (Rect.block (s := S50x64x4096) S1x64x4096.size (cc7_transform_3 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S4096x128.size a ≤ S40960x128.size a
  hwx8_0 : ∀ i : grid8.Coords, EltTy.bits .f32 = 32 ∨ (Rect.block (s := S40960x128) S4096x128.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S1x1x4096.size a ≤ S10x1x4096.size a
  hwx8_1 : ∀ i : grid8.Coords, EltTy.bits .i32 = 32 ∨ (Rect.block (s := S10x1x4096) S1x1x4096.size (cc8_transform_2 i) (hinb8_1 i)).WholeWords (EltTy.packing .i32)
  hstage8_2 : ∀ j, (stage8_2 j).IsWhole
  nbuf8_2 : grid8.bufCount reads8_2 false = 2
  hreads8_2 : ∀ i i' : grid8.Coords, (∀ a, reads8_2 a = true → i a = i' a) → cc8_transform_3 i = cc8_transform_3 i'
  hinb8_2 : ∀ (i : grid8.Coords) a, (cc8_transform_3 i a + 1) * S1x64x4096.size a ≤ S50x64x4096.size a
  hwx8_2 : ∀ i : grid8.Coords, EltTy.bits .f32 = 32 ∨ (Rect.block (s := S50x64x4096) S1x64x4096.size (cc8_transform_3 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S4096x128.size a ≤ S40960x128.size a
  hwx9_0 : ∀ i : grid9.Coords, EltTy.bits .f32 = 32 ∨ (Rect.block (s := S40960x128) S4096x128.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S1x1x4096.size a ≤ S10x1x4096.size a
  hwx9_1 : ∀ i : grid9.Coords, EltTy.bits .i32 = 32 ∨ (Rect.block (s := S10x1x4096) S1x1x4096.size (cc9_transform_2 i) (hinb9_1 i)).WholeWords (EltTy.packing .i32)
  hstage9_2 : ∀ j, (stage9_2 j).IsWhole
  nbuf9_2 : grid9.bufCount reads9_2 false = 2
  hreads9_2 : ∀ i i' : grid9.Coords, (∀ a, reads9_2 a = true → i a = i' a) → cc9_transform_3 i = cc9_transform_3 i'
  hinb9_2 : ∀ (i : grid9.Coords) a, (cc9_transform_3 i a + 1) * S1x64x4096.size a ≤ S50x64x4096.size a
  hwx9_2 : ∀ i : grid9.Coords, EltTy.bits .f32 = 32 ∨ (Rect.block (s := S50x64x4096) S1x64x4096.size (cc9_transform_3 i) (hinb9_2 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0
abbrev cc1_scratch3 : DmaSems sig S_ := SemArray.consecutive 4 S_ hcc1_scratch3
abbrev cc1_scratch4 : DmaSems sig S_ := SemArray.consecutive 5 S_ hcc1_scratch4
abbrev cc1_scratch5 : DmaSems sig S_ := SemArray.consecutive 6 S_ hcc1_scratch5
abbrev cc1_scoped0 : DmaSems sig S_ := SemArray.consecutive 7 S_ hcc1_scoped0
abbrev cc2_scratch3 : DmaSems sig S_ := SemArray.consecutive 8 S_ hcc2_scratch3
abbrev cc2_scratch4 : DmaSems sig S_ := SemArray.consecutive 9 S_ hcc2_scratch4
abbrev cc2_scratch5 : DmaSems sig S_ := SemArray.consecutive 10 S_ hcc2_scratch5
abbrev cc2_scoped0 : DmaSems sig S_ := SemArray.consecutive 11 S_ hcc2_scoped0
abbrev cc3_scratch3 : DmaSems sig S_ := SemArray.consecutive 12 S_ hcc3_scratch3
abbrev cc3_scratch4 : DmaSems sig S_ := SemArray.consecutive 13 S_ hcc3_scratch4
abbrev cc3_scratch5 : DmaSems sig S_ := SemArray.consecutive 14 S_ hcc3_scratch5
abbrev cc3_scoped0 : DmaSems sig S_ := SemArray.consecutive 15 S_ hcc3_scoped0
abbrev cc4_scratch3 : DmaSems sig S_ := SemArray.consecutive 16 S_ hcc4_scratch3
abbrev cc4_scratch4 : DmaSems sig S_ := SemArray.consecutive 17 S_ hcc4_scratch4
abbrev cc4_scratch5 : DmaSems sig S_ := SemArray.consecutive 18 S_ hcc4_scratch5
abbrev cc4_scoped0 : DmaSems sig S_ := SemArray.consecutive 19 S_ hcc4_scoped0

abbrev win5_0 : Pipeline.Window sig grid5 :=
  Pipeline.Window.ofSpec (Memref.whole main_v6) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S1x1x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1x64x4096.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v12) S4096x128.size cc6_transform_1 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S1x1x4096.size cc6_transform_2 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v34) S1x64x4096.size cc6_transform_3 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v18) S4096x128.size cc7_transform_1 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v35) S1x1x4096.size cc7_transform_2 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v36) S1x64x4096.size cc7_transform_3 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v24) S4096x128.size cc8_transform_1 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v37) S1x1x4096.size cc8_transform_2 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v38) S1x64x4096.size cc8_transform_3 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v30) S4096x128.size cc9_transform_1 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v39) S1x1x4096.size cc9_transform_2 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v40) S1x64x4096.size cc9_transform_3 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S4096x50 : Shape := ⟨2, ![4096, 50]⟩
abbrev S100000x64 : Shape := ⟨2, ![100000, 64]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x64, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x64, .f32⟩
  | .hbm, ⟨21, _⟩ => ⟨S4096x50x64, .i1⟩
  | .hbm, ⟨22, _⟩ => ⟨S_, .f32⟩
  | .hbm, ⟨23, _⟩ => ⟨S4096x50x64, .f32⟩
  | .hbm, ⟨24, _⟩ => ⟨S4096x50x64, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x64_0_1 : S4096x50.BroadcastsInDim S4096x50x64 (![0, 1] : Fin 2 → Fin S4096x50x64.rank)
  bcast_S_S4096x50x64 : S_.BroadcastsInDim S4096x50x64 (![] : Fin 0 → Fin S4096x50x64.rank)
  gather_S100000x64_S4096x50x1_S4096x50x64_2_0_n_n_0_2_164_wf : GatherDims.WF S100000x64 S4096x50x1 S4096x50x64 [2] [0] [] [0] [] 2 ![1, 64]

variable [Facts₀]

def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf

class Facts : Prop extends Facts₀ where

variable [Facts]
-- ==== Proof.KISetup.lean ====
/-
  The SparseCore gather program as its launch theorem sees it: the call table, the body table, the
  ghost algebra (the handshakes' rounds, the staging cells' rounds, the local transfers' counters), and the
  arrays of the five gather calls as the vector subcores address them.
-/
import proofs.«205068_g58248346468665_cont_9to1c4b_383_29_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205068_g58248346468665_cont_9to1c4b_383_29_alg».proof.Proof.Gen.KernelIdeal
import proofs.«205068_g58248346468665_cont_9to1c4b_383_29_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds sit in the left component, the staging cells' rounds in the middle one; the
    local transfers' counters are found in the right one by instance. -/
abbrev EH : Emb UH (MT nD τ sig (HIx 5) (Elt F) ℕ UU ℕ) := embL
def EP : Emb UP (MT nD τ sig (HIx 5) (Elt F) ℕ UU ℕ) := (Emb.inl : Emb UP (UP × Counters)).trans embR

instance EP_landsIn : (EP : Emb UP (MT nD τ sig (HIx 5) (Elt F) ℕ UU ℕ)).LandsIn (upEmb : UEmb _ (MT nD τ sig (HIx 5) (Elt F) ℕ UU ℕ)) := by
  unfold EP; infer_instance

/-- The table every gather call reads: the weights seen as 50000 rows of two embedding rows each. -/
abbrev tblLoc (d : Dev nD) : Loc nD τ sig := (SparseCore.T d).loc main_v0

end Cert.Proof.KI

end
-- ==== Proof.KIT0.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KI.T0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v5_scv
abbrev oW : Memref sig .scVector .hbm S40960x128 .f32 := Memref.whole main_v6_scv
abbrev sI : Memref sig .scVector .vmem S10x128 .i32 := Memref.whole cc0_scratch0
abbrev sA : Memref sig .scVector .vmem S128x128 .f32 := Memref.whole cc0_scratch1
abbrev sB : Memref sig .scVector .vmem S128x128 .f32 := Memref.whole cc0_scratch2

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The subcore's block of row numbers, as the kernel slices it. -/
abbrev iBlk (L : grid0.Coords) : Memref sig .scVector .hbm S10x128 .i32 :=
  ((iW : Memref sig .scVector .hbm S32x10x128 .i32).slice (Rect.unit (s := S32x10x128) (k0_off1 L) S1x10x128.size (k0_off1_inb L)) (fun _ => rfl)).squeeze S10x128 squeezes_S1x10x128_S10x128
/-- Chunk `2 k + r` of the subcore's part of the result, as the kernel slices it. -/
abbrev oCh (L : grid0.Coords) (k : Fin k0_t1_loop.trips) (r : Fin 2) : Memref sig .scVector .hbm S128x128 .f32 :=
  (oW : Memref sig .scVector .hbm S40960x128 .f32).slice (Rect.unit (s := S40960x128) (k0_off4 L k (BitVec.ofNat 32 r.val)) S128x128.size (k0_off4_inb L k r)) (fun _ => rfl)

theorem cond1_neg : ∀ k : Fin k0_t1_loop.trips, k.val = 0 → ¬ k0_cond1 k = 1#1 := by decide +kernel
theorem cond2_neg : ∀ k : Fin k0_t1_loop.trips, k.val = 0 → ¬ k0_cond2 k = 1#1 := by decide +kernel
theorem cond1_pos : ∀ k : Fin k0_t1_loop.trips, k.val ≠ 0 → k0_cond1 k = 1#1 := by decide +kernel
theorem cond2_pos : ∀ k : Fin k0_t1_loop.trips, k.val ≠ 0 → k0_cond2 k = 1#1 := by decide +kernel
theorem trips_eq : k0_t1_loop.trips = 5 := by decide +kernel

variable [FloatOps F] (d : Dev nD) (L : grid0.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k0_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k0_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k0_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc0_scratch4.sem) 0 ∗ semVal (thr d L, SemLoc.dma cc0_scratch5.sem) 0)
  else
    iprop(∃ kp : Fin k0_t1_loop.trips, ⌜kp.val + 1 = n⌝ ∗ ∃ fa : oBuf (F := F) d L, ∃ ga, ∃ fb : oBuf (F := F) d L, ∃ gb,
      Transfers.Flight countersEmb (thr d L) (SemLoc.dma cc0_scratch4.sem) (none : HIx 5) 524288
          iprop(own d L (oCh L kp 0) fa ∗ own d L (sA : Memref sig .scVector .vmem S128x128 .f32) ga)
      ∗ Transfers.Flight countersEmb (thr d L) (SemLoc.dma cc0_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc0_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k0_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k0_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k0_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k0_t1_loop.trips) (hkp : kp.val + 1 = k0_t1_loop.trips) :
    iprop((bigSep Finset.univ fun j => chunkSt d L fo k0_t1_loop.trips j) ∗ donePair d L kp)
      ⊢ bigSep Finset.univ fun j => donePair d L j := by
  have e1 : chunkSt d L fo k0_t1_loop.trips kp = iprop(emp) := by
    unfold chunkSt; rw [if_neg (by have := kp.isLt; omega), if_neg (by omega)]
  have e2 : (bigSep (Finset.univ.erase kp) fun j => chunkSt d L fo k0_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k0_t1_loop.trips ≤ j.val := by omega
      have b : j.val + 1 < k0_t1_loop.trips := by omega
      unfold chunkSt
      simp only [if_neg a, if_pos b]
  rw [SparseCore.bigSep_erase' (Finset.mem_univ kp) (Φ := fun j => chunkSt d L fo k0_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc0_scoped0.sem) 0
        ∗ semVal (thr d L, SemLoc.dma cc0_scratch3.sem) 0
        ∗ semVal (thr d L, SemLoc.dma cc0_scratch4.sem) 0
        ∗ semVal (thr d L, SemLoc.dma cc0_scratch5.sem) 0
        ∗ owes (thr d L) O W)
      ⊢ wp frame (wpE (defs₀ (F := F)) 𝒱₀ (thr d L) none) Set.univ
          (cc0_kern L tW (Memref.isWhole_whole _) iW (Memref.isWhole_whole _) oW (Memref.isWhole_whole _)
            sI (Memref.isWhole_whole _) sA (Memref.isWhole_whole _) sB (Memref.isWhole_whole _) cc0_scratch3 cc0_scratch4 cc0_scratch5 cc0_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc0_scoped0.sem) 0
            ∗ semVal (thr d L, SemLoc.dma cc0_scratch3.sem) 0
            ∗ semVal (thr d L, SemLoc.dma cc0_scratch4.sem) 0
            ∗ semVal (thr d L, SemLoc.dma cc0_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc0_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k0_off3 k 0#32) S1x128.size (k0_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k0_off3 k 1#32) S1x128.size (k0_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k0_h1 : ¬ k0_cond1 k = 1#1 := cond1_neg k h0
      have k0_h2 : ¬ k0_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k0_h1 : k0_cond1 k = 1#1 := cond1_pos k h0
      have k0_h2 : k0_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k0_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid0.Coords) (b : Ref sig .scVector) : DevRef τ sig := (Proc.scVector (cV L) (jV L)).devRef b

def myBufs (L : grid0.Coords) : Finset (DevRef τ sig) := {dr L cc0_scratch0, dr L cc0_scratch1, dr L cc0_scratch2}
def mySems (d : Dev nD) (L : grid0.Coords) : Finset (GSem nD τ sig) :=
  {(thr d L, SemLoc.dma cc0_scoped0.sem), (thr d L, SemLoc.dma cc0_scratch3.sem), (thr d L, SemLoc.dma cc0_scratch4.sem), (thr d L, SemLoc.dma cc0_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc0_scoped0.sem : SemLoc sig).isScoped .scVector = true; decide⟩
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩

omit [FloatOps F] in
theorem ownSems0_split :
    (ownSems0 (thr d L) : sProp 𝕄)
      = iprop((semVal (thr d L, SemLoc.dma cc0_scoped0.sem) 0 ∗ semVal (thr d L, SemLoc.dma cc0_scratch3.sem) 0
          ∗ semVal (thr d L, SemLoc.dma cc0_scratch4.sem) 0 ∗ semVal (thr d L, SemLoc.dma cc0_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc0_scoped0.sem : DmaSem sig) ≠ cc0_scratch3.sem := by decide
  have e2 : (cc0_scoped0.sem : DmaSem sig) ≠ cc0_scratch4.sem := by decide
  have e3 : (cc0_scoped0.sem : DmaSem sig) ≠ cc0_scratch5.sem := by decide
  have e4 : (cc0_scratch3.sem : DmaSem sig) ≠ cc0_scratch4.sem := by decide
  have e5 : (cc0_scratch3.sem : DmaSem sig) ≠ cc0_scratch5.sem := by decide
  have e6 : (cc0_scratch4.sem : DmaSem sig) ≠ cc0_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc0_scratch0 ≠ dr L cc0_scratch1 := fun e => absurd (Proc.devRef_injective _ e) (show (cc0_scratch0 : Ref sig .scVector) ≠ cc0_scratch1 by decide)
  have e2 : dr L cc0_scratch0 ≠ dr L cc0_scratch2 := fun e => absurd (Proc.devRef_injective _ e) (show (cc0_scratch0 : Ref sig .scVector) ≠ cc0_scratch2 by decide)
  have e3 : dr L cc0_scratch1 ≠ dr L cc0_scratch2 := fun e => absurd (Proc.devRef_injective _ e) (show (cc0_scratch1 : Ref sig .scVector) ≠ cc0_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc0_kern L tW (Memref.isWhole_whole _) iW (Memref.isWhole_whole _) oW (Memref.isWhole_whole _)
            sI (Memref.isWhole_whole _) sA (Memref.isWhole_whole _) sB (Memref.isWhole_whole _) cc0_scratch3 cc0_scratch4 cc0_scratch5 cc0_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KI.T0

end
-- ==== Proof.KIP0.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KIT0

noncomputable section

namespace Cert.Proof.KI.T0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid0.bound 0)) (s : Fin (grid0.bound 1)) : grid0.Coords :=
  fun | 0 => c | 1 => s | ⟨_ + 2, h⟩ => absurd h (Nat.not_lt.2 (Nat.le_add_left _ _))

abbrev iLoc (d : Dev nD) : Loc nD τ sig := (SparseCore.T d).loc main_v5
abbrev oLoc (d : Dev nD) : Loc nD τ sig := (SparseCore.T d).loc main_v6

abbrev iRect (L : grid0.Coords) : Rect S32x10x128 := Rect.unit (s := S32x10x128) (k0_off1 L) S1x10x128.size (k0_off1_inb L)
abbrev oRect (L : grid0.Coords) (k : Fin k0_t1_loop.trips) (r : Fin 2) : Rect S40960x128 :=
  Rect.unit (s := S40960x128) (k0_off4 L k (BitVec.ofNat 32 r.val)) S128x128.size (k0_off4_inb L k r)

theorem set_iBlk (L : grid0.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid0.Coords) (k : Fin k0_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid0.bound 0) × Fin (grid0.bound 1)
abbrev CI : Type := (Fin (grid0.bound 0) × Fin (grid0.bound 1)) × (Fin k0_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k0_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k0_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k0_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid0.bound 0), cc.val = ((idx 0).val / 128 % 20) / 10 := ⟨⟨_, by show _ < 2; omega⟩, rfl⟩
  obtain ⟨ii, hii⟩ : ∃ ii : Fin (grid0.bound 1), ii.val = (idx 0).val / 128 / 20 := ⟨⟨_, by show _ < 16; omega⟩, rfl⟩
  obtain ⟨kk, hkk⟩ : ∃ kk : Fin k0_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k0_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid0.bound 0)) : PosShare TreeShare := Transfers.shareTok fullShare (grid0.bound 0) c
abbrev tsh (c : Fin (grid0.bound 0)) (i : Fin (grid0.bound 1)) : PosShare TreeShare := Transfers.shareTok (tokC c) (grid0.bound 1) i

/-- What of the table stays with the TensorCore while the tasks hold their shares. -/
def tblRem (ft : Buf (Elt F) (tblLoc d)) : sProp 𝕄 :=
  iprop((tblLoc d ↦{Transfers.shareDrop fullShare (grid0.bound 0)} ft)
    ∗ bigSep Finset.univ fun c : Fin (grid0.bound 0) => (tblLoc d ↦{Transfers.shareDrop (tokC c) (grid0.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid0.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid0.bound 1)))) $$ Hc
  ihave Hc'' := (Entails.of_eq (bigSep_sep' (Finset.univ : Finset (Fin (grid0.bound 0)))
    (fun c => (tblLoc d ↦{Transfers.shareDrop (tokC c) (grid0.bound 1)} ft : sProp 𝕄))
    (fun c => bigSep Finset.univ fun i : Fin (grid0.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid0.bound 0))
  isplitl [Hd]; · iexact Hd
  ihave Hc := (Entails.of_eq (bigSep_sep' (Finset.univ : Finset (Fin (grid0.bound 0)))
    (fun c => (tblLoc d ↦{Transfers.shareDrop (tokC c) (grid0.bound 1)} ft : sProp 𝕄))
    (fun c => bigSep Finset.univ fun i : Fin (grid0.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid0.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid0.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid0.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid0.bound 0)) (i : Fin (grid0.bound 1)) : sProp 𝕄 := (tblLoc d ↦{tsh c i} ft : sProp 𝕄)
abbrev If (fi : Buf (Elt F) (iLoc d)) (c : Fin (grid0.bound 0)) (i : Fin (grid0.bound 1)) : sProp 𝕄 := (iLoc d ↦[iSet (c, i)]{fullShare} fi : sProp 𝕄)
abbrev Of (fo : Buf (Elt F) (oLoc d)) (c : Fin (grid0.bound 0)) (i : Fin (grid0.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid0.bound 0)) (i : Fin (grid0.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KI.T0

end
-- ==== Proof.KIT1.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KI.T1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v11_scv
abbrev oW : Memref sig .scVector .hbm S40960x128 .f32 := Memref.whole main_v12_scv
abbrev sI : Memref sig .scVector .vmem S10x128 .i32 := Memref.whole cc1_scratch0
abbrev sA : Memref sig .scVector .vmem S128x128 .f32 := Memref.whole cc1_scratch1
abbrev sB : Memref sig .scVector .vmem S128x128 .f32 := Memref.whole cc1_scratch2

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The subcore's block of row numbers, as the kernel slices it. -/
abbrev iBlk (L : grid1.Coords) : Memref sig .scVector .hbm S10x128 .i32 :=
  ((iW : Memref sig .scVector .hbm S32x10x128 .i32).slice (Rect.unit (s := S32x10x128) (k1_off1 L) S1x10x128.size (k1_off1_inb L)) (fun _ => rfl)).squeeze S10x128 squeezes_S1x10x128_S10x128
/-- Chunk `2 k + r` of the subcore's part of the result, as the kernel slices it. -/
abbrev oCh (L : grid1.Coords) (k : Fin k1_t1_loop.trips) (r : Fin 2) : Memref sig .scVector .hbm S128x128 .f32 :=
  (oW : Memref sig .scVector .hbm S40960x128 .f32).slice (Rect.unit (s := S40960x128) (k1_off4 L k (BitVec.ofNat 32 r.val)) S128x128.size (k1_off4_inb L k r)) (fun _ => rfl)

theorem cond1_neg : ∀ k : Fin k1_t1_loop.trips, k.val = 0 → ¬ k1_cond1 k = 1#1 := by decide +kernel
theorem cond2_neg : ∀ k : Fin k1_t1_loop.trips, k.val = 0 → ¬ k1_cond2 k = 1#1 := by decide +kernel
theorem cond1_pos : ∀ k : Fin k1_t1_loop.trips, k.val ≠ 0 → k1_cond1 k = 1#1 := by decide +kernel
theorem cond2_pos : ∀ k : Fin k1_t1_loop.trips, k.val ≠ 0 → k1_cond2 k = 1#1 := by decide +kernel
theorem trips_eq : k1_t1_loop.trips = 5 := by decide +kernel

variable [FloatOps F] (d : Dev nD) (L : grid1.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k1_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k1_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k1_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc1_scratch4.sem) 0 ∗ semVal (thr d L, SemLoc.dma cc1_scratch5.sem) 0)
  else
    iprop(∃ kp : Fin k1_t1_loop.trips, ⌜kp.val + 1 = n⌝ ∗ ∃ fa : oBuf (F := F) d L, ∃ ga, ∃ fb : oBuf (F := F) d L, ∃ gb,
      Transfers.Flight countersEmb (thr d L) (SemLoc.dma cc1_scratch4.sem) (none : HIx 5) 524288
          iprop(own d L (oCh L kp 0) fa ∗ own d L (sA : Memref sig .scVector .vmem S128x128 .f32) ga)
      ∗ Transfers.Flight countersEmb (thr d L) (SemLoc.dma cc1_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc1_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k1_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k1_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k1_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k1_t1_loop.trips) (hkp : kp.val + 1 = k1_t1_loop.trips) :
    iprop((bigSep Finset.univ fun j => chunkSt d L fo k1_t1_loop.trips j) ∗ donePair d L kp)
      ⊢ bigSep Finset.univ fun j => donePair d L j := by
  have e1 : chunkSt d L fo k1_t1_loop.trips kp = iprop(emp) := by
    unfold chunkSt; rw [if_neg (by have := kp.isLt; omega), if_neg (by omega)]
  have e2 : (bigSep (Finset.univ.erase kp) fun j => chunkSt d L fo k1_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k1_t1_loop.trips ≤ j.val := by omega
      have b : j.val + 1 < k1_t1_loop.trips := by omega
      unfold chunkSt
      simp only [if_neg a, if_pos b]
  rw [SparseCore.bigSep_erase' (Finset.mem_univ kp) (Φ := fun j => chunkSt d L fo k1_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc1_scoped0.sem) 0
        ∗ semVal (thr d L, SemLoc.dma cc1_scratch3.sem) 0
        ∗ semVal (thr d L, SemLoc.dma cc1_scratch4.sem) 0
        ∗ semVal (thr d L, SemLoc.dma cc1_scratch5.sem) 0
        ∗ owes (thr d L) O W)
      ⊢ wp frame (wpE (defs₀ (F := F)) 𝒱₀ (thr d L) none) Set.univ
          (cc1_kern L tW (Memref.isWhole_whole _) iW (Memref.isWhole_whole _) oW (Memref.isWhole_whole _)
            sI (Memref.isWhole_whole _) sA (Memref.isWhole_whole _) sB (Memref.isWhole_whole _) cc1_scratch3 cc1_scratch4 cc1_scratch5 cc1_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc1_scoped0.sem) 0
            ∗ semVal (thr d L, SemLoc.dma cc1_scratch3.sem) 0
            ∗ semVal (thr d L, SemLoc.dma cc1_scratch4.sem) 0
            ∗ semVal (thr d L, SemLoc.dma cc1_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc1_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k1_off3 k 0#32) S1x128.size (k1_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k1_off3 k 1#32) S1x128.size (k1_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k1_h1 : ¬ k1_cond1 k = 1#1 := cond1_neg k h0
      have k1_h2 : ¬ k1_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k1_h1 : k1_cond1 k = 1#1 := cond1_pos k h0
      have k1_h2 : k1_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k1_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid1.Coords) (b : Ref sig .scVector) : DevRef τ sig := (Proc.scVector (cV L) (jV L)).devRef b

def myBufs (L : grid1.Coords) : Finset (DevRef τ sig) := {dr L cc1_scratch0, dr L cc1_scratch1, dr L cc1_scratch2}
def mySems (d : Dev nD) (L : grid1.Coords) : Finset (GSem nD τ sig) :=
  {(thr d L, SemLoc.dma cc1_scoped0.sem), (thr d L, SemLoc.dma cc1_scratch3.sem), (thr d L, SemLoc.dma cc1_scratch4.sem), (thr d L, SemLoc.dma cc1_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc1_scoped0.sem : SemLoc sig).isScoped .scVector = true; decide⟩
  · exact mem_ownCells.mpr ⟨rfl, by show (SemLoc.dma cc1_scratch3.sem : SemLoc sig).isScoped .scVector = true; decide⟩
  · exact mem_ownCells.mpr ⟨rfl, by show (SemLoc.dma cc1_scratch4.sem : SemLoc sig).isScoped .scVector = true; decide⟩
  · exact mem_ownCells.mpr ⟨rfl, by show (SemLoc.dma cc1_scratch5.sem : SemLoc sig).isScoped .scVector = true; decide⟩

omit [FloatOps F] in
theorem ownSems0_split :
    (ownSems0 (thr d L) : sProp 𝕄)
      = iprop((semVal (thr d L, SemLoc.dma cc1_scoped0.sem) 0 ∗ semVal (thr d L, SemLoc.dma cc1_scratch3.sem) 0
          ∗ semVal (thr d L, SemLoc.dma cc1_scratch4.sem) 0 ∗ semVal (thr d L, SemLoc.dma cc1_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc1_scoped0.sem : DmaSem sig) ≠ cc1_scratch3.sem := by decide
  have e2 : (cc1_scoped0.sem : DmaSem sig) ≠ cc1_scratch4.sem := by decide
  have e3 : (cc1_scoped0.sem : DmaSem sig) ≠ cc1_scratch5.sem := by decide
  have e4 : (cc1_scratch3.sem : DmaSem sig) ≠ cc1_scratch4.sem := by decide
  have e5 : (cc1_scratch3.sem : DmaSem sig) ≠ cc1_scratch5.sem := by decide
  have e6 : (cc1_scratch4.sem : DmaSem sig) ≠ cc1_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc1_scratch0 ≠ dr L cc1_scratch1 := fun e => absurd (Proc.devRef_injective _ e) (show (cc1_scratch0 : Ref sig .scVector) ≠ cc1_scratch1 by decide)
  have e2 : dr L cc1_scratch0 ≠ dr L cc1_scratch2 := fun e => absurd (Proc.devRef_injective _ e) (show (cc1_scratch0 : Ref sig .scVector) ≠ cc1_scratch2 by decide)
  have e3 : dr L cc1_scratch1 ≠ dr L cc1_scratch2 := fun e => absurd (Proc.devRef_injective _ e) (show (cc1_scratch1 : Ref sig .scVector) ≠ cc1_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc1_kern L tW (Memref.isWhole_whole _) iW (Memref.isWhole_whole _) oW (Memref.isWhole_whole _)
            sI (Memref.isWhole_whole _) sA (Memref.isWhole_whole _) sB (Memref.isWhole_whole _) cc1_scratch3 cc1_scratch4 cc1_scratch5 cc1_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KI.T1

end
-- ==== Proof.KIP1.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KIT1

noncomputable section

namespace Cert.Proof.KI.T1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid1.bound 0)) (s : Fin (grid1.bound 1)) : grid1.Coords :=
  fun | 0 => c | 1 => s | ⟨_ + 2, h⟩ => absurd h (Nat.not_lt.2 (Nat.le_add_left _ _))

abbrev iLoc (d : Dev nD) : Loc nD τ sig := (SparseCore.T d).loc main_v11
abbrev oLoc (d : Dev nD) : Loc nD τ sig := (SparseCore.T d).loc main_v12

abbrev iRect (L : grid1.Coords) : Rect S32x10x128 := Rect.unit (s := S32x10x128) (k1_off1 L) S1x10x128.size (k1_off1_inb L)
abbrev oRect (L : grid1.Coords) (k : Fin k1_t1_loop.trips) (r : Fin 2) : Rect S40960x128 :=
  Rect.unit (s := S40960x128) (k1_off4 L k (BitVec.ofNat 32 r.val)) S128x128.size (k1_off4_inb L k r)

theorem set_iBlk (L : grid1.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid1.Coords) (k : Fin k1_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid1.bound 0) × Fin (grid1.bound 1)
abbrev CI : Type := (Fin (grid1.bound 0) × Fin (grid1.bound 1)) × (Fin k1_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k1_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k1_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k1_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid1.bound 0), cc.val = ((idx 0).val / 128 % 20) / 10 := ⟨⟨_, by show _ < 2; omega⟩, rfl⟩
  obtain ⟨ii, hii⟩ : ∃ ii : Fin (grid1.bound 1), ii.val = (idx 0).val / 128 / 20 := ⟨⟨_, by show _ < 16; omega⟩, rfl⟩
  obtain ⟨kk, hkk⟩ : ∃ kk : Fin k1_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k1_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid1.bound 0)) : PosShare TreeShare := Transfers.shareTok fullShare (grid1.bound 0) c
abbrev tsh (c : Fin (grid1.bound 0)) (i : Fin (grid1.bound 1)) : PosShare TreeShare := Transfers.shareTok (tokC c) (grid1.bound 1) i

/-- What of the table stays with the TensorCore while the tasks hold their shares. -/
def tblRem (ft : Buf (Elt F) (tblLoc d)) : sProp 𝕄 :=
  iprop((tblLoc d ↦{Transfers.shareDrop fullShare (grid1.bound 0)} ft)
    ∗ bigSep Finset.univ fun c : Fin (grid1.bound 0) => (tblLoc d ↦{Transfers.shareDrop (tokC c) (grid1.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid1.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid1.bound 1)))) $$ Hc
  ihave Hc'' := (Entails.of_eq (bigSep_sep' (Finset.univ : Finset (Fin (grid1.bound 0)))
    (fun c => (tblLoc d ↦{Transfers.shareDrop (tokC c) (grid1.bound 1)} ft : sProp 𝕄))
    (fun c => bigSep Finset.univ fun i : Fin (grid1.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid1.bound 0))
  isplitl [Hd]; · iexact Hd
  ihave Hc := (Entails.of_eq (bigSep_sep' (Finset.univ : Finset (Fin (grid1.bound 0)))
    (fun c => (tblLoc d ↦{Transfers.shareDrop (tokC c) (grid1.bound 1)} ft : sProp 𝕄))
    (fun c => bigSep Finset.univ fun i : Fin (grid1.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid1.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid1.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid1.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid1.bound 0)) (i : Fin (grid1.bound 1)) : sProp 𝕄 := (tblLoc d ↦{tsh c i} ft : sProp 𝕄)
abbrev If (fi : Buf (Elt F) (iLoc d)) (c : Fin (grid1.bound 0)) (i : Fin (grid1.bound 1)) : sProp 𝕄 := (iLoc d ↦[iSet (c, i)]{fullShare} fi : sProp 𝕄)
abbrev Of (fo : Buf (Elt F) (oLoc d)) (c : Fin (grid1.bound 0)) (i : Fin (grid1.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid1.bound 0)) (i : Fin (grid1.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KI.T1

end
-- ==== Proof.KIT2.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KI.T2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v17_scv
abbrev oW : Memref sig .scVector .hbm S40960x128 .f32 := Memref.whole main_v18_scv
abbrev sI : Memref sig .scVector .vmem S10x128 .i32 := Memref.whole cc2_scratch0
abbrev sA : Memref sig .scVector .vmem S128x128 .f32 := Memref.whole cc2_scratch1
abbrev sB : Memref sig .scVector .vmem S128x128 .f32 := Memref.whole cc2_scratch2

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The subcore's block of row numbers, as the kernel slices it. -/
abbrev iBlk (L : grid2.Coords) : Memref sig .scVector .hbm S10x128 .i32 :=
  ((iW : Memref sig .scVector .hbm S32x10x128 .i32).slice (Rect.unit (s := S32x10x128) (k2_off1 L) S1x10x128.size (k2_off1_inb L)) (fun _ => rfl)).squeeze S10x128 squeezes_S1x10x128_S10x128
/-- Chunk `2 k + r` of the subcore's part of the result, as the kernel slices it. -/
abbrev oCh (L : grid2.Coords) (k : Fin k2_t1_loop.trips) (r : Fin 2) : Memref sig .scVector .hbm S128x128 .f32 :=
  (oW : Memref sig .scVector .hbm S40960x128 .f32).slice (Rect.unit (s := S40960x128) (k2_off4 L k (BitVec.ofNat 32 r.val)) S128x128.size (k2_off4_inb L k r)) (fun _ => rfl)

theorem cond1_neg : ∀ k : Fin k2_t1_loop.trips, k.val = 0 → ¬ k2_cond1 k = 1#1 := by decide +kernel
theorem cond2_neg : ∀ k : Fin k2_t1_loop.trips, k.val = 0 → ¬ k2_cond2 k = 1#1 := by decide +kernel
theorem cond1_pos : ∀ k : Fin k2_t1_loop.trips, k.val ≠ 0 → k2_cond1 k = 1#1 := by decide +kernel
theorem cond2_pos : ∀ k : Fin k2_t1_loop.trips, k.val ≠ 0 → k2_cond2 k = 1#1 := by decide +kernel
theorem trips_eq : k2_t1_loop.trips = 5 := by decide +kernel

variable [FloatOps F] (d : Dev nD) (L : grid2.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k2_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k2_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k2_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc2_scratch4.sem) 0 ∗ semVal (thr d L, SemLoc.dma cc2_scratch5.sem) 0)
  else
    iprop(∃ kp : Fin k2_t1_loop.trips, ⌜kp.val + 1 = n⌝ ∗ ∃ fa : oBuf (F := F) d L, ∃ ga, ∃ fb : oBuf (F := F) d L, ∃ gb,
      Transfers.Flight countersEmb (thr d L) (SemLoc.dma cc2_scratch4.sem) (none : HIx 5) 524288
          iprop(own d L (oCh L kp 0) fa ∗ own d L (sA : Memref sig .scVector .vmem S128x128 .f32) ga)
      ∗ Transfers.Flight countersEmb (thr d L) (SemLoc.dma cc2_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc2_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k2_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k2_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k2_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k2_t1_loop.trips) (hkp : kp.val + 1 = k2_t1_loop.trips) :
    iprop((bigSep Finset.univ fun j => chunkSt d L fo k2_t1_loop.trips j) ∗ donePair d L kp)
      ⊢ bigSep Finset.univ fun j => donePair d L j := by
  have e1 : chunkSt d L fo k2_t1_loop.trips kp = iprop(emp) := by
    unfold chunkSt; rw [if_neg (by have := kp.isLt; omega), if_neg (by omega)]
  have e2 : (bigSep (Finset.univ.erase kp) fun j => chunkSt d L fo k2_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k2_t1_loop.trips ≤ j.val := by omega
      have b : j.val + 1 < k2_t1_loop.trips := by omega
      unfold chunkSt
      simp only [if_neg a, if_pos b]
  rw [SparseCore.bigSep_erase' (Finset.mem_univ kp) (Φ := fun j => chunkSt d L fo k2_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc2_scoped0.sem) 0
        ∗ semVal (thr d L, SemLoc.dma cc2_scratch3.sem) 0
        ∗ semVal (thr d L, SemLoc.dma cc2_scratch4.sem) 0
        ∗ semVal (thr d L, SemLoc.dma cc2_scratch5.sem) 0
        ∗ owes (thr d L) O W)
      ⊢ wp frame (wpE (defs₀ (F := F)) 𝒱₀ (thr d L) none) Set.univ
          (cc2_kern L tW (Memref.isWhole_whole _) iW (Memref.isWhole_whole _) oW (Memref.isWhole_whole _)
            sI (Memref.isWhole_whole _) sA (Memref.isWhole_whole _) sB (Memref.isWhole_whole _) cc2_scratch3 cc2_scratch4 cc2_scratch5 cc2_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc2_scoped0.sem) 0
            ∗ semVal (thr d L, SemLoc.dma cc2_scratch3.sem) 0
            ∗ semVal (thr d L, SemLoc.dma cc2_scratch4.sem) 0
            ∗ semVal (thr d L, SemLoc.dma cc2_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc2_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k2_off3 k 0#32) S1x128.size (k2_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k2_off3 k 1#32) S1x128.size (k2_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k2_h1 : ¬ k2_cond1 k = 1#1 := cond1_neg k h0
      have k2_h2 : ¬ k2_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k2_h1 : k2_cond1 k = 1#1 := cond1_pos k h0
      have k2_h2 : k2_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k2_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid2.Coords) (b : Ref sig .scVector) : DevRef τ sig := (Proc.scVector (cV L) (jV L)).devRef b

def myBufs (L : grid2.Coords) : Finset (DevRef τ sig) := {dr L cc2_scratch0, dr L cc2_scratch1, dr L cc2_scratch2}
def mySems (d : Dev nD) (L : grid2.Coords) : Finset (GSem nD τ sig) :=
  {(thr d L, SemLoc.dma cc2_scoped0.sem), (thr d L, SemLoc.dma cc2_scratch3.sem), (thr d L, SemLoc.dma cc2_scratch4.sem), (thr d L, SemLoc.dma cc2_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc2_scoped0.sem : SemLoc sig).isScoped .scVector = true; decide⟩
  · exact mem_ownCells.mpr ⟨rfl, by show (SemLoc.dma cc2_scratch3.sem : SemLoc sig).isScoped .scVector = true; decide⟩
  · exact mem_ownCells.mpr ⟨rfl, by show (SemLoc.dma cc2_scratch4.sem : SemLoc sig).isScoped .scVector = true; decide⟩
  · exact mem_ownCells.mpr ⟨rfl, by show (SemLoc.dma cc2_scratch5.sem : SemLoc sig).isScoped .scVector = true; decide⟩

omit [FloatOps F] in
theorem ownSems0_split :
    (ownSems0 (thr d L) : sProp 𝕄)
      = iprop((semVal (thr d L, SemLoc.dma cc2_scoped0.sem) 0 ∗ semVal (thr d L, SemLoc.dma cc2_scratch3.sem) 0
          ∗ semVal (thr d L, SemLoc.dma cc2_scratch4.sem) 0 ∗ semVal (thr d L, SemLoc.dma cc2_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc2_scoped0.sem : DmaSem sig) ≠ cc2_scratch3.sem := by decide
  have e2 : (cc2_scoped0.sem : DmaSem sig) ≠ cc2_scratch4.sem := by decide
  have e3 : (cc2_scoped0.sem : DmaSem sig) ≠ cc2_scratch5.sem := by decide
  have e4 : (cc2_scratch3.sem : DmaSem sig) ≠ cc2_scratch4.sem := by decide
  have e5 : (cc2_scratch3.sem : DmaSem sig) ≠ cc2_scratch5.sem := by decide
  have e6 : (cc2_scratch4.sem : DmaSem sig) ≠ cc2_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc2_scratch0 ≠ dr L cc2_scratch1 := fun e => absurd (Proc.devRef_injective _ e) (show (cc2_scratch0 : Ref sig .scVector) ≠ cc2_scratch1 by decide)
  have e2 : dr L cc2_scratch0 ≠ dr L cc2_scratch2 := fun e => absurd (Proc.devRef_injective _ e) (show (cc2_scratch0 : Ref sig .scVector) ≠ cc2_scratch2 by decide)
  have e3 : dr L cc2_scratch1 ≠ dr L cc2_scratch2 := fun e => absurd (Proc.devRef_injective _ e) (show (cc2_scratch1 : Ref sig .scVector) ≠ cc2_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc2_kern L tW (Memref.isWhole_whole _) iW (Memref.isWhole_whole _) oW (Memref.isWhole_whole _)
            sI (Memref.isWhole_whole _) sA (Memref.isWhole_whole _) sB (Memref.isWhole_whole _) cc2_scratch3 cc2_scratch4 cc2_scratch5 cc2_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KI.T2

end
-- ==== Proof.KIP2.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KIT2

noncomputable section

namespace Cert.Proof.KI.T2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid2.bound 0)) (s : Fin (grid2.bound 1)) : grid2.Coords :=
  fun | 0 => c | 1 => s | ⟨_ + 2, h⟩ => absurd h (Nat.not_lt.2 (Nat.le_add_left _ _))

abbrev iLoc (d : Dev nD) : Loc nD τ sig := (SparseCore.T d).loc main_v17
abbrev oLoc (d : Dev nD) : Loc nD τ sig := (SparseCore.T d).loc main_v18

abbrev iRect (L : grid2.Coords) : Rect S32x10x128 := Rect.unit (s := S32x10x128) (k2_off1 L) S1x10x128.size (k2_off1_inb L)
abbrev oRect (L : grid2.Coords) (k : Fin k2_t1_loop.trips) (r : Fin 2) : Rect S40960x128 :=
  Rect.unit (s := S40960x128) (k2_off4 L k (BitVec.ofNat 32 r.val)) S128x128.size (k2_off4_inb L k r)

theorem set_iBlk (L : grid2.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid2.Coords) (k : Fin k2_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid2.bound 0) × Fin (grid2.bound 1)
abbrev CI : Type := (Fin (grid2.bound 0) × Fin (grid2.bound 1)) × (Fin k2_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k2_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k2_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k2_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid2.bound 0), cc.val = ((idx 0).val / 128 % 20) / 10 := ⟨⟨_, by show _ < 2; omega⟩, rfl⟩
  obtain ⟨ii, hii⟩ : ∃ ii : Fin (grid2.bound 1), ii.val = (idx 0).val / 128 / 20 := ⟨⟨_, by show _ < 16; omega⟩, rfl⟩
  obtain ⟨kk, hkk⟩ : ∃ kk : Fin k2_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k2_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid2.bound 0)) : PosShare TreeShare := Transfers.shareTok fullShare (grid2.bound 0) c
abbrev tsh (c : Fin (grid2.bound 0)) (i : Fin (grid2.bound 1)) : PosShare TreeShare := Transfers.shareTok (tokC c) (grid2.bound 1) i

/-- What of the table stays with the TensorCore while the tasks hold their shares. -/
def tblRem (ft : Buf (Elt F) (tblLoc d)) : sProp 𝕄 :=
  iprop((tblLoc d ↦{Transfers.shareDrop fullShare (grid2.bound 0)} ft)
    ∗ bigSep Finset.univ fun c : Fin (grid2.bound 0) => (tblLoc d ↦{Transfers.shareDrop (tokC c) (grid2.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid2.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid2.bound 1)))) $$ Hc
  ihave Hc'' := (Entails.of_eq (bigSep_sep' (Finset.univ : Finset (Fin (grid2.bound 0)))
    (fun c => (tblLoc d ↦{Transfers.shareDrop (tokC c) (grid2.bound 1)} ft : sProp 𝕄))
    (fun c => bigSep Finset.univ fun i : Fin (grid2.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid2.bound 0))
  isplitl [Hd]; · iexact Hd
  ihave Hc := (Entails.of_eq (bigSep_sep' (Finset.univ : Finset (Fin (grid2.bound 0)))
    (fun c => (tblLoc d ↦{Transfers.shareDrop (tokC c) (grid2.bound 1)} ft : sProp 𝕄))
    (fun c => bigSep Finset.univ fun i : Fin (grid2.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid2.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid2.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid2.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid2.bound 0)) (i : Fin (grid2.bound 1)) : sProp 𝕄 := (tblLoc d ↦{tsh c i} ft : sProp 𝕄)
abbrev If (fi : Buf (Elt F) (iLoc d)) (c : Fin (grid2.bound 0)) (i : Fin (grid2.bound 1)) : sProp 𝕄 := (iLoc d ↦[iSet (c, i)]{fullShare} fi : sProp 𝕄)
abbrev Of (fo : Buf (Elt F) (oLoc d)) (c : Fin (grid2.bound 0)) (i : Fin (grid2.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid2.bound 0)) (i : Fin (grid2.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KI.T2

end
-- ==== Proof.KIT3.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KI.T3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v23_scv
abbrev oW : Memref sig .scVector .hbm S40960x128 .f32 := Memref.whole main_v24_scv
abbrev sI : Memref sig .scVector .vmem S10x128 .i32 := Memref.whole cc3_scratch0
abbrev sA : Memref sig .scVector .vmem S128x128 .f32 := Memref.whole cc3_scratch1
abbrev sB : Memref sig .scVector .vmem S128x128 .f32 := Memref.whole cc3_scratch2

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-- The subcore's block of row numbers, as the kernel slices it. -/
abbrev iBlk (L : grid3.Coords) : Memref sig .scVector .hbm S10x128 .i32 :=
  ((iW : Memref sig .scVector .hbm S32x10x128 .i32).slice (Rect.unit (s := S32x10x128) (k3_off1 L) S1x10x128.size (k3_off1_inb L)) (fun _ => rfl)).squeeze S10x128 squeezes_S1x10x128_S10x128
/-- Chunk `2 k + r` of the subcore's part of the result, as the kernel slices it. -/
abbrev oCh (L : grid3.Coords) (k : Fin k3_t1_loop.trips) (r : Fin 2) : Memref sig .scVector .hbm S128x128 .f32 :=
  (oW : Memref sig .scVector .hbm S40960x128 .f32).slice (Rect.unit (s := S40960x128) (k3_off4 L k (BitVec.ofNat 32 r.val)) S128x128.size (k3_off4_inb L k r)) (fun _ => rfl)

theorem cond1_neg : ∀ k : Fin k3_t1_loop.trips, k.val = 0 → ¬ k3_cond1 k = 1#1 := by decide +kernel
theorem cond2_neg : ∀ k : Fin k3_t1_loop.trips, k.val = 0 → ¬ k3_cond2 k = 1#1 := by decide +kernel
theorem cond1_pos : ∀ k : Fin k3_t1_loop.trips, k.val ≠ 0 → k3_cond1 k = 1#1 := by decide +kernel
theorem cond2_pos : ∀ k : Fin k3_t1_loop.trips, k.val ≠ 0 → k3_cond2 k = 1#1 := by decide +kernel
theorem trips_eq : k3_t1_loop.trips = 5 := by decide +kernel

variable [FloatOps F] (d : Dev nD) (L : grid3.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k3_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k3_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k3_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc3_scratch4.sem) 0 ∗ semVal (thr d L, SemLoc.dma cc3_scratch5.sem) 0)
  else
    iprop(∃ kp : Fin k3_t1_loop.trips, ⌜kp.val + 1 = n⌝ ∗ ∃ fa : oBuf (F := F) d L, ∃ ga, ∃ fb : oBuf (F := F) d L, ∃ gb,
      Transfers.Flight countersEmb (thr d L) (SemLoc.dma cc3_scratch4.sem) (none : HIx 5) 524288
          iprop(own d L (oCh L kp 0) fa ∗ own d L (sA : Memref sig .scVector .vmem S128x128 .f32) ga)
      ∗ Transfers.Flight countersEmb (thr d L) (SemLoc.dma cc3_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc3_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k3_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k3_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k3_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k3_t1_loop.trips) (hkp : kp.val + 1 = k3_t1_loop.trips) :
    iprop((bigSep Finset.univ fun j => chunkSt d L fo k3_t1_loop.trips j) ∗ donePair d L kp)
      ⊢ bigSep Finset.univ fun j => donePair d L j := by
  have e1 : chunkSt d L fo k3_t1_loop.trips kp = iprop(emp) := by
    unfold chunkSt; rw [if_neg (by have := kp.isLt; omega), if_neg (by omega)]
  have e2 : (bigSep (Finset.univ.erase kp) fun j => chunkSt d L fo k3_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k3_t1_loop.trips ≤ j.val := by omega
      have b : j.val + 1 < k3_t1_loop.trips := by omega
      unfold chunkSt
      simp only [if_neg a, if_pos b]
  rw [SparseCore.bigSep_erase' (Finset.mem_univ kp) (Φ := fun j => chunkSt d L fo k3_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc3_scoped0.sem) 0
        ∗ semVal (thr d L, SemLoc.dma cc3_scratch3.sem) 0
        ∗ semVal (thr d L, SemLoc.dma cc3_scratch4.sem) 0
        ∗ semVal (thr d L, SemLoc.dma cc3_scratch5.sem) 0
        ∗ owes (thr d L) O W)
      ⊢ wp frame (wpE (defs₀ (F := F)) 𝒱₀ (thr d L) none) Set.univ
          (cc3_kern L tW (Memref.isWhole_whole _) iW (Memref.isWhole_whole _) oW (Memref.isWhole_whole _)
            sI (Memref.isWhole_whole _) sA (Memref.isWhole_whole _) sB (Memref.isWhole_whole _) cc3_scratch3 cc3_scratch4 cc3_scratch5 cc3_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc3_scoped0.sem) 0
            ∗ semVal (thr d L, SemLoc.dma cc3_scratch3.sem) 0
            ∗ semVal (thr d L, SemLoc.dma cc3_scratch4.sem) 0
            ∗ semVal (thr d L, SemLoc.dma cc3_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc3_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k3_off3 k 0#32) S1x128.size (k3_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k3_off3 k 1#32) S1x128.size (k3_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k3_h1 : ¬ k3_cond1 k = 1#1 := cond1_neg k h0
      have k3_h2 : ¬ k3_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k3_h1 : k3_cond1 k = 1#1 := cond1_pos k h0
      have k3_h2 : k3_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k3_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid3.Coords) (b : Ref sig .scVector) : DevRef τ sig := (Proc.scVector (cV L) (jV L)).devRef b

def myBufs (L : grid3.Coords) : Finset (DevRef τ sig) := {dr L cc3_scratch0, dr L cc3_scratch1, dr L cc3_scratch2}
def mySems (d : Dev nD) (L : grid3.Coords) : Finset (GSem nD τ sig) :=
  {(thr d L, SemLoc.dma cc3_scoped0.sem), (thr d L, SemLoc.dma cc3_scratch3.sem), (thr d L, SemLoc.dma cc3_scratch4.sem), (thr d L, SemLoc.dma cc3_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc3_scoped0.sem : SemLoc sig).isScoped .scVector = true; decide⟩
  · exact mem_ownCells.mpr ⟨rfl, by show (SemLoc.dma cc3_scratch3.sem : SemLoc sig).isScoped .scVector = true; decide⟩
  · exact mem_ownCells.mpr ⟨rfl, by show (SemLoc.dma cc3_scratch4.sem : SemLoc sig).isScoped .scVector = true; decide⟩
  · exact mem_ownCells.mpr ⟨rfl, by show (SemLoc.dma cc3_scratch5.sem : SemLoc sig).isScoped .scVector = true; decide⟩

omit [FloatOps F] in
theorem ownSems0_split :
    (ownSems0 (thr d L) : sProp 𝕄)
      = iprop((semVal (thr d L, SemLoc.dma cc3_scoped0.sem) 0 ∗ semVal (thr d L, SemLoc.dma cc3_scratch3.sem) 0
          ∗ semVal (thr d L, SemLoc.dma cc3_scratch4.sem) 0 ∗ semVal (thr d L, SemLoc.dma cc3_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc3_scoped0.sem : DmaSem sig) ≠ cc3_scratch3.sem := by decide
  have e2 : (cc3_scoped0.sem : DmaSem sig) ≠ cc3_scratch4.sem := by decide
  have e3 : (cc3_scoped0.sem : DmaSem sig) ≠ cc3_scratch5.sem := by decide
  have e4 : (cc3_scratch3.sem : DmaSem sig) ≠ cc3_scratch4.sem := by decide
  have e5 : (cc3_scratch3.sem : DmaSem sig) ≠ cc3_scratch5.sem := by decide
  have e6 : (cc3_scratch4.sem : DmaSem sig) ≠ cc3_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc3_scratch0 ≠ dr L cc3_scratch1 := fun e => absurd (Proc.devRef_injective _ e) (show (cc3_scratch0 : Ref sig .scVector) ≠ cc3_scratch1 by decide)
  have e2 : dr L cc3_scratch0 ≠ dr L cc3_scratch2 := fun e => absurd (Proc.devRef_injective _ e) (show (cc3_scratch0 : Ref sig .scVector) ≠ cc3_scratch2 by decide)
  have e3 : dr L cc3_scratch1 ≠ dr L cc3_scratch2 := fun e => absurd (Proc.devRef_injective _ e) (show (cc3_scratch1 : Ref sig .scVector) ≠ cc3_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc3_kern L tW (Memref.isWhole_whole _) iW (Memref.isWhole_whole _) oW (Memref.isWhole_whole _)
            sI (Memref.isWhole_whole _) sA (Memref.isWhole_whole _) sB (Memref.isWhole_whole _) cc3_scratch3 cc3_scratch4 cc3_scratch5 cc3_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KI.T3

end
-- ==== Proof.KIP3.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KIT3

noncomputable section

namespace Cert.Proof.KI.T3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid3.bound 0)) (s : Fin (grid3.bound 1)) : grid3.Coords :=
  fun | 0 => c | 1 => s | ⟨_ + 2, h⟩ => absurd h (Nat.not_lt.2 (Nat.le_add_left _ _))

abbrev iLoc (d : Dev nD) : Loc nD τ sig := (SparseCore.T d).loc main_v23
abbrev oLoc (d : Dev nD) : Loc nD τ sig := (SparseCore.T d).loc main_v24

abbrev iRect (L : grid3.Coords) : Rect S32x10x128 := Rect.unit (s := S32x10x128) (k3_off1 L) S1x10x128.size (k3_off1_inb L)
abbrev oRect (L : grid3.Coords) (k : Fin k3_t1_loop.trips) (r : Fin 2) : Rect S40960x128 :=
  Rect.unit (s := S40960x128) (k3_off4 L k (BitVec.ofNat 32 r.val)) S128x128.size (k3_off4_inb L k r)

theorem set_iBlk (L : grid3.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid3.Coords) (k : Fin k3_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid3.bound 0) × Fin (grid3.bound 1)
abbrev CI : Type := (Fin (grid3.bound 0) × Fin (grid3.bound 1)) × (Fin k3_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k3_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k3_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k3_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid3.bound 0), cc.val = ((idx 0).val / 128 % 20) / 10 := ⟨⟨_, by show _ < 2; omega⟩, rfl⟩
  obtain ⟨ii, hii⟩ : ∃ ii : Fin (grid3.bound 1), ii.val = (idx 0).val / 128 / 20 := ⟨⟨_, by show _ < 16; omega⟩, rfl⟩
  obtain ⟨kk, hkk⟩ : ∃ kk : Fin k3_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k3_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid3.bound 0)) : PosShare TreeShare := Transfers.shareTok fullShare (grid3.bound 0) c
abbrev tsh (c : Fin (grid3.bound 0)) (i : Fin (grid3.bound 1)) : PosShare TreeShare := Transfers.shareTok (tokC c) (grid3.bound 1) i

/-- What of the table stays with the TensorCore while the tasks hold their shares. -/
def tblRem (ft : Buf (Elt F) (tblLoc d)) : sProp 𝕄 :=
  iprop((tblLoc d ↦{Transfers.shareDrop fullShare (grid3.bound 0)} ft)
    ∗ bigSep Finset.univ fun c : Fin (grid3.bound 0) => (tblLoc d ↦{Transfers.shareDrop (tokC c) (grid3.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid3.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid3.bound 1)))) $$ Hc
  ihave Hc'' := (Entails.of_eq (bigSep_sep' (Finset.univ : Finset (Fin (grid3.bound 0)))
    (fun c => (tblLoc d ↦{Transfers.shareDrop (tokC c) (grid3.bound 1)} ft : sProp 𝕄))
    (fun c => bigSep Finset.univ fun i : Fin (grid3.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid3.bound 0))
  isplitl [Hd]; · iexact Hd
  ihave Hc := (Entails.of_eq (bigSep_sep' (Finset.univ : Finset (Fin (grid3.bound 0)))
    (fun c => (tblLoc d ↦{Transfers.shareDrop (tokC c) (grid3.bound 1)} ft : sProp 𝕄))
    (fun c => bigSep Finset.univ fun i : Fin (grid3.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid3.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid3.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid3.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid3.bound 0)) (i : Fin (grid3.bound 1)) : sProp 𝕄 := (tblLoc d ↦{tsh c i} ft : sProp 𝕄)
abbrev If (fi : Buf (Elt F) (iLoc d)) (c : Fin (grid3.bound 0)) (i : Fin (grid3.bound 1)) : sProp 𝕄 := (iLoc d ↦[iSet (c, i)]{fullShare} fi : sProp 𝕄)
abbrev Of (fo : Buf (Elt F) (oLoc d)) (c : Fin (grid3.bound 0)) (i : Fin (grid3.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid3.bound 0)) (i : Fin (grid3.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KI.T3

end
-- ==== Proof.KIT4.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KI.T4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v29_scv
abbrev oW : Memref sig .scVector .hbm S40960x128 .f32 := Memref.whole main_v30_scv
abbrev sI : Memref sig .scVector .vmem S10x128 .i32 := Memref.whole cc4_scratch0
abbrev sA : Memref sig .scVector .vmem S128x128 .f32 := Memref.whole cc4_scratch1
abbrev sB : Memref sig .scVector .vmem S128x128 .f32 := Memref.whole cc4_scratch2

abbrev cV (L : grid4.Coords) : Fin τ.nSC := (L 0).castLE hcore4
abbrev jV (L : grid4.Coords) : Fin τ.nSub := (L 1).castLE hsub4
abbrev thr (d : Dev nD) (L : grid4.Coords) : Thread nD τ := V d (cV L) (jV L)

/-- The subcore's block of row numbers, as the kernel slices it. -/
abbrev iBlk (L : grid4.Coords) : Memref sig .scVector .hbm S10x128 .i32 :=
  ((iW : Memref sig .scVector .hbm S32x10x128 .i32).slice (Rect.unit (s := S32x10x128) (k4_off1 L) S1x10x128.size (k4_off1_inb L)) (fun _ => rfl)).squeeze S10x128 squeezes_S1x10x128_S10x128
/-- Chunk `2 k + r` of the subcore's part of the result, as the kernel slices it. -/
abbrev oCh (L : grid4.Coords) (k : Fin k4_t1_loop.trips) (r : Fin 2) : Memref sig .scVector .hbm S128x128 .f32 :=
  (oW : Memref sig .scVector .hbm S40960x128 .f32).slice (Rect.unit (s := S40960x128) (k4_off4 L k (BitVec.ofNat 32 r.val)) S128x128.size (k4_off4_inb L k r)) (fun _ => rfl)

theorem cond1_neg : ∀ k : Fin k4_t1_loop.trips, k.val = 0 → ¬ k4_cond1 k = 1#1 := by decide +kernel
theorem cond2_neg : ∀ k : Fin k4_t1_loop.trips, k.val = 0 → ¬ k4_cond2 k = 1#1 := by decide +kernel
theorem cond1_pos : ∀ k : Fin k4_t1_loop.trips, k.val ≠ 0 → k4_cond1 k = 1#1 := by decide +kernel
theorem cond2_pos : ∀ k : Fin k4_t1_loop.trips, k.val ≠ 0 → k4_cond2 k = 1#1 := by decide +kernel
theorem trips_eq : k4_t1_loop.trips = 5 := by decide +kernel

variable [FloatOps F] (d : Dev nD) (L : grid4.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k4_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k4_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k4_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc4_scratch4.sem) 0 ∗ semVal (thr d L, SemLoc.dma cc4_scratch5.sem) 0)
  else
    iprop(∃ kp : Fin k4_t1_loop.trips, ⌜kp.val + 1 = n⌝ ∗ ∃ fa : oBuf (F := F) d L, ∃ ga, ∃ fb : oBuf (F := F) d L, ∃ gb,
      Transfers.Flight countersEmb (thr d L) (SemLoc.dma cc4_scratch4.sem) (none : HIx 5) 524288
          iprop(own d L (oCh L kp 0) fa ∗ own d L (sA : Memref sig .scVector .vmem S128x128 .f32) ga)
      ∗ Transfers.Flight countersEmb (thr d L) (SemLoc.dma cc4_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc4_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k4_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k4_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k4_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k4_t1_loop.trips) (hkp : kp.val + 1 = k4_t1_loop.trips) :
    iprop((bigSep Finset.univ fun j => chunkSt d L fo k4_t1_loop.trips j) ∗ donePair d L kp)
      ⊢ bigSep Finset.univ fun j => donePair d L j := by
  have e1 : chunkSt d L fo k4_t1_loop.trips kp = iprop(emp) := by
    unfold chunkSt; rw [if_neg (by have := kp.isLt; omega), if_neg (by omega)]
  have e2 : (bigSep (Finset.univ.erase kp) fun j => chunkSt d L fo k4_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k4_t1_loop.trips ≤ j.val := by omega
      have b : j.val + 1 < k4_t1_loop.trips := by omega
      unfold chunkSt
      simp only [if_neg a, if_pos b]
  rw [SparseCore.bigSep_erase' (Finset.mem_univ kp) (Φ := fun j => chunkSt d L fo k4_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc4_scoped0.sem) 0
        ∗ semVal (thr d L, SemLoc.dma cc4_scratch3.sem) 0
        ∗ semVal (thr d L, SemLoc.dma cc4_scratch4.sem) 0
        ∗ semVal (thr d L, SemLoc.dma cc4_scratch5.sem) 0
        ∗ owes (thr d L) O W)
      ⊢ wp frame (wpE (defs₀ (F := F)) 𝒱₀ (thr d L) none) Set.univ
          (cc4_kern L tW (Memref.isWhole_whole _) iW (Memref.isWhole_whole _) oW (Memref.isWhole_whole _)
            sI (Memref.isWhole_whole _) sA (Memref.isWhole_whole _) sB (Memref.isWhole_whole _) cc4_scratch3 cc4_scratch4 cc4_scratch5 cc4_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc4_scoped0.sem) 0
            ∗ semVal (thr d L, SemLoc.dma cc4_scratch3.sem) 0
            ∗ semVal (thr d L, SemLoc.dma cc4_scratch4.sem) 0
            ∗ semVal (thr d L, SemLoc.dma cc4_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc4_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k4_off3 k 0#32) S1x128.size (k4_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k4_off3 k 1#32) S1x128.size (k4_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k4_h1 : ¬ k4_cond1 k = 1#1 := cond1_neg k h0
      have k4_h2 : ¬ k4_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k4_h1 : k4_cond1 k = 1#1 := cond1_pos k h0
      have k4_h2 : k4_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k4_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid4.Coords) (b : Ref sig .scVector) : DevRef τ sig := (Proc.scVector (cV L) (jV L)).devRef b

def myBufs (L : grid4.Coords) : Finset (DevRef τ sig) := {dr L cc4_scratch0, dr L cc4_scratch1, dr L cc4_scratch2}
def mySems (d : Dev nD) (L : grid4.Coords) : Finset (GSem nD τ sig) :=
  {(thr d L, SemLoc.dma cc4_scoped0.sem), (thr d L, SemLoc.dma cc4_scratch3.sem), (thr d L, SemLoc.dma cc4_scratch4.sem), (thr d L, SemLoc.dma cc4_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc4_scoped0.sem : SemLoc sig).isScoped .scVector = true; decide⟩
  · exact mem_ownCells.mpr ⟨rfl, by show (SemLoc.dma cc4_scratch3.sem : SemLoc sig).isScoped .scVector = true; decide⟩
  · exact mem_ownCells.mpr ⟨rfl, by show (SemLoc.dma cc4_scratch4.sem : SemLoc sig).isScoped .scVector = true; decide⟩
  · exact mem_ownCells.mpr ⟨rfl, by show (SemLoc.dma cc4_scratch5.sem : SemLoc sig).isScoped .scVector = true; decide⟩

omit [FloatOps F] in
theorem ownSems0_split :
    (ownSems0 (thr d L) : sProp 𝕄)
      = iprop((semVal (thr d L, SemLoc.dma cc4_scoped0.sem) 0 ∗ semVal (thr d L, SemLoc.dma cc4_scratch3.sem) 0
          ∗ semVal (thr d L, SemLoc.dma cc4_scratch4.sem) 0 ∗ semVal (thr d L, SemLoc.dma cc4_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc4_scoped0.sem : DmaSem sig) ≠ cc4_scratch3.sem := by decide
  have e2 : (cc4_scoped0.sem : DmaSem sig) ≠ cc4_scratch4.sem := by decide
  have e3 : (cc4_scoped0.sem : DmaSem sig) ≠ cc4_scratch5.sem := by decide
  have e4 : (cc4_scratch3.sem : DmaSem sig) ≠ cc4_scratch4.sem := by decide
  have e5 : (cc4_scratch3.sem : DmaSem sig) ≠ cc4_scratch5.sem := by decide
  have e6 : (cc4_scratch4.sem : DmaSem sig) ≠ cc4_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc4_scratch0 ≠ dr L cc4_scratch1 := fun e => absurd (Proc.devRef_injective _ e) (show (cc4_scratch0 : Ref sig .scVector) ≠ cc4_scratch1 by decide)
  have e2 : dr L cc4_scratch0 ≠ dr L cc4_scratch2 := fun e => absurd (Proc.devRef_injective _ e) (show (cc4_scratch0 : Ref sig .scVector) ≠ cc4_scratch2 by decide)
  have e3 : dr L cc4_scratch1 ≠ dr L cc4_scratch2 := fun e => absurd (Proc.devRef_injective _ e) (show (cc4_scratch1 : Ref sig .scVector) ≠ cc4_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc4_kern L tW (Memref.isWhole_whole _) iW (Memref.isWhole_whole _) oW (Memref.isWhole_whole _)
            sI (Memref.isWhole_whole _) sA (Memref.isWhole_whole _) sB (Memref.isWhole_whole _) cc4_scratch3 cc4_scratch4 cc4_scratch5 cc4_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KI.T4

end
-- ==== Proof.KIP4.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KIT4

noncomputable section

namespace Cert.Proof.KI.T4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid4.bound 0)) (s : Fin (grid4.bound 1)) : grid4.Coords :=
  fun | 0 => c | 1 => s | ⟨_ + 2, h⟩ => absurd h (Nat.not_lt.2 (Nat.le_add_left _ _))

abbrev iLoc (d : Dev nD) : Loc nD τ sig := (SparseCore.T d).loc main_v29
abbrev oLoc (d : Dev nD) : Loc nD τ sig := (SparseCore.T d).loc main_v30

abbrev iRect (L : grid4.Coords) : Rect S32x10x128 := Rect.unit (s := S32x10x128) (k4_off1 L) S1x10x128.size (k4_off1_inb L)
abbrev oRect (L : grid4.Coords) (k : Fin k4_t1_loop.trips) (r : Fin 2) : Rect S40960x128 :=
  Rect.unit (s := S40960x128) (k4_off4 L k (BitVec.ofNat 32 r.val)) S128x128.size (k4_off4_inb L k r)

theorem set_iBlk (L : grid4.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid4.Coords) (k : Fin k4_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid4.bound 0) × Fin (grid4.bound 1)
abbrev CI : Type := (Fin (grid4.bound 0) × Fin (grid4.bound 1)) × (Fin k4_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k4_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k4_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k4_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid4.bound 0), cc.val = ((idx 0).val / 128 % 20) / 10 := ⟨⟨_, by show _ < 2; omega⟩, rfl⟩
  obtain ⟨ii, hii⟩ : ∃ ii : Fin (grid4.bound 1), ii.val = (idx 0).val / 128 / 20 := ⟨⟨_, by show _ < 16; omega⟩, rfl⟩
  obtain ⟨kk, hkk⟩ : ∃ kk : Fin k4_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k4_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid4.bound 0)) : PosShare TreeShare := Transfers.shareTok fullShare (grid4.bound 0) c
abbrev tsh (c : Fin (grid4.bound 0)) (i : Fin (grid4.bound 1)) : PosShare TreeShare := Transfers.shareTok (tokC c) (grid4.bound 1) i

/-- What of the table stays with the TensorCore while the tasks hold their shares. -/
def tblRem (ft : Buf (Elt F) (tblLoc d)) : sProp 𝕄 :=
  iprop((tblLoc d ↦{Transfers.shareDrop fullShare (grid4.bound 0)} ft)
    ∗ bigSep Finset.univ fun c : Fin (grid4.bound 0) => (tblLoc d ↦{Transfers.shareDrop (tokC c) (grid4.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid4.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid4.bound 1)))) $$ Hc
  ihave Hc'' := (Entails.of_eq (bigSep_sep' (Finset.univ : Finset (Fin (grid4.bound 0)))
    (fun c => (tblLoc d ↦{Transfers.shareDrop (tokC c) (grid4.bound 1)} ft : sProp 𝕄))
    (fun c => bigSep Finset.univ fun i : Fin (grid4.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid4.bound 0))
  isplitl [Hd]; · iexact Hd
  ihave Hc := (Entails.of_eq (bigSep_sep' (Finset.univ : Finset (Fin (grid4.bound 0)))
    (fun c => (tblLoc d ↦{Transfers.shareDrop (tokC c) (grid4.bound 1)} ft : sProp 𝕄))
    (fun c => bigSep Finset.univ fun i : Fin (grid4.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid4.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid4.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid4.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid4.bound 0)) (i : Fin (grid4.bound 1)) : sProp 𝕄 := (tblLoc d ↦{tsh c i} ft : sProp 𝕄)
abbrev If (fi : Buf (Elt F) (iLoc d)) (c : Fin (grid4.bound 0)) (i : Fin (grid4.bound 1)) : sProp 𝕄 := (iLoc d ↦[iSet (c, i)]{fullShare} fi : sProp 𝕄)
abbrev Of (fo : Buf (Elt F) (oLoc d)) (c : Fin (grid4.bound 0)) (i : Fin (grid4.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid4.bound 0)) (i : Fin (grid4.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KI.T4

end
-- ==== Proof.KIPay.lean ====
/-
  What the five gather calls' handshakes carry, and the launch theorem's obligations for them: each call hands every
  task a read share of the table, its block of row numbers and its ten chunks of the result, and takes them back with
  the chunks written; a task's obligation is its body's proof.
-/
import proofs.«205068_g58248346468665_cont_9to1c4b_383_29_alg».proof.Proof.KIP0
import proofs.«205068_g58248346468665_cont_9to1c4b_383_29_alg».proof.Proof.KIP1
import proofs.«205068_g58248346468665_cont_9to1c4b_383_29_alg».proof.Proof.KIP2
import proofs.«205068_g58248346468665_cont_9to1c4b_383_29_alg».proof.Proof.KIP3
import proofs.«205068_g58248346468665_cont_9to1c4b_383_29_alg».proof.Proof.KIP4

noncomputable section

namespace Cert.Proof.KI

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F]

/-- The arrays' contents when each call is made: the table's, and per call the row numbers' and (before the call) the result's. -/
structure Conts (F : FTy → Type) where
  tv : (d : Dev nD) → Buf (Elt F) (tblLoc d)
  iv0 : (d : Dev nD) → Buf (Elt F) (T0.iLoc d)
  ov0 : (d : Dev nD) → Buf (Elt F) (T0.oLoc d)
  iv1 : (d : Dev nD) → Buf (Elt F) (T1.iLoc d)
  ov1 : (d : Dev nD) → Buf (Elt F) (T1.oLoc d)
  iv2 : (d : Dev nD) → Buf (Elt F) (T2.iLoc d)
  ov2 : (d : Dev nD) → Buf (Elt F) (T2.oLoc d)
  iv3 : (d : Dev nD) → Buf (Elt F) (T3.iLoc d)
  ov3 : (d : Dev nD) → Buf (Elt F) (T3.oLoc d)
  iv4 : (d : Dev nD) → Buf (Elt F) (T4.iLoc d)
  ov4 : (d : Dev nD) → Buf (Elt F) (T4.oLoc d)

variable (C : Conts F)

def P : (K (F := F)).Pay (nD := nD) (Val := Elt F) (Name := ℕ) (U := UU) where
  st := fun q d c => match q with
    | 0 => T0.stRes d c (C.tv d) (C.iv0 d) (C.ov0 d)
    | 1 => T1.stRes d c (C.tv d) (C.iv1 d) (C.ov1 d)
    | 2 => T2.stRes d c (C.tv d) (C.iv2 d) (C.ov2 d)
    | 3 => T3.stRes d c (C.tv d) (C.iv3 d) (C.ov3 d)
    | 4 => T4.stRes d c (C.tv d) (C.iv4 d) (C.ov4 d)
  dn := fun q d c => match q with
    | 0 => T0.dnRes d c (C.tv d) (C.iv0 d)
    | 1 => T1.dnRes d c (C.tv d) (C.iv1 d)
    | 2 => T2.dnRes d c (C.tv d) (C.iv2 d)
    | 3 => T3.dnRes d c (C.tv d) (C.iv3 d)
    | 4 => T4.dnRes d c (C.tv d) (C.iv4 d)
  go := fun q d c i => match q with
    | 0 => T0.goRes d (T0.coordsV c i) (T0.tsh c i) (C.tv d) (C.iv0 d) (C.ov0 d)
    | 1 => T1.goRes d (T1.coordsV c i) (T1.tsh c i) (C.tv d) (C.iv1 d) (C.ov1 d)
    | 2 => T2.goRes d (T2.coordsV c i) (T2.tsh c i) (C.tv d) (C.iv2 d) (C.ov2 d)
    | 3 => T3.goRes d (T3.coordsV c i) (T3.tsh c i) (C.tv d) (C.iv3 d) (C.ov3 d)
    | 4 => T4.goRes d (T4.coordsV c i) (T4.tsh c i) (C.tv d) (C.iv4 d) (C.ov4 d)
  td := fun q d c i => match q with
    | 0 => T0.tdRes d (T0.coordsV c i) (T0.tsh c i) (C.tv d) (C.iv0 d)
    | 1 => T1.tdRes d (T1.coordsV c i) (T1.tsh c i) (C.tv d) (C.iv1 d)
    | 2 => T2.tdRes d (T2.coordsV c i) (T2.tsh c i) (C.tv d) (C.iv2 d)
    | 3 => T3.tdRes d (T3.coordsV c i) (T3.tsh c i) (C.tv d) (C.iv3 d)
    | 4 => T4.tdRes d (T4.coordsV c i) (T4.tsh c i) (C.tv d) (C.iv4 d)
  x := fun _ _ => iprop(emp)

set_option synthInstance.maxHeartbeats 2000000 in
set_option maxHeartbeats 8000000 in
instance P_storable : (P (F := F) C).IsStorable where
  st q d c := match q with
    | 0 => by show BI.Storable (upEmb : UEmb _ 𝕄) (T0.stRes d c (C.tv d) (C.iv0 d) (C.ov0 d)); unfold T0.stRes T0.goRes; infer_instance
    | 1 => by show BI.Storable (upEmb : UEmb _ 𝕄) (T1.stRes d c (C.tv d) (C.iv1 d) (C.ov1 d)); unfold T1.stRes T1.goRes; infer_instance
    | 2 => by show BI.Storable (upEmb : UEmb _ 𝕄) (T2.stRes d c (C.tv d) (C.iv2 d) (C.ov2 d)); unfold T2.stRes T2.goRes; infer_instance
    | 3 => by show BI.Storable (upEmb : UEmb _ 𝕄) (T3.stRes d c (C.tv d) (C.iv3 d) (C.ov3 d)); unfold T3.stRes T3.goRes; infer_instance
    | 4 => by show BI.Storable (upEmb : UEmb _ 𝕄) (T4.stRes d c (C.tv d) (C.iv4 d) (C.ov4 d)); unfold T4.stRes T4.goRes; infer_instance
  dn q d c := match q with
    | 0 => by show BI.Storable (upEmb : UEmb _ 𝕄) (T0.dnRes d c (C.tv d) (C.iv0 d)); unfold T0.dnRes T0.tdRes; infer_instance
    | 1 => by show BI.Storable (upEmb : UEmb _ 𝕄) (T1.dnRes d c (C.tv d) (C.iv1 d)); unfold T1.dnRes T1.tdRes; infer_instance
    | 2 => by show BI.Storable (upEmb : UEmb _ 𝕄) (T2.dnRes d c (C.tv d) (C.iv2 d)); unfold T2.dnRes T2.tdRes; infer_instance
    | 3 => by show BI.Storable (upEmb : UEmb _ 𝕄) (T3.dnRes d c (C.tv d) (C.iv3 d)); unfold T3.dnRes T3.tdRes; infer_instance
    | 4 => by show BI.Storable (upEmb : UEmb _ 𝕄) (T4.dnRes d c (C.tv d) (C.iv4 d)); unfold T4.dnRes T4.tdRes; infer_instance
  go q d c i := match q with
    | 0 => by show BI.Storable (upEmb : UEmb _ 𝕄) (T0.goRes d (T0.coordsV c i) (T0.tsh c i) (C.tv d) (C.iv0 d) (C.ov0 d)); unfold T0.goRes; infer_instance
    | 1 => by show BI.Storable (upEmb : UEmb _ 𝕄) (T1.goRes d (T1.coordsV c i) (T1.tsh c i) (C.tv d) (C.iv1 d) (C.ov1 d)); unfold T1.goRes; infer_instance
    | 2 => by show BI.Storable (upEmb : UEmb _ 𝕄) (T2.goRes d (T2.coordsV c i) (T2.tsh c i) (C.tv d) (C.iv2 d) (C.ov2 d)); unfold T2.goRes; infer_instance
    | 3 => by show BI.Storable (upEmb : UEmb _ 𝕄) (T3.goRes d (T3.coordsV c i) (T3.tsh c i) (C.tv d) (C.iv3 d) (C.ov3 d)); unfold T3.goRes; infer_instance
    | 4 => by show BI.Storable (upEmb : UEmb _ 𝕄) (T4.goRes d (T4.coordsV c i) (T4.tsh c i) (C.tv d) (C.iv4 d) (C.ov4 d)); unfold T4.goRes; infer_instance
  td q d c i := match q with
    | 0 => by show BI.Storable (upEmb : UEmb _ 𝕄) (T0.tdRes d (T0.coordsV c i) (T0.tsh c i) (C.tv d) (C.iv0 d)); unfold T0.tdRes; infer_instance
    | 1 => by show BI.Storable (upEmb : UEmb _ 𝕄) (T1.tdRes d (T1.coordsV c i) (T1.tsh c i) (C.tv d) (C.iv1 d)); unfold T1.tdRes; infer_instance
    | 2 => by show BI.Storable (upEmb : UEmb _ 𝕄) (T2.tdRes d (T2.coordsV c i) (T2.tsh c i) (C.tv d) (C.iv2 d)); unfold T2.tdRes; infer_instance
    | 3 => by show BI.Storable (upEmb : UEmb _ 𝕄) (T3.tdRes d (T3.coordsV c i) (T3.tsh c i) (C.tv d) (C.iv3 d)); unfold T3.tdRes; infer_instance
    | 4 => by show BI.Storable (upEmb : UEmb _ 𝕄) (T4.tdRes d (T4.coordsV c i) (T4.tsh c i) (C.tv d) (C.iv4 d)); unfold T4.tdRes; infer_instance

/-- Every row number a task is handed names a row of the table. -/
def PreOK : Prop :=
  (∀ (d : Dev nD) (L : grid0.Coords) j, ((T0.iBlk L).view.read (Elt F) (C.iv0 d) j).toNat < 50000) ∧
  (∀ (d : Dev nD) (L : grid1.Coords) j, ((T1.iBlk L).view.read (Elt F) (C.iv1 d) j).toNat < 50000) ∧
  (∀ (d : Dev nD) (L : grid2.Coords) j, ((T2.iBlk L).view.read (Elt F) (C.iv2 d) j).toNat < 50000) ∧
  (∀ (d : Dev nD) (L : grid3.Coords) j, ((T3.iBlk L).view.read (Elt F) (C.iv3 d) j).toNat < 50000) ∧
  (∀ (d : Dev nD) (L : grid4.Coords) j, ((T4.iBlk L).view.read (Elt F) (C.iv4 d) j).toNat < 50000)

omit [FloatOps F] in
theorem obl_post {thr : Thread nD τ} {A B C' : sProp 𝕄} {O : CellTallies nD τ sig (HIx 5)} {W : Waits sig (HIx 5)} {q : Fin 5} :
    iprop(A ∗ B ∗ C' ∗ ∃ W', ⌜∀ p ∈ W', p ∈ W ∨ p.2 = none⌝ ∗ owes thr O W')
      ⊢ iprop(A ∗ B ∗ C' ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_kern (T0.coordsV c s)
          T0.tW (Memref.isWhole_whole _) T0.iW (Memref.isWhole_whole _) T0.oW (Memref.isWhole_whole _)
          T0.sI (Memref.isWhole_whole _) T0.sA (Memref.isWhole_whole _) T0.sB (Memref.isWhole_whole _) cc0_scratch3 cc0_scratch4 cc0_scratch5 cc0_scoped0) ⟨⟩ c s := rfl

theorem tileObl0 (hpre : PreOK C) : (K (F := F)).TileObl (D (F := F)) 𝒱 (P C) v₀ 0 := by
  intro d c i O W hO _ _
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (T0.tile_body d (T0.coordsV ⟨_, hc.1⟩ ⟨_, hc.2⟩) O W hO _ _ _ _ (hpre.1 d _)).trans (wp_mono frame _ _ fun _ => obl_post)

theorem vecSplit0 : (K (F := F)).VecSplit' (P C) 0 := by
  intro d c
  show T0.stRes d c (C.tv d) (C.iv0 d) (C.ov0 d) ⊢ |={Set.univ}=> iprop(
      (bigSep Finset.univ fun i : Fin ((K (F := F)).nSub 0) => T0.goRes d (T0.coordsV c i) (T0.tsh c i) (C.tv d) (C.iv0 d) (C.ov0 d))
      ∗ ((bigSep Finset.univ fun i : Fin ((K (F := F)).nSub 0) => T0.tdRes d (T0.coordsV c i) (T0.tsh c i) (C.tv d) (C.iv0 d))
          -∗ T0.dnRes d c (C.tv d) (C.iv0 d)))
  unfold T0.stRes T0.dnRes
  iintro H; imodintro
  isplitl [H]; · iexact H
  iintro H; iexact H

theorem defs₀_vector1 (c : Fin τ.nSC) (s : Fin τ.nSub) :
    defs₀ (F := F) (.scVector c s) 1 ()
      = SparseCore.onTile hcore1 hsub1 (fun c s => cc1_kern (T1.coordsV c s)
          T1.tW (Memref.isWhole_whole _) T1.iW (Memref.isWhole_whole _) T1.oW (Memref.isWhole_whole _)
          T1.sI (Memref.isWhole_whole _) T1.sA (Memref.isWhole_whole _) T1.sB (Memref.isWhole_whole _) cc1_scratch3 cc1_scratch4 cc1_scratch5 cc1_scoped0) ⟨⟩ c s := rfl

theorem tileObl1 (hpre : PreOK C) : (K (F := F)).TileObl (D (F := F)) 𝒱 (P C) v₀ 1 := by
  intro d c i O W hO _ _
  simp only [show (P C).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (T1.tile_body d (T1.coordsV ⟨_, hc.1⟩ ⟨_, hc.2⟩) O W hO _ _ _ _ (hpre.2.1 d _)).trans (wp_mono frame _ _ fun _ => obl_post)

theorem vecSplit1 : (K (F := F)).VecSplit' (P C) 1 := by
  intro d c
  show T1.stRes d c (C.tv d) (C.iv1 d) (C.ov1 d) ⊢ |={Set.univ}=> iprop(
      (bigSep Finset.univ fun i : Fin ((K (F := F)).nSub 1) => T1.goRes d (T1.coordsV c i) (T1.tsh c i) (C.tv d) (C.iv1 d) (C.ov1 d))
      ∗ ((bigSep Finset.univ fun i : Fin ((K (F := F)).nSub 1) => T1.tdRes d (T1.coordsV c i) (T1.tsh c i) (C.tv d) (C.iv1 d))
          -∗ T1.dnRes d c (C.tv d) (C.iv1 d)))
  unfold T1.stRes T1.dnRes
  iintro H; imodintro
  isplitl [H]; · iexact H
  iintro H; iexact H

theorem defs₀_vector2 (c : Fin τ.nSC) (s : Fin τ.nSub) :
    defs₀ (F := F) (.scVector c s) 2 ()
      = SparseCore.onTile hcore2 hsub2 (fun c s => cc2_kern (T2.coordsV c s)
          T2.tW (Memref.isWhole_whole _) T2.iW (Memref.isWhole_whole _) T2.oW (Memref.isWhole_whole _)
          T2.sI (Memref.isWhole_whole _) T2.sA (Memref.isWhole_whole _) T2.sB (Memref.isWhole_whole _) cc2_scratch3 cc2_scratch4 cc2_scratch5 cc2_scoped0) ⟨⟩ c s := rfl

theorem tileObl2 (hpre : PreOK C) : (K (F := F)).TileObl (D (F := F)) 𝒱 (P C) v₀ 2 := by
  intro d c i O W hO _ _
  simp only [show (P C).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (T2.tile_body d (T2.coordsV ⟨_, hc.1⟩ ⟨_, hc.2⟩) O W hO _ _ _ _ (hpre.2.2.1 d _)).trans (wp_mono frame _ _ fun _ => obl_post)

theorem vecSplit2 : (K (F := F)).VecSplit' (P C) 2 := by
  intro d c
  show T2.stRes d c (C.tv d) (C.iv2 d) (C.ov2 d) ⊢ |={Set.univ}=> iprop(
      (bigSep Finset.univ fun i : Fin ((K (F := F)).nSub 2) => T2.goRes d (T2.coordsV c i) (T2.tsh c i) (C.tv d) (C.iv2 d) (C.ov2 d))
      ∗ ((bigSep Finset.univ fun i : Fin ((K (F := F)).nSub 2) => T2.tdRes d (T2.coordsV c i) (T2.tsh c i) (C.tv d) (C.iv2 d))
          -∗ T2.dnRes d c (C.tv d) (C.iv2 d)))
  unfold T2.stRes T2.dnRes
  iintro H; imodintro
  isplitl [H]; · iexact H
  iintro H; iexact H

theorem defs₀_vector3 (c : Fin τ.nSC) (s : Fin τ.nSub) :
    defs₀ (F := F) (.scVector c s) 3 ()
      = SparseCore.onTile hcore3 hsub3 (fun c s => cc3_kern (T3.coordsV c s)
          T3.tW (Memref.isWhole_whole _) T3.iW (Memref.isWhole_whole _) T3.oW (Memref.isWhole_whole _)
          T3.sI (Memref.isWhole_whole _) T3.sA (Memref.isWhole_whole _) T3.sB (Memref.isWhole_whole _) cc3_scratch3 cc3_scratch4 cc3_scratch5 cc3_scoped0) ⟨⟩ c s := rfl

theorem tileObl3 (hpre : PreOK C) : (K (F := F)).TileObl (D (F := F)) 𝒱 (P C) v₀ 3 := by
  intro d c i O W hO _ _
  simp only [show (P C).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (T3.tile_body d (T3.coordsV ⟨_, hc.1⟩ ⟨_, hc.2⟩) O W hO _ _ _ _ (hpre.2.2.2.1 d _)).trans (wp_mono frame _ _ fun _ => obl_post)

theorem vecSplit3 : (K (F := F)).VecSplit' (P C) 3 := by
  intro d c
  show T3.stRes d c (C.tv d) (C.iv3 d) (C.ov3 d) ⊢ |={Set.univ}=> iprop(
      (bigSep Finset.univ fun i : Fin ((K (F := F)).nSub 3) => T3.goRes d (T3.coordsV c i) (T3.tsh c i) (C.tv d) (C.iv3 d) (C.ov3 d))
      ∗ ((bigSep Finset.univ fun i : Fin ((K (F := F)).nSub 3) => T3.tdRes d (T3.coordsV c i) (T3.tsh c i) (C.tv d) (C.iv3 d))
          -∗ T3.dnRes d c (C.tv d) (C.iv3 d)))
  unfold T3.stRes T3.dnRes
  iintro H; imodintro
  isplitl [H]; · iexact H
  iintro H; iexact H

theorem defs₀_vector4 (c : Fin τ.nSC) (s : Fin τ.nSub) :
    defs₀ (F := F) (.scVector c s) 4 ()
      = SparseCore.onTile hcore4 hsub4 (fun c s => cc4_kern (T4.coordsV c s)
          T4.tW (Memref.isWhole_whole _) T4.iW (Memref.isWhole_whole _) T4.oW (Memref.isWhole_whole _)
          T4.sI (Memref.isWhole_whole _) T4.sA (Memref.isWhole_whole _) T4.sB (Memref.isWhole_whole _) cc4_scratch3 cc4_scratch4 cc4_scratch5 cc4_scoped0) ⟨⟩ c s := rfl

theorem tileObl4 (hpre : PreOK C) : (K (F := F)).TileObl (D (F := F)) 𝒱 (P C) v₀ 4 := by
  intro d c i O W hO _ _
  simp only [show (P C).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (T4.tile_body d (T4.coordsV ⟨_, hc.1⟩ ⟨_, hc.2⟩) O W hO _ _ _ _ (hpre.2.2.2.2 d _)).trans (wp_mono frame _ _ fun _ => obl_post)

theorem vecSplit4 : (K (F := F)).VecSplit' (P C) 4 := by
  intro d c
  show T4.stRes d c (C.tv d) (C.iv4 d) (C.ov4 d) ⊢ |={Set.univ}=> iprop(
      (bigSep Finset.univ fun i : Fin ((K (F := F)).nSub 4) => T4.goRes d (T4.coordsV c i) (T4.tsh c i) (C.tv d) (C.iv4 d) (C.ov4 d))
      ∗ ((bigSep Finset.univ fun i : Fin ((K (F := F)).nSub 4) => T4.tdRes d (T4.coordsV c i) (T4.tsh c i) (C.tv d) (C.iv4 d))
          -∗ T4.dnRes d c (C.tv d) (C.iv4 d)))
  unfold T4.stRes T4.dnRes
  iintro H; imodintro
  isplitl [H]; · iexact H
  iintro H; iexact H

end Cert.Proof.KI

end
-- ==== Proof.KIR5.lean ====
/-
  The first transposing call on the TensorCore, point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KISetup
import proofs.«205068_g58248346468665_cont_9to1c4b_383_29_alg».proof.Proof.Gen.KernelIdeal.Launch
import proofs.«205068_g58248346468665_cont_9to1c4b_383_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.KI.R5

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before_0_of {c : Dev nD} (dat : Dat τ (Elt F) (HIx 5) ℕ UU ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k5_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid5.Coords) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc5__tail_first_kernel i arg1 harg1 arg2 harg2 arg3 harg3) K := by
  simp only [cc5__tail_first_kernel_eq_skeleton]; unfold cc5__tail_first_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec5 c

/-- The proof data of the call on core `c`: the arrays as the region finds them; after the body at point `t` each
    input's buffer at its block and the output's at the block computed from them; nothing owed; full shares. -/
def dat (c : Dev nD) : Dat τ (Elt F) (HIx 5) ℕ UU ℕ cfg5 c where
  A w := V c (Pipeline.arrRef spec5 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg5.W) : (dat V c).A w = V c (Pipeline.arrRef spec5 w) := by
  dsimp only [dat]
theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = outBlk (iblk V c 0 t) (iblk V c 1 t) := by dsimp only [dat]
theorem before_0 (c : Dev nD) (t : Fin cfg5.N) (d) : (dat V c).before 0 t d = iblk V c 0 t :=
  before_0_of V (dat V c) (A_eq V c 0) (after_0 V c) t d
theorem before_1 (c : Dev nD) (t : Fin cfg5.N) (d) : (dat V c).before 1 t d = iblk V c 1 t :=
  before_1_of V (dat V c) (A_eq V c 1) (after_1 V c) t d

def bodyPre (c : Dev nD) (t : Fin cfg5.N) : sProp 𝕄 :=
  iprop((dat V c).Φ t.castSucc ∗ (dat V c).owesAt (none : HIx 5) t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d)))
def bodyPost (c : Dev nD) (t : Fin cfg5.N) : sProp 𝕄 :=
  iprop((dat V c).Φ t.succ ∗ (dat V c).owesAt (none : HIx 5) t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid5.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W5, bigSep_W5]
  exact sound_body V c t

end Cert.Proof.KI.R5

end
-- ==== Proof.KIR6.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KISetup
import proofs.«205068_g58248346468665_cont_9to1c4b_383_29_alg».proof.Proof.Gen.KernelIdeal.Launch
import proofs.«205068_g58248346468665_cont_9to1c4b_383_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.KI.R6

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before_0_of {c : Dev nD} (dat : Dat τ (Elt F) (HIx 5) ℕ UU ℕ cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k6_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid6.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc6__tail_next_kernel i arg0 harg0 arg1 harg1 arg2 harg2 arg3 harg3) K := by
  simp only [cc6__tail_next_kernel_eq_skeleton]; unfold cc6__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec6 c

/-- The proof data of the call on core `c`: the arrays as the region finds them; after the body at point `t` each
    input's buffer at its block and the output's at the block computed from them; nothing owed; full shares. -/
def dat (c : Dev nD) : Dat τ (Elt F) (HIx 5) ℕ UU ℕ cfg6 c where
  A w := V c (Pipeline.arrRef spec6 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg6.W) : (dat V c).A w = V c (Pipeline.arrRef spec6 w) := by
  dsimp only [dat]
theorem after_0 (c : Dev nD) (t : Fin cfg6.N) : (dat V c).after 0 t = iblk V c 0 t := by dsimp only [dat]
theorem after_1 (c : Dev nD) (t : Fin cfg6.N) : (dat V c).after 1 t = iblk V c 1 t := by dsimp only [dat]
theorem after_2 (c : Dev nD) (t : Fin cfg6.N) : (dat V c).after 2 t = outBlk (iblk V c 0 t) (iblk V c 1 t) := by dsimp only [dat]
theorem before_0 (c : Dev nD) (t : Fin cfg6.N) (d) : (dat V c).before 0 t d = iblk V c 0 t :=
  before_0_of V (dat V c) (A_eq V c 0) (after_0 V c) t d
theorem before_1 (c : Dev nD) (t : Fin cfg6.N) (d) : (dat V c).before 1 t d = iblk V c 1 t :=
  before_1_of V (dat V c) (A_eq V c 1) (after_1 V c) t d

def bodyPre (c : Dev nD) (t : Fin cfg6.N) : sProp 𝕄 :=
  iprop((dat V c).Φ t.castSucc ∗ (dat V c).owesAt (none : HIx 5) t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))
def bodyPost (c : Dev nD) (t : Fin cfg6.N) : sProp 𝕄 :=
  iprop((dat V c).Φ t.succ ∗ (dat V c).owesAt (none : HIx 5) t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t))

theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid6.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W6, bigSep_W6]
  exact sound_body V c t

end Cert.Proof.KI.R6

end
-- ==== Proof.KIR7.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KISetup
import proofs.«205068_g58248346468665_cont_9to1c4b_383_29_alg».proof.Proof.Gen.KernelIdeal.Launch
import proofs.«205068_g58248346468665_cont_9to1c4b_383_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.KI.R7

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before_0_of {c : Dev nD} (dat : Dat τ (Elt F) (HIx 5) ℕ UU ℕ cfg7 c) (hA : dat.A 0 = V c (Pipeline.arrRef spec7 0))
    (hafter : ∀ t, dat.after 0 t = iblk V c 0 t) (t : Fin cfg7.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg7 c) (hA : dat.A 1 = V c (Pipeline.arrRef spec7 1))
    (hafter : ∀ t, dat.after 1 t = iblk V c 1 t) (t : Fin cfg7.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k7_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid7.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc7__tail_next_kernel i arg0 harg0 arg1 harg1 arg2 harg2 arg3 harg3) K := by
  simp only [cc7__tail_next_kernel_eq_skeleton]; unfold cc7__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec7 c

/-- The proof data of the call on core `c`: the arrays as the region finds them; after the body at point `t` each
    input's buffer at its block and the output's at the block computed from them; nothing owed; full shares. -/
def dat (c : Dev nD) : Dat τ (Elt F) (HIx 5) ℕ UU ℕ cfg7 c where
  A w := V c (Pipeline.arrRef spec7 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg7.W) : (dat V c).A w = V c (Pipeline.arrRef spec7 w) := by
  dsimp only [dat]
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t = outBlk (iblk V c 0 t) (iblk V c 1 t) := by dsimp only [dat]
theorem before_0 (c : Dev nD) (t : Fin cfg7.N) (d) : (dat V c).before 0 t d = iblk V c 0 t :=
  before_0_of V (dat V c) (A_eq V c 0) (after_0 V c) t d
theorem before_1 (c : Dev nD) (t : Fin cfg7.N) (d) : (dat V c).before 1 t d = iblk V c 1 t :=
  before_1_of V (dat V c) (A_eq V c 1) (after_1 V c) t d

def bodyPre (c : Dev nD) (t : Fin cfg7.N) : sProp 𝕄 :=
  iprop((dat V c).Φ t.castSucc ∗ (dat V c).owesAt (none : HIx 5) t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d)))
def bodyPost (c : Dev nD) (t : Fin cfg7.N) : sProp 𝕄 :=
  iprop((dat V c).Φ t.succ ∗ (dat V c).owesAt (none : HIx 5) t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t))

theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid7.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W7, bigSep_W7]
  exact sound_body V c t

end Cert.Proof.KI.R7

end
-- ==== Proof.KIR8.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KISetup
import proofs.«205068_g58248346468665_cont_9to1c4b_383_29_alg».proof.Proof.Gen.KernelIdeal.Launch
import proofs.«205068_g58248346468665_cont_9to1c4b_383_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.KI.R8

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before_0_of {c : Dev nD} (dat : Dat τ (Elt F) (HIx 5) ℕ UU ℕ cfg8 c) (hA : dat.A 0 = V c (Pipeline.arrRef spec8 0))
    (hafter : ∀ t, dat.after 0 t = iblk V c 0 t) (t : Fin cfg8.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg8 c) (hA : dat.A 1 = V c (Pipeline.arrRef spec8 1))
    (hafter : ∀ t, dat.after 1 t = iblk V c 1 t) (t : Fin cfg8.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k8_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid8.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc8__tail_next_kernel i arg0 harg0 arg1 harg1 arg2 harg2 arg3 harg3) K := by
  simp only [cc8__tail_next_kernel_eq_skeleton]; unfold cc8__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec8 c

/-- The proof data of the call on core `c`: the arrays as the region finds them; after the body at point `t` each
    input's buffer at its block and the output's at the block computed from them; nothing owed; full shares. -/
def dat (c : Dev nD) : Dat τ (Elt F) (HIx 5) ℕ UU ℕ cfg8 c where
  A w := V c (Pipeline.arrRef spec8 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg8.W) : (dat V c).A w = V c (Pipeline.arrRef spec8 w) := by
  dsimp only [dat]
theorem after_0 (c : Dev nD) (t : Fin cfg8.N) : (dat V c).after 0 t = iblk V c 0 t := by dsimp only [dat]
theorem after_1 (c : Dev nD) (t : Fin cfg8.N) : (dat V c).after 1 t = iblk V c 1 t := by dsimp only [dat]
theorem after_2 (c : Dev nD) (t : Fin cfg8.N) : (dat V c).after 2 t = outBlk (iblk V c 0 t) (iblk V c 1 t) := by dsimp only [dat]
theorem before_0 (c : Dev nD) (t : Fin cfg8.N) (d) : (dat V c).before 0 t d = iblk V c 0 t :=
  before_0_of V (dat V c) (A_eq V c 0) (after_0 V c) t d
theorem before_1 (c : Dev nD) (t : Fin cfg8.N) (d) : (dat V c).before 1 t d = iblk V c 1 t :=
  before_1_of V (dat V c) (A_eq V c 1) (after_1 V c) t d

def bodyPre (c : Dev nD) (t : Fin cfg8.N) : sProp 𝕄 :=
  iprop((dat V c).Φ t.castSucc ∗ (dat V c).owesAt (none : HIx 5) t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d)))
def bodyPost (c : Dev nD) (t : Fin cfg8.N) : sProp 𝕄 :=
  iprop((dat V c).Φ t.succ ∗ (dat V c).owesAt (none : HIx 5) t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t))

theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid8.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W8, bigSep_W8]
  exact sound_body V c t

end Cert.Proof.KI.R8

end
-- ==== Proof.KIR9.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KISetup
import proofs.«205068_g58248346468665_cont_9to1c4b_383_29_alg».proof.Proof.Gen.KernelIdeal.Launch
import proofs.«205068_g58248346468665_cont_9to1c4b_383_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.KI.R9

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before_0_of {c : Dev nD} (dat : Dat τ (Elt F) (HIx 5) ℕ UU ℕ cfg9 c) (hA : dat.A 0 = V c (Pipeline.arrRef spec9 0))
    (hafter : ∀ t, dat.after 0 t = iblk V c 0 t) (t : Fin cfg9.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg9 c) (hA : dat.A 1 = V c (Pipeline.arrRef spec9 1))
    (hafter : ∀ t, dat.after 1 t = iblk V c 1 t) (t : Fin cfg9.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k9_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid9.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc9__tail_next_kernel i arg0 harg0 arg1 harg1 arg2 harg2 arg3 harg3) K := by
  simp only [cc9__tail_next_kernel_eq_skeleton]; unfold cc9__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec9 c

/-- The proof data of the call on core `c`: the arrays as the region finds them; after the body at point `t` each
    input's buffer at its block and the output's at the block computed from them; nothing owed; full shares. -/
def dat (c : Dev nD) : Dat τ (Elt F) (HIx 5) ℕ UU ℕ cfg9 c where
  A w := V c (Pipeline.arrRef spec9 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg9.W) : (dat V c).A w = V c (Pipeline.arrRef spec9 w) := by
  dsimp only [dat]
theorem after_0 (c : Dev nD) (t : Fin cfg9.N) : (dat V c).after 0 t = iblk V c 0 t := by dsimp only [dat]
theorem after_1 (c : Dev nD) (t : Fin cfg9.N) : (dat V c).after 1 t = iblk V c 1 t := by dsimp only [dat]
theorem after_2 (c : Dev nD) (t : Fin cfg9.N) : (dat V c).after 2 t = outBlk (iblk V c 0 t) (iblk V c 1 t) := by dsimp only [dat]
theorem before_0 (c : Dev nD) (t : Fin cfg9.N) (d) : (dat V c).before 0 t d = iblk V c 0 t :=
  before_0_of V (dat V c) (A_eq V c 0) (after_0 V c) t d
theorem before_1 (c : Dev nD) (t : Fin cfg9.N) (d) : (dat V c).before 1 t d = iblk V c 1 t :=
  before_1_of V (dat V c) (A_eq V c 1) (after_1 V c) t d

def bodyPre (c : Dev nD) (t : Fin cfg9.N) : sProp 𝕄 :=
  iprop((dat V c).Φ t.castSucc ∗ (dat V c).owesAt (none : HIx 5) t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d)))
def bodyPost (c : Dev nD) (t : Fin cfg9.N) : sProp 𝕄 :=
  iprop((dat V c).Φ t.succ ∗ (dat V c).owesAt (none : HIx 5) t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t))

theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid9.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W9, bigSep_W9]
  exact sound_body V c t

end Cert.Proof.KI.R9

end
-- ==== Proof.KITail.lean ====
/-
  The TensorCore's part after the five gather calls: five transposing calls, each staged point by point, with
  the reshapes of the row numbers and the copies of the growing result between them, and the final transpose.
  The buffers' contents are folded through the segments; every call leaves its inputs as it found them.
-/
import proofs.«205068_g58248346468665_cont_9to1c4b_383_29_alg».proof.Proof.KIR5
import proofs.«205068_g58248346468665_cont_9to1c4b_383_29_alg».proof.Proof.KIR6
import proofs.«205068_g58248346468665_cont_9to1c4b_383_29_alg».proof.Proof.KIR7
import proofs.«205068_g58248346468665_cont_9to1c4b_383_29_alg».proof.Proof.KIR8
import proofs.«205068_g58248346468665_cont_9to1c4b_383_29_alg».proof.Proof.KIR9
import Idealize.ShloMosaic.Lib.Pipeline.RegionsLoop
import Idealize.ShloMosaic.Lib.Pipeline.FrameSuffix

set_option maxRecDepth 16384

noncomputable section

namespace Cert.Proof.KI.Tail

open Cert.KernelIdeal Cert.KernelIdeal.Gen Cert.Proof.KI

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

/-! ## The host operations between the calls -/

abbrev hops0 : List (HloOp τ sig (Elt F)) := [StableHlo.reshape main_v2 main_v31 rfl shapeCasts_S10x4096_S10x1x4096]
abbrev hops1 : List (HloOp τ sig (Elt F)) := [StableHlo.reshape main_v8 main_v33 rfl shapeCasts_S10x4096_S10x1x4096, StableHlo.unary main_v32 main_v34 id]
abbrev hops2 : List (HloOp τ sig (Elt F)) := [StableHlo.reshape main_v14 main_v35 rfl shapeCasts_S10x4096_S10x1x4096, StableHlo.unary main_v34 main_v36 id]
abbrev hops3 : List (HloOp τ sig (Elt F)) := [StableHlo.reshape main_v20 main_v37 rfl shapeCasts_S10x4096_S10x1x4096, StableHlo.unary main_v36 main_v38 id]
abbrev hops4 : List (HloOp τ sig (Elt F)) := [StableHlo.reshape main_v26 main_v39 rfl shapeCasts_S10x4096_S10x1x4096, StableHlo.unary main_v38 main_v40 id]
abbrev hops5 : List (HloOp τ sig (Elt F)) :=
  [StableHlo.unary main_v40 main_v41 ((transpose S4096x50x64 [2, 0, 1] · transposes_S50x64x4096_S4096x50x64_2_0_1) : (⟨S50x64x4096, .f32⟩ : BufTy).Contents (Elt F) → (⟨S4096x50x64, .f32⟩ : BufTy).Contents (Elt F))]

theorem hops0_sub : (hops0 : List (HloOp τ sig (Elt F))).Forall fun op => op.bufs ⊆ StableHlo.tcRefs τ sig := by simp [List.Forall]
theorem hops1_sub : (hops1 : List (HloOp τ sig (Elt F))).Forall fun op => op.bufs ⊆ StableHlo.tcRefs τ sig := by simp [List.Forall]
theorem hops2_sub : (hops2 : List (HloOp τ sig (Elt F))).Forall fun op => op.bufs ⊆ StableHlo.tcRefs τ sig := by simp [List.Forall]
theorem hops3_sub : (hops3 : List (HloOp τ sig (Elt F))).Forall fun op => op.bufs ⊆ StableHlo.tcRefs τ sig := by simp [List.Forall]
theorem hops4_sub : (hops4 : List (HloOp τ sig (Elt F))).Forall fun op => op.bufs ⊆ StableHlo.tcRefs τ sig := by simp [List.Forall]
theorem hops5_sub : (hops5 : List (HloOp τ sig (Elt F))).Forall fun op => op.bufs ⊆ StableHlo.tcRefs τ sig := by simp [List.Forall]
theorem hops0_fresh : (hops0 : List (HloOp τ sig (Elt F))).Forall fun op => op.fresh = ∅ := by simp only [List.Forall]; repeat' constructor
theorem hops1_fresh : (hops1 : List (HloOp τ sig (Elt F))).Forall fun op => op.fresh = ∅ := by simp only [List.Forall]; repeat' constructor
theorem hops2_fresh : (hops2 : List (HloOp τ sig (Elt F))).Forall fun op => op.fresh = ∅ := by simp only [List.Forall]; repeat' constructor
theorem hops3_fresh : (hops3 : List (HloOp τ sig (Elt F))).Forall fun op => op.fresh = ∅ := by simp only [List.Forall]; repeat' constructor
theorem hops4_fresh : (hops4 : List (HloOp τ sig (Elt F))).Forall fun op => op.fresh = ∅ := by simp only [List.Forall]; repeat' constructor
theorem hops5_fresh : (hops5 : List (HloOp τ sig (Elt F))).Forall fun op => op.fresh = ∅ := by simp only [List.Forall]; repeat' constructor

/-! ## The buffers' contents at each segment boundary -/

-- the TensorCore's buffers when the last gather call has returned
variable (Wt : Dev nD → Valuation τ sig (Elt F))

abbrev W0 : Dev nD → Valuation τ sig (Elt F) := Wt

/-- After the host operations before transposing call 0 (its entry). -/
abbrev W1 : Dev nD → Valuation τ sig (Elt F) := fun c => StableHlo.after hops0 (W0 Wt c)
abbrev V1 : (c : Dev nD) → (b : Ref sig .tc) → Buf (Elt F) ((c : Thread nD τ).loc b) := fun c b => W1 Wt c b
/-- At its exit: its arrays at what the pipeline leaves, every other buffer as entered. -/
def W2 (c : Dev nD) : Valuation τ sig (Elt F) :=
  Pipeline.withArrays spec5 c (W1 Wt c) fun w => (R5.dat (V1 Wt) c).arrAt w cfg5.N
theorem W2_arr (c : Dev nD) (w : Fin cfg5.W) :
    W2 Wt c (Proc.devRef .tc (Pipeline.arrRef spec5 w)) = (R5.dat (V1 Wt) c).arrAt w cfg5.N := by
  unfold W2; exact Pipeline.withArrays_arr spec5 launch5.win.arr_inj c _ _ w
theorem W2_of_ne (c : Dev nD) (b : Ref sig .tc) (hb : ∀ w, Pipeline.arrRef spec5 w ≠ b) :
    W2 Wt c (Proc.devRef .tc b) = W1 Wt c (Proc.devRef .tc b) := by
  unfold W2; exact Pipeline.withArrays_of_ne spec5 c _ _ b hb
abbrev V2 : (c : Dev nD) → (b : Ref sig .tc) → Buf (Elt F) ((c : Thread nD τ).loc b) := fun c b => W2 Wt c b
theorem hF0 (c : Dev nD) (w : Fin cfg5.W) : (R5.dat (V1 Wt) c).arrAt w cfg5.N = V2 Wt c (Pipeline.arrRef spec5 w) :=
  (W2_arr Wt c w).symm
theorem hrest0 (c : Dev nD) : ∀ b, b ∉ Finset.univ.image (Pipeline.arrRef spec5) → V2 Wt c b = V1 Wt c b :=
  fun b hb => W2_of_ne Wt c b fun w e => hb (Finset.mem_image.mpr ⟨w, Finset.mem_univ _, e⟩)

/-- After the host operations before transposing call 1 (its entry). -/
abbrev W3 : Dev nD → Valuation τ sig (Elt F) := fun c => StableHlo.after hops1 (W2 Wt c)
abbrev V3 : (c : Dev nD) → (b : Ref sig .tc) → Buf (Elt F) ((c : Thread nD τ).loc b) := fun c b => W3 Wt c b
/-- At its exit: its arrays at what the pipeline leaves, every other buffer as entered. -/
def W4 (c : Dev nD) : Valuation τ sig (Elt F) :=
  Pipeline.withArrays spec6 c (W3 Wt c) fun w => (R6.dat (V3 Wt) c).arrAt w cfg6.N
theorem W4_arr (c : Dev nD) (w : Fin cfg6.W) :
    W4 Wt c (Proc.devRef .tc (Pipeline.arrRef spec6 w)) = (R6.dat (V3 Wt) c).arrAt w cfg6.N := by
  unfold W4; exact Pipeline.withArrays_arr spec6 launch6.win.arr_inj c _ _ w
theorem W4_of_ne (c : Dev nD) (b : Ref sig .tc) (hb : ∀ w, Pipeline.arrRef spec6 w ≠ b) :
    W4 Wt c (Proc.devRef .tc b) = W3 Wt c (Proc.devRef .tc b) := by
  unfold W4; exact Pipeline.withArrays_of_ne spec6 c _ _ b hb
abbrev V4 : (c : Dev nD) → (b : Ref sig .tc) → Buf (Elt F) ((c : Thread nD τ).loc b) := fun c b => W4 Wt c b
theorem hF1 (c : Dev nD) (w : Fin cfg6.W) : (R6.dat (V3 Wt) c).arrAt w cfg6.N = V4 Wt c (Pipeline.arrRef spec6 w) :=
  (W4_arr Wt c w).symm
theorem hrest1 (c : Dev nD) : ∀ b, b ∉ Finset.univ.image (Pipeline.arrRef spec6) → V4 Wt c b = V3 Wt c b :=
  fun b hb => W4_of_ne Wt c b fun w e => hb (Finset.mem_image.mpr ⟨w, Finset.mem_univ _, e⟩)

/-- After the host operations before transposing call 2 (its entry). -/
abbrev W5 : Dev nD → Valuation τ sig (Elt F) := fun c => StableHlo.after hops2 (W4 Wt c)
abbrev V5 : (c : Dev nD) → (b : Ref sig .tc) → Buf (Elt F) ((c : Thread nD τ).loc b) := fun c b => W5 Wt c b
/-- At its exit: its arrays at what the pipeline leaves, every other buffer as entered. -/
def W6 (c : Dev nD) : Valuation τ sig (Elt F) :=
  Pipeline.withArrays spec7 c (W5 Wt c) fun w => (R7.dat (V5 Wt) c).arrAt w cfg7.N
theorem W6_arr (c : Dev nD) (w : Fin cfg7.W) :
    W6 Wt c (Proc.devRef .tc (Pipeline.arrRef spec7 w)) = (R7.dat (V5 Wt) c).arrAt w cfg7.N := by
  unfold W6; exact Pipeline.withArrays_arr spec7 launch7.win.arr_inj c _ _ w
theorem W6_of_ne (c : Dev nD) (b : Ref sig .tc) (hb : ∀ w, Pipeline.arrRef spec7 w ≠ b) :
    W6 Wt c (Proc.devRef .tc b) = W5 Wt c (Proc.devRef .tc b) := by
  unfold W6; exact Pipeline.withArrays_of_ne spec7 c _ _ b hb
abbrev V6 : (c : Dev nD) → (b : Ref sig .tc) → Buf (Elt F) ((c : Thread nD τ).loc b) := fun c b => W6 Wt c b
theorem hF2 (c : Dev nD) (w : Fin cfg7.W) : (R7.dat (V5 Wt) c).arrAt w cfg7.N = V6 Wt c (Pipeline.arrRef spec7 w) :=
  (W6_arr Wt c w).symm
theorem hrest2 (c : Dev nD) : ∀ b, b ∉ Finset.univ.image (Pipeline.arrRef spec7) → V6 Wt c b = V5 Wt c b :=
  fun b hb => W6_of_ne Wt c b fun w e => hb (Finset.mem_image.mpr ⟨w, Finset.mem_univ _, e⟩)

/-- After the host operations before transposing call 3 (its entry). -/
abbrev W7 : Dev nD → Valuation τ sig (Elt F) := fun c => StableHlo.after hops3 (W6 Wt c)
abbrev V7 : (c : Dev nD) → (b : Ref sig .tc) → Buf (Elt F) ((c : Thread nD τ).loc b) := fun c b => W7 Wt c b
/-- At its exit: its arrays at what the pipeline leaves, every other buffer as entered. -/
def W8 (c : Dev nD) : Valuation τ sig (Elt F) :=
  Pipeline.withArrays spec8 c (W7 Wt c) fun w => (R8.dat (V7 Wt) c).arrAt w cfg8.N
theorem W8_arr (c : Dev nD) (w : Fin cfg8.W) :
    W8 Wt c (Proc.devRef .tc (Pipeline.arrRef spec8 w)) = (R8.dat (V7 Wt) c).arrAt w cfg8.N := by
  unfold W8; exact Pipeline.withArrays_arr spec8 launch8.win.arr_inj c _ _ w
theorem W8_of_ne (c : Dev nD) (b : Ref sig .tc) (hb : ∀ w, Pipeline.arrRef spec8 w ≠ b) :
    W8 Wt c (Proc.devRef .tc b) = W7 Wt c (Proc.devRef .tc b) := by
  unfold W8; exact Pipeline.withArrays_of_ne spec8 c _ _ b hb
abbrev V8 : (c : Dev nD) → (b : Ref sig .tc) → Buf (Elt F) ((c : Thread nD τ).loc b) := fun c b => W8 Wt c b
theorem hF3 (c : Dev nD) (w : Fin cfg8.W) : (R8.dat (V7 Wt) c).arrAt w cfg8.N = V8 Wt c (Pipeline.arrRef spec8 w) :=
  (W8_arr Wt c w).symm
theorem hrest3 (c : Dev nD) : ∀ b, b ∉ Finset.univ.image (Pipeline.arrRef spec8) → V8 Wt c b = V7 Wt c b :=
  fun b hb => W8_of_ne Wt c b fun w e => hb (Finset.mem_image.mpr ⟨w, Finset.mem_univ _, e⟩)

/-- After the host operations before transposing call 4 (its entry). -/
abbrev W9 : Dev nD → Valuation τ sig (Elt F) := fun c => StableHlo.after hops4 (W8 Wt c)
abbrev V9 : (c : Dev nD) → (b : Ref sig .tc) → Buf (Elt F) ((c : Thread nD τ).loc b) := fun c b => W9 Wt c b
/-- At its exit: its arrays at what the pipeline leaves, every other buffer as entered. -/
def W10 (c : Dev nD) : Valuation τ sig (Elt F) :=
  Pipeline.withArrays spec9 c (W9 Wt c) fun w => (R9.dat (V9 Wt) c).arrAt w cfg9.N
theorem W10_arr (c : Dev nD) (w : Fin cfg9.W) :
    W10 Wt c (Proc.devRef .tc (Pipeline.arrRef spec9 w)) = (R9.dat (V9 Wt) c).arrAt w cfg9.N := by
  unfold W10; exact Pipeline.withArrays_arr spec9 launch9.win.arr_inj c _ _ w
theorem W10_of_ne (c : Dev nD) (b : Ref sig .tc) (hb : ∀ w, Pipeline.arrRef spec9 w ≠ b) :
    W10 Wt c (Proc.devRef .tc b) = W9 Wt c (Proc.devRef .tc b) := by
  unfold W10; exact Pipeline.withArrays_of_ne spec9 c _ _ b hb
abbrev V10 : (c : Dev nD) → (b : Ref sig .tc) → Buf (Elt F) ((c : Thread nD τ).loc b) := fun c b => W10 Wt c b
theorem hF4 (c : Dev nD) (w : Fin cfg9.W) : (R9.dat (V9 Wt) c).arrAt w cfg9.N = V10 Wt c (Pipeline.arrRef spec9 w) :=
  (W10_arr Wt c w).symm
theorem hrest4 (c : Dev nD) : ∀ b, b ∉ Finset.univ.image (Pipeline.arrRef spec9) → V10 Wt c b = V9 Wt c b :=
  fun b hb => W10_of_ne Wt c b fun w e => hb (Finset.mem_image.mpr ⟨w, Finset.mem_univ _, e⟩)

/-- After the final transpose. -/
abbrev W11 : Dev nD → Valuation τ sig (Elt F) := fun c => StableHlo.after hops5 (W10 Wt c)

/-! ## The proof data family and the thread state -/

abbrev adm : (p : Fin 5) → (pcfgs (F := F) p).Adm := fun p => (cfgs p).toPCfg_adm
def pdats : (p : Fin 5) → (c : Dev nD) → Dat τ (Elt F) (HIx 5) ℕ UU ℕ (Pipeline.pin (pcfgs (F := F)) adm p) c
  | ⟨0, _⟩ => fun c => R5.dat (V1 Wt) c
  | ⟨1, _⟩ => fun c => R6.dat (V3 Wt) c
  | ⟨2, _⟩ => fun c => R7.dat (V5 Wt) c
  | ⟨3, _⟩ => fun c => R8.dat (V7 Wt) c
  | ⟨4, _⟩ => fun c => R9.dat (V9 Wt) c
abbrev 𝒱₀ : Variants := Variants.none
abbrev L : GSem nD τ sig → Finset (HIx 5) := (K (F := F)).L
abbrev lv : GSem nD τ sig → HIx 5 → ℕ := (K (F := F)).lev
/-- What rides beside the buffers through every segment: the TensorCore owing nothing. -/
abbrev Rs (c : Dev nD) : sProp 𝕄 := iprop(∃ W, owes (c : Thread nD τ) (0 : CellTallies nD τ sig (HIx 5)) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (L (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rs

/-! ## The calls as segments -/

set_option backward.isDefEq.respectTransparency.types false in
/-- Transposing call 0 over the thread state: entered from every unscoped buffer at `W1`, left at `W2`; its
    arrays split out of the unscoped buffers and put back at the exit contents; nothing owed; no semaphore of its own. -/
def reg0 : Pipeline.RegionSeg (pcfgs (F := F)) adm (pdats Wt) (none : HIx 5) defs₀ 𝒱₀ (L (F := F)) (lv (F := F)) 0 where
  win := launch5.win.to₀
  block_pos := launch5.block_pos
  stage_whole := launch5.stage_whole
  K := PEmpty
  osem k := k.elim
  ho := Pipeline.OwnSemFacts.none _
  hbody c := (R5.body_obligation (V1 Wt) c).loose
  hwaits := Pipeline.hwaits_of_owed_zero _ _ _ _ (L (F := F)) (lv (F := F)) 0 fun _ _ => rfl
  pre c := iprop(StableHlo.held (c : Thread nD τ) (Pipeline.ucRefs τ sig) (W1 Wt c) ∗ Rs c)
  post c := iprop(StableHlo.held (c : Thread nD τ) (Pipeline.ucRefs τ sig) (W2 Wt c) ∗ Rs c)
  X c := iprop(emp)
  Y c := iprop(emp)
  Z c := Pipeline.unscopedRest (Ix := HIx 5) (Name := ℕ) (U := UU) (Lvl := ℕ) spec5 c (V1 Wt c)
  hentry c := by
    rw [Pipeline.ownSems0_none]
    have hsplit := Pipeline.arrays_of_unscopedBufs (p := 0) (pcfgs (F := F)) adm (pdats Wt) launch5.win launch5.arr_whole c
      ((pdats Wt 0 c).share_full fun _ => rfl) (V1 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 0 c).Φ 0 = R5.ΦR c from rfl]
    iintro ⟨-, -, Hr⟩
    iexact Hr
  hout c := by
    rw [Pipeline.ownSems0_none, show (pdats Wt 0 c).Φ (Fin.last _) = R5.ΦR c from rfl]
    iintro Hr
    isplitr; · iempintro
    isplitr; · iempintro
    iexact Hr
  hexit c := by
    have hjoin := Pipeline.unscopedBufs_of_arrays (p := 0) (pcfgs (F := F)) adm (Ix := HIx 5) (Name := ℕ) (U := UU) (Lvl := ℕ)
      launch5.win launch5.arr_whole c (pdats Wt) ((pdats Wt 0 c).share_full fun _ => rfl)
      (V1 Wt c) (V2 Wt c) ((pdats Wt 0 c).arrAt · cfg5.N) (hF0 Wt c) (hrest0 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 1 over the thread state: entered from every unscoped buffer at `W3`, left at `W4`; its
    arrays split out of the unscoped buffers and put back at the exit contents; nothing owed; no semaphore of its own. -/
def reg1 : Pipeline.RegionSeg (pcfgs (F := F)) adm (pdats Wt) (none : HIx 5) defs₀ 𝒱₀ (L (F := F)) (lv (F := F)) 1 where
  win := launch6.win.to₀
  block_pos := launch6.block_pos
  stage_whole := launch6.stage_whole
  K := PEmpty
  osem k := k.elim
  ho := Pipeline.OwnSemFacts.none _
  hbody c := (R6.body_obligation (V3 Wt) c).loose
  hwaits := Pipeline.hwaits_of_owed_zero _ _ _ _ (L (F := F)) (lv (F := F)) 1 fun _ _ => rfl
  pre c := iprop(StableHlo.held (c : Thread nD τ) (Pipeline.ucRefs τ sig) (W3 Wt c) ∗ Rs c)
  post c := iprop(StableHlo.held (c : Thread nD τ) (Pipeline.ucRefs τ sig) (W4 Wt c) ∗ Rs c)
  X c := iprop(emp)
  Y c := iprop(emp)
  Z c := Pipeline.unscopedRest (Ix := HIx 5) (Name := ℕ) (U := UU) (Lvl := ℕ) spec6 c (V3 Wt c)
  hentry c := by
    rw [Pipeline.ownSems0_none]
    have hsplit := Pipeline.arrays_of_unscopedBufs (p := 1) (pcfgs (F := F)) adm (pdats Wt) launch6.win launch6.arr_whole c
      ((pdats Wt 1 c).share_full fun _ => rfl) (V3 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 1 c).Φ 0 = R6.ΦR c from rfl]
    iintro ⟨-, -, Hr⟩
    iexact Hr
  hout c := by
    rw [Pipeline.ownSems0_none, show (pdats Wt 1 c).Φ (Fin.last _) = R6.ΦR c from rfl]
    iintro Hr
    isplitr; · iempintro
    isplitr; · iempintro
    iexact Hr
  hexit c := by
    have hjoin := Pipeline.unscopedBufs_of_arrays (p := 1) (pcfgs (F := F)) adm (Ix := HIx 5) (Name := ℕ) (U := UU) (Lvl := ℕ)
      launch6.win launch6.arr_whole c (pdats Wt) ((pdats Wt 1 c).share_full fun _ => rfl)
      (V3 Wt c) (V4 Wt c) ((pdats Wt 1 c).arrAt · cfg6.N) (hF1 Wt c) (hrest1 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 2 over the thread state: entered from every unscoped buffer at `W5`, left at `W6`; its
    arrays split out of the unscoped buffers and put back at the exit contents; nothing owed; no semaphore of its own. -/
def reg2 : Pipeline.RegionSeg (pcfgs (F := F)) adm (pdats Wt) (none : HIx 5) defs₀ 𝒱₀ (L (F := F)) (lv (F := F)) 2 where
  win := launch7.win.to₀
  block_pos := launch7.block_pos
  stage_whole := launch7.stage_whole
  K := PEmpty
  osem k := k.elim
  ho := Pipeline.OwnSemFacts.none _
  hbody c := (R7.body_obligation (V5 Wt) c).loose
  hwaits := Pipeline.hwaits_of_owed_zero _ _ _ _ (L (F := F)) (lv (F := F)) 2 fun _ _ => rfl
  pre c := iprop(StableHlo.held (c : Thread nD τ) (Pipeline.ucRefs τ sig) (W5 Wt c) ∗ Rs c)
  post c := iprop(StableHlo.held (c : Thread nD τ) (Pipeline.ucRefs τ sig) (W6 Wt c) ∗ Rs c)
  X c := iprop(emp)
  Y c := iprop(emp)
  Z c := Pipeline.unscopedRest (Ix := HIx 5) (Name := ℕ) (U := UU) (Lvl := ℕ) spec7 c (V5 Wt c)
  hentry c := by
    rw [Pipeline.ownSems0_none]
    have hsplit := Pipeline.arrays_of_unscopedBufs (p := 2) (pcfgs (F := F)) adm (pdats Wt) launch7.win launch7.arr_whole c
      ((pdats Wt 2 c).share_full fun _ => rfl) (V5 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 2 c).Φ 0 = R7.ΦR c from rfl]
    iintro ⟨-, -, Hr⟩
    iexact Hr
  hout c := by
    rw [Pipeline.ownSems0_none, show (pdats Wt 2 c).Φ (Fin.last _) = R7.ΦR c from rfl]
    iintro Hr
    isplitr; · iempintro
    isplitr; · iempintro
    iexact Hr
  hexit c := by
    have hjoin := Pipeline.unscopedBufs_of_arrays (p := 2) (pcfgs (F := F)) adm (Ix := HIx 5) (Name := ℕ) (U := UU) (Lvl := ℕ)
      launch7.win launch7.arr_whole c (pdats Wt) ((pdats Wt 2 c).share_full fun _ => rfl)
      (V5 Wt c) (V6 Wt c) ((pdats Wt 2 c).arrAt · cfg7.N) (hF2 Wt c) (hrest2 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 3 over the thread state: entered from every unscoped buffer at `W7`, left at `W8`; its
    arrays split out of the unscoped buffers and put back at the exit contents; nothing owed; no semaphore of its own. -/
def reg3 : Pipeline.RegionSeg (pcfgs (F := F)) adm (pdats Wt) (none : HIx 5) defs₀ 𝒱₀ (L (F := F)) (lv (F := F)) 3 where
  win := launch8.win.to₀
  block_pos := launch8.block_pos
  stage_whole := launch8.stage_whole
  K := PEmpty
  osem k := k.elim
  ho := Pipeline.OwnSemFacts.none _
  hbody c := (R8.body_obligation (V7 Wt) c).loose
  hwaits := Pipeline.hwaits_of_owed_zero _ _ _ _ (L (F := F)) (lv (F := F)) 3 fun _ _ => rfl
  pre c := iprop(StableHlo.held (c : Thread nD τ) (Pipeline.ucRefs τ sig) (W7 Wt c) ∗ Rs c)
  post c := iprop(StableHlo.held (c : Thread nD τ) (Pipeline.ucRefs τ sig) (W8 Wt c) ∗ Rs c)
  X c := iprop(emp)
  Y c := iprop(emp)
  Z c := Pipeline.unscopedRest (Ix := HIx 5) (Name := ℕ) (U := UU) (Lvl := ℕ) spec8 c (V7 Wt c)
  hentry c := by
    rw [Pipeline.ownSems0_none]
    have hsplit := Pipeline.arrays_of_unscopedBufs (p := 3) (pcfgs (F := F)) adm (pdats Wt) launch8.win launch8.arr_whole c
      ((pdats Wt 3 c).share_full fun _ => rfl) (V7 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 3 c).Φ 0 = R8.ΦR c from rfl]
    iintro ⟨-, -, Hr⟩
    iexact Hr
  hout c := by
    rw [Pipeline.ownSems0_none, show (pdats Wt 3 c).Φ (Fin.last _) = R8.ΦR c from rfl]
    iintro Hr
    isplitr; · iempintro
    isplitr; · iempintro
    iexact Hr
  hexit c := by
    have hjoin := Pipeline.unscopedBufs_of_arrays (p := 3) (pcfgs (F := F)) adm (Ix := HIx 5) (Name := ℕ) (U := UU) (Lvl := ℕ)
      launch8.win launch8.arr_whole c (pdats Wt) ((pdats Wt 3 c).share_full fun _ => rfl)
      (V7 Wt c) (V8 Wt c) ((pdats Wt 3 c).arrAt · cfg8.N) (hF3 Wt c) (hrest3 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 4 over the thread state: entered from every unscoped buffer at `W9`, left at `W10`; its
    arrays split out of the unscoped buffers and put back at the exit contents; nothing owed; no semaphore of its own. -/
def reg4 : Pipeline.RegionSeg (pcfgs (F := F)) adm (pdats Wt) (none : HIx 5) defs₀ 𝒱₀ (L (F := F)) (lv (F := F)) 4 where
  win := launch9.win.to₀
  block_pos := launch9.block_pos
  stage_whole := launch9.stage_whole
  K := PEmpty
  osem k := k.elim
  ho := Pipeline.OwnSemFacts.none _
  hbody c := (R9.body_obligation (V9 Wt) c).loose
  hwaits := Pipeline.hwaits_of_owed_zero _ _ _ _ (L (F := F)) (lv (F := F)) 4 fun _ _ => rfl
  pre c := iprop(StableHlo.held (c : Thread nD τ) (Pipeline.ucRefs τ sig) (W9 Wt c) ∗ Rs c)
  post c := iprop(StableHlo.held (c : Thread nD τ) (Pipeline.ucRefs τ sig) (W10 Wt c) ∗ Rs c)
  X c := iprop(emp)
  Y c := iprop(emp)
  Z c := Pipeline.unscopedRest (Ix := HIx 5) (Name := ℕ) (U := UU) (Lvl := ℕ) spec9 c (V9 Wt c)
  hentry c := by
    rw [Pipeline.ownSems0_none]
    have hsplit := Pipeline.arrays_of_unscopedBufs (p := 4) (pcfgs (F := F)) adm (pdats Wt) launch9.win launch9.arr_whole c
      ((pdats Wt 4 c).share_full fun _ => rfl) (V9 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 4 c).Φ 0 = R9.ΦR c from rfl]
    iintro ⟨-, -, Hr⟩
    iexact Hr
  hout c := by
    rw [Pipeline.ownSems0_none, show (pdats Wt 4 c).Φ (Fin.last _) = R9.ΦR c from rfl]
    iintro Hr
    isplitr; · iempintro
    isplitr; · iempintro
    iexact Hr
  hexit c := by
    have hjoin := Pipeline.unscopedBufs_of_arrays (p := 4) (pcfgs (F := F)) adm (Ix := HIx 5) (Name := ℕ) (U := UU) (Lvl := ℕ)
      launch9.win launch9.arr_whole c (pdats Wt) ((pdats Wt 4 c).share_full fun _ => rfl)
      (V9 Wt c) (V10 Wt c) ((pdats Wt 4 c).arrAt · cfg9.N) (hF4 Wt c) (hrest4 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The segments in order, and their run -/

abbrev segs : List (Pipeline.Seg (pcfgs (F := F)) adm (pdats Wt) (none : HIx 5) defs₀ 𝒱₀ (L (F := F)) (lv (F := F))) :=
  [ .host (hseg hops0 hops0_sub hops0_fresh (W0 Wt)),
    .region (reg0 Wt),
    .host (hseg hops1 hops1_sub hops1_fresh (W2 Wt)),
    .region (reg1 Wt),
    .host (hseg hops2 hops2_sub hops2_fresh (W4 Wt)),
    .region (reg2 Wt),
    .host (hseg hops3 hops3_sub hops3_fresh (W6 Wt)),
    .region (reg3 Wt),
    .host (hseg hops4 hops4_sub hops4_fresh (W8 Wt)),
    .region (reg4 Wt),
    .host (hseg hops5 hops5_sub hops5_fresh (W10 Wt)) ]

/-- The thread state the segments start from and the one they end in. -/
abbrev Tin (c : Dev nD) : sProp 𝕄 := iprop(StableHlo.held (c : Thread nD τ) (Pipeline.ucRefs τ sig) (Wt c) ∗ Rs c)
abbrev Tout (c : Dev nD) : sProp 𝕄 := iprop(StableHlo.held (c : Thread nD τ) (Pipeline.ucRefs τ sig) (W11 Wt c) ∗ Rs c)

set_option backward.isDefEq.respectTransparency.types false in
theorem tail_wp [∀ e, Nonempty (Elt F e)] (c : Dev nD) {Q : PUnit → sProp 𝕄} :
    iprop((iprop(boundary (c.tc : Thread nD τ) ∗ Tout Wt c) -∗ Q ⟨⟩)
        ∗ boundary (c.tc : Thread nD τ) ∗ Tin Wt c ∗ levAts (L (F := F)) (lv (F := F)) ∗ Pipeline.ghostOn (pcfgs (F := F)) adm EP Finset.univ c)
      ⊢ wp frame (wpE (Pipeline.defs (pcfgs (F := F)) defs₀) (Variants.lift 𝒱₀) (c.tc : Thread nD τ) none) Set.univ (Pipeline.Seg.run (segs Wt)) Q :=
  Pipeline.wp_segs (pcfgs (F := F)) adm (pdats Wt) (none : HIx 5) cellOf_inj EP defs₀ 𝒱₀ (L (F := F)) (lv (F := F)) c (segs Wt) Finset.univ (Tin Wt) (Tout Wt)
    (by simp only [segs, Pipeline.Seg.pipes_host, Pipeline.Seg.pipes_region, Pipeline.Seg.pipes_nil]; decide)
    (fun _ _ => Finset.mem_univ _)
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩

end Cert.Proof.KI.Tail

end
-- ==== Proof.KIMain.lean ====
/-
  @main as a chain: its stretches of host operations, its five gather calls, and the segments of its last part.
-/
import proofs.«205068_g58248346468665_cont_9to1c4b_383_29_alg».proof.Proof.KIPay
import proofs.«205068_g58248346468665_cont_9to1c4b_383_29_alg».proof.Proof.KITail

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 5) (Elt F) ℕ UU ℕ

/-! ## @main's host operations before each gather call -/

abbrev sops0 : List (HloOp τ sig (Elt F)) :=
  [
    StableHlo.reshape main_arg1 main_v0 rfl shapeCasts_S100000x64_S50000x128,
    StableHlo.unary main_arg0 main_v1 ((extractStridedSlice S4096x10 ![0, 0] · slices_S4096x50_S4096x10_0_0) : (⟨S4096x50, .i32⟩ : BufTy).Contents (Elt F) → (⟨S4096x10, .i32⟩ : BufTy).Contents (Elt F)),
    StableHlo.unary main_v1 main_v2 ((transpose S10x4096 [1, 0] · transposes_S4096x10_S10x4096_1_0) : (⟨S4096x10, .i32⟩ : BufTy).Contents (Elt F) → (⟨S10x4096, .i32⟩ : BufTy).Contents (Elt F)),
    StableHlo.nullary main_c (constantI S_ 32 1#32),
    StableHlo.unary main_c main_v3 (broadcastInDim S10x4096 ![] bcast_S_S10x4096 : (⟨S_, .i32⟩ : BufTy).Contents (Elt F) → (⟨S10x4096, .i32⟩ : BufTy).Contents (Elt F)),
    StableHlo.binary main_v2 main_v3 main_v4 (Host.shrsi : (⟨S10x4096, .i32⟩ : BufTy).Contents (Elt F) → (⟨S10x4096, .i32⟩ : BufTy).Contents (Elt F) → (⟨S10x4096, .i32⟩ : BufTy).Contents (Elt F)),
    StableHlo.reshape main_v4 main_v5 rfl shapeCasts_S10x4096_S32x10x128 ]

abbrev sops1 : List (HloOp τ sig (Elt F)) :=
  [
    StableHlo.unary main_arg0 main_v7 ((extractStridedSlice S4096x10 ![0, 10] · slices_S4096x50_S4096x10_0_10) : (⟨S4096x50, .i32⟩ : BufTy).Contents (Elt F) → (⟨S4096x10, .i32⟩ : BufTy).Contents (Elt F)),
    StableHlo.unary main_v7 main_v8 ((transpose S10x4096 [1, 0] · transposes_S4096x10_S10x4096_1_0) : (⟨S4096x10, .i32⟩ : BufTy).Contents (Elt F) → (⟨S10x4096, .i32⟩ : BufTy).Contents (Elt F)),
    StableHlo.nullary main_c_0 (constantI S_ 32 1#32),
    StableHlo.unary main_c_0 main_v9 (broadcastInDim S10x4096 ![] bcast_S_S10x4096 : (⟨S_, .i32⟩ : BufTy).Contents (Elt F) → (⟨S10x4096, .i32⟩ : BufTy).Contents (Elt F)),
    StableHlo.binary main_v8 main_v9 main_v10 (Host.shrsi : (⟨S10x4096, .i32⟩ : BufTy).Contents (Elt F) → (⟨S10x4096, .i32⟩ : BufTy).Contents (Elt F) → (⟨S10x4096, .i32⟩ : BufTy).Contents (Elt F)),
    StableHlo.reshape main_v10 main_v11 rfl shapeCasts_S10x4096_S32x10x128 ]

abbrev sops2 : List (HloOp τ sig (Elt F)) :=
  [
    StableHlo.unary main_arg0 main_v13 ((extractStridedSlice S4096x10 ![0, 20] · slices_S4096x50_S4096x10_0_20) : (⟨S4096x50, .i32⟩ : BufTy).Contents (Elt F) → (⟨S4096x10, .i32⟩ : BufTy).Contents (Elt F)),
    StableHlo.unary main_v13 main_v14 ((transpose S10x4096 [1, 0] · transposes_S4096x10_S10x4096_1_0) : (⟨S4096x10, .i32⟩ : BufTy).Contents (Elt F) → (⟨S10x4096, .i32⟩ : BufTy).Contents (Elt F)),
    StableHlo.nullary main_c_1 (constantI S_ 32 1#32),
    StableHlo.unary main_c_1 main_v15 (broadcastInDim S10x4096 ![] bcast_S_S10x4096 : (⟨S_, .i32⟩ : BufTy).Contents (Elt F) → (⟨S10x4096, .i32⟩ : BufTy).Contents (Elt F)),
    StableHlo.binary main_v14 main_v15 main_v16 (Host.shrsi : (⟨S10x4096, .i32⟩ : BufTy).Contents (Elt F) → (⟨S10x4096, .i32⟩ : BufTy).Contents (Elt F) → (⟨S10x4096, .i32⟩ : BufTy).Contents (Elt F)),
    StableHlo.reshape main_v16 main_v17 rfl shapeCasts_S10x4096_S32x10x128 ]

abbrev sops3 : List (HloOp τ sig (Elt F)) :=
  [
    StableHlo.unary main_arg0 main_v19 ((extractStridedSlice S4096x10 ![0, 30] · slices_S4096x50_S4096x10_0_30) : (⟨S4096x50, .i32⟩ : BufTy).Contents (Elt F) → (⟨S4096x10, .i32⟩ : BufTy).Contents (Elt F)),
    StableHlo.unary main_v19 main_v20 ((transpose S10x4096 [1, 0] · transposes_S4096x10_S10x4096_1_0) : (⟨S4096x10, .i32⟩ : BufTy).Contents (Elt F) → (⟨S10x4096, .i32⟩ : BufTy).Contents (Elt F)),
    StableHlo.nullary main_c_2 (constantI S_ 32 1#32),
    StableHlo.unary main_c_2 main_v21 (broadcastInDim S10x4096 ![] bcast_S_S10x4096 : (⟨S_, .i32⟩ : BufTy).Contents (Elt F) → (⟨S10x4096, .i32⟩ : BufTy).Contents (Elt F)),
    StableHlo.binary main_v20 main_v21 main_v22 (Host.shrsi : (⟨S10x4096, .i32⟩ : BufTy).Contents (Elt F) → (⟨S10x4096, .i32⟩ : BufTy).Contents (Elt F) → (⟨S10x4096, .i32⟩ : BufTy).Contents (Elt F)),
    StableHlo.reshape main_v22 main_v23 rfl shapeCasts_S10x4096_S32x10x128 ]

abbrev sops4 : List (HloOp τ sig (Elt F)) :=
  [
    StableHlo.unary main_arg0 main_v25 ((extractStridedSlice S4096x10 ![0, 40] · slices_S4096x50_S4096x10_0_40) : (⟨S4096x50, .i32⟩ : BufTy).Contents (Elt F) → (⟨S4096x10, .i32⟩ : BufTy).Contents (Elt F)),
    StableHlo.unary main_v25 main_v26 ((transpose S10x4096 [1, 0] · transposes_S4096x10_S10x4096_1_0) : (⟨S4096x10, .i32⟩ : BufTy).Contents (Elt F) → (⟨S10x4096, .i32⟩ : BufTy).Contents (Elt F)),
    StableHlo.nullary main_c_3 (constantI S_ 32 1#32),
    StableHlo.unary main_c_3 main_v27 (broadcastInDim S10x4096 ![] bcast_S_S10x4096 : (⟨S_, .i32⟩ : BufTy).Contents (Elt F) → (⟨S10x4096, .i32⟩ : BufTy).Contents (Elt F)),
    StableHlo.binary main_v26 main_v27 main_v28 (Host.shrsi : (⟨S10x4096, .i32⟩ : BufTy).Contents (Elt F) → (⟨S10x4096, .i32⟩ : BufTy).Contents (Elt F) → (⟨S10x4096, .i32⟩ : BufTy).Contents (Elt F)),
    StableHlo.reshape main_v28 main_v29 rfl shapeCasts_S10x4096_S32x10x128 ]

/-- @main's last part: the transposing calls with the host operations between them, and the final transpose. -/
def tailProg : Prog (TpuEff nD τ sig (Elt F) (Pipeline.Sig Λ₀ (Fin 5) fun p => (pcfgs (F := F) p).Adm) .tc) PUnit :=
  Pipeline.chain
    [ StableHlo.seq Tail.hops0, Prog.lift (.customCall (Pipeline.entry 0) ()),
      StableHlo.seq Tail.hops1, Prog.lift (.customCall (Pipeline.entry 1) ()),
      StableHlo.seq Tail.hops2, Prog.lift (.customCall (Pipeline.entry 2) ()),
      StableHlo.seq Tail.hops3, Prog.lift (.customCall (Pipeline.entry 3) ()),
      StableHlo.seq Tail.hops4, Prog.lift (.customCall (Pipeline.entry 4) ()),
      StableHlo.seq Tail.hops5 ]

/-- The segments' run is that program, whatever contents their proofs are stated at. -/
theorem tail_run (Wt : Dev nD → Valuation τ sig (Elt F)) : Pipeline.Seg.run (Tail.segs Wt) = tailProg (F := F) := by
  rw [Pipeline.Seg.run_eq_chain]
  rfl

/-- @main is its stretches of host operations, its five gather calls, and its last part. -/
theorem main_eq (d : Dev nD) :
    main (F := F) d = (Pipeline.chain
      [ StableHlo.seq sops0, (sc (F := F)).run d 0,
        StableHlo.seq sops1, (sc (F := F)).run d 1,
        StableHlo.seq sops2, (sc (F := F)).run d 2,
        StableHlo.seq sops3, (sc (F := F)).run d 3,
        StableHlo.seq sops4, (sc (F := F)).run d 4,
        SparseCore.liftProg (tailProg (F := F)) ] :
      Prog (TpuEff nD τ sig (Elt F) (SparseCore.Sig (Pipeline.Sig Λ₀ (Fin 5) fun p => (pcfgs (F := F) p).Adm) 5) .tc) PUnit) := by
  chain_rfl

end Cert.Proof.KI

end
-- ==== Proof.KIPre.lean ====
/-
  The row numbers the gather calls read, and why each names a row of the table. Before gather call q (q = 0 … 4)
  the host takes columns 10 q … 10 q + 9 of the index array x : i32[4096, 50], transposes them to [10, 4096],
  shifts every entry right by one (arithmetically), and lays the result out as [32, 10, 128]; before the first call it also
  lays the table [100000, 64] out as [50000, 128], two table rows to a row. Slicing, transposing and reshaping only move
  entries, so every entry of the array a call reads is `x[i] >> 1` for some position i of x. The precondition says every
  entry of x lies in [0, 99999] (read signed); such a word has its top bit clear, its arithmetic shift by one is its
  half, and the half is below 50000: a row of the [50000, 128] table. This module states the six operations' composition
  as one function (`idxOf`, `idxFn0` … `idxFn4`), reads it off the host operations' fold (`idx_after0` … `idx_after4`,
  `tbl_after`), bounds its entries (`idxOf_lt`, `idx_lt0` … `idx_lt4`) also as a subcore reads them through its block
  (`read_lt0` … `read_lt4`), and decodes the precondition into the range of x's entries (`x_range_of_pre`).
-/
import proofs.«205068_g58248346468665_cont_9to1c4b_383_29_alg».proof.Defs
import proofs.«205068_g58248346468665_cont_9to1c4b_383_29_alg».proof.Proof.KIT0
import proofs.«205068_g58248346468665_cont_9to1c4b_383_29_alg».proof.Proof.KIT1
import proofs.«205068_g58248346468665_cont_9to1c4b_383_29_alg».proof.Proof.KIT2
import proofs.«205068_g58248346468665_cont_9to1c4b_383_29_alg».proof.Proof.KIT3
import proofs.«205068_g58248346468665_cont_9to1c4b_383_29_alg».proof.Proof.KIT4
import proofs.«205068_g58248346468665_cont_9to1c4b_383_29_alg».proof.Proof.Gen.Pre_input_domain
import Idealize.ShloMosaic.Lib.ReduceAll
import Idealize.ShloMosaic.Lib.StableHlo.Run
import Idealize.ShloMosaic.Lib.ValueIdx

noncomputable section

namespace Cert.Proof.KI.Pre

open Cert.KernelIdeal Cert.KernelIdeal.Gen
open Idealize.ShloMosaic Idealize.SL.Sem

variable {F : FTy → Type} [FloatOps F]

/-! ## The host operations before each gather call -/

abbrev hostOps0 : List (HloOp τ sig (Elt F)) :=
  [
    StableHlo.reshape main_arg1 main_v0 rfl shapeCasts_S100000x64_S50000x128,
    StableHlo.unary main_arg0 main_v1 ((extractStridedSlice S4096x10 ![0, 0] · slices_S4096x50_S4096x10_0_0) : (⟨S4096x50, .i32⟩ : BufTy).Contents (Elt F) → (⟨S4096x10, .i32⟩ : BufTy).Contents (Elt F)),
    StableHlo.unary main_v1 main_v2 ((transpose S10x4096 [1, 0] · transposes_S4096x10_S10x4096_1_0) : (⟨S4096x10, .i32⟩ : BufTy).Contents (Elt F) → (⟨S10x4096, .i32⟩ : BufTy).Contents (Elt F)),
    StableHlo.nullary main_c (constantI S_ 32 1#32),
    StableHlo.unary main_c main_v3 (broadcastInDim S10x4096 ![] bcast_S_S10x4096 : (⟨S_, .i32⟩ : BufTy).Contents (Elt F) → (⟨S10x4096, .i32⟩ : BufTy).Contents (Elt F)),
    StableHlo.binary main_v2 main_v3 main_v4 (Host.shrsi : (⟨S10x4096, .i32⟩ : BufTy).Contents (Elt F) → (⟨S10x4096, .i32⟩ : BufTy).Contents (Elt F) → (⟨S10x4096, .i32⟩ : BufTy).Contents (Elt F)),
    StableHlo.reshape main_v4 main_v5 rfl shapeCasts_S10x4096_S32x10x128 ]

abbrev hostOps1 : List (HloOp τ sig (Elt F)) :=
  [
    StableHlo.unary main_arg0 main_v7 ((extractStridedSlice S4096x10 ![0, 10] · slices_S4096x50_S4096x10_0_10) : (⟨S4096x50, .i32⟩ : BufTy).Contents (Elt F) → (⟨S4096x10, .i32⟩ : BufTy).Contents (Elt F)),
    StableHlo.unary main_v7 main_v8 ((transpose S10x4096 [1, 0] · transposes_S4096x10_S10x4096_1_0) : (⟨S4096x10, .i32⟩ : BufTy).Contents (Elt F) → (⟨S10x4096, .i32⟩ : BufTy).Contents (Elt F)),
    StableHlo.nullary main_c_0 (constantI S_ 32 1#32),
    StableHlo.unary main_c_0 main_v9 (broadcastInDim S10x4096 ![] bcast_S_S10x4096 : (⟨S_, .i32⟩ : BufTy).Contents (Elt F) → (⟨S10x4096, .i32⟩ : BufTy).Contents (Elt F)),
    StableHlo.binary main_v8 main_v9 main_v10 (Host.shrsi : (⟨S10x4096, .i32⟩ : BufTy).Contents (Elt F) → (⟨S10x4096, .i32⟩ : BufTy).Contents (Elt F) → (⟨S10x4096, .i32⟩ : BufTy).Contents (Elt F)),
    StableHlo.reshape main_v10 main_v11 rfl shapeCasts_S10x4096_S32x10x128 ]

abbrev hostOps2 : List (HloOp τ sig (Elt F)) :=
  [
    StableHlo.unary main_arg0 main_v13 ((extractStridedSlice S4096x10 ![0, 20] · slices_S4096x50_S4096x10_0_20) : (⟨S4096x50, .i32⟩ : BufTy).Contents (Elt F) → (⟨S4096x10, .i32⟩ : BufTy).Contents (Elt F)),
    StableHlo.unary main_v13 main_v14 ((transpose S10x4096 [1, 0] · transposes_S4096x10_S10x4096_1_0) : (⟨S4096x10, .i32⟩ : BufTy).Contents (Elt F) → (⟨S10x4096, .i32⟩ : BufTy).Contents (Elt F)),
    StableHlo.nullary main_c_1 (constantI S_ 32 1#32),
    StableHlo.unary main_c_1 main_v15 (broadcastInDim S10x4096 ![] bcast_S_S10x4096 : (⟨S_, .i32⟩ : BufTy).Contents (Elt F) → (⟨S10x4096, .i32⟩ : BufTy).Contents (Elt F)),
    StableHlo.binary main_v14 main_v15 main_v16 (Host.shrsi : (⟨S10x4096, .i32⟩ : BufTy).Contents (Elt F) → (⟨S10x4096, .i32⟩ : BufTy).Contents (Elt F) → (⟨S10x4096, .i32⟩ : BufTy).Contents (Elt F)),
    StableHlo.reshape main_v16 main_v17 rfl shapeCasts_S10x4096_S32x10x128 ]

abbrev hostOps3 : List (HloOp τ sig (Elt F)) :=
  [
    StableHlo.unary main_arg0 main_v19 ((extractStridedSlice S4096x10 ![0, 30] · slices_S4096x50_S4096x10_0_30) : (⟨S4096x50, .i32⟩ : BufTy).Contents (Elt F) → (⟨S4096x10, .i32⟩ : BufTy).Contents (Elt F)),
    StableHlo.unary main_v19 main_v20 ((transpose S10x4096 [1, 0] · transposes_S4096x10_S10x4096_1_0) : (⟨S4096x10, .i32⟩ : BufTy).Contents (Elt F) → (⟨S10x4096, .i32⟩ : BufTy).Contents (Elt F)),
    StableHlo.nullary main_c_2 (constantI S_ 32 1#32),
    StableHlo.unary main_c_2 main_v21 (broadcastInDim S10x4096 ![] bcast_S_S10x4096 : (⟨S_, .i32⟩ : BufTy).Contents (Elt F) → (⟨S10x4096, .i32⟩ : BufTy).Contents (Elt F)),
    StableHlo.binary main_v20 main_v21 main_v22 (Host.shrsi : (⟨S10x4096, .i32⟩ : BufTy).Contents (Elt F) → (⟨S10x4096, .i32⟩ : BufTy).Contents (Elt F) → (⟨S10x4096, .i32⟩ : BufTy).Contents (Elt F)),
    StableHlo.reshape main_v22 main_v23 rfl shapeCasts_S10x4096_S32x10x128 ]

abbrev hostOps4 : List (HloOp τ sig (Elt F)) :=
  [
    StableHlo.unary main_arg0 main_v25 ((extractStridedSlice S4096x10 ![0, 40] · slices_S4096x50_S4096x10_0_40) : (⟨S4096x50, .i32⟩ : BufTy).Contents (Elt F) → (⟨S4096x10, .i32⟩ : BufTy).Contents (Elt F)),
    StableHlo.unary main_v25 main_v26 ((transpose S10x4096 [1, 0] · transposes_S4096x10_S10x4096_1_0) : (⟨S4096x10, .i32⟩ : BufTy).Contents (Elt F) → (⟨S10x4096, .i32⟩ : BufTy).Contents (Elt F)),
    StableHlo.nullary main_c_3 (constantI S_ 32 1#32),
    StableHlo.unary main_c_3 main_v27 (broadcastInDim S10x4096 ![] bcast_S_S10x4096 : (⟨S_, .i32⟩ : BufTy).Contents (Elt F) → (⟨S10x4096, .i32⟩ : BufTy).Contents (Elt F)),
    StableHlo.binary main_v26 main_v27 main_v28 (Host.shrsi : (⟨S10x4096, .i32⟩ : BufTy).Contents (Elt F) → (⟨S10x4096, .i32⟩ : BufTy).Contents (Elt F) → (⟨S10x4096, .i32⟩ : BufTy).Contents (Elt F)),
    StableHlo.reshape main_v28 main_v29 rfl shapeCasts_S10x4096_S32x10x128 ]

/-! ## Their composition as one function -/

/-- The row numbers a gather call reads, from the index array `x`: the ten columns from `off` on, transposed, every
    entry shifted right by one, laid out as [32, 10, 128]. -/
def idxOf (off : Nat) (h : S4096x50.Slices ![0, off] S4096x10) (x : (⟨S4096x50, .i32⟩ : BufTy).Contents (Elt F)) :
    (⟨S32x10x128, .i32⟩ : BufTy).Contents (Elt F) :=
  shapeCast S32x10x128
    (Host.shrsi (transpose S10x4096 [1, 0] (extractStridedSlice S4096x10 ![0, off] x h) transposes_S4096x10_S10x4096_1_0)
      (broadcastInDim S10x4096 ![] bcast_S_S10x4096 (constantI S_ 32 1#32)))
    shapeCasts_S10x4096_S32x10x128

/-- Call 0's row numbers: columns 0 … 9. -/
abbrev idxFn0 (x : (⟨S4096x50, .i32⟩ : BufTy).Contents (Elt F)) : (⟨S32x10x128, .i32⟩ : BufTy).Contents (Elt F) :=
  idxOf 0 slices_S4096x50_S4096x10_0_0 x
/-- Call 1's row numbers: columns 10 … 19. -/
abbrev idxFn1 (x : (⟨S4096x50, .i32⟩ : BufTy).Contents (Elt F)) : (⟨S32x10x128, .i32⟩ : BufTy).Contents (Elt F) :=
  idxOf 10 slices_S4096x50_S4096x10_0_10 x
/-- Call 2's row numbers: columns 20 … 29. -/
abbrev idxFn2 (x : (⟨S4096x50, .i32⟩ : BufTy).Contents (Elt F)) : (⟨S32x10x128, .i32⟩ : BufTy).Contents (Elt F) :=
  idxOf 20 slices_S4096x50_S4096x10_0_20 x
/-- Call 3's row numbers: columns 30 … 39. -/
abbrev idxFn3 (x : (⟨S4096x50, .i32⟩ : BufTy).Contents (Elt F)) : (⟨S32x10x128, .i32⟩ : BufTy).Contents (Elt F) :=
  idxOf 30 slices_S4096x50_S4096x10_0_30 x
/-- Call 4's row numbers: columns 40 … 49. -/
abbrev idxFn4 (x : (⟨S4096x50, .i32⟩ : BufTy).Contents (Elt F)) : (⟨S32x10x128, .i32⟩ : BufTy).Contents (Elt F) :=
  idxOf 40 slices_S4096x50_S4096x10_0_40 x

/-- The table as the gather calls read it: the same entries in row-major order, two rows to a row. -/
def tblFn (w : (⟨S100000x64, .f32⟩ : BufTy).Contents (Elt F)) : (⟨S50000x128, .f32⟩ : BufTy).Contents (Elt F) :=
  shapeCast S50000x128 w shapeCasts_S100000x64_S50000x128

/-! ## The fold of the host operations at the arrays a call reads -/

theorem idx_after0 (V : Valuation τ sig (Elt F)) :
    StableHlo.after hostOps0 V (Proc.devRef .tc main_v5) = idxFn0 (V (Proc.devRef .tc main_arg0)) := by
  after_results
  rfl

theorem idx_after1 (V : Valuation τ sig (Elt F)) :
    StableHlo.after hostOps1 V (Proc.devRef .tc main_v11) = idxFn1 (V (Proc.devRef .tc main_arg0)) := by
  after_results
  rfl

theorem idx_after2 (V : Valuation τ sig (Elt F)) :
    StableHlo.after hostOps2 V (Proc.devRef .tc main_v17) = idxFn2 (V (Proc.devRef .tc main_arg0)) := by
  after_results
  rfl

theorem idx_after3 (V : Valuation τ sig (Elt F)) :
    StableHlo.after hostOps3 V (Proc.devRef .tc main_v23) = idxFn3 (V (Proc.devRef .tc main_arg0)) := by
  after_results
  rfl

theorem idx_after4 (V : Valuation τ sig (Elt F)) :
    StableHlo.after hostOps4 V (Proc.devRef .tc main_v29) = idxFn4 (V (Proc.devRef .tc main_arg0)) := by
  after_results
  rfl

theorem tbl_after (V : Valuation τ sig (Elt F)) :
    StableHlo.after hostOps0 V (Proc.devRef .tc main_v0) = tblFn (V (Proc.devRef .tc main_arg1)) := by
  after_results
  rfl

/-! ## Every row number names a row of the table -/

/-- A word in [0, 99999] read signed has its top bit clear, so its arithmetic shift right by one is its half: below
    50000. -/
theorem shr_lt (u : ArithUnit) (w : BitVec 32) (h0 : 0 ≤ w.toInt) (h1 : w.toInt ≤ 99999) :
    (IntOp.shrsi u w 1#32).toNat < 50000 := by
  have hm : w.msb = false := by
    rw [BitVec.msb_eq_false_iff_two_mul_lt]; exact BitVec.toInt_pos_iff.mp h0
  have hn : w.toNat ≤ 99999 := by
    rw [BitVec.toInt_eq_toNat_of_msb hm] at h1; omega
  unfold IntOp.shrsi
  rw [if_pos (by decide)]
  show (w.sshiftRight (1#32).toNat).toNat < 50000
  rw [BitVec.sshiftRight_eq_of_msb_false hm, BitVec.toNat_ushiftRight]
  show w.toNat >>> 1 < 50000
  rw [Nat.shiftRight_eq_div_pow]; omega

/-- Every entry of a call's row numbers is the shift of ONE entry of `x` (the slice, the transpose and the reshape only
    move entries; the shift amount is the constant one everywhere), so it is below 50000 when `x`'s entries lie in
    [0, 99999]. -/
theorem idxOf_lt (off : Nat) (h : S4096x50.Slices ![0, off] S4096x10) (x : (⟨S4096x50, .i32⟩ : BufTy).Contents (Elt F))
    (hx : ∀ i, 0 ≤ (x i).toInt ∧ (x i).toInt ≤ 99999) (j : S32x10x128.Idx) : (idxOf off h x j).toNat < 50000 := by
  show (IntOp.shrsi .host (x _) 1#32).toNat < 50000
  exact shr_lt .host _ (hx _).1 (hx _).2

theorem idx_lt0 (x : (⟨S4096x50, .i32⟩ : BufTy).Contents (Elt F)) (hx : ∀ i, 0 ≤ (x i).toInt ∧ (x i).toInt ≤ 99999) :
    ∀ j, (idxFn0 x j).toNat < 50000 := idxOf_lt _ _ x hx
theorem idx_lt1 (x : (⟨S4096x50, .i32⟩ : BufTy).Contents (Elt F)) (hx : ∀ i, 0 ≤ (x i).toInt ∧ (x i).toInt ≤ 99999) :
    ∀ j, (idxFn1 x j).toNat < 50000 := idxOf_lt _ _ x hx
theorem idx_lt2 (x : (⟨S4096x50, .i32⟩ : BufTy).Contents (Elt F)) (hx : ∀ i, 0 ≤ (x i).toInt ∧ (x i).toInt ≤ 99999) :
    ∀ j, (idxFn2 x j).toNat < 50000 := idxOf_lt _ _ x hx
theorem idx_lt3 (x : (⟨S4096x50, .i32⟩ : BufTy).Contents (Elt F)) (hx : ∀ i, 0 ≤ (x i).toInt ∧ (x i).toInt ≤ 99999) :
    ∀ j, (idxFn3 x j).toNat < 50000 := idxOf_lt _ _ x hx
theorem idx_lt4 (x : (⟨S4096x50, .i32⟩ : BufTy).Contents (Elt F)) (hx : ∀ i, 0 ≤ (x i).toInt ∧ (x i).toInt ≤ 99999) :
    ∀ j, (idxFn4 x j).toNat < 50000 := idxOf_lt _ _ x hx

/-! ### As a subcore reads them through its block of the array -/

theorem read_lt0 (x : (⟨S4096x50, .i32⟩ : BufTy).Contents (Elt F)) (hx : ∀ i, 0 ≤ (x i).toInt ∧ (x i).toInt ≤ 99999)
    (L : grid0.Coords) : ∀ j, ((T0.iBlk L).view.read (Elt F) (idxFn0 x) j).toNat < 50000 :=
  fun j => idxOf_lt _ _ x hx _
theorem read_lt1 (x : (⟨S4096x50, .i32⟩ : BufTy).Contents (Elt F)) (hx : ∀ i, 0 ≤ (x i).toInt ∧ (x i).toInt ≤ 99999)
    (L : grid1.Coords) : ∀ j, ((T1.iBlk L).view.read (Elt F) (idxFn1 x) j).toNat < 50000 :=
  fun j => idxOf_lt _ _ x hx _
theorem read_lt2 (x : (⟨S4096x50, .i32⟩ : BufTy).Contents (Elt F)) (hx : ∀ i, 0 ≤ (x i).toInt ∧ (x i).toInt ≤ 99999)
    (L : grid2.Coords) : ∀ j, ((T2.iBlk L).view.read (Elt F) (idxFn2 x) j).toNat < 50000 :=
  fun j => idxOf_lt _ _ x hx _
theorem read_lt3 (x : (⟨S4096x50, .i32⟩ : BufTy).Contents (Elt F)) (hx : ∀ i, 0 ≤ (x i).toInt ∧ (x i).toInt ≤ 99999)
    (L : grid3.Coords) : ∀ j, ((T3.iBlk L).view.read (Elt F) (idxFn3 x) j).toNat < 50000 :=
  fun j => idxOf_lt _ _ x hx _
theorem read_lt4 (x : (⟨S4096x50, .i32⟩ : BufTy).Contents (Elt F)) (hx : ∀ i, 0 ≤ (x i).toInt ∧ (x i).toInt ≤ 99999)
    (L : grid4.Coords) : ∀ j, ((T4.iBlk L).view.read (Elt F) (idxFn4 x) j).toNat < 50000 :=
  fun j => idxOf_lt _ _ x hx _

/-! ## The precondition decoded -/

/-- The precondition is the conjunction of two `all`s, "every table entry is finite" and "every entry of `x` is at least
    0 and at most 99999, read signed"; that it is one says of the second that every entry of `x` lies in [0, 99999]. -/
theorem x_range_of_pre [hP : Cert.Pre_input_domain.Facts] (x : IVec Cert.Pre_input_domain.S4096x50 32)
    (w : FVec F Cert.Pre_input_domain.S100000x64 .f32)
    (h : Cert.Pre_input_domain.fn (F := F) x w = fun _ => 1#1) :
    ∀ i, 0 ≤ (x i).toInt ∧ (x i).toInt ≤ 99999 := by
  intro i
  -- the result of an `all` has one index
  haveI : Subsingleton Cert.Pre_input_domain.S_.Idx := ⟨fun a b => funext fun d => d.elim0⟩
  have e := congrFun h ValueIdx.ix0
  dsimp only [Cert.Pre_input_domain.fn] at e
  change IntOp.andi _ _ = 1#1 at e
  obtain ⟨-, e2⟩ := IntOp.andi_eq_one.mp e
  have e3 := Host.reduce_andi_all _ _ _ _ _ e2 i
  change IntOp.andi (IntOp.cmpi .sge (x i) 0#32) (IntOp.cmpi .sle (x i) 99999#32) = 1#1 at e3
  obtain ⟨h0, h1⟩ := IntOp.andi_eq_one.mp e3
  have h0' := IntOp.cmpi_sge.mp h0
  have h1' := IntOp.cmpi_sle.mp h1
  rw [show (0#32 : BitVec 32).toInt = 0 from by decide] at h0'
  rw [show (99999#32 : BitVec 32).toInt = 99999 from by decide] at h1'
  exact ⟨h0', h1'⟩

/-- The idealized kernel's precondition, decoded on each device: the index array's entries lie in [0, 99999]. -/
theorem x_range_of_pre_ideal [hP : Cert.Pre_input_domain.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, 0 ≤ (m ((c.tc : Thread Cert.KernelIdeal.nD Cert.KernelIdeal.τ).loc Cert.KernelIdeal.main_arg0) i).toInt
      ∧ (m ((c.tc : Thread Cert.KernelIdeal.nD Cert.KernelIdeal.τ).loc Cert.KernelIdeal.main_arg0) i).toInt ≤ 99999 :=
  x_range_of_pre (F := Ideal) _ _ (h c)

/-- The kernel's precondition at the bit-exact instance, decoded the same way. -/
theorem x_range_of_pre_bits [hP : Cert.Pre_input_domain.Facts]
    (m : (ℓ : Loc Cert.Kernel.nD Cert.Kernel.τ Cert.Kernel.sig) → Buf (Elt Bits) ℓ)
    (h : Cert.Pre_Kernel m) (c : Dev Cert.Kernel.nD) :
    ∀ i, 0 ≤ (m ((c.tc : Thread Cert.Kernel.nD Cert.Kernel.τ).loc Cert.Kernel.main_arg0) i).toInt
      ∧ (m ((c.tc : Thread Cert.Kernel.nD Cert.Kernel.τ).loc Cert.Kernel.main_arg0) i).toInt ≤ 99999 :=
  x_range_of_pre (F := Bits) _ _ (h c)

end Cert.Proof.KI.Pre

end
-- ==== Proof.KITailKeep.lean ====
/-
  The argument arrays through the TensorCore's last part. After the five gather calls the TensorCore runs six
  stretches of host operations (the reshapes of the row numbers, the copies of the growing result, the final
  transpose) with a transposing call between each two. No host operation of the six stretches writes the index
  array or the table, and neither is one of a transposing call's arrays; so the contents folded through the eleven
  segments, read at an argument's buffer, are what that buffer held when the last gather call returned.
-/
import proofs.«205068_g58248346468665_cont_9to1c4b_383_29_alg».proof.Proof.KITail

set_option maxRecDepth 16384

noncomputable section

namespace Cert.Proof.KI.Tail

open Cert.KernelIdeal Cert.KernelIdeal.Gen Cert.Proof.KI
open Idealize.ShloMosaic Idealize.ShloMosaic.TcCoe Idealize.SL.Sem

variable {F : FTy → Type} [FloatOps F]

variable (Wt : Dev nD → Valuation τ sig (Elt F))

/-- A stretch of host operations keeps a buffer none of its operations writes: each operation writes its one result
    buffer, and the buffer read is another. -/
local macro "host_keeps" : tactic =>
  `(tactic| (refine StableHlo.after_of_forall_not_mem _ _ (List.forall_iff_forall_mem.mp ?_)
             simp only [hops0, hops1, hops2, hops3, hops4, hops5, List.Forall, StableHlo.unary_writes,
               StableHlo.reshape_writes, Finset.mem_singleton]
             repeat' apply And.intro
             all_goals exact StableHlo.devRef_ne_of_ne (by decide)))

/-- The index array through the eleven segments: as it was when the last gather call returned. -/
theorem W11_arg0 (c : Dev nD) : W11 Wt c (Proc.devRef .tc main_arg0) = Wt c (Proc.devRef .tc main_arg0) :=
  calc W11 Wt c (Proc.devRef .tc main_arg0)
    _ = W10 Wt c (Proc.devRef .tc main_arg0) := by host_keeps
    _ = W9 Wt c (Proc.devRef .tc main_arg0) := W10_of_ne Wt c main_arg0 (by decide)
    _ = W8 Wt c (Proc.devRef .tc main_arg0) := by host_keeps
    _ = W7 Wt c (Proc.devRef .tc main_arg0) := W8_of_ne Wt c main_arg0 (by decide)
    _ = W6 Wt c (Proc.devRef .tc main_arg0) := by host_keeps
    _ = W5 Wt c (Proc.devRef .tc main_arg0) := W6_of_ne Wt c main_arg0 (by decide)
    _ = W4 Wt c (Proc.devRef .tc main_arg0) := by host_keeps
    _ = W3 Wt c (Proc.devRef .tc main_arg0) := W4_of_ne Wt c main_arg0 (by decide)
    _ = W2 Wt c (Proc.devRef .tc main_arg0) := by host_keeps
    _ = W1 Wt c (Proc.devRef .tc main_arg0) := W2_of_ne Wt c main_arg0 (by decide)
    _ = W0 Wt c (Proc.devRef .tc main_arg0) := by host_keeps
    _ = Wt c (Proc.devRef .tc main_arg0) := rfl

/-- The table through the eleven segments: as it was when the last gather call returned. -/
theorem W11_arg1 (c : Dev nD) : W11 Wt c (Proc.devRef .tc main_arg1) = Wt c (Proc.devRef .tc main_arg1) :=
  calc W11 Wt c (Proc.devRef .tc main_arg1)
    _ = W10 Wt c (Proc.devRef .tc main_arg1) := by host_keeps
    _ = W9 Wt c (Proc.devRef .tc main_arg1) := W10_of_ne Wt c main_arg1 (by decide)
    _ = W8 Wt c (Proc.devRef .tc main_arg1) := by host_keeps
    _ = W7 Wt c (Proc.devRef .tc main_arg1) := W8_of_ne Wt c main_arg1 (by decide)
    _ = W6 Wt c (Proc.devRef .tc main_arg1) := by host_keeps
    _ = W5 Wt c (Proc.devRef .tc main_arg1) := W6_of_ne Wt c main_arg1 (by decide)
    _ = W4 Wt c (Proc.devRef .tc main_arg1) := by host_keeps
    _ = W3 Wt c (Proc.devRef .tc main_arg1) := W4_of_ne Wt c main_arg1 (by decide)
    _ = W2 Wt c (Proc.devRef .tc main_arg1) := by host_keeps
    _ = W1 Wt c (Proc.devRef .tc main_arg1) := W2_of_ne Wt c main_arg1 (by decide)
    _ = W0 Wt c (Proc.devRef .tc main_arg1) := by host_keeps
    _ = Wt c (Proc.devRef .tc main_arg1) := rfl

end Cert.Proof.KI.Tail

end
-- ==== Proof.KILaunch.lean ====
/-
  The launch: the five gather calls on the SparseCores and the transposing calls on the TensorCore as one
  program. The ghost state is the handshakes' rounds, the staging cells' rounds and the local transfers'
  counters; the TensorCore's buffers are folded through @main's host operations, each gather call is handed its
  three arrays split among its tasks and hands them back, and the rest of @main runs as the list of segments.
-/
import proofs.«205068_g58248346468665_cont_9to1c4b_383_29_alg».proof.Proof.KIMain
import proofs.«205068_g58248346468665_cont_9to1c4b_383_29_alg».proof.Proof.KIPre
import proofs.«205068_g58248346468665_cont_9to1c4b_383_29_alg».proof.Proof.KITailKeep

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 5) (Elt F) ℕ UU ℕ

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals the TensorCore beside its buffers: the staging cells' ghost state of the five transposing calls. -/
abbrev G (d : Dev nD) : sProp 𝕄 := Pipeline.ghostOn (pcfgs (F := F)) Tail.adm EP Finset.univ d

omit [FloatOps F] in
theorem bigSep_emp' {I : Type} (s : Finset I) : (bigSep s fun _ => iprop(emp)) = (iprop(emp) : sProp 𝕄) := bigSep_emp_const s

omit [FloatOps F] in
theorem ghost_join :
    iprop((bigSep Finset.univ fun c : Dev nD => bigSep Finset.univ fun p : Fin 5 => (Pipeline.cellsGhost (nD := nD) (τ := τ) cfgs EP p c : sProp 𝕄))
        ∗ (bigSep Finset.univ fun c : Dev nD => bigSep Finset.univ fun p : Fin 5 => (Pipeline.toksInit (nD := nD) (τ := τ) cfgs EP p c : sProp 𝕄)))
      ⊢ (bigSep Finset.univ fun d : Dev nD => G (F := F) d) := by
  have e : ∀ c : Dev nD, G (F := F) c
      = iprop((bigSep Finset.univ fun p : Fin 5 => (Pipeline.cellsGhost (nD := nD) (τ := τ) cfgs EP p c : sProp 𝕄))
          ∗ bigSep Finset.univ fun p : Fin 5 => (Pipeline.toksInit (nD := nD) (τ := τ) cfgs EP p c : sProp 𝕄)) := by
    intro c
    unfold G Pipeline.ghostOn Pipeline.PerCore.ghostOn
    rw [bigSep_sep']
  rw [← bigSep_sep' (Finset.univ : Finset (Dev nD)), bigSep_congr (s := Finset.univ) (fun c _ => e c)]

variable (C : Conts F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (P C).x q thr) := by
  unfold u₀
  iintro Hu
  ihave H := (ownU_pair _ _) $$ Hu
  icases H with ⟨HH, HR⟩
  ihave HR' := (own_pair_emb embR _ _) $$ HR
  icases HR' with ⟨HP, -⟩
  ihave HP' := (show (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP : Emb UP 𝕄) (initOf (Pipeline.cells (nD := nD) (τ := τ) cfgs cellOf_inj) (Pipeline.launchToks (nD := nD) (τ := τ) cfgs cellOf_inj))) from .rfl) $$ HP
  imod (Pipeline.fund_ghost (nD := nD) (τ := τ) cfgs EP cellOf_inj) $$ HP' with ⟨Hc, Ht⟩
  imodintro
  isplitl [HH]; · iexact HH
  isplitl [Hc Ht]
  · iapply (ghost_join (F := F))
    isplitl [Hc]; · iexact Hc
    iexact Ht
  unfold P; dsimp only
  rw [show (bigSep Finset.univ fun _ : Thread nD τ => bigSep Finset.univ fun _ : Fin 5 => (iprop(emp) : sProp 𝕄)) = iprop(emp) from by
    rw [bigSep_congr fun _ _ => bigSep_emp' _, bigSep_emp']]
  iempintro

/-! ## A gather call's three arrays out of the TensorCore's buffers, and back -/

omit [FloatOps F] in
/-- Three distinct buffers of a held set are those three and, for any new contents of the third, the set held again at
    the valuation updated there. -/
theorem call_frame (thr : Thread nD τ) (Sx : Finset (DevRef τ sig)) (V : Valuation τ sig (Elt F)) (a b o : DevRef τ sig)
    (hab : a ≠ b) (hao : a ≠ o) (hbo : b ≠ o) (hS : ({a, b, o} : Finset (DevRef τ sig)) ⊆ Sx) :
    (held thr Sx V : sProp 𝕄)
      ⊢ iprop((((thr.1, a) : Loc nD τ sig) ↦{fullShare} V a) ∗ (((thr.1, b) : Loc nD τ sig) ↦{fullShare} V b) ∗ (((thr.1, o) : Loc nD τ sig) ↦{fullShare} V o)
          ∗ ∀ f, (iprop((((thr.1, a) : Loc nD τ sig) ↦{fullShare} V a) ∗ (((thr.1, b) : Loc nD τ sig) ↦{fullShare} V b) ∗ (((thr.1, o) : Loc nD τ sig) ↦{fullShare} f))
              -∗ held thr Sx (Function.update V o f))) := by
  have e1 : (held thr Sx V : sProp 𝕄) = iprop(held thr {a, b, o} V ∗ held thr (Sx \ {a, b, o}) V) := StableHlo.held_sub_split thr hS V
  have e3 : ∀ W : Valuation τ sig (Elt F), (held thr ({a, b, o} : Finset (DevRef τ sig)) W : sProp 𝕄)
      = iprop((((thr.1, a) : Loc nD τ sig) ↦{fullShare} W a) ∗ (((thr.1, b) : Loc nD τ sig) ↦{fullShare} W b) ∗ (((thr.1, o) : Loc nD τ sig) ↦{fullShare} W o)) := by
    intro W
    unfold StableHlo.held
    rw [SparseCore.bigSep_insert' (by simp [hab, hao]), SparseCore.bigSep_insert' (by simp [hbo]), bigSep_singleton]
  rw [e1, e3]
  iintro ⟨⟨Ha, Hb, Ho⟩, Hrest⟩
  isplitl [Ha]; · iexact Ha
  isplitl [Hb]; · iexact Hb
  isplitl [Ho]; · iexact Ho
  iintro %f ⟨Ha, Hb, Ho⟩
  rw [StableHlo.held_sub_split thr hS (Function.update V o f), e3,
    Function.update_of_ne hao, Function.update_of_ne hbo, Function.update_self,
    StableHlo.held_congr (S := Sx \ {a, b, o}) (V := Function.update V o f) (V' := V) thr (fun x hx => Function.update_of_ne (fun e => by
      subst e; simp at hx) _ _)]
  isplitl [Ha Hb Ho]
  · isplitl [Ha]; · iexact Ha
    isplitl [Hb]; · iexact Hb
    iexact Ho
  iexact Hrest

/-! ## The arrays' contents when each gather call is made -/

variable (m : (ℓ : Loc nD τ sig) → Buf (Elt F) ℓ) (ρ : Dev nD → PrngReg)

/-- The TensorCore's buffers at the launch. -/
abbrev Wl (d : Dev nD) : Valuation τ sig (Elt F) := fun b => m (d, b)

/-- The table is the weights seen as 50000 rows; call `q`'s row numbers are columns `10 q … 10 q + 9` of `x`,
    transposed, halved and cut into thirty-two blocks; its result array is as launched. -/
def CM : Conts F where
  tv := fun d => Pre.tblFn (m (d, (Proc.devRef .tc (main_arg1 : Ref sig .tc))))
  iv0 := fun d => Pre.idxFn0 (m (d, (Proc.devRef .tc (main_arg0 : Ref sig .tc))))
  ov0 := fun d => m (d, (Proc.devRef .tc (main_v6 : Ref sig .tc)))
  iv1 := fun d => Pre.idxFn1 (m (d, (Proc.devRef .tc (main_arg0 : Ref sig .tc))))
  ov1 := fun d => m (d, (Proc.devRef .tc (main_v12 : Ref sig .tc)))
  iv2 := fun d => Pre.idxFn2 (m (d, (Proc.devRef .tc (main_arg0 : Ref sig .tc))))
  ov2 := fun d => m (d, (Proc.devRef .tc (main_v18 : Ref sig .tc)))
  iv3 := fun d => Pre.idxFn3 (m (d, (Proc.devRef .tc (main_arg0 : Ref sig .tc))))
  ov3 := fun d => m (d, (Proc.devRef .tc (main_v24 : Ref sig .tc)))
  iv4 := fun d => Pre.idxFn4 (m (d, (Proc.devRef .tc (main_arg0 : Ref sig .tc))))
  ov4 := fun d => m (d, (Proc.devRef .tc (main_v30 : Ref sig .tc)))

abbrev wl0 : List (Ref sig .tc) := [main_v0, main_v1, main_v2, main_c, main_v3, main_v4, main_v5]
theorem writes0 : (sops0 : List (HloOp τ sig (Elt F))).Forall fun op => op.writes ⊆ ((wl0).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide)⟩)
theorem keep0 (V : Valuation τ sig (Elt F)) (r : Ref sig .tc) (h : r ∉ wl0) :
    StableHlo.after sops0 V (Proc.devRef .tc r) = V (Proc.devRef .tc r) := StableHlo.after_of_writes_sub sops0 V (writes0 (F := F)) h

abbrev wl1 : List (Ref sig .tc) := [main_v7, main_v8, main_c_0, main_v9, main_v10, main_v11]
theorem writes1 : (sops1 : List (HloOp τ sig (Elt F))).Forall fun op => op.writes ⊆ ((wl1).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep1 (V : Valuation τ sig (Elt F)) (r : Ref sig .tc) (h : r ∉ wl1) :
    StableHlo.after sops1 V (Proc.devRef .tc r) = V (Proc.devRef .tc r) := StableHlo.after_of_writes_sub sops1 V (writes1 (F := F)) h

abbrev wl2 : List (Ref sig .tc) := [main_v13, main_v14, main_c_1, main_v15, main_v16, main_v17]
theorem writes2 : (sops2 : List (HloOp τ sig (Elt F))).Forall fun op => op.writes ⊆ ((wl2).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep2 (V : Valuation τ sig (Elt F)) (r : Ref sig .tc) (h : r ∉ wl2) :
    StableHlo.after sops2 V (Proc.devRef .tc r) = V (Proc.devRef .tc r) := StableHlo.after_of_writes_sub sops2 V (writes2 (F := F)) h

abbrev wl3 : List (Ref sig .tc) := [main_v19, main_v20, main_c_2, main_v21, main_v22, main_v23]
theorem writes3 : (sops3 : List (HloOp τ sig (Elt F))).Forall fun op => op.writes ⊆ ((wl3).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep3 (V : Valuation τ sig (Elt F)) (r : Ref sig .tc) (h : r ∉ wl3) :
    StableHlo.after sops3 V (Proc.devRef .tc r) = V (Proc.devRef .tc r) := StableHlo.after_of_writes_sub sops3 V (writes3 (F := F)) h

abbrev wl4 : List (Ref sig .tc) := [main_v25, main_v26, main_c_3, main_v27, main_v28, main_v29]
theorem writes4 : (sops4 : List (HloOp τ sig (Elt F))).Forall fun op => op.writes ⊆ ((wl4).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep4 (V : Valuation τ sig (Elt F)) (r : Ref sig .tc) (h : r ∉ wl4) :
    StableHlo.after sops4 V (Proc.devRef .tc r) = V (Proc.devRef .tc r) := StableHlo.after_of_writes_sub sops4 V (writes4 (F := F)) h

/-! ## The TensorCore's buffers through the gather calls -/

abbrev A0 (d : Dev nD)  : Valuation τ sig (Elt F) := StableHlo.after sops0 (Wl m d)
abbrev B0 (d : Dev nD) (f0 : (⟨S40960x128, .f32⟩ : BufTy).Contents (Elt F)) : Valuation τ sig (Elt F) := Function.update (A0 m d ) (Proc.devRef .tc (main_v6 : Ref sig .tc)) f0
theorem A0_arg0 (d : Dev nD)  : A0 m d  (Proc.devRef .tc (main_arg0 : Ref sig .tc)) = m (d, (Proc.devRef .tc (main_arg0 : Ref sig .tc))) := (keep0 _ main_arg0 (by decide)).trans (rfl)
theorem A0_arg1 (d : Dev nD)  : A0 m d  (Proc.devRef .tc (main_arg1 : Ref sig .tc)) = m (d, (Proc.devRef .tc (main_arg1 : Ref sig .tc))) := (keep0 _ main_arg1 (by decide)).trans (rfl)
theorem A0_v0 (d : Dev nD) : A0 m d (Proc.devRef .tc (main_v0 : Ref sig .tc)) = (CM m).tv d := Pre.tbl_after _
theorem A0_idx (d : Dev nD)  : A0 m d  (Proc.devRef .tc (main_v5 : Ref sig .tc)) = (CM m).iv0 d := (Pre.idx_after0 _).trans (congrArg Pre.idxFn0 (rfl))
theorem A0_out0 (d : Dev nD)  : A0 m d  (Proc.devRef .tc (main_v6 : Ref sig .tc)) = m (d, (Proc.devRef .tc (main_v6 : Ref sig .tc))) := (keep0 _ main_v6 (by decide)).trans (rfl)
theorem A0_out1 (d : Dev nD)  : A0 m d  (Proc.devRef .tc (main_v12 : Ref sig .tc)) = m (d, (Proc.devRef .tc (main_v12 : Ref sig .tc))) := (keep0 _ main_v12 (by decide)).trans (rfl)
theorem A0_out2 (d : Dev nD)  : A0 m d  (Proc.devRef .tc (main_v18 : Ref sig .tc)) = m (d, (Proc.devRef .tc (main_v18 : Ref sig .tc))) := (keep0 _ main_v18 (by decide)).trans (rfl)
theorem A0_out3 (d : Dev nD)  : A0 m d  (Proc.devRef .tc (main_v24 : Ref sig .tc)) = m (d, (Proc.devRef .tc (main_v24 : Ref sig .tc))) := (keep0 _ main_v24 (by decide)).trans (rfl)
theorem A0_out4 (d : Dev nD)  : A0 m d  (Proc.devRef .tc (main_v30 : Ref sig .tc)) = m (d, (Proc.devRef .tc (main_v30 : Ref sig .tc))) := (keep0 _ main_v30 (by decide)).trans (rfl)
theorem B0_arg0 (d : Dev nD) (f0 : (⟨S40960x128, .f32⟩ : BufTy).Contents (Elt F)) : B0 m d f0 (Proc.devRef .tc (main_arg0 : Ref sig .tc)) = m (d, (Proc.devRef .tc (main_arg0 : Ref sig .tc))) := (Function.update_of_ne (StableHlo.devRef_ne_of_ne (show (main_arg0 : Ref sig .tc) ≠ main_v6 by decide)) _ _).trans (A0_arg0 m d )
theorem B0_arg1 (d : Dev nD) (f0 : (⟨S40960x128, .f32⟩ : BufTy).Contents (Elt F)) : B0 m d f0 (Proc.devRef .tc (main_arg1 : Ref sig .tc)) = m (d, (Proc.devRef .tc (main_arg1 : Ref sig .tc))) := (Function.update_of_ne (StableHlo.devRef_ne_of_ne (show (main_arg1 : Ref sig .tc) ≠ main_v6 by decide)) _ _).trans (A0_arg1 m d )
theorem B0_v0 (d : Dev nD) (f0 : (⟨S40960x128, .f32⟩ : BufTy).Contents (Elt F)) : B0 m d f0 (Proc.devRef .tc (main_v0 : Ref sig .tc)) = (CM m).tv d := (Function.update_of_ne (StableHlo.devRef_ne_of_ne (show (main_v0 : Ref sig .tc) ≠ main_v6 by decide)) _ _).trans (A0_v0 m d )
theorem B0_out1 (d : Dev nD) (f0 : (⟨S40960x128, .f32⟩ : BufTy).Contents (Elt F)) : B0 m d f0 (Proc.devRef .tc (main_v12 : Ref sig .tc)) = m (d, (Proc.devRef .tc (main_v12 : Ref sig .tc))) := (Function.update_of_ne (StableHlo.devRef_ne_of_ne (show (main_v12 : Ref sig .tc) ≠ main_v6 by decide)) _ _).trans (A0_out1 m d )
theorem B0_out2 (d : Dev nD) (f0 : (⟨S40960x128, .f32⟩ : BufTy).Contents (Elt F)) : B0 m d f0 (Proc.devRef .tc (main_v18 : Ref sig .tc)) = m (d, (Proc.devRef .tc (main_v18 : Ref sig .tc))) := (Function.update_of_ne (StableHlo.devRef_ne_of_ne (show (main_v18 : Ref sig .tc) ≠ main_v6 by decide)) _ _).trans (A0_out2 m d )
theorem B0_out3 (d : Dev nD) (f0 : (⟨S40960x128, .f32⟩ : BufTy).Contents (Elt F)) : B0 m d f0 (Proc.devRef .tc (main_v24 : Ref sig .tc)) = m (d, (Proc.devRef .tc (main_v24 : Ref sig .tc))) := (Function.update_of_ne (StableHlo.devRef_ne_of_ne (show (main_v24 : Ref sig .tc) ≠ main_v6 by decide)) _ _).trans (A0_out3 m d )
theorem B0_out4 (d : Dev nD) (f0 : (⟨S40960x128, .f32⟩ : BufTy).Contents (Elt F)) : B0 m d f0 (Proc.devRef .tc (main_v30 : Ref sig .tc)) = m (d, (Proc.devRef .tc (main_v30 : Ref sig .tc))) := (Function.update_of_ne (StableHlo.devRef_ne_of_ne (show (main_v30 : Ref sig .tc) ≠ main_v6 by decide)) _ _).trans (A0_out4 m d )

abbrev A1 (d : Dev nD) (f0 : (⟨S40960x128, .f32⟩ : BufTy).Contents (Elt F)) : Valuation τ sig (Elt F) := StableHlo.after sops1 (B0 m d f0)
abbrev B1 (d : Dev nD) (f0 : (⟨S40960x128, .f32⟩ : BufTy).Contents (Elt F)) (f1 : (⟨S40960x128, .f32⟩ : BufTy).Contents (Elt F)) : Valuation τ sig (Elt F) := Function.update (A1 m d f0) (Proc.devRef .tc (main_v12 : Ref sig .tc)) f1
theorem A1_arg0 (d : Dev nD) (f0 : (⟨S40960x128, .f32⟩ : BufTy).Contents (Elt F)) : A1 m d f0 (Proc.devRef .tc (main_arg0 : Ref sig .tc)) = m (d, (Proc.devRef .tc (main_arg0 : Ref sig .tc))) := (keep1 _ main_arg0 (by decide)).trans (B0_arg0 m d f0)
theorem A1_arg1 (d : Dev nD) (f0 : (⟨S40960x128, .f32⟩ : BufTy).Contents (Elt F)) : A1 m d f0 (Proc.devRef .tc (main_arg1 : Ref sig .tc)) = m (d, (Proc.devRef .tc (main_arg1 : Ref sig .tc))) := (keep1 _ main_arg1 (by decide)).trans (B0_arg1 m d f0)
theorem A1_v0 (d : Dev nD) (f0 : (⟨S40960x128, .f32⟩ : BufTy).Contents (Elt F)) : A1 m d f0 (Proc.devRef .tc (main_v0 : Ref sig .tc)) = (CM m).tv d := (keep1 _ main_v0 (by decide)).trans (B0_v0 m d f0)
theorem A1_idx (d : Dev nD) (f0 : (⟨S40960x128, .f32⟩ : BufTy).Contents (Elt F)) : A1 m d f0 (Proc.devRef .tc (main_v11 : Ref sig .tc)) = (CM m).iv1 d := (Pre.idx_after1 _).trans (congrArg Pre.idxFn1 (B0_arg0 m d f0))
theorem A1_out1 (d : Dev nD) (f0 : (⟨S40960x128, .f32⟩ : BufTy).Contents (Elt F)) : A1 m d f0 (Proc.devRef .tc (main_v12 : Ref sig .tc)) = m (d, (Proc.devRef .tc (main_v12 : Ref sig .tc))) := (keep1 _ main_v12 (by decide)).trans (B0_out1 m d f0)
theorem A1_out2 (d : Dev nD) (f0 : (⟨S40960x128, .f32⟩ : BufTy).Contents (Elt F)) : A1 m d f0 (Proc.devRef .tc (main_v18 : Ref sig .tc)) = m (d, (Proc.devRef .tc (main_v18 : Ref sig .tc))) := (keep1 _ main_v18 (by decide)).trans (B0_out2 m d f0)
theorem A1_out3 (d : Dev nD) (f0 : (⟨S40960x128, .f32⟩ : BufTy).Contents (Elt F)) : A1 m d f0 (Proc.devRef .tc (main_v24 : Ref sig .tc)) = m (d, (Proc.devRef .tc (main_v24 : Ref sig .tc))) := (keep1 _ main_v24 (by decide)).trans (B0_out3 m d f0)
theorem A1_out4 (d : Dev nD) (f0 : (⟨S40960x128, .f32⟩ : BufTy).Contents (Elt F)) : A1 m d f0 (Proc.devRef .tc (main_v30 : Ref sig .tc)) = m (d, (Proc.devRef .tc (main_v30 : Ref sig .tc))) := (keep1 _ main_v30 (by decide)).trans (B0_out4 m d f0)
theorem B1_arg0 (d : Dev nD) (f0 : (⟨S40960x128, .f32⟩ : BufTy).Contents (Elt F)) (f1 : (⟨S40960x128, .f32⟩ : BufTy).Contents (Elt F)) : B1 m d f0 f1 (Proc.devRef .tc (main_arg0 : Ref sig .tc)) = m (d, (Proc.devRef .tc (main_arg0 : Ref sig .tc))) := (Function.update_of_ne (StableHlo.devRef_ne_of_ne (show (main_arg0 : Ref sig .tc) ≠ main_v12 by decide)) _ _).trans (A1_arg0 m d f0)
theorem B1_arg1 (d : Dev nD) (f0 : (⟨S40960x128, .f32⟩ : BufTy).Contents (Elt F)) (f1 : (⟨S40960x128, .f32⟩ : BufTy).Contents (Elt F)) : B1 m d f0 f1 (Proc.devRef .tc (main_arg1 : Ref sig .tc)) = m (d, (Proc.devRef .tc (main_arg1 : Ref sig .tc))) := (Function.update_of_ne (StableHlo.devRef_ne_of_ne (show (main_arg1 : Ref sig .tc) ≠ main_v12 by decide)) _ _).trans (A1_arg1 m d f0)
theorem B1_v0 (d : Dev nD) (f0 : (⟨S40960x128, .f32⟩ : BufTy).Contents (Elt F)) (f1 : (⟨S40960x128, .f32⟩ : BufTy).Contents (Elt F)) : B1 m d f0 f1 (Proc.devRef .tc (main_v0 : Ref sig .tc)) = (CM m).tv d := (Function.update_of_ne (StableHlo.devRef_ne_of_ne (show (main_v0 : Ref sig .tc) ≠ main_v12 by decide)) _ _).trans (A1_v0 m d f0)
theorem B1_out2 (d : Dev nD) (f0 : (⟨S40960x128, .f32⟩ : BufTy).Contents (Elt F)) (f1 : (⟨S40960x128, .f32⟩ : BufTy).Contents (Elt F)) : B1 m d f0 f1 (Proc.devRef .tc (main_v18 : Ref sig .tc)) = m (d, (Proc.devRef .tc (main_v18 : Ref sig .tc))) := (Function.update_of_ne (StableHlo.devRef_ne_of_ne (show (main_v18 : Ref sig .tc) ≠ main_v12 by decide)) _ _).trans (A1_out2 m d f0)
theorem B1_out3 (d : Dev nD) (f0 : (⟨S40960x128, .f32⟩ : BufTy).Contents (Elt F)) (f1 : (⟨S40960x128, .f32⟩ : BufTy).Contents (Elt F)) : B1 m d f0 f1 (Proc.devRef .tc (main_v24 : Ref sig .tc)) = m (d, (Proc.devRef .tc (main_v24 : Ref sig .tc))) := (Function.update_of_ne (StableHlo.devRef_ne_of_ne (show (main_v24 : Ref sig .tc) ≠ main_v12 by decide)) _ _).trans (A1_out3 m d f0)
theorem B1_out4 (d : Dev nD) (f0 : (⟨S40960x128, .f32⟩ : BufTy).Contents (Elt F)) (f1 : (⟨S40960x128, .f32⟩ : BufTy).Contents (Elt F)) : B1 m d f0 f1 (Proc.devRef .tc (main_v30 : Ref sig .tc)) = m (d, (Proc.devRef .tc (main_v30 : Ref sig .tc))) := (Function.update_of_ne (StableHlo.devRef_ne_of_ne (show (main_v30 : Ref sig .tc) ≠ main_v12 by decide)) _ _).trans (A1_out4 m d f0)

abbrev A2 (d : Dev nD) (f0 : (⟨S40960x128, .f32⟩ : BufTy).Contents (Elt F)) (f1 : (⟨S40960x128, .f32⟩ : BufTy).Contents (Elt F)) : Valuation τ sig (Elt F) := StableHlo.after sops2 (B1 m d f0 f1)
abbrev B2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : Valuation τ sig (Elt F) := Function.update (A2 m d f0 f1) (Proc.devRef .tc (main_v18 : Ref sig .tc)) f2
theorem A2_arg0 (d : Dev nD) (f0 : (⟨S40960x128, .f32⟩ : BufTy).Contents (Elt F)) (f1 : (⟨S40960x128, .f32⟩ : BufTy).Contents (Elt F)) : A2 m d f0 f1 (Proc.devRef .tc (main_arg0 : Ref sig .tc)) = m (d, (Proc.devRef .tc (main_arg0 : Ref sig .tc))) := (keep2 _ main_arg0 (by decide)).trans (B1_arg0 m d f0 f1)
theorem A2_arg1 (d : Dev nD) (f0 : (⟨S40960x128, .f32⟩ : BufTy).Contents (Elt F)) (f1 : (⟨S40960x128, .f32⟩ : BufTy).Contents (Elt F)) : A2 m d f0 f1 (Proc.devRef .tc (main_arg1 : Ref sig .tc)) = m (d, (Proc.devRef .tc (main_arg1 : Ref sig .tc))) := (keep2 _ main_arg1 (by decide)).trans (B1_arg1 m d f0 f1)
theorem A2_v0 (d : Dev nD) (f0 : (⟨S40960x128, .f32⟩ : BufTy).Contents (Elt F)) (f1 : (⟨S40960x128, .f32⟩ : BufTy).Contents (Elt F)) : A2 m d f0 f1 (Proc.devRef .tc (main_v0 : Ref sig .tc)) = (CM m).tv d := (keep2 _ main_v0 (by decide)).trans (B1_v0 m d f0 f1)
theorem A2_idx (d : Dev nD) (f0 : (⟨S40960x128, .f32⟩ : BufTy).Contents (Elt F)) (f1 : (⟨S40960x128, .f32⟩ : BufTy).Contents (Elt F)) : A2 m d f0 f1 (Proc.devRef .tc (main_v17 : Ref sig .tc)) = (CM m).iv2 d := (Pre.idx_after2 _).trans (congrArg Pre.idxFn2 (B1_arg0 m d f0 f1))
theorem A2_out2 (d : Dev nD) (f0 : (⟨S40960x128, .f32⟩ : BufTy).Contents (Elt F)) (f1 : (⟨S40960x128, .f32⟩ : BufTy).Contents (Elt F)) : A2 m d f0 f1 (Proc.devRef .tc (main_v18 : Ref sig .tc)) = m (d, (Proc.devRef .tc (main_v18 : Ref sig .tc))) := (keep2 _ main_v18 (by decide)).trans (B1_out2 m d f0 f1)
theorem A2_out3 (d : Dev nD) (f0 : (⟨S40960x128, .f32⟩ : BufTy).Contents (Elt F)) (f1 : (⟨S40960x128, .f32⟩ : BufTy).Contents (Elt F)) : A2 m d f0 f1 (Proc.devRef .tc (main_v24 : Ref sig .tc)) = m (d, (Proc.devRef .tc (main_v24 : Ref sig .tc))) := (keep2 _ main_v24 (by decide)).trans (B1_out3 m d f0 f1)
theorem A2_out4 (d : Dev nD) (f0 : (⟨S40960x128, .f32⟩ : BufTy).Contents (Elt F)) (f1 : (⟨S40960x128, .f32⟩ : BufTy).Contents (Elt F)) : A2 m d f0 f1 (Proc.devRef .tc (main_v30 : Ref sig .tc)) = m (d, (Proc.devRef .tc (main_v30 : Ref sig .tc))) := (keep2 _ main_v30 (by decide)).trans (B1_out4 m d f0 f1)
theorem B2_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_arg0 : Ref sig .tc)) = m (d, (Proc.devRef .tc (main_arg0 : Ref sig .tc))) := (Function.update_of_ne (StableHlo.devRef_ne_of_ne (show (main_arg0 : Ref sig .tc) ≠ main_v18 by decide)) _ _).trans (A2_arg0 m d f0 f1)
theorem B2_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_arg1 : Ref sig .tc)) = m (d, (Proc.devRef .tc (main_arg1 : Ref sig .tc))) := (Function.update_of_ne (StableHlo.devRef_ne_of_ne (show (main_arg1 : Ref sig .tc) ≠ main_v18 by decide)) _ _).trans (A2_arg1 m d f0 f1)
theorem B2_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v0 : Ref sig .tc)) = (CM m).tv d := (Function.update_of_ne (StableHlo.devRef_ne_of_ne (show (main_v0 : Ref sig .tc) ≠ main_v18 by decide)) _ _).trans (A2_v0 m d f0 f1)
theorem B2_out3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v24 : Ref sig .tc)) = m (d, (Proc.devRef .tc (main_v24 : Ref sig .tc))) := (Function.update_of_ne (StableHlo.devRef_ne_of_ne (show (main_v24 : Ref sig .tc) ≠ main_v18 by decide)) _ _).trans (A2_out3 m d f0 f1)
theorem B2_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v30 : Ref sig .tc)) = m (d, (Proc.devRef .tc (main_v30 : Ref sig .tc))) := (Function.update_of_ne (StableHlo.devRef_ne_of_ne (show (main_v30 : Ref sig .tc) ≠ main_v18 by decide)) _ _).trans (A2_out4 m d f0 f1)

abbrev A3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : Valuation τ sig (Elt F) := StableHlo.after sops3 (B2 m d f0 f1 f2)
abbrev B3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : Valuation τ sig (Elt F) := Function.update (A3 m d f0 f1 f2) (Proc.devRef .tc (main_v24 : Ref sig .tc)) f3
theorem A3_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_arg0 : Ref sig .tc)) = m (d, (Proc.devRef .tc (main_arg0 : Ref sig .tc))) := (keep3 _ main_arg0 (by decide)).trans (B2_arg0 m d f0 f1 f2)
theorem A3_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_arg1 : Ref sig .tc)) = m (d, (Proc.devRef .tc (main_arg1 : Ref sig .tc))) := (keep3 _ main_arg1 (by decide)).trans (B2_arg1 m d f0 f1 f2)
theorem A3_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v0 : Ref sig .tc)) = (CM m).tv d := (keep3 _ main_v0 (by decide)).trans (B2_v0 m d f0 f1 f2)
theorem A3_idx (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v23 : Ref sig .tc)) = (CM m).iv3 d := (Pre.idx_after3 _).trans (congrArg Pre.idxFn3 (B2_arg0 m d f0 f1 f2))
theorem A3_out3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v24 : Ref sig .tc)) = m (d, (Proc.devRef .tc (main_v24 : Ref sig .tc))) := (keep3 _ main_v24 (by decide)).trans (B2_out3 m d f0 f1 f2)
theorem A3_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v30 : Ref sig .tc)) = m (d, (Proc.devRef .tc (main_v30 : Ref sig .tc))) := (keep3 _ main_v30 (by decide)).trans (B2_out4 m d f0 f1 f2)
theorem B3_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_arg0 : Ref sig .tc)) = m (d, (Proc.devRef .tc (main_arg0 : Ref sig .tc))) := (Function.update_of_ne (StableHlo.devRef_ne_of_ne (show (main_arg0 : Ref sig .tc) ≠ main_v24 by decide)) _ _).trans (A3_arg0 m d f0 f1 f2)
theorem B3_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_arg1 : Ref sig .tc)) = m (d, (Proc.devRef .tc (main_arg1 : Ref sig .tc))) := (Function.update_of_ne (StableHlo.devRef_ne_of_ne (show (main_arg1 : Ref sig .tc) ≠ main_v24 by decide)) _ _).trans (A3_arg1 m d f0 f1 f2)
theorem B3_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v0 : Ref sig .tc)) = (CM m).tv d := (Function.update_of_ne (StableHlo.devRef_ne_of_ne (show (main_v0 : Ref sig .tc) ≠ main_v24 by decide)) _ _).trans (A3_v0 m d f0 f1 f2)
theorem B3_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v30 : Ref sig .tc)) = m (d, (Proc.devRef .tc (main_v30 : Ref sig .tc))) := (Function.update_of_ne (StableHlo.devRef_ne_of_ne (show (main_v30 : Ref sig .tc) ≠ main_v24 by decide)) _ _).trans (A3_out4 m d f0 f1 f2)

abbrev A4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : Valuation τ sig (Elt F) := StableHlo.after sops4 (B3 m d f0 f1 f2 f3)
abbrev B4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : Valuation τ sig (Elt F) := Function.update (A4 m d f0 f1 f2 f3) (Proc.devRef .tc (main_v30 : Ref sig .tc)) f4
theorem A4_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_arg0 : Ref sig .tc)) = m (d, (Proc.devRef .tc (main_arg0 : Ref sig .tc))) := (keep4 _ main_arg0 (by decide)).trans (B3_arg0 m d f0 f1 f2 f3)
theorem A4_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_arg1 : Ref sig .tc)) = m (d, (Proc.devRef .tc (main_arg1 : Ref sig .tc))) := (keep4 _ main_arg1 (by decide)).trans (B3_arg1 m d f0 f1 f2 f3)
theorem A4_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v0 : Ref sig .tc)) = (CM m).tv d := (keep4 _ main_v0 (by decide)).trans (B3_v0 m d f0 f1 f2 f3)
theorem A4_idx (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v29 : Ref sig .tc)) = (CM m).iv4 d := (Pre.idx_after4 _).trans (congrArg Pre.idxFn4 (B3_arg0 m d f0 f1 f2 f3))
theorem A4_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v30 : Ref sig .tc)) = m (d, (Proc.devRef .tc (main_v30 : Ref sig .tc))) := (keep4 _ main_v30 (by decide)).trans (B3_out4 m d f0 f1 f2 f3)
theorem B4_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_arg0 : Ref sig .tc)) = m (d, (Proc.devRef .tc (main_arg0 : Ref sig .tc))) := (Function.update_of_ne (StableHlo.devRef_ne_of_ne (show (main_arg0 : Ref sig .tc) ≠ main_v30 by decide)) _ _).trans (A4_arg0 m d f0 f1 f2 f3)
theorem B4_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_arg1 : Ref sig .tc)) = m (d, (Proc.devRef .tc (main_arg1 : Ref sig .tc))) := (Function.update_of_ne (StableHlo.devRef_ne_of_ne (show (main_arg1 : Ref sig .tc) ≠ main_v30 by decide)) _ _).trans (A4_arg1 m d f0 f1 f2 f3)
theorem B4_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v0 : Ref sig .tc)) = (CM m).tv d := (Function.update_of_ne (StableHlo.devRef_ne_of_ne (show (main_v0 : Ref sig .tc) ≠ main_v30 by decide)) _ _).trans (A4_v0 m d f0 f1 f2 f3)

/-! ## @main on the TensorCore -/

/-- What the run leaves the claim: the two arguments as launched. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)))

theorem sub0 : ∀ op ∈ (sops0 : List (HloOp τ sig (Elt F))), op.bufs ⊆ Pipeline.ucRefs τ sig := fun op h =>
  Pipeline.sub_ucRefs op ((List.forall_iff_forall_mem.mp (show (sops0 : List (HloOp τ sig (Elt F))).Forall fun op => op.bufs ⊆ StableHlo.tcRefs τ sig by simp [List.Forall])) op h)
theorem fresh0 : ∀ op ∈ (sops0 : List (HloOp τ sig (Elt F))), op.fresh = ∅ := fun op h =>
  (List.forall_iff_forall_mem.mp (show (sops0 : List (HloOp τ sig (Elt F))).Forall fun op => op.fresh = ∅ by simp only [List.Forall]; repeat' constructor)) op h
theorem sub1 : ∀ op ∈ (sops1 : List (HloOp τ sig (Elt F))), op.bufs ⊆ Pipeline.ucRefs τ sig := fun op h =>
  Pipeline.sub_ucRefs op ((List.forall_iff_forall_mem.mp (show (sops1 : List (HloOp τ sig (Elt F))).Forall fun op => op.bufs ⊆ StableHlo.tcRefs τ sig by simp [List.Forall])) op h)
theorem fresh1 : ∀ op ∈ (sops1 : List (HloOp τ sig (Elt F))), op.fresh = ∅ := fun op h =>
  (List.forall_iff_forall_mem.mp (show (sops1 : List (HloOp τ sig (Elt F))).Forall fun op => op.fresh = ∅ by simp only [List.Forall]; repeat' constructor)) op h
theorem sub2 : ∀ op ∈ (sops2 : List (HloOp τ sig (Elt F))), op.bufs ⊆ Pipeline.ucRefs τ sig := fun op h =>
  Pipeline.sub_ucRefs op ((List.forall_iff_forall_mem.mp (show (sops2 : List (HloOp τ sig (Elt F))).Forall fun op => op.bufs ⊆ StableHlo.tcRefs τ sig by simp [List.Forall])) op h)
theorem fresh2 : ∀ op ∈ (sops2 : List (HloOp τ sig (Elt F))), op.fresh = ∅ := fun op h =>
  (List.forall_iff_forall_mem.mp (show (sops2 : List (HloOp τ sig (Elt F))).Forall fun op => op.fresh = ∅ by simp only [List.Forall]; repeat' constructor)) op h
theorem sub3 : ∀ op ∈ (sops3 : List (HloOp τ sig (Elt F))), op.bufs ⊆ Pipeline.ucRefs τ sig := fun op h =>
  Pipeline.sub_ucRefs op ((List.forall_iff_forall_mem.mp (show (sops3 : List (HloOp τ sig (Elt F))).Forall fun op => op.bufs ⊆ StableHlo.tcRefs τ sig by simp [List.Forall])) op h)
theorem fresh3 : ∀ op ∈ (sops3 : List (HloOp τ sig (Elt F))), op.fresh = ∅ := fun op h =>
  (List.forall_iff_forall_mem.mp (show (sops3 : List (HloOp τ sig (Elt F))).Forall fun op => op.fresh = ∅ by simp only [List.Forall]; repeat' constructor)) op h
theorem sub4 : ∀ op ∈ (sops4 : List (HloOp τ sig (Elt F))), op.bufs ⊆ Pipeline.ucRefs τ sig := fun op h =>
  Pipeline.sub_ucRefs op ((List.forall_iff_forall_mem.mp (show (sops4 : List (HloOp τ sig (Elt F))).Forall fun op => op.bufs ⊆ StableHlo.tcRefs τ sig by simp [List.Forall])) op h)
theorem fresh4 : ∀ op ∈ (sops4 : List (HloOp τ sig (Elt F))), op.fresh = ∅ := fun op h =>
  (List.forall_iff_forall_mem.mp (show (sops4 : List (HloOp τ sig (Elt F))).Forall fun op => op.fresh = ∅ by simp only [List.Forall]; repeat' constructor)) op h

omit [FloatOps F] in
theorem three_sub (a b o : Ref sig .tc) (ha : ¬ (Proc.devRef .tc a : DevRef τ sig).isScoped) (hb : ¬ (Proc.devRef .tc b : DevRef τ sig).isScoped)
    (ho : ¬ (Proc.devRef .tc o : DevRef τ sig).isScoped) :
    ({Proc.devRef .tc a, Proc.devRef .tc b, Proc.devRef .tc o} : Finset (DevRef τ sig)) ⊆ Pipeline.ucRefs τ sig := by
  intro x hx
  simp only [Finset.mem_insert, Finset.mem_singleton] at hx
  rcases hx with rfl | rfl | rfl
  · exact Finset.mem_filter.mpr ⟨StableHlo.devRef_mem_tcRefs a, ha⟩
  · exact Finset.mem_filter.mpr ⟨StableHlo.devRef_mem_tcRefs b, hb⟩
  · exact Finset.mem_filter.mpr ⟨StableHlo.devRef_mem_tcRefs o, ho⟩

omit [FloatOps F] in
theorem two_sub (a b : Ref sig .tc) (ha : ¬ (Proc.devRef .tc a : DevRef τ sig).isScoped) (hb : ¬ (Proc.devRef .tc b : DevRef τ sig).isScoped) :
    ({Proc.devRef .tc a, Proc.devRef .tc b} : Finset (DevRef τ sig)) ⊆ Pipeline.ucRefs τ sig := by
  intro x hx
  simp only [Finset.mem_insert, Finset.mem_singleton] at hx
  rcases hx with rfl | rfl
  · exact Finset.mem_filter.mpr ⟨StableHlo.devRef_mem_tcRefs a, ha⟩
  · exact Finset.mem_filter.mpr ⟨StableHlo.devRef_mem_tcRefs b, hb⟩

omit [FloatOps F] in
/-- Two distinct buffers of a held set. -/
theorem held_two (thr : Thread nD τ) (Sx : Finset (DevRef τ sig)) (V : Valuation τ sig (Elt F)) (a b : DevRef τ sig)
    (hab : a ≠ b) (hS : ({a, b} : Finset (DevRef τ sig)) ⊆ Sx) :
    (held thr Sx V : sProp 𝕄) ⊢ iprop((((thr.1, a) : Loc nD τ sig) ↦{fullShare} V a) ∗ (((thr.1, b) : Loc nD τ sig) ↦{fullShare} V b)) := by
  rw [StableHlo.held_sub_split thr hS V]
  unfold StableHlo.held
  rw [SparseCore.bigSep_insert' (by simp [hab]), bigSep_singleton]
  iintro ⟨⟨Ha, Hb⟩, -⟩
  isplitl [Ha]; · iexact Ha
  iexact Hb

set_option maxHeartbeats 8000000 in
theorem hmain [∀ e, Nonempty (Elt F e)] (κ : GSem nD τ sig → ℕ) (d : Dev nD) :
    iprop((K (F := F)).ctx EH (P (CM m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m d) := by
  unfold SparseCore.Cfg.tcRes
  rw [show unscopedBufs d (fun b => m ((SparseCore.T d).loc b)) = StableHlo.held (SparseCore.T d) (Pipeline.ucRefs τ sig) (Wl m d)
    from Pipeline.unscopedBufs_held d (Wl m d)]
  rw [main_eq d]
  iintro ⟨#Hctx, Hst, ⟨Hb, Hheld, -, Hprng⟩, HG⟩

  -- the host operations before gather call 0, then the call: its three arrays out to the tasks and back
  rw [Pipeline.chain_cons, Pipeline.chain_cons]
  iapply (StableHlo.wp_seq 𝒱 none Set.univ d (Pipeline.ucRefs τ sig) _ sops0 (sub0 (F := F)) (fresh0 (F := F)) _) $$ [Hb Hheld]
  · isplitl [Hb]; · iexact Hb
    iexact Hheld
  iintro ⟨Hb, Hheld⟩
  ihave Hf := (call_frame (SparseCore.T d) (Pipeline.ucRefs τ sig) (A0 m d ) (Proc.devRef .tc (main_v0 : Ref sig .tc) : DevRef τ sig) (Proc.devRef .tc (main_v5 : Ref sig .tc) : DevRef τ sig) (Proc.devRef .tc (main_v6 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A0_v0 m d , A0_idx m d , A0_out0 m d ]
  ihave Hs := (T0.st_split d ((CM m).tv d) ((CM m).iv0 d) ((CM m).ov0 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 0) $$ [Hst Hsts Hb Hrem Hback Hprng HG]
  isplitr; · iexact Hctx
  isplitl [Hst]; · iexact Hst
  isplitl [Hsts]; · iexact Hsts
  iintro ⟨Hst, Hdn⟩
  ihave Hj := (T0.dn_join d ((CM m).tv d) ((CM m).iv0 d)) $$ [Hrem Hdn]
  · isplitl [Hrem]; · iexact Hrem
    iexact Hdn
  icases Hj with ⟨Ht, Hi, %f0, Ho⟩
  ispecialize Hback $$ %f0
  ihave Hheld := Hback $$ [Ht Hi Ho]
  · isplitl [Ht]; · iexact Ht
    isplitl [Hi]; · iexact Hi
    iexact Ho

  -- the host operations before gather call 1, then the call: its three arrays out to the tasks and back
  rw [Pipeline.chain_cons, Pipeline.chain_cons]
  iapply (StableHlo.wp_seq 𝒱 none Set.univ d (Pipeline.ucRefs τ sig) _ sops1 (sub1 (F := F)) (fresh1 (F := F)) _) $$ [Hb Hheld]
  · isplitl [Hb]; · iexact Hb
    iexact Hheld
  iintro ⟨Hb, Hheld⟩
  ihave Hf := (call_frame (SparseCore.T d) (Pipeline.ucRefs τ sig) (A1 m d f0) (Proc.devRef .tc (main_v0 : Ref sig .tc) : DevRef τ sig) (Proc.devRef .tc (main_v11 : Ref sig .tc) : DevRef τ sig) (Proc.devRef .tc (main_v12 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A1_v0 m d f0, A1_idx m d f0, A1_out1 m d f0]
  ihave Hs := (T1.st_split d ((CM m).tv d) ((CM m).iv1 d) ((CM m).ov1 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 1) $$ [Hst Hsts Hb Hrem Hback Hprng HG]
  isplitr; · iexact Hctx
  isplitl [Hst]; · iexact Hst
  isplitl [Hsts]; · iexact Hsts
  iintro ⟨Hst, Hdn⟩
  ihave Hj := (T1.dn_join d ((CM m).tv d) ((CM m).iv1 d)) $$ [Hrem Hdn]
  · isplitl [Hrem]; · iexact Hrem
    iexact Hdn
  icases Hj with ⟨Ht, Hi, %f1, Ho⟩
  ispecialize Hback $$ %f1
  ihave Hheld := Hback $$ [Ht Hi Ho]
  · isplitl [Ht]; · iexact Ht
    isplitl [Hi]; · iexact Hi
    iexact Ho

  -- the host operations before gather call 2, then the call: its three arrays out to the tasks and back
  rw [Pipeline.chain_cons, Pipeline.chain_cons]
  iapply (StableHlo.wp_seq 𝒱 none Set.univ d (Pipeline.ucRefs τ sig) _ sops2 (sub2 (F := F)) (fresh2 (F := F)) _) $$ [Hb Hheld]
  · isplitl [Hb]; · iexact Hb
    iexact Hheld
  iintro ⟨Hb, Hheld⟩
  ihave Hf := (call_frame (SparseCore.T d) (Pipeline.ucRefs τ sig) (A2 m d f0 f1) (Proc.devRef .tc (main_v0 : Ref sig .tc) : DevRef τ sig) (Proc.devRef .tc (main_v17 : Ref sig .tc) : DevRef τ sig) (Proc.devRef .tc (main_v18 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A2_v0 m d f0 f1, A2_idx m d f0 f1, A2_out2 m d f0 f1]
  ihave Hs := (T2.st_split d ((CM m).tv d) ((CM m).iv2 d) ((CM m).ov2 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 2) $$ [Hst Hsts Hb Hrem Hback Hprng HG]
  isplitr; · iexact Hctx
  isplitl [Hst]; · iexact Hst
  isplitl [Hsts]; · iexact Hsts
  iintro ⟨Hst, Hdn⟩
  ihave Hj := (T2.dn_join d ((CM m).tv d) ((CM m).iv2 d)) $$ [Hrem Hdn]
  · isplitl [Hrem]; · iexact Hrem
    iexact Hdn
  icases Hj with ⟨Ht, Hi, %f2, Ho⟩
  ispecialize Hback $$ %f2
  ihave Hheld := Hback $$ [Ht Hi Ho]
  · isplitl [Ht]; · iexact Ht
    isplitl [Hi]; · iexact Hi
    iexact Ho

  -- the host operations before gather call 3, then the call: its three arrays out to the tasks and back
  rw [Pipeline.chain_cons, Pipeline.chain_cons]
  iapply (StableHlo.wp_seq 𝒱 none Set.univ d (Pipeline.ucRefs τ sig) _ sops3 (sub3 (F := F)) (fresh3 (F := F)) _) $$ [Hb Hheld]
  · isplitl [Hb]; · iexact Hb
    iexact Hheld
  iintro ⟨Hb, Hheld⟩
  ihave Hf := (call_frame (SparseCore.T d) (Pipeline.ucRefs τ sig) (A3 m d f0 f1 f2) (Proc.devRef .tc (main_v0 : Ref sig .tc) : DevRef τ sig) (Proc.devRef .tc (main_v23 : Ref sig .tc) : DevRef τ sig) (Proc.devRef .tc (main_v24 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A3_v0 m d f0 f1 f2, A3_idx m d f0 f1 f2, A3_out3 m d f0 f1 f2]
  ihave Hs := (T3.st_split d ((CM m).tv d) ((CM m).iv3 d) ((CM m).ov3 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 3) $$ [Hst Hsts Hb Hrem Hback Hprng HG]
  isplitr; · iexact Hctx
  isplitl [Hst]; · iexact Hst
  isplitl [Hsts]; · iexact Hsts
  iintro ⟨Hst, Hdn⟩
  ihave Hj := (T3.dn_join d ((CM m).tv d) ((CM m).iv3 d)) $$ [Hrem Hdn]
  · isplitl [Hrem]; · iexact Hrem
    iexact Hdn
  icases Hj with ⟨Ht, Hi, %f3, Ho⟩
  ispecialize Hback $$ %f3
  ihave Hheld := Hback $$ [Ht Hi Ho]
  · isplitl [Ht]; · iexact Ht
    isplitl [Hi]; · iexact Hi
    iexact Ho

  -- the host operations before gather call 4, then the call: its three arrays out to the tasks and back
  rw [Pipeline.chain_cons, Pipeline.chain_cons]
  iapply (StableHlo.wp_seq 𝒱 none Set.univ d (Pipeline.ucRefs τ sig) _ sops4 (sub4 (F := F)) (fresh4 (F := F)) _) $$ [Hb Hheld]
  · isplitl [Hb]; · iexact Hb
    iexact Hheld
  iintro ⟨Hb, Hheld⟩
  ihave Hf := (call_frame (SparseCore.T d) (Pipeline.ucRefs τ sig) (A4 m d f0 f1 f2 f3) (Proc.devRef .tc (main_v0 : Ref sig .tc) : DevRef τ sig) (Proc.devRef .tc (main_v29 : Ref sig .tc) : DevRef τ sig) (Proc.devRef .tc (main_v30 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A4_v0 m d f0 f1 f2 f3, A4_idx m d f0 f1 f2 f3, A4_out4 m d f0 f1 f2 f3]
  ihave Hs := (T4.st_split d ((CM m).tv d) ((CM m).iv4 d) ((CM m).ov4 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 4) $$ [Hst Hsts Hb Hrem Hback Hprng HG]
  isplitr; · iexact Hctx
  isplitl [Hst]; · iexact Hst
  isplitl [Hsts]; · iexact Hsts
  iintro ⟨Hst, Hdn⟩
  ihave Hj := (T4.dn_join d ((CM m).tv d) ((CM m).iv4 d)) $$ [Hrem Hdn]
  · isplitl [Hrem]; · iexact Hrem
    iexact Hdn
  icases Hj with ⟨Ht, Hi, %f4, Ho⟩
  ispecialize Hback $$ %f4
  ihave Hheld := Hback $$ [Ht Hi Ho]
  · isplitl [Ht]; · iexact Ht
    isplitl [Hi]; · iexact Hi
    iexact Ho

  -- the rest of @main: the segments, from the buffers as the last gather call left them
  rw [Pipeline.chain_cons, Pipeline.chain_nil]
  rw [← tail_run (fun d' => B4 m d' f0 f1 f2 f3 f4)]
  rw [wp_bind]
  unfold SparseCore.Cfg.tcSt
  icases Hst with ⟨⟨%W, %hW, HO⟩, Hat, #Hrd, #Hrs, Htoks⟩
  rw [(K (F := F)).Otc_end d (le_refl 5)]
  ihave Hlev := ((K (F := F)).ctx_levAts (EH := EH) (P := P (CM m)) κ) $$ Hctx
  iapply ((K (F := F)).wp_liftProg (D (F := F)) 𝒱 (SparseCore.T d) Set.univ none _ _)
  iapply (Tail.tail_wp (fun d' => B4 m d' f0 f1 f2 f3 f4) d)
  isplitl [Hat Htoks]
  · iintro ⟨Hb, Hheld, %W', HO⟩
    rw [wp_pure]
    imodintro
    isplitl [HO Hat Htoks]
    · isplitl [HO]
      · iexists W'; isplitr
        · ipureintro
          intro p _
          show (K (F := F)).lev (SparseCore.T d, p.1) p.2 ≤ 8 * 5
          cases p.2 with
          | none => rw [SparseCore.Cfg.lev_none]; omega
          | some q => exact ((K (F := F)).lev_some_le _ q).trans (by have := q.isLt; omega)
        · iexact HO
      isplitl [Hat]; · iexact Hat
      isplitr; · iexact Hrd
      isplitr; · iexact Hrs
      iexact Htoks
    · ihave H2 := (held_two (SparseCore.T d) (Pipeline.ucRefs τ sig) _ (Proc.devRef .tc (main_arg0 : Ref sig .tc) : DevRef τ sig) (Proc.devRef .tc (main_arg1 : Ref sig .tc) : DevRef τ sig)
        (StableHlo.devRef_ne_of_ne (by decide)) (two_sub _ _ (by decide) (by decide))) $$ Hheld
      icases H2 with ⟨H0, H1⟩
      rw [Tail.W11_arg0, Tail.W11_arg1, B4_arg0 m d f0 f1 f2 f3 f4, B4_arg1 m d f0 f1 f2 f3 f4]
      isplitl [H0]; · iexact H0
      iexact H1
  isplitl [Hb]; · iexact Hb
  isplitl [Hheld HO]
  · isplitl [Hheld]; · iexact Hheld
    iexists W; iexact HO
  isplitr; · iexact Hlev
  iexact HG

/-! ## The program's run and the frame -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)

theorem hfin (d : Dev nD) (s' : Phys nD τ sig (Elt F)) : iprop(FIN m d ∗ SI s') ⊢ (⌜fq m d s'⌝ : sProp 𝕄) := by
  iintro ⟨⟨H0, H1⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h1, HSI, -⟩
  ihave H := (SI_pointsTo_agree (st := s') (ℓ := (SparseCore.T d).loc main_arg1) (I := Finset.univ) (q := fullShare) (f := m ((SparseCore.T d).loc main_arg1))) $$ [HSI H1]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)

/-- Every row number of `x` in range makes every row number a task reads name a row of the table. -/
theorem preOK (hx : ∀ d : Dev nD, ∀ i, 0 ≤ ((m (d, (Proc.devRef .tc (main_arg0 : Ref sig .tc)))) i).toInt ∧ ((m (d, (Proc.devRef .tc (main_arg0 : Ref sig .tc)))) i).toInt ≤ 99999) : PreOK (CM m) :=
  ⟨fun d L j => Pre.read_lt0 _ (hx d) L j, fun d L j => Pre.read_lt1 _ (hx d) L j, fun d L j => Pre.read_lt2 _ (hx d) L j,
    fun d L j => Pre.read_lt3 _ (hx d) L j, fun d L j => Pre.read_lt4 _ (hx d) L j⟩

theorem run_main [∀ e, Nonempty (Elt F e)] (hpre : PreOK (CM m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (CM m)) facts v₀
    (fun q hq => match q with | 0 => nomatch hq | 1 => nomatch hq | 2 => nomatch hq | 3 => nomatch hq | 4 => nomatch hq)
    (fun q _ => match q with
      | 0 => tileObl0 (CM m) hpre | 1 => tileObl1 (CM m) hpre | 2 => tileObl2 (CM m) hpre | 3 => tileObl3 (CM m) hpre | 4 => tileObl4 (CM m) hpre)
    (fun q _ => match q with
      | 0 => SparseCore.Cfg.VecSplit.of_plain (vecSplit0 (CM m)) | 1 => SparseCore.Cfg.VecSplit.of_plain (vecSplit1 (CM m))
      | 2 => SparseCore.Cfg.VecSplit.of_plain (vecSplit2 (CM m)) | 3 => SparseCore.Cfg.VecSplit.of_plain (vecSplit3 (CM m))
      | 4 => SparseCore.Cfg.VecSplit.of_plain (vecSplit4 (CM m)))
    m ρ main (G (F := F)) (FIN m) (u₀ (F := F)) (sep_elim_left.trans (hu₀ (CM m))) (hmain m ρ) (fq m) (hfin m) (QC m) (fun _ h => h)

end Cert.Proof.KI

end
-- ==== Proof.KBSetup.lean ====
/-
  The SparseCore gather program as its launch theorem sees it: the call table, the body table, the
  ghost algebra (the handshakes' rounds, the staging cells' rounds, the local transfers' counters), and the
  arrays of the five gather calls as the vector subcores address them.
-/
import proofs.«205068_g58248346468665_cont_9to1c4b_383_29_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205068_g58248346468665_cont_9to1c4b_383_29_alg».proof.Proof.Gen.Kernel
import proofs.«205068_g58248346468665_cont_9to1c4b_383_29_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The handshakes' rounds sit in the left component, the staging cells' rounds in the middle one; the
    local transfers' counters are found in the right one by instance. -/
abbrev EH : Emb UH (MT nD τ sig (HIx 5) (Elt F) ℕ UU ℕ) := embL
def EP : Emb UP (MT nD τ sig (HIx 5) (Elt F) ℕ UU ℕ) := (Emb.inl : Emb UP (UP × Counters)).trans embR

instance EP_landsIn : (EP : Emb UP (MT nD τ sig (HIx 5) (Elt F) ℕ UU ℕ)).LandsIn (upEmb : UEmb _ (MT nD τ sig (HIx 5) (Elt F) ℕ UU ℕ)) := by
  unfold EP; infer_instance

/-- The table every gather call reads: the weights seen as 50000 rows of two embedding rows each. -/
abbrev tblLoc (d : Dev nD) : Loc nD τ sig := (SparseCore.T d).loc main_v0

end Cert.Proof.KB

end
-- ==== Proof.KBT0.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KBSetup

noncomputable section

namespace Cert.Proof.KB.T0

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v5_scv
abbrev oW : Memref sig .scVector .hbm S40960x128 .f32 := Memref.whole main_v6_scv
abbrev sI : Memref sig .scVector .vmem S10x128 .i32 := Memref.whole cc0_scratch0
abbrev sA : Memref sig .scVector .vmem S128x128 .f32 := Memref.whole cc0_scratch1
abbrev sB : Memref sig .scVector .vmem S128x128 .f32 := Memref.whole cc0_scratch2

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The subcore's block of row numbers, as the kernel slices it. -/
abbrev iBlk (L : grid0.Coords) : Memref sig .scVector .hbm S10x128 .i32 :=
  ((iW : Memref sig .scVector .hbm S32x10x128 .i32).slice (Rect.unit (s := S32x10x128) (k0_off1 L) S1x10x128.size (k0_off1_inb L)) (fun _ => rfl)).squeeze S10x128 squeezes_S1x10x128_S10x128
/-- Chunk `2 k + r` of the subcore's part of the result, as the kernel slices it. -/
abbrev oCh (L : grid0.Coords) (k : Fin k0_t1_loop.trips) (r : Fin 2) : Memref sig .scVector .hbm S128x128 .f32 :=
  (oW : Memref sig .scVector .hbm S40960x128 .f32).slice (Rect.unit (s := S40960x128) (k0_off4 L k (BitVec.ofNat 32 r.val)) S128x128.size (k0_off4_inb L k r)) (fun _ => rfl)

theorem cond1_neg : ∀ k : Fin k0_t1_loop.trips, k.val = 0 → ¬ k0_cond1 k = 1#1 := by decide +kernel
theorem cond2_neg : ∀ k : Fin k0_t1_loop.trips, k.val = 0 → ¬ k0_cond2 k = 1#1 := by decide +kernel
theorem cond1_pos : ∀ k : Fin k0_t1_loop.trips, k.val ≠ 0 → k0_cond1 k = 1#1 := by decide +kernel
theorem cond2_pos : ∀ k : Fin k0_t1_loop.trips, k.val ≠ 0 → k0_cond2 k = 1#1 := by decide +kernel
theorem trips_eq : k0_t1_loop.trips = 5 := by decide +kernel

variable [FloatOps F] (d : Dev nD) (L : grid0.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k0_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k0_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k0_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc0_scratch4.sem) 0 ∗ semVal (thr d L, SemLoc.dma cc0_scratch5.sem) 0)
  else
    iprop(∃ kp : Fin k0_t1_loop.trips, ⌜kp.val + 1 = n⌝ ∗ ∃ fa : oBuf (F := F) d L, ∃ ga, ∃ fb : oBuf (F := F) d L, ∃ gb,
      Transfers.Flight countersEmb (thr d L) (SemLoc.dma cc0_scratch4.sem) (none : HIx 5) 524288
          iprop(own d L (oCh L kp 0) fa ∗ own d L (sA : Memref sig .scVector .vmem S128x128 .f32) ga)
      ∗ Transfers.Flight countersEmb (thr d L) (SemLoc.dma cc0_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc0_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k0_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k0_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k0_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k0_t1_loop.trips) (hkp : kp.val + 1 = k0_t1_loop.trips) :
    iprop((bigSep Finset.univ fun j => chunkSt d L fo k0_t1_loop.trips j) ∗ donePair d L kp)
      ⊢ bigSep Finset.univ fun j => donePair d L j := by
  have e1 : chunkSt d L fo k0_t1_loop.trips kp = iprop(emp) := by
    unfold chunkSt; rw [if_neg (by have := kp.isLt; omega), if_neg (by omega)]
  have e2 : (bigSep (Finset.univ.erase kp) fun j => chunkSt d L fo k0_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k0_t1_loop.trips ≤ j.val := by omega
      have b : j.val + 1 < k0_t1_loop.trips := by omega
      unfold chunkSt
      simp only [if_neg a, if_pos b]
  rw [SparseCore.bigSep_erase' (Finset.mem_univ kp) (Φ := fun j => chunkSt d L fo k0_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc0_scoped0.sem) 0
        ∗ semVal (thr d L, SemLoc.dma cc0_scratch3.sem) 0
        ∗ semVal (thr d L, SemLoc.dma cc0_scratch4.sem) 0
        ∗ semVal (thr d L, SemLoc.dma cc0_scratch5.sem) 0
        ∗ owes (thr d L) O W)
      ⊢ wp frame (wpE (defs₀ (F := F)) 𝒱₀ (thr d L) none) Set.univ
          (cc0_kern L tW (Memref.isWhole_whole _) iW (Memref.isWhole_whole _) oW (Memref.isWhole_whole _)
            sI (Memref.isWhole_whole _) sA (Memref.isWhole_whole _) sB (Memref.isWhole_whole _) cc0_scratch3 cc0_scratch4 cc0_scratch5 cc0_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc0_scoped0.sem) 0
            ∗ semVal (thr d L, SemLoc.dma cc0_scratch3.sem) 0
            ∗ semVal (thr d L, SemLoc.dma cc0_scratch4.sem) 0
            ∗ semVal (thr d L, SemLoc.dma cc0_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc0_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k0_off3 k 0#32) S1x128.size (k0_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k0_off3 k 1#32) S1x128.size (k0_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k0_h1 : ¬ k0_cond1 k = 1#1 := cond1_neg k h0
      have k0_h2 : ¬ k0_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k0_h1 : k0_cond1 k = 1#1 := cond1_pos k h0
      have k0_h2 : k0_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k0_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid0.Coords) (b : Ref sig .scVector) : DevRef τ sig := (Proc.scVector (cV L) (jV L)).devRef b

def myBufs (L : grid0.Coords) : Finset (DevRef τ sig) := {dr L cc0_scratch0, dr L cc0_scratch1, dr L cc0_scratch2}
def mySems (d : Dev nD) (L : grid0.Coords) : Finset (GSem nD τ sig) :=
  {(thr d L, SemLoc.dma cc0_scoped0.sem), (thr d L, SemLoc.dma cc0_scratch3.sem), (thr d L, SemLoc.dma cc0_scratch4.sem), (thr d L, SemLoc.dma cc0_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc0_scoped0.sem : SemLoc sig).isScoped .scVector = true; decide⟩
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩

omit [FloatOps F] in
theorem ownSems0_split :
    (ownSems0 (thr d L) : sProp 𝕄)
      = iprop((semVal (thr d L, SemLoc.dma cc0_scoped0.sem) 0 ∗ semVal (thr d L, SemLoc.dma cc0_scratch3.sem) 0
          ∗ semVal (thr d L, SemLoc.dma cc0_scratch4.sem) 0 ∗ semVal (thr d L, SemLoc.dma cc0_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc0_scoped0.sem : DmaSem sig) ≠ cc0_scratch3.sem := by decide
  have e2 : (cc0_scoped0.sem : DmaSem sig) ≠ cc0_scratch4.sem := by decide
  have e3 : (cc0_scoped0.sem : DmaSem sig) ≠ cc0_scratch5.sem := by decide
  have e4 : (cc0_scratch3.sem : DmaSem sig) ≠ cc0_scratch4.sem := by decide
  have e5 : (cc0_scratch3.sem : DmaSem sig) ≠ cc0_scratch5.sem := by decide
  have e6 : (cc0_scratch4.sem : DmaSem sig) ≠ cc0_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc0_scratch0 ≠ dr L cc0_scratch1 := fun e => absurd (Proc.devRef_injective _ e) (show (cc0_scratch0 : Ref sig .scVector) ≠ cc0_scratch1 by decide)
  have e2 : dr L cc0_scratch0 ≠ dr L cc0_scratch2 := fun e => absurd (Proc.devRef_injective _ e) (show (cc0_scratch0 : Ref sig .scVector) ≠ cc0_scratch2 by decide)
  have e3 : dr L cc0_scratch1 ≠ dr L cc0_scratch2 := fun e => absurd (Proc.devRef_injective _ e) (show (cc0_scratch1 : Ref sig .scVector) ≠ cc0_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc0_kern L tW (Memref.isWhole_whole _) iW (Memref.isWhole_whole _) oW (Memref.isWhole_whole _)
            sI (Memref.isWhole_whole _) sA (Memref.isWhole_whole _) sB (Memref.isWhole_whole _) cc0_scratch3 cc0_scratch4 cc0_scratch5 cc0_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KB.T0

end
-- ==== Proof.KBP0.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KBT0

noncomputable section

namespace Cert.Proof.KB.T0

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid0.bound 0)) (s : Fin (grid0.bound 1)) : grid0.Coords :=
  fun | 0 => c | 1 => s | ⟨_ + 2, h⟩ => absurd h (Nat.not_lt.2 (Nat.le_add_left _ _))

abbrev iLoc (d : Dev nD) : Loc nD τ sig := (SparseCore.T d).loc main_v5
abbrev oLoc (d : Dev nD) : Loc nD τ sig := (SparseCore.T d).loc main_v6

abbrev iRect (L : grid0.Coords) : Rect S32x10x128 := Rect.unit (s := S32x10x128) (k0_off1 L) S1x10x128.size (k0_off1_inb L)
abbrev oRect (L : grid0.Coords) (k : Fin k0_t1_loop.trips) (r : Fin 2) : Rect S40960x128 :=
  Rect.unit (s := S40960x128) (k0_off4 L k (BitVec.ofNat 32 r.val)) S128x128.size (k0_off4_inb L k r)

theorem set_iBlk (L : grid0.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid0.Coords) (k : Fin k0_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid0.bound 0) × Fin (grid0.bound 1)
abbrev CI : Type := (Fin (grid0.bound 0) × Fin (grid0.bound 1)) × (Fin k0_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k0_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k0_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k0_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid0.bound 0), cc.val = ((idx 0).val / 128 % 20) / 10 := ⟨⟨_, by show _ < 2; omega⟩, rfl⟩
  obtain ⟨ii, hii⟩ : ∃ ii : Fin (grid0.bound 1), ii.val = (idx 0).val / 128 / 20 := ⟨⟨_, by show _ < 16; omega⟩, rfl⟩
  obtain ⟨kk, hkk⟩ : ∃ kk : Fin k0_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k0_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid0.bound 0)) : PosShare TreeShare := Transfers.shareTok fullShare (grid0.bound 0) c
abbrev tsh (c : Fin (grid0.bound 0)) (i : Fin (grid0.bound 1)) : PosShare TreeShare := Transfers.shareTok (tokC c) (grid0.bound 1) i

/-- What of the table stays with the TensorCore while the tasks hold their shares. -/
def tblRem (ft : Buf (Elt F) (tblLoc d)) : sProp 𝕄 :=
  iprop((tblLoc d ↦{Transfers.shareDrop fullShare (grid0.bound 0)} ft)
    ∗ bigSep Finset.univ fun c : Fin (grid0.bound 0) => (tblLoc d ↦{Transfers.shareDrop (tokC c) (grid0.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid0.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid0.bound 1)))) $$ Hc
  ihave Hc'' := (Entails.of_eq (bigSep_sep' (Finset.univ : Finset (Fin (grid0.bound 0)))
    (fun c => (tblLoc d ↦{Transfers.shareDrop (tokC c) (grid0.bound 1)} ft : sProp 𝕄))
    (fun c => bigSep Finset.univ fun i : Fin (grid0.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid0.bound 0))
  isplitl [Hd]; · iexact Hd
  ihave Hc := (Entails.of_eq (bigSep_sep' (Finset.univ : Finset (Fin (grid0.bound 0)))
    (fun c => (tblLoc d ↦{Transfers.shareDrop (tokC c) (grid0.bound 1)} ft : sProp 𝕄))
    (fun c => bigSep Finset.univ fun i : Fin (grid0.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid0.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid0.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid0.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid0.bound 0)) (i : Fin (grid0.bound 1)) : sProp 𝕄 := (tblLoc d ↦{tsh c i} ft : sProp 𝕄)
abbrev If (fi : Buf (Elt F) (iLoc d)) (c : Fin (grid0.bound 0)) (i : Fin (grid0.bound 1)) : sProp 𝕄 := (iLoc d ↦[iSet (c, i)]{fullShare} fi : sProp 𝕄)
abbrev Of (fo : Buf (Elt F) (oLoc d)) (c : Fin (grid0.bound 0)) (i : Fin (grid0.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid0.bound 0)) (i : Fin (grid0.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KB.T0

end
-- ==== Proof.KBT1.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KBSetup

noncomputable section

namespace Cert.Proof.KB.T1

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v11_scv
abbrev oW : Memref sig .scVector .hbm S40960x128 .f32 := Memref.whole main_v12_scv
abbrev sI : Memref sig .scVector .vmem S10x128 .i32 := Memref.whole cc1_scratch0
abbrev sA : Memref sig .scVector .vmem S128x128 .f32 := Memref.whole cc1_scratch1
abbrev sB : Memref sig .scVector .vmem S128x128 .f32 := Memref.whole cc1_scratch2

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The subcore's block of row numbers, as the kernel slices it. -/
abbrev iBlk (L : grid1.Coords) : Memref sig .scVector .hbm S10x128 .i32 :=
  ((iW : Memref sig .scVector .hbm S32x10x128 .i32).slice (Rect.unit (s := S32x10x128) (k1_off1 L) S1x10x128.size (k1_off1_inb L)) (fun _ => rfl)).squeeze S10x128 squeezes_S1x10x128_S10x128
/-- Chunk `2 k + r` of the subcore's part of the result, as the kernel slices it. -/
abbrev oCh (L : grid1.Coords) (k : Fin k1_t1_loop.trips) (r : Fin 2) : Memref sig .scVector .hbm S128x128 .f32 :=
  (oW : Memref sig .scVector .hbm S40960x128 .f32).slice (Rect.unit (s := S40960x128) (k1_off4 L k (BitVec.ofNat 32 r.val)) S128x128.size (k1_off4_inb L k r)) (fun _ => rfl)

theorem cond1_neg : ∀ k : Fin k1_t1_loop.trips, k.val = 0 → ¬ k1_cond1 k = 1#1 := by decide +kernel
theorem cond2_neg : ∀ k : Fin k1_t1_loop.trips, k.val = 0 → ¬ k1_cond2 k = 1#1 := by decide +kernel
theorem cond1_pos : ∀ k : Fin k1_t1_loop.trips, k.val ≠ 0 → k1_cond1 k = 1#1 := by decide +kernel
theorem cond2_pos : ∀ k : Fin k1_t1_loop.trips, k.val ≠ 0 → k1_cond2 k = 1#1 := by decide +kernel
theorem trips_eq : k1_t1_loop.trips = 5 := by decide +kernel

variable [FloatOps F] (d : Dev nD) (L : grid1.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k1_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k1_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k1_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc1_scratch4.sem) 0 ∗ semVal (thr d L, SemLoc.dma cc1_scratch5.sem) 0)
  else
    iprop(∃ kp : Fin k1_t1_loop.trips, ⌜kp.val + 1 = n⌝ ∗ ∃ fa : oBuf (F := F) d L, ∃ ga, ∃ fb : oBuf (F := F) d L, ∃ gb,
      Transfers.Flight countersEmb (thr d L) (SemLoc.dma cc1_scratch4.sem) (none : HIx 5) 524288
          iprop(own d L (oCh L kp 0) fa ∗ own d L (sA : Memref sig .scVector .vmem S128x128 .f32) ga)
      ∗ Transfers.Flight countersEmb (thr d L) (SemLoc.dma cc1_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc1_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k1_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k1_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k1_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k1_t1_loop.trips) (hkp : kp.val + 1 = k1_t1_loop.trips) :
    iprop((bigSep Finset.univ fun j => chunkSt d L fo k1_t1_loop.trips j) ∗ donePair d L kp)
      ⊢ bigSep Finset.univ fun j => donePair d L j := by
  have e1 : chunkSt d L fo k1_t1_loop.trips kp = iprop(emp) := by
    unfold chunkSt; rw [if_neg (by have := kp.isLt; omega), if_neg (by omega)]
  have e2 : (bigSep (Finset.univ.erase kp) fun j => chunkSt d L fo k1_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k1_t1_loop.trips ≤ j.val := by omega
      have b : j.val + 1 < k1_t1_loop.trips := by omega
      unfold chunkSt
      simp only [if_neg a, if_pos b]
  rw [SparseCore.bigSep_erase' (Finset.mem_univ kp) (Φ := fun j => chunkSt d L fo k1_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc1_scoped0.sem) 0
        ∗ semVal (thr d L, SemLoc.dma cc1_scratch3.sem) 0
        ∗ semVal (thr d L, SemLoc.dma cc1_scratch4.sem) 0
        ∗ semVal (thr d L, SemLoc.dma cc1_scratch5.sem) 0
        ∗ owes (thr d L) O W)
      ⊢ wp frame (wpE (defs₀ (F := F)) 𝒱₀ (thr d L) none) Set.univ
          (cc1_kern L tW (Memref.isWhole_whole _) iW (Memref.isWhole_whole _) oW (Memref.isWhole_whole _)
            sI (Memref.isWhole_whole _) sA (Memref.isWhole_whole _) sB (Memref.isWhole_whole _) cc1_scratch3 cc1_scratch4 cc1_scratch5 cc1_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc1_scoped0.sem) 0
            ∗ semVal (thr d L, SemLoc.dma cc1_scratch3.sem) 0
            ∗ semVal (thr d L, SemLoc.dma cc1_scratch4.sem) 0
            ∗ semVal (thr d L, SemLoc.dma cc1_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc1_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k1_off3 k 0#32) S1x128.size (k1_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k1_off3 k 1#32) S1x128.size (k1_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k1_h1 : ¬ k1_cond1 k = 1#1 := cond1_neg k h0
      have k1_h2 : ¬ k1_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k1_h1 : k1_cond1 k = 1#1 := cond1_pos k h0
      have k1_h2 : k1_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k1_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid1.Coords) (b : Ref sig .scVector) : DevRef τ sig := (Proc.scVector (cV L) (jV L)).devRef b

def myBufs (L : grid1.Coords) : Finset (DevRef τ sig) := {dr L cc1_scratch0, dr L cc1_scratch1, dr L cc1_scratch2}
def mySems (d : Dev nD) (L : grid1.Coords) : Finset (GSem nD τ sig) :=
  {(thr d L, SemLoc.dma cc1_scoped0.sem), (thr d L, SemLoc.dma cc1_scratch3.sem), (thr d L, SemLoc.dma cc1_scratch4.sem), (thr d L, SemLoc.dma cc1_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc1_scoped0.sem : SemLoc sig).isScoped .scVector = true; decide⟩
  · exact mem_ownCells.mpr ⟨rfl, by show (SemLoc.dma cc1_scratch3.sem : SemLoc sig).isScoped .scVector = true; decide⟩
  · exact mem_ownCells.mpr ⟨rfl, by show (SemLoc.dma cc1_scratch4.sem : SemLoc sig).isScoped .scVector = true; decide⟩
  · exact mem_ownCells.mpr ⟨rfl, by show (SemLoc.dma cc1_scratch5.sem : SemLoc sig).isScoped .scVector = true; decide⟩

omit [FloatOps F] in
theorem ownSems0_split :
    (ownSems0 (thr d L) : sProp 𝕄)
      = iprop((semVal (thr d L, SemLoc.dma cc1_scoped0.sem) 0 ∗ semVal (thr d L, SemLoc.dma cc1_scratch3.sem) 0
          ∗ semVal (thr d L, SemLoc.dma cc1_scratch4.sem) 0 ∗ semVal (thr d L, SemLoc.dma cc1_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc1_scoped0.sem : DmaSem sig) ≠ cc1_scratch3.sem := by decide
  have e2 : (cc1_scoped0.sem : DmaSem sig) ≠ cc1_scratch4.sem := by decide
  have e3 : (cc1_scoped0.sem : DmaSem sig) ≠ cc1_scratch5.sem := by decide
  have e4 : (cc1_scratch3.sem : DmaSem sig) ≠ cc1_scratch4.sem := by decide
  have e5 : (cc1_scratch3.sem : DmaSem sig) ≠ cc1_scratch5.sem := by decide
  have e6 : (cc1_scratch4.sem : DmaSem sig) ≠ cc1_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc1_scratch0 ≠ dr L cc1_scratch1 := fun e => absurd (Proc.devRef_injective _ e) (show (cc1_scratch0 : Ref sig .scVector) ≠ cc1_scratch1 by decide)
  have e2 : dr L cc1_scratch0 ≠ dr L cc1_scratch2 := fun e => absurd (Proc.devRef_injective _ e) (show (cc1_scratch0 : Ref sig .scVector) ≠ cc1_scratch2 by decide)
  have e3 : dr L cc1_scratch1 ≠ dr L cc1_scratch2 := fun e => absurd (Proc.devRef_injective _ e) (show (cc1_scratch1 : Ref sig .scVector) ≠ cc1_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc1_kern L tW (Memref.isWhole_whole _) iW (Memref.isWhole_whole _) oW (Memref.isWhole_whole _)
            sI (Memref.isWhole_whole _) sA (Memref.isWhole_whole _) sB (Memref.isWhole_whole _) cc1_scratch3 cc1_scratch4 cc1_scratch5 cc1_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KB.T1

end
-- ==== Proof.KBP1.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KBT1

noncomputable section

namespace Cert.Proof.KB.T1

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid1.bound 0)) (s : Fin (grid1.bound 1)) : grid1.Coords :=
  fun | 0 => c | 1 => s | ⟨_ + 2, h⟩ => absurd h (Nat.not_lt.2 (Nat.le_add_left _ _))

abbrev iLoc (d : Dev nD) : Loc nD τ sig := (SparseCore.T d).loc main_v11
abbrev oLoc (d : Dev nD) : Loc nD τ sig := (SparseCore.T d).loc main_v12

abbrev iRect (L : grid1.Coords) : Rect S32x10x128 := Rect.unit (s := S32x10x128) (k1_off1 L) S1x10x128.size (k1_off1_inb L)
abbrev oRect (L : grid1.Coords) (k : Fin k1_t1_loop.trips) (r : Fin 2) : Rect S40960x128 :=
  Rect.unit (s := S40960x128) (k1_off4 L k (BitVec.ofNat 32 r.val)) S128x128.size (k1_off4_inb L k r)

theorem set_iBlk (L : grid1.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid1.Coords) (k : Fin k1_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid1.bound 0) × Fin (grid1.bound 1)
abbrev CI : Type := (Fin (grid1.bound 0) × Fin (grid1.bound 1)) × (Fin k1_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k1_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k1_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k1_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid1.bound 0), cc.val = ((idx 0).val / 128 % 20) / 10 := ⟨⟨_, by show _ < 2; omega⟩, rfl⟩
  obtain ⟨ii, hii⟩ : ∃ ii : Fin (grid1.bound 1), ii.val = (idx 0).val / 128 / 20 := ⟨⟨_, by show _ < 16; omega⟩, rfl⟩
  obtain ⟨kk, hkk⟩ : ∃ kk : Fin k1_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k1_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid1.bound 0)) : PosShare TreeShare := Transfers.shareTok fullShare (grid1.bound 0) c
abbrev tsh (c : Fin (grid1.bound 0)) (i : Fin (grid1.bound 1)) : PosShare TreeShare := Transfers.shareTok (tokC c) (grid1.bound 1) i

/-- What of the table stays with the TensorCore while the tasks hold their shares. -/
def tblRem (ft : Buf (Elt F) (tblLoc d)) : sProp 𝕄 :=
  iprop((tblLoc d ↦{Transfers.shareDrop fullShare (grid1.bound 0)} ft)
    ∗ bigSep Finset.univ fun c : Fin (grid1.bound 0) => (tblLoc d ↦{Transfers.shareDrop (tokC c) (grid1.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid1.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid1.bound 1)))) $$ Hc
  ihave Hc'' := (Entails.of_eq (bigSep_sep' (Finset.univ : Finset (Fin (grid1.bound 0)))
    (fun c => (tblLoc d ↦{Transfers.shareDrop (tokC c) (grid1.bound 1)} ft : sProp 𝕄))
    (fun c => bigSep Finset.univ fun i : Fin (grid1.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid1.bound 0))
  isplitl [Hd]; · iexact Hd
  ihave Hc := (Entails.of_eq (bigSep_sep' (Finset.univ : Finset (Fin (grid1.bound 0)))
    (fun c => (tblLoc d ↦{Transfers.shareDrop (tokC c) (grid1.bound 1)} ft : sProp 𝕄))
    (fun c => bigSep Finset.univ fun i : Fin (grid1.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid1.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid1.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid1.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid1.bound 0)) (i : Fin (grid1.bound 1)) : sProp 𝕄 := (tblLoc d ↦{tsh c i} ft : sProp 𝕄)
abbrev If (fi : Buf (Elt F) (iLoc d)) (c : Fin (grid1.bound 0)) (i : Fin (grid1.bound 1)) : sProp 𝕄 := (iLoc d ↦[iSet (c, i)]{fullShare} fi : sProp 𝕄)
abbrev Of (fo : Buf (Elt F) (oLoc d)) (c : Fin (grid1.bound 0)) (i : Fin (grid1.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid1.bound 0)) (i : Fin (grid1.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KB.T1

end
-- ==== Proof.KBT2.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KBSetup

noncomputable section

namespace Cert.Proof.KB.T2

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v17_scv
abbrev oW : Memref sig .scVector .hbm S40960x128 .f32 := Memref.whole main_v18_scv
abbrev sI : Memref sig .scVector .vmem S10x128 .i32 := Memref.whole cc2_scratch0
abbrev sA : Memref sig .scVector .vmem S128x128 .f32 := Memref.whole cc2_scratch1
abbrev sB : Memref sig .scVector .vmem S128x128 .f32 := Memref.whole cc2_scratch2

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The subcore's block of row numbers, as the kernel slices it. -/
abbrev iBlk (L : grid2.Coords) : Memref sig .scVector .hbm S10x128 .i32 :=
  ((iW : Memref sig .scVector .hbm S32x10x128 .i32).slice (Rect.unit (s := S32x10x128) (k2_off1 L) S1x10x128.size (k2_off1_inb L)) (fun _ => rfl)).squeeze S10x128 squeezes_S1x10x128_S10x128
/-- Chunk `2 k + r` of the subcore's part of the result, as the kernel slices it. -/
abbrev oCh (L : grid2.Coords) (k : Fin k2_t1_loop.trips) (r : Fin 2) : Memref sig .scVector .hbm S128x128 .f32 :=
  (oW : Memref sig .scVector .hbm S40960x128 .f32).slice (Rect.unit (s := S40960x128) (k2_off4 L k (BitVec.ofNat 32 r.val)) S128x128.size (k2_off4_inb L k r)) (fun _ => rfl)

theorem cond1_neg : ∀ k : Fin k2_t1_loop.trips, k.val = 0 → ¬ k2_cond1 k = 1#1 := by decide +kernel
theorem cond2_neg : ∀ k : Fin k2_t1_loop.trips, k.val = 0 → ¬ k2_cond2 k = 1#1 := by decide +kernel
theorem cond1_pos : ∀ k : Fin k2_t1_loop.trips, k.val ≠ 0 → k2_cond1 k = 1#1 := by decide +kernel
theorem cond2_pos : ∀ k : Fin k2_t1_loop.trips, k.val ≠ 0 → k2_cond2 k = 1#1 := by decide +kernel
theorem trips_eq : k2_t1_loop.trips = 5 := by decide +kernel

variable [FloatOps F] (d : Dev nD) (L : grid2.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k2_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k2_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k2_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc2_scratch4.sem) 0 ∗ semVal (thr d L, SemLoc.dma cc2_scratch5.sem) 0)
  else
    iprop(∃ kp : Fin k2_t1_loop.trips, ⌜kp.val + 1 = n⌝ ∗ ∃ fa : oBuf (F := F) d L, ∃ ga, ∃ fb : oBuf (F := F) d L, ∃ gb,
      Transfers.Flight countersEmb (thr d L) (SemLoc.dma cc2_scratch4.sem) (none : HIx 5) 524288
          iprop(own d L (oCh L kp 0) fa ∗ own d L (sA : Memref sig .scVector .vmem S128x128 .f32) ga)
      ∗ Transfers.Flight countersEmb (thr d L) (SemLoc.dma cc2_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc2_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k2_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k2_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k2_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k2_t1_loop.trips) (hkp : kp.val + 1 = k2_t1_loop.trips) :
    iprop((bigSep Finset.univ fun j => chunkSt d L fo k2_t1_loop.trips j) ∗ donePair d L kp)
      ⊢ bigSep Finset.univ fun j => donePair d L j := by
  have e1 : chunkSt d L fo k2_t1_loop.trips kp = iprop(emp) := by
    unfold chunkSt; rw [if_neg (by have := kp.isLt; omega), if_neg (by omega)]
  have e2 : (bigSep (Finset.univ.erase kp) fun j => chunkSt d L fo k2_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k2_t1_loop.trips ≤ j.val := by omega
      have b : j.val + 1 < k2_t1_loop.trips := by omega
      unfold chunkSt
      simp only [if_neg a, if_pos b]
  rw [SparseCore.bigSep_erase' (Finset.mem_univ kp) (Φ := fun j => chunkSt d L fo k2_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc2_scoped0.sem) 0
        ∗ semVal (thr d L, SemLoc.dma cc2_scratch3.sem) 0
        ∗ semVal (thr d L, SemLoc.dma cc2_scratch4.sem) 0
        ∗ semVal (thr d L, SemLoc.dma cc2_scratch5.sem) 0
        ∗ owes (thr d L) O W)
      ⊢ wp frame (wpE (defs₀ (F := F)) 𝒱₀ (thr d L) none) Set.univ
          (cc2_kern L tW (Memref.isWhole_whole _) iW (Memref.isWhole_whole _) oW (Memref.isWhole_whole _)
            sI (Memref.isWhole_whole _) sA (Memref.isWhole_whole _) sB (Memref.isWhole_whole _) cc2_scratch3 cc2_scratch4 cc2_scratch5 cc2_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc2_scoped0.sem) 0
            ∗ semVal (thr d L, SemLoc.dma cc2_scratch3.sem) 0
            ∗ semVal (thr d L, SemLoc.dma cc2_scratch4.sem) 0
            ∗ semVal (thr d L, SemLoc.dma cc2_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc2_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k2_off3 k 0#32) S1x128.size (k2_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k2_off3 k 1#32) S1x128.size (k2_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k2_h1 : ¬ k2_cond1 k = 1#1 := cond1_neg k h0
      have k2_h2 : ¬ k2_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k2_h1 : k2_cond1 k = 1#1 := cond1_pos k h0
      have k2_h2 : k2_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k2_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid2.Coords) (b : Ref sig .scVector) : DevRef τ sig := (Proc.scVector (cV L) (jV L)).devRef b

def myBufs (L : grid2.Coords) : Finset (DevRef τ sig) := {dr L cc2_scratch0, dr L cc2_scratch1, dr L cc2_scratch2}
def mySems (d : Dev nD) (L : grid2.Coords) : Finset (GSem nD τ sig) :=
  {(thr d L, SemLoc.dma cc2_scoped0.sem), (thr d L, SemLoc.dma cc2_scratch3.sem), (thr d L, SemLoc.dma cc2_scratch4.sem), (thr d L, SemLoc.dma cc2_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc2_scoped0.sem : SemLoc sig).isScoped .scVector = true; decide⟩
  · exact mem_ownCells.mpr ⟨rfl, by show (SemLoc.dma cc2_scratch3.sem : SemLoc sig).isScoped .scVector = true; decide⟩
  · exact mem_ownCells.mpr ⟨rfl, by show (SemLoc.dma cc2_scratch4.sem : SemLoc sig).isScoped .scVector = true; decide⟩
  · exact mem_ownCells.mpr ⟨rfl, by show (SemLoc.dma cc2_scratch5.sem : SemLoc sig).isScoped .scVector = true; decide⟩

omit [FloatOps F] in
theorem ownSems0_split :
    (ownSems0 (thr d L) : sProp 𝕄)
      = iprop((semVal (thr d L, SemLoc.dma cc2_scoped0.sem) 0 ∗ semVal (thr d L, SemLoc.dma cc2_scratch3.sem) 0
          ∗ semVal (thr d L, SemLoc.dma cc2_scratch4.sem) 0 ∗ semVal (thr d L, SemLoc.dma cc2_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc2_scoped0.sem : DmaSem sig) ≠ cc2_scratch3.sem := by decide
  have e2 : (cc2_scoped0.sem : DmaSem sig) ≠ cc2_scratch4.sem := by decide
  have e3 : (cc2_scoped0.sem : DmaSem sig) ≠ cc2_scratch5.sem := by decide
  have e4 : (cc2_scratch3.sem : DmaSem sig) ≠ cc2_scratch4.sem := by decide
  have e5 : (cc2_scratch3.sem : DmaSem sig) ≠ cc2_scratch5.sem := by decide
  have e6 : (cc2_scratch4.sem : DmaSem sig) ≠ cc2_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc2_scratch0 ≠ dr L cc2_scratch1 := fun e => absurd (Proc.devRef_injective _ e) (show (cc2_scratch0 : Ref sig .scVector) ≠ cc2_scratch1 by decide)
  have e2 : dr L cc2_scratch0 ≠ dr L cc2_scratch2 := fun e => absurd (Proc.devRef_injective _ e) (show (cc2_scratch0 : Ref sig .scVector) ≠ cc2_scratch2 by decide)
  have e3 : dr L cc2_scratch1 ≠ dr L cc2_scratch2 := fun e => absurd (Proc.devRef_injective _ e) (show (cc2_scratch1 : Ref sig .scVector) ≠ cc2_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc2_kern L tW (Memref.isWhole_whole _) iW (Memref.isWhole_whole _) oW (Memref.isWhole_whole _)
            sI (Memref.isWhole_whole _) sA (Memref.isWhole_whole _) sB (Memref.isWhole_whole _) cc2_scratch3 cc2_scratch4 cc2_scratch5 cc2_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KB.T2

end
-- ==== Proof.KBP2.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KBT2

noncomputable section

namespace Cert.Proof.KB.T2

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid2.bound 0)) (s : Fin (grid2.bound 1)) : grid2.Coords :=
  fun | 0 => c | 1 => s | ⟨_ + 2, h⟩ => absurd h (Nat.not_lt.2 (Nat.le_add_left _ _))

abbrev iLoc (d : Dev nD) : Loc nD τ sig := (SparseCore.T d).loc main_v17
abbrev oLoc (d : Dev nD) : Loc nD τ sig := (SparseCore.T d).loc main_v18

abbrev iRect (L : grid2.Coords) : Rect S32x10x128 := Rect.unit (s := S32x10x128) (k2_off1 L) S1x10x128.size (k2_off1_inb L)
abbrev oRect (L : grid2.Coords) (k : Fin k2_t1_loop.trips) (r : Fin 2) : Rect S40960x128 :=
  Rect.unit (s := S40960x128) (k2_off4 L k (BitVec.ofNat 32 r.val)) S128x128.size (k2_off4_inb L k r)

theorem set_iBlk (L : grid2.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid2.Coords) (k : Fin k2_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid2.bound 0) × Fin (grid2.bound 1)
abbrev CI : Type := (Fin (grid2.bound 0) × Fin (grid2.bound 1)) × (Fin k2_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k2_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k2_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k2_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid2.bound 0), cc.val = ((idx 0).val / 128 % 20) / 10 := ⟨⟨_, by show _ < 2; omega⟩, rfl⟩
  obtain ⟨ii, hii⟩ : ∃ ii : Fin (grid2.bound 1), ii.val = (idx 0).val / 128 / 20 := ⟨⟨_, by show _ < 16; omega⟩, rfl⟩
  obtain ⟨kk, hkk⟩ : ∃ kk : Fin k2_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k2_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid2.bound 0)) : PosShare TreeShare := Transfers.shareTok fullShare (grid2.bound 0) c
abbrev tsh (c : Fin (grid2.bound 0)) (i : Fin (grid2.bound 1)) : PosShare TreeShare := Transfers.shareTok (tokC c) (grid2.bound 1) i

/-- What of the table stays with the TensorCore while the tasks hold their shares. -/
def tblRem (ft : Buf (Elt F) (tblLoc d)) : sProp 𝕄 :=
  iprop((tblLoc d ↦{Transfers.shareDrop fullShare (grid2.bound 0)} ft)
    ∗ bigSep Finset.univ fun c : Fin (grid2.bound 0) => (tblLoc d ↦{Transfers.shareDrop (tokC c) (grid2.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid2.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid2.bound 1)))) $$ Hc
  ihave Hc'' := (Entails.of_eq (bigSep_sep' (Finset.univ : Finset (Fin (grid2.bound 0)))
    (fun c => (tblLoc d ↦{Transfers.shareDrop (tokC c) (grid2.bound 1)} ft : sProp 𝕄))
    (fun c => bigSep Finset.univ fun i : Fin (grid2.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid2.bound 0))
  isplitl [Hd]; · iexact Hd
  ihave Hc := (Entails.of_eq (bigSep_sep' (Finset.univ : Finset (Fin (grid2.bound 0)))
    (fun c => (tblLoc d ↦{Transfers.shareDrop (tokC c) (grid2.bound 1)} ft : sProp 𝕄))
    (fun c => bigSep Finset.univ fun i : Fin (grid2.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid2.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid2.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid2.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid2.bound 0)) (i : Fin (grid2.bound 1)) : sProp 𝕄 := (tblLoc d ↦{tsh c i} ft : sProp 𝕄)
abbrev If (fi : Buf (Elt F) (iLoc d)) (c : Fin (grid2.bound 0)) (i : Fin (grid2.bound 1)) : sProp 𝕄 := (iLoc d ↦[iSet (c, i)]{fullShare} fi : sProp 𝕄)
abbrev Of (fo : Buf (Elt F) (oLoc d)) (c : Fin (grid2.bound 0)) (i : Fin (grid2.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid2.bound 0)) (i : Fin (grid2.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KB.T2

end
-- ==== Proof.KBT3.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KBSetup

noncomputable section

namespace Cert.Proof.KB.T3

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v23_scv
abbrev oW : Memref sig .scVector .hbm S40960x128 .f32 := Memref.whole main_v24_scv
abbrev sI : Memref sig .scVector .vmem S10x128 .i32 := Memref.whole cc3_scratch0
abbrev sA : Memref sig .scVector .vmem S128x128 .f32 := Memref.whole cc3_scratch1
abbrev sB : Memref sig .scVector .vmem S128x128 .f32 := Memref.whole cc3_scratch2

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-- The subcore's block of row numbers, as the kernel slices it. -/
abbrev iBlk (L : grid3.Coords) : Memref sig .scVector .hbm S10x128 .i32 :=
  ((iW : Memref sig .scVector .hbm S32x10x128 .i32).slice (Rect.unit (s := S32x10x128) (k3_off1 L) S1x10x128.size (k3_off1_inb L)) (fun _ => rfl)).squeeze S10x128 squeezes_S1x10x128_S10x128
/-- Chunk `2 k + r` of the subcore's part of the result, as the kernel slices it. -/
abbrev oCh (L : grid3.Coords) (k : Fin k3_t1_loop.trips) (r : Fin 2) : Memref sig .scVector .hbm S128x128 .f32 :=
  (oW : Memref sig .scVector .hbm S40960x128 .f32).slice (Rect.unit (s := S40960x128) (k3_off4 L k (BitVec.ofNat 32 r.val)) S128x128.size (k3_off4_inb L k r)) (fun _ => rfl)

theorem cond1_neg : ∀ k : Fin k3_t1_loop.trips, k.val = 0 → ¬ k3_cond1 k = 1#1 := by decide +kernel
theorem cond2_neg : ∀ k : Fin k3_t1_loop.trips, k.val = 0 → ¬ k3_cond2 k = 1#1 := by decide +kernel
theorem cond1_pos : ∀ k : Fin k3_t1_loop.trips, k.val ≠ 0 → k3_cond1 k = 1#1 := by decide +kernel
theorem cond2_pos : ∀ k : Fin k3_t1_loop.trips, k.val ≠ 0 → k3_cond2 k = 1#1 := by decide +kernel
theorem trips_eq : k3_t1_loop.trips = 5 := by decide +kernel

variable [FloatOps F] (d : Dev nD) (L : grid3.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k3_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k3_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k3_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc3_scratch4.sem) 0 ∗ semVal (thr d L, SemLoc.dma cc3_scratch5.sem) 0)
  else
    iprop(∃ kp : Fin k3_t1_loop.trips, ⌜kp.val + 1 = n⌝ ∗ ∃ fa : oBuf (F := F) d L, ∃ ga, ∃ fb : oBuf (F := F) d L, ∃ gb,
      Transfers.Flight countersEmb (thr d L) (SemLoc.dma cc3_scratch4.sem) (none : HIx 5) 524288
          iprop(own d L (oCh L kp 0) fa ∗ own d L (sA : Memref sig .scVector .vmem S128x128 .f32) ga)
      ∗ Transfers.Flight countersEmb (thr d L) (SemLoc.dma cc3_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc3_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k3_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k3_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k3_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k3_t1_loop.trips) (hkp : kp.val + 1 = k3_t1_loop.trips) :
    iprop((bigSep Finset.univ fun j => chunkSt d L fo k3_t1_loop.trips j) ∗ donePair d L kp)
      ⊢ bigSep Finset.univ fun j => donePair d L j := by
  have e1 : chunkSt d L fo k3_t1_loop.trips kp = iprop(emp) := by
    unfold chunkSt; rw [if_neg (by have := kp.isLt; omega), if_neg (by omega)]
  have e2 : (bigSep (Finset.univ.erase kp) fun j => chunkSt d L fo k3_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k3_t1_loop.trips ≤ j.val := by omega
      have b : j.val + 1 < k3_t1_loop.trips := by omega
      unfold chunkSt
      simp only [if_neg a, if_pos b]
  rw [SparseCore.bigSep_erase' (Finset.mem_univ kp) (Φ := fun j => chunkSt d L fo k3_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc3_scoped0.sem) 0
        ∗ semVal (thr d L, SemLoc.dma cc3_scratch3.sem) 0
        ∗ semVal (thr d L, SemLoc.dma cc3_scratch4.sem) 0
        ∗ semVal (thr d L, SemLoc.dma cc3_scratch5.sem) 0
        ∗ owes (thr d L) O W)
      ⊢ wp frame (wpE (defs₀ (F := F)) 𝒱₀ (thr d L) none) Set.univ
          (cc3_kern L tW (Memref.isWhole_whole _) iW (Memref.isWhole_whole _) oW (Memref.isWhole_whole _)
            sI (Memref.isWhole_whole _) sA (Memref.isWhole_whole _) sB (Memref.isWhole_whole _) cc3_scratch3 cc3_scratch4 cc3_scratch5 cc3_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc3_scoped0.sem) 0
            ∗ semVal (thr d L, SemLoc.dma cc3_scratch3.sem) 0
            ∗ semVal (thr d L, SemLoc.dma cc3_scratch4.sem) 0
            ∗ semVal (thr d L, SemLoc.dma cc3_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc3_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k3_off3 k 0#32) S1x128.size (k3_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k3_off3 k 1#32) S1x128.size (k3_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k3_h1 : ¬ k3_cond1 k = 1#1 := cond1_neg k h0
      have k3_h2 : ¬ k3_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k3_h1 : k3_cond1 k = 1#1 := cond1_pos k h0
      have k3_h2 : k3_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k3_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid3.Coords) (b : Ref sig .scVector) : DevRef τ sig := (Proc.scVector (cV L) (jV L)).devRef b

def myBufs (L : grid3.Coords) : Finset (DevRef τ sig) := {dr L cc3_scratch0, dr L cc3_scratch1, dr L cc3_scratch2}
def mySems (d : Dev nD) (L : grid3.Coords) : Finset (GSem nD τ sig) :=
  {(thr d L, SemLoc.dma cc3_scoped0.sem), (thr d L, SemLoc.dma cc3_scratch3.sem), (thr d L, SemLoc.dma cc3_scratch4.sem), (thr d L, SemLoc.dma cc3_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc3_scoped0.sem : SemLoc sig).isScoped .scVector = true; decide⟩
  · exact mem_ownCells.mpr ⟨rfl, by show (SemLoc.dma cc3_scratch3.sem : SemLoc sig).isScoped .scVector = true; decide⟩
  · exact mem_ownCells.mpr ⟨rfl, by show (SemLoc.dma cc3_scratch4.sem : SemLoc sig).isScoped .scVector = true; decide⟩
  · exact mem_ownCells.mpr ⟨rfl, by show (SemLoc.dma cc3_scratch5.sem : SemLoc sig).isScoped .scVector = true; decide⟩

omit [FloatOps F] in
theorem ownSems0_split :
    (ownSems0 (thr d L) : sProp 𝕄)
      = iprop((semVal (thr d L, SemLoc.dma cc3_scoped0.sem) 0 ∗ semVal (thr d L, SemLoc.dma cc3_scratch3.sem) 0
          ∗ semVal (thr d L, SemLoc.dma cc3_scratch4.sem) 0 ∗ semVal (thr d L, SemLoc.dma cc3_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc3_scoped0.sem : DmaSem sig) ≠ cc3_scratch3.sem := by decide
  have e2 : (cc3_scoped0.sem : DmaSem sig) ≠ cc3_scratch4.sem := by decide
  have e3 : (cc3_scoped0.sem : DmaSem sig) ≠ cc3_scratch5.sem := by decide
  have e4 : (cc3_scratch3.sem : DmaSem sig) ≠ cc3_scratch4.sem := by decide
  have e5 : (cc3_scratch3.sem : DmaSem sig) ≠ cc3_scratch5.sem := by decide
  have e6 : (cc3_scratch4.sem : DmaSem sig) ≠ cc3_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc3_scratch0 ≠ dr L cc3_scratch1 := fun e => absurd (Proc.devRef_injective _ e) (show (cc3_scratch0 : Ref sig .scVector) ≠ cc3_scratch1 by decide)
  have e2 : dr L cc3_scratch0 ≠ dr L cc3_scratch2 := fun e => absurd (Proc.devRef_injective _ e) (show (cc3_scratch0 : Ref sig .scVector) ≠ cc3_scratch2 by decide)
  have e3 : dr L cc3_scratch1 ≠ dr L cc3_scratch2 := fun e => absurd (Proc.devRef_injective _ e) (show (cc3_scratch1 : Ref sig .scVector) ≠ cc3_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc3_kern L tW (Memref.isWhole_whole _) iW (Memref.isWhole_whole _) oW (Memref.isWhole_whole _)
            sI (Memref.isWhole_whole _) sA (Memref.isWhole_whole _) sB (Memref.isWhole_whole _) cc3_scratch3 cc3_scratch4 cc3_scratch5 cc3_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KB.T3

end
-- ==== Proof.KBP3.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KBT3

noncomputable section

namespace Cert.Proof.KB.T3

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid3.bound 0)) (s : Fin (grid3.bound 1)) : grid3.Coords :=
  fun | 0 => c | 1 => s | ⟨_ + 2, h⟩ => absurd h (Nat.not_lt.2 (Nat.le_add_left _ _))

abbrev iLoc (d : Dev nD) : Loc nD τ sig := (SparseCore.T d).loc main_v23
abbrev oLoc (d : Dev nD) : Loc nD τ sig := (SparseCore.T d).loc main_v24

abbrev iRect (L : grid3.Coords) : Rect S32x10x128 := Rect.unit (s := S32x10x128) (k3_off1 L) S1x10x128.size (k3_off1_inb L)
abbrev oRect (L : grid3.Coords) (k : Fin k3_t1_loop.trips) (r : Fin 2) : Rect S40960x128 :=
  Rect.unit (s := S40960x128) (k3_off4 L k (BitVec.ofNat 32 r.val)) S128x128.size (k3_off4_inb L k r)

theorem set_iBlk (L : grid3.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid3.Coords) (k : Fin k3_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid3.bound 0) × Fin (grid3.bound 1)
abbrev CI : Type := (Fin (grid3.bound 0) × Fin (grid3.bound 1)) × (Fin k3_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k3_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k3_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k3_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid3.bound 0), cc.val = ((idx 0).val / 128 % 20) / 10 := ⟨⟨_, by show _ < 2; omega⟩, rfl⟩
  obtain ⟨ii, hii⟩ : ∃ ii : Fin (grid3.bound 1), ii.val = (idx 0).val / 128 / 20 := ⟨⟨_, by show _ < 16; omega⟩, rfl⟩
  obtain ⟨kk, hkk⟩ : ∃ kk : Fin k3_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k3_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid3.bound 0)) : PosShare TreeShare := Transfers.shareTok fullShare (grid3.bound 0) c
abbrev tsh (c : Fin (grid3.bound 0)) (i : Fin (grid3.bound 1)) : PosShare TreeShare := Transfers.shareTok (tokC c) (grid3.bound 1) i

/-- What of the table stays with the TensorCore while the tasks hold their shares. -/
def tblRem (ft : Buf (Elt F) (tblLoc d)) : sProp 𝕄 :=
  iprop((tblLoc d ↦{Transfers.shareDrop fullShare (grid3.bound 0)} ft)
    ∗ bigSep Finset.univ fun c : Fin (grid3.bound 0) => (tblLoc d ↦{Transfers.shareDrop (tokC c) (grid3.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid3.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid3.bound 1)))) $$ Hc
  ihave Hc'' := (Entails.of_eq (bigSep_sep' (Finset.univ : Finset (Fin (grid3.bound 0)))
    (fun c => (tblLoc d ↦{Transfers.shareDrop (tokC c) (grid3.bound 1)} ft : sProp 𝕄))
    (fun c => bigSep Finset.univ fun i : Fin (grid3.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid3.bound 0))
  isplitl [Hd]; · iexact Hd
  ihave Hc := (Entails.of_eq (bigSep_sep' (Finset.univ : Finset (Fin (grid3.bound 0)))
    (fun c => (tblLoc d ↦{Transfers.shareDrop (tokC c) (grid3.bound 1)} ft : sProp 𝕄))
    (fun c => bigSep Finset.univ fun i : Fin (grid3.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid3.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid3.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid3.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid3.bound 0)) (i : Fin (grid3.bound 1)) : sProp 𝕄 := (tblLoc d ↦{tsh c i} ft : sProp 𝕄)
abbrev If (fi : Buf (Elt F) (iLoc d)) (c : Fin (grid3.bound 0)) (i : Fin (grid3.bound 1)) : sProp 𝕄 := (iLoc d ↦[iSet (c, i)]{fullShare} fi : sProp 𝕄)
abbrev Of (fo : Buf (Elt F) (oLoc d)) (c : Fin (grid3.bound 0)) (i : Fin (grid3.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid3.bound 0)) (i : Fin (grid3.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KB.T3

end
-- ==== Proof.KBT4.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KBSetup

noncomputable section

namespace Cert.Proof.KB.T4

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v29_scv
abbrev oW : Memref sig .scVector .hbm S40960x128 .f32 := Memref.whole main_v30_scv
abbrev sI : Memref sig .scVector .vmem S10x128 .i32 := Memref.whole cc4_scratch0
abbrev sA : Memref sig .scVector .vmem S128x128 .f32 := Memref.whole cc4_scratch1
abbrev sB : Memref sig .scVector .vmem S128x128 .f32 := Memref.whole cc4_scratch2

abbrev cV (L : grid4.Coords) : Fin τ.nSC := (L 0).castLE hcore4
abbrev jV (L : grid4.Coords) : Fin τ.nSub := (L 1).castLE hsub4
abbrev thr (d : Dev nD) (L : grid4.Coords) : Thread nD τ := V d (cV L) (jV L)

/-- The subcore's block of row numbers, as the kernel slices it. -/
abbrev iBlk (L : grid4.Coords) : Memref sig .scVector .hbm S10x128 .i32 :=
  ((iW : Memref sig .scVector .hbm S32x10x128 .i32).slice (Rect.unit (s := S32x10x128) (k4_off1 L) S1x10x128.size (k4_off1_inb L)) (fun _ => rfl)).squeeze S10x128 squeezes_S1x10x128_S10x128
/-- Chunk `2 k + r` of the subcore's part of the result, as the kernel slices it. -/
abbrev oCh (L : grid4.Coords) (k : Fin k4_t1_loop.trips) (r : Fin 2) : Memref sig .scVector .hbm S128x128 .f32 :=
  (oW : Memref sig .scVector .hbm S40960x128 .f32).slice (Rect.unit (s := S40960x128) (k4_off4 L k (BitVec.ofNat 32 r.val)) S128x128.size (k4_off4_inb L k r)) (fun _ => rfl)

theorem cond1_neg : ∀ k : Fin k4_t1_loop.trips, k.val = 0 → ¬ k4_cond1 k = 1#1 := by decide +kernel
theorem cond2_neg : ∀ k : Fin k4_t1_loop.trips, k.val = 0 → ¬ k4_cond2 k = 1#1 := by decide +kernel
theorem cond1_pos : ∀ k : Fin k4_t1_loop.trips, k.val ≠ 0 → k4_cond1 k = 1#1 := by decide +kernel
theorem cond2_pos : ∀ k : Fin k4_t1_loop.trips, k.val ≠ 0 → k4_cond2 k = 1#1 := by decide +kernel
theorem trips_eq : k4_t1_loop.trips = 5 := by decide +kernel

variable [FloatOps F] (d : Dev nD) (L : grid4.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

/-- The two chunks of trip `j` at contents not stated. -/
abbrev donePair (j : Fin k4_t1_loop.trips) : sProp 𝕄 :=
  iprop((∃ f : oBuf (F := F) d L, own d L (oCh L j 0) f) ∗ (∃ f : oBuf (F := F) d L, own d L (oCh L j 1) f))
abbrev freshPair (fo : oBuf (F := F) d L) (j : Fin k4_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (fo : oBuf (F := F) d L) (n : Nat) (j : Fin k4_t1_loop.trips) : sProp 𝕄 :=
  if n ≤ j.val then freshPair d L fo j else if j.val + 1 < n then donePair d L j else iprop(emp)

/-- The staging buffers and their write semaphores before trip `n`: free before the first trip, inside the
    two writes in flight afterwards. -/
def slots (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc4_scratch4.sem) 0 ∗ semVal (thr d L, SemLoc.dma cc4_scratch5.sem) 0)
  else
    iprop(∃ kp : Fin k4_t1_loop.trips, ⌜kp.val + 1 = n⌝ ∗ ∃ fa : oBuf (F := F) d L, ∃ ga, ∃ fb : oBuf (F := F) d L, ∃ gb,
      Transfers.Flight countersEmb (thr d L) (SemLoc.dma cc4_scratch4.sem) (none : HIx 5) 524288
          iprop(own d L (oCh L kp 0) fa ∗ own d L (sA : Memref sig .scVector .vmem S128x128 .f32) ga)
      ∗ Transfers.Flight countersEmb (thr d L) (SemLoc.dma cc4_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc4_scratch3.sem) 0
    ∗ slots d L n
    ∗ (bigSep Finset.univ fun j => chunkSt d L fo n j)
    ∗ ∃ W', ⌜∀ p ∈ W', p ∈ W ∨ p.2 = none⌝ ∗ owes (thr d L) O W')

/-! ## The chunks' bookkeeping -/

omit [FloatOps F] in
theorem chunks_init (fo : oBuf (F := F) d L) :
    (bigSep Finset.univ fun j => freshPair d L fo j) = bigSep Finset.univ fun j => chunkSt d L fo 0 j :=
  bigSep_congr fun j _ => by unfold chunkSt; rw [if_pos (Nat.zero_le _)]

omit [FloatOps F] in
theorem chunks_take (fo : oBuf (F := F) d L) (n : Nat) (k : Fin k4_t1_loop.trips) (hk : k.val = n) :
    (bigSep Finset.univ fun j => chunkSt d L fo n j)
      = iprop(freshPair d L fo k ∗ bigSep (Finset.univ.erase k) fun j => chunkSt d L fo n j) := by
  rw [SparseCore.bigSep_erase' (Finset.mem_univ k)]
  congr 1
  unfold chunkSt; rw [if_pos (le_of_eq hk.symm)]

omit [FloatOps F] in
theorem chunks_step0 (fo : oBuf (F := F) d L) (n : Nat) (k : Fin k4_t1_loop.trips) (hk : k.val = n) (hn : n = 0) :
    (bigSep (Finset.univ.erase k) fun j => chunkSt d L fo n j) ⊢ bigSep Finset.univ fun j => chunkSt d L fo (n + 1) j := by
  have e1 : chunkSt d L fo (n + 1) k = iprop(emp) := by unfold chunkSt; rw [if_neg (by omega), if_neg (by omega)]
  have e4 : (bigSep (Finset.univ.erase k) fun j => chunkSt d L fo n j) = bigSep (Finset.univ.erase k) fun j => chunkSt d L fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L fo (n + 1) j), e1, e4]
  iintro H
  isplitr; · iempintro
  iexact H

omit [FloatOps F] in
theorem chunks_step (fo : oBuf (F := F) d L) (n : Nat) (k kp : Fin k4_t1_loop.trips) (hk : k.val = n) (hkp : kp.val + 1 = n) :
    iprop((bigSep (Finset.univ.erase k) fun j => chunkSt d L fo n j) ∗ donePair d L kp)
      ⊢ bigSep Finset.univ fun j => chunkSt d L fo (n + 1) j := by
  have hne : kp ≠ k := fun h => by rw [h] at hkp; omega
  have hmem : kp ∈ Finset.univ.erase k := Finset.mem_erase.mpr ⟨hne, Finset.mem_univ _⟩
  have e1 : chunkSt d L fo (n + 1) k = iprop(emp) := by unfold chunkSt; rw [if_neg (by omega), if_neg (by omega)]
  have e2 : chunkSt d L fo (n + 1) kp = donePair d L kp := by unfold chunkSt; rw [if_neg (by omega), if_pos (by omega)]
  have e3 : chunkSt d L fo n kp = iprop(emp) := by unfold chunkSt; rw [if_neg (by omega), if_neg (by omega)]
  have e4 : (bigSep ((Finset.univ.erase k).erase kp) fun j => chunkSt d L fo n j)
      = bigSep ((Finset.univ.erase k).erase kp) fun j => chunkSt d L fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L fo (n + 1) j),
    SparseCore.bigSep_erase' hmem (Φ := fun j => chunkSt d L fo (n + 1) j),
    SparseCore.bigSep_erase' hmem (Φ := fun j => chunkSt d L fo n j), e1, e2, e3, e4]
  iintro ⟨⟨-, Hr⟩, Hd⟩
  isplitr; · iempintro
  isplitl [Hd]; · iexact Hd
  iexact Hr

omit [FloatOps F] in
theorem chunks_final (fo : oBuf (F := F) d L) (kp : Fin k4_t1_loop.trips) (hkp : kp.val + 1 = k4_t1_loop.trips) :
    iprop((bigSep Finset.univ fun j => chunkSt d L fo k4_t1_loop.trips j) ∗ donePair d L kp)
      ⊢ bigSep Finset.univ fun j => donePair d L j := by
  have e1 : chunkSt d L fo k4_t1_loop.trips kp = iprop(emp) := by
    unfold chunkSt; rw [if_neg (by have := kp.isLt; omega), if_neg (by omega)]
  have e2 : (bigSep (Finset.univ.erase kp) fun j => chunkSt d L fo k4_t1_loop.trips j) = bigSep (Finset.univ.erase kp) fun j => donePair d L j :=
    bigSep_congr fun j hj => by
      have h1 : j ≠ kp := (Finset.mem_erase.mp hj).1
      have h1' : j.val ≠ kp.val := fun h => h1 (Fin.ext h)
      have hj1 := j.isLt
      have hk1 := kp.isLt
      have a : ¬ k4_t1_loop.trips ≤ j.val := by omega
      have b : j.val + 1 < k4_t1_loop.trips := by omega
      unfold chunkSt
      simp only [if_neg a, if_pos b]
  rw [SparseCore.bigSep_erase' (Finset.mem_univ kp) (Φ := fun j => chunkSt d L fo k4_t1_loop.trips j),
    SparseCore.bigSep_erase' (Finset.mem_univ kp) (Φ := fun j => donePair d L j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc4_scoped0.sem) 0
        ∗ semVal (thr d L, SemLoc.dma cc4_scratch3.sem) 0
        ∗ semVal (thr d L, SemLoc.dma cc4_scratch4.sem) 0
        ∗ semVal (thr d L, SemLoc.dma cc4_scratch5.sem) 0
        ∗ owes (thr d L) O W)
      ⊢ wp frame (wpE (defs₀ (F := F)) 𝒱₀ (thr d L) none) Set.univ
          (cc4_kern L tW (Memref.isWhole_whole _) iW (Memref.isWhole_whole _) oW (Memref.isWhole_whole _)
            sI (Memref.isWhole_whole _) sA (Memref.isWhole_whole _) sB (Memref.isWhole_whole _) cc4_scratch3 cc4_scratch4 cc4_scratch5 cc4_scoped0)
          fun _ => iprop(((tW : Memref sig .scVector .hbm S50000x128 .f32).view.loc (thr d L) ↦{qs} ft)
            ∗ own d L (iBlk L) fi
            ∗ (bigSep Finset.univ fun j => donePair d L j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc4_scoped0.sem) 0
            ∗ semVal (thr d L, SemLoc.dma cc4_scratch3.sem) 0
            ∗ semVal (thr d L, SemLoc.dma cc4_scratch4.sem) 0
            ∗ semVal (thr d L, SemLoc.dma cc4_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  sl_unfold [cc4_kern]
  sl_exec
  ihave Hch0 := (Entails.of_eq (chunks_init d L fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) fo) $$ [Hmw Ht H0 Hg H1' H2' Ha Hb Hch0 HO]
  case region =>
    intro k _
    have hin0 : ∀ x, ((((sI : Memref sig .scVector .vmem S10x128 .i32).slice (Rect.unit (s := S10x128) (k4_off3 k 0#32) S1x128.size (k4_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k4_off3 k 1#32) S1x128.size (k4_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k4_h1 : ¬ k4_cond1 k = 1#1 := cond1_neg k h0
      have k4_h2 : ¬ k4_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest]
      · iapply (chunks_step0 d L fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k4_h1 : k4_cond1 k = 1#1 := cond1_pos k h0
      have k4_h2 : k4_cond2 k = 1#1 := cond2_pos k h0
      unfold inv slots
      rw [if_neg h0, if_neg (Nat.succ_ne_zero k.val)]
      iintro ⟨#Hmw, Ht, H0, Hg, ⟨%kp, %hkp, %fa, %ga, %fb, %gb, Ha, Hb⟩, Hch, %W', %hW', HO⟩
      ihave Hch' := (Entails.of_eq (chunks_take d L fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitl [Ha]; · iexact Ha
        iexact Hb
      isplitl [Hrest Ha_dst Hb_dst]
      · iapply (chunks_step d L fo k.val k kp rfl hkp)
        isplitl [Hrest]; · iexact Hrest
        isplitl [Ha_dst]; · iexists _; iexact Ha_dst
        iexists _; iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k4_t1_loop.trips = 0 by rw [trips_eq]; decide)]
  icases HI with ⟨-, Ht, H0, Hg, ⟨%kp, %hkp, %fa, %ga, %fb, %gb, Ha, Hb⟩, Hch, %W', %hW', HO⟩
  sl_exec
  sl_step
  isplitl [Ht]; · iexact Ht
  isplitl [Hi]; · iexact Hi
  isplitl [Hch Ha_dst Hb_dst]
  · iapply (chunks_final d L fo kp hkp)
    isplitl [Hch]; · iexact Hch
    isplitl [Ha_dst]; · iexists _; iexact Ha_dst
    iexists _; iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid4.Coords) (b : Ref sig .scVector) : DevRef τ sig := (Proc.scVector (cV L) (jV L)).devRef b

def myBufs (L : grid4.Coords) : Finset (DevRef τ sig) := {dr L cc4_scratch0, dr L cc4_scratch1, dr L cc4_scratch2}
def mySems (d : Dev nD) (L : grid4.Coords) : Finset (GSem nD τ sig) :=
  {(thr d L, SemLoc.dma cc4_scoped0.sem), (thr d L, SemLoc.dma cc4_scratch3.sem), (thr d L, SemLoc.dma cc4_scratch4.sem), (thr d L, SemLoc.dma cc4_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc4_scoped0.sem : SemLoc sig).isScoped .scVector = true; decide⟩
  · exact mem_ownCells.mpr ⟨rfl, by show (SemLoc.dma cc4_scratch3.sem : SemLoc sig).isScoped .scVector = true; decide⟩
  · exact mem_ownCells.mpr ⟨rfl, by show (SemLoc.dma cc4_scratch4.sem : SemLoc sig).isScoped .scVector = true; decide⟩
  · exact mem_ownCells.mpr ⟨rfl, by show (SemLoc.dma cc4_scratch5.sem : SemLoc sig).isScoped .scVector = true; decide⟩

omit [FloatOps F] in
theorem ownSems0_split :
    (ownSems0 (thr d L) : sProp 𝕄)
      = iprop((semVal (thr d L, SemLoc.dma cc4_scoped0.sem) 0 ∗ semVal (thr d L, SemLoc.dma cc4_scratch3.sem) 0
          ∗ semVal (thr d L, SemLoc.dma cc4_scratch4.sem) 0 ∗ semVal (thr d L, SemLoc.dma cc4_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc4_scoped0.sem : DmaSem sig) ≠ cc4_scratch3.sem := by decide
  have e2 : (cc4_scoped0.sem : DmaSem sig) ≠ cc4_scratch4.sem := by decide
  have e3 : (cc4_scoped0.sem : DmaSem sig) ≠ cc4_scratch5.sem := by decide
  have e4 : (cc4_scratch3.sem : DmaSem sig) ≠ cc4_scratch4.sem := by decide
  have e5 : (cc4_scratch3.sem : DmaSem sig) ≠ cc4_scratch5.sem := by decide
  have e6 : (cc4_scratch4.sem : DmaSem sig) ≠ cc4_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc4_scratch0 ≠ dr L cc4_scratch1 := fun e => absurd (Proc.devRef_injective _ e) (show (cc4_scratch0 : Ref sig .scVector) ≠ cc4_scratch1 by decide)
  have e2 : dr L cc4_scratch0 ≠ dr L cc4_scratch2 := fun e => absurd (Proc.devRef_injective _ e) (show (cc4_scratch0 : Ref sig .scVector) ≠ cc4_scratch2 by decide)
  have e3 : dr L cc4_scratch1 ≠ dr L cc4_scratch2 := fun e => absurd (Proc.devRef_injective _ e) (show (cc4_scratch1 : Ref sig .scVector) ≠ cc4_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) : sProp 𝕄 :=
  iprop(((tW : Memref sig .scVector .hbm S50000x128 .f32).view.loc (thr d L) ↦{qs} ft) ∗ own d L (iBlk L) fi ∗ bigSep Finset.univ fun j => donePair d L j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc4_kern L tW (Memref.isWhole_whole _) iW (Memref.isWhole_whole _) oW (Memref.isWhole_whole _)
            sI (Memref.isWhole_whole _) sA (Memref.isWhole_whole _) sB (Memref.isWhole_whole _) cc4_scratch3 cc4_scratch4 cc4_scratch5 cc4_scoped0)
          fun _ => iprop(tdRes d L qs ft fi ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KB.T4

end
-- ==== Proof.KBP4.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KBT4

noncomputable section

namespace Cert.Proof.KB.T4

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid4.bound 0)) (s : Fin (grid4.bound 1)) : grid4.Coords :=
  fun | 0 => c | 1 => s | ⟨_ + 2, h⟩ => absurd h (Nat.not_lt.2 (Nat.le_add_left _ _))

abbrev iLoc (d : Dev nD) : Loc nD τ sig := (SparseCore.T d).loc main_v29
abbrev oLoc (d : Dev nD) : Loc nD τ sig := (SparseCore.T d).loc main_v30

abbrev iRect (L : grid4.Coords) : Rect S32x10x128 := Rect.unit (s := S32x10x128) (k4_off1 L) S1x10x128.size (k4_off1_inb L)
abbrev oRect (L : grid4.Coords) (k : Fin k4_t1_loop.trips) (r : Fin 2) : Rect S40960x128 :=
  Rect.unit (s := S40960x128) (k4_off4 L k (BitVec.ofNat 32 r.val)) S128x128.size (k4_off4_inb L k r)

theorem set_iBlk (L : grid4.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid4.Coords) (k : Fin k4_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid4.bound 0) × Fin (grid4.bound 1)
abbrev CI : Type := (Fin (grid4.bound 0) × Fin (grid4.bound 1)) × (Fin k4_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k4_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k4_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k4_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid4.bound 0), cc.val = ((idx 0).val / 128 % 20) / 10 := ⟨⟨_, by show _ < 2; omega⟩, rfl⟩
  obtain ⟨ii, hii⟩ : ∃ ii : Fin (grid4.bound 1), ii.val = (idx 0).val / 128 / 20 := ⟨⟨_, by show _ < 16; omega⟩, rfl⟩
  obtain ⟨kk, hkk⟩ : ∃ kk : Fin k4_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k4_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid4.bound 0)) : PosShare TreeShare := Transfers.shareTok fullShare (grid4.bound 0) c
abbrev tsh (c : Fin (grid4.bound 0)) (i : Fin (grid4.bound 1)) : PosShare TreeShare := Transfers.shareTok (tokC c) (grid4.bound 1) i

/-- What of the table stays with the TensorCore while the tasks hold their shares. -/
def tblRem (ft : Buf (Elt F) (tblLoc d)) : sProp 𝕄 :=
  iprop((tblLoc d ↦{Transfers.shareDrop fullShare (grid4.bound 0)} ft)
    ∗ bigSep Finset.univ fun c : Fin (grid4.bound 0) => (tblLoc d ↦{Transfers.shareDrop (tokC c) (grid4.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid4.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid4.bound 1)))) $$ Hc
  ihave Hc'' := (Entails.of_eq (bigSep_sep' (Finset.univ : Finset (Fin (grid4.bound 0)))
    (fun c => (tblLoc d ↦{Transfers.shareDrop (tokC c) (grid4.bound 1)} ft : sProp 𝕄))
    (fun c => bigSep Finset.univ fun i : Fin (grid4.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid4.bound 0))
  isplitl [Hd]; · iexact Hd
  ihave Hc := (Entails.of_eq (bigSep_sep' (Finset.univ : Finset (Fin (grid4.bound 0)))
    (fun c => (tblLoc d ↦{Transfers.shareDrop (tokC c) (grid4.bound 1)} ft : sProp 𝕄))
    (fun c => bigSep Finset.univ fun i : Fin (grid4.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid4.bound 1))))
  iexact Hc

/-! ## The whole arrays out to the tasks and back -/

variable [FloatOps F]

theorem out_join :
    (bigSep Finset.univ fun c => bigSep Finset.univ fun i => bigSep Finset.univ fun k => donePair (F := F) d (coordsV c i) k)
      ⊢ (iprop(∃ f : Buf (Elt F) (oLoc d), oLoc d ↦{fullShare} f) : sProp 𝕄) := by
  have e : (bigSep Finset.univ fun c => bigSep Finset.univ fun i => bigSep Finset.univ fun k => donePair (F := F) d (coordsV c i) k)
      = bigSep Finset.univ fun x : CI => (iprop(∃ f : Buf (Elt F) (oLoc d), oLoc d ↦[oSet x]{fullShare} f) : sProp 𝕄) := by
    rw [bigSep_univ_prod, bigSep_univ_prod]
    refine bigSep_congr fun c _ => bigSep_congr fun i _ => ?_
    rw [bigSep_univ_prod]
    refine bigSep_congr fun k _ => ?_
    rw [bigSep_fin2]
  rw [e]
  refine (bigSep_exists_pi Finset.univ (fun x (f : Buf (Elt F) (oLoc d)) => (oLoc d ↦[oSet x]{fullShare} f : sProp 𝕄))).trans ?_
  iintro ⟨%fs, H⟩
  ihave H' := (pointsTo_biUnion_join Finset.univ oSet fs (fs ((⟨0, by decide⟩, ⟨0, by decide⟩), (⟨0, by rw [trips_eq]; decide⟩, 0)))
    (fun x _ y _ h => oSets_disjoint h)) $$ H
  icases H' with ⟨%g, -, Hg⟩
  rw [oSets_cover]
  iexists g; iexact Hg

/-- What the call hands SparseCore `c`'s sequencer: its sixteen tasks' shares; and what comes back. -/
def stRes (c : Fin (grid4.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid4.bound 0)) (ft : Buf (Elt F) (tblLoc d)) (fi : Buf (Elt F) (iLoc d)) : sProp 𝕄 :=
  bigSep Finset.univ fun i => tdRes d (coordsV c i) (tsh c i) ft fi

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid4.bound 0)) (i : Fin (grid4.bound 1)) : sProp 𝕄 := (tblLoc d ↦{tsh c i} ft : sProp 𝕄)
abbrev If (fi : Buf (Elt F) (iLoc d)) (c : Fin (grid4.bound 0)) (i : Fin (grid4.bound 1)) : sProp 𝕄 := (iLoc d ↦[iSet (c, i)]{fullShare} fi : sProp 𝕄)
abbrev Of (fo : Buf (Elt F) (oLoc d)) (c : Fin (grid4.bound 0)) (i : Fin (grid4.bound 1)) : sProp 𝕄 :=
  bigSep Finset.univ fun k => iprop((oLoc d ↦[oSet ((c, i), (k, 0))]{fullShare} fo) ∗ (oLoc d ↦[oSet ((c, i), (k, 1))]{fullShare} fo))
abbrev Df (c : Fin (grid4.bound 0)) (i : Fin (grid4.bound 1)) : sProp 𝕄 :=
  bigSep Finset.univ fun k => donePair (F := F) d (coordsV c i) k

theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) :
    (bigSep Finset.univ fun c => dnRes d c ft fi)
      = iprop((bigSep Finset.univ fun c => bigSep Finset.univ fun i => Tf d ft c i) ∗ (bigSep Finset.univ fun c => bigSep Finset.univ fun i => If d fi c i)
          ∗ (bigSep Finset.univ fun c => bigSep Finset.univ fun i => Df (F := F) d c i)) :=
  (bigSep_congr (s := Finset.univ) fun c _ => bigSep3 Finset.univ (Tf d ft c) (If d fi c) (Df (F := F) d c)).trans
    (bigSep3 Finset.univ (fun c => bigSep Finset.univ fun i => Tf d ft c i) (fun c => bigSep Finset.univ fun i => If d fi c i) (fun c => bigSep Finset.univ fun i => Df (F := F) d c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) :
    iprop(tblRem d ft ∗ bigSep Finset.univ fun c => dnRes d c ft fi)
      ⊢ iprop((tblLoc d ↦{fullShare} ft) ∗ (iLoc d ↦{fullShare} fi) ∗ ∃ f : Buf (Elt F) (oLoc d), oLoc d ↦{fullShare} f) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (out_join d); iexact Ho

end Cert.Proof.KB.T4

end
-- ==== Proof.KBPay.lean ====
/-
  What the five gather calls' handshakes carry, and the launch theorem's obligations for them: each call hands every
  task a read share of the table, its block of row numbers and its ten chunks of the result, and takes them back with
  the chunks written; a task's obligation is its body's proof.
-/
import proofs.«205068_g58248346468665_cont_9to1c4b_383_29_alg».proof.Proof.KBP0
import proofs.«205068_g58248346468665_cont_9to1c4b_383_29_alg».proof.Proof.KBP1
import proofs.«205068_g58248346468665_cont_9to1c4b_383_29_alg».proof.Proof.KBP2
import proofs.«205068_g58248346468665_cont_9to1c4b_383_29_alg».proof.Proof.KBP3
import proofs.«205068_g58248346468665_cont_9to1c4b_383_29_alg».proof.Proof.KBP4

noncomputable section

namespace Cert.Proof.KB

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F]

/-- The arrays' contents when each call is made: the table's, and per call the row numbers' and (before the call) the result's. -/
structure Conts (F : FTy → Type) where
  tv : (d : Dev nD) → Buf (Elt F) (tblLoc d)
  iv0 : (d : Dev nD) → Buf (Elt F) (T0.iLoc d)
  ov0 : (d : Dev nD) → Buf (Elt F) (T0.oLoc d)
  iv1 : (d : Dev nD) → Buf (Elt F) (T1.iLoc d)
  ov1 : (d : Dev nD) → Buf (Elt F) (T1.oLoc d)
  iv2 : (d : Dev nD) → Buf (Elt F) (T2.iLoc d)
  ov2 : (d : Dev nD) → Buf (Elt F) (T2.oLoc d)
  iv3 : (d : Dev nD) → Buf (Elt F) (T3.iLoc d)
  ov3 : (d : Dev nD) → Buf (Elt F) (T3.oLoc d)
  iv4 : (d : Dev nD) → Buf (Elt F) (T4.iLoc d)
  ov4 : (d : Dev nD) → Buf (Elt F) (T4.oLoc d)

variable (C : Conts F)

def P : (K (F := F)).Pay (nD := nD) (Val := Elt F) (Name := ℕ) (U := UU) where
  st := fun q d c => match q with
    | 0 => T0.stRes d c (C.tv d) (C.iv0 d) (C.ov0 d)
    | 1 => T1.stRes d c (C.tv d) (C.iv1 d) (C.ov1 d)
    | 2 => T2.stRes d c (C.tv d) (C.iv2 d) (C.ov2 d)
    | 3 => T3.stRes d c (C.tv d) (C.iv3 d) (C.ov3 d)
    | 4 => T4.stRes d c (C.tv d) (C.iv4 d) (C.ov4 d)
  dn := fun q d c => match q with
    | 0 => T0.dnRes d c (C.tv d) (C.iv0 d)
    | 1 => T1.dnRes d c (C.tv d) (C.iv1 d)
    | 2 => T2.dnRes d c (C.tv d) (C.iv2 d)
    | 3 => T3.dnRes d c (C.tv d) (C.iv3 d)
    | 4 => T4.dnRes d c (C.tv d) (C.iv4 d)
  go := fun q d c i => match q with
    | 0 => T0.goRes d (T0.coordsV c i) (T0.tsh c i) (C.tv d) (C.iv0 d) (C.ov0 d)
    | 1 => T1.goRes d (T1.coordsV c i) (T1.tsh c i) (C.tv d) (C.iv1 d) (C.ov1 d)
    | 2 => T2.goRes d (T2.coordsV c i) (T2.tsh c i) (C.tv d) (C.iv2 d) (C.ov2 d)
    | 3 => T3.goRes d (T3.coordsV c i) (T3.tsh c i) (C.tv d) (C.iv3 d) (C.ov3 d)
    | 4 => T4.goRes d (T4.coordsV c i) (T4.tsh c i) (C.tv d) (C.iv4 d) (C.ov4 d)
  td := fun q d c i => match q with
    | 0 => T0.tdRes d (T0.coordsV c i) (T0.tsh c i) (C.tv d) (C.iv0 d)
    | 1 => T1.tdRes d (T1.coordsV c i) (T1.tsh c i) (C.tv d) (C.iv1 d)
    | 2 => T2.tdRes d (T2.coordsV c i) (T2.tsh c i) (C.tv d) (C.iv2 d)
    | 3 => T3.tdRes d (T3.coordsV c i) (T3.tsh c i) (C.tv d) (C.iv3 d)
    | 4 => T4.tdRes d (T4.coordsV c i) (T4.tsh c i) (C.tv d) (C.iv4 d)
  x := fun _ _ => iprop(emp)

set_option synthInstance.maxHeartbeats 2000000 in
set_option maxHeartbeats 8000000 in
instance P_storable : (P (F := F) C).IsStorable where
  st q d c := match q with
    | 0 => by show BI.Storable (upEmb : UEmb _ 𝕄) (T0.stRes d c (C.tv d) (C.iv0 d) (C.ov0 d)); unfold T0.stRes T0.goRes; infer_instance
    | 1 => by show BI.Storable (upEmb : UEmb _ 𝕄) (T1.stRes d c (C.tv d) (C.iv1 d) (C.ov1 d)); unfold T1.stRes T1.goRes; infer_instance
    | 2 => by show BI.Storable (upEmb : UEmb _ 𝕄) (T2.stRes d c (C.tv d) (C.iv2 d) (C.ov2 d)); unfold T2.stRes T2.goRes; infer_instance
    | 3 => by show BI.Storable (upEmb : UEmb _ 𝕄) (T3.stRes d c (C.tv d) (C.iv3 d) (C.ov3 d)); unfold T3.stRes T3.goRes; infer_instance
    | 4 => by show BI.Storable (upEmb : UEmb _ 𝕄) (T4.stRes d c (C.tv d) (C.iv4 d) (C.ov4 d)); unfold T4.stRes T4.goRes; infer_instance
  dn q d c := match q with
    | 0 => by show BI.Storable (upEmb : UEmb _ 𝕄) (T0.dnRes d c (C.tv d) (C.iv0 d)); unfold T0.dnRes T0.tdRes; infer_instance
    | 1 => by show BI.Storable (upEmb : UEmb _ 𝕄) (T1.dnRes d c (C.tv d) (C.iv1 d)); unfold T1.dnRes T1.tdRes; infer_instance
    | 2 => by show BI.Storable (upEmb : UEmb _ 𝕄) (T2.dnRes d c (C.tv d) (C.iv2 d)); unfold T2.dnRes T2.tdRes; infer_instance
    | 3 => by show BI.Storable (upEmb : UEmb _ 𝕄) (T3.dnRes d c (C.tv d) (C.iv3 d)); unfold T3.dnRes T3.tdRes; infer_instance
    | 4 => by show BI.Storable (upEmb : UEmb _ 𝕄) (T4.dnRes d c (C.tv d) (C.iv4 d)); unfold T4.dnRes T4.tdRes; infer_instance
  go q d c i := match q with
    | 0 => by show BI.Storable (upEmb : UEmb _ 𝕄) (T0.goRes d (T0.coordsV c i) (T0.tsh c i) (C.tv d) (C.iv0 d) (C.ov0 d)); unfold T0.goRes; infer_instance
    | 1 => by show BI.Storable (upEmb : UEmb _ 𝕄) (T1.goRes d (T1.coordsV c i) (T1.tsh c i) (C.tv d) (C.iv1 d) (C.ov1 d)); unfold T1.goRes; infer_instance
    | 2 => by show BI.Storable (upEmb : UEmb _ 𝕄) (T2.goRes d (T2.coordsV c i) (T2.tsh c i) (C.tv d) (C.iv2 d) (C.ov2 d)); unfold T2.goRes; infer_instance
    | 3 => by show BI.Storable (upEmb : UEmb _ 𝕄) (T3.goRes d (T3.coordsV c i) (T3.tsh c i) (C.tv d) (C.iv3 d) (C.ov3 d)); unfold T3.goRes; infer_instance
    | 4 => by show BI.Storable (upEmb : UEmb _ 𝕄) (T4.goRes d (T4.coordsV c i) (T4.tsh c i) (C.tv d) (C.iv4 d) (C.ov4 d)); unfold T4.goRes; infer_instance
  td q d c i := match q with
    | 0 => by show BI.Storable (upEmb : UEmb _ 𝕄) (T0.tdRes d (T0.coordsV c i) (T0.tsh c i) (C.tv d) (C.iv0 d)); unfold T0.tdRes; infer_instance
    | 1 => by show BI.Storable (upEmb : UEmb _ 𝕄) (T1.tdRes d (T1.coordsV c i) (T1.tsh c i) (C.tv d) (C.iv1 d)); unfold T1.tdRes; infer_instance
    | 2 => by show BI.Storable (upEmb : UEmb _ 𝕄) (T2.tdRes d (T2.coordsV c i) (T2.tsh c i) (C.tv d) (C.iv2 d)); unfold T2.tdRes; infer_instance
    | 3 => by show BI.Storable (upEmb : UEmb _ 𝕄) (T3.tdRes d (T3.coordsV c i) (T3.tsh c i) (C.tv d) (C.iv3 d)); unfold T3.tdRes; infer_instance
    | 4 => by show BI.Storable (upEmb : UEmb _ 𝕄) (T4.tdRes d (T4.coordsV c i) (T4.tsh c i) (C.tv d) (C.iv4 d)); unfold T4.tdRes; infer_instance

/-- Every row number a task is handed names a row of the table. -/
def PreOK : Prop :=
  (∀ (d : Dev nD) (L : grid0.Coords) j, ((T0.iBlk L).view.read (Elt F) (C.iv0 d) j).toNat < 50000) ∧
  (∀ (d : Dev nD) (L : grid1.Coords) j, ((T1.iBlk L).view.read (Elt F) (C.iv1 d) j).toNat < 50000) ∧
  (∀ (d : Dev nD) (L : grid2.Coords) j, ((T2.iBlk L).view.read (Elt F) (C.iv2 d) j).toNat < 50000) ∧
  (∀ (d : Dev nD) (L : grid3.Coords) j, ((T3.iBlk L).view.read (Elt F) (C.iv3 d) j).toNat < 50000) ∧
  (∀ (d : Dev nD) (L : grid4.Coords) j, ((T4.iBlk L).view.read (Elt F) (C.iv4 d) j).toNat < 50000)

omit [FloatOps F] in
theorem obl_post {thr : Thread nD τ} {A B C' : sProp 𝕄} {O : CellTallies nD τ sig (HIx 5)} {W : Waits sig (HIx 5)} {q : Fin 5} :
    iprop(A ∗ B ∗ C' ∗ ∃ W', ⌜∀ p ∈ W', p ∈ W ∨ p.2 = none⌝ ∗ owes thr O W')
      ⊢ iprop(A ∗ B ∗ C' ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_kern (T0.coordsV c s)
          T0.tW (Memref.isWhole_whole _) T0.iW (Memref.isWhole_whole _) T0.oW (Memref.isWhole_whole _)
          T0.sI (Memref.isWhole_whole _) T0.sA (Memref.isWhole_whole _) T0.sB (Memref.isWhole_whole _) cc0_scratch3 cc0_scratch4 cc0_scratch5 cc0_scoped0) ⟨⟩ c s := rfl

theorem tileObl0 (hpre : PreOK C) : (K (F := F)).TileObl (D (F := F)) 𝒱 (P C) v₀ 0 := by
  intro d c i O W hO _ _
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (T0.tile_body d (T0.coordsV ⟨_, hc.1⟩ ⟨_, hc.2⟩) O W hO _ _ _ _ (hpre.1 d _)).trans (wp_mono frame _ _ fun _ => obl_post)

theorem vecSplit0 : (K (F := F)).VecSplit' (P C) 0 := by
  intro d c
  show T0.stRes d c (C.tv d) (C.iv0 d) (C.ov0 d) ⊢ |={Set.univ}=> iprop(
      (bigSep Finset.univ fun i : Fin ((K (F := F)).nSub 0) => T0.goRes d (T0.coordsV c i) (T0.tsh c i) (C.tv d) (C.iv0 d) (C.ov0 d))
      ∗ ((bigSep Finset.univ fun i : Fin ((K (F := F)).nSub 0) => T0.tdRes d (T0.coordsV c i) (T0.tsh c i) (C.tv d) (C.iv0 d))
          -∗ T0.dnRes d c (C.tv d) (C.iv0 d)))
  unfold T0.stRes T0.dnRes
  iintro H; imodintro
  isplitl [H]; · iexact H
  iintro H; iexact H

theorem defs₀_vector1 (c : Fin τ.nSC) (s : Fin τ.nSub) :
    defs₀ (F := F) (.scVector c s) 1 ()
      = SparseCore.onTile hcore1 hsub1 (fun c s => cc1_kern (T1.coordsV c s)
          T1.tW (Memref.isWhole_whole _) T1.iW (Memref.isWhole_whole _) T1.oW (Memref.isWhole_whole _)
          T1.sI (Memref.isWhole_whole _) T1.sA (Memref.isWhole_whole _) T1.sB (Memref.isWhole_whole _) cc1_scratch3 cc1_scratch4 cc1_scratch5 cc1_scoped0) ⟨⟩ c s := rfl

theorem tileObl1 (hpre : PreOK C) : (K (F := F)).TileObl (D (F := F)) 𝒱 (P C) v₀ 1 := by
  intro d c i O W hO _ _
  simp only [show (P C).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (T1.tile_body d (T1.coordsV ⟨_, hc.1⟩ ⟨_, hc.2⟩) O W hO _ _ _ _ (hpre.2.1 d _)).trans (wp_mono frame _ _ fun _ => obl_post)

theorem vecSplit1 : (K (F := F)).VecSplit' (P C) 1 := by
  intro d c
  show T1.stRes d c (C.tv d) (C.iv1 d) (C.ov1 d) ⊢ |={Set.univ}=> iprop(
      (bigSep Finset.univ fun i : Fin ((K (F := F)).nSub 1) => T1.goRes d (T1.coordsV c i) (T1.tsh c i) (C.tv d) (C.iv1 d) (C.ov1 d))
      ∗ ((bigSep Finset.univ fun i : Fin ((K (F := F)).nSub 1) => T1.tdRes d (T1.coordsV c i) (T1.tsh c i) (C.tv d) (C.iv1 d))
          -∗ T1.dnRes d c (C.tv d) (C.iv1 d)))
  unfold T1.stRes T1.dnRes
  iintro H; imodintro
  isplitl [H]; · iexact H
  iintro H; iexact H

theorem defs₀_vector2 (c : Fin τ.nSC) (s : Fin τ.nSub) :
    defs₀ (F := F) (.scVector c s) 2 ()
      = SparseCore.onTile hcore2 hsub2 (fun c s => cc2_kern (T2.coordsV c s)
          T2.tW (Memref.isWhole_whole _) T2.iW (Memref.isWhole_whole _) T2.oW (Memref.isWhole_whole _)
          T2.sI (Memref.isWhole_whole _) T2.sA (Memref.isWhole_whole _) T2.sB (Memref.isWhole_whole _) cc2_scratch3 cc2_scratch4 cc2_scratch5 cc2_scoped0) ⟨⟩ c s := rfl

theorem tileObl2 (hpre : PreOK C) : (K (F := F)).TileObl (D (F := F)) 𝒱 (P C) v₀ 2 := by
  intro d c i O W hO _ _
  simp only [show (P C).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (T2.tile_body d (T2.coordsV ⟨_, hc.1⟩ ⟨_, hc.2⟩) O W hO _ _ _ _ (hpre.2.2.1 d _)).trans (wp_mono frame _ _ fun _ => obl_post)

theorem vecSplit2 : (K (F := F)).VecSplit' (P C) 2 := by
  intro d c
  show T2.stRes d c (C.tv d) (C.iv2 d) (C.ov2 d) ⊢ |={Set.univ}=> iprop(
      (bigSep Finset.univ fun i : Fin ((K (F := F)).nSub 2) => T2.goRes d (T2.coordsV c i) (T2.tsh c i) (C.tv d) (C.iv2 d) (C.ov2 d))
      ∗ ((bigSep Finset.univ fun i : Fin ((K (F := F)).nSub 2) => T2.tdRes d (T2.coordsV c i) (T2.tsh c i) (C.tv d) (C.iv2 d))
          -∗ T2.dnRes d c (C.tv d) (C.iv2 d)))
  unfold T2.stRes T2.dnRes
  iintro H; imodintro
  isplitl [H]; · iexact H
  iintro H; iexact H

theorem defs₀_vector3 (c : Fin τ.nSC) (s : Fin τ.nSub) :
    defs₀ (F := F) (.scVector c s) 3 ()
      = SparseCore.onTile hcore3 hsub3 (fun c s => cc3_kern (T3.coordsV c s)
          T3.tW (Memref.isWhole_whole _) T3.iW (Memref.isWhole_whole _) T3.oW (Memref.isWhole_whole _)
          T3.sI (Memref.isWhole_whole _) T3.sA (Memref.isWhole_whole _) T3.sB (Memref.isWhole_whole _) cc3_scratch3 cc3_scratch4 cc3_scratch5 cc3_scoped0) ⟨⟩ c s := rfl

theorem tileObl3 (hpre : PreOK C) : (K (F := F)).TileObl (D (F := F)) 𝒱 (P C) v₀ 3 := by
  intro d c i O W hO _ _
  simp only [show (P C).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (T3.tile_body d (T3.coordsV ⟨_, hc.1⟩ ⟨_, hc.2⟩) O W hO _ _ _ _ (hpre.2.2.2.1 d _)).trans (wp_mono frame _ _ fun _ => obl_post)

theorem vecSplit3 : (K (F := F)).VecSplit' (P C) 3 := by
  intro d c
  show T3.stRes d c (C.tv d) (C.iv3 d) (C.ov3 d) ⊢ |={Set.univ}=> iprop(
      (bigSep Finset.univ fun i : Fin ((K (F := F)).nSub 3) => T3.goRes d (T3.coordsV c i) (T3.tsh c i) (C.tv d) (C.iv3 d) (C.ov3 d))
      ∗ ((bigSep Finset.univ fun i : Fin ((K (F := F)).nSub 3) => T3.tdRes d (T3.coordsV c i) (T3.tsh c i) (C.tv d) (C.iv3 d))
          -∗ T3.dnRes d c (C.tv d) (C.iv3 d)))
  unfold T3.stRes T3.dnRes
  iintro H; imodintro
  isplitl [H]; · iexact H
  iintro H; iexact H

theorem defs₀_vector4 (c : Fin τ.nSC) (s : Fin τ.nSub) :
    defs₀ (F := F) (.scVector c s) 4 ()
      = SparseCore.onTile hcore4 hsub4 (fun c s => cc4_kern (T4.coordsV c s)
          T4.tW (Memref.isWhole_whole _) T4.iW (Memref.isWhole_whole _) T4.oW (Memref.isWhole_whole _)
          T4.sI (Memref.isWhole_whole _) T4.sA (Memref.isWhole_whole _) T4.sB (Memref.isWhole_whole _) cc4_scratch3 cc4_scratch4 cc4_scratch5 cc4_scoped0) ⟨⟩ c s := rfl

theorem tileObl4 (hpre : PreOK C) : (K (F := F)).TileObl (D (F := F)) 𝒱 (P C) v₀ 4 := by
  intro d c i O W hO _ _
  simp only [show (P C).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (T4.tile_body d (T4.coordsV ⟨_, hc.1⟩ ⟨_, hc.2⟩) O W hO _ _ _ _ (hpre.2.2.2.2 d _)).trans (wp_mono frame _ _ fun _ => obl_post)

theorem vecSplit4 : (K (F := F)).VecSplit' (P C) 4 := by
  intro d c
  show T4.stRes d c (C.tv d) (C.iv4 d) (C.ov4 d) ⊢ |={Set.univ}=> iprop(
      (bigSep Finset.univ fun i : Fin ((K (F := F)).nSub 4) => T4.goRes d (T4.coordsV c i) (T4.tsh c i) (C.tv d) (C.iv4 d) (C.ov4 d))
      ∗ ((bigSep Finset.univ fun i : Fin ((K (F := F)).nSub 4) => T4.tdRes d (T4.coordsV c i) (T4.tsh c i) (C.tv d) (C.iv4 d))
          -∗ T4.dnRes d c (C.tv d) (C.iv4 d)))
  unfold T4.stRes T4.dnRes
  iintro H; imodintro
  isplitl [H]; · iexact H
  iintro H; iexact H

end Cert.Proof.KB

end
-- ==== Proof.KBR5.lean ====
/-
  The first transposing call on the TensorCore, point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KBSetup
import proofs.«205068_g58248346468665_cont_9to1c4b_383_29_alg».proof.Proof.Gen.Kernel.Launch
import proofs.«205068_g58248346468665_cont_9to1c4b_383_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.KB.R5

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before_0_of {c : Dev nD} (dat : Dat τ (Elt F) (HIx 5) ℕ UU ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k5_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid5.Coords) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc5__tail_first_kernel i arg1 harg1 arg2 harg2 arg3 harg3) K := by
  simp only [cc5__tail_first_kernel_eq_skeleton]; unfold cc5__tail_first_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec5 c

/-- The proof data of the call on core `c`: the arrays as the region finds them; after the body at point `t` each
    input's buffer at its block and the output's at the block computed from them; nothing owed; full shares. -/
def dat (c : Dev nD) : Dat τ (Elt F) (HIx 5) ℕ UU ℕ cfg5 c where
  A w := V c (Pipeline.arrRef spec5 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg5.W) : (dat V c).A w = V c (Pipeline.arrRef spec5 w) := by
  dsimp only [dat]
theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = outBlk (iblk V c 0 t) (iblk V c 1 t) := by dsimp only [dat]
theorem before_0 (c : Dev nD) (t : Fin cfg5.N) (d) : (dat V c).before 0 t d = iblk V c 0 t :=
  before_0_of V (dat V c) (A_eq V c 0) (after_0 V c) t d
theorem before_1 (c : Dev nD) (t : Fin cfg5.N) (d) : (dat V c).before 1 t d = iblk V c 1 t :=
  before_1_of V (dat V c) (A_eq V c 1) (after_1 V c) t d

def bodyPre (c : Dev nD) (t : Fin cfg5.N) : sProp 𝕄 :=
  iprop((dat V c).Φ t.castSucc ∗ (dat V c).owesAt (none : HIx 5) t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d)))
def bodyPost (c : Dev nD) (t : Fin cfg5.N) : sProp 𝕄 :=
  iprop((dat V c).Φ t.succ ∗ (dat V c).owesAt (none : HIx 5) t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid5.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W5, bigSep_W5]
  exact sound_body V c t

end Cert.Proof.KB.R5

end
-- ==== Proof.KBR6.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KBSetup
import proofs.«205068_g58248346468665_cont_9to1c4b_383_29_alg».proof.Proof.Gen.Kernel.Launch
import proofs.«205068_g58248346468665_cont_9to1c4b_383_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.KB.R6

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before_0_of {c : Dev nD} (dat : Dat τ (Elt F) (HIx 5) ℕ UU ℕ cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k6_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid6.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc6__tail_next_kernel i arg0 harg0 arg1 harg1 arg2 harg2 arg3 harg3) K := by
  simp only [cc6__tail_next_kernel_eq_skeleton]; unfold cc6__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec6 c

/-- The proof data of the call on core `c`: the arrays as the region finds them; after the body at point `t` each
    input's buffer at its block and the output's at the block computed from them; nothing owed; full shares. -/
def dat (c : Dev nD) : Dat τ (Elt F) (HIx 5) ℕ UU ℕ cfg6 c where
  A w := V c (Pipeline.arrRef spec6 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg6.W) : (dat V c).A w = V c (Pipeline.arrRef spec6 w) := by
  dsimp only [dat]
theorem after_0 (c : Dev nD) (t : Fin cfg6.N) : (dat V c).after 0 t = iblk V c 0 t := by dsimp only [dat]
theorem after_1 (c : Dev nD) (t : Fin cfg6.N) : (dat V c).after 1 t = iblk V c 1 t := by dsimp only [dat]
theorem after_2 (c : Dev nD) (t : Fin cfg6.N) : (dat V c).after 2 t = outBlk (iblk V c 0 t) (iblk V c 1 t) := by dsimp only [dat]
theorem before_0 (c : Dev nD) (t : Fin cfg6.N) (d) : (dat V c).before 0 t d = iblk V c 0 t :=
  before_0_of V (dat V c) (A_eq V c 0) (after_0 V c) t d
theorem before_1 (c : Dev nD) (t : Fin cfg6.N) (d) : (dat V c).before 1 t d = iblk V c 1 t :=
  before_1_of V (dat V c) (A_eq V c 1) (after_1 V c) t d

def bodyPre (c : Dev nD) (t : Fin cfg6.N) : sProp 𝕄 :=
  iprop((dat V c).Φ t.castSucc ∗ (dat V c).owesAt (none : HIx 5) t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d)))
def bodyPost (c : Dev nD) (t : Fin cfg6.N) : sProp 𝕄 :=
  iprop((dat V c).Φ t.succ ∗ (dat V c).owesAt (none : HIx 5) t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t))

theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid6.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W6, bigSep_W6]
  exact sound_body V c t

end Cert.Proof.KB.R6

end
-- ==== Proof.KBR7.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KBSetup
import proofs.«205068_g58248346468665_cont_9to1c4b_383_29_alg».proof.Proof.Gen.Kernel.Launch
import proofs.«205068_g58248346468665_cont_9to1c4b_383_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.KB.R7

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before_0_of {c : Dev nD} (dat : Dat τ (Elt F) (HIx 5) ℕ UU ℕ cfg7 c) (hA : dat.A 0 = V c (Pipeline.arrRef spec7 0))
    (hafter : ∀ t, dat.after 0 t = iblk V c 0 t) (t : Fin cfg7.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg7 c) (hA : dat.A 1 = V c (Pipeline.arrRef spec7 1))
    (hafter : ∀ t, dat.after 1 t = iblk V c 1 t) (t : Fin cfg7.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k7_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid7.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc7__tail_next_kernel i arg0 harg0 arg1 harg1 arg2 harg2 arg3 harg3) K := by
  simp only [cc7__tail_next_kernel_eq_skeleton]; unfold cc7__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec7 c

/-- The proof data of the call on core `c`: the arrays as the region finds them; after the body at point `t` each
    input's buffer at its block and the output's at the block computed from them; nothing owed; full shares. -/
def dat (c : Dev nD) : Dat τ (Elt F) (HIx 5) ℕ UU ℕ cfg7 c where
  A w := V c (Pipeline.arrRef spec7 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg7.W) : (dat V c).A w = V c (Pipeline.arrRef spec7 w) := by
  dsimp only [dat]
theorem after_0 (c : Dev nD) (t : Fin cfg7.N) : (dat V c).after 0 t = iblk V c 0 t := by dsimp only [dat]
theorem after_1 (c : Dev nD) (t : Fin cfg7.N) : (dat V c).after 1 t = iblk V c 1 t := by dsimp only [dat]
theorem after_2 (c : Dev nD) (t : Fin cfg7.N) : (dat V c).after 2 t = outBlk (iblk V c 0 t) (iblk V c 1 t) := by dsimp only [dat]
theorem before_0 (c : Dev nD) (t : Fin cfg7.N) (d) : (dat V c).before 0 t d = iblk V c 0 t :=
  before_0_of V (dat V c) (A_eq V c 0) (after_0 V c) t d
theorem before_1 (c : Dev nD) (t : Fin cfg7.N) (d) : (dat V c).before 1 t d = iblk V c 1 t :=
  before_1_of V (dat V c) (A_eq V c 1) (after_1 V c) t d

def bodyPre (c : Dev nD) (t : Fin cfg7.N) : sProp 𝕄 :=
  iprop((dat V c).Φ t.castSucc ∗ (dat V c).owesAt (none : HIx 5) t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d)))
def bodyPost (c : Dev nD) (t : Fin cfg7.N) : sProp 𝕄 :=
  iprop((dat V c).Φ t.succ ∗ (dat V c).owesAt (none : HIx 5) t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t))

theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid7.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W7, bigSep_W7]
  exact sound_body V c t

end Cert.Proof.KB.R7

end
-- ==== Proof.KBR8.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KBSetup
import proofs.«205068_g58248346468665_cont_9to1c4b_383_29_alg».proof.Proof.Gen.Kernel.Launch
import proofs.«205068_g58248346468665_cont_9to1c4b_383_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.KB.R8

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before_0_of {c : Dev nD} (dat : Dat τ (Elt F) (HIx 5) ℕ UU ℕ cfg8 c) (hA : dat.A 0 = V c (Pipeline.arrRef spec8 0))
    (hafter : ∀ t, dat.after 0 t = iblk V c 0 t) (t : Fin cfg8.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg8 c) (hA : dat.A 1 = V c (Pipeline.arrRef spec8 1))
    (hafter : ∀ t, dat.after 1 t = iblk V c 1 t) (t : Fin cfg8.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k8_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid8.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc8__tail_next_kernel i arg0 harg0 arg1 harg1 arg2 harg2 arg3 harg3) K := by
  simp only [cc8__tail_next_kernel_eq_skeleton]; unfold cc8__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec8 c

/-- The proof data of the call on core `c`: the arrays as the region finds them; after the body at point `t` each
    input's buffer at its block and the output's at the block computed from them; nothing owed; full shares. -/
def dat (c : Dev nD) : Dat τ (Elt F) (HIx 5) ℕ UU ℕ cfg8 c where
  A w := V c (Pipeline.arrRef spec8 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg8.W) : (dat V c).A w = V c (Pipeline.arrRef spec8 w) := by
  dsimp only [dat]
theorem after_0 (c : Dev nD) (t : Fin cfg8.N) : (dat V c).after 0 t = iblk V c 0 t := by dsimp only [dat]
theorem after_1 (c : Dev nD) (t : Fin cfg8.N) : (dat V c).after 1 t = iblk V c 1 t := by dsimp only [dat]
theorem after_2 (c : Dev nD) (t : Fin cfg8.N) : (dat V c).after 2 t = outBlk (iblk V c 0 t) (iblk V c 1 t) := by dsimp only [dat]
theorem before_0 (c : Dev nD) (t : Fin cfg8.N) (d) : (dat V c).before 0 t d = iblk V c 0 t :=
  before_0_of V (dat V c) (A_eq V c 0) (after_0 V c) t d
theorem before_1 (c : Dev nD) (t : Fin cfg8.N) (d) : (dat V c).before 1 t d = iblk V c 1 t :=
  before_1_of V (dat V c) (A_eq V c 1) (after_1 V c) t d

def bodyPre (c : Dev nD) (t : Fin cfg8.N) : sProp 𝕄 :=
  iprop((dat V c).Φ t.castSucc ∗ (dat V c).owesAt (none : HIx 5) t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d)))
def bodyPost (c : Dev nD) (t : Fin cfg8.N) : sProp 𝕄 :=
  iprop((dat V c).Φ t.succ ∗ (dat V c).owesAt (none : HIx 5) t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t))

theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid8.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W8, bigSep_W8]
  exact sound_body V c t

end Cert.Proof.KB.R8

end
-- ==== Proof.KBR9.lean ====
/-
  A later transposing call on the TensorCore (it writes its ten blocks into the buffer the calls before it filled), point by point: the body loads the point's 4096 gathered row
  pairs and its 4096 row numbers, keeps of each pair the half the number's low bit names, transposes, and stores
  the 64 x 4096 block; the pipeline stages the two inputs in and the block out.
-/
import proofs.«205068_g58248346468665_cont_9to1c4b_383_29_alg».proof.Proof.KBSetup
import proofs.«205068_g58248346468665_cont_9to1c4b_383_29_alg».proof.Proof.Gen.Kernel.Launch
import proofs.«205068_g58248346468665_cont_9to1c4b_383_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.KB.R9

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

variable (V : (c : Dev nD) → (b : Ref sig .tc) → Buf (Elt F) ((c : Thread nD τ).loc b))

/-- Window `w`'s block at point `t`, read off its array as the region finds it. -/
def iblk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before_0_of {c : Dev nD} (dat : Dat τ (Elt F) (HIx 5) ℕ UU ℕ cfg9 c) (hA : dat.A 0 = V c (Pipeline.arrRef spec9 0))
    (hafter : ∀ t, dat.after 0 t = iblk V c 0 t) (t : Fin cfg9.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 5) ℕ UU ℕ cfg9 c) (hA : dat.A 1 = V c (Pipeline.arrRef spec9 1))
    (hafter : ∀ t, dat.after 1 t = iblk V c 1 t) (t : Fin cfg9.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S4096x128 := Rect.unit (s := S4096x128) ![0, 0] S4096x128.size inb_S4096x128_S4096x128_0_0
abbrev rB : Rect S1x1x4096 := Rect.unit (s := S1x1x4096) ![0, 0, 0] S1x1x4096.size inb_S1x1x4096_S1x1x4096_0_0_0
abbrev rC : Rect S1x64x4096 := Rect.unit (s := S1x64x4096) ![0, 0, 0] S1x64x4096.size inb_S1x64x4096_S1x64x4096_0_0_0

/-- The output block after the body: its one store, over the two loaded inputs. -/
def outBlk (x0 : Vec F S4096x128 .f32) (x1 : Vec F S1x1x4096 .i32) : Vec F S1x64x4096 .f32 :=
  View.canon [⟨rC, k9_pay1 (View.ld x0 rA) (View.ld x1 rB)⟩]

theorem coverC (p0 : Vec F S1x64x4096 .f32) (y : S1x64x4096.Idx) :
    ∃ pc ∈ ([⟨rC, p0⟩] : List (View.Piece (Elt F) S1x64x4096 .f32)), y ∈ pc.1.set :=
  View.cover_of_tiled [⟨rC, p0⟩] S1x64x4096.size (by rfl) y

set_option maxHeartbeats 1000000 in
theorem sound_kernel (c : Dev nD) (E : Set ℕ) (i : grid9.Coords) (arg0 : Memref sig .tc .hbm S50x64x4096 .f32) (harg0 : arg0.IsWhole) (arg1 : Memref sig .tc .vmem S4096x128 .f32) (harg1 : arg1.IsWhole) (arg2 : Memref sig .tc .vmem S1x1x4096 .i32) (harg2 : arg2.IsWhole) (arg3 : Memref sig .tc .vmem S1x64x4096 .f32) (harg3 : arg3.IsWhole)
    (x0 : Vec F S4096x128 .f32) (x1 : Vec F S1x1x4096 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc9__tail_next_kernel i arg0 harg0 arg1 harg1 arg2 harg2 arg3 harg3) K := by
  simp only [cc9__tail_next_kernel_eq_skeleton]; unfold cc9__tail_next_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _)

/-- The call's invariant between points: the TensorCore's scoped buffers that are no staging buffer of the call. -/
abbrev ΦR (c : Dev nD) : sProp 𝕄 := Pipeline.scopedRest (Ix := HIx 5) (Name := ℕ) (U := UU) (Lvl := ℕ) (Val := Elt F) spec9 c

/-- The proof data of the call on core `c`: the arrays as the region finds them; after the body at point `t` each
    input's buffer at its block and the output's at the block computed from them; nothing owed; full shares. -/
def dat (c : Dev nD) : Dat τ (Elt F) (HIx 5) ℕ UU ℕ cfg9 c where
  A w := V c (Pipeline.arrRef spec9 w)
  after w t := match w with
    | ⟨0, _⟩ => iblk V c 0 t
    | ⟨1, _⟩ => iblk V c 1 t
    | ⟨2, _⟩ => outBlk (iblk V c 0 t) (iblk V c 1 t)
  Φ _ := ΦR c
  q _ := fullShare
  owed _ := 0

theorem A_eq (c : Dev nD) (w : Fin cfg9.W) : (dat V c).A w = V c (Pipeline.arrRef spec9 w) := by
  dsimp only [dat]
theorem after_0 (c : Dev nD) (t : Fin cfg9.N) : (dat V c).after 0 t = iblk V c 0 t := by dsimp only [dat]
theorem after_1 (c : Dev nD) (t : Fin cfg9.N) : (dat V c).after 1 t = iblk V c 1 t := by dsimp only [dat]
theorem after_2 (c : Dev nD) (t : Fin cfg9.N) : (dat V c).after 2 t = outBlk (iblk V c 0 t) (iblk V c 1 t) := by dsimp only [dat]
theorem before_0 (c : Dev nD) (t : Fin cfg9.N) (d) : (dat V c).before 0 t d = iblk V c 0 t :=
  before_0_of V (dat V c) (A_eq V c 0) (after_0 V c) t d
theorem before_1 (c : Dev nD) (t : Fin cfg9.N) (d) : (dat V c).before 1 t d = iblk V c 1 t :=
  before_1_of V (dat V c) (A_eq V c 1) (after_1 V c) t d

def bodyPre (c : Dev nD) (t : Fin cfg9.N) : sProp 𝕄 :=
  iprop((dat V c).Φ t.castSucc ∗ (dat V c).owesAt (none : HIx 5) t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d)))
def bodyPost (c : Dev nD) (t : Fin cfg9.N) : sProp 𝕄 :=
  iprop((dat V c).Φ t.succ ∗ (dat V c).owesAt (none : HIx 5) t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t))

theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1]
  rw [show (dat V c).Φ t.succ = (dat V c).Φ t.castSucc from rfl,
    show (dat V c).owesAt (none : HIx 5) t.succ = (dat V c).owesAt (none : HIx 5) t.castSucc from rfl,
    after_0, after_1, after_2]
  iintro ⟨HΦ, Ho, ⟨%d0, H0⟩, ⟨%d1, H1⟩, ⟨%d2, H2⟩⟩
  iapply (sound_kernel c Set.univ (grid9.coords t) _ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none (none : HIx 5) Set.univ := fun t => by
  rw [bigSep_W9, bigSep_W9]
  exact sound_body V c t

end Cert.Proof.KB.R9

end
-- ==== Proof.KBTail.lean ====
/-
  The TensorCore's part after the five gather calls: five transposing calls, each staged point by point, with
  the reshapes of the row numbers and the copies of the growing result between them, and the final transpose.
  The buffers' contents are folded through the segments; every call leaves its inputs as it found them.
-/
import proofs.«205068_g58248346468665_cont_9to1c4b_383_29_alg».proof.Proof.KBR5
import proofs.«205068_g58248346468665_cont_9to1c4b_383_29_alg».proof.Proof.KBR6
import proofs.«205068_g58248346468665_cont_9to1c4b_383_29_alg».proof.Proof.KBR7
import proofs.«205068_g58248346468665_cont_9to1c4b_383_29_alg».proof.Proof.KBR8
import proofs.«205068_g58248346468665_cont_9to1c4b_383_29_alg».proof.Proof.KBR9
import Idealize.ShloMosaic.Lib.Pipeline.RegionsLoop
import Idealize.ShloMosaic.Lib.Pipeline.FrameSuffix

set_option maxRecDepth 16384

noncomputable section

namespace Cert.Proof.KB.Tail

open Cert.Kernel Cert.Kernel.Gen Cert.Proof.KB

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 5) (Elt F) ℕ UU ℕ

/-! ## The host operations between the calls -/

abbrev hops0 : List (HloOp τ sig (Elt F)) := [StableHlo.reshape main_v2 main_v31 rfl shapeCasts_S10x4096_S10x1x4096]
abbrev hops1 : List (HloOp τ sig (Elt F)) := [StableHlo.reshape main_v8 main_v33 rfl shapeCasts_S10x4096_S10x1x4096, StableHlo.unary main_v32 main_v34 id]
abbrev hops2 : List (HloOp τ sig (Elt F)) := [StableHlo.reshape main_v14 main_v35 rfl shapeCasts_S10x4096_S10x1x4096, StableHlo.unary main_v34 main_v36 id]
abbrev hops3 : List (HloOp τ sig (Elt F)) := [StableHlo.reshape main_v20 main_v37 rfl shapeCasts_S10x4096_S10x1x4096, StableHlo.unary main_v36 main_v38 id]
abbrev hops4 : List (HloOp τ sig (Elt F)) := [StableHlo.reshape main_v26 main_v39 rfl shapeCasts_S10x4096_S10x1x4096, StableHlo.unary main_v38 main_v40 id]
abbrev hops5 : List (HloOp τ sig (Elt F)) :=
  [StableHlo.unary main_v40 main_v41 ((transpose S4096x50x64 [2, 0, 1] · transposes_S50x64x4096_S4096x50x64_2_0_1) : (⟨S50x64x4096, .f32⟩ : BufTy).Contents (Elt F) → (⟨S4096x50x64, .f32⟩ : BufTy).Contents (Elt F))]

theorem hops0_sub : (hops0 : List (HloOp τ sig (Elt F))).Forall fun op => op.bufs ⊆ StableHlo.tcRefs τ sig := by simp [List.Forall]
theorem hops1_sub : (hops1 : List (HloOp τ sig (Elt F))).Forall fun op => op.bufs ⊆ StableHlo.tcRefs τ sig := by simp [List.Forall]
theorem hops2_sub : (hops2 : List (HloOp τ sig (Elt F))).Forall fun op => op.bufs ⊆ StableHlo.tcRefs τ sig := by simp [List.Forall]
theorem hops3_sub : (hops3 : List (HloOp τ sig (Elt F))).Forall fun op => op.bufs ⊆ StableHlo.tcRefs τ sig := by simp [List.Forall]
theorem hops4_sub : (hops4 : List (HloOp τ sig (Elt F))).Forall fun op => op.bufs ⊆ StableHlo.tcRefs τ sig := by simp [List.Forall]
theorem hops5_sub : (hops5 : List (HloOp τ sig (Elt F))).Forall fun op => op.bufs ⊆ StableHlo.tcRefs τ sig := by simp [List.Forall]
theorem hops0_fresh : (hops0 : List (HloOp τ sig (Elt F))).Forall fun op => op.fresh = ∅ := by simp only [List.Forall]; repeat' constructor
theorem hops1_fresh : (hops1 : List (HloOp τ sig (Elt F))).Forall fun op => op.fresh = ∅ := by simp only [List.Forall]; repeat' constructor
theorem hops2_fresh : (hops2 : List (HloOp τ sig (Elt F))).Forall fun op => op.fresh = ∅ := by simp only [List.Forall]; repeat' constructor
theorem hops3_fresh : (hops3 : List (HloOp τ sig (Elt F))).Forall fun op => op.fresh = ∅ := by simp only [List.Forall]; repeat' constructor
theorem hops4_fresh : (hops4 : List (HloOp τ sig (Elt F))).Forall fun op => op.fresh = ∅ := by simp only [List.Forall]; repeat' constructor
theorem hops5_fresh : (hops5 : List (HloOp τ sig (Elt F))).Forall fun op => op.fresh = ∅ := by simp only [List.Forall]; repeat' constructor

/-! ## The buffers' contents at each segment boundary -/

-- the TensorCore's buffers when the last gather call has returned
variable (Wt : Dev nD → Valuation τ sig (Elt F))

abbrev W0 : Dev nD → Valuation τ sig (Elt F) := Wt

/-- After the host operations before transposing call 0 (its entry). -/
abbrev W1 : Dev nD → Valuation τ sig (Elt F) := fun c => StableHlo.after hops0 (W0 Wt c)
abbrev V1 : (c : Dev nD) → (b : Ref sig .tc) → Buf (Elt F) ((c : Thread nD τ).loc b) := fun c b => W1 Wt c b
/-- At its exit: its arrays at what the pipeline leaves, every other buffer as entered. -/
def W2 (c : Dev nD) : Valuation τ sig (Elt F) :=
  Pipeline.withArrays spec5 c (W1 Wt c) fun w => (R5.dat (V1 Wt) c).arrAt w cfg5.N
theorem W2_arr (c : Dev nD) (w : Fin cfg5.W) :
    W2 Wt c (Proc.devRef .tc (Pipeline.arrRef spec5 w)) = (R5.dat (V1 Wt) c).arrAt w cfg5.N := by
  unfold W2; exact Pipeline.withArrays_arr spec5 launch5.win.arr_inj c _ _ w
theorem W2_of_ne (c : Dev nD) (b : Ref sig .tc) (hb : ∀ w, Pipeline.arrRef spec5 w ≠ b) :
    W2 Wt c (Proc.devRef .tc b) = W1 Wt c (Proc.devRef .tc b) := by
  unfold W2; exact Pipeline.withArrays_of_ne spec5 c _ _ b hb
abbrev V2 : (c : Dev nD) → (b : Ref sig .tc) → Buf (Elt F) ((c : Thread nD τ).loc b) := fun c b => W2 Wt c b
theorem hF0 (c : Dev nD) (w : Fin cfg5.W) : (R5.dat (V1 Wt) c).arrAt w cfg5.N = V2 Wt c (Pipeline.arrRef spec5 w) :=
  (W2_arr Wt c w).symm
theorem hrest0 (c : Dev nD) : ∀ b, b ∉ Finset.univ.image (Pipeline.arrRef spec5) → V2 Wt c b = V1 Wt c b :=
  fun b hb => W2_of_ne Wt c b fun w e => hb (Finset.mem_image.mpr ⟨w, Finset.mem_univ _, e⟩)

/-- After the host operations before transposing call 1 (its entry). -/
abbrev W3 : Dev nD → Valuation τ sig (Elt F) := fun c => StableHlo.after hops1 (W2 Wt c)
abbrev V3 : (c : Dev nD) → (b : Ref sig .tc) → Buf (Elt F) ((c : Thread nD τ).loc b) := fun c b => W3 Wt c b
/-- At its exit: its arrays at what the pipeline leaves, every other buffer as entered. -/
def W4 (c : Dev nD) : Valuation τ sig (Elt F) :=
  Pipeline.withArrays spec6 c (W3 Wt c) fun w => (R6.dat (V3 Wt) c).arrAt w cfg6.N
theorem W4_arr (c : Dev nD) (w : Fin cfg6.W) :
    W4 Wt c (Proc.devRef .tc (Pipeline.arrRef spec6 w)) = (R6.dat (V3 Wt) c).arrAt w cfg6.N := by
  unfold W4; exact Pipeline.withArrays_arr spec6 launch6.win.arr_inj c _ _ w
theorem W4_of_ne (c : Dev nD) (b : Ref sig .tc) (hb : ∀ w, Pipeline.arrRef spec6 w ≠ b) :
    W4 Wt c (Proc.devRef .tc b) = W3 Wt c (Proc.devRef .tc b) := by
  unfold W4; exact Pipeline.withArrays_of_ne spec6 c _ _ b hb
abbrev V4 : (c : Dev nD) → (b : Ref sig .tc) → Buf (Elt F) ((c : Thread nD τ).loc b) := fun c b => W4 Wt c b
theorem hF1 (c : Dev nD) (w : Fin cfg6.W) : (R6.dat (V3 Wt) c).arrAt w cfg6.N = V4 Wt c (Pipeline.arrRef spec6 w) :=
  (W4_arr Wt c w).symm
theorem hrest1 (c : Dev nD) : ∀ b, b ∉ Finset.univ.image (Pipeline.arrRef spec6) → V4 Wt c b = V3 Wt c b :=
  fun b hb => W4_of_ne Wt c b fun w e => hb (Finset.mem_image.mpr ⟨w, Finset.mem_univ _, e⟩)

/-- After the host operations before transposing call 2 (its entry). -/
abbrev W5 : Dev nD → Valuation τ sig (Elt F) := fun c => StableHlo.after hops2 (W4 Wt c)
abbrev V5 : (c : Dev nD) → (b : Ref sig .tc) → Buf (Elt F) ((c : Thread nD τ).loc b) := fun c b => W5 Wt c b
/-- At its exit: its arrays at what the pipeline leaves, every other buffer as entered. -/
def W6 (c : Dev nD) : Valuation τ sig (Elt F) :=
  Pipeline.withArrays spec7 c (W5 Wt c) fun w => (R7.dat (V5 Wt) c).arrAt w cfg7.N
theorem W6_arr (c : Dev nD) (w : Fin cfg7.W) :
    W6 Wt c (Proc.devRef .tc (Pipeline.arrRef spec7 w)) = (R7.dat (V5 Wt) c).arrAt w cfg7.N := by
  unfold W6; exact Pipeline.withArrays_arr spec7 launch7.win.arr_inj c _ _ w
theorem W6_of_ne (c : Dev nD) (b : Ref sig .tc) (hb : ∀ w, Pipeline.arrRef spec7 w ≠ b) :
    W6 Wt c (Proc.devRef .tc b) = W5 Wt c (Proc.devRef .tc b) := by
  unfold W6; exact Pipeline.withArrays_of_ne spec7 c _ _ b hb
abbrev V6 : (c : Dev nD) → (b : Ref sig .tc) → Buf (Elt F) ((c : Thread nD τ).loc b) := fun c b => W6 Wt c b
theorem hF2 (c : Dev nD) (w : Fin cfg7.W) : (R7.dat (V5 Wt) c).arrAt w cfg7.N = V6 Wt c (Pipeline.arrRef spec7 w) :=
  (W6_arr Wt c w).symm
theorem hrest2 (c : Dev nD) : ∀ b, b ∉ Finset.univ.image (Pipeline.arrRef spec7) → V6 Wt c b = V5 Wt c b :=
  fun b hb => W6_of_ne Wt c b fun w e => hb (Finset.mem_image.mpr ⟨w, Finset.mem_univ _, e⟩)

/-- After the host operations before transposing call 3 (its entry). -/
abbrev W7 : Dev nD → Valuation τ sig (Elt F) := fun c => StableHlo.after hops3 (W6 Wt c)
abbrev V7 : (c : Dev nD) → (b : Ref sig .tc) → Buf (Elt F) ((c : Thread nD τ).loc b) := fun c b => W7 Wt c b
/-- At its exit: its arrays at what the pipeline leaves, every other buffer as entered. -/
def W8 (c : Dev nD) : Valuation τ sig (Elt F) :=
  Pipeline.withArrays spec8 c (W7 Wt c) fun w => (R8.dat (V7 Wt) c).arrAt w cfg8.N
theorem W8_arr (c : Dev nD) (w : Fin cfg8.W) :
    W8 Wt c (Proc.devRef .tc (Pipeline.arrRef spec8 w)) = (R8.dat (V7 Wt) c).arrAt w cfg8.N := by
  unfold W8; exact Pipeline.withArrays_arr spec8 launch8.win.arr_inj c _ _ w
theorem W8_of_ne (c : Dev nD) (b : Ref sig .tc) (hb : ∀ w, Pipeline.arrRef spec8 w ≠ b) :
    W8 Wt c (Proc.devRef .tc b) = W7 Wt c (Proc.devRef .tc b) := by
  unfold W8; exact Pipeline.withArrays_of_ne spec8 c _ _ b hb
abbrev V8 : (c : Dev nD) → (b : Ref sig .tc) → Buf (Elt F) ((c : Thread nD τ).loc b) := fun c b => W8 Wt c b
theorem hF3 (c : Dev nD) (w : Fin cfg8.W) : (R8.dat (V7 Wt) c).arrAt w cfg8.N = V8 Wt c (Pipeline.arrRef spec8 w) :=
  (W8_arr Wt c w).symm
theorem hrest3 (c : Dev nD) : ∀ b, b ∉ Finset.univ.image (Pipeline.arrRef spec8) → V8 Wt c b = V7 Wt c b :=
  fun b hb => W8_of_ne Wt c b fun w e => hb (Finset.mem_image.mpr ⟨w, Finset.mem_univ _, e⟩)

/-- After the host operations before transposing call 4 (its entry). -/
abbrev W9 : Dev nD → Valuation τ sig (Elt F) := fun c => StableHlo.after hops4 (W8 Wt c)
abbrev V9 : (c : Dev nD) → (b : Ref sig .tc) → Buf (Elt F) ((c : Thread nD τ).loc b) := fun c b => W9 Wt c b
/-- At its exit: its arrays at what the pipeline leaves, every other buffer as entered. -/
def W10 (c : Dev nD) : Valuation τ sig (Elt F) :=
  Pipeline.withArrays spec9 c (W9 Wt c) fun w => (R9.dat (V9 Wt) c).arrAt w cfg9.N
theorem W10_arr (c : Dev nD) (w : Fin cfg9.W) :
    W10 Wt c (Proc.devRef .tc (Pipeline.arrRef spec9 w)) = (R9.dat (V9 Wt) c).arrAt w cfg9.N := by
  unfold W10; exact Pipeline.withArrays_arr spec9 launch9.win.arr_inj c _ _ w
theorem W10_of_ne (c : Dev nD) (b : Ref sig .tc) (hb : ∀ w, Pipeline.arrRef spec9 w ≠ b) :
    W10 Wt c (Proc.devRef .tc b) = W9 Wt c (Proc.devRef .tc b) := by
  unfold W10; exact Pipeline.withArrays_of_ne spec9 c _ _ b hb
abbrev V10 : (c : Dev nD) → (b : Ref sig .tc) → Buf (Elt F) ((c : Thread nD τ).loc b) := fun c b => W10 Wt c b
theorem hF4 (c : Dev nD) (w : Fin cfg9.W) : (R9.dat (V9 Wt) c).arrAt w cfg9.N = V10 Wt c (Pipeline.arrRef spec9 w) :=
  (W10_arr Wt c w).symm
theorem hrest4 (c : Dev nD) : ∀ b, b ∉ Finset.univ.image (Pipeline.arrRef spec9) → V10 Wt c b = V9 Wt c b :=
  fun b hb => W10_of_ne Wt c b fun w e => hb (Finset.mem_image.mpr ⟨w, Finset.mem_univ _, e⟩)

/-- After the final transpose. -/
abbrev W11 : Dev nD → Valuation τ sig (Elt F) := fun c => StableHlo.after hops5 (W10 Wt c)

/-! ## The proof data family and the thread state -/

abbrev adm : (p : Fin 5) → (pcfgs (F := F) p).Adm := fun p => (cfgs p).toPCfg_adm
def pdats : (p : Fin 5) → (c : Dev nD) → Dat τ (Elt F) (HIx 5) ℕ UU ℕ (Pipeline.pin (pcfgs (F := F)) adm p) c
  | ⟨0, _⟩ => fun c => R5.dat (V1 Wt) c
  | ⟨1, _⟩ => fun c => R6.dat (V3 Wt) c
  | ⟨2, _⟩ => fun c => R7.dat (V5 Wt) c
  | ⟨3, _⟩ => fun c => R8.dat (V7 Wt) c
  | ⟨4, _⟩ => fun c => R9.dat (V9 Wt) c
abbrev 𝒱₀ : Variants := Variants.none
abbrev L : GSem nD τ sig → Finset (HIx 5) := (K (F := F)).L
abbrev lv : GSem nD τ sig → HIx 5 → ℕ := (K (F := F)).lev
/-- What rides beside the buffers through every segment: the TensorCore owing nothing. -/
abbrev Rs (c : Dev nD) : sProp 𝕄 := iprop(∃ W, owes (c : Thread nD τ) (0 : CellTallies nD τ sig (HIx 5)) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (L (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rs

/-! ## The calls as segments -/

set_option backward.isDefEq.respectTransparency.types false in
/-- Transposing call 0 over the thread state: entered from every unscoped buffer at `W1`, left at `W2`; its
    arrays split out of the unscoped buffers and put back at the exit contents; nothing owed; no semaphore of its own. -/
def reg0 : Pipeline.RegionSeg (pcfgs (F := F)) adm (pdats Wt) (none : HIx 5) defs₀ 𝒱₀ (L (F := F)) (lv (F := F)) 0 where
  win := launch5.win.to₀
  block_pos := launch5.block_pos
  stage_whole := launch5.stage_whole
  K := PEmpty
  osem k := k.elim
  ho := Pipeline.OwnSemFacts.none _
  hbody c := (R5.body_obligation (V1 Wt) c).loose
  hwaits := Pipeline.hwaits_of_owed_zero _ _ _ _ (L (F := F)) (lv (F := F)) 0 fun _ _ => rfl
  pre c := iprop(StableHlo.held (c : Thread nD τ) (Pipeline.ucRefs τ sig) (W1 Wt c) ∗ Rs c)
  post c := iprop(StableHlo.held (c : Thread nD τ) (Pipeline.ucRefs τ sig) (W2 Wt c) ∗ Rs c)
  X c := iprop(emp)
  Y c := iprop(emp)
  Z c := Pipeline.unscopedRest (Ix := HIx 5) (Name := ℕ) (U := UU) (Lvl := ℕ) spec5 c (V1 Wt c)
  hentry c := by
    rw [Pipeline.ownSems0_none]
    have hsplit := Pipeline.arrays_of_unscopedBufs (p := 0) (pcfgs (F := F)) adm (pdats Wt) launch5.win launch5.arr_whole c
      ((pdats Wt 0 c).share_full fun _ => rfl) (V1 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 0 c).Φ 0 = R5.ΦR c from rfl]
    iintro ⟨-, -, Hr⟩
    iexact Hr
  hout c := by
    rw [Pipeline.ownSems0_none, show (pdats Wt 0 c).Φ (Fin.last _) = R5.ΦR c from rfl]
    iintro Hr
    isplitr; · iempintro
    isplitr; · iempintro
    iexact Hr
  hexit c := by
    have hjoin := Pipeline.unscopedBufs_of_arrays (p := 0) (pcfgs (F := F)) adm (Ix := HIx 5) (Name := ℕ) (U := UU) (Lvl := ℕ)
      launch5.win launch5.arr_whole c (pdats Wt) ((pdats Wt 0 c).share_full fun _ => rfl)
      (V1 Wt c) (V2 Wt c) ((pdats Wt 0 c).arrAt · cfg5.N) (hF0 Wt c) (hrest0 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 1 over the thread state: entered from every unscoped buffer at `W3`, left at `W4`; its
    arrays split out of the unscoped buffers and put back at the exit contents; nothing owed; no semaphore of its own. -/
def reg1 : Pipeline.RegionSeg (pcfgs (F := F)) adm (pdats Wt) (none : HIx 5) defs₀ 𝒱₀ (L (F := F)) (lv (F := F)) 1 where
  win := launch6.win.to₀
  block_pos := launch6.block_pos
  stage_whole := launch6.stage_whole
  K := PEmpty
  osem k := k.elim
  ho := Pipeline.OwnSemFacts.none _
  hbody c := (R6.body_obligation (V3 Wt) c).loose
  hwaits := Pipeline.hwaits_of_owed_zero _ _ _ _ (L (F := F)) (lv (F := F)) 1 fun _ _ => rfl
  pre c := iprop(StableHlo.held (c : Thread nD τ) (Pipeline.ucRefs τ sig) (W3 Wt c) ∗ Rs c)
  post c := iprop(StableHlo.held (c : Thread nD τ) (Pipeline.ucRefs τ sig) (W4 Wt c) ∗ Rs c)
  X c := iprop(emp)
  Y c := iprop(emp)
  Z c := Pipeline.unscopedRest (Ix := HIx 5) (Name := ℕ) (U := UU) (Lvl := ℕ) spec6 c (V3 Wt c)
  hentry c := by
    rw [Pipeline.ownSems0_none]
    have hsplit := Pipeline.arrays_of_unscopedBufs (p := 1) (pcfgs (F := F)) adm (pdats Wt) launch6.win launch6.arr_whole c
      ((pdats Wt 1 c).share_full fun _ => rfl) (V3 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 1 c).Φ 0 = R6.ΦR c from rfl]
    iintro ⟨-, -, Hr⟩
    iexact Hr
  hout c := by
    rw [Pipeline.ownSems0_none, show (pdats Wt 1 c).Φ (Fin.last _) = R6.ΦR c from rfl]
    iintro Hr
    isplitr; · iempintro
    isplitr; · iempintro
    iexact Hr
  hexit c := by
    have hjoin := Pipeline.unscopedBufs_of_arrays (p := 1) (pcfgs (F := F)) adm (Ix := HIx 5) (Name := ℕ) (U := UU) (Lvl := ℕ)
      launch6.win launch6.arr_whole c (pdats Wt) ((pdats Wt 1 c).share_full fun _ => rfl)
      (V3 Wt c) (V4 Wt c) ((pdats Wt 1 c).arrAt · cfg6.N) (hF1 Wt c) (hrest1 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 2 over the thread state: entered from every unscoped buffer at `W5`, left at `W6`; its
    arrays split out of the unscoped buffers and put back at the exit contents; nothing owed; no semaphore of its own. -/
def reg2 : Pipeline.RegionSeg (pcfgs (F := F)) adm (pdats Wt) (none : HIx 5) defs₀ 𝒱₀ (L (F := F)) (lv (F := F)) 2 where
  win := launch7.win.to₀
  block_pos := launch7.block_pos
  stage_whole := launch7.stage_whole
  K := PEmpty
  osem k := k.elim
  ho := Pipeline.OwnSemFacts.none _
  hbody c := (R7.body_obligation (V5 Wt) c).loose
  hwaits := Pipeline.hwaits_of_owed_zero _ _ _ _ (L (F := F)) (lv (F := F)) 2 fun _ _ => rfl
  pre c := iprop(StableHlo.held (c : Thread nD τ) (Pipeline.ucRefs τ sig) (W5 Wt c) ∗ Rs c)
  post c := iprop(StableHlo.held (c : Thread nD τ) (Pipeline.ucRefs τ sig) (W6 Wt c) ∗ Rs c)
  X c := iprop(emp)
  Y c := iprop(emp)
  Z c := Pipeline.unscopedRest (Ix := HIx 5) (Name := ℕ) (U := UU) (Lvl := ℕ) spec7 c (V5 Wt c)
  hentry c := by
    rw [Pipeline.ownSems0_none]
    have hsplit := Pipeline.arrays_of_unscopedBufs (p := 2) (pcfgs (F := F)) adm (pdats Wt) launch7.win launch7.arr_whole c
      ((pdats Wt 2 c).share_full fun _ => rfl) (V5 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 2 c).Φ 0 = R7.ΦR c from rfl]
    iintro ⟨-, -, Hr⟩
    iexact Hr
  hout c := by
    rw [Pipeline.ownSems0_none, show (pdats Wt 2 c).Φ (Fin.last _) = R7.ΦR c from rfl]
    iintro Hr
    isplitr; · iempintro
    isplitr; · iempintro
    iexact Hr
  hexit c := by
    have hjoin := Pipeline.unscopedBufs_of_arrays (p := 2) (pcfgs (F := F)) adm (Ix := HIx 5) (Name := ℕ) (U := UU) (Lvl := ℕ)
      launch7.win launch7.arr_whole c (pdats Wt) ((pdats Wt 2 c).share_full fun _ => rfl)
      (V5 Wt c) (V6 Wt c) ((pdats Wt 2 c).arrAt · cfg7.N) (hF2 Wt c) (hrest2 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 3 over the thread state: entered from every unscoped buffer at `W7`, left at `W8`; its
    arrays split out of the unscoped buffers and put back at the exit contents; nothing owed; no semaphore of its own. -/
def reg3 : Pipeline.RegionSeg (pcfgs (F := F)) adm (pdats Wt) (none : HIx 5) defs₀ 𝒱₀ (L (F := F)) (lv (F := F)) 3 where
  win := launch8.win.to₀
  block_pos := launch8.block_pos
  stage_whole := launch8.stage_whole
  K := PEmpty
  osem k := k.elim
  ho := Pipeline.OwnSemFacts.none _
  hbody c := (R8.body_obligation (V7 Wt) c).loose
  hwaits := Pipeline.hwaits_of_owed_zero _ _ _ _ (L (F := F)) (lv (F := F)) 3 fun _ _ => rfl
  pre c := iprop(StableHlo.held (c : Thread nD τ) (Pipeline.ucRefs τ sig) (W7 Wt c) ∗ Rs c)
  post c := iprop(StableHlo.held (c : Thread nD τ) (Pipeline.ucRefs τ sig) (W8 Wt c) ∗ Rs c)
  X c := iprop(emp)
  Y c := iprop(emp)
  Z c := Pipeline.unscopedRest (Ix := HIx 5) (Name := ℕ) (U := UU) (Lvl := ℕ) spec8 c (V7 Wt c)
  hentry c := by
    rw [Pipeline.ownSems0_none]
    have hsplit := Pipeline.arrays_of_unscopedBufs (p := 3) (pcfgs (F := F)) adm (pdats Wt) launch8.win launch8.arr_whole c
      ((pdats Wt 3 c).share_full fun _ => rfl) (V7 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 3 c).Φ 0 = R8.ΦR c from rfl]
    iintro ⟨-, -, Hr⟩
    iexact Hr
  hout c := by
    rw [Pipeline.ownSems0_none, show (pdats Wt 3 c).Φ (Fin.last _) = R8.ΦR c from rfl]
    iintro Hr
    isplitr; · iempintro
    isplitr; · iempintro
    iexact Hr
  hexit c := by
    have hjoin := Pipeline.unscopedBufs_of_arrays (p := 3) (pcfgs (F := F)) adm (Ix := HIx 5) (Name := ℕ) (U := UU) (Lvl := ℕ)
      launch8.win launch8.arr_whole c (pdats Wt) ((pdats Wt 3 c).share_full fun _ => rfl)
      (V7 Wt c) (V8 Wt c) ((pdats Wt 3 c).arrAt · cfg8.N) (hF3 Wt c) (hrest3 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Transposing call 4 over the thread state: entered from every unscoped buffer at `W9`, left at `W10`; its
    arrays split out of the unscoped buffers and put back at the exit contents; nothing owed; no semaphore of its own. -/
def reg4 : Pipeline.RegionSeg (pcfgs (F := F)) adm (pdats Wt) (none : HIx 5) defs₀ 𝒱₀ (L (F := F)) (lv (F := F)) 4 where
  win := launch9.win.to₀
  block_pos := launch9.block_pos
  stage_whole := launch9.stage_whole
  K := PEmpty
  osem k := k.elim
  ho := Pipeline.OwnSemFacts.none _
  hbody c := (R9.body_obligation (V9 Wt) c).loose
  hwaits := Pipeline.hwaits_of_owed_zero _ _ _ _ (L (F := F)) (lv (F := F)) 4 fun _ _ => rfl
  pre c := iprop(StableHlo.held (c : Thread nD τ) (Pipeline.ucRefs τ sig) (W9 Wt c) ∗ Rs c)
  post c := iprop(StableHlo.held (c : Thread nD τ) (Pipeline.ucRefs τ sig) (W10 Wt c) ∗ Rs c)
  X c := iprop(emp)
  Y c := iprop(emp)
  Z c := Pipeline.unscopedRest (Ix := HIx 5) (Name := ℕ) (U := UU) (Lvl := ℕ) spec9 c (V9 Wt c)
  hentry c := by
    rw [Pipeline.ownSems0_none]
    have hsplit := Pipeline.arrays_of_unscopedBufs (p := 4) (pcfgs (F := F)) adm (pdats Wt) launch9.win launch9.arr_whole c
      ((pdats Wt 4 c).share_full fun _ => rfl) (V9 Wt c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Wt 4 c).Φ 0 = R9.ΦR c from rfl]
    iintro ⟨-, -, Hr⟩
    iexact Hr
  hout c := by
    rw [Pipeline.ownSems0_none, show (pdats Wt 4 c).Φ (Fin.last _) = R9.ΦR c from rfl]
    iintro Hr
    isplitr; · iempintro
    isplitr; · iempintro
    iexact Hr
  hexit c := by
    have hjoin := Pipeline.unscopedBufs_of_arrays (p := 4) (pcfgs (F := F)) adm (Ix := HIx 5) (Name := ℕ) (U := UU) (Lvl := ℕ)
      launch9.win launch9.arr_whole c (pdats Wt) ((pdats Wt 4 c).share_full fun _ => rfl)
      (V9 Wt c) (V10 Wt c) ((pdats Wt 4 c).arrAt · cfg9.N) (hF4 Wt c) (hrest4 Wt c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The segments in order, and their run -/

abbrev segs : List (Pipeline.Seg (pcfgs (F := F)) adm (pdats Wt) (none : HIx 5) defs₀ 𝒱₀ (L (F := F)) (lv (F := F))) :=
  [ .host (hseg hops0 hops0_sub hops0_fresh (W0 Wt)),
    .region (reg0 Wt),
    .host (hseg hops1 hops1_sub hops1_fresh (W2 Wt)),
    .region (reg1 Wt),
    .host (hseg hops2 hops2_sub hops2_fresh (W4 Wt)),
    .region (reg2 Wt),
    .host (hseg hops3 hops3_sub hops3_fresh (W6 Wt)),
    .region (reg3 Wt),
    .host (hseg hops4 hops4_sub hops4_fresh (W8 Wt)),
    .region (reg4 Wt),
    .host (hseg hops5 hops5_sub hops5_fresh (W10 Wt)) ]

/-- The thread state the segments start from and the one they end in. -/
abbrev Tin (c : Dev nD) : sProp 𝕄 := iprop(StableHlo.held (c : Thread nD τ) (Pipeline.ucRefs τ sig) (Wt c) ∗ Rs c)
abbrev Tout (c : Dev nD) : sProp 𝕄 := iprop(StableHlo.held (c : Thread nD τ) (Pipeline.ucRefs τ sig) (W11 Wt c) ∗ Rs c)

set_option backward.isDefEq.respectTransparency.types false in
theorem tail_wp [∀ e, Nonempty (Elt F e)] (c : Dev nD) {Q : PUnit → sProp 𝕄} :
    iprop((iprop(boundary (c.tc : Thread nD τ) ∗ Tout Wt c) -∗ Q ⟨⟩)
        ∗ boundary (c.tc : Thread nD τ) ∗ Tin Wt c ∗ levAts (L (F := F)) (lv (F := F)) ∗ Pipeline.ghostOn (pcfgs (F := F)) adm EP Finset.univ c)
      ⊢ wp frame (wpE (Pipeline.defs (pcfgs (F := F)) defs₀) (Variants.lift 𝒱₀) (c.tc : Thread nD τ) none) Set.univ (Pipeline.Seg.run (segs Wt)) Q :=
  Pipeline.wp_segs (pcfgs (F := F)) adm (pdats Wt) (none : HIx 5) cellOf_inj EP defs₀ 𝒱₀ (L (F := F)) (lv (F := F)) c (segs Wt) Finset.univ (Tin Wt) (Tout Wt)
    (by simp only [segs, Pipeline.Seg.pipes_host, Pipeline.Seg.pipes_region, Pipeline.Seg.pipes_nil]; decide)
    (fun _ _ => Finset.mem_univ _)
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩

end Cert.Proof.KB.Tail

end
-- ==== Proof.KBMain.lean ====
/-
  @main as a chain: its stretches of host operations, its five gather calls, and the segments of its last part.
-/
import proofs.«205068_g58248346468665_cont_9to1c4b_383_29_alg».proof.Proof.KBPay
import proofs.«205068_g58248346468665_cont_9to1c4b_383_29_alg».proof.Proof.KBTail

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 5) (Elt F) ℕ UU ℕ

/-! ## @main's host operations before each gather call -/

abbrev sops0 : List (HloOp τ sig (Elt F)) :=
  [
    StableHlo.reshape main_arg1 main_v0 rfl shapeCasts_S100000x64_S50000x128,
    StableHlo.unary main_arg0 main_v1 ((extractStridedSlice S4096x10 ![0, 0] · slices_S4096x50_S4096x10_0_0) : (⟨S4096x50, .i32⟩ : BufTy).Contents (Elt F) → (⟨S4096x10, .i32⟩ : BufTy).Contents (Elt F)),
    StableHlo.unary main_v1 main_v2 ((transpose S10x4096 [1, 0] · transposes_S4096x10_S10x4096_1_0) : (⟨S4096x10, .i32⟩ : BufTy).Contents (Elt F) → (⟨S10x4096, .i32⟩ : BufTy).Contents (Elt F)),
    StableHlo.nullary main_c (constantI S_ 32 1#32),
    StableHlo.unary main_c main_v3 (broadcastInDim S10x4096 ![] bcast_S_S10x4096 : (⟨S_, .i32⟩ : BufTy).Contents (Elt F) → (⟨S10x4096, .i32⟩ : BufTy).Contents (Elt F)),
    StableHlo.binary main_v2 main_v3 main_v4 (Host.shrsi : (⟨S10x4096, .i32⟩ : BufTy).Contents (Elt F) → (⟨S10x4096, .i32⟩ : BufTy).Contents (Elt F) → (⟨S10x4096, .i32⟩ : BufTy).Contents (Elt F)),
    StableHlo.reshape main_v4 main_v5 rfl shapeCasts_S10x4096_S32x10x128 ]

abbrev sops1 : List (HloOp τ sig (Elt F)) :=
  [
    StableHlo.unary main_arg0 main_v7 ((extractStridedSlice S4096x10 ![0, 10] · slices_S4096x50_S4096x10_0_10) : (⟨S4096x50, .i32⟩ : BufTy).Contents (Elt F) → (⟨S4096x10, .i32⟩ : BufTy).Contents (Elt F)),
    StableHlo.unary main_v7 main_v8 ((transpose S10x4096 [1, 0] · transposes_S4096x10_S10x4096_1_0) : (⟨S4096x10, .i32⟩ : BufTy).Contents (Elt F) → (⟨S10x4096, .i32⟩ : BufTy).Contents (Elt F)),
    StableHlo.nullary main_c_0 (constantI S_ 32 1#32),
    StableHlo.unary main_c_0 main_v9 (broadcastInDim S10x4096 ![] bcast_S_S10x4096 : (⟨S_, .i32⟩ : BufTy).Contents (Elt F) → (⟨S10x4096, .i32⟩ : BufTy).Contents (Elt F)),
    StableHlo.binary main_v8 main_v9 main_v10 (Host.shrsi : (⟨S10x4096, .i32⟩ : BufTy).Contents (Elt F) → (⟨S10x4096, .i32⟩ : BufTy).Contents (Elt F) → (⟨S10x4096, .i32⟩ : BufTy).Contents (Elt F)),
    StableHlo.reshape main_v10 main_v11 rfl shapeCasts_S10x4096_S32x10x128 ]

abbrev sops2 : List (HloOp τ sig (Elt F)) :=
  [
    StableHlo.unary main_arg0 main_v13 ((extractStridedSlice S4096x10 ![0, 20] · slices_S4096x50_S4096x10_0_20) : (⟨S4096x50, .i32⟩ : BufTy).Contents (Elt F) → (⟨S4096x10, .i32⟩ : BufTy).Contents (Elt F)),
    StableHlo.unary main_v13 main_v14 ((transpose S10x4096 [1, 0] · transposes_S4096x10_S10x4096_1_0) : (⟨S4096x10, .i32⟩ : BufTy).Contents (Elt F) → (⟨S10x4096, .i32⟩ : BufTy).Contents (Elt F)),
    StableHlo.nullary main_c_1 (constantI S_ 32 1#32),
    StableHlo.unary main_c_1 main_v15 (broadcastInDim S10x4096 ![] bcast_S_S10x4096 : (⟨S_, .i32⟩ : BufTy).Contents (Elt F) → (⟨S10x4096, .i32⟩ : BufTy).Contents (Elt F)),
    StableHlo.binary main_v14 main_v15 main_v16 (Host.shrsi : (⟨S10x4096, .i32⟩ : BufTy).Contents (Elt F) → (⟨S10x4096, .i32⟩ : BufTy).Contents (Elt F) → (⟨S10x4096, .i32⟩ : BufTy).Contents (Elt F)),
    StableHlo.reshape main_v16 main_v17 rfl shapeCasts_S10x4096_S32x10x128 ]

abbrev sops3 : List (HloOp τ sig (Elt F)) :=
  [
    StableHlo.unary main_arg0 main_v19 ((extractStridedSlice S4096x10 ![0, 30] · slices_S4096x50_S4096x10_0_30) : (⟨S4096x50, .i32⟩ : BufTy).Contents (Elt F) → (⟨S4096x10, .i32⟩ : BufTy).Contents (Elt F)),
    StableHlo.unary main_v19 main_v20 ((transpose S10x4096 [1, 0] · transposes_S4096x10_S10x4096_1_0) : (⟨S4096x10, .i32⟩ : BufTy).Contents (Elt F) → (⟨S10x4096, .i32⟩ : BufTy).Contents (Elt F)),
    StableHlo.nullary main_c_2 (constantI S_ 32 1#32),
    StableHlo.unary main_c_2 main_v21 (broadcastInDim S10x4096 ![] bcast_S_S10x4096 : (⟨S_, .i32⟩ : BufTy).Contents (Elt F) → (⟨S10x4096, .i32⟩ : BufTy).Contents (Elt F)),
    StableHlo.binary main_v20 main_v21 main_v22 (Host.shrsi : (⟨S10x4096, .i32⟩ : BufTy).Contents (Elt F) → (⟨S10x4096, .i32⟩ : BufTy).Contents (Elt F) → (⟨S10x4096, .i32⟩ : BufTy).Contents (Elt F)),
    StableHlo.reshape main_v22 main_v23 rfl shapeCasts_S10x4096_S32x10x128 ]

abbrev sops4 : List (HloOp τ sig (Elt F)) :=
  [
    StableHlo.unary main_arg0 main_v25 ((extractStridedSlice S4096x10 ![0, 40] · slices_S4096x50_S4096x10_0_40) : (⟨S4096x50, .i32⟩ : BufTy).Contents (Elt F) → (⟨S4096x10, .i32⟩ : BufTy).Contents (Elt F)),
    StableHlo.unary main_v25 main_v26 ((transpose S10x4096 [1, 0] · transposes_S4096x10_S10x4096_1_0) : (⟨S4096x10, .i32⟩ : BufTy).Contents (Elt F) → (⟨S10x4096, .i32⟩ : BufTy).Contents (Elt F)),
    StableHlo.nullary main_c_3 (constantI S_ 32 1#32),
    StableHlo.unary main_c_3 main_v27 (broadcastInDim S10x4096 ![] bcast_S_S10x4096 : (⟨S_, .i32⟩ : BufTy).Contents (Elt F) → (⟨S10x4096, .i32⟩ : BufTy).Contents (Elt F)),
    StableHlo.binary main_v26 main_v27 main_v28 (Host.shrsi : (⟨S10x4096, .i32⟩ : BufTy).Contents (Elt F) → (⟨S10x4096, .i32⟩ : BufTy).Contents (Elt F) → (⟨S10x4096, .i32⟩ : BufTy).Contents (Elt F)),
    StableHlo.reshape main_v28 main_v29 rfl shapeCasts_S10x4096_S32x10x128 ]

/-- @main's last part: the transposing calls with the host operations between them, and the final transpose. -/
def tailProg : Prog (TpuEff nD τ sig (Elt F) (Pipeline.Sig Λ₀ (Fin 5) fun p => (pcfgs (F := F) p).Adm) .tc) PUnit :=
  Pipeline.chain
    [ StableHlo.seq Tail.hops0, Prog.lift (.customCall (Pipeline.entry 0) ()),
      StableHlo.seq Tail.hops1, Prog.lift (.customCall (Pipeline.entry 1) ()),
      StableHlo.seq Tail.hops2, Prog.lift (.customCall (Pipeline.entry 2) ()),
      StableHlo.seq Tail.hops3, Prog.lift (.customCall (Pipeline.entry 3) ()),
      StableHlo.seq Tail.hops4, Prog.lift (.customCall (Pipeline.entry 4) ()),
      StableHlo.seq Tail.hops5 ]

/-- The segments' run is that program, whatever contents their proofs are stated at. -/
theorem tail_run (Wt : Dev nD → Valuation τ sig (Elt F)) : Pipeline.Seg.run (Tail.segs Wt) = tailProg (F := F) := by
  rw [Pipeline.Seg.run_eq_chain]
  rfl

/-- @main is its stretches of host operations, its five gather calls, and its last part. -/
theorem main_eq (d : Dev nD) :
    main (F := F) d = (Pipeline.chain
      [ StableHlo.seq sops0, (sc (F := F)).run d 0,
        StableHlo.seq sops1, (sc (F := F)).run d 1,
        StableHlo.seq sops2, (sc (F := F)).run d 2,
        StableHlo.seq sops3, (sc (F := F)).run d 3,
        StableHlo.seq sops4, (sc (F := F)).run d 4,
        SparseCore.liftProg (tailProg (F := F)) ] :
      Prog (TpuEff nD τ sig (Elt F) (SparseCore.Sig (Pipeline.Sig Λ₀ (Fin 5) fun p => (pcfgs (F := F) p).Adm) 5) .tc) PUnit) := by
  chain_rfl

end Cert.Proof.KB

end
-- ==== Proof.KBPre.lean ====
/-
  The row numbers the gather calls read, and why each names a row of the table. Before gather call q (q = 0 … 4)
  the host takes columns 10 q … 10 q + 9 of the index array x : i32[4096, 50], transposes them to [10, 4096],
  shifts every entry right by one (arithmetically), and lays the result out as [32, 10, 128]; before the first call it also
  lays the table [100000, 64] out as [50000, 128], two table rows to a row. Slicing, transposing and reshaping only move
  entries, so every entry of the array a call reads is `x[i] >> 1` for some position i of x. The precondition says every
  entry of x lies in [0, 99999] (read signed); such a word has its top bit clear, its arithmetic shift by one is its
  half, and the half is below 50000: a row of the [50000, 128] table. This module states the six operations' composition
  as one function (`idxOf`, `idxFn0` … `idxFn4`), reads it off the host operations' fold (`idx_after0` … `idx_after4`,
  `tbl_after`), bounds its entries (`idxOf_lt`, `idx_lt0` … `idx_lt4`) also as a subcore reads them through its block
  (`read_lt0` … `read_lt4`), and decodes the precondition into the range of x's entries (`x_range_of_pre`).
-/
import proofs.«205068_g58248346468665_cont_9to1c4b_383_29_alg».proof.Defs
import proofs.«205068_g58248346468665_cont_9to1c4b_383_29_alg».proof.Proof.KBT0
import proofs.«205068_g58248346468665_cont_9to1c4b_383_29_alg».proof.Proof.KBT1
import proofs.«205068_g58248346468665_cont_9to1c4b_383_29_alg».proof.Proof.KBT2
import proofs.«205068_g58248346468665_cont_9to1c4b_383_29_alg».proof.Proof.KBT3
import proofs.«205068_g58248346468665_cont_9to1c4b_383_29_alg».proof.Proof.KBT4
import proofs.«205068_g58248346468665_cont_9to1c4b_383_29_alg».proof.Proof.Gen.Pre_input_domain
import Idealize.ShloMosaic.Lib.ReduceAll
import Idealize.ShloMosaic.Lib.StableHlo.Run
import Idealize.ShloMosaic.Lib.ValueIdx

noncomputable section

namespace Cert.Proof.KB.Pre

open Cert.Kernel Cert.Kernel.Gen
open Idealize.ShloMosaic Idealize.SL.Sem

variable {F : FTy → Type} [FloatOps F]

/-! ## The host operations before each gather call -/

abbrev hostOps0 : List (HloOp τ sig (Elt F)) :=
  [
    StableHlo.reshape main_arg1 main_v0 rfl shapeCasts_S100000x64_S50000x128,
    StableHlo.unary main_arg0 main_v1 ((extractStridedSlice S4096x10 ![0, 0] · slices_S4096x50_S4096x10_0_0) : (⟨S4096x50, .i32⟩ : BufTy).Contents (Elt F) → (⟨S4096x10, .i32⟩ : BufTy).Contents (Elt F)),
    StableHlo.unary main_v1 main_v2 ((transpose S10x4096 [1, 0] · transposes_S4096x10_S10x4096_1_0) : (⟨S4096x10, .i32⟩ : BufTy).Contents (Elt F) → (⟨S10x4096, .i32⟩ : BufTy).Contents (Elt F)),
    StableHlo.nullary main_c (constantI S_ 32 1#32),
    StableHlo.unary main_c main_v3 (broadcastInDim S10x4096 ![] bcast_S_S10x4096 : (⟨S_, .i32⟩ : BufTy).Contents (Elt F) → (⟨S10x4096, .i32⟩ : BufTy).Contents (Elt F)),
    StableHlo.binary main_v2 main_v3 main_v4 (Host.shrsi : (⟨S10x4096, .i32⟩ : BufTy).Contents (Elt F) → (⟨S10x4096, .i32⟩ : BufTy).Contents (Elt F) → (⟨S10x4096, .i32⟩ : BufTy).Contents (Elt F)),
    StableHlo.reshape main_v4 main_v5 rfl shapeCasts_S10x4096_S32x10x128 ]

abbrev hostOps1 : List (HloOp τ sig (Elt F)) :=
  [
    StableHlo.unary main_arg0 main_v7 ((extractStridedSlice S4096x10 ![0, 10] · slices_S4096x50_S4096x10_0_10) : (⟨S4096x50, .i32⟩ : BufTy).Contents (Elt F) → (⟨S4096x10, .i32⟩ : BufTy).Contents (Elt F)),
    StableHlo.unary main_v7 main_v8 ((transpose S10x4096 [1, 0] · transposes_S4096x10_S10x4096_1_0) : (⟨S4096x10, .i32⟩ : BufTy).Contents (Elt F) → (⟨S10x4096, .i32⟩ : BufTy).Contents (Elt F)),
    StableHlo.nullary main_c_0 (constantI S_ 32 1#32),
    StableHlo.unary main_c_0 main_v9 (broadcastInDim S10x4096 ![] bcast_S_S10x4096 : (⟨S_, .i32⟩ : BufTy).Contents (Elt F) → (⟨S10x4096, .i32⟩ : BufTy).Contents (Elt F)),
    StableHlo.binary main_v8 main_v9 main_v10 (Host.shrsi : (⟨S10x4096, .i32⟩ : BufTy).Contents (Elt F) → (⟨S10x4096, .i32⟩ : BufTy).Contents (Elt F) → (⟨S10x4096, .i32⟩ : BufTy).Contents (Elt F)),
    StableHlo.reshape main_v10 main_v11 rfl shapeCasts_S10x4096_S32x10x128 ]

abbrev hostOps2 : List (HloOp τ sig (Elt F)) :=
  [
    StableHlo.unary main_arg0 main_v13 ((extractStridedSlice S4096x10 ![0, 20] · slices_S4096x50_S4096x10_0_20) : (⟨S4096x50, .i32⟩ : BufTy).Contents (Elt F) → (⟨S4096x10, .i32⟩ : BufTy).Contents (Elt F)),
    StableHlo.unary main_v13 main_v14 ((transpose S10x4096 [1, 0] · transposes_S4096x10_S10x4096_1_0) : (⟨S4096x10, .i32⟩ : BufTy).Contents (Elt F) → (⟨S10x4096, .i32⟩ : BufTy).Contents (Elt F)),
    StableHlo.nullary main_c_1 (constantI S_ 32 1#32),
    StableHlo.unary main_c_1 main_v15 (broadcastInDim S10x4096 ![] bcast_S_S10x4096 : (⟨S_, .i32⟩ : BufTy).Contents (Elt F) → (⟨S10x4096, .i32⟩ : BufTy).Contents (Elt F)),
    StableHlo.binary main_v14 main_v15 main_v16 (Host.shrsi : (⟨S10x4096, .i32⟩ : BufTy).Contents (Elt F) → (⟨S10x4096, .i32⟩ : BufTy).Contents (Elt F) → (⟨S10x4096, .i32⟩ : BufTy).Contents (Elt F)),
    StableHlo.reshape main_v16 main_v17 rfl shapeCasts_S10x4096_S32x10x128 ]

abbrev hostOps3 : List (HloOp τ sig (Elt F)) :=
  [
    StableHlo.unary main_arg0 main_v19 ((extractStridedSlice S4096x10 ![0, 30] · slices_S4096x50_S4096x10_0_30) : (⟨S4096x50, .i32⟩ : BufTy).Contents (Elt F) → (⟨S4096x10, .i32⟩ : BufTy).Contents (Elt F)),
    StableHlo.unary main_v19 main_v20 ((transpose S10x4096 [1, 0] · transposes_S4096x10_S10x4096_1_0) : (⟨S4096x10, .i32⟩ : BufTy).Contents (Elt F) → (⟨S10x4096, .i32⟩ : BufTy).Contents (Elt F)),
    StableHlo.nullary main_c_2 (constantI S_ 32 1#32),
    StableHlo.unary main_c_2 main_v21 (broadcastInDim S10x4096 ![] bcast_S_S10x4096 : (⟨S_, .i32⟩ : BufTy).Contents (Elt F) → (⟨S10x4096, .i32⟩ : BufTy).Contents (Elt F)),
    StableHlo.binary main_v20 main_v21 main_v22 (Host.shrsi : (⟨S10x4096, .i32⟩ : BufTy).Contents (Elt F) → (⟨S10x4096, .i32⟩ : BufTy).Contents (Elt F) → (⟨S10x4096, .i32⟩ : BufTy).Contents (Elt F)),
    StableHlo.reshape main_v22 main_v23 rfl shapeCasts_S10x4096_S32x10x128 ]

abbrev hostOps4 : List (HloOp τ sig (Elt F)) :=
  [
    StableHlo.unary main_arg0 main_v25 ((extractStridedSlice S4096x10 ![0, 40] · slices_S4096x50_S4096x10_0_40) : (⟨S4096x50, .i32⟩ : BufTy).Contents (Elt F) → (⟨S4096x10, .i32⟩ : BufTy).Contents (Elt F)),
    StableHlo.unary main_v25 main_v26 ((transpose S10x4096 [1, 0] · transposes_S4096x10_S10x4096_1_0) : (⟨S4096x10, .i32⟩ : BufTy).Contents (Elt F) → (⟨S10x4096, .i32⟩ : BufTy).Contents (Elt F)),
    StableHlo.nullary main_c_3 (constantI S_ 32 1#32),
    StableHlo.unary main_c_3 main_v27 (broadcastInDim S10x4096 ![] bcast_S_S10x4096 : (⟨S_, .i32⟩ : BufTy).Contents (Elt F) → (⟨S10x4096, .i32⟩ : BufTy).Contents (Elt F)),
    StableHlo.binary main_v26 main_v27 main_v28 (Host.shrsi : (⟨S10x4096, .i32⟩ : BufTy).Contents (Elt F) → (⟨S10x4096, .i32⟩ : BufTy).Contents (Elt F) → (⟨S10x4096, .i32⟩ : BufTy).Contents (Elt F)),
    StableHlo.reshape main_v28 main_v29 rfl shapeCasts_S10x4096_S32x10x128 ]

/-! ## Their composition as one function -/

/-- The row numbers a gather call reads, from the index array `x`: the ten columns from `off` on, transposed, every
    entry shifted right by one, laid out as [32, 10, 128]. -/
def idxOf (off : Nat) (h : S4096x50.Slices ![0, off] S4096x10) (x : (⟨S4096x50, .i32⟩ : BufTy).Contents (Elt F)) :
    (⟨S32x10x128, .i32⟩ : BufTy).Contents (Elt F) :=
  shapeCast S32x10x128
    (Host.shrsi (transpose S10x4096 [1, 0] (extractStridedSlice S4096x10 ![0, off] x h) transposes_S4096x10_S10x4096_1_0)
      (broadcastInDim S10x4096 ![] bcast_S_S10x4096 (constantI S_ 32 1#32)))
    shapeCasts_S10x4096_S32x10x128

/-- Call 0's row numbers: columns 0 … 9. -/
abbrev idxFn0 (x : (⟨S4096x50, .i32⟩ : BufTy).Contents (Elt F)) : (⟨S32x10x128, .i32⟩ : BufTy).Contents (Elt F) :=
  idxOf 0 slices_S4096x50_S4096x10_0_0 x
/-- Call 1's row numbers: columns 10 … 19. -/
abbrev idxFn1 (x : (⟨S4096x50, .i32⟩ : BufTy).Contents (Elt F)) : (⟨S32x10x128, .i32⟩ : BufTy).Contents (Elt F) :=
  idxOf 10 slices_S4096x50_S4096x10_0_10 x
/-- Call 2's row numbers: columns 20 … 29. -/
abbrev idxFn2 (x : (⟨S4096x50, .i32⟩ : BufTy).Contents (Elt F)) : (⟨S32x10x128, .i32⟩ : BufTy).Contents (Elt F) :=
  idxOf 20 slices_S4096x50_S4096x10_0_20 x
/-- Call 3's row numbers: columns 30 … 39. -/
abbrev idxFn3 (x : (⟨S4096x50, .i32⟩ : BufTy).Contents (Elt F)) : (⟨S32x10x128, .i32⟩ : BufTy).Contents (Elt F) :=
  idxOf 30 slices_S4096x50_S4096x10_0_30 x
/-- Call 4's row numbers: columns 40 … 49. -/
abbrev idxFn4 (x : (⟨S4096x50, .i32⟩ : BufTy).Contents (Elt F)) : (⟨S32x10x128, .i32⟩ : BufTy).Contents (Elt F) :=
  idxOf 40 slices_S4096x50_S4096x10_0_40 x

/-- The table as the gather calls read it: the same entries in row-major order, two rows to a row. -/
def tblFn (w : (⟨S100000x64, .f32⟩ : BufTy).Contents (Elt F)) : (⟨S50000x128, .f32⟩ : BufTy).Contents (Elt F) :=
  shapeCast S50000x128 w shapeCasts_S100000x64_S50000x128

/-! ## The fold of the host operations at the arrays a call reads -/

theorem idx_after0 (V : Valuation τ sig (Elt F)) :
    StableHlo.after hostOps0 V (Proc.devRef .tc main_v5) = idxFn0 (V (Proc.devRef .tc main_arg0)) := by
  after_results
  rfl

theorem idx_after1 (V : Valuation τ sig (Elt F)) :
    StableHlo.after hostOps1 V (Proc.devRef .tc main_v11) = idxFn1 (V (Proc.devRef .tc main_arg0)) := by
  after_results
  rfl

theorem idx_after2 (V : Valuation τ sig (Elt F)) :
    StableHlo.after hostOps2 V (Proc.devRef .tc main_v17) = idxFn2 (V (Proc.devRef .tc main_arg0)) := by
  after_results
  rfl

theorem idx_after3 (V : Valuation τ sig (Elt F)) :
    StableHlo.after hostOps3 V (Proc.devRef .tc main_v23) = idxFn3 (V (Proc.devRef .tc main_arg0)) := by
  after_results
  rfl

theorem idx_after4 (V : Valuation τ sig (Elt F)) :
    StableHlo.after hostOps4 V (Proc.devRef .tc main_v29) = idxFn4 (V (Proc.devRef .tc main_arg0)) := by
  after_results
  rfl

theorem tbl_after (V : Valuation τ sig (Elt F)) :
    StableHlo.after hostOps0 V (Proc.devRef .tc main_v0) = tblFn (V (Proc.devRef .tc main_arg1)) := by
  after_results
  rfl

/-! ## Every row number names a row of the table -/

/-- A word in [0, 99999] read signed has its top bit clear, so its arithmetic shift right by one is its half: below
    50000. -/
theorem shr_lt (u : ArithUnit) (w : BitVec 32) (h0 : 0 ≤ w.toInt) (h1 : w.toInt ≤ 99999) :
    (IntOp.shrsi u w 1#32).toNat < 50000 := by
  have hm : w.msb = false := by
    rw [BitVec.msb_eq_false_iff_two_mul_lt]; exact BitVec.toInt_pos_iff.mp h0
  have hn : w.toNat ≤ 99999 := by
    rw [BitVec.toInt_eq_toNat_of_msb hm] at h1; omega
  unfold IntOp.shrsi
  rw [if_pos (by decide)]
  show (w.sshiftRight (1#32).toNat).toNat < 50000
  rw [BitVec.sshiftRight_eq_of_msb_false hm, BitVec.toNat_ushiftRight]
  show w.toNat >>> 1 < 50000
  rw [Nat.shiftRight_eq_div_pow]; omega

/-- Every entry of a call's row numbers is the shift of ONE entry of `x` (the slice, the transpose and the reshape only
    move entries; the shift amount is the constant one everywhere), so it is below 50000 when `x`'s entries lie in
    [0, 99999]. -/
theorem idxOf_lt (off : Nat) (h : S4096x50.Slices ![0, off] S4096x10) (x : (⟨S4096x50, .i32⟩ : BufTy).Contents (Elt F))
    (hx : ∀ i, 0 ≤ (x i).toInt ∧ (x i).toInt ≤ 99999) (j : S32x10x128.Idx) : (idxOf off h x j).toNat < 50000 := by
  show (IntOp.shrsi .host (x _) 1#32).toNat < 50000
  exact shr_lt .host _ (hx _).1 (hx _).2

theorem idx_lt0 (x : (⟨S4096x50, .i32⟩ : BufTy).Contents (Elt F)) (hx : ∀ i, 0 ≤ (x i).toInt ∧ (x i).toInt ≤ 99999) :
    ∀ j, (idxFn0 x j).toNat < 50000 := idxOf_lt _ _ x hx
theorem idx_lt1 (x : (⟨S4096x50, .i32⟩ : BufTy).Contents (Elt F)) (hx : ∀ i, 0 ≤ (x i).toInt ∧ (x i).toInt ≤ 99999) :
    ∀ j, (idxFn1 x j).toNat < 50000 := idxOf_lt _ _ x hx
theorem idx_lt2 (x : (⟨S4096x50, .i32⟩ : BufTy).Contents (Elt F)) (hx : ∀ i, 0 ≤ (x i).toInt ∧ (x i).toInt ≤ 99999) :
    ∀ j, (idxFn2 x j).toNat < 50000 := idxOf_lt _ _ x hx
theorem idx_lt3 (x : (⟨S4096x50, .i32⟩ : BufTy).Contents (Elt F)) (hx : ∀ i, 0 ≤ (x i).toInt ∧ (x i).toInt ≤ 99999) :
    ∀ j, (idxFn3 x j).toNat < 50000 := idxOf_lt _ _ x hx
theorem idx_lt4 (x : (⟨S4096x50, .i32⟩ : BufTy).Contents (Elt F)) (hx : ∀ i, 0 ≤ (x i).toInt ∧ (x i).toInt ≤ 99999) :
    ∀ j, (idxFn4 x j).toNat < 50000 := idxOf_lt _ _ x hx

/-! ### As a subcore reads them through its block of the array -/

theorem read_lt0 (x : (⟨S4096x50, .i32⟩ : BufTy).Contents (Elt F)) (hx : ∀ i, 0 ≤ (x i).toInt ∧ (x i).toInt ≤ 99999)
    (L : grid0.Coords) : ∀ j, ((T0.iBlk L).view.read (Elt F) (idxFn0 x) j).toNat < 50000 :=
  fun j => idxOf_lt _ _ x hx _
theorem read_lt1 (x : (⟨S4096x50, .i32⟩ : BufTy).Contents (Elt F)) (hx : ∀ i, 0 ≤ (x i).toInt ∧ (x i).toInt ≤ 99999)
    (L : grid1.Coords) : ∀ j, ((T1.iBlk L).view.read (Elt F) (idxFn1 x) j).toNat < 50000 :=
  fun j => idxOf_lt _ _ x hx _
theorem read_lt2 (x : (⟨S4096x50, .i32⟩ : BufTy).Contents (Elt F)) (hx : ∀ i, 0 ≤ (x i).toInt ∧ (x i).toInt ≤ 99999)
    (L : grid2.Coords) : ∀ j, ((T2.iBlk L).view.read (Elt F) (idxFn2 x) j).toNat < 50000 :=
  fun j => idxOf_lt _ _ x hx _
theorem read_lt3 (x : (⟨S4096x50, .i32⟩ : BufTy).Contents (Elt F)) (hx : ∀ i, 0 ≤ (x i).toInt ∧ (x i).toInt ≤ 99999)
    (L : grid3.Coords) : ∀ j, ((T3.iBlk L).view.read (Elt F) (idxFn3 x) j).toNat < 50000 :=
  fun j => idxOf_lt _ _ x hx _
theorem read_lt4 (x : (⟨S4096x50, .i32⟩ : BufTy).Contents (Elt F)) (hx : ∀ i, 0 ≤ (x i).toInt ∧ (x i).toInt ≤ 99999)
    (L : grid4.Coords) : ∀ j, ((T4.iBlk L).view.read (Elt F) (idxFn4 x) j).toNat < 50000 :=
  fun j => idxOf_lt _ _ x hx _

/-! ## The precondition decoded -/

/-- The precondition is the conjunction of two `all`s, "every table entry is finite" and "every entry of `x` is at least
    0 and at most 99999, read signed"; that it is one says of the second that every entry of `x` lies in [0, 99999]. -/
theorem x_range_of_pre [hP : Cert.Pre_input_domain.Facts] (x : IVec Cert.Pre_input_domain.S4096x50 32)
    (w : FVec F Cert.Pre_input_domain.S100000x64 .f32)
    (h : Cert.Pre_input_domain.fn (F := F) x w = fun _ => 1#1) :
    ∀ i, 0 ≤ (x i).toInt ∧ (x i).toInt ≤ 99999 := by
  intro i
  -- the result of an `all` has one index
  haveI : Subsingleton Cert.Pre_input_domain.S_.Idx := ⟨fun a b => funext fun d => d.elim0⟩
  have e := congrFun h ValueIdx.ix0
  dsimp only [Cert.Pre_input_domain.fn] at e
  change IntOp.andi _ _ = 1#1 at e
  obtain ⟨-, e2⟩ := IntOp.andi_eq_one.mp e
  have e3 := Host.reduce_andi_all _ _ _ _ _ e2 i
  change IntOp.andi (IntOp.cmpi .sge (x i) 0#32) (IntOp.cmpi .sle (x i) 99999#32) = 1#1 at e3
  obtain ⟨h0, h1⟩ := IntOp.andi_eq_one.mp e3
  have h0' := IntOp.cmpi_sge.mp h0
  have h1' := IntOp.cmpi_sle.mp h1
  rw [show (0#32 : BitVec 32).toInt = 0 from by decide] at h0'
  rw [show (99999#32 : BitVec 32).toInt = 99999 from by decide] at h1'
  exact ⟨h0', h1'⟩

end Cert.Proof.KB.Pre

end
-- ==== Proof.KBTailKeep.lean ====
/-
  The argument arrays through the TensorCore's last part. After the five gather calls the TensorCore runs six
  stretches of host operations (the reshapes of the row numbers, the copies of the growing result, the final
  transpose) with a transposing call between each two. No host operation of the six stretches writes the index
  array or the table, and neither is one of a transposing call's arrays; so the contents folded through the eleven
  segments, read at an argument's buffer, are what that buffer held when the last gather call returned.
-/
import proofs.«205068_g58248346468665_cont_9to1c4b_383_29_alg».proof.Proof.KBTail

set_option maxRecDepth 16384

noncomputable section

namespace Cert.Proof.KB.Tail

open Cert.Kernel Cert.Kernel.Gen Cert.Proof.KB
open Idealize.ShloMosaic Idealize.ShloMosaic.TcCoe Idealize.SL.Sem

variable {F : FTy → Type} [FloatOps F]

variable (Wt : Dev nD → Valuation τ sig (Elt F))

/-- A stretch of host operations keeps a buffer none of its operations writes: each operation writes its one result
    buffer, and the buffer read is another. -/
local macro "host_keeps" : tactic =>
  `(tactic| (refine StableHlo.after_of_forall_not_mem _ _ (List.forall_iff_forall_mem.mp ?_)
             simp only [hops0, hops1, hops2, hops3, hops4, hops5, List.Forall, StableHlo.unary_writes,
               StableHlo.reshape_writes, Finset.mem_singleton]
             repeat' apply And.intro
             all_goals exact StableHlo.devRef_ne_of_ne (by decide)))

/-- The index array through the eleven segments: as it was when the last gather call returned. -/
theorem W11_arg0 (c : Dev nD) : W11 Wt c (Proc.devRef .tc main_arg0) = Wt c (Proc.devRef .tc main_arg0) :=
  calc W11 Wt c (Proc.devRef .tc main_arg0)
    _ = W10 Wt c (Proc.devRef .tc main_arg0) := by host_keeps
    _ = W9 Wt c (Proc.devRef .tc main_arg0) := W10_of_ne Wt c main_arg0 (by decide)
    _ = W8 Wt c (Proc.devRef .tc main_arg0) := by host_keeps
    _ = W7 Wt c (Proc.devRef .tc main_arg0) := W8_of_ne Wt c main_arg0 (by decide)
    _ = W6 Wt c (Proc.devRef .tc main_arg0) := by host_keeps
    _ = W5 Wt c (Proc.devRef .tc main_arg0) := W6_of_ne Wt c main_arg0 (by decide)
    _ = W4 Wt c (Proc.devRef .tc main_arg0) := by host_keeps
    _ = W3 Wt c (Proc.devRef .tc main_arg0) := W4_of_ne Wt c main_arg0 (by decide)
    _ = W2 Wt c (Proc.devRef .tc main_arg0) := by host_keeps
    _ = W1 Wt c (Proc.devRef .tc main_arg0) := W2_of_ne Wt c main_arg0 (by decide)
    _ = W0 Wt c (Proc.devRef .tc main_arg0) := by host_keeps
    _ = Wt c (Proc.devRef .tc main_arg0) := rfl

/-- The table through the eleven segments: as it was when the last gather call returned. -/
theorem W11_arg1 (c : Dev nD) : W11 Wt c (Proc.devRef .tc main_arg1) = Wt c (Proc.devRef .tc main_arg1) :=
  calc W11 Wt c (Proc.devRef .tc main_arg1)
    _ = W10 Wt c (Proc.devRef .tc main_arg1) := by host_keeps
    _ = W9 Wt c (Proc.devRef .tc main_arg1) := W10_of_ne Wt c main_arg1 (by decide)
    _ = W8 Wt c (Proc.devRef .tc main_arg1) := by host_keeps
    _ = W7 Wt c (Proc.devRef .tc main_arg1) := W8_of_ne Wt c main_arg1 (by decide)
    _ = W6 Wt c (Proc.devRef .tc main_arg1) := by host_keeps
    _ = W5 Wt c (Proc.devRef .tc main_arg1) := W6_of_ne Wt c main_arg1 (by decide)
    _ = W4 Wt c (Proc.devRef .tc main_arg1) := by host_keeps
    _ = W3 Wt c (Proc.devRef .tc main_arg1) := W4_of_ne Wt c main_arg1 (by decide)
    _ = W2 Wt c (Proc.devRef .tc main_arg1) := by host_keeps
    _ = W1 Wt c (Proc.devRef .tc main_arg1) := W2_of_ne Wt c main_arg1 (by decide)
    _ = W0 Wt c (Proc.devRef .tc main_arg1) := by host_keeps
    _ = Wt c (Proc.devRef .tc main_arg1) := rfl

end Cert.Proof.KB.Tail

end
-- ==== Proof.KBLaunch.lean ====
/-
  The launch: the five gather calls on the SparseCores and the transposing calls on the TensorCore as one
  program. The ghost state is the handshakes' rounds, the staging cells' rounds and the local transfers'
  counters; the TensorCore's buffers are folded through @main's host operations, each gather call is handed its
  three arrays split among its tasks and hands them back, and the rest of @main runs as the list of segments.
-/
import proofs.«205068_g58248346468665_cont_9to1c4b_383_29_alg».proof.Proof.KBMain
import proofs.«205068_g58248346468665_cont_9to1c4b_383_29_alg».proof.Proof.KBPre
import proofs.«205068_g58248346468665_cont_9to1c4b_383_29_alg».proof.Proof.KBTailKeep

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 5) (Elt F) ℕ UU ℕ

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals the TensorCore beside its buffers: the staging cells' ghost state of the five transposing calls. -/
abbrev G (d : Dev nD) : sProp 𝕄 := Pipeline.ghostOn (pcfgs (F := F)) Tail.adm EP Finset.univ d

omit [FloatOps F] in
theorem bigSep_emp' {I : Type} (s : Finset I) : (bigSep s fun _ => iprop(emp)) = (iprop(emp) : sProp 𝕄) := bigSep_emp_const s

omit [FloatOps F] in
theorem ghost_join :
    iprop((bigSep Finset.univ fun c : Dev nD => bigSep Finset.univ fun p : Fin 5 => (Pipeline.cellsGhost (nD := nD) (τ := τ) cfgs EP p c : sProp 𝕄))
        ∗ (bigSep Finset.univ fun c : Dev nD => bigSep Finset.univ fun p : Fin 5 => (Pipeline.toksInit (nD := nD) (τ := τ) cfgs EP p c : sProp 𝕄)))
      ⊢ (bigSep Finset.univ fun d : Dev nD => G (F := F) d) := by
  have e : ∀ c : Dev nD, G (F := F) c
      = iprop((bigSep Finset.univ fun p : Fin 5 => (Pipeline.cellsGhost (nD := nD) (τ := τ) cfgs EP p c : sProp 𝕄))
          ∗ bigSep Finset.univ fun p : Fin 5 => (Pipeline.toksInit (nD := nD) (τ := τ) cfgs EP p c : sProp 𝕄)) := by
    intro c
    unfold G Pipeline.ghostOn Pipeline.PerCore.ghostOn
    rw [bigSep_sep']
  rw [← bigSep_sep' (Finset.univ : Finset (Dev nD)), bigSep_congr (s := Finset.univ) (fun c _ => e c)]

variable (C : Conts F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (P C).x q thr) := by
  unfold u₀
  iintro Hu
  ihave H := (ownU_pair _ _) $$ Hu
  icases H with ⟨HH, HR⟩
  ihave HR' := (own_pair_emb embR _ _) $$ HR
  icases HR' with ⟨HP, -⟩
  ihave HP' := (show (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP : Emb UP 𝕄) (initOf (Pipeline.cells (nD := nD) (τ := τ) cfgs cellOf_inj) (Pipeline.launchToks (nD := nD) (τ := τ) cfgs cellOf_inj))) from .rfl) $$ HP
  imod (Pipeline.fund_ghost (nD := nD) (τ := τ) cfgs EP cellOf_inj) $$ HP' with ⟨Hc, Ht⟩
  imodintro
  isplitl [HH]; · iexact HH
  isplitl [Hc Ht]
  · iapply (ghost_join (F := F))
    isplitl [Hc]; · iexact Hc
    iexact Ht
  unfold P; dsimp only
  rw [show (bigSep Finset.univ fun _ : Thread nD τ => bigSep Finset.univ fun _ : Fin 5 => (iprop(emp) : sProp 𝕄)) = iprop(emp) from by
    rw [bigSep_congr fun _ _ => bigSep_emp' _, bigSep_emp']]
  iempintro

/-! ## A gather call's three arrays out of the TensorCore's buffers, and back -/

omit [FloatOps F] in
/-- Three distinct buffers of a held set are those three and, for any new contents of the third, the set held again at
    the valuation updated there. -/
theorem call_frame (thr : Thread nD τ) (Sx : Finset (DevRef τ sig)) (V : Valuation τ sig (Elt F)) (a b o : DevRef τ sig)
    (hab : a ≠ b) (hao : a ≠ o) (hbo : b ≠ o) (hS : ({a, b, o} : Finset (DevRef τ sig)) ⊆ Sx) :
    (held thr Sx V : sProp 𝕄)
      ⊢ iprop((((thr.1, a) : Loc nD τ sig) ↦{fullShare} V a) ∗ (((thr.1, b) : Loc nD τ sig) ↦{fullShare} V b) ∗ (((thr.1, o) : Loc nD τ sig) ↦{fullShare} V o)
          ∗ ∀ f, (iprop((((thr.1, a) : Loc nD τ sig) ↦{fullShare} V a) ∗ (((thr.1, b) : Loc nD τ sig) ↦{fullShare} V b) ∗ (((thr.1, o) : Loc nD τ sig) ↦{fullShare} f))
              -∗ held thr Sx (Function.update V o f))) := by
  have e1 : (held thr Sx V : sProp 𝕄) = iprop(held thr {a, b, o} V ∗ held thr (Sx \ {a, b, o}) V) := StableHlo.held_sub_split thr hS V
  have e3 : ∀ W : Valuation τ sig (Elt F), (held thr ({a, b, o} : Finset (DevRef τ sig)) W : sProp 𝕄)
      = iprop((((thr.1, a) : Loc nD τ sig) ↦{fullShare} W a) ∗ (((thr.1, b) : Loc nD τ sig) ↦{fullShare} W b) ∗ (((thr.1, o) : Loc nD τ sig) ↦{fullShare} W o)) := by
    intro W
    unfold StableHlo.held
    rw [SparseCore.bigSep_insert' (by simp [hab, hao]), SparseCore.bigSep_insert' (by simp [hbo]), bigSep_singleton]
  rw [e1, e3]
  iintro ⟨⟨Ha, Hb, Ho⟩, Hrest⟩
  isplitl [Ha]; · iexact Ha
  isplitl [Hb]; · iexact Hb
  isplitl [Ho]; · iexact Ho
  iintro %f ⟨Ha, Hb, Ho⟩
  rw [StableHlo.held_sub_split thr hS (Function.update V o f), e3,
    Function.update_of_ne hao, Function.update_of_ne hbo, Function.update_self,
    StableHlo.held_congr (S := Sx \ {a, b, o}) (V := Function.update V o f) (V' := V) thr (fun x hx => Function.update_of_ne (fun e => by
      subst e; simp at hx) _ _)]
  isplitl [Ha Hb Ho]
  · isplitl [Ha]; · iexact Ha
    isplitl [Hb]; · iexact Hb
    iexact Ho
  iexact Hrest

/-! ## The arrays' contents when each gather call is made -/

variable (m : (ℓ : Loc nD τ sig) → Buf (Elt F) ℓ) (ρ : Dev nD → PrngReg)

/-- The TensorCore's buffers at the launch. -/
abbrev Wl (d : Dev nD) : Valuation τ sig (Elt F) := fun b => m (d, b)

/-- The table is the weights seen as 50000 rows; call `q`'s row numbers are columns `10 q … 10 q + 9` of `x`,
    transposed, halved and cut into thirty-two blocks; its result array is as launched. -/
def CM : Conts F where
  tv := fun d => Pre.tblFn (m (d, (Proc.devRef .tc (main_arg1 : Ref sig .tc))))
  iv0 := fun d => Pre.idxFn0 (m (d, (Proc.devRef .tc (main_arg0 : Ref sig .tc))))
  ov0 := fun d => m (d, (Proc.devRef .tc (main_v6 : Ref sig .tc)))
  iv1 := fun d => Pre.idxFn1 (m (d, (Proc.devRef .tc (main_arg0 : Ref sig .tc))))
  ov1 := fun d => m (d, (Proc.devRef .tc (main_v12 : Ref sig .tc)))
  iv2 := fun d => Pre.idxFn2 (m (d, (Proc.devRef .tc (main_arg0 : Ref sig .tc))))
  ov2 := fun d => m (d, (Proc.devRef .tc (main_v18 : Ref sig .tc)))
  iv3 := fun d => Pre.idxFn3 (m (d, (Proc.devRef .tc (main_arg0 : Ref sig .tc))))
  ov3 := fun d => m (d, (Proc.devRef .tc (main_v24 : Ref sig .tc)))
  iv4 := fun d => Pre.idxFn4 (m (d, (Proc.devRef .tc (main_arg0 : Ref sig .tc))))
  ov4 := fun d => m (d, (Proc.devRef .tc (main_v30 : Ref sig .tc)))

abbrev wl0 : List (Ref sig .tc) := [main_v0, main_v1, main_v2, main_c, main_v3, main_v4, main_v5]
theorem writes0 : (sops0 : List (HloOp τ sig (Elt F))).Forall fun op => op.writes ⊆ ((wl0).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide)⟩)
theorem keep0 (V : Valuation τ sig (Elt F)) (r : Ref sig .tc) (h : r ∉ wl0) :
    StableHlo.after sops0 V (Proc.devRef .tc r) = V (Proc.devRef .tc r) := StableHlo.after_of_writes_sub sops0 V (writes0 (F := F)) h

abbrev wl1 : List (Ref sig .tc) := [main_v7, main_v8, main_c_0, main_v9, main_v10, main_v11]
theorem writes1 : (sops1 : List (HloOp τ sig (Elt F))).Forall fun op => op.writes ⊆ ((wl1).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep1 (V : Valuation τ sig (Elt F)) (r : Ref sig .tc) (h : r ∉ wl1) :
    StableHlo.after sops1 V (Proc.devRef .tc r) = V (Proc.devRef .tc r) := StableHlo.after_of_writes_sub sops1 V (writes1 (F := F)) h

abbrev wl2 : List (Ref sig .tc) := [main_v13, main_v14, main_c_1, main_v15, main_v16, main_v17]
theorem writes2 : (sops2 : List (HloOp τ sig (Elt F))).Forall fun op => op.writes ⊆ ((wl2).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep2 (V : Valuation τ sig (Elt F)) (r : Ref sig .tc) (h : r ∉ wl2) :
    StableHlo.after sops2 V (Proc.devRef .tc r) = V (Proc.devRef .tc r) := StableHlo.after_of_writes_sub sops2 V (writes2 (F := F)) h

abbrev wl3 : List (Ref sig .tc) := [main_v19, main_v20, main_c_2, main_v21, main_v22, main_v23]
theorem writes3 : (sops3 : List (HloOp τ sig (Elt F))).Forall fun op => op.writes ⊆ ((wl3).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep3 (V : Valuation τ sig (Elt F)) (r : Ref sig .tc) (h : r ∉ wl3) :
    StableHlo.after sops3 V (Proc.devRef .tc r) = V (Proc.devRef .tc r) := StableHlo.after_of_writes_sub sops3 V (writes3 (F := F)) h

abbrev wl4 : List (Ref sig .tc) := [main_v25, main_v26, main_c_3, main_v27, main_v28, main_v29]
theorem writes4 : (sops4 : List (HloOp τ sig (Elt F))).Forall fun op => op.writes ⊆ ((wl4).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep4 (V : Valuation τ sig (Elt F)) (r : Ref sig .tc) (h : r ∉ wl4) :
    StableHlo.after sops4 V (Proc.devRef .tc r) = V (Proc.devRef .tc r) := StableHlo.after_of_writes_sub sops4 V (writes4 (F := F)) h

/-! ## The TensorCore's buffers through the gather calls -/

abbrev A0 (d : Dev nD)  : Valuation τ sig (Elt F) := StableHlo.after sops0 (Wl m d)
abbrev B0 (d : Dev nD) (f0 : (⟨S40960x128, .f32⟩ : BufTy).Contents (Elt F)) : Valuation τ sig (Elt F) := Function.update (A0 m d ) (Proc.devRef .tc (main_v6 : Ref sig .tc)) f0
theorem A0_arg0 (d : Dev nD)  : A0 m d  (Proc.devRef .tc (main_arg0 : Ref sig .tc)) = m (d, (Proc.devRef .tc (main_arg0 : Ref sig .tc))) := (keep0 _ main_arg0 (by decide)).trans (rfl)
theorem A0_arg1 (d : Dev nD)  : A0 m d  (Proc.devRef .tc (main_arg1 : Ref sig .tc)) = m (d, (Proc.devRef .tc (main_arg1 : Ref sig .tc))) := (keep0 _ main_arg1 (by decide)).trans (rfl)
theorem A0_v0 (d : Dev nD) : A0 m d (Proc.devRef .tc (main_v0 : Ref sig .tc)) = (CM m).tv d := Pre.tbl_after _
theorem A0_idx (d : Dev nD)  : A0 m d  (Proc.devRef .tc (main_v5 : Ref sig .tc)) = (CM m).iv0 d := (Pre.idx_after0 _).trans (congrArg Pre.idxFn0 (rfl))
theorem A0_out0 (d : Dev nD)  : A0 m d  (Proc.devRef .tc (main_v6 : Ref sig .tc)) = m (d, (Proc.devRef .tc (main_v6 : Ref sig .tc))) := (keep0 _ main_v6 (by decide)).trans (rfl)
theorem A0_out1 (d : Dev nD)  : A0 m d  (Proc.devRef .tc (main_v12 : Ref sig .tc)) = m (d, (Proc.devRef .tc (main_v12 : Ref sig .tc))) := (keep0 _ main_v12 (by decide)).trans (rfl)
theorem A0_out2 (d : Dev nD)  : A0 m d  (Proc.devRef .tc (main_v18 : Ref sig .tc)) = m (d, (Proc.devRef .tc (main_v18 : Ref sig .tc))) := (keep0 _ main_v18 (by decide)).trans (rfl)
theorem A0_out3 (d : Dev nD)  : A0 m d  (Proc.devRef .tc (main_v24 : Ref sig .tc)) = m (d, (Proc.devRef .tc (main_v24 : Ref sig .tc))) := (keep0 _ main_v24 (by decide)).trans (rfl)
theorem A0_out4 (d : Dev nD)  : A0 m d  (Proc.devRef .tc (main_v30 : Ref sig .tc)) = m (d, (Proc.devRef .tc (main_v30 : Ref sig .tc))) := (keep0 _ main_v30 (by decide)).trans (rfl)
theorem B0_arg0 (d : Dev nD) (f0 : (⟨S40960x128, .f32⟩ : BufTy).Contents (Elt F)) : B0 m d f0 (Proc.devRef .tc (main_arg0 : Ref sig .tc)) = m (d, (Proc.devRef .tc (main_arg0 : Ref sig .tc))) := (Function.update_of_ne (StableHlo.devRef_ne_of_ne (show (main_arg0 : Ref sig .tc) ≠ main_v6 by decide)) _ _).trans (A0_arg0 m d )
theorem B0_arg1 (d : Dev nD) (f0 : (⟨S40960x128, .f32⟩ : BufTy).Contents (Elt F)) : B0 m d f0 (Proc.devRef .tc (main_arg1 : Ref sig .tc)) = m (d, (Proc.devRef .tc (main_arg1 : Ref sig .tc))) := (Function.update_of_ne (StableHlo.devRef_ne_of_ne (show (main_arg1 : Ref sig .tc) ≠ main_v6 by decide)) _ _).trans (A0_arg1 m d )
theorem B0_v0 (d : Dev nD) (f0 : (⟨S40960x128, .f32⟩ : BufTy).Contents (Elt F)) : B0 m d f0 (Proc.devRef .tc (main_v0 : Ref sig .tc)) = (CM m).tv d := (Function.update_of_ne (StableHlo.devRef_ne_of_ne (show (main_v0 : Ref sig .tc) ≠ main_v6 by decide)) _ _).trans (A0_v0 m d )
theorem B0_out1 (d : Dev nD) (f0 : (⟨S40960x128, .f32⟩ : BufTy).Contents (Elt F)) : B0 m d f0 (Proc.devRef .tc (main_v12 : Ref sig .tc)) = m (d, (Proc.devRef .tc (main_v12 : Ref sig .tc))) := (Function.update_of_ne (StableHlo.devRef_ne_of_ne (show (main_v12 : Ref sig .tc) ≠ main_v6 by decide)) _ _).trans (A0_out1 m d )
theorem B0_out2 (d : Dev nD) (f0 : (⟨S40960x128, .f32⟩ : BufTy).Contents (Elt F)) : B0 m d f0 (Proc.devRef .tc (main_v18 : Ref sig .tc)) = m (d, (Proc.devRef .tc (main_v18 : Ref sig .tc))) := (Function.update_of_ne (StableHlo.devRef_ne_of_ne (show (main_v18 : Ref sig .tc) ≠ main_v6 by decide)) _ _).trans (A0_out2 m d )
theorem B0_out3 (d : Dev nD) (f0 : (⟨S40960x128, .f32⟩ : BufTy).Contents (Elt F)) : B0 m d f0 (Proc.devRef .tc (main_v24 : Ref sig .tc)) = m (d, (Proc.devRef .tc (main_v24 : Ref sig .tc))) := (Function.update_of_ne (StableHlo.devRef_ne_of_ne (show (main_v24 : Ref sig .tc) ≠ main_v6 by decide)) _ _).trans (A0_out3 m d )
theorem B0_out4 (d : Dev nD) (f0 : (⟨S40960x128, .f32⟩ : BufTy).Contents (Elt F)) : B0 m d f0 (Proc.devRef .tc (main_v30 : Ref sig .tc)) = m (d, (Proc.devRef .tc (main_v30 : Ref sig .tc))) := (Function.update_of_ne (StableHlo.devRef_ne_of_ne (show (main_v30 : Ref sig .tc) ≠ main_v6 by decide)) _ _).trans (A0_out4 m d )

abbrev A1 (d : Dev nD) (f0 : (⟨S40960x128, .f32⟩ : BufTy).Contents (Elt F)) : Valuation τ sig (Elt F) := StableHlo.after sops1 (B0 m d f0)
abbrev B1 (d : Dev nD) (f0 : (⟨S40960x128, .f32⟩ : BufTy).Contents (Elt F)) (f1 : (⟨S40960x128, .f32⟩ : BufTy).Contents (Elt F)) : Valuation τ sig (Elt F) := Function.update (A1 m d f0) (Proc.devRef .tc (main_v12 : Ref sig .tc)) f1
theorem A1_arg0 (d : Dev nD) (f0 : (⟨S40960x128, .f32⟩ : BufTy).Contents (Elt F)) : A1 m d f0 (Proc.devRef .tc (main_arg0 : Ref sig .tc)) = m (d, (Proc.devRef .tc (main_arg0 : Ref sig .tc))) := (keep1 _ main_arg0 (by decide)).trans (B0_arg0 m d f0)
theorem A1_arg1 (d : Dev nD) (f0 : (⟨S40960x128, .f32⟩ : BufTy).Contents (Elt F)) : A1 m d f0 (Proc.devRef .tc (main_arg1 : Ref sig .tc)) = m (d, (Proc.devRef .tc (main_arg1 : Ref sig .tc))) := (keep1 _ main_arg1 (by decide)).trans (B0_arg1 m d f0)
theorem A1_v0 (d : Dev nD) (f0 : (⟨S40960x128, .f32⟩ : BufTy).Contents (Elt F)) : A1 m d f0 (Proc.devRef .tc (main_v0 : Ref sig .tc)) = (CM m).tv d := (keep1 _ main_v0 (by decide)).trans (B0_v0 m d f0)
theorem A1_idx (d : Dev nD) (f0 : (⟨S40960x128, .f32⟩ : BufTy).Contents (Elt F)) : A1 m d f0 (Proc.devRef .tc (main_v11 : Ref sig .tc)) = (CM m).iv1 d := (Pre.idx_after1 _).trans (congrArg Pre.idxFn1 (B0_arg0 m d f0))
theorem A1_out1 (d : Dev nD) (f0 : (⟨S40960x128, .f32⟩ : BufTy).Contents (Elt F)) : A1 m d f0 (Proc.devRef .tc (main_v12 : Ref sig .tc)) = m (d, (Proc.devRef .tc (main_v12 : Ref sig .tc))) := (keep1 _ main_v12 (by decide)).trans (B0_out1 m d f0)
theorem A1_out2 (d : Dev nD) (f0 : (⟨S40960x128, .f32⟩ : BufTy).Contents (Elt F)) : A1 m d f0 (Proc.devRef .tc (main_v18 : Ref sig .tc)) = m (d, (Proc.devRef .tc (main_v18 : Ref sig .tc))) := (keep1 _ main_v18 (by decide)).trans (B0_out2 m d f0)
theorem A1_out3 (d : Dev nD) (f0 : (⟨S40960x128, .f32⟩ : BufTy).Contents (Elt F)) : A1 m d f0 (Proc.devRef .tc (main_v24 : Ref sig .tc)) = m (d, (Proc.devRef .tc (main_v24 : Ref sig .tc))) := (keep1 _ main_v24 (by decide)).trans (B0_out3 m d f0)
theorem A1_out4 (d : Dev nD) (f0 : (⟨S40960x128, .f32⟩ : BufTy).Contents (Elt F)) : A1 m d f0 (Proc.devRef .tc (main_v30 : Ref sig .tc)) = m (d, (Proc.devRef .tc (main_v30 : Ref sig .tc))) := (keep1 _ main_v30 (by decide)).trans (B0_out4 m d f0)
theorem B1_arg0 (d : Dev nD) (f0 : (⟨S40960x128, .f32⟩ : BufTy).Contents (Elt F)) (f1 : (⟨S40960x128, .f32⟩ : BufTy).Contents (Elt F)) : B1 m d f0 f1 (Proc.devRef .tc (main_arg0 : Ref sig .tc)) = m (d, (Proc.devRef .tc (main_arg0 : Ref sig .tc))) := (Function.update_of_ne (StableHlo.devRef_ne_of_ne (show (main_arg0 : Ref sig .tc) ≠ main_v12 by decide)) _ _).trans (A1_arg0 m d f0)
theorem B1_arg1 (d : Dev nD) (f0 : (⟨S40960x128, .f32⟩ : BufTy).Contents (Elt F)) (f1 : (⟨S40960x128, .f32⟩ : BufTy).Contents (Elt F)) : B1 m d f0 f1 (Proc.devRef .tc (main_arg1 : Ref sig .tc)) = m (d, (Proc.devRef .tc (main_arg1 : Ref sig .tc))) := (Function.update_of_ne (StableHlo.devRef_ne_of_ne (show (main_arg1 : Ref sig .tc) ≠ main_v12 by decide)) _ _).trans (A1_arg1 m d f0)
theorem B1_v0 (d : Dev nD) (f0 : (⟨S40960x128, .f32⟩ : BufTy).Contents (Elt F)) (f1 : (⟨S40960x128, .f32⟩ : BufTy).Contents (Elt F)) : B1 m d f0 f1 (Proc.devRef .tc (main_v0 : Ref sig .tc)) = (CM m).tv d := (Function.update_of_ne (StableHlo.devRef_ne_of_ne (show (main_v0 : Ref sig .tc) ≠ main_v12 by decide)) _ _).trans (A1_v0 m d f0)
theorem B1_out2 (d : Dev nD) (f0 : (⟨S40960x128, .f32⟩ : BufTy).Contents (Elt F)) (f1 : (⟨S40960x128, .f32⟩ : BufTy).Contents (Elt F)) : B1 m d f0 f1 (Proc.devRef .tc (main_v18 : Ref sig .tc)) = m (d, (Proc.devRef .tc (main_v18 : Ref sig .tc))) := (Function.update_of_ne (StableHlo.devRef_ne_of_ne (show (main_v18 : Ref sig .tc) ≠ main_v12 by decide)) _ _).trans (A1_out2 m d f0)
theorem B1_out3 (d : Dev nD) (f0 : (⟨S40960x128, .f32⟩ : BufTy).Contents (Elt F)) (f1 : (⟨S40960x128, .f32⟩ : BufTy).Contents (Elt F)) : B1 m d f0 f1 (Proc.devRef .tc (main_v24 : Ref sig .tc)) = m (d, (Proc.devRef .tc (main_v24 : Ref sig .tc))) := (Function.update_of_ne (StableHlo.devRef_ne_of_ne (show (main_v24 : Ref sig .tc) ≠ main_v12 by decide)) _ _).trans (A1_out3 m d f0)
theorem B1_out4 (d : Dev nD) (f0 : (⟨S40960x128, .f32⟩ : BufTy).Contents (Elt F)) (f1 : (⟨S40960x128, .f32⟩ : BufTy).Contents (Elt F)) : B1 m d f0 f1 (Proc.devRef .tc (main_v30 : Ref sig .tc)) = m (d, (Proc.devRef .tc (main_v30 : Ref sig .tc))) := (Function.update_of_ne (StableHlo.devRef_ne_of_ne (show (main_v30 : Ref sig .tc) ≠ main_v12 by decide)) _ _).trans (A1_out4 m d f0)

abbrev A2 (d : Dev nD) (f0 : (⟨S40960x128, .f32⟩ : BufTy).Contents (Elt F)) (f1 : (⟨S40960x128, .f32⟩ : BufTy).Contents (Elt F)) : Valuation τ sig (Elt F) := StableHlo.after sops2 (B1 m d f0 f1)
abbrev B2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : Valuation τ sig (Elt F) := Function.update (A2 m d f0 f1) (Proc.devRef .tc (main_v18 : Ref sig .tc)) f2
theorem A2_arg0 (d : Dev nD) (f0 : (⟨S40960x128, .f32⟩ : BufTy).Contents (Elt F)) (f1 : (⟨S40960x128, .f32⟩ : BufTy).Contents (Elt F)) : A2 m d f0 f1 (Proc.devRef .tc (main_arg0 : Ref sig .tc)) = m (d, (Proc.devRef .tc (main_arg0 : Ref sig .tc))) := (keep2 _ main_arg0 (by decide)).trans (B1_arg0 m d f0 f1)
theorem A2_arg1 (d : Dev nD) (f0 : (⟨S40960x128, .f32⟩ : BufTy).Contents (Elt F)) (f1 : (⟨S40960x128, .f32⟩ : BufTy).Contents (Elt F)) : A2 m d f0 f1 (Proc.devRef .tc (main_arg1 : Ref sig .tc)) = m (d, (Proc.devRef .tc (main_arg1 : Ref sig .tc))) := (keep2 _ main_arg1 (by decide)).trans (B1_arg1 m d f0 f1)
theorem A2_v0 (d : Dev nD) (f0 : (⟨S40960x128, .f32⟩ : BufTy).Contents (Elt F)) (f1 : (⟨S40960x128, .f32⟩ : BufTy).Contents (Elt F)) : A2 m d f0 f1 (Proc.devRef .tc (main_v0 : Ref sig .tc)) = (CM m).tv d := (keep2 _ main_v0 (by decide)).trans (B1_v0 m d f0 f1)
theorem A2_idx (d : Dev nD) (f0 : (⟨S40960x128, .f32⟩ : BufTy).Contents (Elt F)) (f1 : (⟨S40960x128, .f32⟩ : BufTy).Contents (Elt F)) : A2 m d f0 f1 (Proc.devRef .tc (main_v17 : Ref sig .tc)) = (CM m).iv2 d := (Pre.idx_after2 _).trans (congrArg Pre.idxFn2 (B1_arg0 m d f0 f1))
theorem A2_out2 (d : Dev nD) (f0 : (⟨S40960x128, .f32⟩ : BufTy).Contents (Elt F)) (f1 : (⟨S40960x128, .f32⟩ : BufTy).Contents (Elt F)) : A2 m d f0 f1 (Proc.devRef .tc (main_v18 : Ref sig .tc)) = m (d, (Proc.devRef .tc (main_v18 : Ref sig .tc))) := (keep2 _ main_v18 (by decide)).trans (B1_out2 m d f0 f1)
theorem A2_out3 (d : Dev nD) (f0 : (⟨S40960x128, .f32⟩ : BufTy).Contents (Elt F)) (f1 : (⟨S40960x128, .f32⟩ : BufTy).Contents (Elt F)) : A2 m d f0 f1 (Proc.devRef .tc (main_v24 : Ref sig .tc)) = m (d, (Proc.devRef .tc (main_v24 : Ref sig .tc))) := (keep2 _ main_v24 (by decide)).trans (B1_out3 m d f0 f1)
theorem A2_out4 (d : Dev nD) (f0 : (⟨S40960x128, .f32⟩ : BufTy).Contents (Elt F)) (f1 : (⟨S40960x128, .f32⟩ : BufTy).Contents (Elt F)) : A2 m d f0 f1 (Proc.devRef .tc (main_v30 : Ref sig .tc)) = m (d, (Proc.devRef .tc (main_v30 : Ref sig .tc))) := (keep2 _ main_v30 (by decide)).trans (B1_out4 m d f0 f1)
theorem B2_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_arg0 : Ref sig .tc)) = m (d, (Proc.devRef .tc (main_arg0 : Ref sig .tc))) := (Function.update_of_ne (StableHlo.devRef_ne_of_ne (show (main_arg0 : Ref sig .tc) ≠ main_v18 by decide)) _ _).trans (A2_arg0 m d f0 f1)
theorem B2_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_arg1 : Ref sig .tc)) = m (d, (Proc.devRef .tc (main_arg1 : Ref sig .tc))) := (Function.update_of_ne (StableHlo.devRef_ne_of_ne (show (main_arg1 : Ref sig .tc) ≠ main_v18 by decide)) _ _).trans (A2_arg1 m d f0 f1)
theorem B2_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v0 : Ref sig .tc)) = (CM m).tv d := (Function.update_of_ne (StableHlo.devRef_ne_of_ne (show (main_v0 : Ref sig .tc) ≠ main_v18 by decide)) _ _).trans (A2_v0 m d f0 f1)
theorem B2_out3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v24 : Ref sig .tc)) = m (d, (Proc.devRef .tc (main_v24 : Ref sig .tc))) := (Function.update_of_ne (StableHlo.devRef_ne_of_ne (show (main_v24 : Ref sig .tc) ≠ main_v18 by decide)) _ _).trans (A2_out3 m d f0 f1)
theorem B2_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v30 : Ref sig .tc)) = m (d, (Proc.devRef .tc (main_v30 : Ref sig .tc))) := (Function.update_of_ne (StableHlo.devRef_ne_of_ne (show (main_v30 : Ref sig .tc) ≠ main_v18 by decide)) _ _).trans (A2_out4 m d f0 f1)

abbrev A3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : Valuation τ sig (Elt F) := StableHlo.after sops3 (B2 m d f0 f1 f2)
abbrev B3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : Valuation τ sig (Elt F) := Function.update (A3 m d f0 f1 f2) (Proc.devRef .tc (main_v24 : Ref sig .tc)) f3
theorem A3_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_arg0 : Ref sig .tc)) = m (d, (Proc.devRef .tc (main_arg0 : Ref sig .tc))) := (keep3 _ main_arg0 (by decide)).trans (B2_arg0 m d f0 f1 f2)
theorem A3_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_arg1 : Ref sig .tc)) = m (d, (Proc.devRef .tc (main_arg1 : Ref sig .tc))) := (keep3 _ main_arg1 (by decide)).trans (B2_arg1 m d f0 f1 f2)
theorem A3_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v0 : Ref sig .tc)) = (CM m).tv d := (keep3 _ main_v0 (by decide)).trans (B2_v0 m d f0 f1 f2)
theorem A3_idx (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v23 : Ref sig .tc)) = (CM m).iv3 d := (Pre.idx_after3 _).trans (congrArg Pre.idxFn3 (B2_arg0 m d f0 f1 f2))
theorem A3_out3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v24 : Ref sig .tc)) = m (d, (Proc.devRef .tc (main_v24 : Ref sig .tc))) := (keep3 _ main_v24 (by decide)).trans (B2_out3 m d f0 f1 f2)
theorem A3_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v30 : Ref sig .tc)) = m (d, (Proc.devRef .tc (main_v30 : Ref sig .tc))) := (keep3 _ main_v30 (by decide)).trans (B2_out4 m d f0 f1 f2)
theorem B3_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_arg0 : Ref sig .tc)) = m (d, (Proc.devRef .tc (main_arg0 : Ref sig .tc))) := (Function.update_of_ne (StableHlo.devRef_ne_of_ne (show (main_arg0 : Ref sig .tc) ≠ main_v24 by decide)) _ _).trans (A3_arg0 m d f0 f1 f2)
theorem B3_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_arg1 : Ref sig .tc)) = m (d, (Proc.devRef .tc (main_arg1 : Ref sig .tc))) := (Function.update_of_ne (StableHlo.devRef_ne_of_ne (show (main_arg1 : Ref sig .tc) ≠ main_v24 by decide)) _ _).trans (A3_arg1 m d f0 f1 f2)
theorem B3_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v0 : Ref sig .tc)) = (CM m).tv d := (Function.update_of_ne (StableHlo.devRef_ne_of_ne (show (main_v0 : Ref sig .tc) ≠ main_v24 by decide)) _ _).trans (A3_v0 m d f0 f1 f2)
theorem B3_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v30 : Ref sig .tc)) = m (d, (Proc.devRef .tc (main_v30 : Ref sig .tc))) := (Function.update_of_ne (StableHlo.devRef_ne_of_ne (show (main_v30 : Ref sig .tc) ≠ main_v24 by decide)) _ _).trans (A3_out4 m d f0 f1 f2)

abbrev A4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : Valuation τ sig (Elt F) := StableHlo.after sops4 (B3 m d f0 f1 f2 f3)
abbrev B4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : Valuation τ sig (Elt F) := Function.update (A4 m d f0 f1 f2 f3) (Proc.devRef .tc (main_v30 : Ref sig .tc)) f4
theorem A4_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_arg0 : Ref sig .tc)) = m (d, (Proc.devRef .tc (main_arg0 : Ref sig .tc))) := (keep4 _ main_arg0 (by decide)).trans (B3_arg0 m d f0 f1 f2 f3)
theorem A4_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_arg1 : Ref sig .tc)) = m (d, (Proc.devRef .tc (main_arg1 : Ref sig .tc))) := (keep4 _ main_arg1 (by decide)).trans (B3_arg1 m d f0 f1 f2 f3)
theorem A4_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v0 : Ref sig .tc)) = (CM m).tv d := (keep4 _ main_v0 (by decide)).trans (B3_v0 m d f0 f1 f2 f3)
theorem A4_idx (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v29 : Ref sig .tc)) = (CM m).iv4 d := (Pre.idx_after4 _).trans (congrArg Pre.idxFn4 (B3_arg0 m d f0 f1 f2 f3))
theorem A4_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v30 : Ref sig .tc)) = m (d, (Proc.devRef .tc (main_v30 : Ref sig .tc))) := (keep4 _ main_v30 (by decide)).trans (B3_out4 m d f0 f1 f2 f3)
theorem B4_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_arg0 : Ref sig .tc)) = m (d, (Proc.devRef .tc (main_arg0 : Ref sig .tc))) := (Function.update_of_ne (StableHlo.devRef_ne_of_ne (show (main_arg0 : Ref sig .tc) ≠ main_v30 by decide)) _ _).trans (A4_arg0 m d f0 f1 f2 f3)
theorem B4_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_arg1 : Ref sig .tc)) = m (d, (Proc.devRef .tc (main_arg1 : Ref sig .tc))) := (Function.update_of_ne (StableHlo.devRef_ne_of_ne (show (main_arg1 : Ref sig .tc) ≠ main_v30 by decide)) _ _).trans (A4_arg1 m d f0 f1 f2 f3)
theorem B4_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v0 : Ref sig .tc)) = (CM m).tv d := (Function.update_of_ne (StableHlo.devRef_ne_of_ne (show (main_v0 : Ref sig .tc) ≠ main_v30 by decide)) _ _).trans (A4_v0 m d f0 f1 f2 f3)

/-! ## @main on the TensorCore -/

/-- What the run leaves the claim: the two arguments as launched. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)))

theorem sub0 : ∀ op ∈ (sops0 : List (HloOp τ sig (Elt F))), op.bufs ⊆ Pipeline.ucRefs τ sig := fun op h =>
  Pipeline.sub_ucRefs op ((List.forall_iff_forall_mem.mp (show (sops0 : List (HloOp τ sig (Elt F))).Forall fun op => op.bufs ⊆ StableHlo.tcRefs τ sig by simp [List.Forall])) op h)
theorem fresh0 : ∀ op ∈ (sops0 : List (HloOp τ sig (Elt F))), op.fresh = ∅ := fun op h =>
  (List.forall_iff_forall_mem.mp (show (sops0 : List (HloOp τ sig (Elt F))).Forall fun op => op.fresh = ∅ by simp only [List.Forall]; repeat' constructor)) op h
theorem sub1 : ∀ op ∈ (sops1 : List (HloOp τ sig (Elt F))), op.bufs ⊆ Pipeline.ucRefs τ sig := fun op h =>
  Pipeline.sub_ucRefs op ((List.forall_iff_forall_mem.mp (show (sops1 : List (HloOp τ sig (Elt F))).Forall fun op => op.bufs ⊆ StableHlo.tcRefs τ sig by simp [List.Forall])) op h)
theorem fresh1 : ∀ op ∈ (sops1 : List (HloOp τ sig (Elt F))), op.fresh = ∅ := fun op h =>
  (List.forall_iff_forall_mem.mp (show (sops1 : List (HloOp τ sig (Elt F))).Forall fun op => op.fresh = ∅ by simp only [List.Forall]; repeat' constructor)) op h
theorem sub2 : ∀ op ∈ (sops2 : List (HloOp τ sig (Elt F))), op.bufs ⊆ Pipeline.ucRefs τ sig := fun op h =>
  Pipeline.sub_ucRefs op ((List.forall_iff_forall_mem.mp (show (sops2 : List (HloOp τ sig (Elt F))).Forall fun op => op.bufs ⊆ StableHlo.tcRefs τ sig by simp [List.Forall])) op h)
theorem fresh2 : ∀ op ∈ (sops2 : List (HloOp τ sig (Elt F))), op.fresh = ∅ := fun op h =>
  (List.forall_iff_forall_mem.mp (show (sops2 : List (HloOp τ sig (Elt F))).Forall fun op => op.fresh = ∅ by simp only [List.Forall]; repeat' constructor)) op h
theorem sub3 : ∀ op ∈ (sops3 : List (HloOp τ sig (Elt F))), op.bufs ⊆ Pipeline.ucRefs τ sig := fun op h =>
  Pipeline.sub_ucRefs op ((List.forall_iff_forall_mem.mp (show (sops3 : List (HloOp τ sig (Elt F))).Forall fun op => op.bufs ⊆ StableHlo.tcRefs τ sig by simp [List.Forall])) op h)
theorem fresh3 : ∀ op ∈ (sops3 : List (HloOp τ sig (Elt F))), op.fresh = ∅ := fun op h =>
  (List.forall_iff_forall_mem.mp (show (sops3 : List (HloOp τ sig (Elt F))).Forall fun op => op.fresh = ∅ by simp only [List.Forall]; repeat' constructor)) op h
theorem sub4 : ∀ op ∈ (sops4 : List (HloOp τ sig (Elt F))), op.bufs ⊆ Pipeline.ucRefs τ sig := fun op h =>
  Pipeline.sub_ucRefs op ((List.forall_iff_forall_mem.mp (show (sops4 : List (HloOp τ sig (Elt F))).Forall fun op => op.bufs ⊆ StableHlo.tcRefs τ sig by simp [List.Forall])) op h)
theorem fresh4 : ∀ op ∈ (sops4 : List (HloOp τ sig (Elt F))), op.fresh = ∅ := fun op h =>
  (List.forall_iff_forall_mem.mp (show (sops4 : List (HloOp τ sig (Elt F))).Forall fun op => op.fresh = ∅ by simp only [List.Forall]; repeat' constructor)) op h

omit [FloatOps F] in
theorem three_sub (a b o : Ref sig .tc) (ha : ¬ (Proc.devRef .tc a : DevRef τ sig).isScoped) (hb : ¬ (Proc.devRef .tc b : DevRef τ sig).isScoped)
    (ho : ¬ (Proc.devRef .tc o : DevRef τ sig).isScoped) :
    ({Proc.devRef .tc a, Proc.devRef .tc b, Proc.devRef .tc o} : Finset (DevRef τ sig)) ⊆ Pipeline.ucRefs τ sig := by
  intro x hx
  simp only [Finset.mem_insert, Finset.mem_singleton] at hx
  rcases hx with rfl | rfl | rfl
  · exact Finset.mem_filter.mpr ⟨StableHlo.devRef_mem_tcRefs a, ha⟩
  · exact Finset.mem_filter.mpr ⟨StableHlo.devRef_mem_tcRefs b, hb⟩
  · exact Finset.mem_filter.mpr ⟨StableHlo.devRef_mem_tcRefs o, ho⟩

omit [FloatOps F] in
theorem two_sub (a b : Ref sig .tc) (ha : ¬ (Proc.devRef .tc a : DevRef τ sig).isScoped) (hb : ¬ (Proc.devRef .tc b : DevRef τ sig).isScoped) :
    ({Proc.devRef .tc a, Proc.devRef .tc b} : Finset (DevRef τ sig)) ⊆ Pipeline.ucRefs τ sig := by
  intro x hx
  simp only [Finset.mem_insert, Finset.mem_singleton] at hx
  rcases hx with rfl | rfl
  · exact Finset.mem_filter.mpr ⟨StableHlo.devRef_mem_tcRefs a, ha⟩
  · exact Finset.mem_filter.mpr ⟨StableHlo.devRef_mem_tcRefs b, hb⟩

omit [FloatOps F] in
/-- Two distinct buffers of a held set. -/
theorem held_two (thr : Thread nD τ) (Sx : Finset (DevRef τ sig)) (V : Valuation τ sig (Elt F)) (a b : DevRef τ sig)
    (hab : a ≠ b) (hS : ({a, b} : Finset (DevRef τ sig)) ⊆ Sx) :
    (held thr Sx V : sProp 𝕄) ⊢ iprop((((thr.1, a) : Loc nD τ sig) ↦{fullShare} V a) ∗ (((thr.1, b) : Loc nD τ sig) ↦{fullShare} V b)) := by
  rw [StableHlo.held_sub_split thr hS V]
  unfold StableHlo.held
  rw [SparseCore.bigSep_insert' (by simp [hab]), bigSep_singleton]
  iintro ⟨⟨Ha, Hb⟩, -⟩
  isplitl [Ha]; · iexact Ha
  iexact Hb

set_option maxHeartbeats 8000000 in
theorem hmain [∀ e, Nonempty (Elt F e)] (κ : GSem nD τ sig → ℕ) (d : Dev nD) :
    iprop((K (F := F)).ctx EH (P (CM m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m d) := by
  unfold SparseCore.Cfg.tcRes
  rw [show unscopedBufs d (fun b => m ((SparseCore.T d).loc b)) = StableHlo.held (SparseCore.T d) (Pipeline.ucRefs τ sig) (Wl m d)
    from Pipeline.unscopedBufs_held d (Wl m d)]
  rw [main_eq d]
  iintro ⟨#Hctx, Hst, ⟨Hb, Hheld, -, Hprng⟩, HG⟩

  -- the host operations before gather call 0, then the call: its three arrays out to the tasks and back
  rw [Pipeline.chain_cons, Pipeline.chain_cons]
  iapply (StableHlo.wp_seq 𝒱 none Set.univ d (Pipeline.ucRefs τ sig) _ sops0 (sub0 (F := F)) (fresh0 (F := F)) _) $$ [Hb Hheld]
  · isplitl [Hb]; · iexact Hb
    iexact Hheld
  iintro ⟨Hb, Hheld⟩
  ihave Hf := (call_frame (SparseCore.T d) (Pipeline.ucRefs τ sig) (A0 m d ) (Proc.devRef .tc (main_v0 : Ref sig .tc) : DevRef τ sig) (Proc.devRef .tc (main_v5 : Ref sig .tc) : DevRef τ sig) (Proc.devRef .tc (main_v6 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A0_v0 m d , A0_idx m d , A0_out0 m d ]
  ihave Hs := (T0.st_split d ((CM m).tv d) ((CM m).iv0 d) ((CM m).ov0 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 0) $$ [Hst Hsts Hb Hrem Hback Hprng HG]
  isplitr; · iexact Hctx
  isplitl [Hst]; · iexact Hst
  isplitl [Hsts]; · iexact Hsts
  iintro ⟨Hst, Hdn⟩
  ihave Hj := (T0.dn_join d ((CM m).tv d) ((CM m).iv0 d)) $$ [Hrem Hdn]
  · isplitl [Hrem]; · iexact Hrem
    iexact Hdn
  icases Hj with ⟨Ht, Hi, %f0, Ho⟩
  ispecialize Hback $$ %f0
  ihave Hheld := Hback $$ [Ht Hi Ho]
  · isplitl [Ht]; · iexact Ht
    isplitl [Hi]; · iexact Hi
    iexact Ho

  -- the host operations before gather call 1, then the call: its three arrays out to the tasks and back
  rw [Pipeline.chain_cons, Pipeline.chain_cons]
  iapply (StableHlo.wp_seq 𝒱 none Set.univ d (Pipeline.ucRefs τ sig) _ sops1 (sub1 (F := F)) (fresh1 (F := F)) _) $$ [Hb Hheld]
  · isplitl [Hb]; · iexact Hb
    iexact Hheld
  iintro ⟨Hb, Hheld⟩
  ihave Hf := (call_frame (SparseCore.T d) (Pipeline.ucRefs τ sig) (A1 m d f0) (Proc.devRef .tc (main_v0 : Ref sig .tc) : DevRef τ sig) (Proc.devRef .tc (main_v11 : Ref sig .tc) : DevRef τ sig) (Proc.devRef .tc (main_v12 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A1_v0 m d f0, A1_idx m d f0, A1_out1 m d f0]
  ihave Hs := (T1.st_split d ((CM m).tv d) ((CM m).iv1 d) ((CM m).ov1 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 1) $$ [Hst Hsts Hb Hrem Hback Hprng HG]
  isplitr; · iexact Hctx
  isplitl [Hst]; · iexact Hst
  isplitl [Hsts]; · iexact Hsts
  iintro ⟨Hst, Hdn⟩
  ihave Hj := (T1.dn_join d ((CM m).tv d) ((CM m).iv1 d)) $$ [Hrem Hdn]
  · isplitl [Hrem]; · iexact Hrem
    iexact Hdn
  icases Hj with ⟨Ht, Hi, %f1, Ho⟩
  ispecialize Hback $$ %f1
  ihave Hheld := Hback $$ [Ht Hi Ho]
  · isplitl [Ht]; · iexact Ht
    isplitl [Hi]; · iexact Hi
    iexact Ho

  -- the host operations before gather call 2, then the call: its three arrays out to the tasks and back
  rw [Pipeline.chain_cons, Pipeline.chain_cons]
  iapply (StableHlo.wp_seq 𝒱 none Set.univ d (Pipeline.ucRefs τ sig) _ sops2 (sub2 (F := F)) (fresh2 (F := F)) _) $$ [Hb Hheld]
  · isplitl [Hb]; · iexact Hb
    iexact Hheld
  iintro ⟨Hb, Hheld⟩
  ihave Hf := (call_frame (SparseCore.T d) (Pipeline.ucRefs τ sig) (A2 m d f0 f1) (Proc.devRef .tc (main_v0 : Ref sig .tc) : DevRef τ sig) (Proc.devRef .tc (main_v17 : Ref sig .tc) : DevRef τ sig) (Proc.devRef .tc (main_v18 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A2_v0 m d f0 f1, A2_idx m d f0 f1, A2_out2 m d f0 f1]
  ihave Hs := (T2.st_split d ((CM m).tv d) ((CM m).iv2 d) ((CM m).ov2 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 2) $$ [Hst Hsts Hb Hrem Hback Hprng HG]
  isplitr; · iexact Hctx
  isplitl [Hst]; · iexact Hst
  isplitl [Hsts]; · iexact Hsts
  iintro ⟨Hst, Hdn⟩
  ihave Hj := (T2.dn_join d ((CM m).tv d) ((CM m).iv2 d)) $$ [Hrem Hdn]
  · isplitl [Hrem]; · iexact Hrem
    iexact Hdn
  icases Hj with ⟨Ht, Hi, %f2, Ho⟩
  ispecialize Hback $$ %f2
  ihave Hheld := Hback $$ [Ht Hi Ho]
  · isplitl [Ht]; · iexact Ht
    isplitl [Hi]; · iexact Hi
    iexact Ho

  -- the host operations before gather call 3, then the call: its three arrays out to the tasks and back
  rw [Pipeline.chain_cons, Pipeline.chain_cons]
  iapply (StableHlo.wp_seq 𝒱 none Set.univ d (Pipeline.ucRefs τ sig) _ sops3 (sub3 (F := F)) (fresh3 (F := F)) _) $$ [Hb Hheld]
  · isplitl [Hb]; · iexact Hb
    iexact Hheld
  iintro ⟨Hb, Hheld⟩
  ihave Hf := (call_frame (SparseCore.T d) (Pipeline.ucRefs τ sig) (A3 m d f0 f1 f2) (Proc.devRef .tc (main_v0 : Ref sig .tc) : DevRef τ sig) (Proc.devRef .tc (main_v23 : Ref sig .tc) : DevRef τ sig) (Proc.devRef .tc (main_v24 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A3_v0 m d f0 f1 f2, A3_idx m d f0 f1 f2, A3_out3 m d f0 f1 f2]
  ihave Hs := (T3.st_split d ((CM m).tv d) ((CM m).iv3 d) ((CM m).ov3 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 3) $$ [Hst Hsts Hb Hrem Hback Hprng HG]
  isplitr; · iexact Hctx
  isplitl [Hst]; · iexact Hst
  isplitl [Hsts]; · iexact Hsts
  iintro ⟨Hst, Hdn⟩
  ihave Hj := (T3.dn_join d ((CM m).tv d) ((CM m).iv3 d)) $$ [Hrem Hdn]
  · isplitl [Hrem]; · iexact Hrem
    iexact Hdn
  icases Hj with ⟨Ht, Hi, %f3, Ho⟩
  ispecialize Hback $$ %f3
  ihave Hheld := Hback $$ [Ht Hi Ho]
  · isplitl [Ht]; · iexact Ht
    isplitl [Hi]; · iexact Hi
    iexact Ho

  -- the host operations before gather call 4, then the call: its three arrays out to the tasks and back
  rw [Pipeline.chain_cons, Pipeline.chain_cons]
  iapply (StableHlo.wp_seq 𝒱 none Set.univ d (Pipeline.ucRefs τ sig) _ sops4 (sub4 (F := F)) (fresh4 (F := F)) _) $$ [Hb Hheld]
  · isplitl [Hb]; · iexact Hb
    iexact Hheld
  iintro ⟨Hb, Hheld⟩
  ihave Hf := (call_frame (SparseCore.T d) (Pipeline.ucRefs τ sig) (A4 m d f0 f1 f2 f3) (Proc.devRef .tc (main_v0 : Ref sig .tc) : DevRef τ sig) (Proc.devRef .tc (main_v29 : Ref sig .tc) : DevRef τ sig) (Proc.devRef .tc (main_v30 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A4_v0 m d f0 f1 f2 f3, A4_idx m d f0 f1 f2 f3, A4_out4 m d f0 f1 f2 f3]
  ihave Hs := (T4.st_split d ((CM m).tv d) ((CM m).iv4 d) ((CM m).ov4 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := P (CM m)) κ d 4) $$ [Hst Hsts Hb Hrem Hback Hprng HG]
  isplitr; · iexact Hctx
  isplitl [Hst]; · iexact Hst
  isplitl [Hsts]; · iexact Hsts
  iintro ⟨Hst, Hdn⟩
  ihave Hj := (T4.dn_join d ((CM m).tv d) ((CM m).iv4 d)) $$ [Hrem Hdn]
  · isplitl [Hrem]; · iexact Hrem
    iexact Hdn
  icases Hj with ⟨Ht, Hi, %f4, Ho⟩
  ispecialize Hback $$ %f4
  ihave Hheld := Hback $$ [Ht Hi Ho]
  · isplitl [Ht]; · iexact Ht
    isplitl [Hi]; · iexact Hi
    iexact Ho

  -- the rest of @main: the segments, from the buffers as the last gather call left them
  rw [Pipeline.chain_cons, Pipeline.chain_nil]
  rw [← tail_run (fun d' => B4 m d' f0 f1 f2 f3 f4)]
  rw [wp_bind]
  unfold SparseCore.Cfg.tcSt
  icases Hst with ⟨⟨%W, %hW, HO⟩, Hat, #Hrd, #Hrs, Htoks⟩
  rw [(K (F := F)).Otc_end d (le_refl 5)]
  ihave Hlev := ((K (F := F)).ctx_levAts (EH := EH) (P := P (CM m)) κ) $$ Hctx
  iapply ((K (F := F)).wp_liftProg (D (F := F)) 𝒱 (SparseCore.T d) Set.univ none _ _)
  iapply (Tail.tail_wp (fun d' => B4 m d' f0 f1 f2 f3 f4) d)
  isplitl [Hat Htoks]
  · iintro ⟨Hb, Hheld, %W', HO⟩
    rw [wp_pure]
    imodintro
    isplitl [HO Hat Htoks]
    · isplitl [HO]
      · iexists W'; isplitr
        · ipureintro
          intro p _
          show (K (F := F)).lev (SparseCore.T d, p.1) p.2 ≤ 8 * 5
          cases p.2 with
          | none => rw [SparseCore.Cfg.lev_none]; omega
          | some q => exact ((K (F := F)).lev_some_le _ q).trans (by have := q.isLt; omega)
        · iexact HO
      isplitl [Hat]; · iexact Hat
      isplitr; · iexact Hrd
      isplitr; · iexact Hrs
      iexact Htoks
    · ihave H2 := (held_two (SparseCore.T d) (Pipeline.ucRefs τ sig) _ (Proc.devRef .tc (main_arg0 : Ref sig .tc) : DevRef τ sig) (Proc.devRef .tc (main_arg1 : Ref sig .tc) : DevRef τ sig)
        (StableHlo.devRef_ne_of_ne (by decide)) (two_sub _ _ (by decide) (by decide))) $$ Hheld
      icases H2 with ⟨H0, H1⟩
      rw [Tail.W11_arg0, Tail.W11_arg1, B4_arg0 m d f0 f1 f2 f3 f4, B4_arg1 m d f0 f1 f2 f3 f4]
      isplitl [H0]; · iexact H0
      iexact H1
  isplitl [Hb]; · iexact Hb
  isplitl [Hheld HO]
  · isplitl [Hheld]; · iexact Hheld
    iexists W; iexact HO
  isplitr; · iexact Hlev
  iexact HG

/-! ## The program's run and the frame -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)

theorem hfin (d : Dev nD) (s' : Phys nD τ sig (Elt F)) : iprop(FIN m d ∗ SI s') ⊢ (⌜fq m d s'⌝ : sProp 𝕄) := by
  iintro ⟨⟨H0, H1⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h1, HSI, -⟩
  ihave H := (SI_pointsTo_agree (st := s') (ℓ := (SparseCore.T d).loc main_arg1) (I := Finset.univ) (q := fullShare) (f := m ((SparseCore.T d).loc main_arg1))) $$ [HSI H1]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)

/-- Every row number of `x` in range makes every row number a task reads name a row of the table. -/
theorem preOK (hx : ∀ d : Dev nD, ∀ i, 0 ≤ ((m (d, (Proc.devRef .tc (main_arg0 : Ref sig .tc)))) i).toInt ∧ ((m (d, (Proc.devRef .tc (main_arg0 : Ref sig .tc)))) i).toInt ≤ 99999) : PreOK (CM m) :=
  ⟨fun d L j => Pre.read_lt0 _ (hx d) L j, fun d L j => Pre.read_lt1 _ (hx d) L j, fun d L j => Pre.read_lt2 _ (hx d) L j,
    fun d L j => Pre.read_lt3 _ (hx d) L j, fun d L j => Pre.read_lt4 _ (hx d) L j⟩

theorem run_main [∀ e, Nonempty (Elt F e)] (hpre : PreOK (CM m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (CM m)) facts v₀
    (fun q hq => match q with | 0 => nomatch hq | 1 => nomatch hq | 2 => nomatch hq | 3 => nomatch hq | 4 => nomatch hq)
    (fun q _ => match q with
      | 0 => tileObl0 (CM m) hpre | 1 => tileObl1 (CM m) hpre | 2 => tileObl2 (CM m) hpre | 3 => tileObl3 (CM m) hpre | 4 => tileObl4 (CM m) hpre)
    (fun q _ => match q with
      | 0 => SparseCore.Cfg.VecSplit.of_plain (vecSplit0 (CM m)) | 1 => SparseCore.Cfg.VecSplit.of_plain (vecSplit1 (CM m))
      | 2 => SparseCore.Cfg.VecSplit.of_plain (vecSplit2 (CM m)) | 3 => SparseCore.Cfg.VecSplit.of_plain (vecSplit3 (CM m))
      | 4 => SparseCore.Cfg.VecSplit.of_plain (vecSplit4 (CM m)))
    m ρ main (G (F := F)) (FIN m) (u₀ (F := F)) (sep_elim_left.trans (hu₀ (CM m))) (hmain m ρ) (fq m) (hfin m) (QC m) (fun _ h => h)

end Cert.Proof.KB

end
-- ==== Proof.RefRun.lean ====
/-
  The reference program's run. The reference is a row lookup: for every position of the index array it
  wraps a negative row number by the table's height (`x < 0 → x + 100000`), gathers that row of the table, and
  keeps the gathered row where the wrapped number lies in `[0, 99999]`, a row of NaNs otherwise. Its @main is one
  call of the lookup function, which calls the selection function once; unfolded at the calls it is a straight
  line of twenty-three tensor operations, each writing a buffer of its own. This module lists them (`ops`),
  shows @main is that line (`main_eq`), reads what the result buffer holds after the line as ONE function of the
  two arguments (`out`, `out_eq`), and states the run: every weakly fair execution terminates with the result
  buffer at `out` of the arguments and the arguments unchanged (`run`); the frame claim is the run with the
  result dropped (`frame_ri`).
-/
import proofs.«205068_g58248346468665_cont_9to1c4b_383_29_alg».proof.Defs
import proofs.«205068_g58248346468665_cont_9to1c4b_383_29_alg».proof.Proof.Gen.ReferenceIdeal
import proofs.«205068_g58248346468665_cont_9to1c4b_383_29_alg».proof.Proof.Gen.Pre_input_domain
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The line of operations -/

/-- @main's twenty-three operations in order, the two calls unfolded: the lookup function's six up to the
    wrapped row number's two candidates (zero and its broadcast, the comparison `x < 0`; the height and its
    broadcast, the sum `x + 100000`), the selection function's one (the select between them), then the lookup
    function's sixteen: the row number as a one-component index vector, the bounds `0` and `99999` and their
    broadcasts, the two comparisons and their conjunction, its reduction over the index vector's one component,
    the gather of the rows, the mask's broadcast along a row, the NaN and its broadcast, the final select. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100000x64_S4096x50x1_S4096x50x64_2_0_n_n_0_2_164 x i),
    TRef.unary main_call0.v12 main_call0.v14 (broadcastInDim S4096x50x64 ![0, 1] bcast_S4096x50_S4096x50x64_0_1),
    TRef.nullary main_call0.cst (constant S_ .f32 0x7FC00000#32),
    TRef.unary main_call0.cst main_call0.v15 (broadcastInDim S4096x50x64 ![] bcast_S_S4096x50x64),
    TRef.ternary main_call0.v14 main_call0.v13 main_call0.v15 main_call0.v16 select ]

set_option maxRecDepth 1024 in
/-- @main is that straight line: the two functions' definitions unfolded at their calls, both sides are one chain
    of steps once sequencing is reassociated. -/
theorem main_eq (c : Dev nD) : main (F := F) c = seq ops := by
  simp only [main, fn_take.body, fn_where.body, seq, bind_assoc, pure_bind]

/-! ## What the result buffer holds after the line -/

/-- The row numbers wrapped: a negative one taken from the table's end (`x + 100000`), any other as it is. -/
def wrapped (x : (⟨S4096x50, .i32⟩ : BufTy).Contents (Elt F)) : (⟨S4096x50, .i32⟩ : BufTy).Contents (Elt F) :=
  select (cmpi .slt x (broadcastInDim S4096x50 ![] bcast_S_S4096x50 (constantI S_ 32 0#32)))
    (addi x (broadcastInDim S4096x50 ![] bcast_S_S4096x50 (constantI S_ 32 100000#32))) x

/-- The wrapped row numbers as index vectors of one component, the gather's index operand. -/
def index (x : (⟨S4096x50, .i32⟩ : BufTy).Contents (Elt F)) : (⟨S4096x50x1, .i32⟩ : BufTy).Contents (Elt F) :=
  broadcastInDim S4096x50x1 ![0, 1] bcast_S4096x50_S4096x50x1_0_1 (wrapped x)

/-- Where the wrapped row number is a row of the table: `0 ≤ ·` and `· ≤ 99999`, conjoined over the index
    vector's one component. -/
def inRange (x : (⟨S4096x50, .i32⟩ : BufTy).Contents (Elt F)) : (⟨S4096x50, .i1⟩ : BufTy).Contents (Elt F) :=
  Host.reduce IntOp.andi
    (andi (cmpi .sge (index x) (broadcastInDim S4096x50x1 ![] bcast_S_S4096x50x1 (constantI S_ 32 0#32)))
      (cmpi .sle (index x) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- The reference's result as a function of its arguments, the row numbers `x` and the table `w`: the gathered
    rows where the wrapped row number is in range, NaN rows elsewhere. -/
def out (x : (⟨S4096x50, .i32⟩ : BufTy).Contents (Elt F)) (w : (⟨S100000x64, .f32⟩ : BufTy).Contents (Elt F)) :
    (⟨S4096x50x64, .f32⟩ : BufTy).Contents (Elt F) :=
  select (broadcastInDim S4096x50x64 ![0, 1] bcast_S4096x50_S4096x50x64_0_1 (inRange x))
    (Host.gather gather_S100000x64_S4096x50x1_S4096x50x64_2_0_n_n_0_2_164 w (index x))
    (broadcastInDim S4096x50x64 ![] bcast_S_S4096x50x64 (constant S_ .f32 0x7FC00000#32))

/-- The fold of the line at the result buffer is `out` of the two arguments' contents: each operation's result
    read at its own buffer is its function's value, at any other buffer what was there; the typed references'
    transports between a value's type and its buffer's are the identity at these literal buffers. -/
theorem out_eq (V : Valuation τ sig (Elt F)) :
    after ops V (main_v0 : DevRef τ sig) = out (V (main_arg0 : DevRef τ sig)) (V (main_arg1 : DevRef τ sig)) := by
  after_results
  simp only [TRef.toBuf, TRef.ofBuf, cast_eq]
  rfl

/-- No operation of the line writes the row numbers. -/
theorem arg0_eq (V : Valuation τ sig (Elt F)) :
    after ops V (main_arg0 : DevRef τ sig) = V (main_arg0 : DevRef τ sig) := by
  after_results

/-- No operation of the line writes the table. -/
theorem arg1_eq (V : Valuation τ sig (Elt F)) :
    after ops V (main_arg1 : DevRef τ sig) = V (main_arg1 : DevRef τ sig) := by
  after_results

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of
    @main terminates with the result buffer at `out` of the two arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

/-- The reference runs and its arguments end unchanged: the run at the ideal instance, the result dropped. -/
theorem frame_ri : Cert.frame_ReferenceIdeal := fun m ρ _ =>
  (θ_run Cert.ReferenceIdeal.defs _ _).mono (fun _ h c => (h c).2) (run (F := Ideal) m ρ)

end Cert.Proof.Ref

end
-- ==== Proof.KVT0.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KV.T0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v5_scv
abbrev oW : Memref sig .scVector .hbm S40960x128 .f32 := Memref.whole main_v6_scv
abbrev sI : Memref sig .scVector .vmem S10x128 .i32 := Memref.whole cc0_scratch0
abbrev sA : Memref sig .scVector .vmem S128x128 .f32 := Memref.whole cc0_scratch1
abbrev sB : Memref sig .scVector .vmem S128x128 .f32 := Memref.whole cc0_scratch2

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The subcore's block of row numbers, as the kernel slices it. -/
abbrev iBlk (L : grid0.Coords) : Memref sig .scVector .hbm S10x128 .i32 :=
  ((iW : Memref sig .scVector .hbm S32x10x128 .i32).slice (Rect.unit (s := S32x10x128) (k0_off1 L) S1x10x128.size (k0_off1_inb L)) (fun _ => rfl)).squeeze S10x128 squeezes_S1x10x128_S10x128
/-- Chunk `2 k + r` of the subcore's part of the result, as the kernel slices it. -/
abbrev oCh (L : grid0.Coords) (k : Fin k0_t1_loop.trips) (r : Fin 2) : Memref sig .scVector .hbm S128x128 .f32 :=
  (oW : Memref sig .scVector .hbm S40960x128 .f32).slice (Rect.unit (s := S40960x128) (k0_off4 L k (BitVec.ofNat 32 r.val)) S128x128.size (k0_off4_inb L k r)) (fun _ => rfl)

/-- Row `2 k + r` of the row numbers in the scratch, and the table as the gather names it. -/
abbrev iRowM (k : Fin k0_t1_loop.trips) (r : Fin 2) : Memref sig .scVector .vmem S128 .i32 :=
  ((sI : Memref sig .scVector .vmem S10x128 .i32).slice (Rect.unit (s := S10x128) (k0_off3 k (BitVec.ofNat 32 r.val)) S1x128.size (k0_off3_inb k r)) (fun _ => rfl)).squeeze S128 squeezes_S1x128_S128
abbrev tWs : Memref sig .scVector .hbm S50000x128 .f32 :=
  (tW : Memref sig .scVector .hbm S50000x128 .f32).slice (Rect.unit (s := S50000x128) ![0, 0] S50000x128.size inb_S50000x128_S50000x128_0_0) (fun _ => rfl)

theorem cond1_neg : ∀ k : Fin k0_t1_loop.trips, k.val = 0 → ¬ k0_cond1 k = 1#1 := by decide +kernel
theorem cond2_neg : ∀ k : Fin k0_t1_loop.trips, k.val = 0 → ¬ k0_cond2 k = 1#1 := by decide +kernel
theorem cond1_pos : ∀ k : Fin k0_t1_loop.trips, k.val ≠ 0 → k0_cond1 k = 1#1 := by decide +kernel
theorem cond2_pos : ∀ k : Fin k0_t1_loop.trips, k.val ≠ 0 → k0_cond2 k = 1#1 := by decide +kernel
theorem trips_eq : k0_t1_loop.trips = 5 := by decide +kernel

variable [FloatOps F] (d : Dev nD) (L : grid0.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

abbrev XBuf : Type := Buf (Elt F) ((sI : Memref sig .scVector .vmem S10x128 .i32).view.loc (thr d L))
abbrev TBuf : Type := Buf (Elt F) ((tW : Memref sig .scVector .hbm S50000x128 .f32).view.loc (thr d L))

/-- What the gather of row `2 k + r` of the row numbers `X` brings: at row `p`, the table's row `X[2 k + r, p]`. -/
def gVal (ft : TBuf (F := F) d L) (X : XBuf (F := F) d L) (hX : ∀ y, ((sI : Memref sig .scVector .vmem S10x128 .i32).view.read (Elt F) X y).toNat < 50000)
    (k : Fin k0_t1_loop.trips) (r : Fin 2) : S128x128.Idx → Elt F .f32 :=
  SparseCore.gatherPayload gathers_S50000x128_S128x128 ((tWs).view.read (Elt F) ft)
    (SparseCore.rows ((iRowM k r).view.read (Elt F) X) (by decide) (fun _ => hX _))

/-- Chunk `2 k + r` holds what that gather brought. -/
def ChunkOK (ft : TBuf (F := F) d L) (X : XBuf (F := F) d L) (hX : ∀ y, ((sI : Memref sig .scVector .vmem S10x128 .i32).view.read (Elt F) X y).toNat < 50000)
    (k : Fin k0_t1_loop.trips) (r : Fin 2) (f : oBuf (F := F) d L) : Prop :=
  (oCh L k r).view.read (Elt F) f = gVal d L ft X hX k r

omit [FloatOps F] in
/-- A chunk written whole with a staging buffer that was written whole with the gather's payload holds the payload. -/
theorem ok_of_form {M : Memref sig .scVector .vmem S128x128 .f32} (ft : TBuf (F := F) d L) (X : XBuf (F := F) d L)
    (hX : ∀ y, ((sI : Memref sig .scVector .vmem S10x128 .i32).view.read (Elt F) X y).toNat < 50000)
    (k : Fin k0_t1_loop.trips) (r : Fin 2) (fo : oBuf (F := F) d L) (g1 : Buf (Elt F) (M.view.loc (thr d L)))
    (G : S128x128.Idx → Elt F .f32) (hG : G = gVal d L ft X hX k r) (P : S128x128.Idx → Elt F .f32)
    (hP : P = ReadAs.same.apply (M.view.read (Elt F) (M.view.writes (Elt F) g1 [⟨Rect.whole S128x128, G⟩]))) :
    ChunkOK d L ft X hX k r ((oCh L k r).view.writes (Elt F) fo [⟨Rect.whole S128x128, P⟩]) := by
  unfold ChunkOK
  rw [View.read_writes_whole, hP]
  show M.view.read (Elt F) (M.view.writes (Elt F) g1 [⟨Rect.whole S128x128, G⟩]) = _
  rw [View.read_writes_whole, hG]

/-- The two chunks of trip `j` at the contents `gc` the whole result array is to hold. -/
abbrev donePair (gc : oBuf (F := F) d L) (j : Fin k0_t1_loop.trips) : sProp 𝕄 :=
  iprop(own d L (oCh L j 0) gc ∗ own d L (oCh L j 1) gc)
abbrev freshPair (fo : oBuf (F := F) d L) (j : Fin k0_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (gc : oBuf (F := F) d L) (fo : oBuf (F := F) d L) (n : Nat) (j : Fin k0_t1_loop.trips) : sProp 𝕄 :=
  if n ≤ j.val then freshPair d L fo j else if j.val + 1 < n then donePair d L gc j else iprop(emp)

/-- The staging buffers and their write semaphores before trip `n`: free before the first trip, inside the
    two writes in flight afterwards. -/
def slots (ft : TBuf (F := F) d L) (X : XBuf (F := F) d L) (hX : ∀ y, ((sI : Memref sig .scVector .vmem S10x128 .i32).view.read (Elt F) X y).toNat < 50000) (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc0_scratch4.sem) 0 ∗ semVal (thr d L, SemLoc.dma cc0_scratch5.sem) 0)
  else
    iprop(∃ kp : Fin k0_t1_loop.trips, ⌜kp.val + 1 = n⌝ ∗ ∃ fa : oBuf (F := F) d L, ∃ ga, ∃ fb : oBuf (F := F) d L, ∃ gb, ⌜ChunkOK d L ft X hX kp 0 fa ∧ ChunkOK d L ft X hX kp 1 fb⌝ ∗
      Transfers.Flight countersEmb (thr d L) (SemLoc.dma cc0_scratch4.sem) (none : HIx 5) 524288
          iprop(own d L (oCh L kp 0) fa ∗ own d L (sA : Memref sig .scVector .vmem S128x128 .f32) ga)
      ∗ Transfers.Flight countersEmb (thr d L) (SemLoc.dma cc0_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (hX : ∀ y, ((sI : Memref sig .scVector .vmem S10x128 .i32).view.read (Elt F) X y).toNat < 50000)
    (gc : oBuf (F := F) d L) (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc0_scratch3.sem) 0
    ∗ slots d L ft X hX n
    ∗ (bigSep Finset.univ fun j => chunkSt d L gc fo n j)
    ∗ ∃ W', ⌜∀ p ∈ W', p ∈ W ∨ p.2 = none⌝ ∗ owes (thr d L) O W')

/-! ## The chunks' bookkeeping -/

omit [FloatOps F] in
theorem chunks_init (gc : oBuf (F := F) d L) (fo : oBuf (F := F) d L) :
    (bigSep Finset.univ fun j => freshPair d L fo j) = bigSep Finset.univ fun j => chunkSt d L gc fo 0 j :=
  bigSep_congr fun j _ => by unfold chunkSt; rw [if_pos (Nat.zero_le _)]

omit [FloatOps F] in
theorem chunks_take (gc : oBuf (F := F) d L) (fo : oBuf (F := F) d L) (n : Nat) (k : Fin k0_t1_loop.trips) (hk : k.val = n) :
    (bigSep Finset.univ fun j => chunkSt d L gc fo n j)
      = iprop(freshPair d L fo k ∗ bigSep (Finset.univ.erase k) fun j => chunkSt d L gc fo n j) := by
  rw [SparseCore.bigSep_erase' (Finset.mem_univ k)]
  congr 1
  unfold chunkSt; rw [if_pos (le_of_eq hk.symm)]

omit [FloatOps F] in
theorem chunks_step0 (gc : oBuf (F := F) d L) (fo : oBuf (F := F) d L) (n : Nat) (k : Fin k0_t1_loop.trips) (hk : k.val = n) (hn : n = 0) :
    (bigSep (Finset.univ.erase k) fun j => chunkSt d L gc fo n j) ⊢ bigSep Finset.univ fun j => chunkSt d L gc fo (n + 1) j := by
  have e1 : chunkSt d L gc fo (n + 1) k = iprop(emp) := by unfold chunkSt; rw [if_neg (by omega), if_neg (by omega)]
  have e4 : (bigSep (Finset.univ.erase k) fun j => chunkSt d L gc fo n j) = bigSep (Finset.univ.erase k) fun j => chunkSt d L gc fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L gc fo (n + 1) j), e1, e4]
  iintro H
  isplitr; · iempintro
  iexact H

omit [FloatOps F] in
theorem chunks_step (gc : oBuf (F := F) d L) (fo : oBuf (F := F) d L) (n : Nat) (k kp : Fin k0_t1_loop.trips) (hk : k.val = n) (hkp : kp.val + 1 = n) :
    iprop((bigSep (Finset.univ.erase k) fun j => chunkSt d L gc fo n j) ∗ donePair d L gc kp)
      ⊢ bigSep Finset.univ fun j => chunkSt d L gc fo (n + 1) j := by
  have hne : kp ≠ k := fun h => by rw [h] at hkp; omega
  have hmem : kp ∈ Finset.univ.erase k := Finset.mem_erase.mpr ⟨hne, Finset.mem_univ _⟩
  have e1 : chunkSt d L gc fo (n + 1) k = iprop(emp) := by unfold chunkSt; rw [if_neg (by omega), if_neg (by omega)]
  have e2 : chunkSt d L gc fo (n + 1) kp = donePair d L gc kp := by unfold chunkSt; rw [if_neg (by omega), if_pos (by omega)]
  have e3 : chunkSt d L gc fo n kp = iprop(emp) := by unfold chunkSt; rw [if_neg (by omega), if_neg (by omega)]
  have e4 : (bigSep ((Finset.univ.erase k).erase kp) fun j => chunkSt d L gc fo n j)
      = bigSep ((Finset.univ.erase k).erase kp) fun j => chunkSt d L gc fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L gc fo (n + 1) j),
    SparseCore.bigSep_erase' hmem (Φ := fun j => chunkSt d L gc fo (n + 1) j),
    SparseCore.bigSep_erase' hmem (Φ := fun j => chunkSt d L gc fo n j), e1, e2, e3, e4]
  iintro ⟨⟨-, Hr⟩, Hd⟩
  isplitr; · iempintro
  isplitl [Hd]; · iexact Hd
  iexact Hr

omit [FloatOps F] in
theorem chunks_final (gc : oBuf (F := F) d L) (fo : oBuf (F := F) d L) (kp : Fin k0_t1_loop.trips) (hkp : kp.val + 1 = k0_t1_loop.trips) :
    iprop((bigSep Finset.univ fun j => chunkSt d L gc fo k0_t1_loop.trips j) ∗ donePair d L gc kp)
      ⊢ bigSep Finset.univ fun j => donePair d L gc j := by
  have e1 : chunkSt d L gc fo k0_t1_loop.trips kp = iprop(emp) := by
    unfold chunkSt; rw [if_neg (by have := kp.isLt; omega), if_neg (by omega)]
  have e2 : (bigSep (Finset.univ.erase kp) fun j => chunkSt d L gc fo k0_t1_loop.trips j) = bigSep (Finset.univ.erase kp) fun j => donePair d L gc j :=
    bigSep_congr fun j hj => by
      have h1 : j ≠ kp := (Finset.mem_erase.mp hj).1
      have h1' : j.val ≠ kp.val := fun h => h1 (Fin.ext h)
      have hj1 := j.isLt
      have hk1 := kp.isLt
      have a : ¬ k0_t1_loop.trips ≤ j.val := by omega
      have b : j.val + 1 < k0_t1_loop.trips := by omega
      unfold chunkSt
      simp only [if_neg a, if_pos b]
  rw [SparseCore.bigSep_erase' (Finset.mem_univ kp) (Φ := fun j => chunkSt d L gc fo k0_t1_loop.trips j),
    SparseCore.bigSep_erase' (Finset.mem_univ kp) (Φ := fun j => donePair d L gc j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc0_scoped0.sem) 0
        ∗ semVal (thr d L, SemLoc.dma cc0_scratch3.sem) 0
        ∗ semVal (thr d L, SemLoc.dma cc0_scratch4.sem) 0
        ∗ semVal (thr d L, SemLoc.dma cc0_scratch5.sem) 0
        ∗ owes (thr d L) O W)
      ⊢ wp frame (wpE (defs₀ (F := F)) 𝒱₀ (thr d L) none) Set.univ
          (cc0_kern L tW (Memref.isWhole_whole _) iW (Memref.isWhole_whole _) oW (Memref.isWhole_whole _)
            sI (Memref.isWhole_whole _) sA (Memref.isWhole_whole _) sB (Memref.isWhole_whole _) cc0_scratch3 cc0_scratch4 cc0_scratch5 cc0_scoped0)
          fun _ => iprop(((tW : Memref sig .scVector .hbm S50000x128 .f32).view.loc (thr d L) ↦{qs} ft)
            ∗ own d L (iBlk L) fi
            ∗ (bigSep Finset.univ fun j => donePair d L gc j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc0_scoped0.sem) 0
            ∗ semVal (thr d L, SemLoc.dma cc0_scratch3.sem) 0
            ∗ semVal (thr d L, SemLoc.dma cc0_scratch4.sem) 0
            ∗ semVal (thr d L, SemLoc.dma cc0_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  have hXr : (sI : Memref sig .scVector .vmem S10x128 .i32).view.read (Elt F) (View.write (Elt F) (sI : Memref sig .scVector .vmem S10x128 .i32).view f0 (ReadAs.same.apply ((iBlk L).view.read (Elt F) fi)) Finset.univ) = (iBlk L).view.read (Elt F) fi :=
    View.read_write_univ (v := (sI : Memref sig .scVector .vmem S10x128 .i32).view) f0 _
  sl_unfold [cc0_kern]
  sl_exec
  ihave Hch0 := (Entails.of_eq (chunks_init d L gc fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) hX gc fo) $$ [Hmw Ht H0 Hg H1' H2' Ha Hb Hch0 HO]
  case region =>
    intro k _
    have hin0 : ∀ x, ((((sI : Memref sig .scVector .vmem S10x128 .i32).slice (Rect.unit (s := S10x128) (k0_off3 k 0#32) S1x128.size (k0_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k0_off3 k 1#32) S1x128.size (k0_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k0_h1 : ¬ k0_cond1 k = 1#1 := cond1_neg k h0
      have k0_h2 : ¬ k0_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest]
      · iapply (chunks_step0 d L gc fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k0_h1 : k0_cond1 k = 1#1 := cond1_pos k h0
      have k0_h2 : k0_cond2 k = 1#1 := cond2_pos k h0
      unfold inv slots
      rw [if_neg h0, if_neg (Nat.succ_ne_zero k.val)]
      iintro ⟨#Hmw, Ht, H0, Hg, ⟨%kp, %hkp, %fa, %ga, %fb, %gb, %hok, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest Ha_dst Hb_dst]
      · iapply (chunks_step d L gc fo k.val k kp rfl hkp)
        isplitl [Hrest]; · iexact Hrest
        isplitl [Ha_dst]
        · iapply (Entails.of_eq (pointsTo_congr (hgc _ hX hXr kp 0 fa hok.1))); iexact Ha_dst
        iapply (Entails.of_eq (pointsTo_congr (hgc _ hX hXr kp 1 fb hok.2))); iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k0_t1_loop.trips = 0 by rw [trips_eq]; decide)]
  icases HI with ⟨-, Ht, H0, Hg, ⟨%kp, %hkp, %fa, %ga, %fb, %gb, %hok, Ha, Hb⟩, Hch, %W', %hW', HO⟩
  sl_exec
  sl_step
  isplitl [Ht]; · iexact Ht
  isplitl [Hi]; · iexact Hi
  isplitl [Hch Ha_dst Hb_dst]
  · iapply (chunks_final d L gc fo kp hkp)
    isplitl [Hch]; · iexact Hch
    isplitl [Ha_dst]
    · iapply (Entails.of_eq (pointsTo_congr (hgc _ hX hXr kp 0 fa hok.1))); iexact Ha_dst
    iapply (Entails.of_eq (pointsTo_congr (hgc _ hX hXr kp 1 fb hok.2))); iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid0.Coords) (b : Ref sig .scVector) : DevRef τ sig := (Proc.scVector (cV L) (jV L)).devRef b

def myBufs (L : grid0.Coords) : Finset (DevRef τ sig) := {dr L cc0_scratch0, dr L cc0_scratch1, dr L cc0_scratch2}
def mySems (d : Dev nD) (L : grid0.Coords) : Finset (GSem nD τ sig) :=
  {(thr d L, SemLoc.dma cc0_scoped0.sem), (thr d L, SemLoc.dma cc0_scratch3.sem), (thr d L, SemLoc.dma cc0_scratch4.sem), (thr d L, SemLoc.dma cc0_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc0_scoped0.sem : SemLoc sig).isScoped .scVector = true; decide⟩
  · exact mem_ownCells.mpr ⟨rfl, by show (SemLoc.dma cc0_scratch3.sem : SemLoc sig).isScoped .scVector = true; decide⟩
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩

omit [FloatOps F] in
theorem ownSems0_split :
    (ownSems0 (thr d L) : sProp 𝕄)
      = iprop((semVal (thr d L, SemLoc.dma cc0_scoped0.sem) 0 ∗ semVal (thr d L, SemLoc.dma cc0_scratch3.sem) 0
          ∗ semVal (thr d L, SemLoc.dma cc0_scratch4.sem) 0 ∗ semVal (thr d L, SemLoc.dma cc0_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc0_scoped0.sem : DmaSem sig) ≠ cc0_scratch3.sem := by decide
  have e2 : (cc0_scoped0.sem : DmaSem sig) ≠ cc0_scratch4.sem := by decide
  have e3 : (cc0_scoped0.sem : DmaSem sig) ≠ cc0_scratch5.sem := by decide
  have e4 : (cc0_scratch3.sem : DmaSem sig) ≠ cc0_scratch4.sem := by decide
  have e5 : (cc0_scratch3.sem : DmaSem sig) ≠ cc0_scratch5.sem := by decide
  have e6 : (cc0_scratch4.sem : DmaSem sig) ≠ cc0_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc0_scratch0 ≠ dr L cc0_scratch1 := fun e => absurd (Proc.devRef_injective _ e) (show (cc0_scratch0 : Ref sig .scVector) ≠ cc0_scratch1 by decide)
  have e2 : dr L cc0_scratch0 ≠ dr L cc0_scratch2 := fun e => absurd (Proc.devRef_injective _ e) (show (cc0_scratch0 : Ref sig .scVector) ≠ cc0_scratch2 by decide)
  have e3 : dr L cc0_scratch1 ≠ dr L cc0_scratch2 := fun e => absurd (Proc.devRef_injective _ e) (show (cc0_scratch1 : Ref sig .scVector) ≠ cc0_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) (gc : oBuf (F := F) d L) : sProp 𝕄 :=
  iprop(((tW : Memref sig .scVector .hbm S50000x128 .f32).view.loc (thr d L) ↦{qs} ft) ∗ own d L (iBlk L) fi
    ∗ bigSep Finset.univ fun j => donePair d L gc j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc0_kern L tW (Memref.isWhole_whole _) iW (Memref.isWhole_whole _) oW (Memref.isWhole_whole _)
            sI (Memref.isWhole_whole _) sA (Memref.isWhole_whole _) sB (Memref.isWhole_whole _) cc0_scratch3 cc0_scratch4 cc0_scratch5 cc0_scoped0)
          fun _ => iprop(tdRes d L qs ft fi gc ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi gc hgc)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KV.T0

end
-- ==== Proof.KVP0.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KVT0

noncomputable section

namespace Cert.Proof.KV.T0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid0.bound 0)) (s : Fin (grid0.bound 1)) : grid0.Coords :=
  fun | 0 => c | 1 => s | ⟨_ + 2, h⟩ => absurd h (Nat.not_lt.2 (Nat.le_add_left _ _))

abbrev iLoc (d : Dev nD) : Loc nD τ sig := (SparseCore.T d).loc main_v5
abbrev oLoc (d : Dev nD) : Loc nD τ sig := (SparseCore.T d).loc main_v6

abbrev iRect (L : grid0.Coords) : Rect S32x10x128 := Rect.unit (s := S32x10x128) (k0_off1 L) S1x10x128.size (k0_off1_inb L)
abbrev oRect (L : grid0.Coords) (k : Fin k0_t1_loop.trips) (r : Fin 2) : Rect S40960x128 :=
  Rect.unit (s := S40960x128) (k0_off4 L k (BitVec.ofNat 32 r.val)) S128x128.size (k0_off4_inb L k r)

theorem set_iBlk (L : grid0.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid0.Coords) (k : Fin k0_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid0.bound 0) × Fin (grid0.bound 1)
abbrev CI : Type := (Fin (grid0.bound 0) × Fin (grid0.bound 1)) × (Fin k0_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k0_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k0_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k0_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid0.bound 0), cc.val = ((idx 0).val / 128 % 20) / 10 := ⟨⟨_, by show _ < 2; omega⟩, rfl⟩
  obtain ⟨ii, hii⟩ : ∃ ii : Fin (grid0.bound 1), ii.val = (idx 0).val / 128 / 20 := ⟨⟨_, by show _ < 16; omega⟩, rfl⟩
  obtain ⟨kk, hkk⟩ : ∃ kk : Fin k0_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k0_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid0.bound 0)) : PosShare TreeShare := Transfers.shareTok fullShare (grid0.bound 0) c
abbrev tsh (c : Fin (grid0.bound 0)) (i : Fin (grid0.bound 1)) : PosShare TreeShare := Transfers.shareTok (tokC c) (grid0.bound 1) i

/-- What of the table stays with the TensorCore while the tasks hold their shares. -/
def tblRem (ft : Buf (Elt F) (tblLoc d)) : sProp 𝕄 :=
  iprop((tblLoc d ↦{Transfers.shareDrop fullShare (grid0.bound 0)} ft)
    ∗ bigSep Finset.univ fun c : Fin (grid0.bound 0) => (tblLoc d ↦{Transfers.shareDrop (tokC c) (grid0.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid0.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid0.bound 1)))) $$ Hc
  ihave Hc'' := (Entails.of_eq (bigSep_sep' (Finset.univ : Finset (Fin (grid0.bound 0)))
    (fun c => (tblLoc d ↦{Transfers.shareDrop (tokC c) (grid0.bound 1)} ft : sProp 𝕄))
    (fun c => bigSep Finset.univ fun i : Fin (grid0.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid0.bound 0))
  isplitl [Hd]; · iexact Hd
  ihave Hc := (Entails.of_eq (bigSep_sep' (Finset.univ : Finset (Fin (grid0.bound 0)))
    (fun c => (tblLoc d ↦{Transfers.shareDrop (tokC c) (grid0.bound 1)} ft : sProp 𝕄))
    (fun c => bigSep Finset.univ fun i : Fin (grid0.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid0.bound 1))))
  iexact Hc

/-! ## The whole arrays out to the tasks and back -/

variable [FloatOps F]

/-- What the call hands SparseCore `c`'s sequencer: its sixteen tasks' shares; and what comes back. -/
def stRes (c : Fin (grid0.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid0.bound 0)) (ft : Buf (Elt F) (tblLoc d)) (fi : Buf (Elt F) (iLoc d)) (gc : Buf (Elt F) (oLoc d)) : sProp 𝕄 :=
  bigSep Finset.univ fun i => tdRes d (coordsV c i) (tsh c i) ft fi gc

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid0.bound 0)) (i : Fin (grid0.bound 1)) : sProp 𝕄 := (tblLoc d ↦{tsh c i} ft : sProp 𝕄)
abbrev If (fi : Buf (Elt F) (iLoc d)) (c : Fin (grid0.bound 0)) (i : Fin (grid0.bound 1)) : sProp 𝕄 := (iLoc d ↦[iSet (c, i)]{fullShare} fi : sProp 𝕄)
abbrev Of (fo : Buf (Elt F) (oLoc d)) (c : Fin (grid0.bound 0)) (i : Fin (grid0.bound 1)) : sProp 𝕄 :=
  bigSep Finset.univ fun k => iprop((oLoc d ↦[oSet ((c, i), (k, 0))]{fullShare} fo) ∗ (oLoc d ↦[oSet ((c, i), (k, 1))]{fullShare} fo))
theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) (gc : Buf (Elt F) (oLoc d)) :
    (bigSep Finset.univ fun c => dnRes d c ft fi gc)
      = iprop((bigSep Finset.univ fun c => bigSep Finset.univ fun i => Tf d ft c i) ∗ (bigSep Finset.univ fun c => bigSep Finset.univ fun i => If d fi c i)
          ∗ (bigSep Finset.univ fun c => bigSep Finset.univ fun i => Of d gc c i)) :=
  (bigSep_congr (s := Finset.univ) fun c _ => bigSep3 Finset.univ (Tf d ft c) (If d fi c) (Of d gc c)).trans
    (bigSep3 Finset.univ (fun c => bigSep Finset.univ fun i => Tf d ft c i) (fun c => bigSep Finset.univ fun i => If d fi c i) (fun c => bigSep Finset.univ fun i => Of d gc c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) (gc : Buf (Elt F) (oLoc d)) :
    iprop(tblRem d ft ∗ bigSep Finset.univ fun c => dnRes d c ft fi gc)
      ⊢ iprop((tblLoc d ↦{fullShare} ft) ∗ (iLoc d ↦{fullShare} fi) ∗ (oLoc d ↦{fullShare} gc)) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (Entails.of_eq (out_split d gc).symm); iexact Ho

end Cert.Proof.KV.T0

end
-- ==== Proof.KVT1.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KV.T1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v11_scv
abbrev oW : Memref sig .scVector .hbm S40960x128 .f32 := Memref.whole main_v12_scv
abbrev sI : Memref sig .scVector .vmem S10x128 .i32 := Memref.whole cc1_scratch0
abbrev sA : Memref sig .scVector .vmem S128x128 .f32 := Memref.whole cc1_scratch1
abbrev sB : Memref sig .scVector .vmem S128x128 .f32 := Memref.whole cc1_scratch2

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The subcore's block of row numbers, as the kernel slices it. -/
abbrev iBlk (L : grid1.Coords) : Memref sig .scVector .hbm S10x128 .i32 :=
  ((iW : Memref sig .scVector .hbm S32x10x128 .i32).slice (Rect.unit (s := S32x10x128) (k1_off1 L) S1x10x128.size (k1_off1_inb L)) (fun _ => rfl)).squeeze S10x128 squeezes_S1x10x128_S10x128
/-- Chunk `2 k + r` of the subcore's part of the result, as the kernel slices it. -/
abbrev oCh (L : grid1.Coords) (k : Fin k1_t1_loop.trips) (r : Fin 2) : Memref sig .scVector .hbm S128x128 .f32 :=
  (oW : Memref sig .scVector .hbm S40960x128 .f32).slice (Rect.unit (s := S40960x128) (k1_off4 L k (BitVec.ofNat 32 r.val)) S128x128.size (k1_off4_inb L k r)) (fun _ => rfl)

/-- Row `2 k + r` of the row numbers in the scratch, and the table as the gather names it. -/
abbrev iRowM (k : Fin k1_t1_loop.trips) (r : Fin 2) : Memref sig .scVector .vmem S128 .i32 :=
  ((sI : Memref sig .scVector .vmem S10x128 .i32).slice (Rect.unit (s := S10x128) (k1_off3 k (BitVec.ofNat 32 r.val)) S1x128.size (k1_off3_inb k r)) (fun _ => rfl)).squeeze S128 squeezes_S1x128_S128
abbrev tWs : Memref sig .scVector .hbm S50000x128 .f32 :=
  (tW : Memref sig .scVector .hbm S50000x128 .f32).slice (Rect.unit (s := S50000x128) ![0, 0] S50000x128.size inb_S50000x128_S50000x128_0_0) (fun _ => rfl)

theorem cond1_neg : ∀ k : Fin k1_t1_loop.trips, k.val = 0 → ¬ k1_cond1 k = 1#1 := by decide +kernel
theorem cond2_neg : ∀ k : Fin k1_t1_loop.trips, k.val = 0 → ¬ k1_cond2 k = 1#1 := by decide +kernel
theorem cond1_pos : ∀ k : Fin k1_t1_loop.trips, k.val ≠ 0 → k1_cond1 k = 1#1 := by decide +kernel
theorem cond2_pos : ∀ k : Fin k1_t1_loop.trips, k.val ≠ 0 → k1_cond2 k = 1#1 := by decide +kernel
theorem trips_eq : k1_t1_loop.trips = 5 := by decide +kernel

variable [FloatOps F] (d : Dev nD) (L : grid1.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

abbrev XBuf : Type := Buf (Elt F) ((sI : Memref sig .scVector .vmem S10x128 .i32).view.loc (thr d L))
abbrev TBuf : Type := Buf (Elt F) ((tW : Memref sig .scVector .hbm S50000x128 .f32).view.loc (thr d L))

/-- What the gather of row `2 k + r` of the row numbers `X` brings: at row `p`, the table's row `X[2 k + r, p]`. -/
def gVal (ft : TBuf (F := F) d L) (X : XBuf (F := F) d L) (hX : ∀ y, ((sI : Memref sig .scVector .vmem S10x128 .i32).view.read (Elt F) X y).toNat < 50000)
    (k : Fin k1_t1_loop.trips) (r : Fin 2) : S128x128.Idx → Elt F .f32 :=
  SparseCore.gatherPayload gathers_S50000x128_S128x128 ((tWs).view.read (Elt F) ft)
    (SparseCore.rows ((iRowM k r).view.read (Elt F) X) (by decide) (fun _ => hX _))

/-- Chunk `2 k + r` holds what that gather brought. -/
def ChunkOK (ft : TBuf (F := F) d L) (X : XBuf (F := F) d L) (hX : ∀ y, ((sI : Memref sig .scVector .vmem S10x128 .i32).view.read (Elt F) X y).toNat < 50000)
    (k : Fin k1_t1_loop.trips) (r : Fin 2) (f : oBuf (F := F) d L) : Prop :=
  (oCh L k r).view.read (Elt F) f = gVal d L ft X hX k r

omit [FloatOps F] in
/-- A chunk written whole with a staging buffer that was written whole with the gather's payload holds the payload. -/
theorem ok_of_form {M : Memref sig .scVector .vmem S128x128 .f32} (ft : TBuf (F := F) d L) (X : XBuf (F := F) d L)
    (hX : ∀ y, ((sI : Memref sig .scVector .vmem S10x128 .i32).view.read (Elt F) X y).toNat < 50000)
    (k : Fin k1_t1_loop.trips) (r : Fin 2) (fo : oBuf (F := F) d L) (g1 : Buf (Elt F) (M.view.loc (thr d L)))
    (G : S128x128.Idx → Elt F .f32) (hG : G = gVal d L ft X hX k r) (P : S128x128.Idx → Elt F .f32)
    (hP : P = ReadAs.same.apply (M.view.read (Elt F) (M.view.writes (Elt F) g1 [⟨Rect.whole S128x128, G⟩]))) :
    ChunkOK d L ft X hX k r ((oCh L k r).view.writes (Elt F) fo [⟨Rect.whole S128x128, P⟩]) := by
  unfold ChunkOK
  rw [View.read_writes_whole, hP]
  show M.view.read (Elt F) (M.view.writes (Elt F) g1 [⟨Rect.whole S128x128, G⟩]) = _
  rw [View.read_writes_whole, hG]

/-- The two chunks of trip `j` at the contents `gc` the whole result array is to hold. -/
abbrev donePair (gc : oBuf (F := F) d L) (j : Fin k1_t1_loop.trips) : sProp 𝕄 :=
  iprop(own d L (oCh L j 0) gc ∗ own d L (oCh L j 1) gc)
abbrev freshPair (fo : oBuf (F := F) d L) (j : Fin k1_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (gc : oBuf (F := F) d L) (fo : oBuf (F := F) d L) (n : Nat) (j : Fin k1_t1_loop.trips) : sProp 𝕄 :=
  if n ≤ j.val then freshPair d L fo j else if j.val + 1 < n then donePair d L gc j else iprop(emp)

/-- The staging buffers and their write semaphores before trip `n`: free before the first trip, inside the
    two writes in flight afterwards. -/
def slots (ft : TBuf (F := F) d L) (X : XBuf (F := F) d L) (hX : ∀ y, ((sI : Memref sig .scVector .vmem S10x128 .i32).view.read (Elt F) X y).toNat < 50000) (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc1_scratch4.sem) 0 ∗ semVal (thr d L, SemLoc.dma cc1_scratch5.sem) 0)
  else
    iprop(∃ kp : Fin k1_t1_loop.trips, ⌜kp.val + 1 = n⌝ ∗ ∃ fa : oBuf (F := F) d L, ∃ ga, ∃ fb : oBuf (F := F) d L, ∃ gb, ⌜ChunkOK d L ft X hX kp 0 fa ∧ ChunkOK d L ft X hX kp 1 fb⌝ ∗
      Transfers.Flight countersEmb (thr d L) (SemLoc.dma cc1_scratch4.sem) (none : HIx 5) 524288
          iprop(own d L (oCh L kp 0) fa ∗ own d L (sA : Memref sig .scVector .vmem S128x128 .f32) ga)
      ∗ Transfers.Flight countersEmb (thr d L) (SemLoc.dma cc1_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (hX : ∀ y, ((sI : Memref sig .scVector .vmem S10x128 .i32).view.read (Elt F) X y).toNat < 50000)
    (gc : oBuf (F := F) d L) (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc1_scratch3.sem) 0
    ∗ slots d L ft X hX n
    ∗ (bigSep Finset.univ fun j => chunkSt d L gc fo n j)
    ∗ ∃ W', ⌜∀ p ∈ W', p ∈ W ∨ p.2 = none⌝ ∗ owes (thr d L) O W')

/-! ## The chunks' bookkeeping -/

omit [FloatOps F] in
theorem chunks_init (gc : oBuf (F := F) d L) (fo : oBuf (F := F) d L) :
    (bigSep Finset.univ fun j => freshPair d L fo j) = bigSep Finset.univ fun j => chunkSt d L gc fo 0 j :=
  bigSep_congr fun j _ => by unfold chunkSt; rw [if_pos (Nat.zero_le _)]

omit [FloatOps F] in
theorem chunks_take (gc : oBuf (F := F) d L) (fo : oBuf (F := F) d L) (n : Nat) (k : Fin k1_t1_loop.trips) (hk : k.val = n) :
    (bigSep Finset.univ fun j => chunkSt d L gc fo n j)
      = iprop(freshPair d L fo k ∗ bigSep (Finset.univ.erase k) fun j => chunkSt d L gc fo n j) := by
  rw [SparseCore.bigSep_erase' (Finset.mem_univ k)]
  congr 1
  unfold chunkSt; rw [if_pos (le_of_eq hk.symm)]

omit [FloatOps F] in
theorem chunks_step0 (gc : oBuf (F := F) d L) (fo : oBuf (F := F) d L) (n : Nat) (k : Fin k1_t1_loop.trips) (hk : k.val = n) (hn : n = 0) :
    (bigSep (Finset.univ.erase k) fun j => chunkSt d L gc fo n j) ⊢ bigSep Finset.univ fun j => chunkSt d L gc fo (n + 1) j := by
  have e1 : chunkSt d L gc fo (n + 1) k = iprop(emp) := by unfold chunkSt; rw [if_neg (by omega), if_neg (by omega)]
  have e4 : (bigSep (Finset.univ.erase k) fun j => chunkSt d L gc fo n j) = bigSep (Finset.univ.erase k) fun j => chunkSt d L gc fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L gc fo (n + 1) j), e1, e4]
  iintro H
  isplitr; · iempintro
  iexact H

omit [FloatOps F] in
theorem chunks_step (gc : oBuf (F := F) d L) (fo : oBuf (F := F) d L) (n : Nat) (k kp : Fin k1_t1_loop.trips) (hk : k.val = n) (hkp : kp.val + 1 = n) :
    iprop((bigSep (Finset.univ.erase k) fun j => chunkSt d L gc fo n j) ∗ donePair d L gc kp)
      ⊢ bigSep Finset.univ fun j => chunkSt d L gc fo (n + 1) j := by
  have hne : kp ≠ k := fun h => by rw [h] at hkp; omega
  have hmem : kp ∈ Finset.univ.erase k := Finset.mem_erase.mpr ⟨hne, Finset.mem_univ _⟩
  have e1 : chunkSt d L gc fo (n + 1) k = iprop(emp) := by unfold chunkSt; rw [if_neg (by omega), if_neg (by omega)]
  have e2 : chunkSt d L gc fo (n + 1) kp = donePair d L gc kp := by unfold chunkSt; rw [if_neg (by omega), if_pos (by omega)]
  have e3 : chunkSt d L gc fo n kp = iprop(emp) := by unfold chunkSt; rw [if_neg (by omega), if_neg (by omega)]
  have e4 : (bigSep ((Finset.univ.erase k).erase kp) fun j => chunkSt d L gc fo n j)
      = bigSep ((Finset.univ.erase k).erase kp) fun j => chunkSt d L gc fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L gc fo (n + 1) j),
    SparseCore.bigSep_erase' hmem (Φ := fun j => chunkSt d L gc fo (n + 1) j),
    SparseCore.bigSep_erase' hmem (Φ := fun j => chunkSt d L gc fo n j), e1, e2, e3, e4]
  iintro ⟨⟨-, Hr⟩, Hd⟩
  isplitr; · iempintro
  isplitl [Hd]; · iexact Hd
  iexact Hr

omit [FloatOps F] in
theorem chunks_final (gc : oBuf (F := F) d L) (fo : oBuf (F := F) d L) (kp : Fin k1_t1_loop.trips) (hkp : kp.val + 1 = k1_t1_loop.trips) :
    iprop((bigSep Finset.univ fun j => chunkSt d L gc fo k1_t1_loop.trips j) ∗ donePair d L gc kp)
      ⊢ bigSep Finset.univ fun j => donePair d L gc j := by
  have e1 : chunkSt d L gc fo k1_t1_loop.trips kp = iprop(emp) := by
    unfold chunkSt; rw [if_neg (by have := kp.isLt; omega), if_neg (by omega)]
  have e2 : (bigSep (Finset.univ.erase kp) fun j => chunkSt d L gc fo k1_t1_loop.trips j) = bigSep (Finset.univ.erase kp) fun j => donePair d L gc j :=
    bigSep_congr fun j hj => by
      have h1 : j ≠ kp := (Finset.mem_erase.mp hj).1
      have h1' : j.val ≠ kp.val := fun h => h1 (Fin.ext h)
      have hj1 := j.isLt
      have hk1 := kp.isLt
      have a : ¬ k1_t1_loop.trips ≤ j.val := by omega
      have b : j.val + 1 < k1_t1_loop.trips := by omega
      unfold chunkSt
      simp only [if_neg a, if_pos b]
  rw [SparseCore.bigSep_erase' (Finset.mem_univ kp) (Φ := fun j => chunkSt d L gc fo k1_t1_loop.trips j),
    SparseCore.bigSep_erase' (Finset.mem_univ kp) (Φ := fun j => donePair d L gc j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc1_scoped0.sem) 0
        ∗ semVal (thr d L, SemLoc.dma cc1_scratch3.sem) 0
        ∗ semVal (thr d L, SemLoc.dma cc1_scratch4.sem) 0
        ∗ semVal (thr d L, SemLoc.dma cc1_scratch5.sem) 0
        ∗ owes (thr d L) O W)
      ⊢ wp frame (wpE (defs₀ (F := F)) 𝒱₀ (thr d L) none) Set.univ
          (cc1_kern L tW (Memref.isWhole_whole _) iW (Memref.isWhole_whole _) oW (Memref.isWhole_whole _)
            sI (Memref.isWhole_whole _) sA (Memref.isWhole_whole _) sB (Memref.isWhole_whole _) cc1_scratch3 cc1_scratch4 cc1_scratch5 cc1_scoped0)
          fun _ => iprop(((tW : Memref sig .scVector .hbm S50000x128 .f32).view.loc (thr d L) ↦{qs} ft)
            ∗ own d L (iBlk L) fi
            ∗ (bigSep Finset.univ fun j => donePair d L gc j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc1_scoped0.sem) 0
            ∗ semVal (thr d L, SemLoc.dma cc1_scratch3.sem) 0
            ∗ semVal (thr d L, SemLoc.dma cc1_scratch4.sem) 0
            ∗ semVal (thr d L, SemLoc.dma cc1_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  have hXr : (sI : Memref sig .scVector .vmem S10x128 .i32).view.read (Elt F) (View.write (Elt F) (sI : Memref sig .scVector .vmem S10x128 .i32).view f0 (ReadAs.same.apply ((iBlk L).view.read (Elt F) fi)) Finset.univ) = (iBlk L).view.read (Elt F) fi :=
    View.read_write_univ (v := (sI : Memref sig .scVector .vmem S10x128 .i32).view) f0 _
  sl_unfold [cc1_kern]
  sl_exec
  ihave Hch0 := (Entails.of_eq (chunks_init d L gc fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) hX gc fo) $$ [Hmw Ht H0 Hg H1' H2' Ha Hb Hch0 HO]
  case region =>
    intro k _
    have hin0 : ∀ x, ((((sI : Memref sig .scVector .vmem S10x128 .i32).slice (Rect.unit (s := S10x128) (k1_off3 k 0#32) S1x128.size (k1_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k1_off3 k 1#32) S1x128.size (k1_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k1_h1 : ¬ k1_cond1 k = 1#1 := cond1_neg k h0
      have k1_h2 : ¬ k1_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest]
      · iapply (chunks_step0 d L gc fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k1_h1 : k1_cond1 k = 1#1 := cond1_pos k h0
      have k1_h2 : k1_cond2 k = 1#1 := cond2_pos k h0
      unfold inv slots
      rw [if_neg h0, if_neg (Nat.succ_ne_zero k.val)]
      iintro ⟨#Hmw, Ht, H0, Hg, ⟨%kp, %hkp, %fa, %ga, %fb, %gb, %hok, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest Ha_dst Hb_dst]
      · iapply (chunks_step d L gc fo k.val k kp rfl hkp)
        isplitl [Hrest]; · iexact Hrest
        isplitl [Ha_dst]
        · iapply (Entails.of_eq (pointsTo_congr (hgc _ hX hXr kp 0 fa hok.1))); iexact Ha_dst
        iapply (Entails.of_eq (pointsTo_congr (hgc _ hX hXr kp 1 fb hok.2))); iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k1_t1_loop.trips = 0 by rw [trips_eq]; decide)]
  icases HI with ⟨-, Ht, H0, Hg, ⟨%kp, %hkp, %fa, %ga, %fb, %gb, %hok, Ha, Hb⟩, Hch, %W', %hW', HO⟩
  sl_exec
  sl_step
  isplitl [Ht]; · iexact Ht
  isplitl [Hi]; · iexact Hi
  isplitl [Hch Ha_dst Hb_dst]
  · iapply (chunks_final d L gc fo kp hkp)
    isplitl [Hch]; · iexact Hch
    isplitl [Ha_dst]
    · iapply (Entails.of_eq (pointsTo_congr (hgc _ hX hXr kp 0 fa hok.1))); iexact Ha_dst
    iapply (Entails.of_eq (pointsTo_congr (hgc _ hX hXr kp 1 fb hok.2))); iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid1.Coords) (b : Ref sig .scVector) : DevRef τ sig := (Proc.scVector (cV L) (jV L)).devRef b

def myBufs (L : grid1.Coords) : Finset (DevRef τ sig) := {dr L cc1_scratch0, dr L cc1_scratch1, dr L cc1_scratch2}
def mySems (d : Dev nD) (L : grid1.Coords) : Finset (GSem nD τ sig) :=
  {(thr d L, SemLoc.dma cc1_scoped0.sem), (thr d L, SemLoc.dma cc1_scratch3.sem), (thr d L, SemLoc.dma cc1_scratch4.sem), (thr d L, SemLoc.dma cc1_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc1_scoped0.sem : SemLoc sig).isScoped .scVector = true; decide⟩
  · exact mem_ownCells.mpr ⟨rfl, by show (SemLoc.dma cc1_scratch3.sem : SemLoc sig).isScoped .scVector = true; decide⟩
  · exact mem_ownCells.mpr ⟨rfl, by show (SemLoc.dma cc1_scratch4.sem : SemLoc sig).isScoped .scVector = true; decide⟩
  · exact mem_ownCells.mpr ⟨rfl, by show (SemLoc.dma cc1_scratch5.sem : SemLoc sig).isScoped .scVector = true; decide⟩

omit [FloatOps F] in
theorem ownSems0_split :
    (ownSems0 (thr d L) : sProp 𝕄)
      = iprop((semVal (thr d L, SemLoc.dma cc1_scoped0.sem) 0 ∗ semVal (thr d L, SemLoc.dma cc1_scratch3.sem) 0
          ∗ semVal (thr d L, SemLoc.dma cc1_scratch4.sem) 0 ∗ semVal (thr d L, SemLoc.dma cc1_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc1_scoped0.sem : DmaSem sig) ≠ cc1_scratch3.sem := by decide
  have e2 : (cc1_scoped0.sem : DmaSem sig) ≠ cc1_scratch4.sem := by decide
  have e3 : (cc1_scoped0.sem : DmaSem sig) ≠ cc1_scratch5.sem := by decide
  have e4 : (cc1_scratch3.sem : DmaSem sig) ≠ cc1_scratch4.sem := by decide
  have e5 : (cc1_scratch3.sem : DmaSem sig) ≠ cc1_scratch5.sem := by decide
  have e6 : (cc1_scratch4.sem : DmaSem sig) ≠ cc1_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc1_scratch0 ≠ dr L cc1_scratch1 := fun e => absurd (Proc.devRef_injective _ e) (show (cc1_scratch0 : Ref sig .scVector) ≠ cc1_scratch1 by decide)
  have e2 : dr L cc1_scratch0 ≠ dr L cc1_scratch2 := fun e => absurd (Proc.devRef_injective _ e) (show (cc1_scratch0 : Ref sig .scVector) ≠ cc1_scratch2 by decide)
  have e3 : dr L cc1_scratch1 ≠ dr L cc1_scratch2 := fun e => absurd (Proc.devRef_injective _ e) (show (cc1_scratch1 : Ref sig .scVector) ≠ cc1_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) (gc : oBuf (F := F) d L) : sProp 𝕄 :=
  iprop(((tW : Memref sig .scVector .hbm S50000x128 .f32).view.loc (thr d L) ↦{qs} ft) ∗ own d L (iBlk L) fi
    ∗ bigSep Finset.univ fun j => donePair d L gc j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc1_kern L tW (Memref.isWhole_whole _) iW (Memref.isWhole_whole _) oW (Memref.isWhole_whole _)
            sI (Memref.isWhole_whole _) sA (Memref.isWhole_whole _) sB (Memref.isWhole_whole _) cc1_scratch3 cc1_scratch4 cc1_scratch5 cc1_scoped0)
          fun _ => iprop(tdRes d L qs ft fi gc ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi gc hgc)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KV.T1

end
-- ==== Proof.KVP1.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KVT1

noncomputable section

namespace Cert.Proof.KV.T1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid1.bound 0)) (s : Fin (grid1.bound 1)) : grid1.Coords :=
  fun | 0 => c | 1 => s | ⟨_ + 2, h⟩ => absurd h (Nat.not_lt.2 (Nat.le_add_left _ _))

abbrev iLoc (d : Dev nD) : Loc nD τ sig := (SparseCore.T d).loc main_v11
abbrev oLoc (d : Dev nD) : Loc nD τ sig := (SparseCore.T d).loc main_v12

abbrev iRect (L : grid1.Coords) : Rect S32x10x128 := Rect.unit (s := S32x10x128) (k1_off1 L) S1x10x128.size (k1_off1_inb L)
abbrev oRect (L : grid1.Coords) (k : Fin k1_t1_loop.trips) (r : Fin 2) : Rect S40960x128 :=
  Rect.unit (s := S40960x128) (k1_off4 L k (BitVec.ofNat 32 r.val)) S128x128.size (k1_off4_inb L k r)

theorem set_iBlk (L : grid1.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid1.Coords) (k : Fin k1_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid1.bound 0) × Fin (grid1.bound 1)
abbrev CI : Type := (Fin (grid1.bound 0) × Fin (grid1.bound 1)) × (Fin k1_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k1_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k1_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k1_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid1.bound 0), cc.val = ((idx 0).val / 128 % 20) / 10 := ⟨⟨_, by show _ < 2; omega⟩, rfl⟩
  obtain ⟨ii, hii⟩ : ∃ ii : Fin (grid1.bound 1), ii.val = (idx 0).val / 128 / 20 := ⟨⟨_, by show _ < 16; omega⟩, rfl⟩
  obtain ⟨kk, hkk⟩ : ∃ kk : Fin k1_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k1_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid1.bound 0)) : PosShare TreeShare := Transfers.shareTok fullShare (grid1.bound 0) c
abbrev tsh (c : Fin (grid1.bound 0)) (i : Fin (grid1.bound 1)) : PosShare TreeShare := Transfers.shareTok (tokC c) (grid1.bound 1) i

/-- What of the table stays with the TensorCore while the tasks hold their shares. -/
def tblRem (ft : Buf (Elt F) (tblLoc d)) : sProp 𝕄 :=
  iprop((tblLoc d ↦{Transfers.shareDrop fullShare (grid1.bound 0)} ft)
    ∗ bigSep Finset.univ fun c : Fin (grid1.bound 0) => (tblLoc d ↦{Transfers.shareDrop (tokC c) (grid1.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid1.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid1.bound 1)))) $$ Hc
  ihave Hc'' := (Entails.of_eq (bigSep_sep' (Finset.univ : Finset (Fin (grid1.bound 0)))
    (fun c => (tblLoc d ↦{Transfers.shareDrop (tokC c) (grid1.bound 1)} ft : sProp 𝕄))
    (fun c => bigSep Finset.univ fun i : Fin (grid1.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid1.bound 0))
  isplitl [Hd]; · iexact Hd
  ihave Hc := (Entails.of_eq (bigSep_sep' (Finset.univ : Finset (Fin (grid1.bound 0)))
    (fun c => (tblLoc d ↦{Transfers.shareDrop (tokC c) (grid1.bound 1)} ft : sProp 𝕄))
    (fun c => bigSep Finset.univ fun i : Fin (grid1.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid1.bound 1))))
  iexact Hc

/-! ## The whole arrays out to the tasks and back -/

variable [FloatOps F]

/-- What the call hands SparseCore `c`'s sequencer: its sixteen tasks' shares; and what comes back. -/
def stRes (c : Fin (grid1.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid1.bound 0)) (ft : Buf (Elt F) (tblLoc d)) (fi : Buf (Elt F) (iLoc d)) (gc : Buf (Elt F) (oLoc d)) : sProp 𝕄 :=
  bigSep Finset.univ fun i => tdRes d (coordsV c i) (tsh c i) ft fi gc

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid1.bound 0)) (i : Fin (grid1.bound 1)) : sProp 𝕄 := (tblLoc d ↦{tsh c i} ft : sProp 𝕄)
abbrev If (fi : Buf (Elt F) (iLoc d)) (c : Fin (grid1.bound 0)) (i : Fin (grid1.bound 1)) : sProp 𝕄 := (iLoc d ↦[iSet (c, i)]{fullShare} fi : sProp 𝕄)
abbrev Of (fo : Buf (Elt F) (oLoc d)) (c : Fin (grid1.bound 0)) (i : Fin (grid1.bound 1)) : sProp 𝕄 :=
  bigSep Finset.univ fun k => iprop((oLoc d ↦[oSet ((c, i), (k, 0))]{fullShare} fo) ∗ (oLoc d ↦[oSet ((c, i), (k, 1))]{fullShare} fo))
theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) (gc : Buf (Elt F) (oLoc d)) :
    (bigSep Finset.univ fun c => dnRes d c ft fi gc)
      = iprop((bigSep Finset.univ fun c => bigSep Finset.univ fun i => Tf d ft c i) ∗ (bigSep Finset.univ fun c => bigSep Finset.univ fun i => If d fi c i)
          ∗ (bigSep Finset.univ fun c => bigSep Finset.univ fun i => Of d gc c i)) :=
  (bigSep_congr (s := Finset.univ) fun c _ => bigSep3 Finset.univ (Tf d ft c) (If d fi c) (Of d gc c)).trans
    (bigSep3 Finset.univ (fun c => bigSep Finset.univ fun i => Tf d ft c i) (fun c => bigSep Finset.univ fun i => If d fi c i) (fun c => bigSep Finset.univ fun i => Of d gc c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) (gc : Buf (Elt F) (oLoc d)) :
    iprop(tblRem d ft ∗ bigSep Finset.univ fun c => dnRes d c ft fi gc)
      ⊢ iprop((tblLoc d ↦{fullShare} ft) ∗ (iLoc d ↦{fullShare} fi) ∗ (oLoc d ↦{fullShare} gc)) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (Entails.of_eq (out_split d gc).symm); iexact Ho

end Cert.Proof.KV.T1

end
-- ==== Proof.KVT2.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KV.T2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v17_scv
abbrev oW : Memref sig .scVector .hbm S40960x128 .f32 := Memref.whole main_v18_scv
abbrev sI : Memref sig .scVector .vmem S10x128 .i32 := Memref.whole cc2_scratch0
abbrev sA : Memref sig .scVector .vmem S128x128 .f32 := Memref.whole cc2_scratch1
abbrev sB : Memref sig .scVector .vmem S128x128 .f32 := Memref.whole cc2_scratch2

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The subcore's block of row numbers, as the kernel slices it. -/
abbrev iBlk (L : grid2.Coords) : Memref sig .scVector .hbm S10x128 .i32 :=
  ((iW : Memref sig .scVector .hbm S32x10x128 .i32).slice (Rect.unit (s := S32x10x128) (k2_off1 L) S1x10x128.size (k2_off1_inb L)) (fun _ => rfl)).squeeze S10x128 squeezes_S1x10x128_S10x128
/-- Chunk `2 k + r` of the subcore's part of the result, as the kernel slices it. -/
abbrev oCh (L : grid2.Coords) (k : Fin k2_t1_loop.trips) (r : Fin 2) : Memref sig .scVector .hbm S128x128 .f32 :=
  (oW : Memref sig .scVector .hbm S40960x128 .f32).slice (Rect.unit (s := S40960x128) (k2_off4 L k (BitVec.ofNat 32 r.val)) S128x128.size (k2_off4_inb L k r)) (fun _ => rfl)

/-- Row `2 k + r` of the row numbers in the scratch, and the table as the gather names it. -/
abbrev iRowM (k : Fin k2_t1_loop.trips) (r : Fin 2) : Memref sig .scVector .vmem S128 .i32 :=
  ((sI : Memref sig .scVector .vmem S10x128 .i32).slice (Rect.unit (s := S10x128) (k2_off3 k (BitVec.ofNat 32 r.val)) S1x128.size (k2_off3_inb k r)) (fun _ => rfl)).squeeze S128 squeezes_S1x128_S128
abbrev tWs : Memref sig .scVector .hbm S50000x128 .f32 :=
  (tW : Memref sig .scVector .hbm S50000x128 .f32).slice (Rect.unit (s := S50000x128) ![0, 0] S50000x128.size inb_S50000x128_S50000x128_0_0) (fun _ => rfl)

theorem cond1_neg : ∀ k : Fin k2_t1_loop.trips, k.val = 0 → ¬ k2_cond1 k = 1#1 := by decide +kernel
theorem cond2_neg : ∀ k : Fin k2_t1_loop.trips, k.val = 0 → ¬ k2_cond2 k = 1#1 := by decide +kernel
theorem cond1_pos : ∀ k : Fin k2_t1_loop.trips, k.val ≠ 0 → k2_cond1 k = 1#1 := by decide +kernel
theorem cond2_pos : ∀ k : Fin k2_t1_loop.trips, k.val ≠ 0 → k2_cond2 k = 1#1 := by decide +kernel
theorem trips_eq : k2_t1_loop.trips = 5 := by decide +kernel

variable [FloatOps F] (d : Dev nD) (L : grid2.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

abbrev XBuf : Type := Buf (Elt F) ((sI : Memref sig .scVector .vmem S10x128 .i32).view.loc (thr d L))
abbrev TBuf : Type := Buf (Elt F) ((tW : Memref sig .scVector .hbm S50000x128 .f32).view.loc (thr d L))

/-- What the gather of row `2 k + r` of the row numbers `X` brings: at row `p`, the table's row `X[2 k + r, p]`. -/
def gVal (ft : TBuf (F := F) d L) (X : XBuf (F := F) d L) (hX : ∀ y, ((sI : Memref sig .scVector .vmem S10x128 .i32).view.read (Elt F) X y).toNat < 50000)
    (k : Fin k2_t1_loop.trips) (r : Fin 2) : S128x128.Idx → Elt F .f32 :=
  SparseCore.gatherPayload gathers_S50000x128_S128x128 ((tWs).view.read (Elt F) ft)
    (SparseCore.rows ((iRowM k r).view.read (Elt F) X) (by decide) (fun _ => hX _))

/-- Chunk `2 k + r` holds what that gather brought. -/
def ChunkOK (ft : TBuf (F := F) d L) (X : XBuf (F := F) d L) (hX : ∀ y, ((sI : Memref sig .scVector .vmem S10x128 .i32).view.read (Elt F) X y).toNat < 50000)
    (k : Fin k2_t1_loop.trips) (r : Fin 2) (f : oBuf (F := F) d L) : Prop :=
  (oCh L k r).view.read (Elt F) f = gVal d L ft X hX k r

omit [FloatOps F] in
/-- A chunk written whole with a staging buffer that was written whole with the gather's payload holds the payload. -/
theorem ok_of_form {M : Memref sig .scVector .vmem S128x128 .f32} (ft : TBuf (F := F) d L) (X : XBuf (F := F) d L)
    (hX : ∀ y, ((sI : Memref sig .scVector .vmem S10x128 .i32).view.read (Elt F) X y).toNat < 50000)
    (k : Fin k2_t1_loop.trips) (r : Fin 2) (fo : oBuf (F := F) d L) (g1 : Buf (Elt F) (M.view.loc (thr d L)))
    (G : S128x128.Idx → Elt F .f32) (hG : G = gVal d L ft X hX k r) (P : S128x128.Idx → Elt F .f32)
    (hP : P = ReadAs.same.apply (M.view.read (Elt F) (M.view.writes (Elt F) g1 [⟨Rect.whole S128x128, G⟩]))) :
    ChunkOK d L ft X hX k r ((oCh L k r).view.writes (Elt F) fo [⟨Rect.whole S128x128, P⟩]) := by
  unfold ChunkOK
  rw [View.read_writes_whole, hP]
  show M.view.read (Elt F) (M.view.writes (Elt F) g1 [⟨Rect.whole S128x128, G⟩]) = _
  rw [View.read_writes_whole, hG]

/-- The two chunks of trip `j` at the contents `gc` the whole result array is to hold. -/
abbrev donePair (gc : oBuf (F := F) d L) (j : Fin k2_t1_loop.trips) : sProp 𝕄 :=
  iprop(own d L (oCh L j 0) gc ∗ own d L (oCh L j 1) gc)
abbrev freshPair (fo : oBuf (F := F) d L) (j : Fin k2_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (gc : oBuf (F := F) d L) (fo : oBuf (F := F) d L) (n : Nat) (j : Fin k2_t1_loop.trips) : sProp 𝕄 :=
  if n ≤ j.val then freshPair d L fo j else if j.val + 1 < n then donePair d L gc j else iprop(emp)

/-- The staging buffers and their write semaphores before trip `n`: free before the first trip, inside the
    two writes in flight afterwards. -/
def slots (ft : TBuf (F := F) d L) (X : XBuf (F := F) d L) (hX : ∀ y, ((sI : Memref sig .scVector .vmem S10x128 .i32).view.read (Elt F) X y).toNat < 50000) (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc2_scratch4.sem) 0 ∗ semVal (thr d L, SemLoc.dma cc2_scratch5.sem) 0)
  else
    iprop(∃ kp : Fin k2_t1_loop.trips, ⌜kp.val + 1 = n⌝ ∗ ∃ fa : oBuf (F := F) d L, ∃ ga, ∃ fb : oBuf (F := F) d L, ∃ gb, ⌜ChunkOK d L ft X hX kp 0 fa ∧ ChunkOK d L ft X hX kp 1 fb⌝ ∗
      Transfers.Flight countersEmb (thr d L) (SemLoc.dma cc2_scratch4.sem) (none : HIx 5) 524288
          iprop(own d L (oCh L kp 0) fa ∗ own d L (sA : Memref sig .scVector .vmem S128x128 .f32) ga)
      ∗ Transfers.Flight countersEmb (thr d L) (SemLoc.dma cc2_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (hX : ∀ y, ((sI : Memref sig .scVector .vmem S10x128 .i32).view.read (Elt F) X y).toNat < 50000)
    (gc : oBuf (F := F) d L) (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc2_scratch3.sem) 0
    ∗ slots d L ft X hX n
    ∗ (bigSep Finset.univ fun j => chunkSt d L gc fo n j)
    ∗ ∃ W', ⌜∀ p ∈ W', p ∈ W ∨ p.2 = none⌝ ∗ owes (thr d L) O W')

/-! ## The chunks' bookkeeping -/

omit [FloatOps F] in
theorem chunks_init (gc : oBuf (F := F) d L) (fo : oBuf (F := F) d L) :
    (bigSep Finset.univ fun j => freshPair d L fo j) = bigSep Finset.univ fun j => chunkSt d L gc fo 0 j :=
  bigSep_congr fun j _ => by unfold chunkSt; rw [if_pos (Nat.zero_le _)]

omit [FloatOps F] in
theorem chunks_take (gc : oBuf (F := F) d L) (fo : oBuf (F := F) d L) (n : Nat) (k : Fin k2_t1_loop.trips) (hk : k.val = n) :
    (bigSep Finset.univ fun j => chunkSt d L gc fo n j)
      = iprop(freshPair d L fo k ∗ bigSep (Finset.univ.erase k) fun j => chunkSt d L gc fo n j) := by
  rw [SparseCore.bigSep_erase' (Finset.mem_univ k)]
  congr 1
  unfold chunkSt; rw [if_pos (le_of_eq hk.symm)]

omit [FloatOps F] in
theorem chunks_step0 (gc : oBuf (F := F) d L) (fo : oBuf (F := F) d L) (n : Nat) (k : Fin k2_t1_loop.trips) (hk : k.val = n) (hn : n = 0) :
    (bigSep (Finset.univ.erase k) fun j => chunkSt d L gc fo n j) ⊢ bigSep Finset.univ fun j => chunkSt d L gc fo (n + 1) j := by
  have e1 : chunkSt d L gc fo (n + 1) k = iprop(emp) := by unfold chunkSt; rw [if_neg (by omega), if_neg (by omega)]
  have e4 : (bigSep (Finset.univ.erase k) fun j => chunkSt d L gc fo n j) = bigSep (Finset.univ.erase k) fun j => chunkSt d L gc fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L gc fo (n + 1) j), e1, e4]
  iintro H
  isplitr; · iempintro
  iexact H

omit [FloatOps F] in
theorem chunks_step (gc : oBuf (F := F) d L) (fo : oBuf (F := F) d L) (n : Nat) (k kp : Fin k2_t1_loop.trips) (hk : k.val = n) (hkp : kp.val + 1 = n) :
    iprop((bigSep (Finset.univ.erase k) fun j => chunkSt d L gc fo n j) ∗ donePair d L gc kp)
      ⊢ bigSep Finset.univ fun j => chunkSt d L gc fo (n + 1) j := by
  have hne : kp ≠ k := fun h => by rw [h] at hkp; omega
  have hmem : kp ∈ Finset.univ.erase k := Finset.mem_erase.mpr ⟨hne, Finset.mem_univ _⟩
  have e1 : chunkSt d L gc fo (n + 1) k = iprop(emp) := by unfold chunkSt; rw [if_neg (by omega), if_neg (by omega)]
  have e2 : chunkSt d L gc fo (n + 1) kp = donePair d L gc kp := by unfold chunkSt; rw [if_neg (by omega), if_pos (by omega)]
  have e3 : chunkSt d L gc fo n kp = iprop(emp) := by unfold chunkSt; rw [if_neg (by omega), if_neg (by omega)]
  have e4 : (bigSep ((Finset.univ.erase k).erase kp) fun j => chunkSt d L gc fo n j)
      = bigSep ((Finset.univ.erase k).erase kp) fun j => chunkSt d L gc fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L gc fo (n + 1) j),
    SparseCore.bigSep_erase' hmem (Φ := fun j => chunkSt d L gc fo (n + 1) j),
    SparseCore.bigSep_erase' hmem (Φ := fun j => chunkSt d L gc fo n j), e1, e2, e3, e4]
  iintro ⟨⟨-, Hr⟩, Hd⟩
  isplitr; · iempintro
  isplitl [Hd]; · iexact Hd
  iexact Hr

omit [FloatOps F] in
theorem chunks_final (gc : oBuf (F := F) d L) (fo : oBuf (F := F) d L) (kp : Fin k2_t1_loop.trips) (hkp : kp.val + 1 = k2_t1_loop.trips) :
    iprop((bigSep Finset.univ fun j => chunkSt d L gc fo k2_t1_loop.trips j) ∗ donePair d L gc kp)
      ⊢ bigSep Finset.univ fun j => donePair d L gc j := by
  have e1 : chunkSt d L gc fo k2_t1_loop.trips kp = iprop(emp) := by
    unfold chunkSt; rw [if_neg (by have := kp.isLt; omega), if_neg (by omega)]
  have e2 : (bigSep (Finset.univ.erase kp) fun j => chunkSt d L gc fo k2_t1_loop.trips j) = bigSep (Finset.univ.erase kp) fun j => donePair d L gc j :=
    bigSep_congr fun j hj => by
      have h1 : j ≠ kp := (Finset.mem_erase.mp hj).1
      have h1' : j.val ≠ kp.val := fun h => h1 (Fin.ext h)
      have hj1 := j.isLt
      have hk1 := kp.isLt
      have a : ¬ k2_t1_loop.trips ≤ j.val := by omega
      have b : j.val + 1 < k2_t1_loop.trips := by omega
      unfold chunkSt
      simp only [if_neg a, if_pos b]
  rw [SparseCore.bigSep_erase' (Finset.mem_univ kp) (Φ := fun j => chunkSt d L gc fo k2_t1_loop.trips j),
    SparseCore.bigSep_erase' (Finset.mem_univ kp) (Φ := fun j => donePair d L gc j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc2_scoped0.sem) 0
        ∗ semVal (thr d L, SemLoc.dma cc2_scratch3.sem) 0
        ∗ semVal (thr d L, SemLoc.dma cc2_scratch4.sem) 0
        ∗ semVal (thr d L, SemLoc.dma cc2_scratch5.sem) 0
        ∗ owes (thr d L) O W)
      ⊢ wp frame (wpE (defs₀ (F := F)) 𝒱₀ (thr d L) none) Set.univ
          (cc2_kern L tW (Memref.isWhole_whole _) iW (Memref.isWhole_whole _) oW (Memref.isWhole_whole _)
            sI (Memref.isWhole_whole _) sA (Memref.isWhole_whole _) sB (Memref.isWhole_whole _) cc2_scratch3 cc2_scratch4 cc2_scratch5 cc2_scoped0)
          fun _ => iprop(((tW : Memref sig .scVector .hbm S50000x128 .f32).view.loc (thr d L) ↦{qs} ft)
            ∗ own d L (iBlk L) fi
            ∗ (bigSep Finset.univ fun j => donePair d L gc j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc2_scoped0.sem) 0
            ∗ semVal (thr d L, SemLoc.dma cc2_scratch3.sem) 0
            ∗ semVal (thr d L, SemLoc.dma cc2_scratch4.sem) 0
            ∗ semVal (thr d L, SemLoc.dma cc2_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  have hXr : (sI : Memref sig .scVector .vmem S10x128 .i32).view.read (Elt F) (View.write (Elt F) (sI : Memref sig .scVector .vmem S10x128 .i32).view f0 (ReadAs.same.apply ((iBlk L).view.read (Elt F) fi)) Finset.univ) = (iBlk L).view.read (Elt F) fi :=
    View.read_write_univ (v := (sI : Memref sig .scVector .vmem S10x128 .i32).view) f0 _
  sl_unfold [cc2_kern]
  sl_exec
  ihave Hch0 := (Entails.of_eq (chunks_init d L gc fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) hX gc fo) $$ [Hmw Ht H0 Hg H1' H2' Ha Hb Hch0 HO]
  case region =>
    intro k _
    have hin0 : ∀ x, ((((sI : Memref sig .scVector .vmem S10x128 .i32).slice (Rect.unit (s := S10x128) (k2_off3 k 0#32) S1x128.size (k2_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k2_off3 k 1#32) S1x128.size (k2_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k2_h1 : ¬ k2_cond1 k = 1#1 := cond1_neg k h0
      have k2_h2 : ¬ k2_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest]
      · iapply (chunks_step0 d L gc fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k2_h1 : k2_cond1 k = 1#1 := cond1_pos k h0
      have k2_h2 : k2_cond2 k = 1#1 := cond2_pos k h0
      unfold inv slots
      rw [if_neg h0, if_neg (Nat.succ_ne_zero k.val)]
      iintro ⟨#Hmw, Ht, H0, Hg, ⟨%kp, %hkp, %fa, %ga, %fb, %gb, %hok, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest Ha_dst Hb_dst]
      · iapply (chunks_step d L gc fo k.val k kp rfl hkp)
        isplitl [Hrest]; · iexact Hrest
        isplitl [Ha_dst]
        · iapply (Entails.of_eq (pointsTo_congr (hgc _ hX hXr kp 0 fa hok.1))); iexact Ha_dst
        iapply (Entails.of_eq (pointsTo_congr (hgc _ hX hXr kp 1 fb hok.2))); iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k2_t1_loop.trips = 0 by rw [trips_eq]; decide)]
  icases HI with ⟨-, Ht, H0, Hg, ⟨%kp, %hkp, %fa, %ga, %fb, %gb, %hok, Ha, Hb⟩, Hch, %W', %hW', HO⟩
  sl_exec
  sl_step
  isplitl [Ht]; · iexact Ht
  isplitl [Hi]; · iexact Hi
  isplitl [Hch Ha_dst Hb_dst]
  · iapply (chunks_final d L gc fo kp hkp)
    isplitl [Hch]; · iexact Hch
    isplitl [Ha_dst]
    · iapply (Entails.of_eq (pointsTo_congr (hgc _ hX hXr kp 0 fa hok.1))); iexact Ha_dst
    iapply (Entails.of_eq (pointsTo_congr (hgc _ hX hXr kp 1 fb hok.2))); iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid2.Coords) (b : Ref sig .scVector) : DevRef τ sig := (Proc.scVector (cV L) (jV L)).devRef b

def myBufs (L : grid2.Coords) : Finset (DevRef τ sig) := {dr L cc2_scratch0, dr L cc2_scratch1, dr L cc2_scratch2}
def mySems (d : Dev nD) (L : grid2.Coords) : Finset (GSem nD τ sig) :=
  {(thr d L, SemLoc.dma cc2_scoped0.sem), (thr d L, SemLoc.dma cc2_scratch3.sem), (thr d L, SemLoc.dma cc2_scratch4.sem), (thr d L, SemLoc.dma cc2_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc2_scoped0.sem : SemLoc sig).isScoped .scVector = true; decide⟩
  · exact mem_ownCells.mpr ⟨rfl, by show (SemLoc.dma cc2_scratch3.sem : SemLoc sig).isScoped .scVector = true; decide⟩
  · exact mem_ownCells.mpr ⟨rfl, by show (SemLoc.dma cc2_scratch4.sem : SemLoc sig).isScoped .scVector = true; decide⟩
  · exact mem_ownCells.mpr ⟨rfl, by show (SemLoc.dma cc2_scratch5.sem : SemLoc sig).isScoped .scVector = true; decide⟩

omit [FloatOps F] in
theorem ownSems0_split :
    (ownSems0 (thr d L) : sProp 𝕄)
      = iprop((semVal (thr d L, SemLoc.dma cc2_scoped0.sem) 0 ∗ semVal (thr d L, SemLoc.dma cc2_scratch3.sem) 0
          ∗ semVal (thr d L, SemLoc.dma cc2_scratch4.sem) 0 ∗ semVal (thr d L, SemLoc.dma cc2_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc2_scoped0.sem : DmaSem sig) ≠ cc2_scratch3.sem := by decide
  have e2 : (cc2_scoped0.sem : DmaSem sig) ≠ cc2_scratch4.sem := by decide
  have e3 : (cc2_scoped0.sem : DmaSem sig) ≠ cc2_scratch5.sem := by decide
  have e4 : (cc2_scratch3.sem : DmaSem sig) ≠ cc2_scratch4.sem := by decide
  have e5 : (cc2_scratch3.sem : DmaSem sig) ≠ cc2_scratch5.sem := by decide
  have e6 : (cc2_scratch4.sem : DmaSem sig) ≠ cc2_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc2_scratch0 ≠ dr L cc2_scratch1 := fun e => absurd (Proc.devRef_injective _ e) (show (cc2_scratch0 : Ref sig .scVector) ≠ cc2_scratch1 by decide)
  have e2 : dr L cc2_scratch0 ≠ dr L cc2_scratch2 := fun e => absurd (Proc.devRef_injective _ e) (show (cc2_scratch0 : Ref sig .scVector) ≠ cc2_scratch2 by decide)
  have e3 : dr L cc2_scratch1 ≠ dr L cc2_scratch2 := fun e => absurd (Proc.devRef_injective _ e) (show (cc2_scratch1 : Ref sig .scVector) ≠ cc2_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) (gc : oBuf (F := F) d L) : sProp 𝕄 :=
  iprop(((tW : Memref sig .scVector .hbm S50000x128 .f32).view.loc (thr d L) ↦{qs} ft) ∗ own d L (iBlk L) fi
    ∗ bigSep Finset.univ fun j => donePair d L gc j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc2_kern L tW (Memref.isWhole_whole _) iW (Memref.isWhole_whole _) oW (Memref.isWhole_whole _)
            sI (Memref.isWhole_whole _) sA (Memref.isWhole_whole _) sB (Memref.isWhole_whole _) cc2_scratch3 cc2_scratch4 cc2_scratch5 cc2_scoped0)
          fun _ => iprop(tdRes d L qs ft fi gc ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi gc hgc)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KV.T2

end
-- ==== Proof.KVP2.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KVT2

noncomputable section

namespace Cert.Proof.KV.T2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid2.bound 0)) (s : Fin (grid2.bound 1)) : grid2.Coords :=
  fun | 0 => c | 1 => s | ⟨_ + 2, h⟩ => absurd h (Nat.not_lt.2 (Nat.le_add_left _ _))

abbrev iLoc (d : Dev nD) : Loc nD τ sig := (SparseCore.T d).loc main_v17
abbrev oLoc (d : Dev nD) : Loc nD τ sig := (SparseCore.T d).loc main_v18

abbrev iRect (L : grid2.Coords) : Rect S32x10x128 := Rect.unit (s := S32x10x128) (k2_off1 L) S1x10x128.size (k2_off1_inb L)
abbrev oRect (L : grid2.Coords) (k : Fin k2_t1_loop.trips) (r : Fin 2) : Rect S40960x128 :=
  Rect.unit (s := S40960x128) (k2_off4 L k (BitVec.ofNat 32 r.val)) S128x128.size (k2_off4_inb L k r)

theorem set_iBlk (L : grid2.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid2.Coords) (k : Fin k2_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid2.bound 0) × Fin (grid2.bound 1)
abbrev CI : Type := (Fin (grid2.bound 0) × Fin (grid2.bound 1)) × (Fin k2_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k2_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k2_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k2_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid2.bound 0), cc.val = ((idx 0).val / 128 % 20) / 10 := ⟨⟨_, by show _ < 2; omega⟩, rfl⟩
  obtain ⟨ii, hii⟩ : ∃ ii : Fin (grid2.bound 1), ii.val = (idx 0).val / 128 / 20 := ⟨⟨_, by show _ < 16; omega⟩, rfl⟩
  obtain ⟨kk, hkk⟩ : ∃ kk : Fin k2_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k2_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid2.bound 0)) : PosShare TreeShare := Transfers.shareTok fullShare (grid2.bound 0) c
abbrev tsh (c : Fin (grid2.bound 0)) (i : Fin (grid2.bound 1)) : PosShare TreeShare := Transfers.shareTok (tokC c) (grid2.bound 1) i

/-- What of the table stays with the TensorCore while the tasks hold their shares. -/
def tblRem (ft : Buf (Elt F) (tblLoc d)) : sProp 𝕄 :=
  iprop((tblLoc d ↦{Transfers.shareDrop fullShare (grid2.bound 0)} ft)
    ∗ bigSep Finset.univ fun c : Fin (grid2.bound 0) => (tblLoc d ↦{Transfers.shareDrop (tokC c) (grid2.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid2.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid2.bound 1)))) $$ Hc
  ihave Hc'' := (Entails.of_eq (bigSep_sep' (Finset.univ : Finset (Fin (grid2.bound 0)))
    (fun c => (tblLoc d ↦{Transfers.shareDrop (tokC c) (grid2.bound 1)} ft : sProp 𝕄))
    (fun c => bigSep Finset.univ fun i : Fin (grid2.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid2.bound 0))
  isplitl [Hd]; · iexact Hd
  ihave Hc := (Entails.of_eq (bigSep_sep' (Finset.univ : Finset (Fin (grid2.bound 0)))
    (fun c => (tblLoc d ↦{Transfers.shareDrop (tokC c) (grid2.bound 1)} ft : sProp 𝕄))
    (fun c => bigSep Finset.univ fun i : Fin (grid2.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid2.bound 1))))
  iexact Hc

/-! ## The whole arrays out to the tasks and back -/

variable [FloatOps F]

/-- What the call hands SparseCore `c`'s sequencer: its sixteen tasks' shares; and what comes back. -/
def stRes (c : Fin (grid2.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid2.bound 0)) (ft : Buf (Elt F) (tblLoc d)) (fi : Buf (Elt F) (iLoc d)) (gc : Buf (Elt F) (oLoc d)) : sProp 𝕄 :=
  bigSep Finset.univ fun i => tdRes d (coordsV c i) (tsh c i) ft fi gc

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid2.bound 0)) (i : Fin (grid2.bound 1)) : sProp 𝕄 := (tblLoc d ↦{tsh c i} ft : sProp 𝕄)
abbrev If (fi : Buf (Elt F) (iLoc d)) (c : Fin (grid2.bound 0)) (i : Fin (grid2.bound 1)) : sProp 𝕄 := (iLoc d ↦[iSet (c, i)]{fullShare} fi : sProp 𝕄)
abbrev Of (fo : Buf (Elt F) (oLoc d)) (c : Fin (grid2.bound 0)) (i : Fin (grid2.bound 1)) : sProp 𝕄 :=
  bigSep Finset.univ fun k => iprop((oLoc d ↦[oSet ((c, i), (k, 0))]{fullShare} fo) ∗ (oLoc d ↦[oSet ((c, i), (k, 1))]{fullShare} fo))
theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) (gc : Buf (Elt F) (oLoc d)) :
    (bigSep Finset.univ fun c => dnRes d c ft fi gc)
      = iprop((bigSep Finset.univ fun c => bigSep Finset.univ fun i => Tf d ft c i) ∗ (bigSep Finset.univ fun c => bigSep Finset.univ fun i => If d fi c i)
          ∗ (bigSep Finset.univ fun c => bigSep Finset.univ fun i => Of d gc c i)) :=
  (bigSep_congr (s := Finset.univ) fun c _ => bigSep3 Finset.univ (Tf d ft c) (If d fi c) (Of d gc c)).trans
    (bigSep3 Finset.univ (fun c => bigSep Finset.univ fun i => Tf d ft c i) (fun c => bigSep Finset.univ fun i => If d fi c i) (fun c => bigSep Finset.univ fun i => Of d gc c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) (gc : Buf (Elt F) (oLoc d)) :
    iprop(tblRem d ft ∗ bigSep Finset.univ fun c => dnRes d c ft fi gc)
      ⊢ iprop((tblLoc d ↦{fullShare} ft) ∗ (iLoc d ↦{fullShare} fi) ∗ (oLoc d ↦{fullShare} gc)) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (Entails.of_eq (out_split d gc).symm); iexact Ho

end Cert.Proof.KV.T2

end
-- ==== Proof.KVT3.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KV.T3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v23_scv
abbrev oW : Memref sig .scVector .hbm S40960x128 .f32 := Memref.whole main_v24_scv
abbrev sI : Memref sig .scVector .vmem S10x128 .i32 := Memref.whole cc3_scratch0
abbrev sA : Memref sig .scVector .vmem S128x128 .f32 := Memref.whole cc3_scratch1
abbrev sB : Memref sig .scVector .vmem S128x128 .f32 := Memref.whole cc3_scratch2

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-- The subcore's block of row numbers, as the kernel slices it. -/
abbrev iBlk (L : grid3.Coords) : Memref sig .scVector .hbm S10x128 .i32 :=
  ((iW : Memref sig .scVector .hbm S32x10x128 .i32).slice (Rect.unit (s := S32x10x128) (k3_off1 L) S1x10x128.size (k3_off1_inb L)) (fun _ => rfl)).squeeze S10x128 squeezes_S1x10x128_S10x128
/-- Chunk `2 k + r` of the subcore's part of the result, as the kernel slices it. -/
abbrev oCh (L : grid3.Coords) (k : Fin k3_t1_loop.trips) (r : Fin 2) : Memref sig .scVector .hbm S128x128 .f32 :=
  (oW : Memref sig .scVector .hbm S40960x128 .f32).slice (Rect.unit (s := S40960x128) (k3_off4 L k (BitVec.ofNat 32 r.val)) S128x128.size (k3_off4_inb L k r)) (fun _ => rfl)

/-- Row `2 k + r` of the row numbers in the scratch, and the table as the gather names it. -/
abbrev iRowM (k : Fin k3_t1_loop.trips) (r : Fin 2) : Memref sig .scVector .vmem S128 .i32 :=
  ((sI : Memref sig .scVector .vmem S10x128 .i32).slice (Rect.unit (s := S10x128) (k3_off3 k (BitVec.ofNat 32 r.val)) S1x128.size (k3_off3_inb k r)) (fun _ => rfl)).squeeze S128 squeezes_S1x128_S128
abbrev tWs : Memref sig .scVector .hbm S50000x128 .f32 :=
  (tW : Memref sig .scVector .hbm S50000x128 .f32).slice (Rect.unit (s := S50000x128) ![0, 0] S50000x128.size inb_S50000x128_S50000x128_0_0) (fun _ => rfl)

theorem cond1_neg : ∀ k : Fin k3_t1_loop.trips, k.val = 0 → ¬ k3_cond1 k = 1#1 := by decide +kernel
theorem cond2_neg : ∀ k : Fin k3_t1_loop.trips, k.val = 0 → ¬ k3_cond2 k = 1#1 := by decide +kernel
theorem cond1_pos : ∀ k : Fin k3_t1_loop.trips, k.val ≠ 0 → k3_cond1 k = 1#1 := by decide +kernel
theorem cond2_pos : ∀ k : Fin k3_t1_loop.trips, k.val ≠ 0 → k3_cond2 k = 1#1 := by decide +kernel
theorem trips_eq : k3_t1_loop.trips = 5 := by decide +kernel

variable [FloatOps F] (d : Dev nD) (L : grid3.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

abbrev XBuf : Type := Buf (Elt F) ((sI : Memref sig .scVector .vmem S10x128 .i32).view.loc (thr d L))
abbrev TBuf : Type := Buf (Elt F) ((tW : Memref sig .scVector .hbm S50000x128 .f32).view.loc (thr d L))

/-- What the gather of row `2 k + r` of the row numbers `X` brings: at row `p`, the table's row `X[2 k + r, p]`. -/
def gVal (ft : TBuf (F := F) d L) (X : XBuf (F := F) d L) (hX : ∀ y, ((sI : Memref sig .scVector .vmem S10x128 .i32).view.read (Elt F) X y).toNat < 50000)
    (k : Fin k3_t1_loop.trips) (r : Fin 2) : S128x128.Idx → Elt F .f32 :=
  SparseCore.gatherPayload gathers_S50000x128_S128x128 ((tWs).view.read (Elt F) ft)
    (SparseCore.rows ((iRowM k r).view.read (Elt F) X) (by decide) (fun _ => hX _))

/-- Chunk `2 k + r` holds what that gather brought. -/
def ChunkOK (ft : TBuf (F := F) d L) (X : XBuf (F := F) d L) (hX : ∀ y, ((sI : Memref sig .scVector .vmem S10x128 .i32).view.read (Elt F) X y).toNat < 50000)
    (k : Fin k3_t1_loop.trips) (r : Fin 2) (f : oBuf (F := F) d L) : Prop :=
  (oCh L k r).view.read (Elt F) f = gVal d L ft X hX k r

omit [FloatOps F] in
/-- A chunk written whole with a staging buffer that was written whole with the gather's payload holds the payload. -/
theorem ok_of_form {M : Memref sig .scVector .vmem S128x128 .f32} (ft : TBuf (F := F) d L) (X : XBuf (F := F) d L)
    (hX : ∀ y, ((sI : Memref sig .scVector .vmem S10x128 .i32).view.read (Elt F) X y).toNat < 50000)
    (k : Fin k3_t1_loop.trips) (r : Fin 2) (fo : oBuf (F := F) d L) (g1 : Buf (Elt F) (M.view.loc (thr d L)))
    (G : S128x128.Idx → Elt F .f32) (hG : G = gVal d L ft X hX k r) (P : S128x128.Idx → Elt F .f32)
    (hP : P = ReadAs.same.apply (M.view.read (Elt F) (M.view.writes (Elt F) g1 [⟨Rect.whole S128x128, G⟩]))) :
    ChunkOK d L ft X hX k r ((oCh L k r).view.writes (Elt F) fo [⟨Rect.whole S128x128, P⟩]) := by
  unfold ChunkOK
  rw [View.read_writes_whole, hP]
  show M.view.read (Elt F) (M.view.writes (Elt F) g1 [⟨Rect.whole S128x128, G⟩]) = _
  rw [View.read_writes_whole, hG]

/-- The two chunks of trip `j` at the contents `gc` the whole result array is to hold. -/
abbrev donePair (gc : oBuf (F := F) d L) (j : Fin k3_t1_loop.trips) : sProp 𝕄 :=
  iprop(own d L (oCh L j 0) gc ∗ own d L (oCh L j 1) gc)
abbrev freshPair (fo : oBuf (F := F) d L) (j : Fin k3_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (gc : oBuf (F := F) d L) (fo : oBuf (F := F) d L) (n : Nat) (j : Fin k3_t1_loop.trips) : sProp 𝕄 :=
  if n ≤ j.val then freshPair d L fo j else if j.val + 1 < n then donePair d L gc j else iprop(emp)

/-- The staging buffers and their write semaphores before trip `n`: free before the first trip, inside the
    two writes in flight afterwards. -/
def slots (ft : TBuf (F := F) d L) (X : XBuf (F := F) d L) (hX : ∀ y, ((sI : Memref sig .scVector .vmem S10x128 .i32).view.read (Elt F) X y).toNat < 50000) (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc3_scratch4.sem) 0 ∗ semVal (thr d L, SemLoc.dma cc3_scratch5.sem) 0)
  else
    iprop(∃ kp : Fin k3_t1_loop.trips, ⌜kp.val + 1 = n⌝ ∗ ∃ fa : oBuf (F := F) d L, ∃ ga, ∃ fb : oBuf (F := F) d L, ∃ gb, ⌜ChunkOK d L ft X hX kp 0 fa ∧ ChunkOK d L ft X hX kp 1 fb⌝ ∗
      Transfers.Flight countersEmb (thr d L) (SemLoc.dma cc3_scratch4.sem) (none : HIx 5) 524288
          iprop(own d L (oCh L kp 0) fa ∗ own d L (sA : Memref sig .scVector .vmem S128x128 .f32) ga)
      ∗ Transfers.Flight countersEmb (thr d L) (SemLoc.dma cc3_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (hX : ∀ y, ((sI : Memref sig .scVector .vmem S10x128 .i32).view.read (Elt F) X y).toNat < 50000)
    (gc : oBuf (F := F) d L) (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc3_scratch3.sem) 0
    ∗ slots d L ft X hX n
    ∗ (bigSep Finset.univ fun j => chunkSt d L gc fo n j)
    ∗ ∃ W', ⌜∀ p ∈ W', p ∈ W ∨ p.2 = none⌝ ∗ owes (thr d L) O W')

/-! ## The chunks' bookkeeping -/

omit [FloatOps F] in
theorem chunks_init (gc : oBuf (F := F) d L) (fo : oBuf (F := F) d L) :
    (bigSep Finset.univ fun j => freshPair d L fo j) = bigSep Finset.univ fun j => chunkSt d L gc fo 0 j :=
  bigSep_congr fun j _ => by unfold chunkSt; rw [if_pos (Nat.zero_le _)]

omit [FloatOps F] in
theorem chunks_take (gc : oBuf (F := F) d L) (fo : oBuf (F := F) d L) (n : Nat) (k : Fin k3_t1_loop.trips) (hk : k.val = n) :
    (bigSep Finset.univ fun j => chunkSt d L gc fo n j)
      = iprop(freshPair d L fo k ∗ bigSep (Finset.univ.erase k) fun j => chunkSt d L gc fo n j) := by
  rw [SparseCore.bigSep_erase' (Finset.mem_univ k)]
  congr 1
  unfold chunkSt; rw [if_pos (le_of_eq hk.symm)]

omit [FloatOps F] in
theorem chunks_step0 (gc : oBuf (F := F) d L) (fo : oBuf (F := F) d L) (n : Nat) (k : Fin k3_t1_loop.trips) (hk : k.val = n) (hn : n = 0) :
    (bigSep (Finset.univ.erase k) fun j => chunkSt d L gc fo n j) ⊢ bigSep Finset.univ fun j => chunkSt d L gc fo (n + 1) j := by
  have e1 : chunkSt d L gc fo (n + 1) k = iprop(emp) := by unfold chunkSt; rw [if_neg (by omega), if_neg (by omega)]
  have e4 : (bigSep (Finset.univ.erase k) fun j => chunkSt d L gc fo n j) = bigSep (Finset.univ.erase k) fun j => chunkSt d L gc fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L gc fo (n + 1) j), e1, e4]
  iintro H
  isplitr; · iempintro
  iexact H

omit [FloatOps F] in
theorem chunks_step (gc : oBuf (F := F) d L) (fo : oBuf (F := F) d L) (n : Nat) (k kp : Fin k3_t1_loop.trips) (hk : k.val = n) (hkp : kp.val + 1 = n) :
    iprop((bigSep (Finset.univ.erase k) fun j => chunkSt d L gc fo n j) ∗ donePair d L gc kp)
      ⊢ bigSep Finset.univ fun j => chunkSt d L gc fo (n + 1) j := by
  have hne : kp ≠ k := fun h => by rw [h] at hkp; omega
  have hmem : kp ∈ Finset.univ.erase k := Finset.mem_erase.mpr ⟨hne, Finset.mem_univ _⟩
  have e1 : chunkSt d L gc fo (n + 1) k = iprop(emp) := by unfold chunkSt; rw [if_neg (by omega), if_neg (by omega)]
  have e2 : chunkSt d L gc fo (n + 1) kp = donePair d L gc kp := by unfold chunkSt; rw [if_neg (by omega), if_pos (by omega)]
  have e3 : chunkSt d L gc fo n kp = iprop(emp) := by unfold chunkSt; rw [if_neg (by omega), if_neg (by omega)]
  have e4 : (bigSep ((Finset.univ.erase k).erase kp) fun j => chunkSt d L gc fo n j)
      = bigSep ((Finset.univ.erase k).erase kp) fun j => chunkSt d L gc fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L gc fo (n + 1) j),
    SparseCore.bigSep_erase' hmem (Φ := fun j => chunkSt d L gc fo (n + 1) j),
    SparseCore.bigSep_erase' hmem (Φ := fun j => chunkSt d L gc fo n j), e1, e2, e3, e4]
  iintro ⟨⟨-, Hr⟩, Hd⟩
  isplitr; · iempintro
  isplitl [Hd]; · iexact Hd
  iexact Hr

omit [FloatOps F] in
theorem chunks_final (gc : oBuf (F := F) d L) (fo : oBuf (F := F) d L) (kp : Fin k3_t1_loop.trips) (hkp : kp.val + 1 = k3_t1_loop.trips) :
    iprop((bigSep Finset.univ fun j => chunkSt d L gc fo k3_t1_loop.trips j) ∗ donePair d L gc kp)
      ⊢ bigSep Finset.univ fun j => donePair d L gc j := by
  have e1 : chunkSt d L gc fo k3_t1_loop.trips kp = iprop(emp) := by
    unfold chunkSt; rw [if_neg (by have := kp.isLt; omega), if_neg (by omega)]
  have e2 : (bigSep (Finset.univ.erase kp) fun j => chunkSt d L gc fo k3_t1_loop.trips j) = bigSep (Finset.univ.erase kp) fun j => donePair d L gc j :=
    bigSep_congr fun j hj => by
      have h1 : j ≠ kp := (Finset.mem_erase.mp hj).1
      have h1' : j.val ≠ kp.val := fun h => h1 (Fin.ext h)
      have hj1 := j.isLt
      have hk1 := kp.isLt
      have a : ¬ k3_t1_loop.trips ≤ j.val := by omega
      have b : j.val + 1 < k3_t1_loop.trips := by omega
      unfold chunkSt
      simp only [if_neg a, if_pos b]
  rw [SparseCore.bigSep_erase' (Finset.mem_univ kp) (Φ := fun j => chunkSt d L gc fo k3_t1_loop.trips j),
    SparseCore.bigSep_erase' (Finset.mem_univ kp) (Φ := fun j => donePair d L gc j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc3_scoped0.sem) 0
        ∗ semVal (thr d L, SemLoc.dma cc3_scratch3.sem) 0
        ∗ semVal (thr d L, SemLoc.dma cc3_scratch4.sem) 0
        ∗ semVal (thr d L, SemLoc.dma cc3_scratch5.sem) 0
        ∗ owes (thr d L) O W)
      ⊢ wp frame (wpE (defs₀ (F := F)) 𝒱₀ (thr d L) none) Set.univ
          (cc3_kern L tW (Memref.isWhole_whole _) iW (Memref.isWhole_whole _) oW (Memref.isWhole_whole _)
            sI (Memref.isWhole_whole _) sA (Memref.isWhole_whole _) sB (Memref.isWhole_whole _) cc3_scratch3 cc3_scratch4 cc3_scratch5 cc3_scoped0)
          fun _ => iprop(((tW : Memref sig .scVector .hbm S50000x128 .f32).view.loc (thr d L) ↦{qs} ft)
            ∗ own d L (iBlk L) fi
            ∗ (bigSep Finset.univ fun j => donePair d L gc j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc3_scoped0.sem) 0
            ∗ semVal (thr d L, SemLoc.dma cc3_scratch3.sem) 0
            ∗ semVal (thr d L, SemLoc.dma cc3_scratch4.sem) 0
            ∗ semVal (thr d L, SemLoc.dma cc3_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  have hXr : (sI : Memref sig .scVector .vmem S10x128 .i32).view.read (Elt F) (View.write (Elt F) (sI : Memref sig .scVector .vmem S10x128 .i32).view f0 (ReadAs.same.apply ((iBlk L).view.read (Elt F) fi)) Finset.univ) = (iBlk L).view.read (Elt F) fi :=
    View.read_write_univ (v := (sI : Memref sig .scVector .vmem S10x128 .i32).view) f0 _
  sl_unfold [cc3_kern]
  sl_exec
  ihave Hch0 := (Entails.of_eq (chunks_init d L gc fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) hX gc fo) $$ [Hmw Ht H0 Hg H1' H2' Ha Hb Hch0 HO]
  case region =>
    intro k _
    have hin0 : ∀ x, ((((sI : Memref sig .scVector .vmem S10x128 .i32).slice (Rect.unit (s := S10x128) (k3_off3 k 0#32) S1x128.size (k3_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k3_off3 k 1#32) S1x128.size (k3_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k3_h1 : ¬ k3_cond1 k = 1#1 := cond1_neg k h0
      have k3_h2 : ¬ k3_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest]
      · iapply (chunks_step0 d L gc fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k3_h1 : k3_cond1 k = 1#1 := cond1_pos k h0
      have k3_h2 : k3_cond2 k = 1#1 := cond2_pos k h0
      unfold inv slots
      rw [if_neg h0, if_neg (Nat.succ_ne_zero k.val)]
      iintro ⟨#Hmw, Ht, H0, Hg, ⟨%kp, %hkp, %fa, %ga, %fb, %gb, %hok, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest Ha_dst Hb_dst]
      · iapply (chunks_step d L gc fo k.val k kp rfl hkp)
        isplitl [Hrest]; · iexact Hrest
        isplitl [Ha_dst]
        · iapply (Entails.of_eq (pointsTo_congr (hgc _ hX hXr kp 0 fa hok.1))); iexact Ha_dst
        iapply (Entails.of_eq (pointsTo_congr (hgc _ hX hXr kp 1 fb hok.2))); iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k3_t1_loop.trips = 0 by rw [trips_eq]; decide)]
  icases HI with ⟨-, Ht, H0, Hg, ⟨%kp, %hkp, %fa, %ga, %fb, %gb, %hok, Ha, Hb⟩, Hch, %W', %hW', HO⟩
  sl_exec
  sl_step
  isplitl [Ht]; · iexact Ht
  isplitl [Hi]; · iexact Hi
  isplitl [Hch Ha_dst Hb_dst]
  · iapply (chunks_final d L gc fo kp hkp)
    isplitl [Hch]; · iexact Hch
    isplitl [Ha_dst]
    · iapply (Entails.of_eq (pointsTo_congr (hgc _ hX hXr kp 0 fa hok.1))); iexact Ha_dst
    iapply (Entails.of_eq (pointsTo_congr (hgc _ hX hXr kp 1 fb hok.2))); iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid3.Coords) (b : Ref sig .scVector) : DevRef τ sig := (Proc.scVector (cV L) (jV L)).devRef b

def myBufs (L : grid3.Coords) : Finset (DevRef τ sig) := {dr L cc3_scratch0, dr L cc3_scratch1, dr L cc3_scratch2}
def mySems (d : Dev nD) (L : grid3.Coords) : Finset (GSem nD τ sig) :=
  {(thr d L, SemLoc.dma cc3_scoped0.sem), (thr d L, SemLoc.dma cc3_scratch3.sem), (thr d L, SemLoc.dma cc3_scratch4.sem), (thr d L, SemLoc.dma cc3_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc3_scoped0.sem : SemLoc sig).isScoped .scVector = true; decide⟩
  · exact mem_ownCells.mpr ⟨rfl, by show (SemLoc.dma cc3_scratch3.sem : SemLoc sig).isScoped .scVector = true; decide⟩
  · exact mem_ownCells.mpr ⟨rfl, by show (SemLoc.dma cc3_scratch4.sem : SemLoc sig).isScoped .scVector = true; decide⟩
  · exact mem_ownCells.mpr ⟨rfl, by show (SemLoc.dma cc3_scratch5.sem : SemLoc sig).isScoped .scVector = true; decide⟩

omit [FloatOps F] in
theorem ownSems0_split :
    (ownSems0 (thr d L) : sProp 𝕄)
      = iprop((semVal (thr d L, SemLoc.dma cc3_scoped0.sem) 0 ∗ semVal (thr d L, SemLoc.dma cc3_scratch3.sem) 0
          ∗ semVal (thr d L, SemLoc.dma cc3_scratch4.sem) 0 ∗ semVal (thr d L, SemLoc.dma cc3_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc3_scoped0.sem : DmaSem sig) ≠ cc3_scratch3.sem := by decide
  have e2 : (cc3_scoped0.sem : DmaSem sig) ≠ cc3_scratch4.sem := by decide
  have e3 : (cc3_scoped0.sem : DmaSem sig) ≠ cc3_scratch5.sem := by decide
  have e4 : (cc3_scratch3.sem : DmaSem sig) ≠ cc3_scratch4.sem := by decide
  have e5 : (cc3_scratch3.sem : DmaSem sig) ≠ cc3_scratch5.sem := by decide
  have e6 : (cc3_scratch4.sem : DmaSem sig) ≠ cc3_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc3_scratch0 ≠ dr L cc3_scratch1 := fun e => absurd (Proc.devRef_injective _ e) (show (cc3_scratch0 : Ref sig .scVector) ≠ cc3_scratch1 by decide)
  have e2 : dr L cc3_scratch0 ≠ dr L cc3_scratch2 := fun e => absurd (Proc.devRef_injective _ e) (show (cc3_scratch0 : Ref sig .scVector) ≠ cc3_scratch2 by decide)
  have e3 : dr L cc3_scratch1 ≠ dr L cc3_scratch2 := fun e => absurd (Proc.devRef_injective _ e) (show (cc3_scratch1 : Ref sig .scVector) ≠ cc3_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) (gc : oBuf (F := F) d L) : sProp 𝕄 :=
  iprop(((tW : Memref sig .scVector .hbm S50000x128 .f32).view.loc (thr d L) ↦{qs} ft) ∗ own d L (iBlk L) fi
    ∗ bigSep Finset.univ fun j => donePair d L gc j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc3_kern L tW (Memref.isWhole_whole _) iW (Memref.isWhole_whole _) oW (Memref.isWhole_whole _)
            sI (Memref.isWhole_whole _) sA (Memref.isWhole_whole _) sB (Memref.isWhole_whole _) cc3_scratch3 cc3_scratch4 cc3_scratch5 cc3_scoped0)
          fun _ => iprop(tdRes d L qs ft fi gc ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi gc hgc)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KV.T3

end
-- ==== Proof.KVP3.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KVT3

noncomputable section

namespace Cert.Proof.KV.T3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid3.bound 0)) (s : Fin (grid3.bound 1)) : grid3.Coords :=
  fun | 0 => c | 1 => s | ⟨_ + 2, h⟩ => absurd h (Nat.not_lt.2 (Nat.le_add_left _ _))

abbrev iLoc (d : Dev nD) : Loc nD τ sig := (SparseCore.T d).loc main_v23
abbrev oLoc (d : Dev nD) : Loc nD τ sig := (SparseCore.T d).loc main_v24

abbrev iRect (L : grid3.Coords) : Rect S32x10x128 := Rect.unit (s := S32x10x128) (k3_off1 L) S1x10x128.size (k3_off1_inb L)
abbrev oRect (L : grid3.Coords) (k : Fin k3_t1_loop.trips) (r : Fin 2) : Rect S40960x128 :=
  Rect.unit (s := S40960x128) (k3_off4 L k (BitVec.ofNat 32 r.val)) S128x128.size (k3_off4_inb L k r)

theorem set_iBlk (L : grid3.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid3.Coords) (k : Fin k3_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid3.bound 0) × Fin (grid3.bound 1)
abbrev CI : Type := (Fin (grid3.bound 0) × Fin (grid3.bound 1)) × (Fin k3_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k3_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k3_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k3_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid3.bound 0), cc.val = ((idx 0).val / 128 % 20) / 10 := ⟨⟨_, by show _ < 2; omega⟩, rfl⟩
  obtain ⟨ii, hii⟩ : ∃ ii : Fin (grid3.bound 1), ii.val = (idx 0).val / 128 / 20 := ⟨⟨_, by show _ < 16; omega⟩, rfl⟩
  obtain ⟨kk, hkk⟩ : ∃ kk : Fin k3_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k3_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid3.bound 0)) : PosShare TreeShare := Transfers.shareTok fullShare (grid3.bound 0) c
abbrev tsh (c : Fin (grid3.bound 0)) (i : Fin (grid3.bound 1)) : PosShare TreeShare := Transfers.shareTok (tokC c) (grid3.bound 1) i

/-- What of the table stays with the TensorCore while the tasks hold their shares. -/
def tblRem (ft : Buf (Elt F) (tblLoc d)) : sProp 𝕄 :=
  iprop((tblLoc d ↦{Transfers.shareDrop fullShare (grid3.bound 0)} ft)
    ∗ bigSep Finset.univ fun c : Fin (grid3.bound 0) => (tblLoc d ↦{Transfers.shareDrop (tokC c) (grid3.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid3.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid3.bound 1)))) $$ Hc
  ihave Hc'' := (Entails.of_eq (bigSep_sep' (Finset.univ : Finset (Fin (grid3.bound 0)))
    (fun c => (tblLoc d ↦{Transfers.shareDrop (tokC c) (grid3.bound 1)} ft : sProp 𝕄))
    (fun c => bigSep Finset.univ fun i : Fin (grid3.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid3.bound 0))
  isplitl [Hd]; · iexact Hd
  ihave Hc := (Entails.of_eq (bigSep_sep' (Finset.univ : Finset (Fin (grid3.bound 0)))
    (fun c => (tblLoc d ↦{Transfers.shareDrop (tokC c) (grid3.bound 1)} ft : sProp 𝕄))
    (fun c => bigSep Finset.univ fun i : Fin (grid3.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid3.bound 1))))
  iexact Hc

/-! ## The whole arrays out to the tasks and back -/

variable [FloatOps F]

/-- What the call hands SparseCore `c`'s sequencer: its sixteen tasks' shares; and what comes back. -/
def stRes (c : Fin (grid3.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid3.bound 0)) (ft : Buf (Elt F) (tblLoc d)) (fi : Buf (Elt F) (iLoc d)) (gc : Buf (Elt F) (oLoc d)) : sProp 𝕄 :=
  bigSep Finset.univ fun i => tdRes d (coordsV c i) (tsh c i) ft fi gc

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid3.bound 0)) (i : Fin (grid3.bound 1)) : sProp 𝕄 := (tblLoc d ↦{tsh c i} ft : sProp 𝕄)
abbrev If (fi : Buf (Elt F) (iLoc d)) (c : Fin (grid3.bound 0)) (i : Fin (grid3.bound 1)) : sProp 𝕄 := (iLoc d ↦[iSet (c, i)]{fullShare} fi : sProp 𝕄)
abbrev Of (fo : Buf (Elt F) (oLoc d)) (c : Fin (grid3.bound 0)) (i : Fin (grid3.bound 1)) : sProp 𝕄 :=
  bigSep Finset.univ fun k => iprop((oLoc d ↦[oSet ((c, i), (k, 0))]{fullShare} fo) ∗ (oLoc d ↦[oSet ((c, i), (k, 1))]{fullShare} fo))
theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) (gc : Buf (Elt F) (oLoc d)) :
    (bigSep Finset.univ fun c => dnRes d c ft fi gc)
      = iprop((bigSep Finset.univ fun c => bigSep Finset.univ fun i => Tf d ft c i) ∗ (bigSep Finset.univ fun c => bigSep Finset.univ fun i => If d fi c i)
          ∗ (bigSep Finset.univ fun c => bigSep Finset.univ fun i => Of d gc c i)) :=
  (bigSep_congr (s := Finset.univ) fun c _ => bigSep3 Finset.univ (Tf d ft c) (If d fi c) (Of d gc c)).trans
    (bigSep3 Finset.univ (fun c => bigSep Finset.univ fun i => Tf d ft c i) (fun c => bigSep Finset.univ fun i => If d fi c i) (fun c => bigSep Finset.univ fun i => Of d gc c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) (gc : Buf (Elt F) (oLoc d)) :
    iprop(tblRem d ft ∗ bigSep Finset.univ fun c => dnRes d c ft fi gc)
      ⊢ iprop((tblLoc d ↦{fullShare} ft) ∗ (iLoc d ↦{fullShare} fi) ∗ (oLoc d ↦{fullShare} gc)) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (Entails.of_eq (out_split d gc).symm); iexact Ho

end Cert.Proof.KV.T3

end
-- ==== Proof.KVT4.lean ====
/-
  One vector subcore's task of a gather call. The subcore fetches its ten rows of 128 row numbers, then
  five times over: waits for the two writes it started the trip before (none at the first trip), gathers
  128 table rows into each of its two staging buffers, one gather at a time on the gather semaphore, and
  starts the write of each staging buffer into its 128-row chunk of the result, each on its own semaphore;
  after the loop it waits for the last two writes. Between trips the two writes are in flight: the chunk and
  the staging buffer rest inside the flight until the next trip's wait hands them back.
-/
import proofs.«205068_g58248346468665_cont_9to1c4b_383_29_alg».proof.Proof.KISetup

noncomputable section

namespace Cert.Proof.KV.T4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

abbrev tW : Memref sig .scVector .hbm S50000x128 .f32 := Memref.whole main_v0_scv
abbrev iW : Memref sig .scVector .hbm S32x10x128 .i32 := Memref.whole main_v29_scv
abbrev oW : Memref sig .scVector .hbm S40960x128 .f32 := Memref.whole main_v30_scv
abbrev sI : Memref sig .scVector .vmem S10x128 .i32 := Memref.whole cc4_scratch0
abbrev sA : Memref sig .scVector .vmem S128x128 .f32 := Memref.whole cc4_scratch1
abbrev sB : Memref sig .scVector .vmem S128x128 .f32 := Memref.whole cc4_scratch2

abbrev cV (L : grid4.Coords) : Fin τ.nSC := (L 0).castLE hcore4
abbrev jV (L : grid4.Coords) : Fin τ.nSub := (L 1).castLE hsub4
abbrev thr (d : Dev nD) (L : grid4.Coords) : Thread nD τ := V d (cV L) (jV L)

/-- The subcore's block of row numbers, as the kernel slices it. -/
abbrev iBlk (L : grid4.Coords) : Memref sig .scVector .hbm S10x128 .i32 :=
  ((iW : Memref sig .scVector .hbm S32x10x128 .i32).slice (Rect.unit (s := S32x10x128) (k4_off1 L) S1x10x128.size (k4_off1_inb L)) (fun _ => rfl)).squeeze S10x128 squeezes_S1x10x128_S10x128
/-- Chunk `2 k + r` of the subcore's part of the result, as the kernel slices it. -/
abbrev oCh (L : grid4.Coords) (k : Fin k4_t1_loop.trips) (r : Fin 2) : Memref sig .scVector .hbm S128x128 .f32 :=
  (oW : Memref sig .scVector .hbm S40960x128 .f32).slice (Rect.unit (s := S40960x128) (k4_off4 L k (BitVec.ofNat 32 r.val)) S128x128.size (k4_off4_inb L k r)) (fun _ => rfl)

/-- Row `2 k + r` of the row numbers in the scratch, and the table as the gather names it. -/
abbrev iRowM (k : Fin k4_t1_loop.trips) (r : Fin 2) : Memref sig .scVector .vmem S128 .i32 :=
  ((sI : Memref sig .scVector .vmem S10x128 .i32).slice (Rect.unit (s := S10x128) (k4_off3 k (BitVec.ofNat 32 r.val)) S1x128.size (k4_off3_inb k r)) (fun _ => rfl)).squeeze S128 squeezes_S1x128_S128
abbrev tWs : Memref sig .scVector .hbm S50000x128 .f32 :=
  (tW : Memref sig .scVector .hbm S50000x128 .f32).slice (Rect.unit (s := S50000x128) ![0, 0] S50000x128.size inb_S50000x128_S50000x128_0_0) (fun _ => rfl)

theorem cond1_neg : ∀ k : Fin k4_t1_loop.trips, k.val = 0 → ¬ k4_cond1 k = 1#1 := by decide +kernel
theorem cond2_neg : ∀ k : Fin k4_t1_loop.trips, k.val = 0 → ¬ k4_cond2 k = 1#1 := by decide +kernel
theorem cond1_pos : ∀ k : Fin k4_t1_loop.trips, k.val ≠ 0 → k4_cond1 k = 1#1 := by decide +kernel
theorem cond2_pos : ∀ k : Fin k4_t1_loop.trips, k.val ≠ 0 → k4_cond2 k = 1#1 := by decide +kernel
theorem trips_eq : k4_t1_loop.trips = 5 := by decide +kernel

variable [FloatOps F] (d : Dev nD) (L : grid4.Coords)

/-- A memref's elements, held outright. -/
abbrev own {sp : Space} {s : Shape} {e : EltTy} (M : Memref sig .scVector sp s e) (f : Buf (Elt F) (M.view.loc (thr d L))) : sProp 𝕄 :=
  M.view.loc (thr d L) ↦[M.view.set]{fullShare} f

abbrev oBuf : Type := Buf (Elt F) ((oW : Memref sig .scVector .hbm S40960x128 .f32).view.loc (thr d L))

abbrev XBuf : Type := Buf (Elt F) ((sI : Memref sig .scVector .vmem S10x128 .i32).view.loc (thr d L))
abbrev TBuf : Type := Buf (Elt F) ((tW : Memref sig .scVector .hbm S50000x128 .f32).view.loc (thr d L))

/-- What the gather of row `2 k + r` of the row numbers `X` brings: at row `p`, the table's row `X[2 k + r, p]`. -/
def gVal (ft : TBuf (F := F) d L) (X : XBuf (F := F) d L) (hX : ∀ y, ((sI : Memref sig .scVector .vmem S10x128 .i32).view.read (Elt F) X y).toNat < 50000)
    (k : Fin k4_t1_loop.trips) (r : Fin 2) : S128x128.Idx → Elt F .f32 :=
  SparseCore.gatherPayload gathers_S50000x128_S128x128 ((tWs).view.read (Elt F) ft)
    (SparseCore.rows ((iRowM k r).view.read (Elt F) X) (by decide) (fun _ => hX _))

/-- Chunk `2 k + r` holds what that gather brought. -/
def ChunkOK (ft : TBuf (F := F) d L) (X : XBuf (F := F) d L) (hX : ∀ y, ((sI : Memref sig .scVector .vmem S10x128 .i32).view.read (Elt F) X y).toNat < 50000)
    (k : Fin k4_t1_loop.trips) (r : Fin 2) (f : oBuf (F := F) d L) : Prop :=
  (oCh L k r).view.read (Elt F) f = gVal d L ft X hX k r

omit [FloatOps F] in
/-- A chunk written whole with a staging buffer that was written whole with the gather's payload holds the payload. -/
theorem ok_of_form {M : Memref sig .scVector .vmem S128x128 .f32} (ft : TBuf (F := F) d L) (X : XBuf (F := F) d L)
    (hX : ∀ y, ((sI : Memref sig .scVector .vmem S10x128 .i32).view.read (Elt F) X y).toNat < 50000)
    (k : Fin k4_t1_loop.trips) (r : Fin 2) (fo : oBuf (F := F) d L) (g1 : Buf (Elt F) (M.view.loc (thr d L)))
    (G : S128x128.Idx → Elt F .f32) (hG : G = gVal d L ft X hX k r) (P : S128x128.Idx → Elt F .f32)
    (hP : P = ReadAs.same.apply (M.view.read (Elt F) (M.view.writes (Elt F) g1 [⟨Rect.whole S128x128, G⟩]))) :
    ChunkOK d L ft X hX k r ((oCh L k r).view.writes (Elt F) fo [⟨Rect.whole S128x128, P⟩]) := by
  unfold ChunkOK
  rw [View.read_writes_whole, hP]
  show M.view.read (Elt F) (M.view.writes (Elt F) g1 [⟨Rect.whole S128x128, G⟩]) = _
  rw [View.read_writes_whole, hG]

/-- The two chunks of trip `j` at the contents `gc` the whole result array is to hold. -/
abbrev donePair (gc : oBuf (F := F) d L) (j : Fin k4_t1_loop.trips) : sProp 𝕄 :=
  iprop(own d L (oCh L j 0) gc ∗ own d L (oCh L j 1) gc)
abbrev freshPair (fo : oBuf (F := F) d L) (j : Fin k4_t1_loop.trips) : sProp 𝕄 :=
  iprop(own d L (oCh L j 0) fo ∗ own d L (oCh L j 1) fo)

/-- Before trip `n`: the chunks of the trips from `n` on untouched, those of the trips before `n - 1`
    written, those of trip `n - 1` inside the two flights. -/
def chunkSt (gc : oBuf (F := F) d L) (fo : oBuf (F := F) d L) (n : Nat) (j : Fin k4_t1_loop.trips) : sProp 𝕄 :=
  if n ≤ j.val then freshPair d L fo j else if j.val + 1 < n then donePair d L gc j else iprop(emp)

/-- The staging buffers and their write semaphores before trip `n`: free before the first trip, inside the
    two writes in flight afterwards. -/
def slots (ft : TBuf (F := F) d L) (X : XBuf (F := F) d L) (hX : ∀ y, ((sI : Memref sig .scVector .vmem S10x128 .i32).view.read (Elt F) X y).toNat < 50000) (n : Nat) : sProp 𝕄 :=
  if n = 0 then
    iprop((∃ f, own d L (sA : Memref sig .scVector .vmem S128x128 .f32) f) ∗ (∃ f, own d L (sB : Memref sig .scVector .vmem S128x128 .f32) f)
      ∗ semVal (thr d L, SemLoc.dma cc4_scratch4.sem) 0 ∗ semVal (thr d L, SemLoc.dma cc4_scratch5.sem) 0)
  else
    iprop(∃ kp : Fin k4_t1_loop.trips, ⌜kp.val + 1 = n⌝ ∗ ∃ fa : oBuf (F := F) d L, ∃ ga, ∃ fb : oBuf (F := F) d L, ∃ gb, ⌜ChunkOK d L ft X hX kp 0 fa ∧ ChunkOK d L ft X hX kp 1 fb⌝ ∗
      Transfers.Flight countersEmb (thr d L) (SemLoc.dma cc4_scratch4.sem) (none : HIx 5) 524288
          iprop(own d L (oCh L kp 0) fa ∗ own d L (sA : Memref sig .scVector .vmem S128x128 .f32) ga)
      ∗ Transfers.Flight countersEmb (thr d L) (SemLoc.dma cc4_scratch5.sem) (none : HIx 5) 524288
          iprop(own d L (oCh L kp 1) fb ∗ own d L (sB : Memref sig .scVector .vmem S128x128 .f32) gb))

def inv (O : CellTallies nD τ sig (HIx 5)) (W : Waits sig (HIx 5)) (qs : PosShare TreeShare)
    (ft : Buf (Elt F) ((tW : Memref sig .scVector .hbm S50000x128 .f32).view.loc (thr d L)))
    (X : Buf (Elt F) ((sI : Memref sig .scVector .vmem S10x128 .i32).view.loc (thr d L)))
    (hX : ∀ y, ((sI : Memref sig .scVector .vmem S10x128 .i32).view.read (Elt F) X y).toNat < 50000)
    (gc : oBuf (F := F) d L) (fo : oBuf (F := F) d L) (n : Nat) (_ : PUnit) : sProp 𝕄 :=
  iprop(Transfers.MayWaits (thr d L) (none : HIx 5) O
    ∗ ((tW : Memref sig .scVector .hbm S50000x128 .f32).view.loc (thr d L) ↦{qs} ft)
    ∗ ((sI : Memref sig .scVector .vmem S10x128 .i32).view.loc (thr d L) ↦{fullShare} X)
    ∗ semVal (thr d L, SemLoc.dma cc4_scratch3.sem) 0
    ∗ slots d L ft X hX n
    ∗ (bigSep Finset.univ fun j => chunkSt d L gc fo n j)
    ∗ ∃ W', ⌜∀ p ∈ W', p ∈ W ∨ p.2 = none⌝ ∗ owes (thr d L) O W')

/-! ## The chunks' bookkeeping -/

omit [FloatOps F] in
theorem chunks_init (gc : oBuf (F := F) d L) (fo : oBuf (F := F) d L) :
    (bigSep Finset.univ fun j => freshPair d L fo j) = bigSep Finset.univ fun j => chunkSt d L gc fo 0 j :=
  bigSep_congr fun j _ => by unfold chunkSt; rw [if_pos (Nat.zero_le _)]

omit [FloatOps F] in
theorem chunks_take (gc : oBuf (F := F) d L) (fo : oBuf (F := F) d L) (n : Nat) (k : Fin k4_t1_loop.trips) (hk : k.val = n) :
    (bigSep Finset.univ fun j => chunkSt d L gc fo n j)
      = iprop(freshPair d L fo k ∗ bigSep (Finset.univ.erase k) fun j => chunkSt d L gc fo n j) := by
  rw [SparseCore.bigSep_erase' (Finset.mem_univ k)]
  congr 1
  unfold chunkSt; rw [if_pos (le_of_eq hk.symm)]

omit [FloatOps F] in
theorem chunks_step0 (gc : oBuf (F := F) d L) (fo : oBuf (F := F) d L) (n : Nat) (k : Fin k4_t1_loop.trips) (hk : k.val = n) (hn : n = 0) :
    (bigSep (Finset.univ.erase k) fun j => chunkSt d L gc fo n j) ⊢ bigSep Finset.univ fun j => chunkSt d L gc fo (n + 1) j := by
  have e1 : chunkSt d L gc fo (n + 1) k = iprop(emp) := by unfold chunkSt; rw [if_neg (by omega), if_neg (by omega)]
  have e4 : (bigSep (Finset.univ.erase k) fun j => chunkSt d L gc fo n j) = bigSep (Finset.univ.erase k) fun j => chunkSt d L gc fo (n + 1) j :=
    bigSep_congr fun j hj => by
      have h2 : j ≠ k := (Finset.mem_erase.mp hj).1
      have h2' : j.val ≠ k.val := fun h => h2 (Fin.ext h)
      have a : n ≤ j.val := by omega
      have a' : n + 1 ≤ j.val := by omega
      unfold chunkSt
      simp only [if_pos a, if_pos a']
  rw [SparseCore.bigSep_erase' (Finset.mem_univ k) (Φ := fun j => chunkSt d L gc fo (n + 1) j), e1, e4]
  iintro H
  isplitr; · iempintro
  iexact H

omit [FloatOps F] in
theorem chunks_step (gc : oBuf (F := F) d L) (fo : oBuf (F := F) d L) (n : Nat) (k kp : Fin k4_t1_loop.trips) (hk : k.val = n) (hkp : kp.val + 1 = n) :
    iprop((bigSep (Finset.univ.erase k) fun j => chunkSt d L gc fo n j) ∗ donePair d L gc kp)
      ⊢ bigSep Finset.univ fun j => chunkSt d L gc fo (n + 1) j := by
  have hne : kp ≠ k := fun h => by rw [h] at hkp; omega
  have hmem : kp ∈ Finset.univ.erase k := Finset.mem_erase.mpr ⟨hne, Finset.mem_univ _⟩
  have e1 : chunkSt d L gc fo (n + 1) k = iprop(emp) := by unfold chunkSt; rw [if_neg (by omega), if_neg (by omega)]
  have e2 : chunkSt d L gc fo (n + 1) kp = donePair d L gc kp := by unfold chunkSt; rw [if_neg (by omega), if_pos (by omega)]
  have e3 : chunkSt d L gc fo n kp = iprop(emp) := by unfold chunkSt; rw [if_neg (by omega), if_neg (by omega)]
  have e4 : (bigSep ((Finset.univ.erase k).erase kp) fun j => chunkSt d L gc fo n j)
      = bigSep ((Finset.univ.erase k).erase kp) fun j => chunkSt d L gc fo (n + 1) j :=
    bigSep_congr fun j hj => by
      have h1 : j ≠ kp := (Finset.mem_erase.mp hj).1
      have h2 : j ≠ k := (Finset.mem_erase.mp (Finset.mem_erase.mp hj).2).1
      have h1' : j.val ≠ kp.val := fun h => h1 (Fin.ext h)
      have h2' : j.val ≠ k.val := fun h => h2 (Fin.ext h)
      unfold chunkSt
      by_cases a : n ≤ j.val
      · have a' : n + 1 ≤ j.val := by omega
        simp only [if_pos a, if_pos a']
      · have a' : ¬ n + 1 ≤ j.val := by omega
        by_cases b : j.val + 1 < n
        · have b' : j.val + 1 < n + 1 := by omega
          simp only [if_neg a, if_neg a', if_pos b, if_pos b']
        · have b' : ¬ j.val + 1 < n + 1 := by omega
          simp only [if_neg a, if_neg a', if_neg b, if_neg b']
  rw [SparseCore.bigSep_erase' (Finset.mem_univ k) (Φ := fun j => chunkSt d L gc fo (n + 1) j),
    SparseCore.bigSep_erase' hmem (Φ := fun j => chunkSt d L gc fo (n + 1) j),
    SparseCore.bigSep_erase' hmem (Φ := fun j => chunkSt d L gc fo n j), e1, e2, e3, e4]
  iintro ⟨⟨-, Hr⟩, Hd⟩
  isplitr; · iempintro
  isplitl [Hd]; · iexact Hd
  iexact Hr

omit [FloatOps F] in
theorem chunks_final (gc : oBuf (F := F) d L) (fo : oBuf (F := F) d L) (kp : Fin k4_t1_loop.trips) (hkp : kp.val + 1 = k4_t1_loop.trips) :
    iprop((bigSep Finset.univ fun j => chunkSt d L gc fo k4_t1_loop.trips j) ∗ donePair d L gc kp)
      ⊢ bigSep Finset.univ fun j => donePair d L gc j := by
  have e1 : chunkSt d L gc fo k4_t1_loop.trips kp = iprop(emp) := by
    unfold chunkSt; rw [if_neg (by have := kp.isLt; omega), if_neg (by omega)]
  have e2 : (bigSep (Finset.univ.erase kp) fun j => chunkSt d L gc fo k4_t1_loop.trips j) = bigSep (Finset.univ.erase kp) fun j => donePair d L gc j :=
    bigSep_congr fun j hj => by
      have h1 : j ≠ kp := (Finset.mem_erase.mp hj).1
      have h1' : j.val ≠ kp.val := fun h => h1 (Fin.ext h)
      have hj1 := j.isLt
      have hk1 := kp.isLt
      have a : ¬ k4_t1_loop.trips ≤ j.val := by omega
      have b : j.val + 1 < k4_t1_loop.trips := by omega
      unfold chunkSt
      simp only [if_neg a, if_pos b]
  rw [SparseCore.bigSep_erase' (Finset.mem_univ kp) (Φ := fun j => chunkSt d L gc fo k4_t1_loop.trips j),
    SparseCore.bigSep_erase' (Finset.mem_univ kp) (Φ := fun j => donePair d L gc j), e1, e2]
  iintro ⟨⟨-, Hr⟩, Hd⟩
  isplitl [Hd]; · iexact Hd
  iexact Hr

omit [FloatOps F] in
theorem ins_ok {W W' : Waits sig (HIx 5)} (h : ∀ p ∈ W', p ∈ W ∨ p.2 = none) (sm : SemLoc sig) :
    ∀ p ∈ insert (sm, (none : HIx 5)) W', p ∈ W ∨ p.2 = none := by
  intro p hp
  rcases Finset.mem_insert.mp hp with hp | hp
  · exact .inr (hp ▸ rfl)
  · exact h p hp

omit [FloatOps F] in
theorem own_sA (f : Buf (Elt F) ((sA : Memref sig .scVector .vmem S128x128 .f32).view.loc (thr d L))) :
    (own d L (sA : Memref sig .scVector .vmem S128x128 .f32) f : sProp 𝕄) = ((sA : Memref sig .scVector .vmem S128x128 .f32).view.loc (thr d L) ↦{fullShare} f) := by
  unfold own
  simp only [Memref.view_whole, View.set_whole]
omit [FloatOps F] in
theorem own_sB (f : Buf (Elt F) ((sB : Memref sig .scVector .vmem S128x128 .f32).view.loc (thr d L))) :
    (own d L (sB : Memref sig .scVector .vmem S128x128 .f32) f : sProp 𝕄) = ((sB : Memref sig .scVector .vmem S128x128 .f32).view.loc (thr d L) ↦{fullShare} f) := by
  unfold own
  simp only [Memref.view_whole, View.set_whole]

/-! ## The task -/

set_option maxHeartbeats 1600000 in
theorem tile_core (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev
        ∗ ((tW : Memref sig .scVector .hbm S50000x128 .f32).view.loc (thr d L) ↦{qs} ft)
        ∗ own d L (iBlk L) fi
        ∗ (bigSep Finset.univ fun j => freshPair d L fo j)
        ∗ (∃ f, (sI : Memref sig .scVector .vmem S10x128 .i32).view.loc (thr d L) ↦{fullShare} f)
        ∗ (∃ f, (sA : Memref sig .scVector .vmem S128x128 .f32).view.loc (thr d L) ↦{fullShare} f)
        ∗ (∃ f, (sB : Memref sig .scVector .vmem S128x128 .f32).view.loc (thr d L) ↦{fullShare} f)
        ∗ semVal (thr d L, SemLoc.dma cc4_scoped0.sem) 0
        ∗ semVal (thr d L, SemLoc.dma cc4_scratch3.sem) 0
        ∗ semVal (thr d L, SemLoc.dma cc4_scratch4.sem) 0
        ∗ semVal (thr d L, SemLoc.dma cc4_scratch5.sem) 0
        ∗ owes (thr d L) O W)
      ⊢ wp frame (wpE (defs₀ (F := F)) 𝒱₀ (thr d L) none) Set.univ
          (cc4_kern L tW (Memref.isWhole_whole _) iW (Memref.isWhole_whole _) oW (Memref.isWhole_whole _)
            sI (Memref.isWhole_whole _) sA (Memref.isWhole_whole _) sB (Memref.isWhole_whole _) cc4_scratch3 cc4_scratch4 cc4_scratch5 cc4_scoped0)
          fun _ => iprop(((tW : Memref sig .scVector .hbm S50000x128 .f32).view.loc (thr d L) ↦{qs} ft)
            ∗ own d L (iBlk L) fi
            ∗ (bigSep Finset.univ fun j => donePair d L gc j)
            ∗ (∃ f, (sI : Memref sig .scVector .vmem S10x128 .i32).view.loc (thr d L) ↦{fullShare} f)
            ∗ (∃ f, (sA : Memref sig .scVector .vmem S128x128 .f32).view.loc (thr d L) ↦{fullShare} f)
            ∗ (∃ f, (sB : Memref sig .scVector .vmem S128x128 .f32).view.loc (thr d L) ↦{fullShare} f)
            ∗ semVal (thr d L, SemLoc.dma cc4_scoped0.sem) 0
            ∗ semVal (thr d L, SemLoc.dma cc4_scratch3.sem) 0
            ∗ semVal (thr d L, SemLoc.dma cc4_scratch4.sem) 0
            ∗ semVal (thr d L, SemLoc.dma cc4_scratch5.sem) 0
            ∗ ∃ W', ⌜∀ p ∈ W', p ∈ W ∨ p.2 = none⌝ ∗ owes (thr d L) O W') := by
  iintro ⟨#Hlv, Ht, Hi, Hch, ⟨%f0, H0⟩, ⟨%f1, H1⟩, ⟨%f2, H2⟩, Hs0, Hg, Ha, Hb, HO⟩
  ihave Hmw := ((K (F := F)).mayWaits_none (thr := thr d L) hO) $$ Hlv
  have hX : ∀ y, ((sI : Memref sig .scVector .vmem S10x128 .i32).view.read (Elt F)
      (View.write (Elt F) (sI : Memref sig .scVector .vmem S10x128 .i32).view f0 (ReadAs.same.apply ((iBlk L).view.read (Elt F) fi)) Finset.univ) y).toNat < 50000 := by
    intro y; rw [View.read_write_univ]; exact hfi y
  have hXr : (sI : Memref sig .scVector .vmem S10x128 .i32).view.read (Elt F) (View.write (Elt F) (sI : Memref sig .scVector .vmem S10x128 .i32).view f0 (ReadAs.same.apply ((iBlk L).view.read (Elt F) fi)) Finset.univ) = (iBlk L).view.read (Elt F) fi :=
    View.read_write_univ (v := (sI : Memref sig .scVector .vmem S10x128 .i32).view) f0 _
  sl_unfold [cc4_kern]
  sl_exec
  ihave Hch0 := (Entails.of_eq (chunks_init d L gc fo)) $$ Hch
  ihave H1' := (Entails.of_eq (own_sA d L f1).symm) $$ H1
  ihave H2' := (Entails.of_eq (own_sB d L f2).symm) $$ H2
  sl_for (inv d L O W qs ft (View.write (Elt F) (sI : Memref sig .scVector .vmem S10x128 .i32).view f0 (ReadAs.same.apply ((iBlk L).view.read (Elt F) fi)) Finset.univ) hX gc fo) $$ [Hmw Ht H0 Hg H1' H2' Ha Hb Hch0 HO]
  case region =>
    intro k _
    have hin0 : ∀ x, ((((sI : Memref sig .scVector .vmem S10x128 .i32).slice (Rect.unit (s := S10x128) (k4_off3 k 0#32) S1x128.size (k4_off3_inb k 0)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    have hin1 : ∀ x, ((((sI : Memref sig .scVector .vmem S10x128 .i32).slice (Rect.unit (s := S10x128) (k4_off3 k 1#32) S1x128.size (k4_off3_inb k 1)) (fun _ => rfl)).squeeze S128 squeezes_S1x128_S128).view.read (Elt F)
        (View.write (Elt F) (sI : Memref sig .scVector .vmem S10x128 .i32).view f0 (ReadAs.same.apply ((iBlk L).view.read (Elt F) fi)) Finset.univ) x).toNat < 50000 := fun x => hX _
    by_cases h0 : k.val = 0
    · have k4_h1 : ¬ k4_cond1 k = 1#1 := cond1_neg k h0
      have k4_h2 : ¬ k4_cond2 k = 1#1 := cond2_neg k h0
      unfold inv slots
      rw [if_pos h0, if_neg (Nat.succ_ne_zero k.val)]
      iintro ⟨#Hmw, Ht, H0, Hg, ⟨⟨%g1, H1⟩, ⟨%g2, H2⟩, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest]
      · iapply (chunks_step0 d L gc fo k.val k rfl h0); iexact Hrest
      iexists _; isplitr; swap
      · iexact HO
      · ipureintro
        exact fun p hp => by
          simp only [Finset.mem_insert] at hp
          rcases hp with h | h | h
          · exact .inr (h ▸ rfl)
          · exact .inr (h ▸ rfl)
          · exact hW' p h
    · have k4_h1 : k4_cond1 k = 1#1 := cond1_pos k h0
      have k4_h2 : k4_cond2 k = 1#1 := cond2_pos k h0
      unfold inv slots
      rw [if_neg h0, if_neg (Nat.succ_ne_zero k.val)]
      iintro ⟨#Hmw, Ht, H0, Hg, ⟨%kp, %hkp, %fa, %ga, %fb, %gb, %hok, Ha, Hb⟩, Hch, %W', %hW', HO⟩
      ihave Hch' := (Entails.of_eq (chunks_take d L gc fo k.val k rfl)) $$ Hch
      icases Hch' with ⟨⟨Hc0, Hc1⟩, Hrest⟩
      sl_exec
      sl_step
      isplitr; · iexact Hmw
      isplitl [Ht]; · iexact Ht
      isplitl [H0]; · iexact H0
      isplitl [Hg]; · iexact Hg
      isplitl [Ha Hb]
      · iexists k; isplitr; · ipureintro; rfl
        iexists _; iexists _; iexists _; iexists _
        isplitr; swap
        · isplitl [Ha]; · iexact Ha
          iexact Hb
        · ipureintro
          exact ⟨ok_of_form d L ft _ hX k 0 fo _ _ rfl _ rfl, ok_of_form d L ft _ hX k 1 fo _ _ rfl _ rfl⟩
      isplitl [Hrest Ha_dst Hb_dst]
      · iapply (chunks_step d L gc fo k.val k kp rfl hkp)
        isplitl [Hrest]; · iexact Hrest
        isplitl [Ha_dst]
        · iapply (Entails.of_eq (pointsTo_congr (hgc _ hX hXr kp 0 fa hok.1))); iexact Ha_dst
        iapply (Entails.of_eq (pointsTo_congr (hgc _ hX hXr kp 1 fb hok.2))); iexact Hb_dst
      iexists _; isplitr; swap
      · iexact HO
      · ipureintro
        exact fun p hp => by
          simp only [Finset.mem_insert] at hp
          rcases hp with h | h | h | h | h
          · exact .inr (h ▸ rfl)
          · exact .inr (h ▸ rfl)
          · exact .inr (h ▸ rfl)
          · exact .inr (h ▸ rfl)
          · exact hW' p h
  · unfold inv slots
    rw [if_pos rfl]
    isplitr; · iexact Hmw
    isplitl [Ht]; · iexact Ht
    isplitl [H0]; · iexact H0
    isplitl [Hg]; · iexact Hg
    isplitl [H1' H2' Ha Hb]
    · isplitl [H1']; · iexists _; iexact H1'
      isplitl [H2']; · iexists _; iexact H2'
      isplitl [Ha]; · iexact Ha
      iexact Hb
    isplitl [Hch0]; · iexact Hch0
    iexists _; isplitr; swap
    · iexact HO
    · ipureintro
      exact fun p hp => by
        simp only [Finset.mem_insert] at hp
        rcases hp with h | h
        · exact .inr (h ▸ rfl)
        · exact .inl h
  iintro %_ HI
  unfold inv slots
  rw [if_neg (show ¬ k4_t1_loop.trips = 0 by rw [trips_eq]; decide)]
  icases HI with ⟨-, Ht, H0, Hg, ⟨%kp, %hkp, %fa, %ga, %fb, %gb, %hok, Ha, Hb⟩, Hch, %W', %hW', HO⟩
  sl_exec
  sl_step
  isplitl [Ht]; · iexact Ht
  isplitl [Hi]; · iexact Hi
  isplitl [Hch Ha_dst Hb_dst]
  · iapply (chunks_final d L gc fo kp hkp)
    isplitl [Hch]; · iexact Hch
    isplitl [Ha_dst]
    · iapply (Entails.of_eq (pointsTo_congr (hgc _ hX hXr kp 0 fa hok.1))); iexact Ha_dst
    iapply (Entails.of_eq (pointsTo_congr (hgc _ hX hXr kp 1 fb hok.2))); iexact Hb_dst
  isplitl [H0]; · iexists _; iexact H0
  isplitl [Ha_src]; · iexists _; iapply (Entails.of_eq (own_sA d L _)); iexact Ha_src
  isplitl [Hb_src]; · iexists _; iapply (Entails.of_eq (own_sB d L _)); iexact Hb_src
  isplitl [Hs0]; · iexact Hs0
  isplitl [Hg]; · iexact Hg
  isplitl [Ha]; · iexact Ha
  isplitl [Hb]; · iexact Hb
  iexists _; isplitr; swap
  · iexact HO
  · ipureintro
    exact fun p hp => by
      simp only [Finset.mem_insert] at hp
      rcases hp with h | h | h
      · exact .inr (h ▸ rfl)
      · exact .inr (h ▸ rfl)
      · exact hW' p h

/-! ## The task's storage: its three scratch buffers and four semaphores among the subcore's own -/

abbrev dr (L : grid4.Coords) (b : Ref sig .scVector) : DevRef τ sig := (Proc.scVector (cV L) (jV L)).devRef b

def myBufs (L : grid4.Coords) : Finset (DevRef τ sig) := {dr L cc4_scratch0, dr L cc4_scratch1, dr L cc4_scratch2}
def mySems (d : Dev nD) (L : grid4.Coords) : Finset (GSem nD τ sig) :=
  {(thr d L, SemLoc.dma cc4_scoped0.sem), (thr d L, SemLoc.dma cc4_scratch3.sem), (thr d L, SemLoc.dma cc4_scratch4.sem), (thr d L, SemLoc.dma cc4_scratch5.sem)}

omit [FloatOps F] in
theorem myBufs_sub : myBufs L ⊆ ownRefs (τ := τ) (sig := sig) (.scVector (cV L) (jV L)) := by
  intro b hb
  simp only [myBufs, Finset.mem_insert, Finset.mem_singleton] at hb
  rcases hb with rfl | rfl | rfl <;> exact SparseCore.Cfg.mem_ownRefs_of_owner (p := Proc.scVector (cV L) (jV L)) rfl

omit [FloatOps F] in
theorem mySems_sub : mySems d L ⊆ ownCells (thr d L) := by
  intro g hg
  simp only [mySems, Finset.mem_insert, Finset.mem_singleton] at hg
  rcases hg with rfl | rfl | rfl | rfl
  · exact mem_ownCells.mpr ⟨rfl, by show (SemLoc.dma cc4_scoped0.sem : SemLoc sig).isScoped .scVector = true; decide⟩
  · exact mem_ownCells.mpr ⟨rfl, by show (SemLoc.dma cc4_scratch3.sem : SemLoc sig).isScoped .scVector = true; decide⟩
  · exact mem_ownCells.mpr ⟨rfl, by show (SemLoc.dma cc4_scratch4.sem : SemLoc sig).isScoped .scVector = true; decide⟩
  · exact mem_ownCells.mpr ⟨rfl, by show (SemLoc.dma cc4_scratch5.sem : SemLoc sig).isScoped .scVector = true; decide⟩

omit [FloatOps F] in
theorem ownSems0_split :
    (ownSems0 (thr d L) : sProp 𝕄)
      = iprop((semVal (thr d L, SemLoc.dma cc4_scoped0.sem) 0 ∗ semVal (thr d L, SemLoc.dma cc4_scratch3.sem) 0
          ∗ semVal (thr d L, SemLoc.dma cc4_scratch4.sem) 0 ∗ semVal (thr d L, SemLoc.dma cc4_scratch5.sem) 0)
        ∗ bigSep (ownCells (thr d L) \ mySems d L) fun g => semVal g 0) := by
  unfold SparseCore.Cfg.ownSems0
  rw [SparseCore.bigSep_sdiff_split' (mySems_sub d L)]
  congr 1
  unfold mySems
  have e1 : (cc4_scoped0.sem : DmaSem sig) ≠ cc4_scratch3.sem := by decide
  have e2 : (cc4_scoped0.sem : DmaSem sig) ≠ cc4_scratch4.sem := by decide
  have e3 : (cc4_scoped0.sem : DmaSem sig) ≠ cc4_scratch5.sem := by decide
  have e4 : (cc4_scratch3.sem : DmaSem sig) ≠ cc4_scratch4.sem := by decide
  have e5 : (cc4_scratch3.sem : DmaSem sig) ≠ cc4_scratch5.sem := by decide
  have e6 : (cc4_scratch4.sem : DmaSem sig) ≠ cc4_scratch5.sem := by decide
  rw [SparseCore.bigSep_insert' (by simp [e1, e2, e3]), SparseCore.bigSep_insert' (by simp [e4, e5]), SparseCore.bigSep_insert' (by simp [e6]), bigSep_singleton]

omit [FloatOps F] in
theorem ownBufs_split :
    (ownBufs (thr d L) : sProp 𝕄)
      = iprop(((∃ f, (sI : Memref sig .scVector .vmem S10x128 .i32).view.loc (thr d L) ↦{fullShare} f)
          ∗ (∃ f, (sA : Memref sig .scVector .vmem S128x128 .f32).view.loc (thr d L) ↦{fullShare} f)
          ∗ (∃ f, (sB : Memref sig .scVector .vmem S128x128 .f32).view.loc (thr d L) ↦{fullShare} f))
        ∗ bigSep (ownRefs (τ := τ) (sig := sig) (.scVector (cV L) (jV L)) \ myBufs L) fun b => iprop(∃ f, ((d, b) : Loc nD τ sig) ↦{fullShare} f)) := by
  unfold SparseCore.Cfg.ownBufs
  rw [SparseCore.bigSep_sdiff_split' (myBufs_sub L)]
  congr 1
  unfold myBufs
  have e1 : dr L cc4_scratch0 ≠ dr L cc4_scratch1 := fun e => absurd (Proc.devRef_injective _ e) (show (cc4_scratch0 : Ref sig .scVector) ≠ cc4_scratch1 by decide)
  have e2 : dr L cc4_scratch0 ≠ dr L cc4_scratch2 := fun e => absurd (Proc.devRef_injective _ e) (show (cc4_scratch0 : Ref sig .scVector) ≠ cc4_scratch2 by decide)
  have e3 : dr L cc4_scratch1 ≠ dr L cc4_scratch2 := fun e => absurd (Proc.devRef_injective _ e) (show (cc4_scratch1 : Ref sig .scVector) ≠ cc4_scratch2 by decide)
  rw [SparseCore.bigSep_insert' (by simp [e1, e2]), SparseCore.bigSep_insert' (by simp [e3]), bigSep_singleton]

/-! ## What a task is handed, and what it hands back -/

/-- A share of the table, the subcore's block of row numbers, its ten chunks of the result. -/
def goRes (qs : PosShare TreeShare) (ft : Buf (Elt F) ((tW : Memref sig .scVector .hbm S50000x128 .f32).view.loc (thr d L)))
    (fi : Buf (Elt F) ((iBlk L).view.loc (thr d L))) (fo : oBuf (F := F) d L) : sProp 𝕄 :=
  iprop(((tW : Memref sig .scVector .hbm S50000x128 .f32).view.loc (thr d L) ↦{qs} ft) ∗ own d L (iBlk L) fi ∗ bigSep Finset.univ fun j => freshPair d L fo j)
def tdRes (qs : PosShare TreeShare) (ft : Buf (Elt F) ((tW : Memref sig .scVector .hbm S50000x128 .f32).view.loc (thr d L)))
    (fi : Buf (Elt F) ((iBlk L).view.loc (thr d L))) (gc : oBuf (F := F) d L) : sProp 𝕄 :=
  iprop(((tW : Memref sig .scVector .hbm S50000x128 .f32).view.loc (thr d L) ↦{qs} ft) ∗ own d L (iBlk L) fi
    ∗ bigSep Finset.univ fun j => donePair d L gc j)

theorem tile_body (O : CellTallies nD τ sig (HIx 5)) (W : Waits sig (HIx 5)) (hO : ∀ g, O g none = 0) (qs : PosShare TreeShare)
    (ft : Buf (Elt F) ((tW : Memref sig .scVector .hbm S50000x128 .f32).view.loc (thr d L)))
    (fi : Buf (Elt F) ((iBlk L).view.loc (thr d L))) (fo : oBuf (F := F) d L)
    (hfi : ∀ j, ((iBlk L).view.read (Elt F) fi j).toNat < 50000) (gc : oBuf (F := F) d L)
    (hgc : ∀ (X : XBuf (F := F) d L) (hX : ∀ y, ((sI : Memref sig .scVector .vmem S10x128 .i32).view.read (Elt F) X y).toNat < 50000), (sI : Memref sig .scVector .vmem S10x128 .i32).view.read (Elt F) X = (iBlk L).view.read (Elt F) fi →
      ∀ k r (f : oBuf (F := F) d L), ChunkOK d L ft X hX k r f → ∀ idx ∈ (oCh L k r).view.set, f idx = gc idx) :
    iprop(levAts (K (F := F)).L (K (F := F)).lev ∗ emp ∗ goRes d L qs ft fi fo
        ∗ scopedBufs (thr d L) ∗ scopedSems0 (thr d L) ∗ owes (thr d L) O W)
      ⊢ wp frame (wpE (defs₀ (F := F)) 𝒱₀ (thr d L) none) Set.univ
          (cc4_kern L tW (Memref.isWhole_whole _) iW (Memref.isWhole_whole _) oW (Memref.isWhole_whole _)
            sI (Memref.isWhole_whole _) sA (Memref.isWhole_whole _) sB (Memref.isWhole_whole _) cc4_scratch3 cc4_scratch4 cc4_scratch5 cc4_scoped0)
          fun _ => iprop(tdRes d L qs ft fi gc ∗ scopedBufs (thr d L) ∗ scopedSems0 (thr d L)
            ∗ ∃ W', ⌜∀ p ∈ W', p ∈ W ∨ p.2 = none⌝ ∗ owes (thr d L) O W') := by
  rw [SparseCore.Cfg.scopedSems0_V, (K (F := F)).scopedBufs_V facts, ownSems0_split, ownBufs_split]
  unfold goRes tdRes
  iintro ⟨#Hlv, -, ⟨Ht, Hi, Hch⟩, ⟨⟨H0, H1, H2⟩, Hbr⟩, ⟨⟨Hs0, Hg, Ha, Hb⟩, Hsr⟩, HO⟩
  iapply (wp_wand_r frame _ Set.univ)
  isplitl [Ht Hi Hch H0 H1 H2 Hs0 Hg Ha Hb HO]
  · iapply (tile_core d L O W hO qs ft fi fo hfi gc hgc)
    isplitr; · iexact Hlv
    isplitl [Ht]; · iexact Ht
    isplitl [Hi]; · iexact Hi
    isplitl [Hch]; · iexact Hch
    isplitl [H0]; · iexact H0
    isplitl [H1]; · iexact H1
    isplitl [H2]; · iexact H2
    isplitl [Hs0]; · iexact Hs0
    isplitl [Hg]; · iexact Hg
    isplitl [Ha]; · iexact Ha
    isplitl [Hb]; · iexact Hb
    iexact HO
  iintro %_ ⟨Ht, Hi, Hch, H0, H1, H2, Hs0, Hg, Ha, Hb, HO⟩
  isplitl [Ht Hi Hch]
  · isplitl [Ht]; · iexact Ht
    isplitl [Hi]; · iexact Hi
    iexact Hch
  isplitl [H0 H1 H2 Hbr]
  · isplitl [H0 H1 H2]
    · isplitl [H0]; · iexact H0
      isplitl [H1]; · iexact H1
      iexact H2
    iexact Hbr
  isplitl [Hs0 Hg Ha Hb Hsr]
  · isplitl [Hs0 Hg Ha Hb]
    · isplitl [Hs0]; · iexact Hs0
      isplitl [Hg]; · iexact Hg
      isplitl [Ha]; · iexact Ha
      iexact Hb
    iexact Hsr
  iexact HO

end Cert.Proof.KV.T4

end
-- ==== Proof.KVP4.lean ====
/-
  The arrays of a gather call dealt to its thirty-two tasks: the row numbers in thirty-two blocks, the result in
  three hundred and twenty chunks of 128 rows, ten per task; the blocks (the chunks) are pairwise disjoint and
  cover the array, so the whole array is the separating conjunction of its pieces, and comes back whole from them.
-/
import proofs.«205068_g58248346468665_cont_9to1c4b_383_29_alg».proof.Proof.KVT4

noncomputable section

namespace Cert.Proof.KV.T4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (d : Dev nD)

def coordsV (c : Fin (grid4.bound 0)) (s : Fin (grid4.bound 1)) : grid4.Coords :=
  fun | 0 => c | 1 => s | ⟨_ + 2, h⟩ => absurd h (Nat.not_lt.2 (Nat.le_add_left _ _))

abbrev iLoc (d : Dev nD) : Loc nD τ sig := (SparseCore.T d).loc main_v29
abbrev oLoc (d : Dev nD) : Loc nD τ sig := (SparseCore.T d).loc main_v30

abbrev iRect (L : grid4.Coords) : Rect S32x10x128 := Rect.unit (s := S32x10x128) (k4_off1 L) S1x10x128.size (k4_off1_inb L)
abbrev oRect (L : grid4.Coords) (k : Fin k4_t1_loop.trips) (r : Fin 2) : Rect S40960x128 :=
  Rect.unit (s := S40960x128) (k4_off4 L k (BitVec.ofNat 32 r.val)) S128x128.size (k4_off4_inb L k r)

theorem set_iBlk (L : grid4.Coords) : (iBlk L).view.set = (iRect L).set := by
  show (((iW : Memref sig .scVector .hbm S32x10x128 .i32).view.slice (iRect L)).reshape S10x128 squeezes_S1x10x128_S10x128.numel_eq).set = _
  rw [View.set_reshape]
  simp only [Memref.view_whole, View.set_slice_whole]

theorem set_oCh (L : grid4.Coords) (k : Fin k4_t1_loop.trips) (r : Fin 2) : (oCh L k r).view.set = (oRect L k r).set := by
  show ((oW : Memref sig .scVector .hbm S40960x128 .f32).view.slice (oRect L k r)).set = _
  simp only [Memref.view_whole, View.set_slice_whole]

abbrev TI : Type := Fin (grid4.bound 0) × Fin (grid4.bound 1)
abbrev CI : Type := (Fin (grid4.bound 0) × Fin (grid4.bound 1)) × (Fin k4_t1_loop.trips × Fin 2)

/-- A task's block of row numbers, a task's chunk of the result, as sets of elements of their arrays. -/
abbrev iSet (x : TI) : Finset S32x10x128.Idx := (iBlk (coordsV x.1 x.2)).view.set
abbrev oSet (x : CI) : Finset S40960x128.Idx := (oCh (coordsV x.1.1 x.1.2) x.2.1 x.2.2).view.set

theorem iSets_disjoint {x y : TI} (h : x ≠ y) : Disjoint (iSet x) (iSet y) := by
  unfold iSet
  rw [set_iBlk, set_iBlk]
  refine Rect.disjoint_of_separated _ _ 0 ?_
  have h1 : x.1.val < 2 := x.1.isLt
  have h2 : x.2.val < 16 := x.2.isLt
  have h3 : y.1.val < 2 := y.1.isLt
  have h4 : y.2.val < 16 := y.2.isLt
  have hne : ¬ (x.1.val = y.1.val ∧ x.2.val = y.2.val) := fun ⟨a, b⟩ => h (Prod.ext (Fin.ext a) (Fin.ext b))
  simp only [Rect.off_unit, Rect.size_unit, Rect.stride_unit, k4_off1_eq, coordsV, Matrix.cons_val_zero]
  omega

theorem iSets_cover : (Finset.univ : Finset TI).biUnion iSet = Finset.univ := by
  ext idx
  simp only [Finset.mem_biUnion, Finset.mem_univ, true_and, iff_true]
  unfold iSet
  have hr : (idx 0).val < 32 := (idx 0).isLt
  have h1 : (idx 1).val < 10 := (idx 1).isLt
  have h2 : (idx 2).val < 128 := (idx 2).isLt
  refine ⟨(⟨(idx 0).val % 2, by show _ < 2; omega⟩, ⟨(idx 0).val / 2, by show _ < 16; omega⟩), ?_⟩
  rw [set_iBlk]
  refine Rect.mem_set_unit.mpr fun a => ?_
  simp only [k4_off1_eq, coordsV]
  match a with
  | 0 => simp only [Matrix.cons_val_zero]; show _ ≤ (idx 0).val ∧ (idx 0).val < _ + 1; omega
  | 1 => simp only [Matrix.cons_val_one, Matrix.cons_val_zero]; show 0 ≤ (idx 1).val ∧ (idx 1).val < 0 + 10; omega
  | 2 => simp only [Matrix.cons_val_two, Matrix.cons_val_one, Matrix.cons_val_zero, Matrix.tail_cons, Matrix.head_cons]; show 0 ≤ (idx 2).val ∧ (idx 2).val < 0 + 128; omega

theorem oSets_disjoint {x y : CI} (h : x ≠ y) : Disjoint (oSet x) (oSet y) := by
  unfold oSet
  rw [set_oCh, set_oCh]
  refine Rect.disjoint_of_separated _ _ 0 ?_
  have h1 : x.1.1.val < 2 := x.1.1.isLt
  have h2 : x.1.2.val < 16 := x.1.2.isLt
  have h3 : y.1.1.val < 2 := y.1.1.isLt
  have h4 : y.1.2.val < 16 := y.1.2.isLt
  have h5 : x.2.1.val < 5 := trips_eq ▸ x.2.1.isLt
  have h6 := x.2.2.isLt
  have h7 : y.2.1.val < 5 := trips_eq ▸ y.2.1.isLt
  have h8 := y.2.2.isLt
  have hne : ¬ (x.1.1.val = y.1.1.val ∧ x.1.2.val = y.1.2.val ∧ x.2.1.val = y.2.1.val ∧ x.2.2.val = y.2.2.val) :=
    fun ⟨a, b, c, e⟩ => h (Prod.ext (Prod.ext (Fin.ext a) (Fin.ext b)) (Prod.ext (Fin.ext c) (Fin.ext e)))
  simp only [Rect.off_unit, Rect.size_unit, Rect.stride_unit, k4_off4_eq, coordsV, Matrix.cons_val_zero]
  omega

theorem oSets_cover : (Finset.univ : Finset CI).biUnion oSet = Finset.univ := by
  ext idx
  simp only [Finset.mem_biUnion, Finset.mem_univ, true_and, iff_true]
  unfold oSet
  have hr : (idx 0).val < 40960 := (idx 0).isLt
  have h1 : (idx 1).val < 128 := (idx 1).isLt
  obtain ⟨cc, hcc⟩ : ∃ cc : Fin (grid4.bound 0), cc.val = ((idx 0).val / 128 % 20) / 10 := ⟨⟨_, by show _ < 2; omega⟩, rfl⟩
  obtain ⟨ii, hii⟩ : ∃ ii : Fin (grid4.bound 1), ii.val = (idx 0).val / 128 / 20 := ⟨⟨_, by show _ < 16; omega⟩, rfl⟩
  obtain ⟨kk, hkk⟩ : ∃ kk : Fin k4_t1_loop.trips, kk.val = ((idx 0).val / 128 % 10) / 2 := ⟨⟨_, by rw [trips_eq]; omega⟩, rfl⟩
  obtain ⟨rr, hrr⟩ : ∃ rr : Fin 2, rr.val = (idx 0).val / 128 % 2 := ⟨⟨_, by omega⟩, rfl⟩
  refine ⟨((cc, ii), (kk, rr)), ?_⟩
  rw [set_oCh]
  refine Rect.mem_set_unit.mpr fun a => ?_
  rw [k4_off4_eq]
  simp only [coordsV]
  match a with
  | 0 => simp only [Matrix.cons_val_zero]; show _ ≤ (idx 0).val ∧ (idx 0).val < _ + 128; omega
  | 1 => simp only [Matrix.cons_val_one, Matrix.cons_val_zero]; show 0 ≤ (idx 1).val ∧ (idx 1).val < 0 + 128; omega

/-! ## The arrays as their pieces -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem idx_split (fi : Buf (Elt F) (iLoc d)) :
    (iLoc d ↦{fullShare} fi : sProp 𝕄)
      = bigSep Finset.univ fun c => bigSep Finset.univ fun i => (iLoc d ↦[iSet (c, i)]{fullShare} fi : sProp 𝕄) := by
  rw [← bigSep_univ_prod (fun x : TI => (iLoc d ↦[iSet x]{fullShare} fi : sProp 𝕄)),
    ← pointsTo_biUnion Finset.univ (ℓ := iLoc d) iSet (fun x _ y _ h => iSets_disjoint h), iSets_cover]
  try rfl

theorem out_split (fo : Buf (Elt F) (oLoc d)) :
    (oLoc d ↦{fullShare} fo : sProp 𝕄)
      = bigSep Finset.univ fun c => bigSep Finset.univ fun i => bigSep Finset.univ fun k =>
          iprop((oLoc d ↦[oSet ((c, i), (k, 0))]{fullShare} fo) ∗ (oLoc d ↦[oSet ((c, i), (k, 1))]{fullShare} fo)) := by
  have e : (oLoc d ↦{fullShare} fo : sProp 𝕄) = bigSep Finset.univ fun x : CI => (oLoc d ↦[oSet x]{fullShare} fo : sProp 𝕄) := by
    rw [← pointsTo_biUnion Finset.univ (ℓ := oLoc d) oSet (fun x _ y _ h => oSets_disjoint h), oSets_cover]
    try rfl
  rw [e, bigSep_univ_prod, bigSep_univ_prod]
  refine bigSep_congr fun c _ => bigSep_congr fun i _ => ?_
  rw [bigSep_univ_prod]
  refine bigSep_congr fun k _ => ?_
  rw [bigSep_fin2]

/-! ## The table's read shares: one per SparseCore, of which one per task -/

abbrev tokC (c : Fin (grid4.bound 0)) : PosShare TreeShare := Transfers.shareTok fullShare (grid4.bound 0) c
abbrev tsh (c : Fin (grid4.bound 0)) (i : Fin (grid4.bound 1)) : PosShare TreeShare := Transfers.shareTok (tokC c) (grid4.bound 1) i

/-- What of the table stays with the TensorCore while the tasks hold their shares. -/
def tblRem (ft : Buf (Elt F) (tblLoc d)) : sProp 𝕄 :=
  iprop((tblLoc d ↦{Transfers.shareDrop fullShare (grid4.bound 0)} ft)
    ∗ bigSep Finset.univ fun c : Fin (grid4.bound 0) => (tblLoc d ↦{Transfers.shareDrop (tokC c) (grid4.bound 1)} ft : sProp 𝕄))

theorem tbl_split (ft : Buf (Elt F) (tblLoc d)) :
    (tblLoc d ↦{fullShare} ft : sProp 𝕄)
      ⊢ iprop(tblRem d ft ∗ bigSep Finset.univ fun c => bigSep Finset.univ fun i => (tblLoc d ↦{tsh c i} ft : sProp 𝕄)) := by
  unfold tblRem
  iintro H
  ihave H' := (Transfers.pointsTo_toks_split (ℓ := tblLoc d) (S := Finset.univ) (f := ft) fullShare (grid4.bound 0)) $$ H
  icases H' with ⟨Hd, Hc⟩
  ihave Hc' := (SparseCore.ent (bigSep_mono (s := Finset.univ) (fun c _ => Transfers.pointsTo_toks_split (ℓ := tblLoc d) (S := Finset.univ) (f := ft) (tokC c) (grid4.bound 1)))) $$ Hc
  ihave Hc'' := (Entails.of_eq (bigSep_sep' (Finset.univ : Finset (Fin (grid4.bound 0)))
    (fun c => (tblLoc d ↦{Transfers.shareDrop (tokC c) (grid4.bound 1)} ft : sProp 𝕄))
    (fun c => bigSep Finset.univ fun i : Fin (grid4.bound 1) => (tblLoc d ↦{tsh c i} ft : sProp 𝕄)))) $$ Hc'
  icases Hc'' with ⟨Hcd, Hci⟩
  isplitl [Hd Hcd]
  · isplitl [Hd]; · iexact Hd
    iexact Hcd
  iexact Hci

theorem tbl_join (ft : Buf (Elt F) (tblLoc d)) :
    iprop(tblRem d ft ∗ bigSep Finset.univ fun c => bigSep Finset.univ fun i => (tblLoc d ↦{tsh c i} ft : sProp 𝕄))
      ⊢ (tblLoc d ↦{fullShare} ft : sProp 𝕄) := by
  unfold tblRem
  iintro ⟨⟨Hd, Hcd⟩, Hci⟩
  iapply (Transfers.pointsTo_toks_join (ℓ := tblLoc d) (S := Finset.univ) (f := ft) fullShare (grid4.bound 0))
  isplitl [Hd]; · iexact Hd
  ihave Hc := (Entails.of_eq (bigSep_sep' (Finset.univ : Finset (Fin (grid4.bound 0)))
    (fun c => (tblLoc d ↦{Transfers.shareDrop (tokC c) (grid4.bound 1)} ft : sProp 𝕄))
    (fun c => bigSep Finset.univ fun i : Fin (grid4.bound 1) => (tblLoc d ↦{tsh c i} ft : sProp 𝕄))).symm) $$ [Hcd Hci]
  · isplitl [Hcd]; · iexact Hcd
    iexact Hci
  iapply (SparseCore.ent (bigSep_mono (s := Finset.univ) (fun c _ => Transfers.pointsTo_toks_join (ℓ := tblLoc d) (S := Finset.univ) (f := ft) (tokC c) (grid4.bound 1))))
  iexact Hc

/-! ## The whole arrays out to the tasks and back -/

variable [FloatOps F]

/-- What the call hands SparseCore `c`'s sequencer: its sixteen tasks' shares; and what comes back. -/
def stRes (c : Fin (grid4.bound 0)) (ft : Buf (Elt F) (tblLoc d)) (fi : Buf (Elt F) (iLoc d)) (fo : Buf (Elt F) (oLoc d)) : sProp 𝕄 :=
  bigSep Finset.univ fun i => goRes d (coordsV c i) (tsh c i) ft fi fo
def dnRes (c : Fin (grid4.bound 0)) (ft : Buf (Elt F) (tblLoc d)) (fi : Buf (Elt F) (iLoc d)) (gc : Buf (Elt F) (oLoc d)) : sProp 𝕄 :=
  bigSep Finset.univ fun i => tdRes d (coordsV c i) (tsh c i) ft fi gc

omit [FloatOps F] in
theorem bigSep3 {I : Type} (s : Finset I) (A B C : I → sProp 𝕄) :
    bigSep s (fun i => iprop(A i ∗ B i ∗ C i)) = iprop(bigSep s A ∗ bigSep s B ∗ bigSep s C) := by
  rw [bigSep_sep' s A (fun i => iprop(B i ∗ C i)), bigSep_sep' s B C]

abbrev Tf (ft : Buf (Elt F) (tblLoc d)) (c : Fin (grid4.bound 0)) (i : Fin (grid4.bound 1)) : sProp 𝕄 := (tblLoc d ↦{tsh c i} ft : sProp 𝕄)
abbrev If (fi : Buf (Elt F) (iLoc d)) (c : Fin (grid4.bound 0)) (i : Fin (grid4.bound 1)) : sProp 𝕄 := (iLoc d ↦[iSet (c, i)]{fullShare} fi : sProp 𝕄)
abbrev Of (fo : Buf (Elt F) (oLoc d)) (c : Fin (grid4.bound 0)) (i : Fin (grid4.bound 1)) : sProp 𝕄 :=
  bigSep Finset.univ fun k => iprop((oLoc d ↦[oSet ((c, i), (k, 0))]{fullShare} fo) ∗ (oLoc d ↦[oSet ((c, i), (k, 1))]{fullShare} fo))
theorem st_eq (ft : Buf (Elt F) (tblLoc d)) (fi : Buf (Elt F) (iLoc d)) (fo : Buf (Elt F) (oLoc d)) :
    (bigSep Finset.univ fun c => stRes d c ft fi fo)
      = iprop((bigSep Finset.univ fun c => bigSep Finset.univ fun i => Tf d ft c i) ∗ (bigSep Finset.univ fun c => bigSep Finset.univ fun i => If d fi c i)
          ∗ (bigSep Finset.univ fun c => bigSep Finset.univ fun i => Of d fo c i)) :=
  (bigSep_congr (s := Finset.univ) fun c _ => bigSep3 Finset.univ (Tf d ft c) (If d fi c) (Of d fo c)).trans
    (bigSep3 Finset.univ (fun c => bigSep Finset.univ fun i => Tf d ft c i) (fun c => bigSep Finset.univ fun i => If d fi c i) (fun c => bigSep Finset.univ fun i => Of d fo c i))

theorem dn_eq (ft : Buf (Elt F) (tblLoc d)) (fi : Buf (Elt F) (iLoc d)) (gc : Buf (Elt F) (oLoc d)) :
    (bigSep Finset.univ fun c => dnRes d c ft fi gc)
      = iprop((bigSep Finset.univ fun c => bigSep Finset.univ fun i => Tf d ft c i) ∗ (bigSep Finset.univ fun c => bigSep Finset.univ fun i => If d fi c i)
          ∗ (bigSep Finset.univ fun c => bigSep Finset.univ fun i => Of d gc c i)) :=
  (bigSep_congr (s := Finset.univ) fun c _ => bigSep3 Finset.univ (Tf d ft c) (If d fi c) (Of d gc c)).trans
    (bigSep3 Finset.univ (fun c => bigSep Finset.univ fun i => Tf d ft c i) (fun c => bigSep Finset.univ fun i => If d fi c i) (fun c => bigSep Finset.univ fun i => Of d gc c i))

theorem st_split (ft : Buf (Elt F) (tblLoc d)) (fi : Buf (Elt F) (iLoc d)) (fo : Buf (Elt F) (oLoc d)) :
    iprop((tblLoc d ↦{fullShare} ft) ∗ (iLoc d ↦{fullShare} fi) ∗ (oLoc d ↦{fullShare} fo))
      ⊢ iprop(tblRem d ft ∗ bigSep Finset.univ fun c => stRes d c ft fi fo) := by
  rw [st_eq]
  iintro ⟨Ht, Hi, Ho⟩
  ihave Ht' := (tbl_split d ft) $$ Ht
  icases Ht' with ⟨Hrem, Hts⟩
  ihave Hi' := (Entails.of_eq (idx_split d fi)) $$ Hi
  ihave Ho' := (Entails.of_eq (out_split d fo)) $$ Ho
  isplitl [Hrem]; · iexact Hrem
  isplitl [Hts]; · iexact Hts
  isplitl [Hi']; · iexact Hi'
  iexact Ho'

theorem dn_join (ft : Buf (Elt F) (tblLoc d)) (fi : Buf (Elt F) (iLoc d)) (gc : Buf (Elt F) (oLoc d)) :
    iprop(tblRem d ft ∗ bigSep Finset.univ fun c => dnRes d c ft fi gc)
      ⊢ iprop((tblLoc d ↦{fullShare} ft) ∗ (iLoc d ↦{fullShare} fi) ∗ (oLoc d ↦{fullShare} gc)) := by
  rw [dn_eq]
  iintro ⟨Hrem, Hts, Hi, Ho⟩
  isplitl [Hrem Hts]
  · iapply (tbl_join d ft); isplitl [Hrem]; · iexact Hrem
    iexact Hts
  isplitl [Hi]
  · iapply (Entails.of_eq (idx_split d fi).symm); iexact Hi
  iapply (Entails.of_eq (out_split d gc).symm); iexact Ho

end Cert.Proof.KV.T4

end
-- ==== Proof.KVPay.lean ====
/-
  What the five gather calls' handshakes carry when the result's contents are followed: each task hands its ten
  chunks back holding the rows of the table its row numbers name, stated as the chunks of one array `gc`.
-/
import proofs.«205068_g58248346468665_cont_9to1c4b_383_29_alg».proof.Proof.KVP0
import proofs.«205068_g58248346468665_cont_9to1c4b_383_29_alg».proof.Proof.KVP1
import proofs.«205068_g58248346468665_cont_9to1c4b_383_29_alg».proof.Proof.KVP2
import proofs.«205068_g58248346468665_cont_9to1c4b_383_29_alg».proof.Proof.KVP3
import proofs.«205068_g58248346468665_cont_9to1c4b_383_29_alg».proof.Proof.KVP4

noncomputable section

namespace Cert.Proof.KV

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F]

/-- The arrays' contents when each call is made, and the result array each call is to leave. -/
structure Conts (F : FTy → Type) where
  tv : (d : Dev nD) → Buf (Elt F) (tblLoc d)
  iv0 : (d : Dev nD) → Buf (Elt F) (T0.iLoc d)
  ov0 : (d : Dev nD) → Buf (Elt F) (T0.oLoc d)
  gc0 : (d : Dev nD) → Buf (Elt F) (T0.oLoc d)
  iv1 : (d : Dev nD) → Buf (Elt F) (T1.iLoc d)
  ov1 : (d : Dev nD) → Buf (Elt F) (T1.oLoc d)
  gc1 : (d : Dev nD) → Buf (Elt F) (T1.oLoc d)
  iv2 : (d : Dev nD) → Buf (Elt F) (T2.iLoc d)
  ov2 : (d : Dev nD) → Buf (Elt F) (T2.oLoc d)
  gc2 : (d : Dev nD) → Buf (Elt F) (T2.oLoc d)
  iv3 : (d : Dev nD) → Buf (Elt F) (T3.iLoc d)
  ov3 : (d : Dev nD) → Buf (Elt F) (T3.oLoc d)
  gc3 : (d : Dev nD) → Buf (Elt F) (T3.oLoc d)
  iv4 : (d : Dev nD) → Buf (Elt F) (T4.iLoc d)
  ov4 : (d : Dev nD) → Buf (Elt F) (T4.oLoc d)
  gc4 : (d : Dev nD) → Buf (Elt F) (T4.oLoc d)

variable (C : Conts F)

def P : (K (F := F)).Pay (nD := nD) (Val := Elt F) (Name := ℕ) (U := UU) where
  st := fun q d c => match q with
    | 0 => T0.stRes d c (C.tv d) (C.iv0 d) (C.ov0 d)
    | 1 => T1.stRes d c (C.tv d) (C.iv1 d) (C.ov1 d)
    | 2 => T2.stRes d c (C.tv d) (C.iv2 d) (C.ov2 d)
    | 3 => T3.stRes d c (C.tv d) (C.iv3 d) (C.ov3 d)
    | 4 => T4.stRes d c (C.tv d) (C.iv4 d) (C.ov4 d)
  dn := fun q d c => match q with
    | 0 => T0.dnRes d c (C.tv d) (C.iv0 d) (C.gc0 d)
    | 1 => T1.dnRes d c (C.tv d) (C.iv1 d) (C.gc1 d)
    | 2 => T2.dnRes d c (C.tv d) (C.iv2 d) (C.gc2 d)
    | 3 => T3.dnRes d c (C.tv d) (C.iv3 d) (C.gc3 d)
    | 4 => T4.dnRes d c (C.tv d) (C.iv4 d) (C.gc4 d)
  go := fun q d c i => match q with
    | 0 => T0.goRes d (T0.coordsV c i) (T0.tsh c i) (C.tv d) (C.iv0 d) (C.ov0 d)
    | 1 => T1.goRes d (T1.coordsV c i) (T1.tsh c i) (C.tv d) (C.iv1 d) (C.ov1 d)
    | 2 => T2.goRes d (T2.coordsV c i) (T2.tsh c i) (C.tv d) (C.iv2 d) (C.ov2 d)
    | 3 => T3.goRes d (T3.coordsV c i) (T3.tsh c i) (C.tv d) (C.iv3 d) (C.ov3 d)
    | 4 => T4.goRes d (T4.coordsV c i) (T4.tsh c i) (C.tv d) (C.iv4 d) (C.ov4 d)
  td := fun q d c i => match q with
    | 0 => T0.tdRes d (T0.coordsV c i) (T0.tsh c i) (C.tv d) (C.iv0 d) (C.gc0 d)
    | 1 => T1.tdRes d (T1.coordsV c i) (T1.tsh c i) (C.tv d) (C.iv1 d) (C.gc1 d)
    | 2 => T2.tdRes d (T2.coordsV c i) (T2.tsh c i) (C.tv d) (C.iv2 d) (C.gc2 d)
    | 3 => T3.tdRes d (T3.coordsV c i) (T3.tsh c i) (C.tv d) (C.iv3 d) (C.gc3 d)
    | 4 => T4.tdRes d (T4.coordsV c i) (T4.tsh c i) (C.tv d) (C.iv4 d) (C.gc4 d)
  x := fun _ _ => iprop(emp)

set_option synthInstance.maxHeartbeats 2000000 in
set_option maxHeartbeats 8000000 in
instance P_storable : (P (F := F) C).IsStorable where
  st q d c := match q with
    | 0 => by show BI.Storable (upEmb : UEmb _ 𝕄) (T0.stRes d c (C.tv d) (C.iv0 d) (C.ov0 d)); unfold T0.stRes T0.goRes; infer_instance
    | 1 => by show BI.Storable (upEmb : UEmb _ 𝕄) (T1.stRes d c (C.tv d) (C.iv1 d) (C.ov1 d)); unfold T1.stRes T1.goRes; infer_instance
    | 2 => by show BI.Storable (upEmb : UEmb _ 𝕄) (T2.stRes d c (C.tv d) (C.iv2 d) (C.ov2 d)); unfold T2.stRes T2.goRes; infer_instance
    | 3 => by show BI.Storable (upEmb : UEmb _ 𝕄) (T3.stRes d c (C.tv d) (C.iv3 d) (C.ov3 d)); unfold T3.stRes T3.goRes; infer_instance
    | 4 => by show BI.Storable (upEmb : UEmb _ 𝕄) (T4.stRes d c (C.tv d) (C.iv4 d) (C.ov4 d)); unfold T4.stRes T4.goRes; infer_instance
  dn q d c := match q with
    | 0 => by show BI.Storable (upEmb : UEmb _ 𝕄) (T0.dnRes d c (C.tv d) (C.iv0 d) (C.gc0 d)); unfold T0.dnRes T0.tdRes; infer_instance
    | 1 => by show BI.Storable (upEmb : UEmb _ 𝕄) (T1.dnRes d c (C.tv d) (C.iv1 d) (C.gc1 d)); unfold T1.dnRes T1.tdRes; infer_instance
    | 2 => by show BI.Storable (upEmb : UEmb _ 𝕄) (T2.dnRes d c (C.tv d) (C.iv2 d) (C.gc2 d)); unfold T2.dnRes T2.tdRes; infer_instance
    | 3 => by show BI.Storable (upEmb : UEmb _ 𝕄) (T3.dnRes d c (C.tv d) (C.iv3 d) (C.gc3 d)); unfold T3.dnRes T3.tdRes; infer_instance
    | 4 => by show BI.Storable (upEmb : UEmb _ 𝕄) (T4.dnRes d c (C.tv d) (C.iv4 d) (C.gc4 d)); unfold T4.dnRes T4.tdRes; infer_instance
  go q d c i := match q with
    | 0 => by show BI.Storable (upEmb : UEmb _ 𝕄) (T0.goRes d (T0.coordsV c i) (T0.tsh c i) (C.tv d) (C.iv0 d) (C.ov0 d)); unfold T0.goRes; infer_instance
    | 1 => by show BI.Storable (upEmb : UEmb _ 𝕄) (T1.goRes d (T1.coordsV c i) (T1.tsh c i) (C.tv d) (C.iv1 d) (C.ov1 d)); unfold T1.goRes; infer_instance
    | 2 => by show BI.Storable (upEmb : UEmb _ 𝕄) (T2.goRes d (T2.coordsV c i) (T2.tsh c i) (C.tv d) (C.iv2 d) (C.ov2 d)); unfold T2.goRes; infer_instance
    | 3 => by show BI.Storable (upEmb : UEmb _ 𝕄) (T3.goRes d (T3.coordsV c i) (T3.tsh c i) (C.tv d) (C.iv3 d) (C.ov3 d)); unfold T3.goRes; infer_instance
    | 4 => by show BI.Storable (upEmb : UEmb _ 𝕄) (T4.goRes d (T4.coordsV c i) (T4.tsh c i) (C.tv d) (C.iv4 d) (C.ov4 d)); unfold T4.goRes; infer_instance
  td q d c i := match q with
    | 0 => by show BI.Storable (upEmb : UEmb _ 𝕄) (T0.tdRes d (T0.coordsV c i) (T0.tsh c i) (C.tv d) (C.iv0 d) (C.gc0 d)); unfold T0.tdRes; infer_instance
    | 1 => by show BI.Storable (upEmb : UEmb _ 𝕄) (T1.tdRes d (T1.coordsV c i) (T1.tsh c i) (C.tv d) (C.iv1 d) (C.gc1 d)); unfold T1.tdRes; infer_instance
    | 2 => by show BI.Storable (upEmb : UEmb _ 𝕄) (T2.tdRes d (T2.coordsV c i) (T2.tsh c i) (C.tv d) (C.iv2 d) (C.gc2 d)); unfold T2.tdRes; infer_instance
    | 3 => by show BI.Storable (upEmb : UEmb _ 𝕄) (T3.tdRes d (T3.coordsV c i) (T3.tsh c i) (C.tv d) (C.iv3 d) (C.gc3 d)); unfold T3.tdRes; infer_instance
    | 4 => by show BI.Storable (upEmb : UEmb _ 𝕄) (T4.tdRes d (T4.coordsV c i) (T4.tsh c i) (C.tv d) (C.iv4 d) (C.gc4 d)); unfold T4.tdRes; infer_instance

/-- Every row number a task is handed names a row of the table, and a chunk holding what its gather brought holds
    the result array's contents there. -/
structure PreOK : Prop where
  lt0 : ∀ (d : Dev nD) (L : grid0.Coords) j, ((T0.iBlk L).view.read (Elt F) (C.iv0 d) j).toNat < 50000
  gc0 : ∀ (d : Dev nD) (L : grid0.Coords) (X : T0.XBuf (F := F) d L) (hX : ∀ y, ((T0.sI : Memref sig .scVector .vmem S10x128 .i32).view.read (Elt F) X y).toNat < 50000),
    (T0.sI : Memref sig .scVector .vmem S10x128 .i32).view.read (Elt F) X = (T0.iBlk L).view.read (Elt F) (C.iv0 d) →
    ∀ k r (f : T0.oBuf (F := F) d L), T0.ChunkOK d L (C.tv d) X hX k r f → ∀ idx ∈ (T0.oCh L k r).view.set, f idx = C.gc0 d idx
  lt1 : ∀ (d : Dev nD) (L : grid1.Coords) j, ((T1.iBlk L).view.read (Elt F) (C.iv1 d) j).toNat < 50000
  gc1 : ∀ (d : Dev nD) (L : grid1.Coords) (X : T1.XBuf (F := F) d L) (hX : ∀ y, ((T1.sI : Memref sig .scVector .vmem S10x128 .i32).view.read (Elt F) X y).toNat < 50000),
    (T1.sI : Memref sig .scVector .vmem S10x128 .i32).view.read (Elt F) X = (T1.iBlk L).view.read (Elt F) (C.iv1 d) →
    ∀ k r (f : T1.oBuf (F := F) d L), T1.ChunkOK d L (C.tv d) X hX k r f → ∀ idx ∈ (T1.oCh L k r).view.set, f idx = C.gc1 d idx
  lt2 : ∀ (d : Dev nD) (L : grid2.Coords) j, ((T2.iBlk L).view.read (Elt F) (C.iv2 d) j).toNat < 50000
  gc2 : ∀ (d : Dev nD) (L : grid2.Coords) (X : T2.XBuf (F := F) d L) (hX : ∀ y, ((T2.sI : Memref sig .scVector .vmem S10x128 .i32).view.read (Elt F) X y).toNat < 50000),
    (T2.sI : Memref sig .scVector .vmem S10x128 .i32).view.read (Elt F) X = (T2.iBlk L).view.read (Elt F) (C.iv2 d) →
    ∀ k r (f : T2.oBuf (F := F) d L), T2.ChunkOK d L (C.tv d) X hX k r f → ∀ idx ∈ (T2.oCh L k r).view.set, f idx = C.gc2 d idx
  lt3 : ∀ (d : Dev nD) (L : grid3.Coords) j, ((T3.iBlk L).view.read (Elt F) (C.iv3 d) j).toNat < 50000
  gc3 : ∀ (d : Dev nD) (L : grid3.Coords) (X : T3.XBuf (F := F) d L) (hX : ∀ y, ((T3.sI : Memref sig .scVector .vmem S10x128 .i32).view.read (Elt F) X y).toNat < 50000),
    (T3.sI : Memref sig .scVector .vmem S10x128 .i32).view.read (Elt F) X = (T3.iBlk L).view.read (Elt F) (C.iv3 d) →
    ∀ k r (f : T3.oBuf (F := F) d L), T3.ChunkOK d L (C.tv d) X hX k r f → ∀ idx ∈ (T3.oCh L k r).view.set, f idx = C.gc3 d idx
  lt4 : ∀ (d : Dev nD) (L : grid4.Coords) j, ((T4.iBlk L).view.read (Elt F) (C.iv4 d) j).toNat < 50000
  gc4 : ∀ (d : Dev nD) (L : grid4.Coords) (X : T4.XBuf (F := F) d L) (hX : ∀ y, ((T4.sI : Memref sig .scVector .vmem S10x128 .i32).view.read (Elt F) X y).toNat < 50000),
    (T4.sI : Memref sig .scVector .vmem S10x128 .i32).view.read (Elt F) X = (T4.iBlk L).view.read (Elt F) (C.iv4 d) →
    ∀ k r (f : T4.oBuf (F := F) d L), T4.ChunkOK d L (C.tv d) X hX k r f → ∀ idx ∈ (T4.oCh L k r).view.set, f idx = C.gc4 d idx

omit [FloatOps F] in
theorem obl_post {thr : Thread nD τ} {A B C' : sProp 𝕄} {O : CellTallies nD τ sig (HIx 5)} {W : Waits sig (HIx 5)} {q : Fin 5} :
    iprop(A ∗ B ∗ C' ∗ ∃ W', ⌜∀ p ∈ W', p ∈ W ∨ p.2 = none⌝ ∗ owes thr O W')
      ⊢ iprop(A ∗ B ∗ C' ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_kern (T0.coordsV c s)
          T0.tW (Memref.isWhole_whole _) T0.iW (Memref.isWhole_whole _) T0.oW (Memref.isWhole_whole _)
          T0.sI (Memref.isWhole_whole _) T0.sA (Memref.isWhole_whole _) T0.sB (Memref.isWhole_whole _) cc0_scratch3 cc0_scratch4 cc0_scratch5 cc0_scoped0) ⟨⟩ c s := rfl

theorem tileObl0 (hpre : PreOK C) : (K (F := F)).TileObl (D (F := F)) 𝒱 (P C) v₀ 0 := by
  intro d c i O W hO _ _
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (T0.tile_body d (T0.coordsV ⟨_, hc.1⟩ ⟨_, hc.2⟩) O W hO _ _ _ _ (hpre.lt0 d _) (C.gc0 d) (hpre.gc0 d _)).trans (wp_mono frame _ _ fun _ => obl_post)

theorem vecSplit0 : (K (F := F)).VecSplit' (P C) 0 := by
  intro d c
  show T0.stRes d c (C.tv d) (C.iv0 d) (C.ov0 d) ⊢ |={Set.univ}=> iprop(
      (bigSep Finset.univ fun i : Fin ((K (F := F)).nSub 0) => T0.goRes d (T0.coordsV c i) (T0.tsh c i) (C.tv d) (C.iv0 d) (C.ov0 d))
      ∗ ((bigSep Finset.univ fun i : Fin ((K (F := F)).nSub 0) => T0.tdRes d (T0.coordsV c i) (T0.tsh c i) (C.tv d) (C.iv0 d) (C.gc0 d))
          -∗ T0.dnRes d c (C.tv d) (C.iv0 d) (C.gc0 d)))
  unfold T0.stRes T0.dnRes
  iintro H; imodintro
  isplitl [H]; · iexact H
  iintro H; iexact H

theorem defs₀_vector1 (c : Fin τ.nSC) (s : Fin τ.nSub) :
    defs₀ (F := F) (.scVector c s) 1 ()
      = SparseCore.onTile hcore1 hsub1 (fun c s => cc1_kern (T1.coordsV c s)
          T1.tW (Memref.isWhole_whole _) T1.iW (Memref.isWhole_whole _) T1.oW (Memref.isWhole_whole _)
          T1.sI (Memref.isWhole_whole _) T1.sA (Memref.isWhole_whole _) T1.sB (Memref.isWhole_whole _) cc1_scratch3 cc1_scratch4 cc1_scratch5 cc1_scoped0) ⟨⟩ c s := rfl

theorem tileObl1 (hpre : PreOK C) : (K (F := F)).TileObl (D (F := F)) 𝒱 (P C) v₀ 1 := by
  intro d c i O W hO _ _
  simp only [show (P C).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (T1.tile_body d (T1.coordsV ⟨_, hc.1⟩ ⟨_, hc.2⟩) O W hO _ _ _ _ (hpre.lt1 d _) (C.gc1 d) (hpre.gc1 d _)).trans (wp_mono frame _ _ fun _ => obl_post)

theorem vecSplit1 : (K (F := F)).VecSplit' (P C) 1 := by
  intro d c
  show T1.stRes d c (C.tv d) (C.iv1 d) (C.ov1 d) ⊢ |={Set.univ}=> iprop(
      (bigSep Finset.univ fun i : Fin ((K (F := F)).nSub 1) => T1.goRes d (T1.coordsV c i) (T1.tsh c i) (C.tv d) (C.iv1 d) (C.ov1 d))
      ∗ ((bigSep Finset.univ fun i : Fin ((K (F := F)).nSub 1) => T1.tdRes d (T1.coordsV c i) (T1.tsh c i) (C.tv d) (C.iv1 d) (C.gc1 d))
          -∗ T1.dnRes d c (C.tv d) (C.iv1 d) (C.gc1 d)))
  unfold T1.stRes T1.dnRes
  iintro H; imodintro
  isplitl [H]; · iexact H
  iintro H; iexact H

theorem defs₀_vector2 (c : Fin τ.nSC) (s : Fin τ.nSub) :
    defs₀ (F := F) (.scVector c s) 2 ()
      = SparseCore.onTile hcore2 hsub2 (fun c s => cc2_kern (T2.coordsV c s)
          T2.tW (Memref.isWhole_whole _) T2.iW (Memref.isWhole_whole _) T2.oW (Memref.isWhole_whole _)
          T2.sI (Memref.isWhole_whole _) T2.sA (Memref.isWhole_whole _) T2.sB (Memref.isWhole_whole _) cc2_scratch3 cc2_scratch4 cc2_scratch5 cc2_scoped0) ⟨⟩ c s := rfl

theorem tileObl2 (hpre : PreOK C) : (K (F := F)).TileObl (D (F := F)) 𝒱 (P C) v₀ 2 := by
  intro d c i O W hO _ _
  simp only [show (P C).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (T2.tile_body d (T2.coordsV ⟨_, hc.1⟩ ⟨_, hc.2⟩) O W hO _ _ _ _ (hpre.lt2 d _) (C.gc2 d) (hpre.gc2 d _)).trans (wp_mono frame _ _ fun _ => obl_post)

theorem vecSplit2 : (K (F := F)).VecSplit' (P C) 2 := by
  intro d c
  show T2.stRes d c (C.tv d) (C.iv2 d) (C.ov2 d) ⊢ |={Set.univ}=> iprop(
      (bigSep Finset.univ fun i : Fin ((K (F := F)).nSub 2) => T2.goRes d (T2.coordsV c i) (T2.tsh c i) (C.tv d) (C.iv2 d) (C.ov2 d))
      ∗ ((bigSep Finset.univ fun i : Fin ((K (F := F)).nSub 2) => T2.tdRes d (T2.coordsV c i) (T2.tsh c i) (C.tv d) (C.iv2 d) (C.gc2 d))
          -∗ T2.dnRes d c (C.tv d) (C.iv2 d) (C.gc2 d)))
  unfold T2.stRes T2.dnRes
  iintro H; imodintro
  isplitl [H]; · iexact H
  iintro H; iexact H

theorem defs₀_vector3 (c : Fin τ.nSC) (s : Fin τ.nSub) :
    defs₀ (F := F) (.scVector c s) 3 ()
      = SparseCore.onTile hcore3 hsub3 (fun c s => cc3_kern (T3.coordsV c s)
          T3.tW (Memref.isWhole_whole _) T3.iW (Memref.isWhole_whole _) T3.oW (Memref.isWhole_whole _)
          T3.sI (Memref.isWhole_whole _) T3.sA (Memref.isWhole_whole _) T3.sB (Memref.isWhole_whole _) cc3_scratch3 cc3_scratch4 cc3_scratch5 cc3_scoped0) ⟨⟩ c s := rfl

theorem tileObl3 (hpre : PreOK C) : (K (F := F)).TileObl (D (F := F)) 𝒱 (P C) v₀ 3 := by
  intro d c i O W hO _ _
  simp only [show (P C).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (T3.tile_body d (T3.coordsV ⟨_, hc.1⟩ ⟨_, hc.2⟩) O W hO _ _ _ _ (hpre.lt3 d _) (C.gc3 d) (hpre.gc3 d _)).trans (wp_mono frame _ _ fun _ => obl_post)

theorem vecSplit3 : (K (F := F)).VecSplit' (P C) 3 := by
  intro d c
  show T3.stRes d c (C.tv d) (C.iv3 d) (C.ov3 d) ⊢ |={Set.univ}=> iprop(
      (bigSep Finset.univ fun i : Fin ((K (F := F)).nSub 3) => T3.goRes d (T3.coordsV c i) (T3.tsh c i) (C.tv d) (C.iv3 d) (C.ov3 d))
      ∗ ((bigSep Finset.univ fun i : Fin ((K (F := F)).nSub 3) => T3.tdRes d (T3.coordsV c i) (T3.tsh c i) (C.tv d) (C.iv3 d) (C.gc3 d))
          -∗ T3.dnRes d c (C.tv d) (C.iv3 d) (C.gc3 d)))
  unfold T3.stRes T3.dnRes
  iintro H; imodintro
  isplitl [H]; · iexact H
  iintro H; iexact H

theorem defs₀_vector4 (c : Fin τ.nSC) (s : Fin τ.nSub) :
    defs₀ (F := F) (.scVector c s) 4 ()
      = SparseCore.onTile hcore4 hsub4 (fun c s => cc4_kern (T4.coordsV c s)
          T4.tW (Memref.isWhole_whole _) T4.iW (Memref.isWhole_whole _) T4.oW (Memref.isWhole_whole _)
          T4.sI (Memref.isWhole_whole _) T4.sA (Memref.isWhole_whole _) T4.sB (Memref.isWhole_whole _) cc4_scratch3 cc4_scratch4 cc4_scratch5 cc4_scoped0) ⟨⟩ c s := rfl

theorem tileObl4 (hpre : PreOK C) : (K (F := F)).TileObl (D (F := F)) 𝒱 (P C) v₀ 4 := by
  intro d c i O W hO _ _
  simp only [show (P C).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (T4.tile_body d (T4.coordsV ⟨_, hc.1⟩ ⟨_, hc.2⟩) O W hO _ _ _ _ (hpre.lt4 d _) (C.gc4 d) (hpre.gc4 d _)).trans (wp_mono frame _ _ fun _ => obl_post)

theorem vecSplit4 : (K (F := F)).VecSplit' (P C) 4 := by
  intro d c
  show T4.stRes d c (C.tv d) (C.iv4 d) (C.ov4 d) ⊢ |={Set.univ}=> iprop(
      (bigSep Finset.univ fun i : Fin ((K (F := F)).nSub 4) => T4.goRes d (T4.coordsV c i) (T4.tsh c i) (C.tv d) (C.iv4 d) (C.ov4 d))
      ∗ ((bigSep Finset.univ fun i : Fin ((K (F := F)).nSub 4) => T4.tdRes d (T4.coordsV c i) (T4.tsh c i) (C.tv d) (C.iv4 d) (C.gc4 d))
          -∗ T4.dnRes d c (C.tv d) (C.iv4 d) (C.gc4 d)))
  unfold T4.stRes T4.dnRes
  iintro H; imodintro
  isplitl [H]; · iexact H
  iintro H; iexact H

end Cert.Proof.KV

end
-- ==== Proof.KIIdx.lean ====
/-
  The row numbers before the shift, and the row-major reading of their layout. Before gather call q the host takes columns
  10 q … 10 q + 9 of the index array x : i32[4096, 50] and transposes them: entry (i, b) of the [10, 4096] array is
  x[b, 10 q + i]. The shifted array is then laid out as [32, 10, 128] in row-major order: position 4096 i + b of the
  [10, 4096] array is entry ((4096 i + b) / 1280, ((4096 i + b) mod 1280) / 128, (4096 i + b) mod 128), which therefore
  holds x[b, 10 q + i] shifted right by one.
-/
import proofs.«205068_g58248346468665_cont_9to1c4b_383_29_alg».proof.Proof.KIPre
import Idealize.ShloMosaic.Lib.ValueIdx
import Idealize.ShloMosaic.Lib.ValueLayout
import Idealize.ShloMosaic.Lib.Pipeline.Value

noncomputable section

namespace Cert.Proof.KI.Idx

open Cert.KernelIdeal Cert.KernelIdeal.Gen
open Idealize.ShloMosaic Idealize.ShloMosaic.ValueIdx Idealize.SL.Sem

variable {F : FTy → Type} [FloatOps F]

/-! ## The transposed columns -/

/-- The ten columns of `x` from `off` on, transposed to [10, 4096]. -/
def xtOf (off : Nat) (h : S4096x50.Slices ![0, off] S4096x10) (x : (⟨S4096x50, .i32⟩ : BufTy).Contents (Elt F)) :
    (⟨S10x4096, .i32⟩ : BufTy).Contents (Elt F) :=
  transpose S10x4096 [1, 0] (extractStridedSlice S4096x10 ![0, off] x h) transposes_S4096x10_S10x4096_1_0

/-- Call 0's: columns 0 … 9. -/
abbrev xtFn0 (x : (⟨S4096x50, .i32⟩ : BufTy).Contents (Elt F)) : (⟨S10x4096, .i32⟩ : BufTy).Contents (Elt F) :=
  xtOf 0 slices_S4096x50_S4096x10_0_0 x
/-- Call 1's: columns 10 … 19. -/
abbrev xtFn1 (x : (⟨S4096x50, .i32⟩ : BufTy).Contents (Elt F)) : (⟨S10x4096, .i32⟩ : BufTy).Contents (Elt F) :=
  xtOf 10 slices_S4096x50_S4096x10_0_10 x
/-- Call 2's: columns 20 … 29. -/
abbrev xtFn2 (x : (⟨S4096x50, .i32⟩ : BufTy).Contents (Elt F)) : (⟨S10x4096, .i32⟩ : BufTy).Contents (Elt F) :=
  xtOf 20 slices_S4096x50_S4096x10_0_20 x
/-- Call 3's: columns 30 … 39. -/
abbrev xtFn3 (x : (⟨S4096x50, .i32⟩ : BufTy).Contents (Elt F)) : (⟨S10x4096, .i32⟩ : BufTy).Contents (Elt F) :=
  xtOf 30 slices_S4096x50_S4096x10_0_30 x
/-- Call 4's: columns 40 … 49. -/
abbrev xtFn4 (x : (⟨S4096x50, .i32⟩ : BufTy).Contents (Elt F)) : (⟨S10x4096, .i32⟩ : BufTy).Contents (Elt F) :=
  xtOf 40 slices_S4096x50_S4096x10_0_40 x

theorem xt_after0 (V : Valuation τ sig (Elt F)) :
    StableHlo.after Pre.hostOps0 V (Proc.devRef .tc main_v2) = xtFn0 (V (Proc.devRef .tc main_arg0)) := by
  after_results
  rfl

theorem xt_after1 (V : Valuation τ sig (Elt F)) :
    StableHlo.after Pre.hostOps1 V (Proc.devRef .tc main_v8) = xtFn1 (V (Proc.devRef .tc main_arg0)) := by
  after_results
  rfl

theorem xt_after2 (V : Valuation τ sig (Elt F)) :
    StableHlo.after Pre.hostOps2 V (Proc.devRef .tc main_v14) = xtFn2 (V (Proc.devRef .tc main_arg0)) := by
  after_results
  rfl

theorem xt_after3 (V : Valuation τ sig (Elt F)) :
    StableHlo.after Pre.hostOps3 V (Proc.devRef .tc main_v20) = xtFn3 (V (Proc.devRef .tc main_arg0)) := by
  after_results
  rfl

theorem xt_after4 (V : Valuation τ sig (Elt F)) :
    StableHlo.after Pre.hostOps4 V (Proc.devRef .tc main_v26) = xtFn4 (V (Proc.devRef .tc main_arg0)) := by
  after_results
  rfl

/-- Entry (i, b) of the transposed columns is `x[b, off + i]`. -/
theorem xtOf_apply (off : Nat) (h : S4096x50.Slices ![0, off] S4096x10) (x : (⟨S4096x50, .i32⟩ : BufTy).Contents (Elt F))
    (i : Fin 10) (b : Fin 4096) (k : Fin 50) (hk : k.val = off + i.val) : xtOf off h x (ix2 i b) = x (ix2 b k) := by
  unfold xtOf
  refine (transpose_ix2_apply _ _ i b).trans ?_
  refine extractStridedSlice_apply _ _ _ (ix2 b i) (ix2 b k) fun ax => ?_
  match ax with
  | ⟨0, _⟩ => exact (Nat.zero_add _).symm
  | ⟨1, _⟩ => exact hk

theorem xt_apply0 (x : (⟨S4096x50, .i32⟩ : BufTy).Contents (Elt F)) (i : Fin 10) (b : Fin 4096) :
    xtFn0 x (ix2 i b) = x (ix2 b ⟨0 + i.val, by omega⟩) := xtOf_apply _ _ x i b _ rfl
theorem xt_apply1 (x : (⟨S4096x50, .i32⟩ : BufTy).Contents (Elt F)) (i : Fin 10) (b : Fin 4096) :
    xtFn1 x (ix2 i b) = x (ix2 b ⟨10 + i.val, by omega⟩) := xtOf_apply _ _ x i b _ rfl
theorem xt_apply2 (x : (⟨S4096x50, .i32⟩ : BufTy).Contents (Elt F)) (i : Fin 10) (b : Fin 4096) :
    xtFn2 x (ix2 i b) = x (ix2 b ⟨20 + i.val, by omega⟩) := xtOf_apply _ _ x i b _ rfl
theorem xt_apply3 (x : (⟨S4096x50, .i32⟩ : BufTy).Contents (Elt F)) (i : Fin 10) (b : Fin 4096) :
    xtFn3 x (ix2 i b) = x (ix2 b ⟨30 + i.val, by omega⟩) := xtOf_apply _ _ x i b _ rfl
theorem xt_apply4 (x : (⟨S4096x50, .i32⟩ : BufTy).Contents (Elt F)) (i : Fin 10) (b : Fin 4096) :
    xtFn4 x (ix2 i b) = x (ix2 b ⟨40 + i.val, by omega⟩) := xtOf_apply _ _ x i b _ rfl

/-! ## The row-major reading of the [32, 10, 128] layout -/

/-- Position 4096 i + b of the shifted [10, 4096] array, in the [32, 10, 128] layout, holds `x[b, off + i]` shifted right by
    one. -/
theorem idxOf_flat (off : Nat) (h : S4096x50.Slices ![0, off] S4096x10) (x : (⟨S4096x50, .i32⟩ : BufTy).Contents (Elt F))
    (i : Fin 10) (b : Fin 4096) (k : Fin 50) (hk : k.val = off + i.val) :
    Pre.idxOf off h x (ix3 (⟨(4096 * i.val + b.val) / 1280, by omega⟩ : Fin 32) (⟨(4096 * i.val + b.val) % 1280 / 128, by omega⟩ : Fin 10)
        (⟨(4096 * i.val + b.val) % 128, by omega⟩ : Fin 128))
      = IntOp.shrsi .host (x (ix2 b k)) 1#32 := by
  unfold Pre.idxOf
  refine (shapeCast_apply _ _ _ (ix2 i b) ?_).trans ?_
  · rw [Shape.rowMajor_val_two, Shape.rowMajor_val_three]
    show i.val * 4096 + b.val
      = ((4096 * i.val + b.val) / 1280 * 10 + (4096 * i.val + b.val) % 1280 / 128) * 128 + (4096 * i.val + b.val) % 128
    omega
  show IntOp.shrsi .host (xtOf off h x (ix2 i b)) 1#32 = _
  rw [xtOf_apply off h x i b k hk]

theorem idx_flat0 (x : (⟨S4096x50, .i32⟩ : BufTy).Contents (Elt F)) (i : Fin 10) (b : Fin 4096) :
    Pre.idxFn0 x (ix3 (⟨(4096 * i.val + b.val) / 1280, by omega⟩ : Fin 32) (⟨(4096 * i.val + b.val) % 1280 / 128, by omega⟩ : Fin 10)
        (⟨(4096 * i.val + b.val) % 128, by omega⟩ : Fin 128))
      = IntOp.shrsi .host (x (ix2 b ⟨0 + i.val, by omega⟩)) 1#32 := idxOf_flat _ _ x i b _ rfl
theorem idx_flat1 (x : (⟨S4096x50, .i32⟩ : BufTy).Contents (Elt F)) (i : Fin 10) (b : Fin 4096) :
    Pre.idxFn1 x (ix3 (⟨(4096 * i.val + b.val) / 1280, by omega⟩ : Fin 32) (⟨(4096 * i.val + b.val) % 1280 / 128, by omega⟩ : Fin 10)
        (⟨(4096 * i.val + b.val) % 128, by omega⟩ : Fin 128))
      = IntOp.shrsi .host (x (ix2 b ⟨10 + i.val, by omega⟩)) 1#32 := idxOf_flat _ _ x i b _ rfl
theorem idx_flat2 (x : (⟨S4096x50, .i32⟩ : BufTy).Contents (Elt F)) (i : Fin 10) (b : Fin 4096) :
    Pre.idxFn2 x (ix3 (⟨(4096 * i.val + b.val) / 1280, by omega⟩ : Fin 32) (⟨(4096 * i.val + b.val) % 1280 / 128, by omega⟩ : Fin 10)
        (⟨(4096 * i.val + b.val) % 128, by omega⟩ : Fin 128))
      = IntOp.shrsi .host (x (ix2 b ⟨20 + i.val, by omega⟩)) 1#32 := idxOf_flat _ _ x i b _ rfl
theorem idx_flat3 (x : (⟨S4096x50, .i32⟩ : BufTy).Contents (Elt F)) (i : Fin 10) (b : Fin 4096) :
    Pre.idxFn3 x (ix3 (⟨(4096 * i.val + b.val) / 1280, by omega⟩ : Fin 32) (⟨(4096 * i.val + b.val) % 1280 / 128, by omega⟩ : Fin 10)
        (⟨(4096 * i.val + b.val) % 128, by omega⟩ : Fin 128))
      = IntOp.shrsi .host (x (ix2 b ⟨30 + i.val, by omega⟩)) 1#32 := idxOf_flat _ _ x i b _ rfl
theorem idx_flat4 (x : (⟨S4096x50, .i32⟩ : BufTy).Contents (Elt F)) (i : Fin 10) (b : Fin 4096) :
    Pre.idxFn4 x (ix3 (⟨(4096 * i.val + b.val) / 1280, by omega⟩ : Fin 32) (⟨(4096 * i.val + b.val) % 1280 / 128, by omega⟩ : Fin 10)
        (⟨(4096 * i.val + b.val) % 128, by omega⟩ : Fin 128))
      = IntOp.shrsi .host (x (ix2 b ⟨40 + i.val, by omega⟩)) 1#32 := idxOf_flat _ _ x i b _ rfl

end Cert.Proof.KI.Idx

end
-- ==== Proof.KVLaunch.lean ====
/-
  The launch: the five gather calls on the SparseCores and the transposing calls on the TensorCore as one
  program. The ghost state is the handshakes' rounds, the staging cells' rounds and the local transfers'
  counters; the TensorCore's buffers are folded through @main's host operations, each gather call is handed its
  three arrays split among its tasks and hands them back, and the rest of @main runs as the list of segments.
-/
import proofs.«205068_g58248346468665_cont_9to1c4b_383_29_alg».proof.Proof.KVPay
import proofs.«205068_g58248346468665_cont_9to1c4b_383_29_alg».proof.Proof.KIMain
import proofs.«205068_g58248346468665_cont_9to1c4b_383_29_alg».proof.Proof.KIPre
import proofs.«205068_g58248346468665_cont_9to1c4b_383_29_alg».proof.Proof.KITailKeep
import proofs.«205068_g58248346468665_cont_9to1c4b_383_29_alg».proof.Proof.KIIdx

set_option maxRecDepth 16384

noncomputable section

namespace Cert.Proof.KV

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 5) (Elt F) ℕ UU ℕ

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals the TensorCore beside its buffers: the staging cells' ghost state of the five transposing calls. -/
abbrev G (d : Dev nD) : sProp 𝕄 := Pipeline.ghostOn (pcfgs (F := F)) Tail.adm EP Finset.univ d

omit [FloatOps F] in
theorem bigSep_emp' {I : Type} (s : Finset I) : (bigSep s fun _ => iprop(emp)) = (iprop(emp) : sProp 𝕄) := bigSep_emp_const s

omit [FloatOps F] in
theorem ghost_join :
    iprop((bigSep Finset.univ fun c : Dev nD => bigSep Finset.univ fun p : Fin 5 => (Pipeline.cellsGhost (nD := nD) (τ := τ) cfgs EP p c : sProp 𝕄))
        ∗ (bigSep Finset.univ fun c : Dev nD => bigSep Finset.univ fun p : Fin 5 => (Pipeline.toksInit (nD := nD) (τ := τ) cfgs EP p c : sProp 𝕄)))
      ⊢ (bigSep Finset.univ fun d : Dev nD => G (F := F) d) := by
  have e : ∀ c : Dev nD, G (F := F) c
      = iprop((bigSep Finset.univ fun p : Fin 5 => (Pipeline.cellsGhost (nD := nD) (τ := τ) cfgs EP p c : sProp 𝕄))
          ∗ bigSep Finset.univ fun p : Fin 5 => (Pipeline.toksInit (nD := nD) (τ := τ) cfgs EP p c : sProp 𝕄)) := by
    intro c
    unfold G Pipeline.ghostOn Pipeline.PerCore.ghostOn
    rw [bigSep_sep']
  rw [← bigSep_sep' (Finset.univ : Finset (Dev nD)), bigSep_congr (s := Finset.univ) (fun c _ => e c)]

variable (C : KV.Conts F)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 5 => (KV.P C).x q thr) := by
  unfold u₀
  iintro Hu
  ihave H := (ownU_pair _ _) $$ Hu
  icases H with ⟨HH, HR⟩
  ihave HR' := (own_pair_emb embR _ _) $$ HR
  icases HR' with ⟨HP, -⟩
  ihave HP' := (show (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP : Emb UP 𝕄) (initOf (Pipeline.cells (nD := nD) (τ := τ) cfgs cellOf_inj) (Pipeline.launchToks (nD := nD) (τ := τ) cfgs cellOf_inj))) from .rfl) $$ HP
  imod (Pipeline.fund_ghost (nD := nD) (τ := τ) cfgs EP cellOf_inj) $$ HP' with ⟨Hc, Ht⟩
  imodintro
  isplitl [HH]; · iexact HH
  isplitl [Hc Ht]
  · iapply (ghost_join (F := F))
    isplitl [Hc]; · iexact Hc
    iexact Ht
  unfold KV.P; dsimp only
  rw [show (bigSep Finset.univ fun _ : Thread nD τ => bigSep Finset.univ fun _ : Fin 5 => (iprop(emp) : sProp 𝕄)) = iprop(emp) from by
    rw [bigSep_congr fun _ _ => bigSep_emp' _, bigSep_emp']]
  iempintro

/-! ## A gather call's three arrays out of the TensorCore's buffers, and back -/

omit [FloatOps F] in
/-- Three distinct buffers of a held set are those three and, for any new contents of the third, the set held again at
    the valuation updated there. -/
theorem call_frame (thr : Thread nD τ) (Sx : Finset (DevRef τ sig)) (V : Valuation τ sig (Elt F)) (a b o : DevRef τ sig)
    (hab : a ≠ b) (hao : a ≠ o) (hbo : b ≠ o) (hS : ({a, b, o} : Finset (DevRef τ sig)) ⊆ Sx) :
    (held thr Sx V : sProp 𝕄)
      ⊢ iprop((((thr.1, a) : Loc nD τ sig) ↦{fullShare} V a) ∗ (((thr.1, b) : Loc nD τ sig) ↦{fullShare} V b) ∗ (((thr.1, o) : Loc nD τ sig) ↦{fullShare} V o)
          ∗ ∀ f, (iprop((((thr.1, a) : Loc nD τ sig) ↦{fullShare} V a) ∗ (((thr.1, b) : Loc nD τ sig) ↦{fullShare} V b) ∗ (((thr.1, o) : Loc nD τ sig) ↦{fullShare} f))
              -∗ held thr Sx (Function.update V o f))) := by
  have e1 : (held thr Sx V : sProp 𝕄) = iprop(held thr {a, b, o} V ∗ held thr (Sx \ {a, b, o}) V) := StableHlo.held_sub_split thr hS V
  have e3 : ∀ W : Valuation τ sig (Elt F), (held thr ({a, b, o} : Finset (DevRef τ sig)) W : sProp 𝕄)
      = iprop((((thr.1, a) : Loc nD τ sig) ↦{fullShare} W a) ∗ (((thr.1, b) : Loc nD τ sig) ↦{fullShare} W b) ∗ (((thr.1, o) : Loc nD τ sig) ↦{fullShare} W o)) := by
    intro W
    unfold StableHlo.held
    rw [SparseCore.bigSep_insert' (by simp [hab, hao]), SparseCore.bigSep_insert' (by simp [hbo]), bigSep_singleton]
  rw [e1, e3]
  iintro ⟨⟨Ha, Hb, Ho⟩, Hrest⟩
  isplitl [Ha]; · iexact Ha
  isplitl [Hb]; · iexact Hb
  isplitl [Ho]; · iexact Ho
  iintro %f ⟨Ha, Hb, Ho⟩
  rw [StableHlo.held_sub_split thr hS (Function.update V o f), e3,
    Function.update_of_ne hao, Function.update_of_ne hbo, Function.update_self,
    StableHlo.held_congr (S := Sx \ {a, b, o}) (V := Function.update V o f) (V' := V) thr (fun x hx => Function.update_of_ne (fun e => by
      subst e; simp at hx) _ _)]
  isplitl [Ha Hb Ho]
  · isplitl [Ha]; · iexact Ha
    isplitl [Hb]; · iexact Hb
    iexact Ho
  iexact Hrest

/-! ## The arrays' contents when each gather call is made -/

variable (m : (ℓ : Loc nD τ sig) → Buf (Elt F) ℓ) (ρ : Dev nD → PrngReg)

/-- The TensorCore's buffers at the launch. -/
abbrev Wl (d : Dev nD) : Valuation τ sig (Elt F) := fun b => m (d, b)

/-- The table is the weights seen as 50000 rows; call `q`'s row numbers are columns `10 q … 10 q + 9` of `x`,
    transposed, halved and cut into thirty-two blocks; its result array is as launched. -/
def CM (g0 g1 g2 g3 g4 : (d : Dev nD) → (⟨S40960x128, .f32⟩ : BufTy).Contents (Elt F)) : KV.Conts F where
  tv := fun d => Pre.tblFn (m (d, (Proc.devRef .tc (main_arg1 : Ref sig .tc))))
  iv0 := fun d => Pre.idxFn0 (m (d, (Proc.devRef .tc (main_arg0 : Ref sig .tc))))
  ov0 := fun d => m (d, (Proc.devRef .tc (main_v6 : Ref sig .tc)))
  gc0 := g0
  iv1 := fun d => Pre.idxFn1 (m (d, (Proc.devRef .tc (main_arg0 : Ref sig .tc))))
  ov1 := fun d => m (d, (Proc.devRef .tc (main_v12 : Ref sig .tc)))
  gc1 := g1
  iv2 := fun d => Pre.idxFn2 (m (d, (Proc.devRef .tc (main_arg0 : Ref sig .tc))))
  ov2 := fun d => m (d, (Proc.devRef .tc (main_v18 : Ref sig .tc)))
  gc2 := g2
  iv3 := fun d => Pre.idxFn3 (m (d, (Proc.devRef .tc (main_arg0 : Ref sig .tc))))
  ov3 := fun d => m (d, (Proc.devRef .tc (main_v24 : Ref sig .tc)))
  gc3 := g3
  iv4 := fun d => Pre.idxFn4 (m (d, (Proc.devRef .tc (main_arg0 : Ref sig .tc))))
  ov4 := fun d => m (d, (Proc.devRef .tc (main_v30 : Ref sig .tc)))
  gc4 := g4

variable (g0 g1 g2 g3 g4 : (d : Dev nD) → (⟨S40960x128, .f32⟩ : BufTy).Contents (Elt F))

abbrev wl0 : List (Ref sig .tc) := [main_v0, main_v1, main_v2, main_c, main_v3, main_v4, main_v5]
theorem writes0 : (sops0 : List (HloOp τ sig (Elt F))).Forall fun op => op.writes ⊆ ((wl0).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide), List.mem_map_of_mem (by decide)⟩)
theorem keep0 (V : Valuation τ sig (Elt F)) (r : Ref sig .tc) (h : r ∉ wl0) :
    StableHlo.after sops0 V (Proc.devRef .tc r) = V (Proc.devRef .tc r) := StableHlo.after_of_writes_sub sops0 V (writes0 (F := F)) h

abbrev wl1 : List (Ref sig .tc) := [main_v7, main_v8, main_c_0, main_v9, main_v10, main_v11]
theorem writes1 : (sops1 : List (HloOp τ sig (Elt F))).Forall fun op => op.writes ⊆ ((wl1).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep1 (V : Valuation τ sig (Elt F)) (r : Ref sig .tc) (h : r ∉ wl1) :
    StableHlo.after sops1 V (Proc.devRef .tc r) = V (Proc.devRef .tc r) := StableHlo.after_of_writes_sub sops1 V (writes1 (F := F)) h

abbrev wl2 : List (Ref sig .tc) := [main_v13, main_v14, main_c_1, main_v15, main_v16, main_v17]
theorem writes2 : (sops2 : List (HloOp τ sig (Elt F))).Forall fun op => op.writes ⊆ ((wl2).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep2 (V : Valuation τ sig (Elt F)) (r : Ref sig .tc) (h : r ∉ wl2) :
    StableHlo.after sops2 V (Proc.devRef .tc r) = V (Proc.devRef .tc r) := StableHlo.after_of_writes_sub sops2 V (writes2 (F := F)) h

abbrev wl3 : List (Ref sig .tc) := [main_v19, main_v20, main_c_2, main_v21, main_v22, main_v23]
theorem writes3 : (sops3 : List (HloOp τ sig (Elt F))).Forall fun op => op.writes ⊆ ((wl3).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep3 (V : Valuation τ sig (Elt F)) (r : Ref sig .tc) (h : r ∉ wl3) :
    StableHlo.after sops3 V (Proc.devRef .tc r) = V (Proc.devRef .tc r) := StableHlo.after_of_writes_sub sops3 V (writes3 (F := F)) h

abbrev wl4 : List (Ref sig .tc) := [main_v25, main_v26, main_c_3, main_v27, main_v28, main_v29]
theorem writes4 : (sops4 : List (HloOp τ sig (Elt F))).Forall fun op => op.writes ⊆ ((wl4).map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide), List.mem_map_of_mem (by decide), List.mem_map_of_mem (by decide)⟩)
theorem keep4 (V : Valuation τ sig (Elt F)) (r : Ref sig .tc) (h : r ∉ wl4) :
    StableHlo.after sops4 V (Proc.devRef .tc r) = V (Proc.devRef .tc r) := StableHlo.after_of_writes_sub sops4 V (writes4 (F := F)) h

/-! ## The TensorCore's buffers through the gather calls -/

abbrev A0 (d : Dev nD)  : Valuation τ sig (Elt F) := StableHlo.after sops0 (Wl m d)
abbrev B0 (d : Dev nD) (f0 : (⟨S40960x128, .f32⟩ : BufTy).Contents (Elt F)) : Valuation τ sig (Elt F) := Function.update (A0 m d ) (Proc.devRef .tc (main_v6 : Ref sig .tc)) f0
theorem A0_arg0 (d : Dev nD)  : A0 m d  (Proc.devRef .tc (main_arg0 : Ref sig .tc)) = m (d, (Proc.devRef .tc (main_arg0 : Ref sig .tc))) := (keep0 _ main_arg0 (by decide)).trans (rfl)
theorem A0_arg1 (d : Dev nD)  : A0 m d  (Proc.devRef .tc (main_arg1 : Ref sig .tc)) = m (d, (Proc.devRef .tc (main_arg1 : Ref sig .tc))) := (keep0 _ main_arg1 (by decide)).trans (rfl)
theorem A0_v0 (d : Dev nD) : A0 m d (Proc.devRef .tc (main_v0 : Ref sig .tc)) = (CM m g0 g1 g2 g3 g4).tv d := Pre.tbl_after _
theorem A0_idx (d : Dev nD)  : A0 m d  (Proc.devRef .tc (main_v5 : Ref sig .tc)) = (CM m g0 g1 g2 g3 g4).iv0 d := (Pre.idx_after0 _).trans (congrArg Pre.idxFn0 (rfl))
theorem A0_out0 (d : Dev nD)  : A0 m d  (Proc.devRef .tc (main_v6 : Ref sig .tc)) = m (d, (Proc.devRef .tc (main_v6 : Ref sig .tc))) := (keep0 _ main_v6 (by decide)).trans (rfl)
theorem A0_out1 (d : Dev nD)  : A0 m d  (Proc.devRef .tc (main_v12 : Ref sig .tc)) = m (d, (Proc.devRef .tc (main_v12 : Ref sig .tc))) := (keep0 _ main_v12 (by decide)).trans (rfl)
theorem A0_out2 (d : Dev nD)  : A0 m d  (Proc.devRef .tc (main_v18 : Ref sig .tc)) = m (d, (Proc.devRef .tc (main_v18 : Ref sig .tc))) := (keep0 _ main_v18 (by decide)).trans (rfl)
theorem A0_out3 (d : Dev nD)  : A0 m d  (Proc.devRef .tc (main_v24 : Ref sig .tc)) = m (d, (Proc.devRef .tc (main_v24 : Ref sig .tc))) := (keep0 _ main_v24 (by decide)).trans (rfl)
theorem A0_out4 (d : Dev nD)  : A0 m d  (Proc.devRef .tc (main_v30 : Ref sig .tc)) = m (d, (Proc.devRef .tc (main_v30 : Ref sig .tc))) := (keep0 _ main_v30 (by decide)).trans (rfl)
theorem B0_arg0 (d : Dev nD) (f0 : (⟨S40960x128, .f32⟩ : BufTy).Contents (Elt F)) : B0 m d f0 (Proc.devRef .tc (main_arg0 : Ref sig .tc)) = m (d, (Proc.devRef .tc (main_arg0 : Ref sig .tc))) := (Function.update_of_ne (StableHlo.devRef_ne_of_ne (show (main_arg0 : Ref sig .tc) ≠ main_v6 by decide)) _ _).trans (A0_arg0 m d )
theorem B0_arg1 (d : Dev nD) (f0 : (⟨S40960x128, .f32⟩ : BufTy).Contents (Elt F)) : B0 m d f0 (Proc.devRef .tc (main_arg1 : Ref sig .tc)) = m (d, (Proc.devRef .tc (main_arg1 : Ref sig .tc))) := (Function.update_of_ne (StableHlo.devRef_ne_of_ne (show (main_arg1 : Ref sig .tc) ≠ main_v6 by decide)) _ _).trans (A0_arg1 m d )
theorem B0_v0 (d : Dev nD) (f0 : (⟨S40960x128, .f32⟩ : BufTy).Contents (Elt F)) : B0 m d f0 (Proc.devRef .tc (main_v0 : Ref sig .tc)) = (CM m g0 g1 g2 g3 g4).tv d := (Function.update_of_ne (StableHlo.devRef_ne_of_ne (show (main_v0 : Ref sig .tc) ≠ main_v6 by decide)) _ _).trans (A0_v0 m g0 g1 g2 g3 g4 d )
theorem B0_out1 (d : Dev nD) (f0 : (⟨S40960x128, .f32⟩ : BufTy).Contents (Elt F)) : B0 m d f0 (Proc.devRef .tc (main_v12 : Ref sig .tc)) = m (d, (Proc.devRef .tc (main_v12 : Ref sig .tc))) := (Function.update_of_ne (StableHlo.devRef_ne_of_ne (show (main_v12 : Ref sig .tc) ≠ main_v6 by decide)) _ _).trans (A0_out1 m d )
theorem B0_out2 (d : Dev nD) (f0 : (⟨S40960x128, .f32⟩ : BufTy).Contents (Elt F)) : B0 m d f0 (Proc.devRef .tc (main_v18 : Ref sig .tc)) = m (d, (Proc.devRef .tc (main_v18 : Ref sig .tc))) := (Function.update_of_ne (StableHlo.devRef_ne_of_ne (show (main_v18 : Ref sig .tc) ≠ main_v6 by decide)) _ _).trans (A0_out2 m d )
theorem B0_out3 (d : Dev nD) (f0 : (⟨S40960x128, .f32⟩ : BufTy).Contents (Elt F)) : B0 m d f0 (Proc.devRef .tc (main_v24 : Ref sig .tc)) = m (d, (Proc.devRef .tc (main_v24 : Ref sig .tc))) := (Function.update_of_ne (StableHlo.devRef_ne_of_ne (show (main_v24 : Ref sig .tc) ≠ main_v6 by decide)) _ _).trans (A0_out3 m d )
theorem B0_out4 (d : Dev nD) (f0 : (⟨S40960x128, .f32⟩ : BufTy).Contents (Elt F)) : B0 m d f0 (Proc.devRef .tc (main_v30 : Ref sig .tc)) = m (d, (Proc.devRef .tc (main_v30 : Ref sig .tc))) := (Function.update_of_ne (StableHlo.devRef_ne_of_ne (show (main_v30 : Ref sig .tc) ≠ main_v6 by decide)) _ _).trans (A0_out4 m d )

abbrev A1 (d : Dev nD) (f0 : (⟨S40960x128, .f32⟩ : BufTy).Contents (Elt F)) : Valuation τ sig (Elt F) := StableHlo.after sops1 (B0 m d f0)
abbrev B1 (d : Dev nD) (f0 : (⟨S40960x128, .f32⟩ : BufTy).Contents (Elt F)) (f1 : (⟨S40960x128, .f32⟩ : BufTy).Contents (Elt F)) : Valuation τ sig (Elt F) := Function.update (A1 m d f0) (Proc.devRef .tc (main_v12 : Ref sig .tc)) f1
theorem A1_arg0 (d : Dev nD) (f0 : (⟨S40960x128, .f32⟩ : BufTy).Contents (Elt F)) : A1 m d f0 (Proc.devRef .tc (main_arg0 : Ref sig .tc)) = m (d, (Proc.devRef .tc (main_arg0 : Ref sig .tc))) := (keep1 _ main_arg0 (by decide)).trans (B0_arg0 m d f0)
theorem A1_arg1 (d : Dev nD) (f0 : (⟨S40960x128, .f32⟩ : BufTy).Contents (Elt F)) : A1 m d f0 (Proc.devRef .tc (main_arg1 : Ref sig .tc)) = m (d, (Proc.devRef .tc (main_arg1 : Ref sig .tc))) := (keep1 _ main_arg1 (by decide)).trans (B0_arg1 m d f0)
theorem A1_v0 (d : Dev nD) (f0 : (⟨S40960x128, .f32⟩ : BufTy).Contents (Elt F)) : A1 m d f0 (Proc.devRef .tc (main_v0 : Ref sig .tc)) = (CM m g0 g1 g2 g3 g4).tv d := (keep1 _ main_v0 (by decide)).trans (B0_v0 m g0 g1 g2 g3 g4 d f0)
theorem A1_idx (d : Dev nD) (f0 : (⟨S40960x128, .f32⟩ : BufTy).Contents (Elt F)) : A1 m d f0 (Proc.devRef .tc (main_v11 : Ref sig .tc)) = (CM m g0 g1 g2 g3 g4).iv1 d := (Pre.idx_after1 _).trans (congrArg Pre.idxFn1 (B0_arg0 m d f0))
theorem A1_out1 (d : Dev nD) (f0 : (⟨S40960x128, .f32⟩ : BufTy).Contents (Elt F)) : A1 m d f0 (Proc.devRef .tc (main_v12 : Ref sig .tc)) = m (d, (Proc.devRef .tc (main_v12 : Ref sig .tc))) := (keep1 _ main_v12 (by decide)).trans (B0_out1 m d f0)
theorem A1_out2 (d : Dev nD) (f0 : (⟨S40960x128, .f32⟩ : BufTy).Contents (Elt F)) : A1 m d f0 (Proc.devRef .tc (main_v18 : Ref sig .tc)) = m (d, (Proc.devRef .tc (main_v18 : Ref sig .tc))) := (keep1 _ main_v18 (by decide)).trans (B0_out2 m d f0)
theorem A1_out3 (d : Dev nD) (f0 : (⟨S40960x128, .f32⟩ : BufTy).Contents (Elt F)) : A1 m d f0 (Proc.devRef .tc (main_v24 : Ref sig .tc)) = m (d, (Proc.devRef .tc (main_v24 : Ref sig .tc))) := (keep1 _ main_v24 (by decide)).trans (B0_out3 m d f0)
theorem A1_out4 (d : Dev nD) (f0 : (⟨S40960x128, .f32⟩ : BufTy).Contents (Elt F)) : A1 m d f0 (Proc.devRef .tc (main_v30 : Ref sig .tc)) = m (d, (Proc.devRef .tc (main_v30 : Ref sig .tc))) := (keep1 _ main_v30 (by decide)).trans (B0_out4 m d f0)
theorem B1_arg0 (d : Dev nD) (f0 : (⟨S40960x128, .f32⟩ : BufTy).Contents (Elt F)) (f1 : (⟨S40960x128, .f32⟩ : BufTy).Contents (Elt F)) : B1 m d f0 f1 (Proc.devRef .tc (main_arg0 : Ref sig .tc)) = m (d, (Proc.devRef .tc (main_arg0 : Ref sig .tc))) := (Function.update_of_ne (StableHlo.devRef_ne_of_ne (show (main_arg0 : Ref sig .tc) ≠ main_v12 by decide)) _ _).trans (A1_arg0 m d f0)
theorem B1_arg1 (d : Dev nD) (f0 : (⟨S40960x128, .f32⟩ : BufTy).Contents (Elt F)) (f1 : (⟨S40960x128, .f32⟩ : BufTy).Contents (Elt F)) : B1 m d f0 f1 (Proc.devRef .tc (main_arg1 : Ref sig .tc)) = m (d, (Proc.devRef .tc (main_arg1 : Ref sig .tc))) := (Function.update_of_ne (StableHlo.devRef_ne_of_ne (show (main_arg1 : Ref sig .tc) ≠ main_v12 by decide)) _ _).trans (A1_arg1 m d f0)
theorem B1_v0 (d : Dev nD) (f0 : (⟨S40960x128, .f32⟩ : BufTy).Contents (Elt F)) (f1 : (⟨S40960x128, .f32⟩ : BufTy).Contents (Elt F)) : B1 m d f0 f1 (Proc.devRef .tc (main_v0 : Ref sig .tc)) = (CM m g0 g1 g2 g3 g4).tv d := (Function.update_of_ne (StableHlo.devRef_ne_of_ne (show (main_v0 : Ref sig .tc) ≠ main_v12 by decide)) _ _).trans (A1_v0 m g0 g1 g2 g3 g4 d f0)
theorem B1_out2 (d : Dev nD) (f0 : (⟨S40960x128, .f32⟩ : BufTy).Contents (Elt F)) (f1 : (⟨S40960x128, .f32⟩ : BufTy).Contents (Elt F)) : B1 m d f0 f1 (Proc.devRef .tc (main_v18 : Ref sig .tc)) = m (d, (Proc.devRef .tc (main_v18 : Ref sig .tc))) := (Function.update_of_ne (StableHlo.devRef_ne_of_ne (show (main_v18 : Ref sig .tc) ≠ main_v12 by decide)) _ _).trans (A1_out2 m d f0)
theorem B1_out3 (d : Dev nD) (f0 : (⟨S40960x128, .f32⟩ : BufTy).Contents (Elt F)) (f1 : (⟨S40960x128, .f32⟩ : BufTy).Contents (Elt F)) : B1 m d f0 f1 (Proc.devRef .tc (main_v24 : Ref sig .tc)) = m (d, (Proc.devRef .tc (main_v24 : Ref sig .tc))) := (Function.update_of_ne (StableHlo.devRef_ne_of_ne (show (main_v24 : Ref sig .tc) ≠ main_v12 by decide)) _ _).trans (A1_out3 m d f0)
theorem B1_out4 (d : Dev nD) (f0 : (⟨S40960x128, .f32⟩ : BufTy).Contents (Elt F)) (f1 : (⟨S40960x128, .f32⟩ : BufTy).Contents (Elt F)) : B1 m d f0 f1 (Proc.devRef .tc (main_v30 : Ref sig .tc)) = m (d, (Proc.devRef .tc (main_v30 : Ref sig .tc))) := (Function.update_of_ne (StableHlo.devRef_ne_of_ne (show (main_v30 : Ref sig .tc) ≠ main_v12 by decide)) _ _).trans (A1_out4 m d f0)

abbrev A2 (d : Dev nD) (f0 : (⟨S40960x128, .f32⟩ : BufTy).Contents (Elt F)) (f1 : (⟨S40960x128, .f32⟩ : BufTy).Contents (Elt F)) : Valuation τ sig (Elt F) := StableHlo.after sops2 (B1 m d f0 f1)
abbrev B2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : Valuation τ sig (Elt F) := Function.update (A2 m d f0 f1) (Proc.devRef .tc (main_v18 : Ref sig .tc)) f2
theorem A2_arg0 (d : Dev nD) (f0 : (⟨S40960x128, .f32⟩ : BufTy).Contents (Elt F)) (f1 : (⟨S40960x128, .f32⟩ : BufTy).Contents (Elt F)) : A2 m d f0 f1 (Proc.devRef .tc (main_arg0 : Ref sig .tc)) = m (d, (Proc.devRef .tc (main_arg0 : Ref sig .tc))) := (keep2 _ main_arg0 (by decide)).trans (B1_arg0 m d f0 f1)
theorem A2_arg1 (d : Dev nD) (f0 : (⟨S40960x128, .f32⟩ : BufTy).Contents (Elt F)) (f1 : (⟨S40960x128, .f32⟩ : BufTy).Contents (Elt F)) : A2 m d f0 f1 (Proc.devRef .tc (main_arg1 : Ref sig .tc)) = m (d, (Proc.devRef .tc (main_arg1 : Ref sig .tc))) := (keep2 _ main_arg1 (by decide)).trans (B1_arg1 m d f0 f1)
theorem A2_v0 (d : Dev nD) (f0 : (⟨S40960x128, .f32⟩ : BufTy).Contents (Elt F)) (f1 : (⟨S40960x128, .f32⟩ : BufTy).Contents (Elt F)) : A2 m d f0 f1 (Proc.devRef .tc (main_v0 : Ref sig .tc)) = (CM m g0 g1 g2 g3 g4).tv d := (keep2 _ main_v0 (by decide)).trans (B1_v0 m g0 g1 g2 g3 g4 d f0 f1)
theorem A2_idx (d : Dev nD) (f0 : (⟨S40960x128, .f32⟩ : BufTy).Contents (Elt F)) (f1 : (⟨S40960x128, .f32⟩ : BufTy).Contents (Elt F)) : A2 m d f0 f1 (Proc.devRef .tc (main_v17 : Ref sig .tc)) = (CM m g0 g1 g2 g3 g4).iv2 d := (Pre.idx_after2 _).trans (congrArg Pre.idxFn2 (B1_arg0 m d f0 f1))
theorem A2_out2 (d : Dev nD) (f0 : (⟨S40960x128, .f32⟩ : BufTy).Contents (Elt F)) (f1 : (⟨S40960x128, .f32⟩ : BufTy).Contents (Elt F)) : A2 m d f0 f1 (Proc.devRef .tc (main_v18 : Ref sig .tc)) = m (d, (Proc.devRef .tc (main_v18 : Ref sig .tc))) := (keep2 _ main_v18 (by decide)).trans (B1_out2 m d f0 f1)
theorem A2_out3 (d : Dev nD) (f0 : (⟨S40960x128, .f32⟩ : BufTy).Contents (Elt F)) (f1 : (⟨S40960x128, .f32⟩ : BufTy).Contents (Elt F)) : A2 m d f0 f1 (Proc.devRef .tc (main_v24 : Ref sig .tc)) = m (d, (Proc.devRef .tc (main_v24 : Ref sig .tc))) := (keep2 _ main_v24 (by decide)).trans (B1_out3 m d f0 f1)
theorem A2_out4 (d : Dev nD) (f0 : (⟨S40960x128, .f32⟩ : BufTy).Contents (Elt F)) (f1 : (⟨S40960x128, .f32⟩ : BufTy).Contents (Elt F)) : A2 m d f0 f1 (Proc.devRef .tc (main_v30 : Ref sig .tc)) = m (d, (Proc.devRef .tc (main_v30 : Ref sig .tc))) := (keep2 _ main_v30 (by decide)).trans (B1_out4 m d f0 f1)
theorem B2_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_arg0 : Ref sig .tc)) = m (d, (Proc.devRef .tc (main_arg0 : Ref sig .tc))) := (Function.update_of_ne (StableHlo.devRef_ne_of_ne (show (main_arg0 : Ref sig .tc) ≠ main_v18 by decide)) _ _).trans (A2_arg0 m d f0 f1)
theorem B2_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_arg1 : Ref sig .tc)) = m (d, (Proc.devRef .tc (main_arg1 : Ref sig .tc))) := (Function.update_of_ne (StableHlo.devRef_ne_of_ne (show (main_arg1 : Ref sig .tc) ≠ main_v18 by decide)) _ _).trans (A2_arg1 m d f0 f1)
theorem B2_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v0 : Ref sig .tc)) = (CM m g0 g1 g2 g3 g4).tv d := (Function.update_of_ne (StableHlo.devRef_ne_of_ne (show (main_v0 : Ref sig .tc) ≠ main_v18 by decide)) _ _).trans (A2_v0 m g0 g1 g2 g3 g4 d f0 f1)
theorem B2_out3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v24 : Ref sig .tc)) = m (d, (Proc.devRef .tc (main_v24 : Ref sig .tc))) := (Function.update_of_ne (StableHlo.devRef_ne_of_ne (show (main_v24 : Ref sig .tc) ≠ main_v18 by decide)) _ _).trans (A2_out3 m d f0 f1)
theorem B2_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v30 : Ref sig .tc)) = m (d, (Proc.devRef .tc (main_v30 : Ref sig .tc))) := (Function.update_of_ne (StableHlo.devRef_ne_of_ne (show (main_v30 : Ref sig .tc) ≠ main_v18 by decide)) _ _).trans (A2_out4 m d f0 f1)

abbrev A3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : Valuation τ sig (Elt F) := StableHlo.after sops3 (B2 m d f0 f1 f2)
abbrev B3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : Valuation τ sig (Elt F) := Function.update (A3 m d f0 f1 f2) (Proc.devRef .tc (main_v24 : Ref sig .tc)) f3
theorem A3_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_arg0 : Ref sig .tc)) = m (d, (Proc.devRef .tc (main_arg0 : Ref sig .tc))) := (keep3 _ main_arg0 (by decide)).trans (B2_arg0 m d f0 f1 f2)
theorem A3_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_arg1 : Ref sig .tc)) = m (d, (Proc.devRef .tc (main_arg1 : Ref sig .tc))) := (keep3 _ main_arg1 (by decide)).trans (B2_arg1 m d f0 f1 f2)
theorem A3_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v0 : Ref sig .tc)) = (CM m g0 g1 g2 g3 g4).tv d := (keep3 _ main_v0 (by decide)).trans (B2_v0 m g0 g1 g2 g3 g4 d f0 f1 f2)
theorem A3_idx (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v23 : Ref sig .tc)) = (CM m g0 g1 g2 g3 g4).iv3 d := (Pre.idx_after3 _).trans (congrArg Pre.idxFn3 (B2_arg0 m d f0 f1 f2))
theorem A3_out3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v24 : Ref sig .tc)) = m (d, (Proc.devRef .tc (main_v24 : Ref sig .tc))) := (keep3 _ main_v24 (by decide)).trans (B2_out3 m d f0 f1 f2)
theorem A3_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v30 : Ref sig .tc)) = m (d, (Proc.devRef .tc (main_v30 : Ref sig .tc))) := (keep3 _ main_v30 (by decide)).trans (B2_out4 m d f0 f1 f2)
theorem B3_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_arg0 : Ref sig .tc)) = m (d, (Proc.devRef .tc (main_arg0 : Ref sig .tc))) := (Function.update_of_ne (StableHlo.devRef_ne_of_ne (show (main_arg0 : Ref sig .tc) ≠ main_v24 by decide)) _ _).trans (A3_arg0 m d f0 f1 f2)
theorem B3_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_arg1 : Ref sig .tc)) = m (d, (Proc.devRef .tc (main_arg1 : Ref sig .tc))) := (Function.update_of_ne (StableHlo.devRef_ne_of_ne (show (main_arg1 : Ref sig .tc) ≠ main_v24 by decide)) _ _).trans (A3_arg1 m d f0 f1 f2)
theorem B3_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v0 : Ref sig .tc)) = (CM m g0 g1 g2 g3 g4).tv d := (Function.update_of_ne (StableHlo.devRef_ne_of_ne (show (main_v0 : Ref sig .tc) ≠ main_v24 by decide)) _ _).trans (A3_v0 m g0 g1 g2 g3 g4 d f0 f1 f2)
theorem B3_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v30 : Ref sig .tc)) = m (d, (Proc.devRef .tc (main_v30 : Ref sig .tc))) := (Function.update_of_ne (StableHlo.devRef_ne_of_ne (show (main_v30 : Ref sig .tc) ≠ main_v24 by decide)) _ _).trans (A3_out4 m d f0 f1 f2)

abbrev A4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : Valuation τ sig (Elt F) := StableHlo.after sops4 (B3 m d f0 f1 f2 f3)
abbrev B4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : Valuation τ sig (Elt F) := Function.update (A4 m d f0 f1 f2 f3) (Proc.devRef .tc (main_v30 : Ref sig .tc)) f4
theorem A4_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_arg0 : Ref sig .tc)) = m (d, (Proc.devRef .tc (main_arg0 : Ref sig .tc))) := (keep4 _ main_arg0 (by decide)).trans (B3_arg0 m d f0 f1 f2 f3)
theorem A4_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_arg1 : Ref sig .tc)) = m (d, (Proc.devRef .tc (main_arg1 : Ref sig .tc))) := (keep4 _ main_arg1 (by decide)).trans (B3_arg1 m d f0 f1 f2 f3)
theorem A4_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v0 : Ref sig .tc)) = (CM m g0 g1 g2 g3 g4).tv d := (keep4 _ main_v0 (by decide)).trans (B3_v0 m g0 g1 g2 g3 g4 d f0 f1 f2 f3)
theorem A4_idx (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v29 : Ref sig .tc)) = (CM m g0 g1 g2 g3 g4).iv4 d := (Pre.idx_after4 _).trans (congrArg Pre.idxFn4 (B3_arg0 m d f0 f1 f2 f3))
theorem A4_out4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v30 : Ref sig .tc)) = m (d, (Proc.devRef .tc (main_v30 : Ref sig .tc))) := (keep4 _ main_v30 (by decide)).trans (B3_out4 m d f0 f1 f2 f3)
theorem B4_arg0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_arg0 : Ref sig .tc)) = m (d, (Proc.devRef .tc (main_arg0 : Ref sig .tc))) := (Function.update_of_ne (StableHlo.devRef_ne_of_ne (show (main_arg0 : Ref sig .tc) ≠ main_v30 by decide)) _ _).trans (A4_arg0 m d f0 f1 f2 f3)
theorem B4_arg1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_arg1 : Ref sig .tc)) = m (d, (Proc.devRef .tc (main_arg1 : Ref sig .tc))) := (Function.update_of_ne (StableHlo.devRef_ne_of_ne (show (main_arg1 : Ref sig .tc) ≠ main_v30 by decide)) _ _).trans (A4_arg1 m d f0 f1 f2 f3)
theorem B4_v0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v0 : Ref sig .tc)) = (CM m g0 g1 g2 g3 g4).tv d := (Function.update_of_ne (StableHlo.devRef_ne_of_ne (show (main_v0 : Ref sig .tc) ≠ main_v30 by decide)) _ _).trans (A4_v0 m g0 g1 g2 g3 g4 d f0 f1 f2 f3)

/-! ## The transposed row numbers and the gathered arrays, kept to the end -/
theorem A0_xt0 (d : Dev nD)  : A0 m d  (Proc.devRef .tc (main_v2 : Ref sig .tc)) = KI.Idx.xtFn0 (m (d, (Proc.devRef .tc (main_arg0 : Ref sig .tc)))) := (KI.Idx.xt_after0 _).trans (congrArg KI.Idx.xtFn0 (rfl))
theorem B0_xt0 (d : Dev nD) (f0 : (⟨S40960x128, .f32⟩ : BufTy).Contents (Elt F)) : B0 m d f0 (Proc.devRef .tc (main_v2 : Ref sig .tc)) = KI.Idx.xtFn0 (m (d, (Proc.devRef .tc (main_arg0 : Ref sig .tc)))) := (Function.update_of_ne (StableHlo.devRef_ne_of_ne (show (main_v2 : Ref sig .tc) ≠ main_v6 by decide)) _ _).trans (A0_xt0 m d )
theorem B0_res0 (d : Dev nD) (f0 : (⟨S40960x128, .f32⟩ : BufTy).Contents (Elt F)) : B0 m d f0 (Proc.devRef .tc (main_v6 : Ref sig .tc)) = f0 := Function.update_self _ _ _
theorem A1_xt0 (d : Dev nD) (f0 : (⟨S40960x128, .f32⟩ : BufTy).Contents (Elt F)) : A1 m d f0 (Proc.devRef .tc (main_v2 : Ref sig .tc)) = KI.Idx.xtFn0 (m (d, (Proc.devRef .tc (main_arg0 : Ref sig .tc)))) := (keep1 _ main_v2 (by decide)).trans (B0_xt0 m d f0)
theorem B1_xt0 (d : Dev nD) (f0 : (⟨S40960x128, .f32⟩ : BufTy).Contents (Elt F)) (f1 : (⟨S40960x128, .f32⟩ : BufTy).Contents (Elt F)) : B1 m d f0 f1 (Proc.devRef .tc (main_v2 : Ref sig .tc)) = KI.Idx.xtFn0 (m (d, (Proc.devRef .tc (main_arg0 : Ref sig .tc)))) := (Function.update_of_ne (StableHlo.devRef_ne_of_ne (show (main_v2 : Ref sig .tc) ≠ main_v12 by decide)) _ _).trans (A1_xt0 m d f0)
theorem A1_xt1 (d : Dev nD) (f0 : (⟨S40960x128, .f32⟩ : BufTy).Contents (Elt F)) : A1 m d f0 (Proc.devRef .tc (main_v8 : Ref sig .tc)) = KI.Idx.xtFn1 (m (d, (Proc.devRef .tc (main_arg0 : Ref sig .tc)))) := (KI.Idx.xt_after1 _).trans (congrArg KI.Idx.xtFn1 (B0_arg0 m d f0))
theorem B1_xt1 (d : Dev nD) (f0 : (⟨S40960x128, .f32⟩ : BufTy).Contents (Elt F)) (f1 : (⟨S40960x128, .f32⟩ : BufTy).Contents (Elt F)) : B1 m d f0 f1 (Proc.devRef .tc (main_v8 : Ref sig .tc)) = KI.Idx.xtFn1 (m (d, (Proc.devRef .tc (main_arg0 : Ref sig .tc)))) := (Function.update_of_ne (StableHlo.devRef_ne_of_ne (show (main_v8 : Ref sig .tc) ≠ main_v12 by decide)) _ _).trans (A1_xt1 m d f0)
theorem A1_res0 (d : Dev nD) (f0 : (⟨S40960x128, .f32⟩ : BufTy).Contents (Elt F)) : A1 m d f0 (Proc.devRef .tc (main_v6 : Ref sig .tc)) = f0 := (keep1 _ main_v6 (by decide)).trans (B0_res0 m d f0)
theorem B1_res0 (d : Dev nD) (f0 : (⟨S40960x128, .f32⟩ : BufTy).Contents (Elt F)) (f1 : (⟨S40960x128, .f32⟩ : BufTy).Contents (Elt F)) : B1 m d f0 f1 (Proc.devRef .tc (main_v6 : Ref sig .tc)) = f0 := (Function.update_of_ne (StableHlo.devRef_ne_of_ne (show (main_v6 : Ref sig .tc) ≠ main_v12 by decide)) _ _).trans (A1_res0 m d f0)
theorem B1_res1 (d : Dev nD) (f0 : (⟨S40960x128, .f32⟩ : BufTy).Contents (Elt F)) (f1 : (⟨S40960x128, .f32⟩ : BufTy).Contents (Elt F)) : B1 m d f0 f1 (Proc.devRef .tc (main_v12 : Ref sig .tc)) = f1 := Function.update_self _ _ _
theorem A2_xt0 (d : Dev nD) (f0 : (⟨S40960x128, .f32⟩ : BufTy).Contents (Elt F)) (f1 : (⟨S40960x128, .f32⟩ : BufTy).Contents (Elt F)) : A2 m d f0 f1 (Proc.devRef .tc (main_v2 : Ref sig .tc)) = KI.Idx.xtFn0 (m (d, (Proc.devRef .tc (main_arg0 : Ref sig .tc)))) := (keep2 _ main_v2 (by decide)).trans (B1_xt0 m d f0 f1)
theorem B2_xt0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v2 : Ref sig .tc)) = KI.Idx.xtFn0 (m (d, (Proc.devRef .tc (main_arg0 : Ref sig .tc)))) := (Function.update_of_ne (StableHlo.devRef_ne_of_ne (show (main_v2 : Ref sig .tc) ≠ main_v18 by decide)) _ _).trans (A2_xt0 m d f0 f1)
theorem A2_xt1 (d : Dev nD) (f0 : (⟨S40960x128, .f32⟩ : BufTy).Contents (Elt F)) (f1 : (⟨S40960x128, .f32⟩ : BufTy).Contents (Elt F)) : A2 m d f0 f1 (Proc.devRef .tc (main_v8 : Ref sig .tc)) = KI.Idx.xtFn1 (m (d, (Proc.devRef .tc (main_arg0 : Ref sig .tc)))) := (keep2 _ main_v8 (by decide)).trans (B1_xt1 m d f0 f1)
theorem B2_xt1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v8 : Ref sig .tc)) = KI.Idx.xtFn1 (m (d, (Proc.devRef .tc (main_arg0 : Ref sig .tc)))) := (Function.update_of_ne (StableHlo.devRef_ne_of_ne (show (main_v8 : Ref sig .tc) ≠ main_v18 by decide)) _ _).trans (A2_xt1 m d f0 f1)
theorem A2_xt2 (d : Dev nD) (f0 : (⟨S40960x128, .f32⟩ : BufTy).Contents (Elt F)) (f1 : (⟨S40960x128, .f32⟩ : BufTy).Contents (Elt F)) : A2 m d f0 f1 (Proc.devRef .tc (main_v14 : Ref sig .tc)) = KI.Idx.xtFn2 (m (d, (Proc.devRef .tc (main_arg0 : Ref sig .tc)))) := (KI.Idx.xt_after2 _).trans (congrArg KI.Idx.xtFn2 (B1_arg0 m d f0 f1))
theorem B2_xt2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v14 : Ref sig .tc)) = KI.Idx.xtFn2 (m (d, (Proc.devRef .tc (main_arg0 : Ref sig .tc)))) := (Function.update_of_ne (StableHlo.devRef_ne_of_ne (show (main_v14 : Ref sig .tc) ≠ main_v18 by decide)) _ _).trans (A2_xt2 m d f0 f1)
theorem A2_res0 (d : Dev nD) (f0 : (⟨S40960x128, .f32⟩ : BufTy).Contents (Elt F)) (f1 : (⟨S40960x128, .f32⟩ : BufTy).Contents (Elt F)) : A2 m d f0 f1 (Proc.devRef .tc (main_v6 : Ref sig .tc)) = f0 := (keep2 _ main_v6 (by decide)).trans (B1_res0 m d f0 f1)
theorem B2_res0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v6 : Ref sig .tc)) = f0 := (Function.update_of_ne (StableHlo.devRef_ne_of_ne (show (main_v6 : Ref sig .tc) ≠ main_v18 by decide)) _ _).trans (A2_res0 m d f0 f1)
theorem A2_res1 (d : Dev nD) (f0 : (⟨S40960x128, .f32⟩ : BufTy).Contents (Elt F)) (f1 : (⟨S40960x128, .f32⟩ : BufTy).Contents (Elt F)) : A2 m d f0 f1 (Proc.devRef .tc (main_v12 : Ref sig .tc)) = f1 := (keep2 _ main_v12 (by decide)).trans (B1_res1 m d f0 f1)
theorem B2_res1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v12 : Ref sig .tc)) = f1 := (Function.update_of_ne (StableHlo.devRef_ne_of_ne (show (main_v12 : Ref sig .tc) ≠ main_v18 by decide)) _ _).trans (A2_res1 m d f0 f1)
theorem B2_res2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : B2 m d f0 f1 f2 (Proc.devRef .tc (main_v18 : Ref sig .tc)) = f2 := Function.update_self _ _ _
theorem A3_xt0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v2 : Ref sig .tc)) = KI.Idx.xtFn0 (m (d, (Proc.devRef .tc (main_arg0 : Ref sig .tc)))) := (keep3 _ main_v2 (by decide)).trans (B2_xt0 m d f0 f1 f2)
theorem B3_xt0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v2 : Ref sig .tc)) = KI.Idx.xtFn0 (m (d, (Proc.devRef .tc (main_arg0 : Ref sig .tc)))) := (Function.update_of_ne (StableHlo.devRef_ne_of_ne (show (main_v2 : Ref sig .tc) ≠ main_v24 by decide)) _ _).trans (A3_xt0 m d f0 f1 f2)
theorem A3_xt1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v8 : Ref sig .tc)) = KI.Idx.xtFn1 (m (d, (Proc.devRef .tc (main_arg0 : Ref sig .tc)))) := (keep3 _ main_v8 (by decide)).trans (B2_xt1 m d f0 f1 f2)
theorem B3_xt1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v8 : Ref sig .tc)) = KI.Idx.xtFn1 (m (d, (Proc.devRef .tc (main_arg0 : Ref sig .tc)))) := (Function.update_of_ne (StableHlo.devRef_ne_of_ne (show (main_v8 : Ref sig .tc) ≠ main_v24 by decide)) _ _).trans (A3_xt1 m d f0 f1 f2)
theorem A3_xt2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v14 : Ref sig .tc)) = KI.Idx.xtFn2 (m (d, (Proc.devRef .tc (main_arg0 : Ref sig .tc)))) := (keep3 _ main_v14 (by decide)).trans (B2_xt2 m d f0 f1 f2)
theorem B3_xt2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v14 : Ref sig .tc)) = KI.Idx.xtFn2 (m (d, (Proc.devRef .tc (main_arg0 : Ref sig .tc)))) := (Function.update_of_ne (StableHlo.devRef_ne_of_ne (show (main_v14 : Ref sig .tc) ≠ main_v24 by decide)) _ _).trans (A3_xt2 m d f0 f1 f2)
theorem A3_xt3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v20 : Ref sig .tc)) = KI.Idx.xtFn3 (m (d, (Proc.devRef .tc (main_arg0 : Ref sig .tc)))) := (KI.Idx.xt_after3 _).trans (congrArg KI.Idx.xtFn3 (B2_arg0 m d f0 f1 f2))
theorem B3_xt3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v20 : Ref sig .tc)) = KI.Idx.xtFn3 (m (d, (Proc.devRef .tc (main_arg0 : Ref sig .tc)))) := (Function.update_of_ne (StableHlo.devRef_ne_of_ne (show (main_v20 : Ref sig .tc) ≠ main_v24 by decide)) _ _).trans (A3_xt3 m d f0 f1 f2)
theorem A3_res0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v6 : Ref sig .tc)) = f0 := (keep3 _ main_v6 (by decide)).trans (B2_res0 m d f0 f1 f2)
theorem B3_res0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v6 : Ref sig .tc)) = f0 := (Function.update_of_ne (StableHlo.devRef_ne_of_ne (show (main_v6 : Ref sig .tc) ≠ main_v24 by decide)) _ _).trans (A3_res0 m d f0 f1 f2)
theorem A3_res1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v12 : Ref sig .tc)) = f1 := (keep3 _ main_v12 (by decide)).trans (B2_res1 m d f0 f1 f2)
theorem B3_res1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v12 : Ref sig .tc)) = f1 := (Function.update_of_ne (StableHlo.devRef_ne_of_ne (show (main_v12 : Ref sig .tc) ≠ main_v24 by decide)) _ _).trans (A3_res1 m d f0 f1 f2)
theorem A3_res2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) : A3 m d f0 f1 f2 (Proc.devRef .tc (main_v18 : Ref sig .tc)) = f2 := (keep3 _ main_v18 (by decide)).trans (B2_res2 m d f0 f1 f2)
theorem B3_res2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v18 : Ref sig .tc)) = f2 := (Function.update_of_ne (StableHlo.devRef_ne_of_ne (show (main_v18 : Ref sig .tc) ≠ main_v24 by decide)) _ _).trans (A3_res2 m d f0 f1 f2)
theorem B3_res3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : B3 m d f0 f1 f2 f3 (Proc.devRef .tc (main_v24 : Ref sig .tc)) = f3 := Function.update_self _ _ _
theorem A4_xt0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v2 : Ref sig .tc)) = KI.Idx.xtFn0 (m (d, (Proc.devRef .tc (main_arg0 : Ref sig .tc)))) := (keep4 _ main_v2 (by decide)).trans (B3_xt0 m d f0 f1 f2 f3)
theorem B4_xt0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v2 : Ref sig .tc)) = KI.Idx.xtFn0 (m (d, (Proc.devRef .tc (main_arg0 : Ref sig .tc)))) := (Function.update_of_ne (StableHlo.devRef_ne_of_ne (show (main_v2 : Ref sig .tc) ≠ main_v30 by decide)) _ _).trans (A4_xt0 m d f0 f1 f2 f3)
theorem A4_xt1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v8 : Ref sig .tc)) = KI.Idx.xtFn1 (m (d, (Proc.devRef .tc (main_arg0 : Ref sig .tc)))) := (keep4 _ main_v8 (by decide)).trans (B3_xt1 m d f0 f1 f2 f3)
theorem B4_xt1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v8 : Ref sig .tc)) = KI.Idx.xtFn1 (m (d, (Proc.devRef .tc (main_arg0 : Ref sig .tc)))) := (Function.update_of_ne (StableHlo.devRef_ne_of_ne (show (main_v8 : Ref sig .tc) ≠ main_v30 by decide)) _ _).trans (A4_xt1 m d f0 f1 f2 f3)
theorem A4_xt2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v14 : Ref sig .tc)) = KI.Idx.xtFn2 (m (d, (Proc.devRef .tc (main_arg0 : Ref sig .tc)))) := (keep4 _ main_v14 (by decide)).trans (B3_xt2 m d f0 f1 f2 f3)
theorem B4_xt2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v14 : Ref sig .tc)) = KI.Idx.xtFn2 (m (d, (Proc.devRef .tc (main_arg0 : Ref sig .tc)))) := (Function.update_of_ne (StableHlo.devRef_ne_of_ne (show (main_v14 : Ref sig .tc) ≠ main_v30 by decide)) _ _).trans (A4_xt2 m d f0 f1 f2 f3)
theorem A4_xt3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v20 : Ref sig .tc)) = KI.Idx.xtFn3 (m (d, (Proc.devRef .tc (main_arg0 : Ref sig .tc)))) := (keep4 _ main_v20 (by decide)).trans (B3_xt3 m d f0 f1 f2 f3)
theorem B4_xt3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v20 : Ref sig .tc)) = KI.Idx.xtFn3 (m (d, (Proc.devRef .tc (main_arg0 : Ref sig .tc)))) := (Function.update_of_ne (StableHlo.devRef_ne_of_ne (show (main_v20 : Ref sig .tc) ≠ main_v30 by decide)) _ _).trans (A4_xt3 m d f0 f1 f2 f3)
theorem A4_xt4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v26 : Ref sig .tc)) = KI.Idx.xtFn4 (m (d, (Proc.devRef .tc (main_arg0 : Ref sig .tc)))) := (KI.Idx.xt_after4 _).trans (congrArg KI.Idx.xtFn4 (B3_arg0 m d f0 f1 f2 f3))
theorem B4_xt4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v26 : Ref sig .tc)) = KI.Idx.xtFn4 (m (d, (Proc.devRef .tc (main_arg0 : Ref sig .tc)))) := (Function.update_of_ne (StableHlo.devRef_ne_of_ne (show (main_v26 : Ref sig .tc) ≠ main_v30 by decide)) _ _).trans (A4_xt4 m d f0 f1 f2 f3)
theorem A4_res0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v6 : Ref sig .tc)) = f0 := (keep4 _ main_v6 (by decide)).trans (B3_res0 m d f0 f1 f2 f3)
theorem B4_res0 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v6 : Ref sig .tc)) = f0 := (Function.update_of_ne (StableHlo.devRef_ne_of_ne (show (main_v6 : Ref sig .tc) ≠ main_v30 by decide)) _ _).trans (A4_res0 m d f0 f1 f2 f3)
theorem A4_res1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v12 : Ref sig .tc)) = f1 := (keep4 _ main_v12 (by decide)).trans (B3_res1 m d f0 f1 f2 f3)
theorem B4_res1 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v12 : Ref sig .tc)) = f1 := (Function.update_of_ne (StableHlo.devRef_ne_of_ne (show (main_v12 : Ref sig .tc) ≠ main_v30 by decide)) _ _).trans (A4_res1 m d f0 f1 f2 f3)
theorem A4_res2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v18 : Ref sig .tc)) = f2 := (keep4 _ main_v18 (by decide)).trans (B3_res2 m d f0 f1 f2 f3)
theorem B4_res2 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v18 : Ref sig .tc)) = f2 := (Function.update_of_ne (StableHlo.devRef_ne_of_ne (show (main_v18 : Ref sig .tc) ≠ main_v30 by decide)) _ _).trans (A4_res2 m d f0 f1 f2 f3)
theorem A4_res3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) : A4 m d f0 f1 f2 f3 (Proc.devRef .tc (main_v24 : Ref sig .tc)) = f3 := (keep4 _ main_v24 (by decide)).trans (B3_res3 m d f0 f1 f2 f3)
theorem B4_res3 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v24 : Ref sig .tc)) = f3 := (Function.update_of_ne (StableHlo.devRef_ne_of_ne (show (main_v24 : Ref sig .tc) ≠ main_v30 by decide)) _ _).trans (A4_res3 m d f0 f1 f2 f3)
theorem B4_res4 (d : Dev nD) (f0 : (⟨S40960x128, .f32⟩ : BufTy).Contents (Elt F)) (f1 : (⟨S40960x128, .f32⟩ : BufTy).Contents (Elt F)) (f2 : (⟨S40960x128, .f32⟩ : BufTy).Contents (Elt F)) (f3 : (⟨S40960x128, .f32⟩ : BufTy).Contents (Elt F)) (f4 : (⟨S40960x128, .f32⟩ : BufTy).Contents (Elt F)) : B4 m d f0 f1 f2 f3 f4 (Proc.devRef .tc (main_v30 : Ref sig .tc)) = f4 := Function.update_self _ _ _

/-! ## @main on the TensorCore -/

/-- What the result array ends at: the last part's fold from the buffers the five gather calls leave. -/
abbrev resVal (d : Dev nD) : Buf (Elt F) ((SparseCore.T d : Thread nD τ).loc main_v41) := Tail.W11 (fun d' => B4 m d' (g0 d') (g1 d') (g2 d') (g3 d') (g4 d')) d (Proc.devRef .tc (main_v41 : Ref sig .tc))

/-- What the run leaves the claim: the two arguments as launched, the result at `resVal`. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v41 ↦{fullShare} resVal m g0 g1 g2 g3 g4 d))

theorem sub0 : ∀ op ∈ (sops0 : List (HloOp τ sig (Elt F))), op.bufs ⊆ Pipeline.ucRefs τ sig := fun op h =>
  Pipeline.sub_ucRefs op ((List.forall_iff_forall_mem.mp (show (sops0 : List (HloOp τ sig (Elt F))).Forall fun op => op.bufs ⊆ StableHlo.tcRefs τ sig by simp [List.Forall])) op h)
theorem fresh0 : ∀ op ∈ (sops0 : List (HloOp τ sig (Elt F))), op.fresh = ∅ := fun op h =>
  (List.forall_iff_forall_mem.mp (show (sops0 : List (HloOp τ sig (Elt F))).Forall fun op => op.fresh = ∅ by simp only [List.Forall]; repeat' constructor)) op h
theorem sub1 : ∀ op ∈ (sops1 : List (HloOp τ sig (Elt F))), op.bufs ⊆ Pipeline.ucRefs τ sig := fun op h =>
  Pipeline.sub_ucRefs op ((List.forall_iff_forall_mem.mp (show (sops1 : List (HloOp τ sig (Elt F))).Forall fun op => op.bufs ⊆ StableHlo.tcRefs τ sig by simp [List.Forall])) op h)
theorem fresh1 : ∀ op ∈ (sops1 : List (HloOp τ sig (Elt F))), op.fresh = ∅ := fun op h =>
  (List.forall_iff_forall_mem.mp (show (sops1 : List (HloOp τ sig (Elt F))).Forall fun op => op.fresh = ∅ by simp only [List.Forall]; repeat' constructor)) op h
theorem sub2 : ∀ op ∈ (sops2 : List (HloOp τ sig (Elt F))), op.bufs ⊆ Pipeline.ucRefs τ sig := fun op h =>
  Pipeline.sub_ucRefs op ((List.forall_iff_forall_mem.mp (show (sops2 : List (HloOp τ sig (Elt F))).Forall fun op => op.bufs ⊆ StableHlo.tcRefs τ sig by simp [List.Forall])) op h)
theorem fresh2 : ∀ op ∈ (sops2 : List (HloOp τ sig (Elt F))), op.fresh = ∅ := fun op h =>
  (List.forall_iff_forall_mem.mp (show (sops2 : List (HloOp τ sig (Elt F))).Forall fun op => op.fresh = ∅ by simp only [List.Forall]; repeat' constructor)) op h
theorem sub3 : ∀ op ∈ (sops3 : List (HloOp τ sig (Elt F))), op.bufs ⊆ Pipeline.ucRefs τ sig := fun op h =>
  Pipeline.sub_ucRefs op ((List.forall_iff_forall_mem.mp (show (sops3 : List (HloOp τ sig (Elt F))).Forall fun op => op.bufs ⊆ StableHlo.tcRefs τ sig by simp [List.Forall])) op h)
theorem fresh3 : ∀ op ∈ (sops3 : List (HloOp τ sig (Elt F))), op.fresh = ∅ := fun op h =>
  (List.forall_iff_forall_mem.mp (show (sops3 : List (HloOp τ sig (Elt F))).Forall fun op => op.fresh = ∅ by simp only [List.Forall]; repeat' constructor)) op h
theorem sub4 : ∀ op ∈ (sops4 : List (HloOp τ sig (Elt F))), op.bufs ⊆ Pipeline.ucRefs τ sig := fun op h =>
  Pipeline.sub_ucRefs op ((List.forall_iff_forall_mem.mp (show (sops4 : List (HloOp τ sig (Elt F))).Forall fun op => op.bufs ⊆ StableHlo.tcRefs τ sig by simp [List.Forall])) op h)
theorem fresh4 : ∀ op ∈ (sops4 : List (HloOp τ sig (Elt F))), op.fresh = ∅ := fun op h =>
  (List.forall_iff_forall_mem.mp (show (sops4 : List (HloOp τ sig (Elt F))).Forall fun op => op.fresh = ∅ by simp only [List.Forall]; repeat' constructor)) op h

omit [FloatOps F] in
theorem three_sub (a b o : Ref sig .tc) (ha : ¬ (Proc.devRef .tc a : DevRef τ sig).isScoped) (hb : ¬ (Proc.devRef .tc b : DevRef τ sig).isScoped)
    (ho : ¬ (Proc.devRef .tc o : DevRef τ sig).isScoped) :
    ({Proc.devRef .tc a, Proc.devRef .tc b, Proc.devRef .tc o} : Finset (DevRef τ sig)) ⊆ Pipeline.ucRefs τ sig := by
  intro x hx
  simp only [Finset.mem_insert, Finset.mem_singleton] at hx
  rcases hx with rfl | rfl | rfl
  · exact Finset.mem_filter.mpr ⟨StableHlo.devRef_mem_tcRefs a, ha⟩
  · exact Finset.mem_filter.mpr ⟨StableHlo.devRef_mem_tcRefs b, hb⟩
  · exact Finset.mem_filter.mpr ⟨StableHlo.devRef_mem_tcRefs o, ho⟩

omit [FloatOps F] in
/-- Three distinct buffers of a held set. -/
theorem held_three (thr : Thread nD τ) (Sx : Finset (DevRef τ sig)) (V : Valuation τ sig (Elt F)) (a b o : DevRef τ sig)
    (hab : a ≠ b) (hao : a ≠ o) (hbo : b ≠ o) (hS : ({a, b, o} : Finset (DevRef τ sig)) ⊆ Sx) :
    (held thr Sx V : sProp 𝕄)
      ⊢ iprop((((thr.1, a) : Loc nD τ sig) ↦{fullShare} V a) ∗ (((thr.1, b) : Loc nD τ sig) ↦{fullShare} V b) ∗ (((thr.1, o) : Loc nD τ sig) ↦{fullShare} V o)) := by
  rw [StableHlo.held_sub_split thr hS V]
  unfold StableHlo.held
  rw [SparseCore.bigSep_insert' (by simp [hab, hao]), SparseCore.bigSep_insert' (by simp [hbo]), bigSep_singleton]
  iintro ⟨⟨Ha, Hb, Ho⟩, -⟩
  isplitl [Ha]; · iexact Ha
  isplitl [Hb]; · iexact Hb
  iexact Ho

set_option maxHeartbeats 8000000 in
theorem hmain [∀ e, Nonempty (Elt F e)] (κ : GSem nD τ sig → ℕ) (d : Dev nD) :
    iprop((K (F := F)).ctx EH (KV.P (CM m g0 g1 g2 g3 g4)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN m g0 g1 g2 g3 g4 d) := by
  unfold SparseCore.Cfg.tcRes
  rw [show unscopedBufs d (fun b => m ((SparseCore.T d).loc b)) = StableHlo.held (SparseCore.T d) (Pipeline.ucRefs τ sig) (Wl m d)
    from Pipeline.unscopedBufs_held d (Wl m d)]
  rw [main_eq d]
  iintro ⟨#Hctx, Hst, ⟨Hb, Hheld, -, Hprng⟩, HG⟩

  -- the host operations before gather call 0, then the call: its three arrays out to the tasks and back
  rw [Pipeline.chain_cons, Pipeline.chain_cons]
  iapply (StableHlo.wp_seq 𝒱 none Set.univ d (Pipeline.ucRefs τ sig) _ sops0 (sub0 (F := F)) (fresh0 (F := F)) _) $$ [Hb Hheld]
  · isplitl [Hb]; · iexact Hb
    iexact Hheld
  iintro ⟨Hb, Hheld⟩
  ihave Hf := (call_frame (SparseCore.T d) (Pipeline.ucRefs τ sig) (A0 m d ) (Proc.devRef .tc (main_v0 : Ref sig .tc) : DevRef τ sig) (Proc.devRef .tc (main_v5 : Ref sig .tc) : DevRef τ sig) (Proc.devRef .tc (main_v6 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A0_v0 m g0 g1 g2 g3 g4 d , A0_idx m g0 g1 g2 g3 g4 d , A0_out0 m d ]
  ihave Hs := (KV.T0.st_split d ((CM m g0 g1 g2 g3 g4).tv d) ((CM m g0 g1 g2 g3 g4).iv0 d) ((CM m g0 g1 g2 g3 g4).ov0 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := KV.P (CM m g0 g1 g2 g3 g4)) κ d 0) $$ [Hst Hsts Hb Hrem Hback Hprng HG]
  isplitr; · iexact Hctx
  isplitl [Hst]; · iexact Hst
  isplitl [Hsts]; · iexact Hsts
  iintro ⟨Hst, Hdn⟩
  ihave Hj := (KV.T0.dn_join d ((CM m g0 g1 g2 g3 g4).tv d) ((CM m g0 g1 g2 g3 g4).iv0 d) (g0 d)) $$ [Hrem Hdn]
  · isplitl [Hrem]; · iexact Hrem
    iexact Hdn
  icases Hj with ⟨Ht, Hi, Ho⟩
  ispecialize Hback $$ %(g0 d)
  ihave Hheld := Hback $$ [Ht Hi Ho]
  · isplitl [Ht]; · iexact Ht
    isplitl [Hi]; · iexact Hi
    iexact Ho

  -- the host operations before gather call 1, then the call: its three arrays out to the tasks and back
  rw [Pipeline.chain_cons, Pipeline.chain_cons]
  iapply (StableHlo.wp_seq 𝒱 none Set.univ d (Pipeline.ucRefs τ sig) _ sops1 (sub1 (F := F)) (fresh1 (F := F)) _) $$ [Hb Hheld]
  · isplitl [Hb]; · iexact Hb
    iexact Hheld
  iintro ⟨Hb, Hheld⟩
  ihave Hf := (call_frame (SparseCore.T d) (Pipeline.ucRefs τ sig) (A1 m d (g0 d)) (Proc.devRef .tc (main_v0 : Ref sig .tc) : DevRef τ sig) (Proc.devRef .tc (main_v11 : Ref sig .tc) : DevRef τ sig) (Proc.devRef .tc (main_v12 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A1_v0 m g0 g1 g2 g3 g4 d (g0 d), A1_idx m g0 g1 g2 g3 g4 d (g0 d), A1_out1 m d (g0 d)]
  ihave Hs := (KV.T1.st_split d ((CM m g0 g1 g2 g3 g4).tv d) ((CM m g0 g1 g2 g3 g4).iv1 d) ((CM m g0 g1 g2 g3 g4).ov1 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := KV.P (CM m g0 g1 g2 g3 g4)) κ d 1) $$ [Hst Hsts Hb Hrem Hback Hprng HG]
  isplitr; · iexact Hctx
  isplitl [Hst]; · iexact Hst
  isplitl [Hsts]; · iexact Hsts
  iintro ⟨Hst, Hdn⟩
  ihave Hj := (KV.T1.dn_join d ((CM m g0 g1 g2 g3 g4).tv d) ((CM m g0 g1 g2 g3 g4).iv1 d) (g1 d)) $$ [Hrem Hdn]
  · isplitl [Hrem]; · iexact Hrem
    iexact Hdn
  icases Hj with ⟨Ht, Hi, Ho⟩
  ispecialize Hback $$ %(g1 d)
  ihave Hheld := Hback $$ [Ht Hi Ho]
  · isplitl [Ht]; · iexact Ht
    isplitl [Hi]; · iexact Hi
    iexact Ho

  -- the host operations before gather call 2, then the call: its three arrays out to the tasks and back
  rw [Pipeline.chain_cons, Pipeline.chain_cons]
  iapply (StableHlo.wp_seq 𝒱 none Set.univ d (Pipeline.ucRefs τ sig) _ sops2 (sub2 (F := F)) (fresh2 (F := F)) _) $$ [Hb Hheld]
  · isplitl [Hb]; · iexact Hb
    iexact Hheld
  iintro ⟨Hb, Hheld⟩
  ihave Hf := (call_frame (SparseCore.T d) (Pipeline.ucRefs τ sig) (A2 m d (g0 d) (g1 d)) (Proc.devRef .tc (main_v0 : Ref sig .tc) : DevRef τ sig) (Proc.devRef .tc (main_v17 : Ref sig .tc) : DevRef τ sig) (Proc.devRef .tc (main_v18 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A2_v0 m g0 g1 g2 g3 g4 d (g0 d) (g1 d), A2_idx m g0 g1 g2 g3 g4 d (g0 d) (g1 d), A2_out2 m d (g0 d) (g1 d)]
  ihave Hs := (KV.T2.st_split d ((CM m g0 g1 g2 g3 g4).tv d) ((CM m g0 g1 g2 g3 g4).iv2 d) ((CM m g0 g1 g2 g3 g4).ov2 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := KV.P (CM m g0 g1 g2 g3 g4)) κ d 2) $$ [Hst Hsts Hb Hrem Hback Hprng HG]
  isplitr; · iexact Hctx
  isplitl [Hst]; · iexact Hst
  isplitl [Hsts]; · iexact Hsts
  iintro ⟨Hst, Hdn⟩
  ihave Hj := (KV.T2.dn_join d ((CM m g0 g1 g2 g3 g4).tv d) ((CM m g0 g1 g2 g3 g4).iv2 d) (g2 d)) $$ [Hrem Hdn]
  · isplitl [Hrem]; · iexact Hrem
    iexact Hdn
  icases Hj with ⟨Ht, Hi, Ho⟩
  ispecialize Hback $$ %(g2 d)
  ihave Hheld := Hback $$ [Ht Hi Ho]
  · isplitl [Ht]; · iexact Ht
    isplitl [Hi]; · iexact Hi
    iexact Ho

  -- the host operations before gather call 3, then the call: its three arrays out to the tasks and back
  rw [Pipeline.chain_cons, Pipeline.chain_cons]
  iapply (StableHlo.wp_seq 𝒱 none Set.univ d (Pipeline.ucRefs τ sig) _ sops3 (sub3 (F := F)) (fresh3 (F := F)) _) $$ [Hb Hheld]
  · isplitl [Hb]; · iexact Hb
    iexact Hheld
  iintro ⟨Hb, Hheld⟩
  ihave Hf := (call_frame (SparseCore.T d) (Pipeline.ucRefs τ sig) (A3 m d (g0 d) (g1 d) (g2 d)) (Proc.devRef .tc (main_v0 : Ref sig .tc) : DevRef τ sig) (Proc.devRef .tc (main_v23 : Ref sig .tc) : DevRef τ sig) (Proc.devRef .tc (main_v24 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A3_v0 m g0 g1 g2 g3 g4 d (g0 d) (g1 d) (g2 d), A3_idx m g0 g1 g2 g3 g4 d (g0 d) (g1 d) (g2 d), A3_out3 m d (g0 d) (g1 d) (g2 d)]
  ihave Hs := (KV.T3.st_split d ((CM m g0 g1 g2 g3 g4).tv d) ((CM m g0 g1 g2 g3 g4).iv3 d) ((CM m g0 g1 g2 g3 g4).ov3 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := KV.P (CM m g0 g1 g2 g3 g4)) κ d 3) $$ [Hst Hsts Hb Hrem Hback Hprng HG]
  isplitr; · iexact Hctx
  isplitl [Hst]; · iexact Hst
  isplitl [Hsts]; · iexact Hsts
  iintro ⟨Hst, Hdn⟩
  ihave Hj := (KV.T3.dn_join d ((CM m g0 g1 g2 g3 g4).tv d) ((CM m g0 g1 g2 g3 g4).iv3 d) (g3 d)) $$ [Hrem Hdn]
  · isplitl [Hrem]; · iexact Hrem
    iexact Hdn
  icases Hj with ⟨Ht, Hi, Ho⟩
  ispecialize Hback $$ %(g3 d)
  ihave Hheld := Hback $$ [Ht Hi Ho]
  · isplitl [Ht]; · iexact Ht
    isplitl [Hi]; · iexact Hi
    iexact Ho

  -- the host operations before gather call 4, then the call: its three arrays out to the tasks and back
  rw [Pipeline.chain_cons, Pipeline.chain_cons]
  iapply (StableHlo.wp_seq 𝒱 none Set.univ d (Pipeline.ucRefs τ sig) _ sops4 (sub4 (F := F)) (fresh4 (F := F)) _) $$ [Hb Hheld]
  · isplitl [Hb]; · iexact Hb
    iexact Hheld
  iintro ⟨Hb, Hheld⟩
  ihave Hf := (call_frame (SparseCore.T d) (Pipeline.ucRefs τ sig) (A4 m d (g0 d) (g1 d) (g2 d) (g3 d)) (Proc.devRef .tc (main_v0 : Ref sig .tc) : DevRef τ sig) (Proc.devRef .tc (main_v29 : Ref sig .tc) : DevRef τ sig) (Proc.devRef .tc (main_v30 : Ref sig .tc) : DevRef τ sig)
    (StableHlo.devRef_ne_of_ne (by decide)) (StableHlo.devRef_ne_of_ne (by decide)) (StableHlo.devRef_ne_of_ne (by decide)) (three_sub _ _ _ (by decide) (by decide) (by decide))) $$ Hheld
  icases Hf with ⟨Ht, Hi, Ho, Hback⟩
  rw [A4_v0 m g0 g1 g2 g3 g4 d (g0 d) (g1 d) (g2 d) (g3 d), A4_idx m g0 g1 g2 g3 g4 d (g0 d) (g1 d) (g2 d) (g3 d), A4_out4 m d (g0 d) (g1 d) (g2 d) (g3 d)]
  ihave Hs := (KV.T4.st_split d ((CM m g0 g1 g2 g3 g4).tv d) ((CM m g0 g1 g2 g3 g4).iv4 d) ((CM m g0 g1 g2 g3 g4).ov4 d)) $$ [Ht Hi Ho]
  · isplitl [Ht]; · iexact Ht
    isplitl [Hi]; · iexact Hi
    iexact Ho
  icases Hs with ⟨Hrem, Hsts⟩
  rw [wp_bind]
  iapply ((K (F := F)).wp_run (D (F := F)) 𝒱 (EH := EH) (P := KV.P (CM m g0 g1 g2 g3 g4)) κ d 4) $$ [Hst Hsts Hb Hrem Hback Hprng HG]
  isplitr; · iexact Hctx
  isplitl [Hst]; · iexact Hst
  isplitl [Hsts]; · iexact Hsts
  iintro ⟨Hst, Hdn⟩
  ihave Hj := (KV.T4.dn_join d ((CM m g0 g1 g2 g3 g4).tv d) ((CM m g0 g1 g2 g3 g4).iv4 d) (g4 d)) $$ [Hrem Hdn]
  · isplitl [Hrem]; · iexact Hrem
    iexact Hdn
  icases Hj with ⟨Ht, Hi, Ho⟩
  ispecialize Hback $$ %(g4 d)
  ihave Hheld := Hback $$ [Ht Hi Ho]
  · isplitl [Ht]; · iexact Ht
    isplitl [Hi]; · iexact Hi
    iexact Ho

  -- the rest of @main: the segments, from the buffers as the last gather call left them
  rw [Pipeline.chain_cons, Pipeline.chain_nil]
  rw [← tail_run (fun d' => B4 m d' (g0 d') (g1 d') (g2 d') (g3 d') (g4 d'))]
  rw [wp_bind]
  unfold SparseCore.Cfg.tcSt
  icases Hst with ⟨⟨%W, %hW, HO⟩, Hat, #Hrd, #Hrs, Htoks⟩
  rw [(K (F := F)).Otc_end d (le_refl 5)]
  ihave Hlev := ((K (F := F)).ctx_levAts (EH := EH) (P := KV.P (CM m g0 g1 g2 g3 g4)) κ) $$ Hctx
  iapply ((K (F := F)).wp_liftProg (D (F := F)) 𝒱 (SparseCore.T d) Set.univ none _ _)
  iapply (Tail.tail_wp (fun d' => B4 m d' (g0 d') (g1 d') (g2 d') (g3 d') (g4 d')) d)
  isplitl [Hat Htoks]
  · iintro ⟨Hb, Hheld, %W', HO⟩
    rw [wp_pure]
    imodintro
    isplitl [HO Hat Htoks]
    · isplitl [HO]
      · iexists W'; isplitr
        · ipureintro
          intro p _
          show (K (F := F)).lev (SparseCore.T d, p.1) p.2 ≤ 8 * 5
          cases p.2 with
          | none => rw [SparseCore.Cfg.lev_none]; omega
          | some q => exact ((K (F := F)).lev_some_le _ q).trans (by have := q.isLt; omega)
        · iexact HO
      isplitl [Hat]; · iexact Hat
      isplitr; · iexact Hrd
      isplitr; · iexact Hrs
      iexact Htoks
    · ihave H3 := (held_three (SparseCore.T d) (Pipeline.ucRefs τ sig) _ (Proc.devRef .tc (main_arg0 : Ref sig .tc) : DevRef τ sig) (Proc.devRef .tc (main_arg1 : Ref sig .tc) : DevRef τ sig) (Proc.devRef .tc (main_v41 : Ref sig .tc) : DevRef τ sig)
        (StableHlo.devRef_ne_of_ne (by decide)) (StableHlo.devRef_ne_of_ne (by decide)) (StableHlo.devRef_ne_of_ne (by decide)) (three_sub _ _ _ (by decide) (by decide) (by decide))) $$ Hheld
      icases H3 with ⟨H0, H1, Hr⟩
      rw [Tail.W11_arg0, Tail.W11_arg1, B4_arg0 m d (g0 d) (g1 d) (g2 d) (g3 d) (g4 d), B4_arg1 m d (g0 d) (g1 d) (g2 d) (g3 d) (g4 d)]
      isplitl [H0]; · iexact H0
      isplitl [H1]; · iexact H1
      iexact Hr
  isplitl [Hb]; · iexact Hb
  isplitl [Hheld HO]
  · isplitl [Hheld]; · iexact Hheld
    iexists W; iexact HO
  isplitr; · iexact Hlev
  iexact HG

/-! ## The program's run -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v41) = resVal m g0 g1 g2 g3 g4 d

theorem hfin (d : Dev nD) (s' : Phys nD τ sig (Elt F)) : iprop(FIN m g0 g1 g2 g3 g4 d ∗ SI s') ⊢ (⌜fq m g0 g1 g2 g3 g4 d s'⌝ : sProp 𝕄) := by
  iintro ⟨⟨H0, H1, Hr⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h2, HSI, -⟩
  ihave H := (SI_pointsTo_agree (st := s') (ℓ := (SparseCore.T d).loc main_v41) (I := Finset.univ) (q := fullShare) (f := resVal m g0 g1 g2 g3 g4 d)) $$ [HSI Hr]
  · isplitl [HSI] <;> iassumption
  icases H with %h3
  ipureintro; exact ⟨funext fun i => h1 i (Finset.mem_univ i), funext fun i => h2 i (Finset.mem_univ i), funext fun i => h3 i (Finset.mem_univ i)⟩

def QC : PUnit × MemSt nD τ sig (Elt F) → Prop := fun r => ∀ c : Dev nD,
  r.2.mem ((SparseCore.T c).loc main_v41) = resVal m g0 g1 g2 g3 g4 c
    ∧ r.2.mem ((SparseCore.T c).loc main_arg0) = m ((SparseCore.T c).loc main_arg0) ∧ r.2.mem ((SparseCore.T c).loc main_arg1) = m ((SparseCore.T c).loc main_arg1)

theorem run_main [∀ e, Nonempty (Elt F e)] (hpre : KV.PreOK (CM m g0 g1 g2 g3 g4)) :
    θ_run (Cert.KernelIdeal.defs (F := F)) (Cert.KernelIdeal.threads (F := F)) ⟨m, fun _ => 0, ρ⟩ (QC m g0 g1 g2 g3 g4) :=
  SparseCore.Cfg.θ_run_sc (K := K (F := F)) (D := D (F := F)) (𝒱 := 𝒱) (EH := EH) (P := KV.P (CM m g0 g1 g2 g3 g4)) facts v₀
    (fun q hq => match q with | 0 => nomatch hq | 1 => nomatch hq | 2 => nomatch hq | 3 => nomatch hq | 4 => nomatch hq)
    (fun q _ => match q with
      | 0 => KV.tileObl0 _ hpre | 1 => KV.tileObl1 _ hpre | 2 => KV.tileObl2 _ hpre | 3 => KV.tileObl3 _ hpre | 4 => KV.tileObl4 _ hpre)
    (fun q _ => match q with
      | 0 => SparseCore.Cfg.VecSplit.of_plain (KV.vecSplit0 _) | 1 => SparseCore.Cfg.VecSplit.of_plain (KV.vecSplit1 _)
      | 2 => SparseCore.Cfg.VecSplit.of_plain (KV.vecSplit2 _) | 3 => SparseCore.Cfg.VecSplit.of_plain (KV.vecSplit3 _)
      | 4 => SparseCore.Cfg.VecSplit.of_plain (KV.vecSplit4 _))
    m ρ main (G (F := F)) (FIN m g0 g1 g2 g3 g4) (u₀ (F := F)) (sep_elim_left.trans (hu₀ (CM m g0 g1 g2 g3 g4))) (hmain m ρ g0 g1 g2 g3 g4) (fq m g0 g1 g2 g3 g4) (hfin m g0 g1 g2 g3 g4) (QC m g0 g1 g2 g3 g4)
    (fun _ h c => ⟨(h c).2.2, (h c).1, (h c).2.1⟩)

end Cert.Proof.KV

end
-- ==== Proof.KVCanon0.lean ====
/-
  What a gather call's result array holds, chunk by chunk, as ONE function of the array index. A vector subcore's task at
  grid coordinates L reads block 2 L₁ + L₀ of the [32, 10, 128] row numbers into its scratch, and for k = 0 … 4, r = 0, 1
  gathers, for the 128 numbers of scratch row 2 k + r, the table rows they name into the 128-row chunk of the result at
  row 2560 L₁ + 1280 L₀ + 256 k + 128 r. Row p of that chunk is therefore the table's row number
  fi[2 L₁ + L₀, 2 k + r, p], and the chunk's row p is row n = 2560 L₁ + 1280 L₀ + 256 k + 128 r + p of the result, for which
  n / 1280 = 2 L₁ + L₀, (n mod 1280) / 128 = 2 k + r and n mod 128 = p: every chunk holds its part of the one array
  "row n is the table's row fi[n / 1280, (n mod 1280) / 128, n mod 128]".
-/
import proofs.«205068_g58248346468665_cont_9to1c4b_383_29_alg».proof.Proof.KVT0
import Idealize.ShloMosaic.Lib.ValueIdx
import Idealize.ShloMosaic.Lib.ValueLayout
import Idealize.ShloMosaic.Lib.Pipeline.Value

noncomputable section

namespace Cert.Proof.KV.T0

open Cert.KernelIdeal Cert.KernelIdeal.Gen Cert.Proof.KI
open Idealize.ShloMosaic Idealize.ShloMosaic.ValueIdx Idealize.SL.Sem

variable {F : FTy → Type} [FloatOps F]

/-- The result array of the call as one function of its index: row n is the table's row the n-th row number names. -/
def gcan (ft : (⟨S50000x128, .f32⟩ : BufTy).Contents (Elt F)) (fi : (⟨S32x10x128, .i32⟩ : BufTy).Contents (Elt F))
    (hfi : ∀ j, (fi j).toNat < 50000) : (⟨S40960x128, .f32⟩ : BufTy).Contents (Elt F) :=
  fun idx => ft (ix2 (⟨(fi (ix3 (⟨(idx 0).val / 1280, by have h : (idx 0).val < 40960 := (idx 0).isLt; omega⟩ : Fin 32)
      (⟨(idx 0).val % 1280 / 128, by omega⟩ : Fin 10) (⟨(idx 0).val % 128, by omega⟩ : Fin 128))).toNat, hfi _⟩ : Fin 50000) (idx 1 : Fin 128))

/-- A chunk that holds what its gather brought holds, at each of its elements, the one array: the chunk's row p is the
    table's row the scratch's entry (2 k + r, p) names; the scratch holds the task's block of the row numbers, so that
    entry is fi[2 L₁ + L₀, 2 k + r, p]; and the element's own row n = 2560 L₁ + 1280 L₀ + 256 k + 128 r + p has
    n / 1280 = 2 L₁ + L₀, (n mod 1280) / 128 = 2 k + r, n mod 128 = p. -/
theorem chunk_canon (d : Dev nD) (L : grid0.Coords) (ft : TBuf (F := F) d L) (fi : (⟨S32x10x128, .i32⟩ : BufTy).Contents (Elt F))
    (hfi : ∀ j, (fi j).toNat < 50000) (X : XBuf (F := F) d L)
    (hX : ∀ y, ((sI : Memref sig .scVector .vmem S10x128 .i32).view.read (Elt F) X y).toNat < 50000)
    (hXr : (sI : Memref sig .scVector .vmem S10x128 .i32).view.read (Elt F) X = (iBlk L).view.read (Elt F) fi)
    (k : Fin k0_t1_loop.trips) (r : Fin 2) (f : oBuf (F := F) d L) (h : ChunkOK d L ft X hX k r f) :
    ∀ idx ∈ (oCh L k r).view.set, f idx = gcan ft fi hfi idx := by
  intro idx hidx
  have hset : (oCh L k r).view.set
      = (Rect.unit (s := S40960x128) (k0_off4 L k (BitVec.ofNat 32 r.val)) S128x128.size (k0_off4_inb L k r)).set := by
    show ((oW : Memref sig .scVector .hbm S40960x128 .f32).view.slice _).set = _
    simp only [Memref.view_whole, View.set_slice_whole]
  rw [hset] at hidx
  obtain ⟨y, rfl⟩ := (Rect.unit (s := S40960x128) (k0_off4 L k (BitVec.ofNat 32 r.val)) S128x128.size (k0_off4_inb L k r)).exists_idx_of_mem hidx
  have e1 : f ((Rect.unit (s := S40960x128) (k0_off4 L k (BitVec.ofNat 32 r.val)) S128x128.size (k0_off4_inb L k r)).idx y)
      = (oCh L k r).view.read (Elt F) f y := rfl
  rw [e1, h]
  unfold gVal SparseCore.gatherPayload
  have e2 : ∀ z : S50000x128.Idx, (tWs).view.read (Elt F) ft z = ft (ix2 (z 0 : Fin 50000) (z 1 : Fin 128)) := by
    intro z
    show ft _ = ft _
    refine congrArg ft (funext fun a => Fin.ext ?_)
    match a with
    | ⟨0, _⟩ => show 0 + 1 * (z 0).val = (z 0).val; omega
    | ⟨1, _⟩ => show 0 + 1 * (z 1).val = (z 1).val; omega
  rw [e2]
  -- the row number the gather reads for chunk row y₀: entry (2 k + r, y₀) of the scratch
  have hy0 : (y 0).val < 128 := (y 0).isLt
  have hy1 : (y 1).val < 128 := (y 1).isLt
  have hk : k.val < 5 := Nat.lt_of_lt_of_eq k.isLt trips_eq
  have hr : r.val < 2 := r.isLt
  have hL0 : (L 0).val < 2 := (L 0).isLt
  have hL1 : (L 1).val < 16 := (L 1).isLt
  have o4 := k0_off4_eq L k r
  have o3 := k0_off3_eq k r
  have o1 := k0_off1_eq L
  have e3 : ∀ p : Fin 128, (iRowM k r).view.read (Elt F) X (ix1 p)
      = (sI : Memref sig .scVector .vmem S10x128 .i32).view.read (Elt F) X (ix2 (⟨2 * k.val + r.val, by omega⟩ : Fin 10) p) := by
    intro p
    refine (congrFun (Memref.read_squeeze_slice (sI : Memref sig .scVector .vmem S10x128 .i32) _ (fun _ => rfl) squeezes_S1x128_S128 (show S1x128.ShapeCasts S128 from by decide) X) (ix1 p)).trans ?_
    refine (shapeCast_1a_a_apply _ _ p).trans ?_
    show X _ = X _
    refine congrArg X (funext fun a => Fin.ext ?_)
    match a with
    | ⟨0, _⟩ => show k0_off3 k (BitVec.ofNat 32 r.val) 0 + 1 * 0 = 2 * k.val + r.val; rw [o3]; show 2 * k.val + r.val + 1 * 0 = _; omega
    | ⟨1, _⟩ => show k0_off3 k (BitVec.ofNat 32 r.val) 1 + 1 * p.val = p.val; rw [o3]; show 0 + 1 * p.val = _; omega
  have e4 : ∀ (a : Fin 10) (p : Fin 128), (iBlk L).view.read (Elt F) fi (ix2 a p)
      = fi (ix3 (⟨2 * (L 1).val + (L 0).val, by omega⟩ : Fin 32) a p) := by
    intro a p
    refine (congrFun (Memref.read_squeeze_slice (iW : Memref sig .scVector .hbm S32x10x128 .i32) _ (fun _ => rfl) squeezes_S1x10x128_S10x128 (show S1x10x128.ShapeCasts S10x128 from by decide) fi) (ix2 a p)).trans ?_
    refine (shapeCast_1ab_ab_apply _ _ a p).trans ?_
    show fi _ = fi _
    refine congrArg fi (funext fun b => Fin.ext ?_)
    match b with
    | ⟨0, _⟩ => show k0_off1 L 0 + 1 * 0 = 2 * (L 1).val + (L 0).val; rw [o1]; show 2 * (L 1).val + (L 0).val + 1 * 0 = _; omega
    | ⟨1, _⟩ => show k0_off1 L 1 + 1 * a.val = a.val; rw [o1]; show 0 + 1 * a.val = _; omega
    | ⟨2, _⟩ => show k0_off1 L 2 + 1 * p.val = p.val; rw [o1]; show 0 + 1 * p.val = _; omega
  have hq : ∀ c : Fin S128.numel, S128.rowMajor.symm c = ix1 (⟨c.val, c.isLt⟩ : Fin 128) := by
    intro c
    refine (Equiv.symm_apply_eq _).mpr (Fin.ext ?_)
    rw [Shape.rowMajor_val_one]
  unfold gcan
  refine congrArg ft (funext fun a => Fin.ext ?_)
  match a with
  | ⟨0, _⟩ =>
    have hn : ((Rect.unit (s := S40960x128) (k0_off4 L k (BitVec.ofNat 32 r.val)) S128x128.size (k0_off4_inb L k r)).idx y (0 : Fin 2)).val
        = 2560 * (L 1).val + 1280 * (L 0).val + 256 * k.val + 128 * r.val + (y 0).val := by
      have o40 : k0_off4 L k (BitVec.ofNat 32 r.val) 0 = 2560 * (L 1).val + 1280 * (L 0).val + 256 * k.val + 128 * r.val := congrFun o4 0
      show k0_off4 L k (BitVec.ofNat 32 r.val) 0 + 1 * (y 0).val = _
      omega
    have key : (iRowM k r).view.read (Elt F) X (S128.rowMajor.symm (⟨(y 0).val, hy0⟩ : Fin S128.numel))
        = fi (ix3 (⟨((Rect.unit (s := S40960x128) (k0_off4 L k (BitVec.ofNat 32 r.val)) S128x128.size (k0_off4_inb L k r)).idx y (0 : Fin 2)).val / 1280, by omega⟩ : Fin 32)
            (⟨((Rect.unit (s := S40960x128) (k0_off4 L k (BitVec.ofNat 32 r.val)) S128x128.size (k0_off4_inb L k r)).idx y (0 : Fin 2)).val % 1280 / 128, by omega⟩ : Fin 10)
            (⟨((Rect.unit (s := S40960x128) (k0_off4 L k (BitVec.ofNat 32 r.val)) S128x128.size (k0_off4_inb L k r)).idx y (0 : Fin 2)).val % 128, by omega⟩ : Fin 128)) := by
      rw [hq, e3, hXr, e4]
      refine congrArg fi (funext fun b => Fin.ext ?_)
      match b with
      | ⟨0, _⟩ => show 2 * (L 1).val + (L 0).val = _ / 1280; rw [hn]; omega
      | ⟨1, _⟩ => show 2 * k.val + r.val = _ % 1280 / 128; rw [hn]; omega
      | ⟨2, _⟩ => show (y 0).val = _ % 128; rw [hn]; omega
    refine (congrArg Fin.val (Shape.Gathers.idx_axis gathers_S50000x128_S128x128 _ y)).trans ?_
    refine Eq.trans (b := ((iRowM k r).view.read (Elt F) X (S128.rowMajor.symm (⟨(y 0).val, hy0⟩ : Fin S128.numel))).toNat) rfl ?_
    exact congrArg BitVec.toNat key
  | ⟨1, _⟩ =>
    have o41 : k0_off4 L k (BitVec.ofNat 32 r.val) 1 = 0 := congrFun o4 1
    show (y 1).val = k0_off4 L k (BitVec.ofNat 32 r.val) 1 + 1 * (y 1).val
    omega

end Cert.Proof.KV.T0

end
-- ==== Proof.KVCanon1.lean ====
/-
  What a gather call's result array holds, chunk by chunk, as ONE function of the array index. A vector subcore's task at
  grid coordinates L reads block 2 L₁ + L₀ of the [32, 10, 128] row numbers into its scratch, and for k = 0 … 4, r = 0, 1
  gathers, for the 128 numbers of scratch row 2 k + r, the table rows they name into the 128-row chunk of the result at
  row 2560 L₁ + 1280 L₀ + 256 k + 128 r. Row p of that chunk is therefore the table's row number
  fi[2 L₁ + L₀, 2 k + r, p], and the chunk's row p is row n = 2560 L₁ + 1280 L₀ + 256 k + 128 r + p of the result, for which
  n / 1280 = 2 L₁ + L₀, (n mod 1280) / 128 = 2 k + r and n mod 128 = p: every chunk holds its part of the one array
  "row n is the table's row fi[n / 1280, (n mod 1280) / 128, n mod 128]".
-/
import proofs.«205068_g58248346468665_cont_9to1c4b_383_29_alg».proof.Proof.KVT1
import Idealize.ShloMosaic.Lib.ValueIdx
import Idealize.ShloMosaic.Lib.ValueLayout
import Idealize.ShloMosaic.Lib.Pipeline.Value

noncomputable section

namespace Cert.Proof.KV.T1

open Cert.KernelIdeal Cert.KernelIdeal.Gen Cert.Proof.KI
open Idealize.ShloMosaic Idealize.ShloMosaic.ValueIdx Idealize.SL.Sem

variable {F : FTy → Type} [FloatOps F]

/-- The result array of the call as one function of its index: row n is the table's row the n-th row number names. -/
def gcan (ft : (⟨S50000x128, .f32⟩ : BufTy).Contents (Elt F)) (fi : (⟨S32x10x128, .i32⟩ : BufTy).Contents (Elt F))
    (hfi : ∀ j, (fi j).toNat < 50000) : (⟨S40960x128, .f32⟩ : BufTy).Contents (Elt F) :=
  fun idx => ft (ix2 (⟨(fi (ix3 (⟨(idx 0).val / 1280, by have h : (idx 0).val < 40960 := (idx 0).isLt; omega⟩ : Fin 32)
      (⟨(idx 0).val % 1280 / 128, by omega⟩ : Fin 10) (⟨(idx 0).val % 128, by omega⟩ : Fin 128))).toNat, hfi _⟩ : Fin 50000) (idx 1 : Fin 128))

/-- A chunk that holds what its gather brought holds, at each of its elements, the one array: the chunk's row p is the
    table's row the scratch's entry (2 k + r, p) names; the scratch holds the task's block of the row numbers, so that
    entry is fi[2 L₁ + L₀, 2 k + r, p]; and the element's own row n = 2560 L₁ + 1280 L₀ + 256 k + 128 r + p has
    n / 1280 = 2 L₁ + L₀, (n mod 1280) / 128 = 2 k + r, n mod 128 = p. -/
theorem chunk_canon (d : Dev nD) (L : grid1.Coords) (ft : TBuf (F := F) d L) (fi : (⟨S32x10x128, .i32⟩ : BufTy).Contents (Elt F))
    (hfi : ∀ j, (fi j).toNat < 50000) (X : XBuf (F := F) d L)
    (hX : ∀ y, ((sI : Memref sig .scVector .vmem S10x128 .i32).view.read (Elt F) X y).toNat < 50000)
    (hXr : (sI : Memref sig .scVector .vmem S10x128 .i32).view.read (Elt F) X = (iBlk L).view.read (Elt F) fi)
    (k : Fin k1_t1_loop.trips) (r : Fin 2) (f : oBuf (F := F) d L) (h : ChunkOK d L ft X hX k r f) :
    ∀ idx ∈ (oCh L k r).view.set, f idx = gcan ft fi hfi idx := by
  intro idx hidx
  have hset : (oCh L k r).view.set
      = (Rect.unit (s := S40960x128) (k1_off4 L k (BitVec.ofNat 32 r.val)) S128x128.size (k1_off4_inb L k r)).set := by
    show ((oW : Memref sig .scVector .hbm S40960x128 .f32).view.slice _).set = _
    simp only [Memref.view_whole, View.set_slice_whole]
  rw [hset] at hidx
  obtain ⟨y, rfl⟩ := (Rect.unit (s := S40960x128) (k1_off4 L k (BitVec.ofNat 32 r.val)) S128x128.size (k1_off4_inb L k r)).exists_idx_of_mem hidx
  have e1 : f ((Rect.unit (s := S40960x128) (k1_off4 L k (BitVec.ofNat 32 r.val)) S128x128.size (k1_off4_inb L k r)).idx y)
      = (oCh L k r).view.read (Elt F) f y := rfl
  rw [e1, h]
  unfold gVal SparseCore.gatherPayload
  have e2 : ∀ z : S50000x128.Idx, (tWs).view.read (Elt F) ft z = ft (ix2 (z 0 : Fin 50000) (z 1 : Fin 128)) := by
    intro z
    show ft _ = ft _
    refine congrArg ft (funext fun a => Fin.ext ?_)
    match a with
    | ⟨0, _⟩ => show 0 + 1 * (z 0).val = (z 0).val; omega
    | ⟨1, _⟩ => show 0 + 1 * (z 1).val = (z 1).val; omega
  rw [e2]
  -- the row number the gather reads for chunk row y₀: entry (2 k + r, y₀) of the scratch
  have hy0 : (y 0).val < 128 := (y 0).isLt
  have hy1 : (y 1).val < 128 := (y 1).isLt
  have hk : k.val < 5 := Nat.lt_of_lt_of_eq k.isLt trips_eq
  have hr : r.val < 2 := r.isLt
  have hL0 : (L 0).val < 2 := (L 0).isLt
  have hL1 : (L 1).val < 16 := (L 1).isLt
  have o4 := k1_off4_eq L k r
  have o3 := k1_off3_eq k r
  have o1 := k1_off1_eq L
  have e3 : ∀ p : Fin 128, (iRowM k r).view.read (Elt F) X (ix1 p)
      = (sI : Memref sig .scVector .vmem S10x128 .i32).view.read (Elt F) X (ix2 (⟨2 * k.val + r.val, by omega⟩ : Fin 10) p) := by
    intro p
    refine (congrFun (Memref.read_squeeze_slice (sI : Memref sig .scVector .vmem S10x128 .i32) _ (fun _ => rfl) squeezes_S1x128_S128 (show S1x128.ShapeCasts S128 from by decide) X) (ix1 p)).trans ?_
    refine (shapeCast_1a_a_apply _ _ p).trans ?_
    show X _ = X _
    refine congrArg X (funext fun a => Fin.ext ?_)
    match a with
    | ⟨0, _⟩ => show k1_off3 k (BitVec.ofNat 32 r.val) 0 + 1 * 0 = 2 * k.val + r.val; rw [o3]; show 2 * k.val + r.val + 1 * 0 = _; omega
    | ⟨1, _⟩ => show k1_off3 k (BitVec.ofNat 32 r.val) 1 + 1 * p.val = p.val; rw [o3]; show 0 + 1 * p.val = _; omega
  have e4 : ∀ (a : Fin 10) (p : Fin 128), (iBlk L).view.read (Elt F) fi (ix2 a p)
      = fi (ix3 (⟨2 * (L 1).val + (L 0).val, by omega⟩ : Fin 32) a p) := by
    intro a p
    refine (congrFun (Memref.read_squeeze_slice (iW : Memref sig .scVector .hbm S32x10x128 .i32) _ (fun _ => rfl) squeezes_S1x10x128_S10x128 (show S1x10x128.ShapeCasts S10x128 from by decide) fi) (ix2 a p)).trans ?_
    refine (shapeCast_1ab_ab_apply _ _ a p).trans ?_
    show fi _ = fi _
    refine congrArg fi (funext fun b => Fin.ext ?_)
    match b with
    | ⟨0, _⟩ => show k1_off1 L 0 + 1 * 0 = 2 * (L 1).val + (L 0).val; rw [o1]; show 2 * (L 1).val + (L 0).val + 1 * 0 = _; omega
    | ⟨1, _⟩ => show k1_off1 L 1 + 1 * a.val = a.val; rw [o1]; show 0 + 1 * a.val = _; omega
    | ⟨2, _⟩ => show k1_off1 L 2 + 1 * p.val = p.val; rw [o1]; show 0 + 1 * p.val = _; omega
  have hq : ∀ c : Fin S128.numel, S128.rowMajor.symm c = ix1 (⟨c.val, c.isLt⟩ : Fin 128) := by
    intro c
    refine (Equiv.symm_apply_eq _).mpr (Fin.ext ?_)
    rw [Shape.rowMajor_val_one]
  unfold gcan
  refine congrArg ft (funext fun a => Fin.ext ?_)
  match a with
  | ⟨0, _⟩ =>
    have hn : ((Rect.unit (s := S40960x128) (k1_off4 L k (BitVec.ofNat 32 r.val)) S128x128.size (k1_off4_inb L k r)).idx y (0 : Fin 2)).val
        = 2560 * (L 1).val + 1280 * (L 0).val + 256 * k.val + 128 * r.val + (y 0).val := by
      have o40 : k1_off4 L k (BitVec.ofNat 32 r.val) 0 = 2560 * (L 1).val + 1280 * (L 0).val + 256 * k.val + 128 * r.val := congrFun o4 0
      show k1_off4 L k (BitVec.ofNat 32 r.val) 0 + 1 * (y 0).val = _
      omega
    have key : (iRowM k r).view.read (Elt F) X (S128.rowMajor.symm (⟨(y 0).val, hy0⟩ : Fin S128.numel))
        = fi (ix3 (⟨((Rect.unit (s := S40960x128) (k1_off4 L k (BitVec.ofNat 32 r.val)) S128x128.size (k1_off4_inb L k r)).idx y (0 : Fin 2)).val / 1280, by omega⟩ : Fin 32)
            (⟨((Rect.unit (s := S40960x128) (k1_off4 L k (BitVec.ofNat 32 r.val)) S128x128.size (k1_off4_inb L k r)).idx y (0 : Fin 2)).val % 1280 / 128, by omega⟩ : Fin 10)
            (⟨((Rect.unit (s := S40960x128) (k1_off4 L k (BitVec.ofNat 32 r.val)) S128x128.size (k1_off4_inb L k r)).idx y (0 : Fin 2)).val % 128, by omega⟩ : Fin 128)) := by
      rw [hq, e3, hXr, e4]
      refine congrArg fi (funext fun b => Fin.ext ?_)
      match b with
      | ⟨0, _⟩ => show 2 * (L 1).val + (L 0).val = _ / 1280; rw [hn]; omega
      | ⟨1, _⟩ => show 2 * k.val + r.val = _ % 1280 / 128; rw [hn]; omega
      | ⟨2, _⟩ => show (y 0).val = _ % 128; rw [hn]; omega
    refine (congrArg Fin.val (Shape.Gathers.idx_axis gathers_S50000x128_S128x128 _ y)).trans ?_
    refine Eq.trans (b := ((iRowM k r).view.read (Elt F) X (S128.rowMajor.symm (⟨(y 0).val, hy0⟩ : Fin S128.numel))).toNat) rfl ?_
    exact congrArg BitVec.toNat key
  | ⟨1, _⟩ =>
    have o41 : k1_off4 L k (BitVec.ofNat 32 r.val) 1 = 0 := congrFun o4 1
    show (y 1).val = k1_off4 L k (BitVec.ofNat 32 r.val) 1 + 1 * (y 1).val
    omega

end Cert.Proof.KV.T1

end
-- ==== Proof.KVCanon2.lean ====
/-
  What a gather call's result array holds, chunk by chunk, as ONE function of the array index. A vector subcore's task at
  grid coordinates L reads block 2 L₁ + L₀ of the [32, 10, 128] row numbers into its scratch, and for k = 0 … 4, r = 0, 1
  gathers, for the 128 numbers of scratch row 2 k + r, the table rows they name into the 128-row chunk of the result at
  row 2560 L₁ + 1280 L₀ + 256 k + 128 r. Row p of that chunk is therefore the table's row number
  fi[2 L₁ + L₀, 2 k + r, p], and the chunk's row p is row n = 2560 L₁ + 1280 L₀ + 256 k + 128 r + p of the result, for which
  n / 1280 = 2 L₁ + L₀, (n mod 1280) / 128 = 2 k + r and n mod 128 = p: every chunk holds its part of the one array
  "row n is the table's row fi[n / 1280, (n mod 1280) / 128, n mod 128]".
-/
import proofs.«205068_g58248346468665_cont_9to1c4b_383_29_alg».proof.Proof.KVT2
import Idealize.ShloMosaic.Lib.ValueIdx
import Idealize.ShloMosaic.Lib.ValueLayout
import Idealize.ShloMosaic.Lib.Pipeline.Value

noncomputable section

namespace Cert.Proof.KV.T2

open Cert.KernelIdeal Cert.KernelIdeal.Gen Cert.Proof.KI
open Idealize.ShloMosaic Idealize.ShloMosaic.ValueIdx Idealize.SL.Sem

variable {F : FTy → Type} [FloatOps F]

/-- The result array of the call as one function of its index: row n is the table's row the n-th row number names. -/
def gcan (ft : (⟨S50000x128, .f32⟩ : BufTy).Contents (Elt F)) (fi : (⟨S32x10x128, .i32⟩ : BufTy).Contents (Elt F))
    (hfi : ∀ j, (fi j).toNat < 50000) : (⟨S40960x128, .f32⟩ : BufTy).Contents (Elt F) :=
  fun idx => ft (ix2 (⟨(fi (ix3 (⟨(idx 0).val / 1280, by have h : (idx 0).val < 40960 := (idx 0).isLt; omega⟩ : Fin 32)
      (⟨(idx 0).val % 1280 / 128, by omega⟩ : Fin 10) (⟨(idx 0).val % 128, by omega⟩ : Fin 128))).toNat, hfi _⟩ : Fin 50000) (idx 1 : Fin 128))

/-- A chunk that holds what its gather brought holds, at each of its elements, the one array: the chunk's row p is the
    table's row the scratch's entry (2 k + r, p) names; the scratch holds the task's block of the row numbers, so that
    entry is fi[2 L₁ + L₀, 2 k + r, p]; and the element's own row n = 2560 L₁ + 1280 L₀ + 256 k + 128 r + p has
    n / 1280 = 2 L₁ + L₀, (n mod 1280) / 128 = 2 k + r, n mod 128 = p. -/
theorem chunk_canon (d : Dev nD) (L : grid2.Coords) (ft : TBuf (F := F) d L) (fi : (⟨S32x10x128, .i32⟩ : BufTy).Contents (Elt F))
    (hfi : ∀ j, (fi j).toNat < 50000) (X : XBuf (F := F) d L)
    (hX : ∀ y, ((sI : Memref sig .scVector .vmem S10x128 .i32).view.read (Elt F) X y).toNat < 50000)
    (hXr : (sI : Memref sig .scVector .vmem S10x128 .i32).view.read (Elt F) X = (iBlk L).view.read (Elt F) fi)
    (k : Fin k2_t1_loop.trips) (r : Fin 2) (f : oBuf (F := F) d L) (h : ChunkOK d L ft X hX k r f) :
    ∀ idx ∈ (oCh L k r).view.set, f idx = gcan ft fi hfi idx := by
  intro idx hidx
  have hset : (oCh L k r).view.set
      = (Rect.unit (s := S40960x128) (k2_off4 L k (BitVec.ofNat 32 r.val)) S128x128.size (k2_off4_inb L k r)).set := by
    show ((oW : Memref sig .scVector .hbm S40960x128 .f32).view.slice _).set = _
    simp only [Memref.view_whole, View.set_slice_whole]
  rw [hset] at hidx
  obtain ⟨y, rfl⟩ := (Rect.unit (s := S40960x128) (k2_off4 L k (BitVec.ofNat 32 r.val)) S128x128.size (k2_off4_inb L k r)).exists_idx_of_mem hidx
  have e1 : f ((Rect.unit (s := S40960x128) (k2_off4 L k (BitVec.ofNat 32 r.val)) S128x128.size (k2_off4_inb L k r)).idx y)
      = (oCh L k r).view.read (Elt F) f y := rfl
  rw [e1, h]
  unfold gVal SparseCore.gatherPayload
  have e2 : ∀ z : S50000x128.Idx, (tWs).view.read (Elt F) ft z = ft (ix2 (z 0 : Fin 50000) (z 1 : Fin 128)) := by
    intro z
    show ft _ = ft _
    refine congrArg ft (funext fun a => Fin.ext ?_)
    match a with
    | ⟨0, _⟩ => show 0 + 1 * (z 0).val = (z 0).val; omega
    | ⟨1, _⟩ => show 0 + 1 * (z 1).val = (z 1).val; omega
  rw [e2]
  -- the row number the gather reads for chunk row y₀: entry (2 k + r, y₀) of the scratch
  have hy0 : (y 0).val < 128 := (y 0).isLt
  have hy1 : (y 1).val < 128 := (y 1).isLt
  have hk : k.val < 5 := Nat.lt_of_lt_of_eq k.isLt trips_eq
  have hr : r.val < 2 := r.isLt
  have hL0 : (L 0).val < 2 := (L 0).isLt
  have hL1 : (L 1).val < 16 := (L 1).isLt
  have o4 := k2_off4_eq L k r
  have o3 := k2_off3_eq k r
  have o1 := k2_off1_eq L
  have e3 : ∀ p : Fin 128, (iRowM k r).view.read (Elt F) X (ix1 p)
      = (sI : Memref sig .scVector .vmem S10x128 .i32).view.read (Elt F) X (ix2 (⟨2 * k.val + r.val, by omega⟩ : Fin 10) p) := by
    intro p
    refine (congrFun (Memref.read_squeeze_slice (sI : Memref sig .scVector .vmem S10x128 .i32) _ (fun _ => rfl) squeezes_S1x128_S128 (show S1x128.ShapeCasts S128 from by decide) X) (ix1 p)).trans ?_
    refine (shapeCast_1a_a_apply _ _ p).trans ?_
    show X _ = X _
    refine congrArg X (funext fun a => Fin.ext ?_)
    match a with
    | ⟨0, _⟩ => show k2_off3 k (BitVec.ofNat 32 r.val) 0 + 1 * 0 = 2 * k.val + r.val; rw [o3]; show 2 * k.val + r.val + 1 * 0 = _; omega
    | ⟨1, _⟩ => show k2_off3 k (BitVec.ofNat 32 r.val) 1 + 1 * p.val = p.val; rw [o3]; show 0 + 1 * p.val = _; omega
  have e4 : ∀ (a : Fin 10) (p : Fin 128), (iBlk L).view.read (Elt F) fi (ix2 a p)
      = fi (ix3 (⟨2 * (L 1).val + (L 0).val, by omega⟩ : Fin 32) a p) := by
    intro a p
    refine (congrFun (Memref.read_squeeze_slice (iW : Memref sig .scVector .hbm S32x10x128 .i32) _ (fun _ => rfl) squeezes_S1x10x128_S10x128 (show S1x10x128.ShapeCasts S10x128 from by decide) fi) (ix2 a p)).trans ?_
    refine (shapeCast_1ab_ab_apply _ _ a p).trans ?_
    show fi _ = fi _
    refine congrArg fi (funext fun b => Fin.ext ?_)
    match b with
    | ⟨0, _⟩ => show k2_off1 L 0 + 1 * 0 = 2 * (L 1).val + (L 0).val; rw [o1]; show 2 * (L 1).val + (L 0).val + 1 * 0 = _; omega
    | ⟨1, _⟩ => show k2_off1 L 1 + 1 * a.val = a.val; rw [o1]; show 0 + 1 * a.val = _; omega
    | ⟨2, _⟩ => show k2_off1 L 2 + 1 * p.val = p.val; rw [o1]; show 0 + 1 * p.val = _; omega
  have hq : ∀ c : Fin S128.numel, S128.rowMajor.symm c = ix1 (⟨c.val, c.isLt⟩ : Fin 128) := by
    intro c
    refine (Equiv.symm_apply_eq _).mpr (Fin.ext ?_)
    rw [Shape.rowMajor_val_one]
  unfold gcan
  refine congrArg ft (funext fun a => Fin.ext ?_)
  match a with
  | ⟨0, _⟩ =>
    have hn : ((Rect.unit (s := S40960x128) (k2_off4 L k (BitVec.ofNat 32 r.val)) S128x128.size (k2_off4_inb L k r)).idx y (0 : Fin 2)).val
        = 2560 * (L 1).val + 1280 * (L 0).val + 256 * k.val + 128 * r.val + (y 0).val := by
      have o40 : k2_off4 L k (BitVec.ofNat 32 r.val) 0 = 2560 * (L 1).val + 1280 * (L 0).val + 256 * k.val + 128 * r.val := congrFun o4 0
      show k2_off4 L k (BitVec.ofNat 32 r.val) 0 + 1 * (y 0).val = _
      omega
    have key : (iRowM k r).view.read (Elt F) X (S128.rowMajor.symm (⟨(y 0).val, hy0⟩ : Fin S128.numel))
        = fi (ix3 (⟨((Rect.unit (s := S40960x128) (k2_off4 L k (BitVec.ofNat 32 r.val)) S128x128.size (k2_off4_inb L k r)).idx y (0 : Fin 2)).val / 1280, by omega⟩ : Fin 32)
            (⟨((Rect.unit (s := S40960x128) (k2_off4 L k (BitVec.ofNat 32 r.val)) S128x128.size (k2_off4_inb L k r)).idx y (0 : Fin 2)).val % 1280 / 128, by omega⟩ : Fin 10)
            (⟨((Rect.unit (s := S40960x128) (k2_off4 L k (BitVec.ofNat 32 r.val)) S128x128.size (k2_off4_inb L k r)).idx y (0 : Fin 2)).val % 128, by omega⟩ : Fin 128)) := by
      rw [hq, e3, hXr, e4]
      refine congrArg fi (funext fun b => Fin.ext ?_)
      match b with
      | ⟨0, _⟩ => show 2 * (L 1).val + (L 0).val = _ / 1280; rw [hn]; omega
      | ⟨1, _⟩ => show 2 * k.val + r.val = _ % 1280 / 128; rw [hn]; omega
      | ⟨2, _⟩ => show (y 0).val = _ % 128; rw [hn]; omega
    refine (congrArg Fin.val (Shape.Gathers.idx_axis gathers_S50000x128_S128x128 _ y)).trans ?_
    refine Eq.trans (b := ((iRowM k r).view.read (Elt F) X (S128.rowMajor.symm (⟨(y 0).val, hy0⟩ : Fin S128.numel))).toNat) rfl ?_
    exact congrArg BitVec.toNat key
  | ⟨1, _⟩ =>
    have o41 : k2_off4 L k (BitVec.ofNat 32 r.val) 1 = 0 := congrFun o4 1
    show (y 1).val = k2_off4 L k (BitVec.ofNat 32 r.val) 1 + 1 * (y 1).val
    omega

end Cert.Proof.KV.T2

end
-- ==== Proof.KVCanon3.lean ====
/-
  What a gather call's result array holds, chunk by chunk, as ONE function of the array index. A vector subcore's task at
  grid coordinates L reads block 2 L₁ + L₀ of the [32, 10, 128] row numbers into its scratch, and for k = 0 … 4, r = 0, 1
  gathers, for the 128 numbers of scratch row 2 k + r, the table rows they name into the 128-row chunk of the result at
  row 2560 L₁ + 1280 L₀ + 256 k + 128 r. Row p of that chunk is therefore the table's row number
  fi[2 L₁ + L₀, 2 k + r, p], and the chunk's row p is row n = 2560 L₁ + 1280 L₀ + 256 k + 128 r + p of the result, for which
  n / 1280 = 2 L₁ + L₀, (n mod 1280) / 128 = 2 k + r and n mod 128 = p: every chunk holds its part of the one array
  "row n is the table's row fi[n / 1280, (n mod 1280) / 128, n mod 128]".
-/
import proofs.«205068_g58248346468665_cont_9to1c4b_383_29_alg».proof.Proof.KVT3
import Idealize.ShloMosaic.Lib.ValueIdx
import Idealize.ShloMosaic.Lib.ValueLayout
import Idealize.ShloMosaic.Lib.Pipeline.Value

noncomputable section

namespace Cert.Proof.KV.T3

open Cert.KernelIdeal Cert.KernelIdeal.Gen Cert.Proof.KI
open Idealize.ShloMosaic Idealize.ShloMosaic.ValueIdx Idealize.SL.Sem

variable {F : FTy → Type} [FloatOps F]

/-- The result array of the call as one function of its index: row n is the table's row the n-th row number names. -/
def gcan (ft : (⟨S50000x128, .f32⟩ : BufTy).Contents (Elt F)) (fi : (⟨S32x10x128, .i32⟩ : BufTy).Contents (Elt F))
    (hfi : ∀ j, (fi j).toNat < 50000) : (⟨S40960x128, .f32⟩ : BufTy).Contents (Elt F) :=
  fun idx => ft (ix2 (⟨(fi (ix3 (⟨(idx 0).val / 1280, by have h : (idx 0).val < 40960 := (idx 0).isLt; omega⟩ : Fin 32)
      (⟨(idx 0).val % 1280 / 128, by omega⟩ : Fin 10) (⟨(idx 0).val % 128, by omega⟩ : Fin 128))).toNat, hfi _⟩ : Fin 50000) (idx 1 : Fin 128))

/-- A chunk that holds what its gather brought holds, at each of its elements, the one array: the chunk's row p is the
    table's row the scratch's entry (2 k + r, p) names; the scratch holds the task's block of the row numbers, so that
    entry is fi[2 L₁ + L₀, 2 k + r, p]; and the element's own row n = 2560 L₁ + 1280 L₀ + 256 k + 128 r + p has
    n / 1280 = 2 L₁ + L₀, (n mod 1280) / 128 = 2 k + r, n mod 128 = p. -/
theorem chunk_canon (d : Dev nD) (L : grid3.Coords) (ft : TBuf (F := F) d L) (fi : (⟨S32x10x128, .i32⟩ : BufTy).Contents (Elt F))
    (hfi : ∀ j, (fi j).toNat < 50000) (X : XBuf (F := F) d L)
    (hX : ∀ y, ((sI : Memref sig .scVector .vmem S10x128 .i32).view.read (Elt F) X y).toNat < 50000)
    (hXr : (sI : Memref sig .scVector .vmem S10x128 .i32).view.read (Elt F) X = (iBlk L).view.read (Elt F) fi)
    (k : Fin k3_t1_loop.trips) (r : Fin 2) (f : oBuf (F := F) d L) (h : ChunkOK d L ft X hX k r f) :
    ∀ idx ∈ (oCh L k r).view.set, f idx = gcan ft fi hfi idx := by
  intro idx hidx
  have hset : (oCh L k r).view.set
      = (Rect.unit (s := S40960x128) (k3_off4 L k (BitVec.ofNat 32 r.val)) S128x128.size (k3_off4_inb L k r)).set := by
    show ((oW : Memref sig .scVector .hbm S40960x128 .f32).view.slice _).set = _
    simp only [Memref.view_whole, View.set_slice_whole]
  rw [hset] at hidx
  obtain ⟨y, rfl⟩ := (Rect.unit (s := S40960x128) (k3_off4 L k (BitVec.ofNat 32 r.val)) S128x128.size (k3_off4_inb L k r)).exists_idx_of_mem hidx
  have e1 : f ((Rect.unit (s := S40960x128) (k3_off4 L k (BitVec.ofNat 32 r.val)) S128x128.size (k3_off4_inb L k r)).idx y)
      = (oCh L k r).view.read (Elt F) f y := rfl
  rw [e1, h]
  unfold gVal SparseCore.gatherPayload
  have e2 : ∀ z : S50000x128.Idx, (tWs).view.read (Elt F) ft z = ft (ix2 (z 0 : Fin 50000) (z 1 : Fin 128)) := by
    intro z
    show ft _ = ft _
    refine congrArg ft (funext fun a => Fin.ext ?_)
    match a with
    | ⟨0, _⟩ => show 0 + 1 * (z 0).val = (z 0).val; omega
    | ⟨1, _⟩ => show 0 + 1 * (z 1).val = (z 1).val; omega
  rw [e2]
  -- the row number the gather reads for chunk row y₀: entry (2 k + r, y₀) of the scratch
  have hy0 : (y 0).val < 128 := (y 0).isLt
  have hy1 : (y 1).val < 128 := (y 1).isLt
  have hk : k.val < 5 := Nat.lt_of_lt_of_eq k.isLt trips_eq
  have hr : r.val < 2 := r.isLt
  have hL0 : (L 0).val < 2 := (L 0).isLt
  have hL1 : (L 1).val < 16 := (L 1).isLt
  have o4 := k3_off4_eq L k r
  have o3 := k3_off3_eq k r
  have o1 := k3_off1_eq L
  have e3 : ∀ p : Fin 128, (iRowM k r).view.read (Elt F) X (ix1 p)
      = (sI : Memref sig .scVector .vmem S10x128 .i32).view.read (Elt F) X (ix2 (⟨2 * k.val + r.val, by omega⟩ : Fin 10) p) := by
    intro p
    refine (congrFun (Memref.read_squeeze_slice (sI : Memref sig .scVector .vmem S10x128 .i32) _ (fun _ => rfl) squeezes_S1x128_S128 (show S1x128.ShapeCasts S128 from by decide) X) (ix1 p)).trans ?_
    refine (shapeCast_1a_a_apply _ _ p).trans ?_
    show X _ = X _
    refine congrArg X (funext fun a => Fin.ext ?_)
    match a with
    | ⟨0, _⟩ => show k3_off3 k (BitVec.ofNat 32 r.val) 0 + 1 * 0 = 2 * k.val + r.val; rw [o3]; show 2 * k.val + r.val + 1 * 0 = _; omega
    | ⟨1, _⟩ => show k3_off3 k (BitVec.ofNat 32 r.val) 1 + 1 * p.val = p.val; rw [o3]; show 0 + 1 * p.val = _; omega
  have e4 : ∀ (a : Fin 10) (p : Fin 128), (iBlk L).view.read (Elt F) fi (ix2 a p)
      = fi (ix3 (⟨2 * (L 1).val + (L 0).val, by omega⟩ : Fin 32) a p) := by
    intro a p
    refine (congrFun (Memref.read_squeeze_slice (iW : Memref sig .scVector .hbm S32x10x128 .i32) _ (fun _ => rfl) squeezes_S1x10x128_S10x128 (show S1x10x128.ShapeCasts S10x128 from by decide) fi) (ix2 a p)).trans ?_
    refine (shapeCast_1ab_ab_apply _ _ a p).trans ?_
    show fi _ = fi _
    refine congrArg fi (funext fun b => Fin.ext ?_)
    match b with
    | ⟨0, _⟩ => show k3_off1 L 0 + 1 * 0 = 2 * (L 1).val + (L 0).val; rw [o1]; show 2 * (L 1).val + (L 0).val + 1 * 0 = _; omega
    | ⟨1, _⟩ => show k3_off1 L 1 + 1 * a.val = a.val; rw [o1]; show 0 + 1 * a.val = _; omega
    | ⟨2, _⟩ => show k3_off1 L 2 + 1 * p.val = p.val; rw [o1]; show 0 + 1 * p.val = _; omega
  have hq : ∀ c : Fin S128.numel, S128.rowMajor.symm c = ix1 (⟨c.val, c.isLt⟩ : Fin 128) := by
    intro c
    refine (Equiv.symm_apply_eq _).mpr (Fin.ext ?_)
    rw [Shape.rowMajor_val_one]
  unfold gcan
  refine congrArg ft (funext fun a => Fin.ext ?_)
  match a with
  | ⟨0, _⟩ =>
    have hn : ((Rect.unit (s := S40960x128) (k3_off4 L k (BitVec.ofNat 32 r.val)) S128x128.size (k3_off4_inb L k r)).idx y (0 : Fin 2)).val
        = 2560 * (L 1).val + 1280 * (L 0).val + 256 * k.val + 128 * r.val + (y 0).val := by
      have o40 : k3_off4 L k (BitVec.ofNat 32 r.val) 0 = 2560 * (L 1).val + 1280 * (L 0).val + 256 * k.val + 128 * r.val := congrFun o4 0
      show k3_off4 L k (BitVec.ofNat 32 r.val) 0 + 1 * (y 0).val = _
      omega
    have key : (iRowM k r).view.read (Elt F) X (S128.rowMajor.symm (⟨(y 0).val, hy0⟩ : Fin S128.numel))
        = fi (ix3 (⟨((Rect.unit (s := S40960x128) (k3_off4 L k (BitVec.ofNat 32 r.val)) S128x128.size (k3_off4_inb L k r)).idx y (0 : Fin 2)).val / 1280, by omega⟩ : Fin 32)
            (⟨((Rect.unit (s := S40960x128) (k3_off4 L k (BitVec.ofNat 32 r.val)) S128x128.size (k3_off4_inb L k r)).idx y (0 : Fin 2)).val % 1280 / 128, by omega⟩ : Fin 10)
            (⟨((Rect.unit (s := S40960x128) (k3_off4 L k (BitVec.ofNat 32 r.val)) S128x128.size (k3_off4_inb L k r)).idx y (0 : Fin 2)).val % 128, by omega⟩ : Fin 128)) := by
      rw [hq, e3, hXr, e4]
      refine congrArg fi (funext fun b => Fin.ext ?_)
      match b with
      | ⟨0, _⟩ => show 2 * (L 1).val + (L 0).val = _ / 1280; rw [hn]; omega
      | ⟨1, _⟩ => show 2 * k.val + r.val = _ % 1280 / 128; rw [hn]; omega
      | ⟨2, _⟩ => show (y 0).val = _ % 128; rw [hn]; omega
    refine (congrArg Fin.val (Shape.Gathers.idx_axis gathers_S50000x128_S128x128 _ y)).trans ?_
    refine Eq.trans (b := ((iRowM k r).view.read (Elt F) X (S128.rowMajor.symm (⟨(y 0).val, hy0⟩ : Fin S128.numel))).toNat) rfl ?_
    exact congrArg BitVec.toNat key
  | ⟨1, _⟩ =>
    have o41 : k3_off4 L k (BitVec.ofNat 32 r.val) 1 = 0 := congrFun o4 1
    show (y 1).val = k3_off4 L k (BitVec.ofNat 32 r.val) 1 + 1 * (y 1).val
    omega

end Cert.Proof.KV.T3

end
-- ==== Proof.KVCanon4.lean ====
/-
  What a gather call's result array holds, chunk by chunk, as ONE function of the array index. A vector subcore's task at
  grid coordinates L reads block 2 L₁ + L₀ of the [32, 10, 128] row numbers into its scratch, and for k = 0 … 4, r = 0, 1
  gathers, for the 128 numbers of scratch row 2 k + r, the table rows they name into the 128-row chunk of the result at
  row 2560 L₁ + 1280 L₀ + 256 k + 128 r. Row p of that chunk is therefore the table's row number
  fi[2 L₁ + L₀, 2 k + r, p], and the chunk's row p is row n = 2560 L₁ + 1280 L₀ + 256 k + 128 r + p of the result, for which
  n / 1280 = 2 L₁ + L₀, (n mod 1280) / 128 = 2 k + r and n mod 128 = p: every chunk holds its part of the one array
  "row n is the table's row fi[n / 1280, (n mod 1280) / 128, n mod 128]".
-/
import proofs.«205068_g58248346468665_cont_9to1c4b_383_29_alg».proof.Proof.KVT4
import Idealize.ShloMosaic.Lib.ValueIdx
import Idealize.ShloMosaic.Lib.ValueLayout
import Idealize.ShloMosaic.Lib.Pipeline.Value

noncomputable section

namespace Cert.Proof.KV.T4

open Cert.KernelIdeal Cert.KernelIdeal.Gen Cert.Proof.KI
open Idealize.ShloMosaic Idealize.ShloMosaic.ValueIdx Idealize.SL.Sem

variable {F : FTy → Type} [FloatOps F]

/-- The result array of the call as one function of its index: row n is the table's row the n-th row number names. -/
def gcan (ft : (⟨S50000x128, .f32⟩ : BufTy).Contents (Elt F)) (fi : (⟨S32x10x128, .i32⟩ : BufTy).Contents (Elt F))
    (hfi : ∀ j, (fi j).toNat < 50000) : (⟨S40960x128, .f32⟩ : BufTy).Contents (Elt F) :=
  fun idx => ft (ix2 (⟨(fi (ix3 (⟨(idx 0).val / 1280, by have h : (idx 0).val < 40960 := (idx 0).isLt; omega⟩ : Fin 32)
      (⟨(idx 0).val % 1280 / 128, by omega⟩ : Fin 10) (⟨(idx 0).val % 128, by omega⟩ : Fin 128))).toNat, hfi _⟩ : Fin 50000) (idx 1 : Fin 128))

/-- A chunk that holds what its gather brought holds, at each of its elements, the one array: the chunk's row p is the
    table's row the scratch's entry (2 k + r, p) names; the scratch holds the task's block of the row numbers, so that
    entry is fi[2 L₁ + L₀, 2 k + r, p]; and the element's own row n = 2560 L₁ + 1280 L₀ + 256 k + 128 r + p has
    n / 1280 = 2 L₁ + L₀, (n mod 1280) / 128 = 2 k + r, n mod 128 = p. -/
theorem chunk_canon (d : Dev nD) (L : grid4.Coords) (ft : TBuf (F := F) d L) (fi : (⟨S32x10x128, .i32⟩ : BufTy).Contents (Elt F))
    (hfi : ∀ j, (fi j).toNat < 50000) (X : XBuf (F := F) d L)
    (hX : ∀ y, ((sI : Memref sig .scVector .vmem S10x128 .i32).view.read (Elt F) X y).toNat < 50000)
    (hXr : (sI : Memref sig .scVector .vmem S10x128 .i32).view.read (Elt F) X = (iBlk L).view.read (Elt F) fi)
    (k : Fin k4_t1_loop.trips) (r : Fin 2) (f : oBuf (F := F) d L) (h : ChunkOK d L ft X hX k r f) :
    ∀ idx ∈ (oCh L k r).view.set, f idx = gcan ft fi hfi idx := by
  intro idx hidx
  have hset : (oCh L k r).view.set
      = (Rect.unit (s := S40960x128) (k4_off4 L k (BitVec.ofNat 32 r.val)) S128x128.size (k4_off4_inb L k r)).set := by
    show ((oW : Memref sig .scVector .hbm S40960x128 .f32).view.slice _).set = _
    simp only [Memref.view_whole, View.set_slice_whole]
  rw [hset] at hidx
  obtain ⟨y, rfl⟩ := (Rect.unit (s := S40960x128) (k4_off4 L k (BitVec.ofNat 32 r.val)) S128x128.size (k4_off4_inb L k r)).exists_idx_of_mem hidx
  have e1 : f ((Rect.unit (s := S40960x128) (k4_off4 L k (BitVec.ofNat 32 r.val)) S128x128.size (k4_off4_inb L k r)).idx y)
      = (oCh L k r).view.read (Elt F) f y := rfl
  rw [e1, h]
  unfold gVal SparseCore.gatherPayload
  have e2 : ∀ z : S50000x128.Idx, (tWs).view.read (Elt F) ft z = ft (ix2 (z 0 : Fin 50000) (z 1 : Fin 128)) := by
    intro z
    show ft _ = ft _
    refine congrArg ft (funext fun a => Fin.ext ?_)
    match a with
    | ⟨0, _⟩ => show 0 + 1 * (z 0).val = (z 0).val; omega
    | ⟨1, _⟩ => show 0 + 1 * (z 1).val = (z 1).val; omega
  rw [e2]
  -- the row number the gather reads for chunk row y₀: entry (2 k + r, y₀) of the scratch
  have hy0 : (y 0).val < 128 := (y 0).isLt
  have hy1 : (y 1).val < 128 := (y 1).isLt
  have hk : k.val < 5 := Nat.lt_of_lt_of_eq k.isLt trips_eq
  have hr : r.val < 2 := r.isLt
  have hL0 : (L 0).val < 2 := (L 0).isLt
  have hL1 : (L 1).val < 16 := (L 1).isLt
  have o4 := k4_off4_eq L k r
  have o3 := k4_off3_eq k r
  have o1 := k4_off1_eq L
  have e3 : ∀ p : Fin 128, (iRowM k r).view.read (Elt F) X (ix1 p)
      = (sI : Memref sig .scVector .vmem S10x128 .i32).view.read (Elt F) X (ix2 (⟨2 * k.val + r.val, by omega⟩ : Fin 10) p) := by
    intro p
    refine (congrFun (Memref.read_squeeze_slice (sI : Memref sig .scVector .vmem S10x128 .i32) _ (fun _ => rfl) squeezes_S1x128_S128 (show S1x128.ShapeCasts S128 from by decide) X) (ix1 p)).trans ?_
    refine (shapeCast_1a_a_apply _ _ p).trans ?_
    show X _ = X _
    refine congrArg X (funext fun a => Fin.ext ?_)
    match a with
    | ⟨0, _⟩ => show k4_off3 k (BitVec.ofNat 32 r.val) 0 + 1 * 0 = 2 * k.val + r.val; rw [o3]; show 2 * k.val + r.val + 1 * 0 = _; omega
    | ⟨1, _⟩ => show k4_off3 k (BitVec.ofNat 32 r.val) 1 + 1 * p.val = p.val; rw [o3]; show 0 + 1 * p.val = _; omega
  have e4 : ∀ (a : Fin 10) (p : Fin 128), (iBlk L).view.read (Elt F) fi (ix2 a p)
      = fi (ix3 (⟨2 * (L 1).val + (L 0).val, by omega⟩ : Fin 32) a p) := by
    intro a p
    refine (congrFun (Memref.read_squeeze_slice (iW : Memref sig .scVector .hbm S32x10x128 .i32) _ (fun _ => rfl) squeezes_S1x10x128_S10x128 (show S1x10x128.ShapeCasts S10x128 from by decide) fi) (ix2 a p)).trans ?_
    refine (shapeCast_1ab_ab_apply _ _ a p).trans ?_
    show fi _ = fi _
    refine congrArg fi (funext fun b => Fin.ext ?_)
    match b with
    | ⟨0, _⟩ => show k4_off1 L 0 + 1 * 0 = 2 * (L 1).val + (L 0).val; rw [o1]; show 2 * (L 1).val + (L 0).val + 1 * 0 = _; omega
    | ⟨1, _⟩ => show k4_off1 L 1 + 1 * a.val = a.val; rw [o1]; show 0 + 1 * a.val = _; omega
    | ⟨2, _⟩ => show k4_off1 L 2 + 1 * p.val = p.val; rw [o1]; show 0 + 1 * p.val = _; omega
  have hq : ∀ c : Fin S128.numel, S128.rowMajor.symm c = ix1 (⟨c.val, c.isLt⟩ : Fin 128) := by
    intro c
    refine (Equiv.symm_apply_eq _).mpr (Fin.ext ?_)
    rw [Shape.rowMajor_val_one]
  unfold gcan
  refine congrArg ft (funext fun a => Fin.ext ?_)
  match a with
  | ⟨0, _⟩ =>
    have hn : ((Rect.unit (s := S40960x128) (k4_off4 L k (BitVec.ofNat 32 r.val)) S128x128.size (k4_off4_inb L k r)).idx y (0 : Fin 2)).val
        = 2560 * (L 1).val + 1280 * (L 0).val + 256 * k.val + 128 * r.val + (y 0).val := by
      have o40 : k4_off4 L k (BitVec.ofNat 32 r.val) 0 = 2560 * (L 1).val + 1280 * (L 0).val + 256 * k.val + 128 * r.val := congrFun o4 0
      show k4_off4 L k (BitVec.ofNat 32 r.val) 0 + 1 * (y 0).val = _
      omega
    have key : (iRowM k r).view.read (Elt F) X (S128.rowMajor.symm (⟨(y 0).val, hy0⟩ : Fin S128.numel))
        = fi (ix3 (⟨((Rect.unit (s := S40960x128) (k4_off4 L k (BitVec.ofNat 32 r.val)) S128x128.size (k4_off4_inb L k r)).idx y (0 : Fin 2)).val / 1280, by omega⟩ : Fin 32)
            (⟨((Rect.unit (s := S40960x128) (k4_off4 L k (BitVec.ofNat 32 r.val)) S128x128.size (k4_off4_inb L k r)).idx y (0 : Fin 2)).val % 1280 / 128, by omega⟩ : Fin 10)
            (⟨((Rect.unit (s := S40960x128) (k4_off4 L k (BitVec.ofNat 32 r.val)) S128x128.size (k4_off4_inb L k r)).idx y (0 : Fin 2)).val % 128, by omega⟩ : Fin 128)) := by
      rw [hq, e3, hXr, e4]
      refine congrArg fi (funext fun b => Fin.ext ?_)
      match b with
      | ⟨0, _⟩ => show 2 * (L 1).val + (L 0).val = _ / 1280; rw [hn]; omega
      | ⟨1, _⟩ => show 2 * k.val + r.val = _ % 1280 / 128; rw [hn]; omega
      | ⟨2, _⟩ => show (y 0).val = _ % 128; rw [hn]; omega
    refine (congrArg Fin.val (Shape.Gathers.idx_axis gathers_S50000x128_S128x128 _ y)).trans ?_
    refine Eq.trans (b := ((iRowM k r).view.read (Elt F) X (S128.rowMajor.symm (⟨(y 0).val, hy0⟩ : Fin S128.numel))).toNat) rfl ?_
    exact congrArg BitVec.toNat key
  | ⟨1, _⟩ =>
    have o41 : k4_off4 L k (BitVec.ofNat 32 r.val) 1 = 0 := congrFun o4 1
    show (y 1).val = k4_off4 L k (BitVec.ofNat 32 r.val) 1 + 1 * (y 1).val
    omega

end Cert.Proof.KV.T4

end
-- ==== Proof.KIValue.lean ====
/-
  Three value facts, each read at one index.
  (a) The transposing call's body: of each gathered row pair (128 numbers, two table rows side by side) it keeps the half
      the row number's low bit names — the right half when the bit is one, the left half otherwise — and stores the kept
      halves transposed: the block's entry (0, dcol, b) is entry 64·bit + dcol of pair b.
  (b) The reference: when every row number lies in [0, 99999] the wrap of negative numbers changes nothing, the in-range
      mask is all ones, and the gather's clamp changes nothing, so entry (b, s, dcol) of the result is entry dcol of the
      table's row x[b, s].
  (c) The halving: the table [100000, 64] laid out as [50000, 128] holds row r of the table in row r / 2, columns
      64·(r mod 2) … 64·(r mod 2) + 63; for a word r in [0, 99999] the half is its arithmetic shift right by one and the
      parity its low bit.
-/
import proofs.«205068_g58248346468665_cont_9to1c4b_383_29_alg».proof.Proof.KIR5
import proofs.«205068_g58248346468665_cont_9to1c4b_383_29_alg».proof.Proof.RefRun
import proofs.«205068_g58248346468665_cont_9to1c4b_383_29_alg».proof.Proof.KIPre
import Idealize.ShloMosaic.Lib.ValueIdx
import Idealize.ShloMosaic.Lib.ValueLayout
import Idealize.ShloMosaic.Lib.Pipeline.Value
import Idealize.ShloMosaic.Lib.Pipeline.FrameBody

noncomputable section

namespace Cert.Proof.KI.Val

open Idealize.ShloMosaic Idealize.ShloMosaic.ValueIdx

variable {F : FTy → Type} [FloatOps F]

section Body
open Cert.KernelIdeal Cert.KernelIdeal.Gen

/-- The zero offsets of a rectangle over a whole buffer, as a function. -/
theorem hz2 : (![0, 0] : Fin 2 → Nat) = fun _ => 0 := by funext a; fin_cases a <;> rfl
theorem hz3 : (![0, 0, 0] : Fin 3 → Nat) = fun _ => 0 := by funext a; fin_cases a <;> rfl

/-- The block after the body is the body's one stored value: the loads read the whole inputs and the one store covers
    the whole block. -/
theorem outBlk_eq (x0 : Vec F S4096x128 .f32) (x1 : Vec F S1x1x4096 .i32) : R5.outBlk x0 x1 = k5_pay1 x0 x1 := by
  unfold R5.outBlk
  rw [View.canon_unit_zero hz3, View.ld_unit_zero hz2, View.ld_unit_zero hz3]

/-- The selection mask at (b, dcol): whether row number b's low bit is one — the mask is computed per row number as a
    column and broadcast along the row. -/
theorem mask_apply (x1 : Vec F S1x1x4096 .i32) (b : Fin 4096) (dcol : Fin 64) :
    broadcastTo S4096x64 (shapeCast S4096x1 (cmpi .eq (shapeCast S4096x1 (andi (shapeCast S4096 x1 shapeCasts_S1x1x4096_S4096) (broadcast S4096 1#32)) shapeCasts_S4096_S4096x1) (broadcast S4096x1 1#32)) shapeCasts_S4096x1_S4096x1) broadcasts_S4096x1_S4096x64 (ix2 b dcol)
      = IntOp.cmpi .eq (IntOp.andi (x1 (ix3 (0 : Fin 1) (0 : Fin 1) b)) 1#32) 1#32 := by
  refine (broadcastTo_apply _ _ (ix2 b dcol) (ix2 b (0 : Fin 1)) fun ax => ?_).trans ?_
  · match ax with
    | ⟨0, _⟩ => rfl
    | ⟨1, _⟩ => rfl
  rw [shapeCast_self]
  show IntOp.cmpi .eq (shapeCast S4096x1 (andi (shapeCast S4096 x1 shapeCasts_S1x1x4096_S4096) (broadcast S4096 1#32)) shapeCasts_S4096_S4096x1 (ix2 b (0 : Fin 1))) 1#32 = _
  congr 1
  refine (shapeCast_apply _ _ (ix2 b (0 : Fin 1)) (ix1 b) ?_).trans ?_
  · rw [Shape.rowMajor_val_one, Shape.rowMajor_val_two]
    show b.val = b.val * 1 + 0
    omega
  show IntOp.andi (shapeCast S4096 x1 shapeCasts_S1x1x4096_S4096 (ix1 b)) 1#32 = _
  congr 1
  refine shapeCast_apply _ _ (ix1 b) (ix3 (0 : Fin 1) (0 : Fin 1) b) ?_
  rw [Shape.rowMajor_val_one, Shape.rowMajor_val_three]
  show (0 * 1 + 0) * 4096 + b.val = b.val
  omega

/-- The stored value at (u, dcol, b): the reshape and the transpose read the selected halves at (b, dcol); the two halves
    are the columns from 64 on and from 0 on. -/
theorem pay_apply (x0 : Vec F S4096x128 .f32) (x1 : Vec F S1x1x4096 .i32) (u : Fin 1) (dcol : Fin 64) (b : Fin 4096) :
    k5_pay1 x0 x1 (ix3 u dcol b)
      = Scalar.select (IntOp.cmpi .eq (IntOp.andi (x1 (ix3 (0 : Fin 1) (0 : Fin 1) b)) 1#32) 1#32)
          (x0 (ix2 b ⟨64 + dcol.val, by omega⟩)) (x0 (ix2 b ⟨dcol.val, by omega⟩)) := by
  unfold k5_pay1
  refine (shapeCast_ab_1ab_apply _ _ u dcol b).trans ?_
  refine (transpose_ix2_apply _ _ dcol b).trans ?_
  rw [select_apply, mask_apply]
  congr 1
  · refine (extractStridedSlice_apply _ _ _ (ix2 b dcol) (ix2 b ⟨64 + dcol.val, by omega⟩) fun ax => ?_).trans ?_
    · match ax with
      | ⟨0, _⟩ => exact (Nat.zero_add _).symm
      | ⟨1, _⟩ => rfl
    rw [shapeCast_self]
  · refine (extractStridedSlice_apply _ _ _ (ix2 b dcol) (ix2 b ⟨dcol.val, by omega⟩) fun ax => ?_).trans ?_
    · match ax with
      | ⟨0, _⟩ => exact (Nat.zero_add _).symm
      | ⟨1, _⟩ => exact (Nat.zero_add _).symm
    rw [shapeCast_self]

/-- (a) The block after the transposing body, at (u, dcol, b): entry 64 + dcol of pair b when row number b's low bit
    is one, entry dcol otherwise. -/
theorem outBlk_apply (x0 : Vec F S4096x128 .f32) (x1 : Vec F S1x1x4096 .i32) (u : Fin 1) (dcol : Fin 64) (b : Fin 4096) :
    R5.outBlk x0 x1 (ix3 u dcol b)
      = if (x1 (ix3 (0 : Fin 1) (0 : Fin 1) b) &&& 1#32) = 1#32 then x0 (ix2 b ⟨64 + dcol.val, by omega⟩)
        else x0 (ix2 b ⟨dcol.val, by omega⟩) := by
  rw [outBlk_eq, pay_apply]
  unfold Scalar.select
  have key : (IntOp.cmpi .eq (IntOp.andi (x1 (ix3 (0 : Fin 1) (0 : Fin 1) b)) 1#32) 1#32 = 1)
      ↔ (x1 (ix3 (0 : Fin 1) (0 : Fin 1) b) &&& 1#32) = 1#32 := IntOp.cmpi_eq
  split <;> rename_i hc
  · rw [if_pos (key.mp hc)]
  · rw [if_neg (fun hh => hc (key.mpr hh))]

end Body

section Reference
open Cert.ReferenceIdeal Cert.ReferenceIdeal.Gen Cert.Proof.Ref

/-- A left fold by `and` that starts at one and meets only ones is one. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    rw [List.foldl_cons]
    exact foldl_andi_one f l _ (IntOp.andi_eq_one.mpr ⟨h, hl a List.mem_cons_self⟩) fun n hn => hl n (List.mem_cons_of_mem _ hn)

/-- A word in [0, 99999] read signed reads the same unsigned. -/
theorem toNat_of_range (r : BitVec 32) (h0 : 0 ≤ r.toInt) (h1 : r.toInt ≤ 99999) : r.toInt = r.toNat ∧ r.toNat ≤ 99999 := by
  have hm : r.msb = false := by
    rw [BitVec.msb_eq_false_iff_two_mul_lt]; exact BitVec.toInt_pos_iff.mp h0
  have e := BitVec.toInt_eq_toNat_of_msb hm
  exact ⟨e, by omega⟩

variable (x : (⟨S4096x50, .i32⟩ : BufTy).Contents (Elt F)) (hx : ∀ i, 0 ≤ (x i).toInt ∧ (x i).toInt ≤ 99999)
include hx

/-- No row number is negative: the wrap keeps every one. -/
theorem wrapped_eq : wrapped x = x := by
  funext i
  unfold wrapped
  rw [select_apply]
  have hc : cmpi .slt x (broadcastInDim S4096x50 ![] bcast_S_S4096x50 (constantI S_ 32 0#32)) i = 0#1 := by
    show IntOp.cmpi .slt (x i) 0#32 = 0#1
    refine eq_zero_of_ne_one fun h => ?_
    have h' := IntOp.cmpi_slt.mp h
    rw [show (0#32 : BitVec 32).toInt = 0 from by decide] at h'
    have := (hx i).1
    omega
  rw [hc, select_zero]

/-- The index vector at (b, s, ·) is row number x[b, s]. -/
theorem index_apply (j : S4096x50x1.Idx) : index x j = x (ix2 (j 0) (j 1)) := by
  unfold index
  rw [wrapped_eq x hx]
  refine broadcastInDim_apply _ _ _ j _ fun a => ?_
  match a with
  | ⟨0, _⟩ => rfl
  | ⟨1, _⟩ => rfl

/-- Every row number is a row of the table: the in-range mask is one everywhere. -/
theorem inRange_eq (k : S4096x50.Idx) : inRange x k = 1#1 := by
  unfold inRange
  rw [Host.reduce_eq_foldl]
  refine foldl_andi_one _ _ _ rfl fun i _ => ?_
  show IntOp.andi (IntOp.cmpi .sge (index x i) 0#32) (IntOp.cmpi .sle (index x i) 99999#32) = 1#1
  rw [index_apply x hx i]
  refine IntOp.andi_eq_one.mpr ⟨IntOp.cmpi_sge.mpr ?_, IntOp.cmpi_sle.mpr ?_⟩
  · rw [show (0#32 : BitVec 32).toInt = 0 from by decide]; exact (hx _).1
  · rw [show (99999#32 : BitVec 32).toInt = 99999 from by decide]; exact (hx _).2

omit hx in
/-- The gather read at (b, s, d): the table at the row the index vector at (b, s) names, read signed and clamped into
    [0, 99999], and column d (the start is zero on the column axis, whose offset is the result's last coordinate). -/
theorem gather_apply (w : (⟨S100000x64, .f32⟩ : BufTy).Contents (Elt F)) (idx : IVec S4096x50x1 32)
    (b : Fin 4096) (s : Fin 50) (d : Fin 64) :
    Host.gather gather_S100000x64_S4096x50x1_S4096x50x64_2_0_n_n_0_2_164 w idx (ix3 b s d)
      = w (ix2 ⟨min (idx (ix3 b s (0 : Fin 1))).toInt.toNat 99999, by omega⟩ d) := by
  unfold Host.gather
  refine congrArg w (funext fun a => Fin.ext ?_)
  show gather_S100000x64_S4096x50x1_S4096x50x64_2_0_n_n_0_2_164.start (ix3 b s d) idx a
      + gather_S100000x64_S4096x50x1_S4096x50x64_2_0_n_n_0_2_164.batchCoord (ix3 b s d) a
      + gather_S100000x64_S4096x50x1_S4096x50x64_2_0_n_n_0_2_164.offCoord (ix3 b s d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S100000x64.rank) ∈ gather_S100000x64_S4096x50x1_S4096x50x64_2_0_n_n_0_2_164.startIndexMap from List.mem_singleton.mpr rfl)]
    have hsi : gather_S100000x64_S4096x50x1_S4096x50x64_2_0_n_n_0_2_164.siIdx (ix3 b s d)
        ⟨List.idxOf (⟨0, by decide⟩ : Fin S100000x64.rank) gather_S100000x64_S4096x50x1_S4096x50x64_2_0_n_n_0_2_164.startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, h1⟩ =>
    have hn : (⟨1, h1⟩ : Fin S100000x64.rank) ∉ gather_S100000x64_S4096x50x1_S4096x50x64_2_0_n_n_0_2_164.startIndexMap :=
      fun h => by
        have e : (⟨1, h1⟩ : Fin S100000x64.rank) = (0 : Fin S100000x64.rank) := List.mem_singleton.mp h
        exact absurd (congrArg Fin.val e) Nat.one_ne_zero
    unfold GatherDims.start
    rw [dif_neg hn, Nat.zero_add]
    rfl

/-- (b) The reference's result at (b, s, d), for row numbers in [0, 99999]: the table's row x[b, s] at column d. -/
theorem out_apply (w : (⟨S100000x64, .f32⟩ : BufTy).Contents (Elt F)) (b : Fin 4096) (s : Fin 50) (d : Fin 64) :
    out x w (ix3 b s d)
      = w (ix2 ⟨(x (ix2 b s)).toNat, by have := (toNat_of_range _ (hx (ix2 b s)).1 (hx (ix2 b s)).2).2; omega⟩ d) := by
  unfold out
  rw [select_apply]
  have hm : broadcastInDim S4096x50x64 ![0, 1] bcast_S4096x50_S4096x50x64_0_1 (inRange x) (ix3 b s d) = 1#1 := by
    unfold broadcastInDim; exact inRange_eq x hx _
  rw [hm, select_one, gather_apply]
  have hr := toNat_of_range _ (hx (ix2 b s)).1 (hx (ix2 b s)).2
  refine congrArg w (funext fun a => ?_)
  match a with
  | ⟨0, _⟩ =>
    refine Fin.ext ?_
    show min (index x (ix3 b s (0 : Fin 1))).toInt.toNat 99999 = (x (ix2 b s)).toNat
    rw [index_apply x hx]
    show min (x (ix2 b s)).toInt.toNat 99999 = (x (ix2 b s)).toNat
    rw [hr.1, Int.toNat_natCast]
    exact Nat.min_eq_left hr.2
  | ⟨1, _⟩ => rfl

end Reference

section Halving
open Cert.KernelIdeal Cert.KernelIdeal.Gen

/-- A word in [0, 99999]: its arithmetic shift right by one is its half, its low bit its parity. -/
theorem half_facts (u : ArithUnit) (r : BitVec 32) (h0 : 0 ≤ r.toInt) (h1 : r.toInt ≤ 99999) :
    (IntOp.shrsi u r 1#32).toNat = r.toNat / 2 ∧ (r &&& 1#32).toNat = r.toNat % 2 ∧ r.toNat ≤ 99999 := by
  have hm : r.msb = false := by
    rw [BitVec.msb_eq_false_iff_two_mul_lt]; exact BitVec.toInt_pos_iff.mp h0
  have hn : r.toNat ≤ 99999 := by
    rw [BitVec.toInt_eq_toNat_of_msb hm] at h1; omega
  refine ⟨?_, ?_, hn⟩
  · unfold IntOp.shrsi
    rw [if_pos (by decide)]
    show (r.sshiftRight (1#32).toNat).toNat = r.toNat / 2
    rw [BitVec.sshiftRight_eq_of_msb_false hm, BitVec.toNat_ushiftRight]
    show r.toNat >>> 1 = r.toNat / 2
    rw [Nat.shiftRight_eq_div_pow]
  · rw [BitVec.toNat_and]
    show r.toNat &&& 1 = r.toNat % 2
    exact Nat.and_one_is_mod _

/-- (c) Row r of the table, in the [50000, 128] layout: row r / 2 (the arithmetic shift), columns from 64·(r mod 2)
    (the low bit). -/
theorem tblFn_apply (w : (⟨S100000x64, .f32⟩ : BufTy).Contents (Elt F)) (u : ArithUnit) (r : BitVec 32)
    (h0 : 0 ≤ r.toInt) (h1 : r.toInt ≤ 99999) (dcol : Fin 64) :
    Pre.tblFn w (ix2 ⟨(IntOp.shrsi u r 1#32).toNat, Pre.shr_lt u r h0 h1⟩
        ⟨64 * (r &&& 1#32).toNat + dcol.val, by have := (half_facts u r h0 h1).2.1; omega⟩)
      = w (ix2 ⟨r.toNat, by have := (half_facts u r h0 h1).2.2; omega⟩ dcol) := by
  obtain ⟨e1, e2, e3⟩ := half_facts u r h0 h1
  unfold Pre.tblFn
  refine shapeCast_apply _ _ _ _ ?_
  rw [Shape.rowMajor_val_two, Shape.rowMajor_val_two]
  show r.toNat * 64 + dcol.val = (IntOp.shrsi u r 1#32).toNat * 128 + (64 * (r &&& 1#32).toNat + dcol.val)
  rw [e1, e2]; omega

end Halving

end Cert.Proof.KI.Val

end
-- ==== Proof.KIArr.lean ====
/-
  Each transposing call's output array after its ten points, read at an index. Call p (p = 0 … 4) has three arrays: the
  gathered row pairs [40960, 128] (pair 4096 i + b is the pair for row number (i, b)), the row numbers [10, 1, 4096], and the
  growing result [50, 64, 4096]. Point t reads pair rows 4096 t … 4096 t + 4095 and row t of the row numbers, keeps of each
  pair the half the row number's low bit names, and writes the 64 × 4096 transpose as row 10 p + t of the result. The ten
  points' blocks are rows 10 p … 10 p + 9; what each point writes back is its block of ONE function of the array index, so
  after the ten points the array holds that function on those rows and what the call found on every other row.
-/
import proofs.«205068_g58248346468665_cont_9to1c4b_383_29_alg».proof.Proof.KITail
import proofs.«205068_g58248346468665_cont_9to1c4b_383_29_alg».proof.Proof.KIValue
import Idealize.ShloMosaic.Lib.ValueIdx
import Idealize.ShloMosaic.Lib.ValueLayout
import Idealize.ShloMosaic.Lib.Pipeline.Value
import Idealize.ShloMosaic.Lib.Pipeline.FrameBody

set_option maxRecDepth 16384

noncomputable section

namespace Cert.Proof.KI.Arr

open Cert.KernelIdeal Cert.KernelIdeal.Gen Cert.Proof.KI
open Idealize.ShloMosaic Idealize.ShloMosaic.TcCoe Idealize.ShloMosaic.ValueIdx Idealize.SL.Sem
open Idealize.ShloMosaic.Pipeline (Dat Cfg Window)

variable {F : FTy → Type} [FloatOps F]

variable (V : (c : Dev nD) → (b : Ref sig .tc) → Buf (Elt F) ((c : Thread nD τ).loc b))

/-! ## Transposing call 0 -/

/-- The call's three arrays as the region finds them: the gathered pairs, the row numbers, the growing result. -/
abbrev res5 (c : Dev nD) : S40960x128.Idx → Elt F .f32 := V c main_v6
abbrev idx5 (c : Dev nD) : S10x1x4096.Idx → BitVec 32 := V c main_v31
abbrev out5 (c : Dev nD) : S50x64x4096.Idx → Elt F .f32 := V c main_v32

/-- Row i of the ten the call writes, at (d, b): of pair 4096 i + b the half row number (i, b)'s low bit names, at d. -/
def row5 (c : Dev nD) (i : Fin 10) (d : Fin 64) (b : Fin 4096) : Elt F .f32 :=
  if (idx5 V c (ix3 i (0 : Fin 1) b) &&& 1#32) = 1#32
    then res5 V c (ix2 (⟨4096 * i.val + b.val, by omega⟩ : Fin 40960) (⟨64 + d.val, by omega⟩ : Fin 128))
    else res5 V c (ix2 (⟨4096 * i.val + b.val, by omega⟩ : Fin 40960) (⟨d.val, by omega⟩ : Fin 128))

/-- What the call's output array holds after its ten points: rows 0 … 9 (one per point) from the gathered
    pairs and the row numbers, every other row as the call found it. -/
def G5 (c : Dev nD) : S50x64x4096.Idx → Elt F .f32 := fun j =>
  if h : 0 ≤ (j 0).val ∧ (j 0).val < 10 then row5 V c ⟨(j 0).val - 0, by omega⟩ (j 1) (j 2)
  else out5 V c j

theorem G5_at (c : Dev nD) (i : Fin 10) (d : Fin 64) (b : Fin 4096) :
    G5 V c (ix3 (⟨i.val + 0, by omega⟩ : Fin 50) d b) = row5 V c i d b := by
  unfold G5
  rw [dif_pos (show 0 ≤ i.val + 0 ∧ i.val + 0 < 10 from by omega)]
  exact congrArg (fun k => row5 V c k d b) (Fin.ext (by show i.val + 0 - 0 = i.val; omega))

/-- The printed index maps over the grid: point t reads pair rows 4096 t …, row numbers t, and writes row t + 0. -/
theorem idx_facts5 : ∀ t : Fin cfg5.N, win5_0.index t (0 : Fin 2) = t.val ∧ win5_0.index t (1 : Fin 2) = 0
    ∧ win5_1.index t (0 : Fin 3) = t.val ∧ win5_1.index t (1 : Fin 3) = 0 ∧ win5_1.index t (2 : Fin 3) = 0
    ∧ win5_2.index t (0 : Fin 3) = t.val + 0 ∧ win5_2.index t (1 : Fin 3) = 0 ∧ win5_2.index t (2 : Fin 3) = 0 :=
  (by decide +kernel : ∀ t : Fin grid5.N, _)

theorem outBlk_eq5 (x0 : Vec F S4096x128 .f32) (x1 : Vec F S1x1x4096 .i32) : R5.outBlk x0 x1 = R5.outBlk x0 x1 := rfl

/-- Point t's block of gathered pairs, at (b, k): pair row 4096 t + b. -/
theorem iblk0_5 (c : Dev nD) (t : Fin 10) (b : Fin 4096) (k : Fin 128) :
    R5.iblk V c 0 t (ix2 b k) = res5 V c (ix2 (⟨4096 * t.val + b.val, by omega⟩ : Fin 40960) k) := by
  obtain ⟨e0, e1, -⟩ := idx_facts5 t
  show V c main_v6 (((cfg5.win 0).blk t).view.emb (ix2 b k)) = _
  refine congrArg (V c main_v6) (funext fun a => Fin.ext ?_)
  match a with
  | ⟨0, _⟩ => show win5_0.index t (0 : Fin 2) * 4096 + 1 * b.val = 4096 * t.val + b.val; omega
  | ⟨1, _⟩ => show win5_0.index t (1 : Fin 2) * 128 + 1 * k.val = k.val; omega

/-- Point t's block of row numbers, at (0, 0, b): row t of the row numbers. -/
theorem iblk1_5 (c : Dev nD) (t : Fin 10) (b : Fin 4096) :
    R5.iblk V c 1 t (ix3 (0 : Fin 1) (0 : Fin 1) b) = idx5 V c (ix3 t (0 : Fin 1) b) := by
  obtain ⟨-, -, e0, e1, e2, -⟩ := idx_facts5 t
  show V c main_v31 (((cfg5.win 1).blk t).view.emb (ix3 (0 : Fin 1) (0 : Fin 1) b)) = _
  refine congrArg (V c main_v31) (funext fun a => Fin.ext ?_)
  match a with
  | ⟨0, _⟩ => show win5_1.index t (0 : Fin 3) * 1 + 1 * 0 = t.val; omega
  | ⟨1, _⟩ => show win5_1.index t (1 : Fin 3) * 1 + 1 * 0 = 0; omega
  | ⟨2, _⟩ => show win5_1.index t (2 : Fin 3) * 4096 + 1 * b.val = b.val; omega

/-- The block point t computes, at (u, d, b), is row t of the ten. -/
theorem out_pt5 (c : Dev nD) (t : Fin 10) (u : Fin 1) (d : Fin 64) (b : Fin 4096) :
    R5.outBlk (R5.iblk V c 0 t) (R5.iblk V c 1 t) (ix3 u d b) = row5 V c t d b := by
  rw [outBlk_eq5, Val.outBlk_apply, iblk1_5, iblk0_5, iblk0_5]
  rfl

/-- WHAT POINT t WRITES BACK is its block of that array. -/
theorem flushed_eq5 (c : Dev nD) (t : Fin cfg5.N) :
    (R5.dat V c).flushed 2 t = ((cfg5.win 2).blk t).view.read (Elt F) (G5 V c) := by
  show (cfg5.win 2).cut (grid5.coords t) ((R5.dat V c).after 2 t) = _
  rw [R5.after_2]
  obtain ⟨-, -, -, -, -, e0, e1, e2⟩ := idx_facts5 t
  have ht : t.val < 10 := t.isLt
  funext j
  show R5.outBlk (R5.iblk V c 0 t) (R5.iblk V c 1 t) j = G5 V c (((cfg5.win 2).blk t).view.emb j)
  have h0 : (j 0).val < 1 := (j 0).isLt
  have hemb : ((cfg5.win 2).blk t).view.emb j = ix3 (⟨t.val + 0, by omega⟩ : Fin 50) (j 1 : Fin 64) (j 2 : Fin 4096) := by
    funext a; apply Fin.ext
    match a with
    | ⟨0, _⟩ => show win5_2.index t (0 : Fin 3) * 1 + 1 * (j 0).val = t.val + 0; omega
    | ⟨1, _⟩ => show win5_2.index t (1 : Fin 3) * 64 + 1 * (j 1).val = (j 1).val; omega
    | ⟨2, _⟩ => show win5_2.index t (2 : Fin 3) * 4096 + 1 * (j 2).val = (j 2).val; omega
  rw [hemb]
  exact (congrArg (R5.outBlk (R5.iblk V c 0 t) (R5.iblk V c 1 t)) (eq_ix3 (j : S1x64x4096.Idx))).trans
    ((out_pt5 V c t (j 0 : Fin 1) (j 1 : Fin 64) (j 2 : Fin 4096)).trans (G5_at V c t (j 1 : Fin 64) (j 2 : Fin 4096)).symm)

/-- An index of the array is in point t's block iff each coordinate is in the block's range on its axis. -/
theorem mem_blk5 (t : Fin cfg5.N) (i : S50x64x4096.Idx) :
    i ∈ ((cfg5.win 2).blk t).view.set ↔ ∀ a : Fin 3, win5_2.index t a * S1x64x4096.size a ≤ (i a).val
      ∧ (i a).val < win5_2.index t a * S1x64x4096.size a + S1x64x4096.size a := by
  show i ∈ ((View.whole main_v32).slice (win5_2.rect t)).set ↔ _
  rw [View.set_slice_whole, Rect.mem_set_unit]
  exact Iff.rfl

/-- THE COVERED INDICES: in some point's block iff in rows 0 … 9. -/
theorem covered_iff5 (i : S50x64x4096.Idx) :
    (∃ t : Fin cfg5.N, (cfg5.win 2).flush t = true ∧ i ∈ ((cfg5.win 2).blk t).view.set) ↔ 0 ≤ (i 0).val ∧ (i 0).val < 10 := by
  have hi1 : (i 1).val < 64 := (i 1).isLt
  have hi2 : (i 2).val < 4096 := (i 2).isLt
  constructor
  · rintro ⟨t, -, hi⟩
    rw [mem_blk5] at hi
    have ht : t.val < 10 := t.isLt
    obtain ⟨-, -, -, -, -, e0, e1, e2⟩ := idx_facts5 t
    have b0 : win5_2.index t (0 : Fin 3) * 1 ≤ (i 0).val ∧ (i 0).val < win5_2.index t (0 : Fin 3) * 1 + 1 := hi 0
    omega
  · intro h
    have hlt : (i 0).val - 0 < 10 := by omega
    refine ⟨⟨(i 0).val - 0, hlt⟩, flush5_2 _, ?_⟩
    rw [mem_blk5]
    obtain ⟨-, -, -, -, -, e0, e1, e2⟩ := idx_facts5 ⟨(i 0).val - 0, hlt⟩
    have e0' : win5_2.index ⟨(i 0).val - 0, hlt⟩ (0 : Fin 3) = (i 0).val - 0 + 0 := e0
    intro a
    match a with
    | ⟨0, _⟩ =>
      show win5_2.index ⟨(i 0).val - 0, hlt⟩ (0 : Fin 3) * 1 ≤ (i 0).val ∧ (i 0).val < win5_2.index ⟨(i 0).val - 0, hlt⟩ (0 : Fin 3) * 1 + 1
      omega
    | ⟨1, _⟩ =>
      show win5_2.index ⟨(i 0).val - 0, hlt⟩ (1 : Fin 3) * 64 ≤ (i 1).val ∧ (i 1).val < win5_2.index ⟨(i 0).val - 0, hlt⟩ (1 : Fin 3) * 64 + 64
      omega
    | ⟨2, _⟩ =>
      show win5_2.index ⟨(i 0).val - 0, hlt⟩ (2 : Fin 3) * 4096 ≤ (i 2).val ∧ (i 2).val < win5_2.index ⟨(i 0).val - 0, hlt⟩ (2 : Fin 3) * 4096 + 4096
      omega

/-- THE ARRAY after the ten points. -/
theorem final5 (c : Dev nD) : (R5.dat V c).arrAt 2 cfg5.N = G5 V c := by
  funext i
  rw [(R5.dat V c).arrAt_eq_piecewise 2 _ (fun t _ => flushed_eq5 V c t) i, R5.A_eq]
  by_cases h : 0 ≤ (i 0).val ∧ (i 0).val < 10
  · rw [if_pos ((covered_iff5 i).mpr h)]
  · rw [if_neg (fun hc => h ((covered_iff5 i).mp hc))]
    unfold G5
    rw [dif_neg h]

/-- The call's output array after its ten points, at (s, dcol, b): for s one of the call's ten rows, entry 64·bit + dcol
    of gathered pair 4096 (s − 0) + b, where bit is the low bit of row number (s − 0, b); any other row as the
    call found it. -/
theorem arr5 (c : Dev nD) (s : Fin 50) (dcol : Fin 64) (b : Fin 4096) :
    (R5.dat V c).arrAt 2 cfg5.N (ix3 s dcol b)
      = if h : 0 ≤ s.val ∧ s.val < 10 then
          (if (idx5 V c (ix3 (⟨s.val - 0, by omega⟩ : Fin 10) (0 : Fin 1) b) &&& 1#32) = 1#32
            then res5 V c (ix2 (⟨4096 * (s.val - 0) + b.val, by omega⟩ : Fin 40960) (⟨64 + dcol.val, by omega⟩ : Fin 128))
            else res5 V c (ix2 (⟨4096 * (s.val - 0) + b.val, by omega⟩ : Fin 40960) (⟨dcol.val, by omega⟩ : Fin 128)))
        else out5 V c (ix3 s dcol b) :=
  (congrFun (final5 V c) (ix3 s dcol b)).trans rfl

/-! ## Transposing call 1 -/

/-- The call's three arrays as the region finds them: the gathered pairs, the row numbers, the growing result. -/
abbrev res6 (c : Dev nD) : S40960x128.Idx → Elt F .f32 := V c main_v12
abbrev idx6 (c : Dev nD) : S10x1x4096.Idx → BitVec 32 := V c main_v33
abbrev out6 (c : Dev nD) : S50x64x4096.Idx → Elt F .f32 := V c main_v34

/-- Row i of the ten the call writes, at (d, b): of pair 4096 i + b the half row number (i, b)'s low bit names, at d. -/
def row6 (c : Dev nD) (i : Fin 10) (d : Fin 64) (b : Fin 4096) : Elt F .f32 :=
  if (idx6 V c (ix3 i (0 : Fin 1) b) &&& 1#32) = 1#32
    then res6 V c (ix2 (⟨4096 * i.val + b.val, by omega⟩ : Fin 40960) (⟨64 + d.val, by omega⟩ : Fin 128))
    else res6 V c (ix2 (⟨4096 * i.val + b.val, by omega⟩ : Fin 40960) (⟨d.val, by omega⟩ : Fin 128))

/-- What the call's output array holds after its ten points: rows 10 … 19 (one per point) from the gathered
    pairs and the row numbers, every other row as the call found it. -/
def G6 (c : Dev nD) : S50x64x4096.Idx → Elt F .f32 := fun j =>
  if h : 10 ≤ (j 0).val ∧ (j 0).val < 20 then row6 V c ⟨(j 0).val - 10, by omega⟩ (j 1) (j 2)
  else out6 V c j

theorem G6_at (c : Dev nD) (i : Fin 10) (d : Fin 64) (b : Fin 4096) :
    G6 V c (ix3 (⟨i.val + 10, by omega⟩ : Fin 50) d b) = row6 V c i d b := by
  unfold G6
  rw [dif_pos (show 10 ≤ i.val + 10 ∧ i.val + 10 < 20 from by omega)]
  exact congrArg (fun k => row6 V c k d b) (Fin.ext (by show i.val + 10 - 10 = i.val; omega))

/-- The printed index maps over the grid: point t reads pair rows 4096 t …, row numbers t, and writes row t + 10. -/
theorem idx_facts6 : ∀ t : Fin cfg6.N, win6_0.index t (0 : Fin 2) = t.val ∧ win6_0.index t (1 : Fin 2) = 0
    ∧ win6_1.index t (0 : Fin 3) = t.val ∧ win6_1.index t (1 : Fin 3) = 0 ∧ win6_1.index t (2 : Fin 3) = 0
    ∧ win6_2.index t (0 : Fin 3) = t.val + 10 ∧ win6_2.index t (1 : Fin 3) = 0 ∧ win6_2.index t (2 : Fin 3) = 0 :=
  (by decide +kernel : ∀ t : Fin grid6.N, _)

theorem outBlk_eq6 (x0 : Vec F S4096x128 .f32) (x1 : Vec F S1x1x4096 .i32) : R6.outBlk x0 x1 = R5.outBlk x0 x1 := by
  rw [Val.outBlk_eq]
  unfold R6.outBlk
  rw [View.canon_unit_zero Val.hz3, View.ld_unit_zero Val.hz2, View.ld_unit_zero Val.hz3]
  try rfl

/-- Point t's block of gathered pairs, at (b, k): pair row 4096 t + b. -/
theorem iblk0_6 (c : Dev nD) (t : Fin 10) (b : Fin 4096) (k : Fin 128) :
    R6.iblk V c 0 t (ix2 b k) = res6 V c (ix2 (⟨4096 * t.val + b.val, by omega⟩ : Fin 40960) k) := by
  obtain ⟨e0, e1, -⟩ := idx_facts6 t
  show V c main_v12 (((cfg6.win 0).blk t).view.emb (ix2 b k)) = _
  refine congrArg (V c main_v12) (funext fun a => Fin.ext ?_)
  match a with
  | ⟨0, _⟩ => show win6_0.index t (0 : Fin 2) * 4096 + 1 * b.val = 4096 * t.val + b.val; omega
  | ⟨1, _⟩ => show win6_0.index t (1 : Fin 2) * 128 + 1 * k.val = k.val; omega

/-- Point t's block of row numbers, at (0, 0, b): row t of the row numbers. -/
theorem iblk1_6 (c : Dev nD) (t : Fin 10) (b : Fin 4096) :
    R6.iblk V c 1 t (ix3 (0 : Fin 1) (0 : Fin 1) b) = idx6 V c (ix3 t (0 : Fin 1) b) := by
  obtain ⟨-, -, e0, e1, e2, -⟩ := idx_facts6 t
  show V c main_v33 (((cfg6.win 1).blk t).view.emb (ix3 (0 : Fin 1) (0 : Fin 1) b)) = _
  refine congrArg (V c main_v33) (funext fun a => Fin.ext ?_)
  match a with
  | ⟨0, _⟩ => show win6_1.index t (0 : Fin 3) * 1 + 1 * 0 = t.val; omega
  | ⟨1, _⟩ => show win6_1.index t (1 : Fin 3) * 1 + 1 * 0 = 0; omega
  | ⟨2, _⟩ => show win6_1.index t (2 : Fin 3) * 4096 + 1 * b.val = b.val; omega

/-- The block point t computes, at (u, d, b), is row t of the ten. -/
theorem out_pt6 (c : Dev nD) (t : Fin 10) (u : Fin 1) (d : Fin 64) (b : Fin 4096) :
    R6.outBlk (R6.iblk V c 0 t) (R6.iblk V c 1 t) (ix3 u d b) = row6 V c t d b := by
  rw [outBlk_eq6, Val.outBlk_apply, iblk1_6, iblk0_6, iblk0_6]
  rfl

/-- WHAT POINT t WRITES BACK is its block of that array. -/
theorem flushed_eq6 (c : Dev nD) (t : Fin cfg6.N) :
    (R6.dat V c).flushed 2 t = ((cfg6.win 2).blk t).view.read (Elt F) (G6 V c) := by
  show (cfg6.win 2).cut (grid6.coords t) ((R6.dat V c).after 2 t) = _
  rw [R6.after_2]
  obtain ⟨-, -, -, -, -, e0, e1, e2⟩ := idx_facts6 t
  have ht : t.val < 10 := t.isLt
  funext j
  show R6.outBlk (R6.iblk V c 0 t) (R6.iblk V c 1 t) j = G6 V c (((cfg6.win 2).blk t).view.emb j)
  have h0 : (j 0).val < 1 := (j 0).isLt
  have hemb : ((cfg6.win 2).blk t).view.emb j = ix3 (⟨t.val + 10, by omega⟩ : Fin 50) (j 1 : Fin 64) (j 2 : Fin 4096) := by
    funext a; apply Fin.ext
    match a with
    | ⟨0, _⟩ => show win6_2.index t (0 : Fin 3) * 1 + 1 * (j 0).val = t.val + 10; omega
    | ⟨1, _⟩ => show win6_2.index t (1 : Fin 3) * 64 + 1 * (j 1).val = (j 1).val; omega
    | ⟨2, _⟩ => show win6_2.index t (2 : Fin 3) * 4096 + 1 * (j 2).val = (j 2).val; omega
  rw [hemb]
  exact (congrArg (R6.outBlk (R6.iblk V c 0 t) (R6.iblk V c 1 t)) (eq_ix3 (j : S1x64x4096.Idx))).trans
    ((out_pt6 V c t (j 0 : Fin 1) (j 1 : Fin 64) (j 2 : Fin 4096)).trans (G6_at V c t (j 1 : Fin 64) (j 2 : Fin 4096)).symm)

/-- An index of the array is in point t's block iff each coordinate is in the block's range on its axis. -/
theorem mem_blk6 (t : Fin cfg6.N) (i : S50x64x4096.Idx) :
    i ∈ ((cfg6.win 2).blk t).view.set ↔ ∀ a : Fin 3, win6_2.index t a * S1x64x4096.size a ≤ (i a).val
      ∧ (i a).val < win6_2.index t a * S1x64x4096.size a + S1x64x4096.size a := by
  show i ∈ ((View.whole main_v34).slice (win6_2.rect t)).set ↔ _
  rw [View.set_slice_whole, Rect.mem_set_unit]
  exact Iff.rfl

/-- THE COVERED INDICES: in some point's block iff in rows 10 … 19. -/
theorem covered_iff6 (i : S50x64x4096.Idx) :
    (∃ t : Fin cfg6.N, (cfg6.win 2).flush t = true ∧ i ∈ ((cfg6.win 2).blk t).view.set) ↔ 10 ≤ (i 0).val ∧ (i 0).val < 20 := by
  have hi1 : (i 1).val < 64 := (i 1).isLt
  have hi2 : (i 2).val < 4096 := (i 2).isLt
  constructor
  · rintro ⟨t, -, hi⟩
    rw [mem_blk6] at hi
    have ht : t.val < 10 := t.isLt
    obtain ⟨-, -, -, -, -, e0, e1, e2⟩ := idx_facts6 t
    have b0 : win6_2.index t (0 : Fin 3) * 1 ≤ (i 0).val ∧ (i 0).val < win6_2.index t (0 : Fin 3) * 1 + 1 := hi 0
    omega
  · intro h
    have hlt : (i 0).val - 10 < 10 := by omega
    refine ⟨⟨(i 0).val - 10, hlt⟩, flush6_2 _, ?_⟩
    rw [mem_blk6]
    obtain ⟨-, -, -, -, -, e0, e1, e2⟩ := idx_facts6 ⟨(i 0).val - 10, hlt⟩
    have e0' : win6_2.index ⟨(i 0).val - 10, hlt⟩ (0 : Fin 3) = (i 0).val - 10 + 10 := e0
    intro a
    match a with
    | ⟨0, _⟩ =>
      show win6_2.index ⟨(i 0).val - 10, hlt⟩ (0 : Fin 3) * 1 ≤ (i 0).val ∧ (i 0).val < win6_2.index ⟨(i 0).val - 10, hlt⟩ (0 : Fin 3) * 1 + 1
      omega
    | ⟨1, _⟩ =>
      show win6_2.index ⟨(i 0).val - 10, hlt⟩ (1 : Fin 3) * 64 ≤ (i 1).val ∧ (i 1).val < win6_2.index ⟨(i 0).val - 10, hlt⟩ (1 : Fin 3) * 64 + 64
      omega
    | ⟨2, _⟩ =>
      show win6_2.index ⟨(i 0).val - 10, hlt⟩ (2 : Fin 3) * 4096 ≤ (i 2).val ∧ (i 2).val < win6_2.index ⟨(i 0).val - 10, hlt⟩ (2 : Fin 3) * 4096 + 4096
      omega

/-- THE ARRAY after the ten points. -/
theorem final6 (c : Dev nD) : (R6.dat V c).arrAt 2 cfg6.N = G6 V c := by
  funext i
  rw [(R6.dat V c).arrAt_eq_piecewise 2 _ (fun t _ => flushed_eq6 V c t) i, R6.A_eq]
  by_cases h : 10 ≤ (i 0).val ∧ (i 0).val < 20
  · rw [if_pos ((covered_iff6 i).mpr h)]
  · rw [if_neg (fun hc => h ((covered_iff6 i).mp hc))]
    unfold G6
    rw [dif_neg h]

/-- The call's output array after its ten points, at (s, dcol, b): for s one of the call's ten rows, entry 64·bit + dcol
    of gathered pair 4096 (s − 10) + b, where bit is the low bit of row number (s − 10, b); any other row as the
    call found it. -/
theorem arr6 (c : Dev nD) (s : Fin 50) (dcol : Fin 64) (b : Fin 4096) :
    (R6.dat V c).arrAt 2 cfg6.N (ix3 s dcol b)
      = if h : 10 ≤ s.val ∧ s.val < 20 then
          (if (idx6 V c (ix3 (⟨s.val - 10, by omega⟩ : Fin 10) (0 : Fin 1) b) &&& 1#32) = 1#32
            then res6 V c (ix2 (⟨4096 * (s.val - 10) + b.val, by omega⟩ : Fin 40960) (⟨64 + dcol.val, by omega⟩ : Fin 128))
            else res6 V c (ix2 (⟨4096 * (s.val - 10) + b.val, by omega⟩ : Fin 40960) (⟨dcol.val, by omega⟩ : Fin 128)))
        else out6 V c (ix3 s dcol b) :=
  (congrFun (final6 V c) (ix3 s dcol b)).trans rfl

/-! ## Transposing call 2 -/

/-- The call's three arrays as the region finds them: the gathered pairs, the row numbers, the growing result. -/
abbrev res7 (c : Dev nD) : S40960x128.Idx → Elt F .f32 := V c main_v18
abbrev idx7 (c : Dev nD) : S10x1x4096.Idx → BitVec 32 := V c main_v35
abbrev out7 (c : Dev nD) : S50x64x4096.Idx → Elt F .f32 := V c main_v36

/-- Row i of the ten the call writes, at (d, b): of pair 4096 i + b the half row number (i, b)'s low bit names, at d. -/
def row7 (c : Dev nD) (i : Fin 10) (d : Fin 64) (b : Fin 4096) : Elt F .f32 :=
  if (idx7 V c (ix3 i (0 : Fin 1) b) &&& 1#32) = 1#32
    then res7 V c (ix2 (⟨4096 * i.val + b.val, by omega⟩ : Fin 40960) (⟨64 + d.val, by omega⟩ : Fin 128))
    else res7 V c (ix2 (⟨4096 * i.val + b.val, by omega⟩ : Fin 40960) (⟨d.val, by omega⟩ : Fin 128))

/-- What the call's output array holds after its ten points: rows 20 … 29 (one per point) from the gathered
    pairs and the row numbers, every other row as the call found it. -/
def G7 (c : Dev nD) : S50x64x4096.Idx → Elt F .f32 := fun j =>
  if h : 20 ≤ (j 0).val ∧ (j 0).val < 30 then row7 V c ⟨(j 0).val - 20, by omega⟩ (j 1) (j 2)
  else out7 V c j

theorem G7_at (c : Dev nD) (i : Fin 10) (d : Fin 64) (b : Fin 4096) :
    G7 V c (ix3 (⟨i.val + 20, by omega⟩ : Fin 50) d b) = row7 V c i d b := by
  unfold G7
  rw [dif_pos (show 20 ≤ i.val + 20 ∧ i.val + 20 < 30 from by omega)]
  exact congrArg (fun k => row7 V c k d b) (Fin.ext (by show i.val + 20 - 20 = i.val; omega))

/-- The printed index maps over the grid: point t reads pair rows 4096 t …, row numbers t, and writes row t + 20. -/
theorem idx_facts7 : ∀ t : Fin cfg7.N, win7_0.index t (0 : Fin 2) = t.val ∧ win7_0.index t (1 : Fin 2) = 0
    ∧ win7_1.index t (0 : Fin 3) = t.val ∧ win7_1.index t (1 : Fin 3) = 0 ∧ win7_1.index t (2 : Fin 3) = 0
    ∧ win7_2.index t (0 : Fin 3) = t.val + 20 ∧ win7_2.index t (1 : Fin 3) = 0 ∧ win7_2.index t (2 : Fin 3) = 0 :=
  (by decide +kernel : ∀ t : Fin grid7.N, _)

theorem outBlk_eq7 (x0 : Vec F S4096x128 .f32) (x1 : Vec F S1x1x4096 .i32) : R7.outBlk x0 x1 = R5.outBlk x0 x1 := by
  rw [Val.outBlk_eq]
  unfold R7.outBlk
  rw [View.canon_unit_zero Val.hz3, View.ld_unit_zero Val.hz2, View.ld_unit_zero Val.hz3]
  try rfl

/-- Point t's block of gathered pairs, at (b, k): pair row 4096 t + b. -/
theorem iblk0_7 (c : Dev nD) (t : Fin 10) (b : Fin 4096) (k : Fin 128) :
    R7.iblk V c 0 t (ix2 b k) = res7 V c (ix2 (⟨4096 * t.val + b.val, by omega⟩ : Fin 40960) k) := by
  obtain ⟨e0, e1, -⟩ := idx_facts7 t
  show V c main_v18 (((cfg7.win 0).blk t).view.emb (ix2 b k)) = _
  refine congrArg (V c main_v18) (funext fun a => Fin.ext ?_)
  match a with
  | ⟨0, _⟩ => show win7_0.index t (0 : Fin 2) * 4096 + 1 * b.val = 4096 * t.val + b.val; omega
  | ⟨1, _⟩ => show win7_0.index t (1 : Fin 2) * 128 + 1 * k.val = k.val; omega

/-- Point t's block of row numbers, at (0, 0, b): row t of the row numbers. -/
theorem iblk1_7 (c : Dev nD) (t : Fin 10) (b : Fin 4096) :
    R7.iblk V c 1 t (ix3 (0 : Fin 1) (0 : Fin 1) b) = idx7 V c (ix3 t (0 : Fin 1) b) := by
  obtain ⟨-, -, e0, e1, e2, -⟩ := idx_facts7 t
  show V c main_v35 (((cfg7.win 1).blk t).view.emb (ix3 (0 : Fin 1) (0 : Fin 1) b)) = _
  refine congrArg (V c main_v35) (funext fun a => Fin.ext ?_)
  match a with
  | ⟨0, _⟩ => show win7_1.index t (0 : Fin 3) * 1 + 1 * 0 = t.val; omega
  | ⟨1, _⟩ => show win7_1.index t (1 : Fin 3) * 1 + 1 * 0 = 0; omega
  | ⟨2, _⟩ => show win7_1.index t (2 : Fin 3) * 4096 + 1 * b.val = b.val; omega

/-- The block point t computes, at (u, d, b), is row t of the ten. -/
theorem out_pt7 (c : Dev nD) (t : Fin 10) (u : Fin 1) (d : Fin 64) (b : Fin 4096) :
    R7.outBlk (R7.iblk V c 0 t) (R7.iblk V c 1 t) (ix3 u d b) = row7 V c t d b := by
  rw [outBlk_eq7, Val.outBlk_apply, iblk1_7, iblk0_7, iblk0_7]
  rfl

/-- WHAT POINT t WRITES BACK is its block of that array. -/
theorem flushed_eq7 (c : Dev nD) (t : Fin cfg7.N) :
    (R7.dat V c).flushed 2 t = ((cfg7.win 2).blk t).view.read (Elt F) (G7 V c) := by
  show (cfg7.win 2).cut (grid7.coords t) ((R7.dat V c).after 2 t) = _
  rw [R7.after_2]
  obtain ⟨-, -, -, -, -, e0, e1, e2⟩ := idx_facts7 t
  have ht : t.val < 10 := t.isLt
  funext j
  show R7.outBlk (R7.iblk V c 0 t) (R7.iblk V c 1 t) j = G7 V c (((cfg7.win 2).blk t).view.emb j)
  have h0 : (j 0).val < 1 := (j 0).isLt
  have hemb : ((cfg7.win 2).blk t).view.emb j = ix3 (⟨t.val + 20, by omega⟩ : Fin 50) (j 1 : Fin 64) (j 2 : Fin 4096) := by
    funext a; apply Fin.ext
    match a with
    | ⟨0, _⟩ => show win7_2.index t (0 : Fin 3) * 1 + 1 * (j 0).val = t.val + 20; omega
    | ⟨1, _⟩ => show win7_2.index t (1 : Fin 3) * 64 + 1 * (j 1).val = (j 1).val; omega
    | ⟨2, _⟩ => show win7_2.index t (2 : Fin 3) * 4096 + 1 * (j 2).val = (j 2).val; omega
  rw [hemb]
  exact (congrArg (R7.outBlk (R7.iblk V c 0 t) (R7.iblk V c 1 t)) (eq_ix3 (j : S1x64x4096.Idx))).trans
    ((out_pt7 V c t (j 0 : Fin 1) (j 1 : Fin 64) (j 2 : Fin 4096)).trans (G7_at V c t (j 1 : Fin 64) (j 2 : Fin 4096)).symm)

/-- An index of the array is in point t's block iff each coordinate is in the block's range on its axis. -/
theorem mem_blk7 (t : Fin cfg7.N) (i : S50x64x4096.Idx) :
    i ∈ ((cfg7.win 2).blk t).view.set ↔ ∀ a : Fin 3, win7_2.index t a * S1x64x4096.size a ≤ (i a).val
      ∧ (i a).val < win7_2.index t a * S1x64x4096.size a + S1x64x4096.size a := by
  show i ∈ ((View.whole main_v36).slice (win7_2.rect t)).set ↔ _
  rw [View.set_slice_whole, Rect.mem_set_unit]
  exact Iff.rfl

/-- THE COVERED INDICES: in some point's block iff in rows 20 … 29. -/
theorem covered_iff7 (i : S50x64x4096.Idx) :
    (∃ t : Fin cfg7.N, (cfg7.win 2).flush t = true ∧ i ∈ ((cfg7.win 2).blk t).view.set) ↔ 20 ≤ (i 0).val ∧ (i 0).val < 30 := by
  have hi1 : (i 1).val < 64 := (i 1).isLt
  have hi2 : (i 2).val < 4096 := (i 2).isLt
  constructor
  · rintro ⟨t, -, hi⟩
    rw [mem_blk7] at hi
    have ht : t.val < 10 := t.isLt
    obtain ⟨-, -, -, -, -, e0, e1, e2⟩ := idx_facts7 t
    have b0 : win7_2.index t (0 : Fin 3) * 1 ≤ (i 0).val ∧ (i 0).val < win7_2.index t (0 : Fin 3) * 1 + 1 := hi 0
    omega
  · intro h
    have hlt : (i 0).val - 20 < 10 := by omega
    refine ⟨⟨(i 0).val - 20, hlt⟩, flush7_2 _, ?_⟩
    rw [mem_blk7]
    obtain ⟨-, -, -, -, -, e0, e1, e2⟩ := idx_facts7 ⟨(i 0).val - 20, hlt⟩
    have e0' : win7_2.index ⟨(i 0).val - 20, hlt⟩ (0 : Fin 3) = (i 0).val - 20 + 20 := e0
    intro a
    match a with
    | ⟨0, _⟩ =>
      show win7_2.index ⟨(i 0).val - 20, hlt⟩ (0 : Fin 3) * 1 ≤ (i 0).val ∧ (i 0).val < win7_2.index ⟨(i 0).val - 20, hlt⟩ (0 : Fin 3) * 1 + 1
      omega
    | ⟨1, _⟩ =>
      show win7_2.index ⟨(i 0).val - 20, hlt⟩ (1 : Fin 3) * 64 ≤ (i 1).val ∧ (i 1).val < win7_2.index ⟨(i 0).val - 20, hlt⟩ (1 : Fin 3) * 64 + 64
      omega
    | ⟨2, _⟩ =>
      show win7_2.index ⟨(i 0).val - 20, hlt⟩ (2 : Fin 3) * 4096 ≤ (i 2).val ∧ (i 2).val < win7_2.index ⟨(i 0).val - 20, hlt⟩ (2 : Fin 3) * 4096 + 4096
      omega

/-- THE ARRAY after the ten points. -/
theorem final7 (c : Dev nD) : (R7.dat V c).arrAt 2 cfg7.N = G7 V c := by
  funext i
  rw [(R7.dat V c).arrAt_eq_piecewise 2 _ (fun t _ => flushed_eq7 V c t) i, R7.A_eq]
  by_cases h : 20 ≤ (i 0).val ∧ (i 0).val < 30
  · rw [if_pos ((covered_iff7 i).mpr h)]
  · rw [if_neg (fun hc => h ((covered_iff7 i).mp hc))]
    unfold G7
    rw [dif_neg h]

/-- The call's output array after its ten points, at (s, dcol, b): for s one of the call's ten rows, entry 64·bit + dcol
    of gathered pair 4096 (s − 20) + b, where bit is the low bit of row number (s − 20, b); any other row as the
    call found it. -/
theorem arr7 (c : Dev nD) (s : Fin 50) (dcol : Fin 64) (b : Fin 4096) :
    (R7.dat V c).arrAt 2 cfg7.N (ix3 s dcol b)
      = if h : 20 ≤ s.val ∧ s.val < 30 then
          (if (idx7 V c (ix3 (⟨s.val - 20, by omega⟩ : Fin 10) (0 : Fin 1) b) &&& 1#32) = 1#32
            then res7 V c (ix2 (⟨4096 * (s.val - 20) + b.val, by omega⟩ : Fin 40960) (⟨64 + dcol.val, by omega⟩ : Fin 128))
            else res7 V c (ix2 (⟨4096 * (s.val - 20) + b.val, by omega⟩ : Fin 40960) (⟨dcol.val, by omega⟩ : Fin 128)))
        else out7 V c (ix3 s dcol b) :=
  (congrFun (final7 V c) (ix3 s dcol b)).trans rfl

/-! ## Transposing call 3 -/

/-- The call's three arrays as the region finds them: the gathered pairs, the row numbers, the growing result. -/
abbrev res8 (c : Dev nD) : S40960x128.Idx → Elt F .f32 := V c main_v24
abbrev idx8 (c : Dev nD) : S10x1x4096.Idx → BitVec 32 := V c main_v37
abbrev out8 (c : Dev nD) : S50x64x4096.Idx → Elt F .f32 := V c main_v38

/-- Row i of the ten the call writes, at (d, b): of pair 4096 i + b the half row number (i, b)'s low bit names, at d. -/
def row8 (c : Dev nD) (i : Fin 10) (d : Fin 64) (b : Fin 4096) : Elt F .f32 :=
  if (idx8 V c (ix3 i (0 : Fin 1) b) &&& 1#32) = 1#32
    then res8 V c (ix2 (⟨4096 * i.val + b.val, by omega⟩ : Fin 40960) (⟨64 + d.val, by omega⟩ : Fin 128))
    else res8 V c (ix2 (⟨4096 * i.val + b.val, by omega⟩ : Fin 40960) (⟨d.val, by omega⟩ : Fin 128))

/-- What the call's output array holds after its ten points: rows 30 … 39 (one per point) from the gathered
    pairs and the row numbers, every other row as the call found it. -/
def G8 (c : Dev nD) : S50x64x4096.Idx → Elt F .f32 := fun j =>
  if h : 30 ≤ (j 0).val ∧ (j 0).val < 40 then row8 V c ⟨(j 0).val - 30, by omega⟩ (j 1) (j 2)
  else out8 V c j

theorem G8_at (c : Dev nD) (i : Fin 10) (d : Fin 64) (b : Fin 4096) :
    G8 V c (ix3 (⟨i.val + 30, by omega⟩ : Fin 50) d b) = row8 V c i d b := by
  unfold G8
  rw [dif_pos (show 30 ≤ i.val + 30 ∧ i.val + 30 < 40 from by omega)]
  exact congrArg (fun k => row8 V c k d b) (Fin.ext (by show i.val + 30 - 30 = i.val; omega))

/-- The printed index maps over the grid: point t reads pair rows 4096 t …, row numbers t, and writes row t + 30. -/
theorem idx_facts8 : ∀ t : Fin cfg8.N, win8_0.index t (0 : Fin 2) = t.val ∧ win8_0.index t (1 : Fin 2) = 0
    ∧ win8_1.index t (0 : Fin 3) = t.val ∧ win8_1.index t (1 : Fin 3) = 0 ∧ win8_1.index t (2 : Fin 3) = 0
    ∧ win8_2.index t (0 : Fin 3) = t.val + 30 ∧ win8_2.index t (1 : Fin 3) = 0 ∧ win8_2.index t (2 : Fin 3) = 0 :=
  (by decide +kernel : ∀ t : Fin grid8.N, _)

theorem outBlk_eq8 (x0 : Vec F S4096x128 .f32) (x1 : Vec F S1x1x4096 .i32) : R8.outBlk x0 x1 = R5.outBlk x0 x1 := by
  rw [Val.outBlk_eq]
  unfold R8.outBlk
  rw [View.canon_unit_zero Val.hz3, View.ld_unit_zero Val.hz2, View.ld_unit_zero Val.hz3]
  try rfl

/-- Point t's block of gathered pairs, at (b, k): pair row 4096 t + b. -/
theorem iblk0_8 (c : Dev nD) (t : Fin 10) (b : Fin 4096) (k : Fin 128) :
    R8.iblk V c 0 t (ix2 b k) = res8 V c (ix2 (⟨4096 * t.val + b.val, by omega⟩ : Fin 40960) k) := by
  obtain ⟨e0, e1, -⟩ := idx_facts8 t
  show V c main_v24 (((cfg8.win 0).blk t).view.emb (ix2 b k)) = _
  refine congrArg (V c main_v24) (funext fun a => Fin.ext ?_)
  match a with
  | ⟨0, _⟩ => show win8_0.index t (0 : Fin 2) * 4096 + 1 * b.val = 4096 * t.val + b.val; omega
  | ⟨1, _⟩ => show win8_0.index t (1 : Fin 2) * 128 + 1 * k.val = k.val; omega

/-- Point t's block of row numbers, at (0, 0, b): row t of the row numbers. -/
theorem iblk1_8 (c : Dev nD) (t : Fin 10) (b : Fin 4096) :
    R8.iblk V c 1 t (ix3 (0 : Fin 1) (0 : Fin 1) b) = idx8 V c (ix3 t (0 : Fin 1) b) := by
  obtain ⟨-, -, e0, e1, e2, -⟩ := idx_facts8 t
  show V c main_v37 (((cfg8.win 1).blk t).view.emb (ix3 (0 : Fin 1) (0 : Fin 1) b)) = _
  refine congrArg (V c main_v37) (funext fun a => Fin.ext ?_)
  match a with
  | ⟨0, _⟩ => show win8_1.index t (0 : Fin 3) * 1 + 1 * 0 = t.val; omega
  | ⟨1, _⟩ => show win8_1.index t (1 : Fin 3) * 1 + 1 * 0 = 0; omega
  | ⟨2, _⟩ => show win8_1.index t (2 : Fin 3) * 4096 + 1 * b.val = b.val; omega

/-- The block point t computes, at (u, d, b), is row t of the ten. -/
theorem out_pt8 (c : Dev nD) (t : Fin 10) (u : Fin 1) (d : Fin 64) (b : Fin 4096) :
    R8.outBlk (R8.iblk V c 0 t) (R8.iblk V c 1 t) (ix3 u d b) = row8 V c t d b := by
  rw [outBlk_eq8, Val.outBlk_apply, iblk1_8, iblk0_8, iblk0_8]
  rfl

/-- WHAT POINT t WRITES BACK is its block of that array. -/
theorem flushed_eq8 (c : Dev nD) (t : Fin cfg8.N) :
    (R8.dat V c).flushed 2 t = ((cfg8.win 2).blk t).view.read (Elt F) (G8 V c) := by
  show (cfg8.win 2).cut (grid8.coords t) ((R8.dat V c).after 2 t) = _
  rw [R8.after_2]
  obtain ⟨-, -, -, -, -, e0, e1, e2⟩ := idx_facts8 t
  have ht : t.val < 10 := t.isLt
  funext j
  show R8.outBlk (R8.iblk V c 0 t) (R8.iblk V c 1 t) j = G8 V c (((cfg8.win 2).blk t).view.emb j)
  have h0 : (j 0).val < 1 := (j 0).isLt
  have hemb : ((cfg8.win 2).blk t).view.emb j = ix3 (⟨t.val + 30, by omega⟩ : Fin 50) (j 1 : Fin 64) (j 2 : Fin 4096) := by
    funext a; apply Fin.ext
    match a with
    | ⟨0, _⟩ => show win8_2.index t (0 : Fin 3) * 1 + 1 * (j 0).val = t.val + 30; omega
    | ⟨1, _⟩ => show win8_2.index t (1 : Fin 3) * 64 + 1 * (j 1).val = (j 1).val; omega
    | ⟨2, _⟩ => show win8_2.index t (2 : Fin 3) * 4096 + 1 * (j 2).val = (j 2).val; omega
  rw [hemb]
  exact (congrArg (R8.outBlk (R8.iblk V c 0 t) (R8.iblk V c 1 t)) (eq_ix3 (j : S1x64x4096.Idx))).trans
    ((out_pt8 V c t (j 0 : Fin 1) (j 1 : Fin 64) (j 2 : Fin 4096)).trans (G8_at V c t (j 1 : Fin 64) (j 2 : Fin 4096)).symm)

/-- An index of the array is in point t's block iff each coordinate is in the block's range on its axis. -/
theorem mem_blk8 (t : Fin cfg8.N) (i : S50x64x4096.Idx) :
    i ∈ ((cfg8.win 2).blk t).view.set ↔ ∀ a : Fin 3, win8_2.index t a * S1x64x4096.size a ≤ (i a).val
      ∧ (i a).val < win8_2.index t a * S1x64x4096.size a + S1x64x4096.size a := by
  show i ∈ ((View.whole main_v38).slice (win8_2.rect t)).set ↔ _
  rw [View.set_slice_whole, Rect.mem_set_unit]
  exact Iff.rfl

/-- THE COVERED INDICES: in some point's block iff in rows 30 … 39. -/
theorem covered_iff8 (i : S50x64x4096.Idx) :
    (∃ t : Fin cfg8.N, (cfg8.win 2).flush t = true ∧ i ∈ ((cfg8.win 2).blk t).view.set) ↔ 30 ≤ (i 0).val ∧ (i 0).val < 40 := by
  have hi1 : (i 1).val < 64 := (i 1).isLt
  have hi2 : (i 2).val < 4096 := (i 2).isLt
  constructor
  · rintro ⟨t, -, hi⟩
    rw [mem_blk8] at hi
    have ht : t.val < 10 := t.isLt
    obtain ⟨-, -, -, -, -, e0, e1, e2⟩ := idx_facts8 t
    have b0 : win8_2.index t (0 : Fin 3) * 1 ≤ (i 0).val ∧ (i 0).val < win8_2.index t (0 : Fin 3) * 1 + 1 := hi 0
    omega
  · intro h
    have hlt : (i 0).val - 30 < 10 := by omega
    refine ⟨⟨(i 0).val - 30, hlt⟩, flush8_2 _, ?_⟩
    rw [mem_blk8]
    obtain ⟨-, -, -, -, -, e0, e1, e2⟩ := idx_facts8 ⟨(i 0).val - 30, hlt⟩
    have e0' : win8_2.index ⟨(i 0).val - 30, hlt⟩ (0 : Fin 3) = (i 0).val - 30 + 30 := e0
    intro a
    match a with
    | ⟨0, _⟩ =>
      show win8_2.index ⟨(i 0).val - 30, hlt⟩ (0 : Fin 3) * 1 ≤ (i 0).val ∧ (i 0).val < win8_2.index ⟨(i 0).val - 30, hlt⟩ (0 : Fin 3) * 1 + 1
      omega
    | ⟨1, _⟩ =>
      show win8_2.index ⟨(i 0).val - 30, hlt⟩ (1 : Fin 3) * 64 ≤ (i 1).val ∧ (i 1).val < win8_2.index ⟨(i 0).val - 30, hlt⟩ (1 : Fin 3) * 64 + 64
      omega
    | ⟨2, _⟩ =>
      show win8_2.index ⟨(i 0).val - 30, hlt⟩ (2 : Fin 3) * 4096 ≤ (i 2).val ∧ (i 2).val < win8_2.index ⟨(i 0).val - 30, hlt⟩ (2 : Fin 3) * 4096 + 4096
      omega

/-- THE ARRAY after the ten points. -/
theorem final8 (c : Dev nD) : (R8.dat V c).arrAt 2 cfg8.N = G8 V c := by
  funext i
  rw [(R8.dat V c).arrAt_eq_piecewise 2 _ (fun t _ => flushed_eq8 V c t) i, R8.A_eq]
  by_cases h : 30 ≤ (i 0).val ∧ (i 0).val < 40
  · rw [if_pos ((covered_iff8 i).mpr h)]
  · rw [if_neg (fun hc => h ((covered_iff8 i).mp hc))]
    unfold G8
    rw [dif_neg h]

/-- The call's output array after its ten points, at (s, dcol, b): for s one of the call's ten rows, entry 64·bit + dcol
    of gathered pair 4096 (s − 30) + b, where bit is the low bit of row number (s − 30, b); any other row as the
    call found it. -/
theorem arr8 (c : Dev nD) (s : Fin 50) (dcol : Fin 64) (b : Fin 4096) :
    (R8.dat V c).arrAt 2 cfg8.N (ix3 s dcol b)
      = if h : 30 ≤ s.val ∧ s.val < 40 then
          (if (idx8 V c (ix3 (⟨s.val - 30, by omega⟩ : Fin 10) (0 : Fin 1) b) &&& 1#32) = 1#32
            then res8 V c (ix2 (⟨4096 * (s.val - 30) + b.val, by omega⟩ : Fin 40960) (⟨64 + dcol.val, by omega⟩ : Fin 128))
            else res8 V c (ix2 (⟨4096 * (s.val - 30) + b.val, by omega⟩ : Fin 40960) (⟨dcol.val, by omega⟩ : Fin 128)))
        else out8 V c (ix3 s dcol b) :=
  (congrFun (final8 V c) (ix3 s dcol b)).trans rfl

/-! ## Transposing call 4 -/

/-- The call's three arrays as the region finds them: the gathered pairs, the row numbers, the growing result. -/
abbrev res9 (c : Dev nD) : S40960x128.Idx → Elt F .f32 := V c main_v30
abbrev idx9 (c : Dev nD) : S10x1x4096.Idx → BitVec 32 := V c main_v39
abbrev out9 (c : Dev nD) : S50x64x4096.Idx → Elt F .f32 := V c main_v40

/-- Row i of the ten the call writes, at (d, b): of pair 4096 i + b the half row number (i, b)'s low bit names, at d. -/
def row9 (c : Dev nD) (i : Fin 10) (d : Fin 64) (b : Fin 4096) : Elt F .f32 :=
  if (idx9 V c (ix3 i (0 : Fin 1) b) &&& 1#32) = 1#32
    then res9 V c (ix2 (⟨4096 * i.val + b.val, by omega⟩ : Fin 40960) (⟨64 + d.val, by omega⟩ : Fin 128))
    else res9 V c (ix2 (⟨4096 * i.val + b.val, by omega⟩ : Fin 40960) (⟨d.val, by omega⟩ : Fin 128))

/-- What the call's output array holds after its ten points: rows 40 … 49 (one per point) from the gathered
    pairs and the row numbers, every other row as the call found it. -/
def G9 (c : Dev nD) : S50x64x4096.Idx → Elt F .f32 := fun j =>
  if h : 40 ≤ (j 0).val ∧ (j 0).val < 50 then row9 V c ⟨(j 0).val - 40, by omega⟩ (j 1) (j 2)
  else out9 V c j

theorem G9_at (c : Dev nD) (i : Fin 10) (d : Fin 64) (b : Fin 4096) :
    G9 V c (ix3 (⟨i.val + 40, by omega⟩ : Fin 50) d b) = row9 V c i d b := by
  unfold G9
  rw [dif_pos (show 40 ≤ i.val + 40 ∧ i.val + 40 < 50 from by omega)]
  exact congrArg (fun k => row9 V c k d b) (Fin.ext (by show i.val + 40 - 40 = i.val; omega))

/-- The printed index maps over the grid: point t reads pair rows 4096 t …, row numbers t, and writes row t + 40. -/
theorem idx_facts9 : ∀ t : Fin cfg9.N, win9_0.index t (0 : Fin 2) = t.val ∧ win9_0.index t (1 : Fin 2) = 0
    ∧ win9_1.index t (0 : Fin 3) = t.val ∧ win9_1.index t (1 : Fin 3) = 0 ∧ win9_1.index t (2 : Fin 3) = 0
    ∧ win9_2.index t (0 : Fin 3) = t.val + 40 ∧ win9_2.index t (1 : Fin 3) = 0 ∧ win9_2.index t (2 : Fin 3) = 0 :=
  (by decide +kernel : ∀ t : Fin grid9.N, _)

theorem outBlk_eq9 (x0 : Vec F S4096x128 .f32) (x1 : Vec F S1x1x4096 .i32) : R9.outBlk x0 x1 = R5.outBlk x0 x1 := by
  rw [Val.outBlk_eq]
  unfold R9.outBlk
  rw [View.canon_unit_zero Val.hz3, View.ld_unit_zero Val.hz2, View.ld_unit_zero Val.hz3]
  try rfl

/-- Point t's block of gathered pairs, at (b, k): pair row 4096 t + b. -/
theorem iblk0_9 (c : Dev nD) (t : Fin 10) (b : Fin 4096) (k : Fin 128) :
    R9.iblk V c 0 t (ix2 b k) = res9 V c (ix2 (⟨4096 * t.val + b.val, by omega⟩ : Fin 40960) k) := by
  obtain ⟨e0, e1, -⟩ := idx_facts9 t
  show V c main_v30 (((cfg9.win 0).blk t).view.emb (ix2 b k)) = _
  refine congrArg (V c main_v30) (funext fun a => Fin.ext ?_)
  match a with
  | ⟨0, _⟩ => show win9_0.index t (0 : Fin 2) * 4096 + 1 * b.val = 4096 * t.val + b.val; omega
  | ⟨1, _⟩ => show win9_0.index t (1 : Fin 2) * 128 + 1 * k.val = k.val; omega

/-- Point t's block of row numbers, at (0, 0, b): row t of the row numbers. -/
theorem iblk1_9 (c : Dev nD) (t : Fin 10) (b : Fin 4096) :
    R9.iblk V c 1 t (ix3 (0 : Fin 1) (0 : Fin 1) b) = idx9 V c (ix3 t (0 : Fin 1) b) := by
  obtain ⟨-, -, e0, e1, e2, -⟩ := idx_facts9 t
  show V c main_v39 (((cfg9.win 1).blk t).view.emb (ix3 (0 : Fin 1) (0 : Fin 1) b)) = _
  refine congrArg (V c main_v39) (funext fun a => Fin.ext ?_)
  match a with
  | ⟨0, _⟩ => show win9_1.index t (0 : Fin 3) * 1 + 1 * 0 = t.val; omega
  | ⟨1, _⟩ => show win9_1.index t (1 : Fin 3) * 1 + 1 * 0 = 0; omega
  | ⟨2, _⟩ => show win9_1.index t (2 : Fin 3) * 4096 + 1 * b.val = b.val; omega

/-- The block point t computes, at (u, d, b), is row t of the ten. -/
theorem out_pt9 (c : Dev nD) (t : Fin 10) (u : Fin 1) (d : Fin 64) (b : Fin 4096) :
    R9.outBlk (R9.iblk V c 0 t) (R9.iblk V c 1 t) (ix3 u d b) = row9 V c t d b := by
  rw [outBlk_eq9, Val.outBlk_apply, iblk1_9, iblk0_9, iblk0_9]
  rfl

/-- WHAT POINT t WRITES BACK is its block of that array. -/
theorem flushed_eq9 (c : Dev nD) (t : Fin cfg9.N) :
    (R9.dat V c).flushed 2 t = ((cfg9.win 2).blk t).view.read (Elt F) (G9 V c) := by
  show (cfg9.win 2).cut (grid9.coords t) ((R9.dat V c).after 2 t) = _
  rw [R9.after_2]
  obtain ⟨-, -, -, -, -, e0, e1, e2⟩ := idx_facts9 t
  have ht : t.val < 10 := t.isLt
  funext j
  show R9.outBlk (R9.iblk V c 0 t) (R9.iblk V c 1 t) j = G9 V c (((cfg9.win 2).blk t).view.emb j)
  have h0 : (j 0).val < 1 := (j 0).isLt
  have hemb : ((cfg9.win 2).blk t).view.emb j = ix3 (⟨t.val + 40, by omega⟩ : Fin 50) (j 1 : Fin 64) (j 2 : Fin 4096) := by
    funext a; apply Fin.ext
    match a with
    | ⟨0, _⟩ => show win9_2.index t (0 : Fin 3) * 1 + 1 * (j 0).val = t.val + 40; omega
    | ⟨1, _⟩ => show win9_2.index t (1 : Fin 3) * 64 + 1 * (j 1).val = (j 1).val; omega
    | ⟨2, _⟩ => show win9_2.index t (2 : Fin 3) * 4096 + 1 * (j 2).val = (j 2).val; omega
  rw [hemb]
  exact (congrArg (R9.outBlk (R9.iblk V c 0 t) (R9.iblk V c 1 t)) (eq_ix3 (j : S1x64x4096.Idx))).trans
    ((out_pt9 V c t (j 0 : Fin 1) (j 1 : Fin 64) (j 2 : Fin 4096)).trans (G9_at V c t (j 1 : Fin 64) (j 2 : Fin 4096)).symm)

/-- An index of the array is in point t's block iff each coordinate is in the block's range on its axis. -/
theorem mem_blk9 (t : Fin cfg9.N) (i : S50x64x4096.Idx) :
    i ∈ ((cfg9.win 2).blk t).view.set ↔ ∀ a : Fin 3, win9_2.index t a * S1x64x4096.size a ≤ (i a).val
      ∧ (i a).val < win9_2.index t a * S1x64x4096.size a + S1x64x4096.size a := by
  show i ∈ ((View.whole main_v40).slice (win9_2.rect t)).set ↔ _
  rw [View.set_slice_whole, Rect.mem_set_unit]
  exact Iff.rfl

/-- THE COVERED INDICES: in some point's block iff in rows 40 … 49. -/
theorem covered_iff9 (i : S50x64x4096.Idx) :
    (∃ t : Fin cfg9.N, (cfg9.win 2).flush t = true ∧ i ∈ ((cfg9.win 2).blk t).view.set) ↔ 40 ≤ (i 0).val ∧ (i 0).val < 50 := by
  have hi1 : (i 1).val < 64 := (i 1).isLt
  have hi2 : (i 2).val < 4096 := (i 2).isLt
  constructor
  · rintro ⟨t, -, hi⟩
    rw [mem_blk9] at hi
    have ht : t.val < 10 := t.isLt
    obtain ⟨-, -, -, -, -, e0, e1, e2⟩ := idx_facts9 t
    have b0 : win9_2.index t (0 : Fin 3) * 1 ≤ (i 0).val ∧ (i 0).val < win9_2.index t (0 : Fin 3) * 1 + 1 := hi 0
    omega
  · intro h
    have hlt : (i 0).val - 40 < 10 := by omega
    refine ⟨⟨(i 0).val - 40, hlt⟩, flush9_2 _, ?_⟩
    rw [mem_blk9]
    obtain ⟨-, -, -, -, -, e0, e1, e2⟩ := idx_facts9 ⟨(i 0).val - 40, hlt⟩
    have e0' : win9_2.index ⟨(i 0).val - 40, hlt⟩ (0 : Fin 3) = (i 0).val - 40 + 40 := e0
    intro a
    match a with
    | ⟨0, _⟩ =>
      show win9_2.index ⟨(i 0).val - 40, hlt⟩ (0 : Fin 3) * 1 ≤ (i 0).val ∧ (i 0).val < win9_2.index ⟨(i 0).val - 40, hlt⟩ (0 : Fin 3) * 1 + 1
      omega
    | ⟨1, _⟩ =>
      show win9_2.index ⟨(i 0).val - 40, hlt⟩ (1 : Fin 3) * 64 ≤ (i 1).val ∧ (i 1).val < win9_2.index ⟨(i 0).val - 40, hlt⟩ (1 : Fin 3) * 64 + 64
      omega
    | ⟨2, _⟩ =>
      show win9_2.index ⟨(i 0).val - 40, hlt⟩ (2 : Fin 3) * 4096 ≤ (i 2).val ∧ (i 2).val < win9_2.index ⟨(i 0).val - 40, hlt⟩ (2 : Fin 3) * 4096 + 4096
      omega

/-- THE ARRAY after the ten points. -/
theorem final9 (c : Dev nD) : (R9.dat V c).arrAt 2 cfg9.N = G9 V c := by
  funext i
  rw [(R9.dat V c).arrAt_eq_piecewise 2 _ (fun t _ => flushed_eq9 V c t) i, R9.A_eq]
  by_cases h : 40 ≤ (i 0).val ∧ (i 0).val < 50
  · rw [if_pos ((covered_iff9 i).mpr h)]
  · rw [if_neg (fun hc => h ((covered_iff9 i).mp hc))]
    unfold G9
    rw [dif_neg h]

/-- The call's output array after its ten points, at (s, dcol, b): for s one of the call's ten rows, entry 64·bit + dcol
    of gathered pair 4096 (s − 40) + b, where bit is the low bit of row number (s − 40, b); any other row as the
    call found it. -/
theorem arr9 (c : Dev nD) (s : Fin 50) (dcol : Fin 64) (b : Fin 4096) :
    (R9.dat V c).arrAt 2 cfg9.N (ix3 s dcol b)
      = if h : 40 ≤ s.val ∧ s.val < 50 then
          (if (idx9 V c (ix3 (⟨s.val - 40, by omega⟩ : Fin 10) (0 : Fin 1) b) &&& 1#32) = 1#32
            then res9 V c (ix2 (⟨4096 * (s.val - 40) + b.val, by omega⟩ : Fin 40960) (⟨64 + dcol.val, by omega⟩ : Fin 128))
            else res9 V c (ix2 (⟨4096 * (s.val - 40) + b.val, by omega⟩ : Fin 40960) (⟨dcol.val, by omega⟩ : Fin 128)))
        else out9 V c (ix3 s dcol b) :=
  (congrFun (final9 V c) (ix3 s dcol b)).trans rfl

end Cert.Proof.KI.Arr

end
-- ==== Proof.KIChain.lean ====
/-
  The final result in terms of what the TensorCore's last part starts from. The last part is eleven segments: a stretch of
  host operations, then five times a transposing call followed by a stretch. Stretch p (p = 0 … 4) lays the transposed
  columns of the row numbers out as call p's [10, 1, 4096] row numbers (and, from p = 1 on, copies the growing result into
  call p's output array); call p writes rows 10 p … 10 p + 9 of the growing result [50, 64, 4096] and leaves the other rows;
  the last stretch transposes the result to [4096, 50, 64]. So entry (b, 10 p + i, dcol) of the final result is what call p
  wrote at (10 p + i, dcol, b), carried unchanged through the later copies and calls: entry 64·bit + dcol of gathered pair
  4096 i + b of call p, bit the low bit of the transposed row number (i, b) — and neither the gathered pairs nor the
  transposed row numbers of call p are written by anything before call p reads them.
-/
import proofs.«205068_g58248346468665_cont_9to1c4b_383_29_alg».proof.Proof.KIArr
import proofs.«205068_g58248346468665_cont_9to1c4b_383_29_alg».proof.Proof.KITailKeep

set_option maxRecDepth 16384

noncomputable section

namespace Cert.Proof.KI.Chain

open Cert.KernelIdeal Cert.KernelIdeal.Gen Cert.Proof.KI Cert.Proof.KI.Tail
open Idealize.ShloMosaic Idealize.ShloMosaic.TcCoe Idealize.ShloMosaic.ValueIdx Idealize.SL.Sem

variable {F : FTy → Type} [FloatOps F]

variable (Wt : Dev nD → Valuation τ sig (Elt F)) (c : Dev nD)

/-! ## What each segment keeps -/

/-- The first stretch writes only call 0's row numbers. -/
theorem keep_h0 (r : Ref sig .tc) (h1 : r ≠ main_v31) : W1 Wt c (Proc.devRef .tc r) = W0 Wt c (Proc.devRef .tc r) := by
  refine StableHlo.after_of_forall_not_mem _ _ (List.forall_iff_forall_mem.mp ?_)
  simp only [hops0, List.Forall, StableHlo.reshape_writes, Finset.mem_singleton]
  exact StableHlo.devRef_ne_of_ne h1
/-- Stretch 1 writes only call 1's row numbers and its output array. -/
theorem keep_h1 (r : Ref sig .tc) (h1 : r ≠ main_v33) (h2 : r ≠ main_v34) : W3 Wt c (Proc.devRef .tc r) = W2 Wt c (Proc.devRef .tc r) := by
  refine StableHlo.after_of_forall_not_mem _ _ (List.forall_iff_forall_mem.mp ?_)
  simp only [hops1, List.Forall, StableHlo.unary_writes, StableHlo.reshape_writes, Finset.mem_singleton]
  exact ⟨StableHlo.devRef_ne_of_ne h1, StableHlo.devRef_ne_of_ne h2⟩
/-- Stretch 2 writes only call 2's row numbers and its output array. -/
theorem keep_h2 (r : Ref sig .tc) (h1 : r ≠ main_v35) (h2 : r ≠ main_v36) : W5 Wt c (Proc.devRef .tc r) = W4 Wt c (Proc.devRef .tc r) := by
  refine StableHlo.after_of_forall_not_mem _ _ (List.forall_iff_forall_mem.mp ?_)
  simp only [hops2, List.Forall, StableHlo.unary_writes, StableHlo.reshape_writes, Finset.mem_singleton]
  exact ⟨StableHlo.devRef_ne_of_ne h1, StableHlo.devRef_ne_of_ne h2⟩
/-- Stretch 3 writes only call 3's row numbers and its output array. -/
theorem keep_h3 (r : Ref sig .tc) (h1 : r ≠ main_v37) (h2 : r ≠ main_v38) : W7 Wt c (Proc.devRef .tc r) = W6 Wt c (Proc.devRef .tc r) := by
  refine StableHlo.after_of_forall_not_mem _ _ (List.forall_iff_forall_mem.mp ?_)
  simp only [hops3, List.Forall, StableHlo.unary_writes, StableHlo.reshape_writes, Finset.mem_singleton]
  exact ⟨StableHlo.devRef_ne_of_ne h1, StableHlo.devRef_ne_of_ne h2⟩
/-- Stretch 4 writes only call 4's row numbers and its output array. -/
theorem keep_h4 (r : Ref sig .tc) (h1 : r ≠ main_v39) (h2 : r ≠ main_v40) : W9 Wt c (Proc.devRef .tc r) = W8 Wt c (Proc.devRef .tc r) := by
  refine StableHlo.after_of_forall_not_mem _ _ (List.forall_iff_forall_mem.mp ?_)
  simp only [hops4, List.Forall, StableHlo.unary_writes, StableHlo.reshape_writes, Finset.mem_singleton]
  exact ⟨StableHlo.devRef_ne_of_ne h1, StableHlo.devRef_ne_of_ne h2⟩

/-! ## What the stretches compute -/

/-- Stretch 0 lays the transposed row numbers out as call 0's: entry (i, 0, b) is entry (i, b). -/
theorem idx_h0 (i : Fin 10) (b : Fin 4096) :
    Arr.idx5 (V1 Wt) c (ix3 i (0 : Fin 1) b) = (W0 Wt c (Proc.devRef .tc main_v2) : S10x4096.Idx → BitVec 32) (ix2 i b) := by
  have e : (W1 Wt c (Proc.devRef .tc main_v31) : S10x1x4096.Idx → BitVec 32)
      = shapeCast S10x1x4096 (W0 Wt c (Proc.devRef .tc main_v2) : S10x4096.Idx → BitVec 32) shapeCasts_S10x4096_S10x1x4096 := by
    show StableHlo.after hops0 (W0 Wt c) (Proc.devRef .tc main_v31) = _
    after_results
    rfl
  show (W1 Wt c (Proc.devRef .tc main_v31) : S10x1x4096.Idx → BitVec 32) (ix3 i (0 : Fin 1) b) = _
  rw [e]
  refine shapeCast_apply _ _ _ (ix2 i b) ?_
  rw [Shape.rowMajor_val_two, Shape.rowMajor_val_three]
  show i.val * 4096 + b.val = (i.val * 1 + 0) * 4096 + b.val
  omega
/-- Stretch 1 lays the transposed row numbers out as call 1's: entry (i, 0, b) is entry (i, b). -/
theorem idx_h1 (i : Fin 10) (b : Fin 4096) :
    Arr.idx6 (V3 Wt) c (ix3 i (0 : Fin 1) b) = (W2 Wt c (Proc.devRef .tc main_v8) : S10x4096.Idx → BitVec 32) (ix2 i b) := by
  have e : (W3 Wt c (Proc.devRef .tc main_v33) : S10x1x4096.Idx → BitVec 32)
      = shapeCast S10x1x4096 (W2 Wt c (Proc.devRef .tc main_v8) : S10x4096.Idx → BitVec 32) shapeCasts_S10x4096_S10x1x4096 := by
    show StableHlo.after hops1 (W2 Wt c) (Proc.devRef .tc main_v33) = _
    after_results
    rfl
  show (W3 Wt c (Proc.devRef .tc main_v33) : S10x1x4096.Idx → BitVec 32) (ix3 i (0 : Fin 1) b) = _
  rw [e]
  refine shapeCast_apply _ _ _ (ix2 i b) ?_
  rw [Shape.rowMajor_val_two, Shape.rowMajor_val_three]
  show i.val * 4096 + b.val = (i.val * 1 + 0) * 4096 + b.val
  omega
/-- Stretch 2 lays the transposed row numbers out as call 2's: entry (i, 0, b) is entry (i, b). -/
theorem idx_h2 (i : Fin 10) (b : Fin 4096) :
    Arr.idx7 (V5 Wt) c (ix3 i (0 : Fin 1) b) = (W4 Wt c (Proc.devRef .tc main_v14) : S10x4096.Idx → BitVec 32) (ix2 i b) := by
  have e : (W5 Wt c (Proc.devRef .tc main_v35) : S10x1x4096.Idx → BitVec 32)
      = shapeCast S10x1x4096 (W4 Wt c (Proc.devRef .tc main_v14) : S10x4096.Idx → BitVec 32) shapeCasts_S10x4096_S10x1x4096 := by
    show StableHlo.after hops2 (W4 Wt c) (Proc.devRef .tc main_v35) = _
    after_results
    rfl
  show (W5 Wt c (Proc.devRef .tc main_v35) : S10x1x4096.Idx → BitVec 32) (ix3 i (0 : Fin 1) b) = _
  rw [e]
  refine shapeCast_apply _ _ _ (ix2 i b) ?_
  rw [Shape.rowMajor_val_two, Shape.rowMajor_val_three]
  show i.val * 4096 + b.val = (i.val * 1 + 0) * 4096 + b.val
  omega
/-- Stretch 3 lays the transposed row numbers out as call 3's: entry (i, 0, b) is entry (i, b). -/
theorem idx_h3 (i : Fin 10) (b : Fin 4096) :
    Arr.idx8 (V7 Wt) c (ix3 i (0 : Fin 1) b) = (W6 Wt c (Proc.devRef .tc main_v20) : S10x4096.Idx → BitVec 32) (ix2 i b) := by
  have e : (W7 Wt c (Proc.devRef .tc main_v37) : S10x1x4096.Idx → BitVec 32)
      = shapeCast S10x1x4096 (W6 Wt c (Proc.devRef .tc main_v20) : S10x4096.Idx → BitVec 32) shapeCasts_S10x4096_S10x1x4096 := by
    show StableHlo.after hops3 (W6 Wt c) (Proc.devRef .tc main_v37) = _
    after_results
    rfl
  show (W7 Wt c (Proc.devRef .tc main_v37) : S10x1x4096.Idx → BitVec 32) (ix3 i (0 : Fin 1) b) = _
  rw [e]
  refine shapeCast_apply _ _ _ (ix2 i b) ?_
  rw [Shape.rowMajor_val_two, Shape.rowMajor_val_three]
  show i.val * 4096 + b.val = (i.val * 1 + 0) * 4096 + b.val
  omega
/-- Stretch 4 lays the transposed row numbers out as call 4's: entry (i, 0, b) is entry (i, b). -/
theorem idx_h4 (i : Fin 10) (b : Fin 4096) :
    Arr.idx9 (V9 Wt) c (ix3 i (0 : Fin 1) b) = (W8 Wt c (Proc.devRef .tc main_v26) : S10x4096.Idx → BitVec 32) (ix2 i b) := by
  have e : (W9 Wt c (Proc.devRef .tc main_v39) : S10x1x4096.Idx → BitVec 32)
      = shapeCast S10x1x4096 (W8 Wt c (Proc.devRef .tc main_v26) : S10x4096.Idx → BitVec 32) shapeCasts_S10x4096_S10x1x4096 := by
    show StableHlo.after hops4 (W8 Wt c) (Proc.devRef .tc main_v39) = _
    after_results
    rfl
  show (W9 Wt c (Proc.devRef .tc main_v39) : S10x1x4096.Idx → BitVec 32) (ix3 i (0 : Fin 1) b) = _
  rw [e]
  refine shapeCast_apply _ _ _ (ix2 i b) ?_
  rw [Shape.rowMajor_val_two, Shape.rowMajor_val_three]
  show i.val * 4096 + b.val = (i.val * 1 + 0) * 4096 + b.val
  omega

/-- Stretch 1 copies the growing result into call 1's output array. -/
theorem copy_h1 : W3 Wt c (Proc.devRef .tc main_v34) = W2 Wt c (Proc.devRef .tc main_v32) := by
  show StableHlo.after hops1 (W2 Wt c) (Proc.devRef .tc main_v34) = _
  after_results
  rfl
/-- Stretch 2 copies the growing result into call 2's output array. -/
theorem copy_h2 : W5 Wt c (Proc.devRef .tc main_v36) = W4 Wt c (Proc.devRef .tc main_v34) := by
  show StableHlo.after hops2 (W4 Wt c) (Proc.devRef .tc main_v36) = _
  after_results
  rfl
/-- Stretch 3 copies the growing result into call 3's output array. -/
theorem copy_h3 : W7 Wt c (Proc.devRef .tc main_v38) = W6 Wt c (Proc.devRef .tc main_v36) := by
  show StableHlo.after hops3 (W6 Wt c) (Proc.devRef .tc main_v38) = _
  after_results
  rfl
/-- Stretch 4 copies the growing result into call 4's output array. -/
theorem copy_h4 : W9 Wt c (Proc.devRef .tc main_v40) = W8 Wt c (Proc.devRef .tc main_v38) := by
  show StableHlo.after hops4 (W8 Wt c) (Proc.devRef .tc main_v40) = _
  after_results
  rfl

/-- The last stretch transposes: entry (b, s, d) of the final result is entry (s, d, b) of the grown result. -/
theorem last_h (b : Fin 4096) (s : Fin 50) (d : Fin 64) :
    (W11 Wt c (Proc.devRef .tc main_v41) : S4096x50x64.Idx → Elt F .f32) (ix3 b s d)
      = (W10 Wt c (Proc.devRef .tc main_v40) : S50x64x4096.Idx → Elt F .f32) (ix3 s d b) := by
  have e : (W11 Wt c (Proc.devRef .tc main_v41) : S4096x50x64.Idx → Elt F .f32)
      = transpose S4096x50x64 [2, 0, 1] (W10 Wt c (Proc.devRef .tc main_v40) : S50x64x4096.Idx → Elt F .f32) transposes_S50x64x4096_S4096x50x64_2_0_1 := by
    show StableHlo.after hops5 (W10 Wt c) (Proc.devRef .tc main_v41) = _
    after_results
  rw [e]
  refine transpose_apply _ _ _ (ix3 b s d) (ix3 s d b) fun a => ?_
  match a with
  | ⟨0, _⟩ => rfl
  | ⟨1, _⟩ => rfl
  | ⟨2, _⟩ => rfl

/-! ## Through the calls -/

/-- A buffer that none of the first 1 stretches writes and that is no array of the first 1 calls is, before call 1's stretch, as
    the last part found it. -/
theorem down1 (r : Ref sig .tc) (hs0 : ∀ w, Pipeline.arrRef spec5 w ≠ r) (hh0 : r ≠ main_v31) :
    W2 Wt c (Proc.devRef .tc r) = Wt c (Proc.devRef .tc r) :=
  (W2_of_ne Wt c r hs0).trans ((keep_h0 Wt c r hh0))

/-- A buffer that none of the first 2 stretches writes and that is no array of the first 2 calls is, before call 2's stretch, as
    the last part found it. -/
theorem down2 (r : Ref sig .tc) (hs0 : ∀ w, Pipeline.arrRef spec5 w ≠ r) (hh0 : r ≠ main_v31) (hs1 : ∀ w, Pipeline.arrRef spec6 w ≠ r) (hh1a : r ≠ main_v33) (hh1b : r ≠ main_v34) :
    W4 Wt c (Proc.devRef .tc r) = Wt c (Proc.devRef .tc r) :=
  (W4_of_ne Wt c r hs1).trans ((keep_h1 Wt c r hh1a hh1b).trans (down1 Wt c r hs0 hh0))

/-- A buffer that none of the first 3 stretches writes and that is no array of the first 3 calls is, before call 3's stretch, as
    the last part found it. -/
theorem down3 (r : Ref sig .tc) (hs0 : ∀ w, Pipeline.arrRef spec5 w ≠ r) (hh0 : r ≠ main_v31) (hs1 : ∀ w, Pipeline.arrRef spec6 w ≠ r) (hh1a : r ≠ main_v33) (hh1b : r ≠ main_v34) (hs2 : ∀ w, Pipeline.arrRef spec7 w ≠ r) (hh2a : r ≠ main_v35) (hh2b : r ≠ main_v36) :
    W6 Wt c (Proc.devRef .tc r) = Wt c (Proc.devRef .tc r) :=
  (W6_of_ne Wt c r hs2).trans ((keep_h2 Wt c r hh2a hh2b).trans (down2 Wt c r hs0 hh0 hs1 hh1a hh1b))

/-- A buffer that none of the first 4 stretches writes and that is no array of the first 4 calls is, before call 4's stretch, as
    the last part found it. -/
theorem down4 (r : Ref sig .tc) (hs0 : ∀ w, Pipeline.arrRef spec5 w ≠ r) (hh0 : r ≠ main_v31) (hs1 : ∀ w, Pipeline.arrRef spec6 w ≠ r) (hh1a : r ≠ main_v33) (hh1b : r ≠ main_v34) (hs2 : ∀ w, Pipeline.arrRef spec7 w ≠ r) (hh2a : r ≠ main_v35) (hh2b : r ≠ main_v36) (hs3 : ∀ w, Pipeline.arrRef spec8 w ≠ r) (hh3a : r ≠ main_v37) (hh3b : r ≠ main_v38) :
    W8 Wt c (Proc.devRef .tc r) = Wt c (Proc.devRef .tc r) :=
  (W8_of_ne Wt c r hs3).trans ((keep_h3 Wt c r hh3a hh3b).trans (down3 Wt c r hs0 hh0 hs1 hh1a hh1b hs2 hh2a hh2b))

/-- Call 1 leaves a row outside its own ten as the copy found it. -/
theorem miss1 (s : Fin 50) (d : Fin 64) (b : Fin 4096) (h : ¬(10 ≤ s.val ∧ s.val < 20)) :
    (W4 Wt c (Proc.devRef .tc main_v34) : S50x64x4096.Idx → Elt F .f32) (ix3 s d b)
      = (W2 Wt c (Proc.devRef .tc main_v32) : S50x64x4096.Idx → Elt F .f32) (ix3 s d b) :=
  calc (W4 Wt c (Proc.devRef .tc main_v34) : S50x64x4096.Idx → Elt F .f32) (ix3 s d b)
    _ = (R6.dat (V3 Wt) c).arrAt 2 cfg6.N (ix3 s d b) := congrFun (W4_arr Wt c 2) _
    _ = Arr.G6 (V3 Wt) c (ix3 s d b) := congrFun (Arr.final6 (V3 Wt) c) _
    _ = Arr.out6 (V3 Wt) c (ix3 s d b) := by unfold Arr.G6; exact dif_neg h
    _ = (W2 Wt c (Proc.devRef .tc main_v32) : S50x64x4096.Idx → Elt F .f32) (ix3 s d b) := congrFun (copy_h1 Wt c) _

/-- Call 2 leaves a row outside its own ten as the copy found it. -/
theorem miss2 (s : Fin 50) (d : Fin 64) (b : Fin 4096) (h : ¬(20 ≤ s.val ∧ s.val < 30)) :
    (W6 Wt c (Proc.devRef .tc main_v36) : S50x64x4096.Idx → Elt F .f32) (ix3 s d b)
      = (W4 Wt c (Proc.devRef .tc main_v34) : S50x64x4096.Idx → Elt F .f32) (ix3 s d b) :=
  calc (W6 Wt c (Proc.devRef .tc main_v36) : S50x64x4096.Idx → Elt F .f32) (ix3 s d b)
    _ = (R7.dat (V5 Wt) c).arrAt 2 cfg7.N (ix3 s d b) := congrFun (W6_arr Wt c 2) _
    _ = Arr.G7 (V5 Wt) c (ix3 s d b) := congrFun (Arr.final7 (V5 Wt) c) _
    _ = Arr.out7 (V5 Wt) c (ix3 s d b) := by unfold Arr.G7; exact dif_neg h
    _ = (W4 Wt c (Proc.devRef .tc main_v34) : S50x64x4096.Idx → Elt F .f32) (ix3 s d b) := congrFun (copy_h2 Wt c) _

/-- Call 3 leaves a row outside its own ten as the copy found it. -/
theorem miss3 (s : Fin 50) (d : Fin 64) (b : Fin 4096) (h : ¬(30 ≤ s.val ∧ s.val < 40)) :
    (W8 Wt c (Proc.devRef .tc main_v38) : S50x64x4096.Idx → Elt F .f32) (ix3 s d b)
      = (W6 Wt c (Proc.devRef .tc main_v36) : S50x64x4096.Idx → Elt F .f32) (ix3 s d b) :=
  calc (W8 Wt c (Proc.devRef .tc main_v38) : S50x64x4096.Idx → Elt F .f32) (ix3 s d b)
    _ = (R8.dat (V7 Wt) c).arrAt 2 cfg8.N (ix3 s d b) := congrFun (W8_arr Wt c 2) _
    _ = Arr.G8 (V7 Wt) c (ix3 s d b) := congrFun (Arr.final8 (V7 Wt) c) _
    _ = Arr.out8 (V7 Wt) c (ix3 s d b) := by unfold Arr.G8; exact dif_neg h
    _ = (W6 Wt c (Proc.devRef .tc main_v36) : S50x64x4096.Idx → Elt F .f32) (ix3 s d b) := congrFun (copy_h3 Wt c) _

/-- Call 4 leaves a row outside its own ten as the copy found it. -/
theorem miss4 (s : Fin 50) (d : Fin 64) (b : Fin 4096) (h : ¬(40 ≤ s.val ∧ s.val < 50)) :
    (W10 Wt c (Proc.devRef .tc main_v40) : S50x64x4096.Idx → Elt F .f32) (ix3 s d b)
      = (W8 Wt c (Proc.devRef .tc main_v38) : S50x64x4096.Idx → Elt F .f32) (ix3 s d b) :=
  calc (W10 Wt c (Proc.devRef .tc main_v40) : S50x64x4096.Idx → Elt F .f32) (ix3 s d b)
    _ = (R9.dat (V9 Wt) c).arrAt 2 cfg9.N (ix3 s d b) := congrFun (W10_arr Wt c 2) _
    _ = Arr.G9 (V9 Wt) c (ix3 s d b) := congrFun (Arr.final9 (V9 Wt) c) _
    _ = Arr.out9 (V9 Wt) c (ix3 s d b) := by unfold Arr.G9; exact dif_neg h
    _ = (W8 Wt c (Proc.devRef .tc main_v38) : S50x64x4096.Idx → Elt F .f32) (ix3 s d b) := congrFun (copy_h4 Wt c) _

/-- Call 0 writes its row i. -/
theorem hit0 (i : Fin 10) (d : Fin 64) (b : Fin 4096) :
    (W2 Wt c (Proc.devRef .tc main_v32) : S50x64x4096.Idx → Elt F .f32) (ix3 (⟨0 + i.val, by omega⟩ : Fin 50) d b)
      = Arr.row5 (V1 Wt) c i d b :=
  calc (W2 Wt c (Proc.devRef .tc main_v32) : S50x64x4096.Idx → Elt F .f32) (ix3 (⟨0 + i.val, by omega⟩ : Fin 50) d b)
    _ = (R5.dat (V1 Wt) c).arrAt 2 cfg5.N (ix3 (⟨0 + i.val, by omega⟩ : Fin 50) d b) := congrFun (W2_arr Wt c 2) _
    _ = Arr.G5 (V1 Wt) c (ix3 (⟨0 + i.val, by omega⟩ : Fin 50) d b) := congrFun (Arr.final5 (V1 Wt) c) _
    _ = Arr.G5 (V1 Wt) c (ix3 (⟨i.val + 0, by omega⟩ : Fin 50) d b) :=
      congrArg (fun s : Fin 50 => Arr.G5 (V1 Wt) c (ix3 s d b)) (Fin.ext (Nat.add_comm _ _))
    _ = Arr.row5 (V1 Wt) c i d b := Arr.G5_at (V1 Wt) c i d b

/-- Call 1 writes its row i. -/
theorem hit1 (i : Fin 10) (d : Fin 64) (b : Fin 4096) :
    (W4 Wt c (Proc.devRef .tc main_v34) : S50x64x4096.Idx → Elt F .f32) (ix3 (⟨10 + i.val, by omega⟩ : Fin 50) d b)
      = Arr.row6 (V3 Wt) c i d b :=
  calc (W4 Wt c (Proc.devRef .tc main_v34) : S50x64x4096.Idx → Elt F .f32) (ix3 (⟨10 + i.val, by omega⟩ : Fin 50) d b)
    _ = (R6.dat (V3 Wt) c).arrAt 2 cfg6.N (ix3 (⟨10 + i.val, by omega⟩ : Fin 50) d b) := congrFun (W4_arr Wt c 2) _
    _ = Arr.G6 (V3 Wt) c (ix3 (⟨10 + i.val, by omega⟩ : Fin 50) d b) := congrFun (Arr.final6 (V3 Wt) c) _
    _ = Arr.G6 (V3 Wt) c (ix3 (⟨i.val + 10, by omega⟩ : Fin 50) d b) :=
      congrArg (fun s : Fin 50 => Arr.G6 (V3 Wt) c (ix3 s d b)) (Fin.ext (Nat.add_comm _ _))
    _ = Arr.row6 (V3 Wt) c i d b := Arr.G6_at (V3 Wt) c i d b

/-- Call 2 writes its row i. -/
theorem hit2 (i : Fin 10) (d : Fin 64) (b : Fin 4096) :
    (W6 Wt c (Proc.devRef .tc main_v36) : S50x64x4096.Idx → Elt F .f32) (ix3 (⟨20 + i.val, by omega⟩ : Fin 50) d b)
      = Arr.row7 (V5 Wt) c i d b :=
  calc (W6 Wt c (Proc.devRef .tc main_v36) : S50x64x4096.Idx → Elt F .f32) (ix3 (⟨20 + i.val, by omega⟩ : Fin 50) d b)
    _ = (R7.dat (V5 Wt) c).arrAt 2 cfg7.N (ix3 (⟨20 + i.val, by omega⟩ : Fin 50) d b) := congrFun (W6_arr Wt c 2) _
    _ = Arr.G7 (V5 Wt) c (ix3 (⟨20 + i.val, by omega⟩ : Fin 50) d b) := congrFun (Arr.final7 (V5 Wt) c) _
    _ = Arr.G7 (V5 Wt) c (ix3 (⟨i.val + 20, by omega⟩ : Fin 50) d b) :=
      congrArg (fun s : Fin 50 => Arr.G7 (V5 Wt) c (ix3 s d b)) (Fin.ext (Nat.add_comm _ _))
    _ = Arr.row7 (V5 Wt) c i d b := Arr.G7_at (V5 Wt) c i d b

/-- Call 3 writes its row i. -/
theorem hit3 (i : Fin 10) (d : Fin 64) (b : Fin 4096) :
    (W8 Wt c (Proc.devRef .tc main_v38) : S50x64x4096.Idx → Elt F .f32) (ix3 (⟨30 + i.val, by omega⟩ : Fin 50) d b)
      = Arr.row8 (V7 Wt) c i d b :=
  calc (W8 Wt c (Proc.devRef .tc main_v38) : S50x64x4096.Idx → Elt F .f32) (ix3 (⟨30 + i.val, by omega⟩ : Fin 50) d b)
    _ = (R8.dat (V7 Wt) c).arrAt 2 cfg8.N (ix3 (⟨30 + i.val, by omega⟩ : Fin 50) d b) := congrFun (W8_arr Wt c 2) _
    _ = Arr.G8 (V7 Wt) c (ix3 (⟨30 + i.val, by omega⟩ : Fin 50) d b) := congrFun (Arr.final8 (V7 Wt) c) _
    _ = Arr.G8 (V7 Wt) c (ix3 (⟨i.val + 30, by omega⟩ : Fin 50) d b) :=
      congrArg (fun s : Fin 50 => Arr.G8 (V7 Wt) c (ix3 s d b)) (Fin.ext (Nat.add_comm _ _))
    _ = Arr.row8 (V7 Wt) c i d b := Arr.G8_at (V7 Wt) c i d b

/-- Call 4 writes its row i. -/
theorem hit4 (i : Fin 10) (d : Fin 64) (b : Fin 4096) :
    (W10 Wt c (Proc.devRef .tc main_v40) : S50x64x4096.Idx → Elt F .f32) (ix3 (⟨40 + i.val, by omega⟩ : Fin 50) d b)
      = Arr.row9 (V9 Wt) c i d b :=
  calc (W10 Wt c (Proc.devRef .tc main_v40) : S50x64x4096.Idx → Elt F .f32) (ix3 (⟨40 + i.val, by omega⟩ : Fin 50) d b)
    _ = (R9.dat (V9 Wt) c).arrAt 2 cfg9.N (ix3 (⟨40 + i.val, by omega⟩ : Fin 50) d b) := congrFun (W10_arr Wt c 2) _
    _ = Arr.G9 (V9 Wt) c (ix3 (⟨40 + i.val, by omega⟩ : Fin 50) d b) := congrFun (Arr.final9 (V9 Wt) c) _
    _ = Arr.G9 (V9 Wt) c (ix3 (⟨i.val + 40, by omega⟩ : Fin 50) d b) :=
      congrArg (fun s : Fin 50 => Arr.G9 (V9 Wt) c (ix3 s d b)) (Fin.ext (Nat.add_comm _ _))
    _ = Arr.row9 (V9 Wt) c i d b := Arr.G9_at (V9 Wt) c i d b

/-! ## The result -/

/-- The final result, and each call's transposed row numbers and gathered pairs as the last part finds them. -/
abbrev finW : S4096x50x64.Idx → Elt F .f32 := W11 Wt c (Proc.devRef .tc main_v41)
abbrev xtW0 : S10x4096.Idx → BitVec 32 := Wt c (Proc.devRef .tc main_v2)
abbrev resW0 : S40960x128.Idx → Elt F .f32 := Wt c (Proc.devRef .tc main_v6)
abbrev xtW1 : S10x4096.Idx → BitVec 32 := Wt c (Proc.devRef .tc main_v8)
abbrev resW1 : S40960x128.Idx → Elt F .f32 := Wt c (Proc.devRef .tc main_v12)
abbrev xtW2 : S10x4096.Idx → BitVec 32 := Wt c (Proc.devRef .tc main_v14)
abbrev resW2 : S40960x128.Idx → Elt F .f32 := Wt c (Proc.devRef .tc main_v18)
abbrev xtW3 : S10x4096.Idx → BitVec 32 := Wt c (Proc.devRef .tc main_v20)
abbrev resW3 : S40960x128.Idx → Elt F .f32 := Wt c (Proc.devRef .tc main_v24)
abbrev xtW4 : S10x4096.Idx → BitVec 32 := Wt c (Proc.devRef .tc main_v26)
abbrev resW4 : S40960x128.Idx → Elt F .f32 := Wt c (Proc.devRef .tc main_v30)

/-- The last part's result at (b, 0 + i, dcol): entry 64·bit + dcol of call 0's gathered pair 4096 i + b, bit the low bit of
    call 0's transposed row number (i, b) — both as the last part found them. -/
theorem W11_out0 (b : Fin 4096) (i : Fin 10) (dcol : Fin 64) :
    finW Wt c (ix3 b (⟨0 + i.val, by omega⟩ : Fin 50) dcol)
      = if (xtW0 Wt c (ix2 i b) &&& 1#32) = 1#32
        then resW0 Wt c (ix2 (⟨4096 * i.val + b.val, by omega⟩ : Fin 40960) (⟨64 + dcol.val, by omega⟩ : Fin 128))
        else resW0 Wt c (ix2 (⟨4096 * i.val + b.val, by omega⟩ : Fin 40960) (⟨dcol.val, by omega⟩ : Fin 128)) := by
  have hi : i.val < 10 := i.isLt
  have hidx : Arr.idx5 (V1 Wt) c (ix3 i (0 : Fin 1) b) = xtW0 Wt c (ix2 i b) :=
    (idx_h0 Wt c i b).trans (congrFun (rfl : W0 Wt c (Proc.devRef .tc main_v2) = Wt c (Proc.devRef .tc main_v2)) (ix2 i b))
  have hres : Arr.res5 (V1 Wt) c = resW0 Wt c :=
    (keep_h0 Wt c main_v6 (by decide)).trans (rfl : W0 Wt c (Proc.devRef .tc main_v6) = Wt c (Proc.devRef .tc main_v6))
  show (W11 Wt c (Proc.devRef .tc main_v41) : S4096x50x64.Idx → Elt F .f32) (ix3 b (⟨0 + i.val, by omega⟩ : Fin 50) dcol) = _
  rw [last_h, miss4 Wt c _ _ _ (by show ¬(40 ≤ 0 + i.val ∧ 0 + i.val < 50); omega), miss3 Wt c _ _ _ (by show ¬(30 ≤ 0 + i.val ∧ 0 + i.val < 40); omega), miss2 Wt c _ _ _ (by show ¬(20 ≤ 0 + i.val ∧ 0 + i.val < 30); omega), miss1 Wt c _ _ _ (by show ¬(10 ≤ 0 + i.val ∧ 0 + i.val < 20); omega), hit0]
  unfold Arr.row5
  rw [hidx, hres]

/-- The last part's result at (b, 10 + i, dcol): entry 64·bit + dcol of call 1's gathered pair 4096 i + b, bit the low bit of
    call 1's transposed row number (i, b) — both as the last part found them. -/
theorem W11_out1 (b : Fin 4096) (i : Fin 10) (dcol : Fin 64) :
    finW Wt c (ix3 b (⟨10 + i.val, by omega⟩ : Fin 50) dcol)
      = if (xtW1 Wt c (ix2 i b) &&& 1#32) = 1#32
        then resW1 Wt c (ix2 (⟨4096 * i.val + b.val, by omega⟩ : Fin 40960) (⟨64 + dcol.val, by omega⟩ : Fin 128))
        else resW1 Wt c (ix2 (⟨4096 * i.val + b.val, by omega⟩ : Fin 40960) (⟨dcol.val, by omega⟩ : Fin 128)) := by
  have hi : i.val < 10 := i.isLt
  have hidx : Arr.idx6 (V3 Wt) c (ix3 i (0 : Fin 1) b) = xtW1 Wt c (ix2 i b) :=
    (idx_h1 Wt c i b).trans (congrFun (down1 Wt c main_v8 (by decide) (by decide) : W2 Wt c (Proc.devRef .tc main_v8) = Wt c (Proc.devRef .tc main_v8)) (ix2 i b))
  have hres : Arr.res6 (V3 Wt) c = resW1 Wt c :=
    (keep_h1 Wt c main_v12 (by decide) (by decide)).trans (down1 Wt c main_v12 (by decide) (by decide) : W2 Wt c (Proc.devRef .tc main_v12) = Wt c (Proc.devRef .tc main_v12))
  show (W11 Wt c (Proc.devRef .tc main_v41) : S4096x50x64.Idx → Elt F .f32) (ix3 b (⟨10 + i.val, by omega⟩ : Fin 50) dcol) = _
  rw [last_h, miss4 Wt c _ _ _ (by show ¬(40 ≤ 10 + i.val ∧ 10 + i.val < 50); omega), miss3 Wt c _ _ _ (by show ¬(30 ≤ 10 + i.val ∧ 10 + i.val < 40); omega), miss2 Wt c _ _ _ (by show ¬(20 ≤ 10 + i.val ∧ 10 + i.val < 30); omega), hit1]
  unfold Arr.row6
  rw [hidx, hres]

/-- The last part's result at (b, 20 + i, dcol): entry 64·bit + dcol of call 2's gathered pair 4096 i + b, bit the low bit of
    call 2's transposed row number (i, b) — both as the last part found them. -/
theorem W11_out2 (b : Fin 4096) (i : Fin 10) (dcol : Fin 64) :
    finW Wt c (ix3 b (⟨20 + i.val, by omega⟩ : Fin 50) dcol)
      = if (xtW2 Wt c (ix2 i b) &&& 1#32) = 1#32
        then resW2 Wt c (ix2 (⟨4096 * i.val + b.val, by omega⟩ : Fin 40960) (⟨64 + dcol.val, by omega⟩ : Fin 128))
        else resW2 Wt c (ix2 (⟨4096 * i.val + b.val, by omega⟩ : Fin 40960) (⟨dcol.val, by omega⟩ : Fin 128)) := by
  have hi : i.val < 10 := i.isLt
  have hidx : Arr.idx7 (V5 Wt) c (ix3 i (0 : Fin 1) b) = xtW2 Wt c (ix2 i b) :=
    (idx_h2 Wt c i b).trans (congrFun (down2 Wt c main_v14 (by decide) (by decide) (by decide) (by decide) (by decide) : W4 Wt c (Proc.devRef .tc main_v14) = Wt c (Proc.devRef .tc main_v14)) (ix2 i b))
  have hres : Arr.res7 (V5 Wt) c = resW2 Wt c :=
    (keep_h2 Wt c main_v18 (by decide) (by decide)).trans (down2 Wt c main_v18 (by decide) (by decide) (by decide) (by decide) (by decide) : W4 Wt c (Proc.devRef .tc main_v18) = Wt c (Proc.devRef .tc main_v18))
  show (W11 Wt c (Proc.devRef .tc main_v41) : S4096x50x64.Idx → Elt F .f32) (ix3 b (⟨20 + i.val, by omega⟩ : Fin 50) dcol) = _
  rw [last_h, miss4 Wt c _ _ _ (by show ¬(40 ≤ 20 + i.val ∧ 20 + i.val < 50); omega), miss3 Wt c _ _ _ (by show ¬(30 ≤ 20 + i.val ∧ 20 + i.val < 40); omega), hit2]
  unfold Arr.row7
  rw [hidx, hres]

/-- The last part's result at (b, 30 + i, dcol): entry 64·bit + dcol of call 3's gathered pair 4096 i + b, bit the low bit of
    call 3's transposed row number (i, b) — both as the last part found them. -/
theorem W11_out3 (b : Fin 4096) (i : Fin 10) (dcol : Fin 64) :
    finW Wt c (ix3 b (⟨30 + i.val, by omega⟩ : Fin 50) dcol)
      = if (xtW3 Wt c (ix2 i b) &&& 1#32) = 1#32
        then resW3 Wt c (ix2 (⟨4096 * i.val + b.val, by omega⟩ : Fin 40960) (⟨64 + dcol.val, by omega⟩ : Fin 128))
        else resW3 Wt c (ix2 (⟨4096 * i.val + b.val, by omega⟩ : Fin 40960) (⟨dcol.val, by omega⟩ : Fin 128)) := by
  have hi : i.val < 10 := i.isLt
  have hidx : Arr.idx8 (V7 Wt) c (ix3 i (0 : Fin 1) b) = xtW3 Wt c (ix2 i b) :=
    (idx_h3 Wt c i b).trans (congrFun (down3 Wt c main_v20 (by decide) (by decide) (by decide) (by decide) (by decide) (by decide) (by decide) (by decide) : W6 Wt c (Proc.devRef .tc main_v20) = Wt c (Proc.devRef .tc main_v20)) (ix2 i b))
  have hres : Arr.res8 (V7 Wt) c = resW3 Wt c :=
    (keep_h3 Wt c main_v24 (by decide) (by decide)).trans (down3 Wt c main_v24 (by decide) (by decide) (by decide) (by decide) (by decide) (by decide) (by decide) (by decide) : W6 Wt c (Proc.devRef .tc main_v24) = Wt c (Proc.devRef .tc main_v24))
  show (W11 Wt c (Proc.devRef .tc main_v41) : S4096x50x64.Idx → Elt F .f32) (ix3 b (⟨30 + i.val, by omega⟩ : Fin 50) dcol) = _
  rw [last_h, miss4 Wt c _ _ _ (by show ¬(40 ≤ 30 + i.val ∧ 30 + i.val < 50); omega), hit3]
  unfold Arr.row8
  rw [hidx, hres]

/-- The last part's result at (b, 40 + i, dcol): entry 64·bit + dcol of call 4's gathered pair 4096 i + b, bit the low bit of
    call 4's transposed row number (i, b) — both as the last part found them. -/
theorem W11_out4 (b : Fin 4096) (i : Fin 10) (dcol : Fin 64) :
    finW Wt c (ix3 b (⟨40 + i.val, by omega⟩ : Fin 50) dcol)
      = if (xtW4 Wt c (ix2 i b) &&& 1#32) = 1#32
        then resW4 Wt c (ix2 (⟨4096 * i.val + b.val, by omega⟩ : Fin 40960) (⟨64 + dcol.val, by omega⟩ : Fin 128))
        else resW4 Wt c (ix2 (⟨4096 * i.val + b.val, by omega⟩ : Fin 40960) (⟨dcol.val, by omega⟩ : Fin 128)) := by
  have hi : i.val < 10 := i.isLt
  have hidx : Arr.idx9 (V9 Wt) c (ix3 i (0 : Fin 1) b) = xtW4 Wt c (ix2 i b) :=
    (idx_h4 Wt c i b).trans (congrFun (down4 Wt c main_v26 (by decide) (by decide) (by decide) (by decide) (by decide) (by decide) (by decide) (by decide) (by decide) (by decide) (by decide) : W8 Wt c (Proc.devRef .tc main_v26) = Wt c (Proc.devRef .tc main_v26)) (ix2 i b))
  have hres : Arr.res9 (V9 Wt) c = resW4 Wt c :=
    (keep_h4 Wt c main_v30 (by decide) (by decide)).trans (down4 Wt c main_v30 (by decide) (by decide) (by decide) (by decide) (by decide) (by decide) (by decide) (by decide) (by decide) (by decide) (by decide) : W8 Wt c (Proc.devRef .tc main_v30) = Wt c (Proc.devRef .tc main_v30))
  show (W11 Wt c (Proc.devRef .tc main_v41) : S4096x50x64.Idx → Elt F .f32) (ix3 b (⟨40 + i.val, by omega⟩ : Fin 50) dcol) = _
  rw [last_h, hit4]
  unfold Arr.row9
  rw [hidx, hres]

end Cert.Proof.KI.Chain

end
-- ==== Proof.KVRes.lean ====
/-
  The closing equation of the value claim. The kernel's result is the last part's: entry (b, 10 p + i, dcol) is entry
  64·bit + dcol of call p's gathered pair 4096 i + b, bit the low bit of x[b, 10 p + i]. The gathered pairs are the table
  laid out two rows to a row, read at the halved row numbers: pair 4096 i + b is row (x[b, 10 p + i] >> 1) of the
  [50000, 128] layout, because position 4096 i + b of the halved row numbers, laid out [32, 10, 128] in row-major order,
  is entry (i, b) of the transposed columns. Row r >> 1 of that layout at column 64·(r & 1) + dcol is the table's row r
  at column dcol; and the reference's result at (b, s, dcol), for row numbers in [0, 99999], is the table's row x[b, s] at
  column dcol. So the two results are one array.
-/
import proofs.«205068_g58248346468665_cont_9to1c4b_383_29_alg».proof.Proof.KIChain
import proofs.«205068_g58248346468665_cont_9to1c4b_383_29_alg».proof.Proof.KIIdx
import proofs.«205068_g58248346468665_cont_9to1c4b_383_29_alg».proof.Proof.KIValue
import proofs.«205068_g58248346468665_cont_9to1c4b_383_29_alg».proof.Proof.KIPre
import proofs.«205068_g58248346468665_cont_9to1c4b_383_29_alg».proof.Proof.RefRun
import proofs.«205068_g58248346468665_cont_9to1c4b_383_29_alg».proof.Proof.KVCanon0
import proofs.«205068_g58248346468665_cont_9to1c4b_383_29_alg».proof.Proof.KVCanon1
import proofs.«205068_g58248346468665_cont_9to1c4b_383_29_alg».proof.Proof.KVCanon2
import proofs.«205068_g58248346468665_cont_9to1c4b_383_29_alg».proof.Proof.KVCanon3
import proofs.«205068_g58248346468665_cont_9to1c4b_383_29_alg».proof.Proof.KVCanon4

set_option maxRecDepth 16384

noncomputable section

namespace Cert.Proof.KV.Res

open Cert.KernelIdeal Cert.KernelIdeal.Gen Cert.Proof.KI
open Idealize.ShloMosaic Idealize.ShloMosaic.TcCoe Idealize.ShloMosaic.ValueIdx Idealize.SL.Sem

variable {F : FTy → Type} [FloatOps F]

/-- One entry: an array g whose row n is row (r >> 1) of the two-rows-to-a-row table, r = x[b, s] in [0, 99999], read at
    column 64·(r & 1) + d, is the reference's result at (b, s, d). -/
theorem cell (x : (⟨S4096x50, .i32⟩ : BufTy).Contents (Elt F)) (hx : ∀ i, 0 ≤ (x i).toInt ∧ (x i).toInt ≤ 99999)
    (w : (⟨S100000x64, .f32⟩ : BufTy).Contents (Elt F)) (b : Fin 4096) (s : Fin 50) (d : Fin 64) (n : Fin 40960)
    (g : S40960x128.Idx → Elt F .f32)
    (hg : ∀ col : Fin 128, g (ix2 n col)
      = Pre.tblFn w (ix2 (⟨(IntOp.shrsi .host (x (ix2 b s)) 1#32).toNat, Pre.shr_lt .host _ (hx _).1 (hx _).2⟩ : Fin 50000) col)) :
    (if (x (ix2 b s) &&& 1#32) = 1#32 then g (ix2 n (⟨64 + d.val, by omega⟩ : Fin 128)) else g (ix2 n (⟨d.val, by omega⟩ : Fin 128)))
      = Ref.out x w (ix3 b s d) := by
  have h0 := (hx (ix2 b s)).1
  have h1 := (hx (ix2 b s)).2
  obtain ⟨e1, e2, e3⟩ := Val.half_facts .host (x (ix2 b s)) h0 h1
  refine Eq.trans ?_ ((Val.tblFn_apply w .host (x (ix2 b s)) h0 h1 d).trans (Val.out_apply x hx w b s d).symm)
  by_cases hb : (x (ix2 b s) &&& 1#32) = 1#32
  · rw [if_pos hb, hg]
    refine congrArg (Pre.tblFn w) (funext fun a => ?_)
    match a with
    | ⟨0, _⟩ => rfl
    | ⟨1, _⟩ =>
      refine Fin.ext ?_
      show 64 + d.val = 64 * (x (ix2 b s) &&& 1#32).toNat + d.val
      rw [hb]; rfl
  · rw [if_neg hb, hg]
    have hne : (x (ix2 b s) &&& 1#32).toNat ≠ 1 := fun h => hb (BitVec.eq_of_toNat_eq (by rw [h]; rfl))
    have hz : (x (ix2 b s) &&& 1#32).toNat = 0 := by omega
    refine congrArg (Pre.tblFn w) (funext fun a => ?_)
    match a with
    | ⟨0, _⟩ => rfl
    | ⟨1, _⟩ =>
      refine Fin.ext ?_
      show d.val = 64 * (x (ix2 b s) &&& 1#32).toNat + d.val
      rw [hz]; omega

variable (Wt : Dev nD → Valuation τ sig (Elt F)) (c : Dev nD)
  (x : (⟨S4096x50, .i32⟩ : BufTy).Contents (Elt F)) (w : (⟨S100000x64, .f32⟩ : BufTy).Contents (Elt F))
  (hx : ∀ i, 0 ≤ (x i).toInt ∧ (x i).toInt ≤ 99999)

/-- The rows call 0 writes. -/
theorem res_at0 (hxt : Wt c (Proc.devRef .tc main_v2) = Idx.xtFn0 x)
    (hres : Wt c (Proc.devRef .tc main_v6) = KV.T0.gcan (Pre.tblFn w) (Pre.idxFn0 x) (Pre.idx_lt0 x hx))
    (b : Fin 4096) (i : Fin 10) (d : Fin 64) :
    Chain.finW Wt c (ix3 b (⟨0 + i.val, by omega⟩ : Fin 50) d) = Ref.out x w (ix3 b (⟨0 + i.val, by omega⟩ : Fin 50) d) := by
  rw [Chain.W11_out0 Wt c b i d]
  have hxt' : Chain.xtW0 Wt c (ix2 i b) = x (ix2 b (⟨0 + i.val, by omega⟩ : Fin 50)) :=
    (congrFun hxt (ix2 i b)).trans (Idx.xt_apply0 x i b)
  rw [hxt']
  refine cell x hx w b _ d (⟨4096 * i.val + b.val, by omega⟩ : Fin 40960) (Chain.resW0 Wt c) fun col => ?_
  refine (congrFun hres (ix2 (⟨4096 * i.val + b.val, by omega⟩ : Fin 40960) col)).trans ?_
  unfold KV.T0.gcan
  refine congrArg (Pre.tblFn w) (funext fun a => ?_)
  match a with
  | ⟨0, _⟩ => exact Fin.ext (congrArg BitVec.toNat (Idx.idx_flat0 x i b))
  | ⟨1, _⟩ => rfl

/-- The rows call 1 writes. -/
theorem res_at1 (hxt : Wt c (Proc.devRef .tc main_v8) = Idx.xtFn1 x)
    (hres : Wt c (Proc.devRef .tc main_v12) = KV.T1.gcan (Pre.tblFn w) (Pre.idxFn1 x) (Pre.idx_lt1 x hx))
    (b : Fin 4096) (i : Fin 10) (d : Fin 64) :
    Chain.finW Wt c (ix3 b (⟨10 + i.val, by omega⟩ : Fin 50) d) = Ref.out x w (ix3 b (⟨10 + i.val, by omega⟩ : Fin 50) d) := by
  rw [Chain.W11_out1 Wt c b i d]
  have hxt' : Chain.xtW1 Wt c (ix2 i b) = x (ix2 b (⟨10 + i.val, by omega⟩ : Fin 50)) :=
    (congrFun hxt (ix2 i b)).trans (Idx.xt_apply1 x i b)
  rw [hxt']
  refine cell x hx w b _ d (⟨4096 * i.val + b.val, by omega⟩ : Fin 40960) (Chain.resW1 Wt c) fun col => ?_
  refine (congrFun hres (ix2 (⟨4096 * i.val + b.val, by omega⟩ : Fin 40960) col)).trans ?_
  unfold KV.T1.gcan
  refine congrArg (Pre.tblFn w) (funext fun a => ?_)
  match a with
  | ⟨0, _⟩ => exact Fin.ext (congrArg BitVec.toNat (Idx.idx_flat1 x i b))
  | ⟨1, _⟩ => rfl

/-- The rows call 2 writes. -/
theorem res_at2 (hxt : Wt c (Proc.devRef .tc main_v14) = Idx.xtFn2 x)
    (hres : Wt c (Proc.devRef .tc main_v18) = KV.T2.gcan (Pre.tblFn w) (Pre.idxFn2 x) (Pre.idx_lt2 x hx))
    (b : Fin 4096) (i : Fin 10) (d : Fin 64) :
    Chain.finW Wt c (ix3 b (⟨20 + i.val, by omega⟩ : Fin 50) d) = Ref.out x w (ix3 b (⟨20 + i.val, by omega⟩ : Fin 50) d) := by
  rw [Chain.W11_out2 Wt c b i d]
  have hxt' : Chain.xtW2 Wt c (ix2 i b) = x (ix2 b (⟨20 + i.val, by omega⟩ : Fin 50)) :=
    (congrFun hxt (ix2 i b)).trans (Idx.xt_apply2 x i b)
  rw [hxt']
  refine cell x hx w b _ d (⟨4096 * i.val + b.val, by omega⟩ : Fin 40960) (Chain.resW2 Wt c) fun col => ?_
  refine (congrFun hres (ix2 (⟨4096 * i.val + b.val, by omega⟩ : Fin 40960) col)).trans ?_
  unfold KV.T2.gcan
  refine congrArg (Pre.tblFn w) (funext fun a => ?_)
  match a with
  | ⟨0, _⟩ => exact Fin.ext (congrArg BitVec.toNat (Idx.idx_flat2 x i b))
  | ⟨1, _⟩ => rfl

/-- The rows call 3 writes. -/
theorem res_at3 (hxt : Wt c (Proc.devRef .tc main_v20) = Idx.xtFn3 x)
    (hres : Wt c (Proc.devRef .tc main_v24) = KV.T3.gcan (Pre.tblFn w) (Pre.idxFn3 x) (Pre.idx_lt3 x hx))
    (b : Fin 4096) (i : Fin 10) (d : Fin 64) :
    Chain.finW Wt c (ix3 b (⟨30 + i.val, by omega⟩ : Fin 50) d) = Ref.out x w (ix3 b (⟨30 + i.val, by omega⟩ : Fin 50) d) := by
  rw [Chain.W11_out3 Wt c b i d]
  have hxt' : Chain.xtW3 Wt c (ix2 i b) = x (ix2 b (⟨30 + i.val, by omega⟩ : Fin 50)) :=
    (congrFun hxt (ix2 i b)).trans (Idx.xt_apply3 x i b)
  rw [hxt']
  refine cell x hx w b _ d (⟨4096 * i.val + b.val, by omega⟩ : Fin 40960) (Chain.resW3 Wt c) fun col => ?_
  refine (congrFun hres (ix2 (⟨4096 * i.val + b.val, by omega⟩ : Fin 40960) col)).trans ?_
  unfold KV.T3.gcan
  refine congrArg (Pre.tblFn w) (funext fun a => ?_)
  match a with
  | ⟨0, _⟩ => exact Fin.ext (congrArg BitVec.toNat (Idx.idx_flat3 x i b))
  | ⟨1, _⟩ => rfl

/-- The rows call 4 writes. -/
theorem res_at4 (hxt : Wt c (Proc.devRef .tc main_v26) = Idx.xtFn4 x)
    (hres : Wt c (Proc.devRef .tc main_v30) = KV.T4.gcan (Pre.tblFn w) (Pre.idxFn4 x) (Pre.idx_lt4 x hx))
    (b : Fin 4096) (i : Fin 10) (d : Fin 64) :
    Chain.finW Wt c (ix3 b (⟨40 + i.val, by omega⟩ : Fin 50) d) = Ref.out x w (ix3 b (⟨40 + i.val, by omega⟩ : Fin 50) d) := by
  rw [Chain.W11_out4 Wt c b i d]
  have hxt' : Chain.xtW4 Wt c (ix2 i b) = x (ix2 b (⟨40 + i.val, by omega⟩ : Fin 50)) :=
    (congrFun hxt (ix2 i b)).trans (Idx.xt_apply4 x i b)
  rw [hxt']
  refine cell x hx w b _ d (⟨4096 * i.val + b.val, by omega⟩ : Fin 40960) (Chain.resW4 Wt c) fun col => ?_
  refine (congrFun hres (ix2 (⟨4096 * i.val + b.val, by omega⟩ : Fin 40960) col)).trans ?_
  unfold KV.T4.gcan
  refine congrArg (Pre.tblFn w) (funext fun a => ?_)
  match a with
  | ⟨0, _⟩ => exact Fin.ext (congrArg BitVec.toNat (Idx.idx_flat4 x i b))
  | ⟨1, _⟩ => rfl

/-- THE TWO RESULTS ARE ONE ARRAY: the last part's result, from transposed row numbers and gathered pairs that are what the
    host operations and the gather calls make of the arguments, is the reference's result of the arguments. -/
theorem res_eq
    (hxt0 : Wt c (Proc.devRef .tc main_v2) = Idx.xtFn0 x)
    (hxt1 : Wt c (Proc.devRef .tc main_v8) = Idx.xtFn1 x)
    (hxt2 : Wt c (Proc.devRef .tc main_v14) = Idx.xtFn2 x)
    (hxt3 : Wt c (Proc.devRef .tc main_v20) = Idx.xtFn3 x)
    (hxt4 : Wt c (Proc.devRef .tc main_v26) = Idx.xtFn4 x)
    (hres0 : Wt c (Proc.devRef .tc main_v6) = KV.T0.gcan (Pre.tblFn w) (Pre.idxFn0 x) (Pre.idx_lt0 x hx))
    (hres1 : Wt c (Proc.devRef .tc main_v12) = KV.T1.gcan (Pre.tblFn w) (Pre.idxFn1 x) (Pre.idx_lt1 x hx))
    (hres2 : Wt c (Proc.devRef .tc main_v18) = KV.T2.gcan (Pre.tblFn w) (Pre.idxFn2 x) (Pre.idx_lt2 x hx))
    (hres3 : Wt c (Proc.devRef .tc main_v24) = KV.T3.gcan (Pre.tblFn w) (Pre.idxFn3 x) (Pre.idx_lt3 x hx))
    (hres4 : Wt c (Proc.devRef .tc main_v30) = KV.T4.gcan (Pre.tblFn w) (Pre.idxFn4 x) (Pre.idx_lt4 x hx)) :
    Tail.W11 Wt c (Proc.devRef .tc main_v41) = Ref.out x w := by
  show Chain.finW Wt c = Ref.out x w
  funext j
  obtain ⟨b, s, d, rfl⟩ : ∃ (b : Fin 4096) (s : Fin 50) (d : Fin 64), j = ix3 b s d := ⟨j 0, j 1, j 2, eq_ix3 j⟩
  have hs : s.val < 50 := s.isLt
  by_cases h0 : s.val < 10
  · have es : s = (⟨0 + (⟨s.val, h0⟩ : Fin 10).val, by omega⟩ : Fin 50) := Fin.ext (by show s.val = 0 + s.val; omega)
    rw [es]
    exact res_at0 Wt c x w hx hxt0 hres0 b (⟨s.val, h0⟩ : Fin 10) d
  by_cases h1 : s.val < 20
  · have es : s = (⟨10 + (⟨s.val - 10, by omega⟩ : Fin 10).val, by omega⟩ : Fin 50) := Fin.ext (by show s.val = 10 + (s.val - 10); omega)
    rw [es]
    exact res_at1 Wt c x w hx hxt1 hres1 b (⟨s.val - 10, by omega⟩ : Fin 10) d
  by_cases h2 : s.val < 30
  · have es : s = (⟨20 + (⟨s.val - 20, by omega⟩ : Fin 10).val, by omega⟩ : Fin 50) := Fin.ext (by show s.val = 20 + (s.val - 20); omega)
    rw [es]
    exact res_at2 Wt c x w hx hxt2 hres2 b (⟨s.val - 20, by omega⟩ : Fin 10) d
  by_cases h3 : s.val < 40
  · have es : s = (⟨30 + (⟨s.val - 30, by omega⟩ : Fin 10).val, by omega⟩ : Fin 50) := Fin.ext (by show s.val = 30 + (s.val - 30); omega)
    rw [es]
    exact res_at3 Wt c x w hx hxt3 hres3 b (⟨s.val - 30, by omega⟩ : Fin 10) d
  · have es : s = (⟨40 + (⟨s.val - 40, by omega⟩ : Fin 10).val, by omega⟩ : Fin 50) := Fin.ext (by show s.val = 40 + (s.val - 40); omega)
    rw [es]
    exact res_at4 Wt c x w hx hxt4 hres4 b (⟨s.val - 40, by omega⟩ : Fin 10) d

end Cert.Proof.KV.Res

end
-- ==== Proof.KVFinal.lean ====
/-
  The value of the result. Each gather call leaves in its result array, at row `n`, the table row its row number
  `n` names; the transposing calls and the final transpose put, at `[b, s, :]`, the half of the gathered pair the
  low bit of `x[b, s]` selects — row `x[b, s]` of the weights —, which is what the reference gathers.
-/
import proofs.«205068_g58248346468665_cont_9to1c4b_383_29_alg».proof.Proof.KVLaunch
import proofs.«205068_g58248346468665_cont_9to1c4b_383_29_alg».proof.Proof.KVCanon0
import proofs.«205068_g58248346468665_cont_9to1c4b_383_29_alg».proof.Proof.KVCanon1
import proofs.«205068_g58248346468665_cont_9to1c4b_383_29_alg».proof.Proof.KVCanon2
import proofs.«205068_g58248346468665_cont_9to1c4b_383_29_alg».proof.Proof.KVCanon3
import proofs.«205068_g58248346468665_cont_9to1c4b_383_29_alg».proof.Proof.KVCanon4
import proofs.«205068_g58248346468665_cont_9to1c4b_383_29_alg».proof.Proof.KVRes

noncomputable section

namespace Cert.Proof.KV

open Cert.KernelIdeal Cert.KernelIdeal.Gen Cert.Proof.KI
open Idealize.ShloMosaic Idealize.SL.Sem

variable {F : FTy → Type} [FloatOps F]

variable (m : (ℓ : Loc nD τ sig) → Buf (Elt F) ℓ) (ρ : Dev nD → PrngReg)
variable (hx : ∀ d : Dev nD, ∀ i, 0 ≤ ((m (d, (Proc.devRef .tc (main_arg0 : Ref sig .tc)))) i).toInt ∧ ((m (d, (Proc.devRef .tc (main_arg0 : Ref sig .tc)))) i).toInt ≤ 99999)

/-- What gather call 0 leaves in its result array. -/
abbrev gq0 (d : Dev nD) : (⟨S40960x128, .f32⟩ : BufTy).Contents (Elt F) :=
  KV.T0.gcan (KI.Pre.tblFn (m (d, (Proc.devRef .tc (main_arg1 : Ref sig .tc))))) (KI.Pre.idxFn0 (m (d, (Proc.devRef .tc (main_arg0 : Ref sig .tc))))) (KI.Pre.idx_lt0 _ (hx d))
/-- What gather call 1 leaves in its result array. -/
abbrev gq1 (d : Dev nD) : (⟨S40960x128, .f32⟩ : BufTy).Contents (Elt F) :=
  KV.T1.gcan (KI.Pre.tblFn (m (d, (Proc.devRef .tc (main_arg1 : Ref sig .tc))))) (KI.Pre.idxFn1 (m (d, (Proc.devRef .tc (main_arg0 : Ref sig .tc))))) (KI.Pre.idx_lt1 _ (hx d))
/-- What gather call 2 leaves in its result array. -/
abbrev gq2 (d : Dev nD) : (⟨S40960x128, .f32⟩ : BufTy).Contents (Elt F) :=
  KV.T2.gcan (KI.Pre.tblFn (m (d, (Proc.devRef .tc (main_arg1 : Ref sig .tc))))) (KI.Pre.idxFn2 (m (d, (Proc.devRef .tc (main_arg0 : Ref sig .tc))))) (KI.Pre.idx_lt2 _ (hx d))
/-- What gather call 3 leaves in its result array. -/
abbrev gq3 (d : Dev nD) : (⟨S40960x128, .f32⟩ : BufTy).Contents (Elt F) :=
  KV.T3.gcan (KI.Pre.tblFn (m (d, (Proc.devRef .tc (main_arg1 : Ref sig .tc))))) (KI.Pre.idxFn3 (m (d, (Proc.devRef .tc (main_arg0 : Ref sig .tc))))) (KI.Pre.idx_lt3 _ (hx d))
/-- What gather call 4 leaves in its result array. -/
abbrev gq4 (d : Dev nD) : (⟨S40960x128, .f32⟩ : BufTy).Contents (Elt F) :=
  KV.T4.gcan (KI.Pre.tblFn (m (d, (Proc.devRef .tc (main_arg1 : Ref sig .tc))))) (KI.Pre.idxFn4 (m (d, (Proc.devRef .tc (main_arg0 : Ref sig .tc))))) (KI.Pre.idx_lt4 _ (hx d))

theorem preOK : KV.PreOK (CM m (gq0 m hx) (gq1 m hx) (gq2 m hx) (gq3 m hx) (gq4 m hx)) where
  lt0 := fun d L j => KI.Pre.read_lt0 _ (hx d) L j
  gc0 := fun d L X hX hXr k r f h => KV.T0.chunk_canon d L _ _ (KI.Pre.idx_lt0 _ (hx d)) X hX hXr k r f h
  lt1 := fun d L j => KI.Pre.read_lt1 _ (hx d) L j
  gc1 := fun d L X hX hXr k r f h => KV.T1.chunk_canon d L _ _ (KI.Pre.idx_lt1 _ (hx d)) X hX hXr k r f h
  lt2 := fun d L j => KI.Pre.read_lt2 _ (hx d) L j
  gc2 := fun d L X hX hXr k r f h => KV.T2.chunk_canon d L _ _ (KI.Pre.idx_lt2 _ (hx d)) X hX hXr k r f h
  lt3 := fun d L j => KI.Pre.read_lt3 _ (hx d) L j
  gc3 := fun d L X hX hXr k r f h => KV.T3.chunk_canon d L _ _ (KI.Pre.idx_lt3 _ (hx d)) X hX hXr k r f h
  lt4 := fun d L j => KI.Pre.read_lt4 _ (hx d) L j
  gc4 := fun d L X hX hXr k r f h => KV.T4.chunk_canon d L _ _ (KI.Pre.idx_lt4 _ (hx d)) X hX hXr k r f h

/-- The result array ends at what the reference computes from the same arguments. -/
theorem res_eq (d : Dev nD) :
    resVal m (gq0 m hx) (gq1 m hx) (gq2 m hx) (gq3 m hx) (gq4 m hx) d = Ref.out (m (d, (Proc.devRef .tc (main_arg0 : Ref sig .tc)))) (m (d, (Proc.devRef .tc (main_arg1 : Ref sig .tc)))) :=
  Res.res_eq _ d _ _ (hx d)
    (B4_xt0 m d _ _ _ _ _)
    (B4_xt1 m d _ _ _ _ _)
    (B4_xt2 m d _ _ _ _ _)
    (B4_xt3 m d _ _ _ _ _)
    (B4_xt4 m d _ _ _ _ _)
    (B4_res0 m d _ _ _ _ _)
    (B4_res1 m d _ _ _ _ _)
    (B4_res2 m d _ _ _ _ _)
    (B4_res3 m d _ _ _ _ _)
    (B4_res4 m d _ _ _ _ _)

include hx in
theorem run_value [∀ e, Nonempty (Elt F e)] :
    θ_run (Cert.KernelIdeal.defs (F := F)) (Cert.KernelIdeal.threads (F := F)) ⟨m, fun _ => 0, ρ⟩ (fun r => ∀ c : Dev nD,
      r.2.mem ((SparseCore.T c : Thread nD τ).loc main_v41) = Ref.out (m (c, (Proc.devRef .tc (main_arg0 : Ref sig .tc)))) (m (c, (Proc.devRef .tc (main_arg1 : Ref sig .tc))))
        ∧ r.2.mem ((SparseCore.T c : Thread nD τ).loc main_arg0) = m ((SparseCore.T c : Thread nD τ).loc main_arg0)
        ∧ r.2.mem ((SparseCore.T c : Thread nD τ).loc main_arg1) = m ((SparseCore.T c : Thread nD τ).loc main_arg1)) :=
  (θ_run _ _ _).mono (fun _ h c => ⟨((h c).1).trans (res_eq m hx c), (h c).2.1, (h c).2.2⟩)
    (run_main m ρ (gq0 m hx) (gq1 m hx) (gq2 m hx) (gq3 m hx) (gq4 m hx) (preOK m hx))

end Cert.Proof.KV

end
-- ==== Proof.lean ====
/- The proof of `Cert.Claim` (proofs.«205068_g58248346468665_cont_9to1c4b_383_29_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«205068_g58248346468665_cont_9to1c4b_383_29_alg».proof.Defs
import proofs.«205068_g58248346468665_cont_9to1c4b_383_29_alg».proof.Proof.Gen.Kernel
import proofs.«205068_g58248346468665_cont_9to1c4b_383_29_alg».proof.Proof.Gen.Kernel.Skeleton
import proofs.«205068_g58248346468665_cont_9to1c4b_383_29_alg».proof.Proof.Gen.Kernel.Launch
import proofs.«205068_g58248346468665_cont_9to1c4b_383_29_alg».proof.Proof.Gen.Kernel.Regions
import proofs.«205068_g58248346468665_cont_9to1c4b_383_29_alg».proof.Proof.Gen.Kernel.Points
import proofs.«205068_g58248346468665_cont_9to1c4b_383_29_alg».proof.Proof.Gen.KernelIdeal
import proofs.«205068_g58248346468665_cont_9to1c4b_383_29_alg».proof.Proof.Gen.KernelIdeal.Skeleton
import proofs.«205068_g58248346468665_cont_9to1c4b_383_29_alg».proof.Proof.Gen.KernelIdeal.Launch
import proofs.«205068_g58248346468665_cont_9to1c4b_383_29_alg».proof.Proof.Gen.KernelIdeal.Regions
import proofs.«205068_g58248346468665_cont_9to1c4b_383_29_alg».proof.Proof.Gen.KernelIdeal.Points
import proofs.«205068_g58248346468665_cont_9to1c4b_383_29_alg».proof.Proof.Gen.ReferenceIdeal
import proofs.«205068_g58248346468665_cont_9to1c4b_383_29_alg».proof.Proof.Gen.Pre_input_domain
import proofs.«205068_g58248346468665_cont_9to1c4b_383_29_alg».proof.Proof.KILaunch
import proofs.«205068_g58248346468665_cont_9to1c4b_383_29_alg».proof.Proof.KBLaunch
import proofs.«205068_g58248346468665_cont_9to1c4b_383_29_alg».proof.Proof.RefRun
import proofs.«205068_g58248346468665_cont_9to1c4b_383_29_alg».proof.Proof.KVFinal
import Idealize.ShloMosaic.Adequacy
import Idealize.ShloMosaic.Init

noncomputable section

namespace Cert.Proof

open Idealize.ShloMosaic Idealize.SL.Sem

/-- The kernel as compiled, at the bit-exact instance: it runs, and leaves its two arguments as launched. The
    precondition gives every row number of `x` in [0, 99999], so every halved row number names a row of the table. -/
theorem frame_k : Cert.frame_Kernel := fun m ρ hpre =>
  (θ_run Cert.Kernel.defs _ _).mono (fun _ h c => h c)
    (KB.run_main (F := Bits) m ρ (KB.preOK m fun d => KI.Pre.x_range_of_pre_bits m hpre d))

/-- The same program read at the ideal instance. -/
theorem frame_ki : Cert.frame_KernelIdeal := fun m ρ hpre =>
  (θ_run Cert.KernelIdeal.defs _ _).mono (fun _ h c => h c)
    (KI.run_main (F := Ideal) m ρ (KI.preOK m fun d => KI.Pre.x_range_of_pre_ideal m hpre d))

/-- The idealization rewrote no operation. -/
theorem preserves : Cert.preserves_Kernel_KernelIdeal := trivial

/-- At the ideal instance, from memories agreeing on the arguments: the kernel's result and the reference's are the
    one array `weight[x[b, s], :]`. -/
theorem algebraic : Cert.algebraic_KernelIdeal_ReferenceIdeal := by
  intro m ρ m' ρ' hpre hagree
  have hx := fun d => KI.Pre.x_range_of_pre_ideal m hpre d
  refine ⟨fun c => Ref.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c => h c) (KV.run_value (F := Ideal) m ρ hx), ?_⟩
  refine (θ_run Cert.ReferenceIdeal.defs _ _).mono (fun _ h c => ⟨(h c).1.trans ?_, (h c).2.1, (h c).2.2⟩) (Ref.run (F := Ideal) m' ρ')
  rw [(hagree c).1, (hagree c).2]

theorem claim : Cert.Claim := ⟨Cert.Kernel.Gen.facts, Cert.KernelIdeal.Gen.facts, Cert.ReferenceIdeal.Gen.facts, Cert.Pre_input_domain.Gen.facts,
  frame_k, frame_ki, Ref.frame_ri, preserves, algebraic⟩

end Cert.Proof

end
